-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![16384, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![16384, 256]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 256]⟩ ⟨2, ![16384, 256]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![16384, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) (main_arg1 : FVec F S2048x256 .f32) (main_arg2 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  main_v13
-- ==== Pre_finite_inputs_ReferenceIdeal.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) (main_arg1 : FVec F S16384x256 .f32) (main_arg2 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  main_v13
-- ==== Kernel.lean ====
abbrev S2048x256 : Shape := ⟨2, ![2048, 256]⟩
abbrev S2x2x2048x256 : Shape := ⟨4, ![2, 2, 2048, 256]⟩
abbrev S2048x1 : Shape := ⟨2, ![2048, 1]⟩
abbrev S2 : Shape := ⟨1, ![2]⟩
abbrev S_ : Shape := ⟨0, ![]⟩
abbrev S1x1x2048x256 : Shape := ⟨4, ![1, 1, 2048, 256]⟩
abbrev S1 : Shape := ⟨1, ![1]⟩
abbrev S1x2x2048x256 : Shape := ⟨4, ![1, 2, 2048, 256]⟩
abbrev S2x2048x256 : Shape := ⟨3, ![2, 2048, 256]⟩
abbrev S512x256 : Shape := ⟨2, ![512, 256]⟩
abbrev S512x2048 : Shape := ⟨2, ![512, 2048]⟩
abbrev S512x1 : Shape := ⟨2, ![512, 1]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2x2x2048x256, .bf16⟩
  | .local _ .vmem, ⟨5, _⟩ => ⟨S2x2x2048x256, .bf16⟩
  | .local _ .vmem, ⟨6, _⟩ => ⟨S2048x256, .f32⟩
  | .local _ .vmem, ⟨7, _⟩ => ⟨S2048x1, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  { ofTc nBuf bufTy 3 12 bufScoped semScoped dmaSemScoped tileCredit tileCredit_eq_zero tileCredit_pos with
    barrierSem := RefSig.barrierTable [(0, 2)]
    barrierSem_unscoped := RefSig.barrierTable_unscoped [(0, 2)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_39 : BitVec 32 := 1#32
  let v42 : BitVec 32 := Scalar.muli v7 c1_i32_39
  let v43 : BitVec 32 := Scalar.addi c0_i32_40 v42
  v43.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_51 : BitVec 32 := 1#32
  let v52 : BitVec 32 := Scalar.muli v5 c1_i32_51
  let v53 : BitVec 32 := Scalar.addi c0_i32_52 v52
  v53.toNat
def k0_dev5 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_124 : BitVec 32 := 1#32
  let v148 : BitVec 32 := Scalar.muli v5 c1_i32_124
  let v149 : BitVec 32 := Scalar.addi c0_i32_125 v148
  v149.toNat
def k0_dev6 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_150 : BitVec 32 := 1#32
  let v164 : BitVec 32 := Scalar.muli v7 c1_i32_150
  let v165 : BitVec 32 := Scalar.addi c0_i32_151 v164
  v165.toNat
def k0_dev7 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_170 : BitVec 32 := 1#32
  let v174 : BitVec 32 := Scalar.muli v7 c1_i32_170
  let v175 : BitVec 32 := Scalar.addi c0_i32_171 v174
  v175.toNat
def k0_dev8 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_184 : BitVec 32 := 1#32
  let v184 : BitVec 32 := Scalar.muli v5 c1_i32_184
  let v185 : BitVec 32 := Scalar.addi c0_i32_185 v184
  v185.toNat
def k0_dev9 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_316 : BitVec 32 := 1#32
  let v360 : BitVec 32 := Scalar.muli v5 c1_i32_316
  let v361 : BitVec 32 := Scalar.addi c0_i32_317 v360
  v361.toNat
def k0_dev10 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_342 : BitVec 32 := 1#32
  let v376 : BitVec 32 := Scalar.muli v7 c1_i32_342
  let v377 : BitVec 32 := Scalar.addi c0_i32_343 v376
  v377.toNat
def k0_dev11 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_362 : BitVec 32 := 1#32
  let v386 : BitVec 32 := Scalar.muli v7 c1_i32_362
  let v387 : BitVec 32 := Scalar.addi c0_i32_363 v386
  v387.toNat
def k0_dev12 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_376 : BitVec 32 := 1#32
  let v396 : BitVec 32 := Scalar.muli v5 c1_i32_376
  let v397 : BitVec 32 := Scalar.addi c0_i32_377 v396
  v397.toNat
def k0_dev13 (d0 : Dev nD) : Nat :=
  let c0_i32_509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_508 : BitVec 32 := 1#32
  let v572 : BitVec 32 := Scalar.muli v5 c1_i32_508
  let v573 : BitVec 32 := Scalar.addi c0_i32_509 v572
  v573.toNat
def k0_dev14 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_551 : BitVec 32 := 1#32
  let v596 : BitVec 32 := Scalar.muli v7 c1_i32_551
  let v597 : BitVec 32 := Scalar.addi c0_i32_552 v596
  v597.toNat
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  hamt_2 : (2#32 : BitVec 32).msb = false
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S2x2x2048x256_S1x1x2048x256_0_0_0_0 : ∀ a, (![0, 0, 0, 0] : Fin 4 → Nat) a + S1x1x2048x256.size a ≤ S2x2x2048x256.size a
  h_S1x1x2048x256 : 0 < S1x1x2048x256.numel
  shapeCasts_S1x1x2048x256_S2048x256 : S1x1x2048x256.ShapeCasts S2048x256
  shapeCasts_S2048x256_S1x1x2048x256 : S2048x256.ShapeCasts S1x1x2048x256
  packedbf16_S2x2x2048x256_S1x1x2048x256_0_0_0_0 : (Rect.unit (s := S2x2x2048x256) ![0, 0, 0, 0] S1x1x2048x256.size inb_S2x2x2048x256_S1x1x2048x256_0_0_0_0).PackedRows (EltTy.packing .bf16)
  inb_S2x2x2048x256_S1x1x2048x256_0_1_0_0 : ∀ a, (![0, 1, 0, 0] : Fin 4 → Nat) a + S1x1x2048x256.size a ≤ S2x2x2048x256.size a
  packedbf16_S2x2x2048x256_S1x1x2048x256_0_1_0_0 : (Rect.unit (s := S2x2x2048x256) ![0, 1, 0, 0] S1x1x2048x256.size inb_S2x2x2048x256_S1x1x2048x256_0_1_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S2x2x2048x256_S1x2x2048x256_1_0_0_0 : ∀ a, (![1, 0, 0, 0] : Fin 4 → Nat) a + S1x2x2048x256.size a ≤ S2x2x2048x256.size a
  squeezes_S1x2x2048x256_S2x2048x256 : S1x2x2048x256.Squeezes S2x2048x256
  inb_S2x2x2048x256_S1x2x2048x256_0_0_0_0 : ∀ a, (![0, 0, 0, 0] : Fin 4 → Nat) a + S1x2x2048x256.size a ≤ S2x2x2048x256.size a
  wordsbf16_S2x2x2048x256_S1x2x2048x256_0_0_0_0 : (Rect.unit (s := S2x2x2048x256) ![0, 0, 0, 0] S1x2x2048x256.size inb_S2x2x2048x256_S1x2x2048x256_0_0_0_0).WholeWords (EltTy.packing .bf16)
  wordsbf16_S2x2x2048x256_S1x2x2048x256_1_0_0_0 : (Rect.unit (s := S2x2x2048x256) ![1, 0, 0, 0] S1x2x2048x256.size inb_S2x2x2048x256_S1x2x2048x256_1_0_0_0).WholeWords (EltTy.packing .bf16)
  slices_S2048x256_o0_0_S512x256 : S2048x256.Slices ![0, 0] S512x256
  inb_S2048x1_S512x1_0_0 : ∀ a, (![0, 0] : Fin 2 → Nat) a + S512x1.size a ≤ S2048x1.size a
  h_S512x1 : 0 < S512x1.numel
  reduces_S512x2048_S512 : S512x2048.Reduces [1] S512
  shapeCasts_S512_S512x1 : S512.ShapeCasts S512x1
  shapeCasts_S512x1_S512x1 : S512x1.ShapeCasts S512x1
  inb_S2048x256_S512x256_0_0 : ∀ a, (![0, 0] : Fin 2 → Nat) a + S512x256.size a ≤ S2048x256.size a
  h_S512x256 : 0 < S512x256.numel
  shapeCasts_S512x256_S512x256 : S512x256.ShapeCasts S512x256
  slices_S2048x256_o512_0_S512x256 : S2048x256.Slices ![512, 0] S512x256
  inb_S2048x1_S512x1_512_0 : ∀ a, (![512, 0] : Fin 2 → Nat) a + S512x1.size a ≤ S2048x1.size a
  inb_S2048x256_S512x256_512_0 : ∀ a, (![512, 0] : Fin 2 → Nat) a + S512x256.size a ≤ S2048x256.size a
  slices_S2048x256_o1024_0_S512x256 : S2048x256.Slices ![1024, 0] S512x256
  inb_S2048x1_S512x1_1024_0 : ∀ a, (![1024, 0] : Fin 2 → Nat) a + S512x1.size a ≤ S2048x1.size a
  inb_S2048x256_S512x256_1024_0 : ∀ a, (![1024, 0] : Fin 2 → Nat) a + S512x256.size a ≤ S2048x256.size a
  slices_S2048x256_o1536_0_S512x256 : S2048x256.Slices ![1536, 0] S512x256
  inb_S2048x1_S512x1_1536_0 : ∀ a, (![1536, 0] : Fin 2 → Nat) a + S512x1.size a ≤ S2048x1.size a
  inb_S2048x256_S512x256_1536_0 : ∀ a, (![1536, 0] : Fin 2 → Nat) a + S512x256.size a ≤ S2048x256.size a
  inb_S2x2x2048x256_S1x1x2048x256_1_0_0_0 : ∀ a, (![1, 0, 0, 0] : Fin 4 → Nat) a + S1x1x2048x256.size a ≤ S2x2x2048x256.size a
  inb_S2x2x2048x256_S1x1x2048x256_1_1_0_0 : ∀ a, (![1, 1, 0, 0] : Fin 4 → Nat) a + S1x1x2048x256.size a ≤ S2x2x2048x256.size a
  broadcasts_S2048x1_S2048x256 : S2048x1.Broadcasts S2048x256
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  hcc0_scratch8 : 0 + S_.numel ≤ 3
  hcc0_scratch9 : 1 + S_.numel ≤ 3
  hcc0_scratch4 : 4 + S2.numel ≤ 12
  hcc0_scratch5 : 6 + S2.numel ≤ 12
  hcc0_scratch6 : 8 + S2.numel ≤ 12
  hcc0_scratch7 : 10 + S2.numel ≤ 12
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch8 : Sems sig S_ := SemArray.consecutive 0 S_ hcc0_scratch8
abbrev cc0_scratch9 : Sems sig S_ := SemArray.consecutive 1 S_ hcc0_scratch9
abbrev cc0_scratch4 : DmaSems sig S2 := SemArray.consecutive 4 S2 hcc0_scratch4
abbrev cc0_scratch5 : DmaSems sig S2 := SemArray.consecutive 6 S2 hcc0_scratch5
abbrev cc0_scratch6 : DmaSems sig S2 := SemArray.consecutive 8 S2 hcc0_scratch6
abbrev cc0_scratch7 : DmaSems sig S2 := SemArray.consecutive 10 S2 hcc0_scratch7
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x256 : Shape := ⟨2, ![16384, 256]⟩
abbrev S256x16384 : Shape := ⟨2, ![256, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S256x16384, .f32⟩
  | .hbm, ⟨4, _⟩ => ⟨S16384x16384, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x16384, .f32⟩
  | .hbm, ⟨9, _⟩ => ⟨S16384x16384, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x16384, .f32⟩
  | .hbm, ⟨20, _⟩ => ⟨S16384x16384, .f32⟩
  | .hbm, ⟨21, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S16384x256_S256x16384_1_0 : S16384x256.Transposes [1, 0] S256x16384
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  dot_S16384x256_S256x16384_S16384x16384_1_0_0_1_n_n_wf : DotDims.WF S16384x256 S256x16384 S16384x16384 [1] [0] [0] [1] [] []
  dot_S16384x16384_S16384x256_S16384x256_1_0_0_1_n_n_wf : DotDims.WF S16384x16384 S16384x256 S16384x256 [1] [0] [0] [1] [] []

variable [Facts₀]

def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf

class Facts : Prop extends Facts₀ where

variable [Facts]
-- ==== Proof.AttnSpec.lean ====
/-
  Ring attention on eight devices, as mathematics.  Device `c` holds block `c` (2048 rows) of the queries, keys
  and values.  For a query row `r` of the device's block and a key row `j` of key block `s`, the unnormalised
  weight is  w = exp ((∑ₑ q r e · kₛ j e) · 2⁻⁴)  (the scale 1/√256 is the dyadic 1/16).  The device's result at
  (r, d) is the quotient of  ∑ₛ ∑ⱼ w · vₛ j d  by  ∑ₛ ∑ⱼ w : the softmax-weighted mean of the value rows, written
  without subtracting the row maximum.  On finite inputs every w is a positive real, both sums are real and the
  denominator is positive, so the quotient is the softmax with the maximum subtracted (the factor exp (−max)
  cancels).
-/
import Idealize.ShloMosaic.PureOps.Ideal
import Idealize.ShloMosaic.Lib.ValueIdx
import Idealize.ShloMosaic.Lib.Layout

noncomputable section

namespace Cert.Attn

open Idealize.ShloMosaic Idealize.ShloMosaic.ValueIdx

/-- One device's block of an argument or of the result: 2048 rows of 256. -/
abbrev Blk : Shape := ⟨2, ![2048, 256]⟩
/-- A whole argument array: 16384 rows of 256, eight blocks along the rows. -/
abbrev All : Shape := ⟨2, ![16384, 256]⟩

/-- The unnormalised weight of key row `j` (of one key block `k`) for query row `r`:
    exp of the scaled inner product, the scale the word of 2⁻⁴. -/
def wgt (q k : Blk.Idx → EReal) (r j : Fin 2048) : EReal :=
  Ideal.exp ((∑ e : Fin 256, q (ix2 r e) * k (ix2 j e)) * Ideal.ofBits .f32 0x3D800000#32)

/-- What one key/value block adds to a row's denominator: the weights of its 2048 key rows. -/
def denPart (q k : Blk.Idx → EReal) (r : Fin 2048) : EReal :=
  ∑ j : Fin 2048, wgt q k r j

/-- What one key/value block adds to a row's numerator at column `d`. -/
def numPart (q k v : Blk.Idx → EReal) (r : Fin 2048) (d : Fin 256) : EReal :=
  ∑ j : Fin 2048, wgt q k r j * v (ix2 j d)

/-- The denominator of query row `r`: the weights of every key row of every block. -/
def den (q : Blk.Idx → EReal) (ks : Fin 8 → Blk.Idx → EReal) (r : Fin 2048) : EReal :=
  ∑ s : Fin 8, denPart q (ks s) r

/-- The numerator of query row `r` at column `d`. -/
def num (q : Blk.Idx → EReal) (ks vs : Fin 8 → Blk.Idx → EReal) (r : Fin 2048) (d : Fin 256) : EReal :=
  ∑ s : Fin 8, numPart q (ks s) (vs s) r d

/-- The device's result block: numerator over denominator, entry by entry. -/
def out (q : Blk.Idx → EReal) (ks vs : Fin 8 → Blk.Idx → EReal) : Blk.Idx → EReal :=
  fun i => Ideal.div (num q ks vs (i 0) (i 1)) (den q ks (i 0))

end Cert.Attn

end
-- ==== Proof.AttnRefTerm.lean ====
/-
  The reference program's result, as one function of its three argument arrays.

  The reference computes, for 16384 query rows against 16384 key rows of width 256,
  scores = (Q · Kᵀ) / √256, subtracts each row's maximum, exponentiates, divides each row by its sum and
  multiplies by V.  `refTerm Q K V` is that composition, operation by operation, at the extended reals; the
  run of the reference leaves exactly this term in its result buffer.
-/
import proofs.«900462_g7700000000000463_dist_ring_attn_i_s2048_d256_v7x_i8_f32_1_alg».proof.Proof.Gen.ReferenceIdeal.Read
import proofs.«900462_g7700000000000463_dist_ring_attn_i_s2048_d256_v7x_i8_f32_1_alg».proof.Proof.AttnSpec

noncomputable section

namespace Cert.AttnRef

open Cert.ReferenceIdeal Cert.ReferenceIdeal.Gen Idealize.ShloMosaic Idealize.ShloMosaic.TcCoe Idealize.SL.Sem Idealize.ShloMosaic.StableHlo

/-- The reference's result as a function of the three whole arrays: the last stage of the program,
    each earlier stage nested inside it. -/
def refTerm (Q K V : Cert.Attn.All.Idx → EReal) : Cert.Attn.All.Idx → EReal :=
  Cert.ReferenceIdeal.Read.val_main_v15 (F := Ideal) Q K V

theorem refTerm_def (Q K V : Cert.Attn.All.Idx → EReal) :
    refTerm Q K V = Cert.ReferenceIdeal.Read.val_main_v15 (F := Ideal) Q K V := rfl

/-- The composed term at the launch contents of the three argument buffers on device `c`, for any float
    values: it is the last stage of the program applied to those contents. -/
theorem run_term_eq {F : FTy → Type} [FloatOps F] (m : (ℓ : Loc nD τ sig) → Buf (Elt F) ℓ) (c : Dev nD) :
    Host.dotGeneral dot_S16384x16384_S16384x256_S16384x256_1_0_0_1_n_n none (Host.divf (Host.exp (subf (Host.divf (Host.dotGeneral dot_S16384x256_S256x16384_S16384x16384_1_0_0_1_n_n none (m ((c.tc : Thread nD τ).loc main_arg0)) (transpose S256x16384 [1, 0] (m ((c.tc : Thread nD τ).loc main_arg1)) transposes_S16384x256_S256x16384_1_0)) (broadcastInDim S16384x16384 ![] bcast_S_S16384x16384 (id (Host.sqrt (constant S_ .f32 0x43800000#32))))) (broadcastInDim S16384x16384 ![0, 1] bcast_S16384x1_S16384x16384_0_1 (broadcastInDim S16384x1 ![0] bcast_S16384_S16384x1_0 (Host.reduce FloatOps.maximumf (Host.divf (Host.dotGeneral dot_S16384x256_S256x16384_S16384x16384_1_0_0_1_n_n none (m ((c.tc : Thread nD τ).loc main_arg0)) (transpose S256x16384 [1, 0] (m ((c.tc : Thread nD τ).loc main_arg1)) transposes_S16384x256_S256x16384_1_0)) (broadcastInDim S16384x16384 ![] bcast_S_S16384x16384 (id (Host.sqrt (constant S_ .f32 0x43800000#32))))) (constant S_ .f32 0xFF800000#32) reducesTo_S16384x16384_S16384_d1 h_S_))))) (broadcastInDim S16384x16384 ![0, 1] bcast_S16384x1_S16384x16384_0_1 (broadcastInDim S16384x1 ![0] bcast_S16384_S16384x1_0 (Host.reduceAdd (Host.exp (subf (Host.divf (Host.dotGeneral dot_S16384x256_S256x16384_S16384x16384_1_0_0_1_n_n none (m ((c.tc : Thread nD τ).loc main_arg0)) (transpose S256x16384 [1, 0] (m ((c.tc : Thread nD τ).loc main_arg1)) transposes_S16384x256_S256x16384_1_0)) (broadcastInDim S16384x16384 ![] bcast_S_S16384x16384 (id (Host.sqrt (constant S_ .f32 0x43800000#32))))) (broadcastInDim S16384x16384 ![0, 1] bcast_S16384x1_S16384x16384_0_1 (broadcastInDim S16384x1 ![0] bcast_S16384_S16384x1_0 (Host.reduce FloatOps.maximumf (Host.divf (Host.dotGeneral dot_S16384x256_S256x16384_S16384x16384_1_0_0_1_n_n none (m ((c.tc : Thread nD τ).loc main_arg0)) (transpose S256x16384 [1, 0] (m ((c.tc : Thread nD τ).loc main_arg1)) transposes_S16384x256_S256x16384_1_0)) (broadcastInDim S16384x16384 ![] bcast_S_S16384x16384 (id (Host.sqrt (constant S_ .f32 0x43800000#32))))) (constant S_ .f32 0xFF800000#32) reducesTo_S16384x16384_S16384_d1 h_S_))))) (constant S_ .f32 0x00000000#32) reducesTo_S16384x16384_S16384_d1 h_S_)))) (m ((c.tc : Thread nD τ).loc main_arg2))
      = Cert.ReferenceIdeal.Read.val_main_v15 (F := F) (m ((c.tc : Thread nD τ).loc main_arg0)) (m ((c.tc : Thread nD τ).loc main_arg1)) (m ((c.tc : Thread nD τ).loc main_arg2)) := rfl

/-- At the extended reals: the term the reference's run leaves in its result buffer on device `c` is
    `refTerm` of the three arguments' launch contents.  (The statement is `run_term_eq`'s at the ideal
    values, with its right side folded to `refTerm`.) -/
theorem run_eq (m : (ℓ : Loc nD τ sig) → Buf (Elt Ideal) ℓ) (c : Dev nD) :
    type_of% ((run_term_eq (F := Ideal) m c).trans
      (refTerm_def (m ((c.tc : Thread nD τ).loc main_arg0)) (m ((c.tc : Thread nD τ).loc main_arg1)) (m ((c.tc : Thread nD τ).loc main_arg2))).symm) :=
  (run_term_eq (F := Ideal) m c).trans (refTerm_def _ _ _).symm

end Cert.AttnRef

end

/-- info: 'Cert.AttnRef.run_eq' depends on axioms: [propext, Classical.choice, Quot.sound] -/
#guard_msgs in #print axioms Cert.AttnRef.run_eq
-- ==== Proof.AttnRefAt.lean ====
/-
  The reference's result at one entry, as a closed formula of the three whole arrays.

  Row R of the result depends on query row R and on every key and value row.  With
    score R k = (∑ₑ Q(R,e) · K(k,e)) / √256,     rowMax R = the largest score of row R (from −∞),
    ew R k    = exp (score R k − rowMax R),       rowSum R = 0 + ∑ₖ ew R k,
  the entry (R, d) is  ∑ₖ (ew R k / rowSum R) · V(k, d).  Each stage of the program is read at an index from the
  stage before it; the row maximum is the fold of max along the key axis.
-/
import proofs.«900462_g7700000000000463_dist_ring_attn_i_s2048_d256_v7x_i8_f32_1_alg».proof.Proof.AttnRefTerm

noncomputable section

namespace Cert.AttnRef

open Cert.ReferenceIdeal Cert.ReferenceIdeal.Gen Cert.ReferenceIdeal.Read Idealize.ShloMosaic
  Idealize.ShloMosaic.ValueIdx

/-- The scaled score of key row `k` for query row `R`. -/
def score (Q K : Cert.Attn.All.Idx → EReal) (R k : Fin 16384) : EReal :=
  Ideal.div (∑ e : Fin 256, Q (ix2 R e) * K (ix2 k e)) (Ideal.sqrt (Ideal.ofBits .f32 0x43800000#32))

/-- The largest score of query row `R`, folded from the word of −∞. -/
def rowMax (Q K : Cert.Attn.All.Idx → EReal) (R : Fin 16384) : EReal :=
  (Finset.univ : Finset (Fin 16384)).fold max (Ideal.ofBits .f32 0xFF800000#32) (fun k => score Q K R k)

/-- The shifted exponential weight. -/
def ew (Q K : Cert.Attn.All.Idx → EReal) (R k : Fin 16384) : EReal :=
  Ideal.exp (score Q K R k - rowMax Q K R)

/-- The sum of a row's weights, from the word of zero. -/
def rowSum (Q K : Cert.Attn.All.Idx → EReal) (R : Fin 16384) : EReal :=
  Ideal.ofBits .f32 0x00000000#32 + ∑ k : Fin 16384, ew Q K R k

/-- The key axis of the score matrix is dropped by the two row reductions. -/
theorem reduces_keys : S16384x16384.Reduces [1] S16384 := by decide

/-- The score matrix at (R, k). -/
theorem scores_at (Q K : Cert.Attn.All.Idx → EReal) (J : S16384x16384.Idx) :
    val_main_v5 (F := Ideal) Q K J = score Q K (J 0) (J 1) := by
  have el : ∀ e : Fin 256, lidx_main_v1 J e = ix2 (J 0) e := fun e =>
    funext fun a => by match a with | ⟨0, _⟩ => rfl | ⟨1, _⟩ => rfl
  have er : ∀ e : Fin 256, idx_main_v0 (ridx_main_v1 J e) = ix2 (J 1) e := fun e =>
    funext fun a => by match a with | ⟨0, _⟩ => rfl | ⟨1, _⟩ => rfl
  rw [val_main_v5_apply, val_main_v1_apply, val_main_v4_apply, val_main_v3_apply, val_main_v2_apply,
    val_main_cst_apply]
  simp only [val_main_v0_apply, el, er, Ideal.hostDivf_def, Ideal.hostUnary_sqrt_def, Ideal.ofBits_def]
  rfl

/-- The row maxima at R. -/
theorem rowMax_at (Q K : Cert.Attn.All.Idx → EReal) (j : S16384.Idx) :
    val_main_v6 (F := Ideal) Q K j = rowMax Q K (j 0) := by
  have hf : (val_main_v5 (F := Ideal) Q K ∘ reduces_keys.lift j) = fun k : Fin 16384 => score Q K (j 0) k :=
    funext fun k => by
      rw [Function.comp_apply, scores_at]
      rfl
  unfold val_main_v6
  rw [Host.reduce_eq_fold_single (FloatOps.maximumf (F := Ideal) (φ := .f32)) (val_main_v5 (F := Ideal) Q K)
    (val_main_cst_0 (F := Ideal)) reducesTo_S16384x16384_S16384_d1 reduces_keys h_S_ j]
  rw [val_main_cst_0_apply, Ideal.ofBits_def, hf]
  rfl

/-- The shifted exponentials at (R, k). -/
theorem ew_at (Q K : Cert.Attn.All.Idx → EReal) (J : S16384x16384.Idx) :
    val_main_v10 (F := Ideal) Q K J = ew Q K (J 0) (J 1) := by
  rw [val_main_v10_apply, val_main_v9_apply, val_main_v8_apply, val_main_v7_apply, rowMax_at, scores_at]
  simp only [Ideal.hostUnary_exp_def, Ideal.subf_def]
  rfl

/-- The row sums at R. -/
theorem rowSum_at (Q K : Cert.Attn.All.Idx → EReal) (j : S16384.Idx) :
    val_main_v11 (F := Ideal) Q K j = rowSum Q K (j 0) := by
  rw [val_main_v11_apply, val_main_cst_1_apply, Ideal.ofBits_def]
  unfold rowSum
  refine congrArg (_ + ·) (Finset.sum_congr rfl fun k _ => ?_)
  rw [ew_at]
  rfl

/-- The normalised weights at (R, k). -/
theorem weights_at (Q K : Cert.Attn.All.Idx → EReal) (J : S16384x16384.Idx) :
    val_main_v14 (F := Ideal) Q K J = Ideal.div (ew Q K (J 0) (J 1)) (rowSum Q K (J 0)) := by
  rw [val_main_v14_apply, val_main_v13_apply, val_main_v12_apply, rowSum_at, ew_at]
  simp only [Ideal.hostDivf_def]
  rfl

/-- The reference's result at (R, d). -/
theorem refTerm_at (Q K V : Cert.Attn.All.Idx → EReal) (I : Cert.Attn.All.Idx) :
    refTerm Q K V I
      = ∑ k : Fin 16384, Ideal.div (ew Q K (I 0) k) (rowSum Q K (I 0)) * V (ix2 k (I 1)) := by
  rw [refTerm_def, val_main_v15_apply]
  refine Finset.sum_congr rfl fun k _ => ?_
  have er : ridx_main_v15 I k = ix2 k (I 1) :=
    funext fun a => by match a with | ⟨0, _⟩ => rfl | ⟨1, _⟩ => rfl
  rw [weights_at, er]
  rfl

end Cert.AttnRef

end

/-- info: 'Cert.AttnRef.refTerm_at' depends on axioms: [propext, Classical.choice, Quot.sound] -/
#guard_msgs in #print axioms Cert.AttnRef.refTerm_at
-- ==== Proof.AttnAlgebra.lean ====
/-
  The algebra between the two ways of writing softmax attention, over abstract finite index sets.

  For one query row: real scores a(j) over a finite nonempty set of keys, real values v(j).
  The reference computes   ∑ⱼ ( exp(a j − M) / ∑ⱼ' exp(a j' − M) ) · v j   with M the largest score;
  the specification is     ( ∑ⱼ exp(a j) · v j ) / ( ∑ⱼ exp(a j) ).
  They agree because exp(a − M) = exp(a) / exp(M) with exp(M) a positive real that cancels, and every sum is
  a sum of reals with a positive denominator; M need only be SOME real, which the largest of finitely many
  (at least one) reals is.  The scores themselves are inner products of real rows divided by √256 = 16 on the
  one side, multiplied by 2⁻⁴ on the other: the same real.

  Also here: the extended reals the four float words of the two programs denote, and the splitting of a
  sum over n·b consecutive indices into n blocks of b.
-/
import Idealize.ShloMosaic.PureOps.Ideal

noncomputable section

namespace Cert.AttnRef

open Idealize.ShloMosaic

/-! ## The float words -/

/-- The word of `256.0`. -/
theorem ofBits_256 : Ideal.ofBits .f32 0x43800000#32 = ((256 : ℝ) : EReal) := by
  simp [Ideal.ofBits, Ideal.ieee, -EReal.coe_mul]; norm_num

/-- The word of `0.0625` = 2⁻⁴. -/
theorem ofBits_sixteenth : Ideal.ofBits .f32 0x3D800000#32 = (((1 : ℝ) / 16 : ℝ) : EReal) := by
  simp [Ideal.ofBits, Ideal.ieee, -EReal.coe_mul]; norm_num

/-- The word of `-inf`. -/
theorem ofBits_neg_inf : Ideal.ofBits .f32 0xFF800000#32 = ⊥ := by
  simp [Ideal.ofBits, Ideal.ieee]

/-- The word of `+0.0`. -/
theorem ofBits_zero : Ideal.ofBits .f32 0x00000000#32 = 0 := by
  simp [Ideal.ofBits, Ideal.ieee]

/-- √256 = 16, at the extended reals. -/
theorem sqrt_256 : Ideal.sqrt ((256 : ℝ) : EReal) = ((16 : ℝ) : EReal) := by
  rw [Ideal.sqrt_coe, if_neg (by norm_num)]
  congr 1
  rw [show (256 : ℝ) = 16 * 16 by norm_num]
  exact Real.sqrt_mul_self (by norm_num)

/-! ## Sums of reals inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The largest of finitely many (at least one) reals, taken in the extended reals from −∞, is a real. -/
theorem fold_max_real {κ : Type} [Fintype κ] [Nonempty κ] (a : κ → ℝ) :
    ∃ m : ℝ, (Finset.univ : Finset κ).fold max (⊥ : EReal) (fun j => (a j : EReal)) = (m : EReal) := by
  have htop : (Finset.univ : Finset κ).fold max (⊥ : EReal) (fun j => (a j : EReal)) ≠ ⊤ :=
    ne_of_lt ((Finset.fold_max_lt _).2 ⟨bot_lt_top, fun j _ => EReal.coe_lt_top _⟩)
  have hbot : (Finset.univ : Finset κ).fold max (⊥ : EReal) (fun j => (a j : EReal)) ≠ ⊥ := by
    obtain ⟨j0⟩ := ‹Nonempty κ›
    have hle : ((a j0 : ℝ) : EReal) ≤ (Finset.univ : Finset κ).fold max (⊥ : EReal) (fun j => (a j : EReal)) :=
      (Finset.le_fold_max _).2 (Or.inr ⟨j0, Finset.mem_univ _, le_refl _⟩)
    exact ne_of_gt (lt_of_lt_of_le (EReal.bot_lt_coe _) hle)
  exact ⟨_, (EReal.coe_toReal htop hbot).symm⟩

/-! ## The softmax law -/

/-- In the reals: dividing the shifted exponentials by their sum and averaging the values is the quotient of
    the unshifted sums. -/
theorem softmax_shift_real {κ : Type} [Fintype κ] [Nonempty κ] (a v : κ → ℝ) (m : ℝ) :
    ∑ j, Real.exp (a j - m) * (1 / ∑ j', Real.exp (a j' - m)) * v j
      = (∑ j, Real.exp (a j) * v j) * (1 / ∑ j, Real.exp (a j)) := by
  have hS : 0 < ∑ j, Real.exp (a j) := Finset.sum_pos (fun j _ => Real.exp_pos _) Finset.univ_nonempty
  have hE : 0 < Real.exp m := Real.exp_pos m
  have hsum : ∑ j', Real.exp (a j' - m) = (∑ j', Real.exp (a j')) / Real.exp m := by
    rw [Finset.sum_div]; exact Finset.sum_congr rfl fun j _ => Real.exp_sub _ _
  rw [hsum, Finset.sum_mul]
  refine Finset.sum_congr rfl fun j _ => ?_
  rw [Real.exp_sub]
  field_simp

/-- At the extended reals, for real scores, values and shift. -/
theorem softmax_shift {κ : Type} [Fintype κ] [Nonempty κ] (a v : κ → ℝ) (m : ℝ) :
    ∑ j, Ideal.div (Ideal.exp ((a j : EReal) - (m : EReal)))
          (0 + ∑ j', Ideal.exp ((a j' : EReal) - (m : EReal))) * (v j : EReal)
      = Ideal.div (∑ j, Ideal.exp (a j : EReal) * (v j : EReal)) (∑ j, Ideal.exp (a j : EReal)) := by
  have hS : (∑ j, Real.exp (a j)) ≠ 0 :=
    ne_of_gt (Finset.sum_pos (fun j _ => Real.exp_pos _) Finset.univ_nonempty)
  have hS' : (∑ j, Real.exp (a j - m)) ≠ 0 :=
    ne_of_gt (Finset.sum_pos (fun j _ => Real.exp_pos _) Finset.univ_nonempty)
  simp only [← EReal.coe_sub, Ideal.exp_coe, ← coe_sum, zero_add, ← EReal.coe_mul]
  rw [Ideal.div_coe hS]
  simp only [Ideal.div_coe hS', ← EReal.coe_mul, ← coe_sum]
  exact congrArg _ (softmax_shift_real a v m)

/-- The law joining the reference's arrangement to the specification's, for one query row `q` against key rows
    `kk j` and values `v j`, all real: `bot`, `zero`, `sq`, `c` stand for the programs' words of −∞, 0, √256 and
    2⁻⁴. -/
theorem attn_law {κ ε : Type} [Fintype κ] [Nonempty κ] [Fintype ε]
    (q : ε → EReal) (kk : κ → ε → EReal) (v : κ → EReal)
    (hq : ∀ e, ∃ x : ℝ, q e = (x : EReal)) (hk : ∀ j e, ∃ x : ℝ, kk j e = (x : EReal))
    (hv : ∀ j, ∃ x : ℝ, v j = (x : EReal))
    (bot zero sq c : EReal) (hbot : bot = ⊥) (hzero : zero = 0) (hsq : sq = ((16 : ℝ) : EReal))
    (hc : c = (((1 : ℝ) / 16 : ℝ) : EReal)) :
    ∑ j, Ideal.div
          (Ideal.exp (Ideal.div (∑ e, q e * kk j e) sq
            - (Finset.univ : Finset κ).fold max bot (fun j' => Ideal.div (∑ e, q e * kk j' e) sq)))
          (zero + ∑ j', Ideal.exp (Ideal.div (∑ e, q e * kk j' e) sq
            - (Finset.univ : Finset κ).fold max bot (fun j'' => Ideal.div (∑ e, q e * kk j'' e) sq))) * v j
      = Ideal.div (∑ j, Ideal.exp ((∑ e, q e * kk j e) * c) * v j) (∑ j, Ideal.exp ((∑ e, q e * kk j e) * c)) := by
  choose qr hq using hq
  choose kr hk using hk
  choose vr hv using hv
  obtain rfl : q = fun e => (qr e : EReal) := funext hq
  obtain rfl : kk = fun j e => (kr j e : EReal) := funext fun j => funext (hk j)
  obtain rfl : v = fun j => (vr j : EReal) := funext hv
  subst hbot hzero hsq hc
  have h16 : (16 : ℝ) ≠ 0 := by norm_num
  have hsc : ∀ j, Ideal.div (∑ e, (qr e : EReal) * (kr j e : EReal)) ((16 : ℝ) : EReal)
      = (((∑ e, qr e * kr j e) * (1 / 16) : ℝ) : EReal) := fun j => by
    rw [Ideal.div_coe h16]; simp only [← EReal.coe_mul, ← coe_sum]
  have hsp : ∀ j, (∑ e, (qr e : EReal) * (kr j e : EReal)) * (((1 : ℝ) / 16 : ℝ) : EReal)
      = (((∑ e, qr e * kr j e) * (1 / 16) : ℝ) : EReal) := fun j => by
    simp only [← EReal.coe_mul, ← coe_sum]
  simp only [hsc, hsp]
  obtain ⟨m, hm⟩ := fold_max_real fun j => (∑ e, qr e * kr j e) * (1 / 16)
  rw [hm]
  exact softmax_shift _ _ m

/-! ## A sum over n·b consecutive indices, block by block -/

/-- The sum over `N = n · b` indices is the sum over `n` blocks of the sums over the `b` indices of each. -/
theorem sum_blocks {M : Type} [AddCommMonoid M] (n b N : Nat) (hN : N = n * b) (f : Fin N → M) :
    ∑ k : Fin N, f k
      = ∑ s : Fin n, ∑ j : Fin b, f ⟨s.val * b + j.val, by
          rw [hN]
          calc s.val * b + j.val < s.val * b + b := Nat.add_lt_add_left j.isLt _
            _ = (s.val + 1) * b := (Nat.succ_mul _ _).symm
            _ ≤ n * b := Nat.mul_le_mul_right _ s.isLt⟩ := by
  subst hN
  rw [← finProdFinEquiv.sum_comp, Fintype.sum_prod_type]
  refine Finset.sum_congr rfl fun s _ => Finset.sum_congr rfl fun j _ => ?_
  refine congrArg f (Fin.ext ?_)
  show j.val + b * s.val = s.val * b + j.val
  rw [Nat.mul_comm, Nat.add_comm]

end Cert.AttnRef

end

/-- info: 'Cert.AttnRef.attn_law' depends on axioms: [propext, Classical.choice, Quot.sound] -/
#guard_msgs in #print axioms Cert.AttnRef.attn_law
-- ==== Proof.AttnRef.lean ====
/-
  Each device's block of the reference's result is the ring-attention specification of the blocks.

  Device c's block holds rows 2048·c + r of the 16384.  The reference's row R = 2048·c + r is, on finite inputs,
  the quotient  (∑ₖ exp(score R k) · V(k, d)) / (∑ₖ exp(score R k))  over all 16384 key rows k (the row maximum
  cancels: the softmax law); the key rows are the eight blocks of 2048, k = 2048·s + j, so each sum is the sum
  over the blocks s of the sums over a block's rows j, which is how the specification writes it; and row
  2048·s + j of a whole array is row j of its block s.
-/
import proofs.«900462_g7700000000000463_dist_ring_attn_i_s2048_d256_v7x_i8_f32_1_alg».proof.Proof.AttnRefAt
import proofs.«900462_g7700000000000463_dist_ring_attn_i_s2048_d256_v7x_i8_f32_1_alg».proof.Proof.AttnAlgebra

noncomputable section

namespace Cert.AttnRef

open Idealize.ShloMosaic Idealize.ShloMosaic.ValueIdx Idealize.ShloMosaic.Layout

/-- Row j of block s is a row of the whole array. -/
theorem row_lt (s : Fin 8) (j : Fin 2048) : s.val * 2048 + j.val < 16384 := by
  have := s.isLt; have := j.isLt; omega

/-- Where entry (j, e) of block s lies in the whole array: row 2048·s + j, column e. -/
theorem idx_ix2 (h : Tiles Cert.Attn.Blk Cert.Attn.All 0 8) (s : Fin 8) (j : Fin 2048) (e : Fin 256) :
    h.idx s (ix2 j e) = ix2 (⟨s.val * 2048 + j.val, row_lt s j⟩ : Fin 16384) e :=
  funext fun a => by
    match a with
    | ⟨0, _⟩ => exact Fin.ext (idx_rows_val h s (ix2 j e)).1
    | ⟨1, _⟩ => rfl

/-- The whole array is eight blocks of rows. -/
theorem tiles : Tiles Cert.Attn.Blk Cert.Attn.All 0 8 := by decide

/-- An array whose eight blocks hold reals holds reals: row R is row R mod 2048 of block R / 2048. -/
theorem finite_all (X : Cert.Attn.All.Idx → EReal)
    (hX : ∀ (s : Fin 8) (i : Cert.Attn.Blk.Idx), ∃ x : ℝ, (Layout.block Cert.Attn.Blk Cert.Attn.All 0 8 s X) i = (x : EReal))
    (I : Cert.Attn.All.Idx) : ∃ x : ℝ, X I = (x : EReal) := by
  have h0 : (I 0).val < 16384 := (I 0).isLt
  have hs : (I 0).val / 2048 < 8 := by omega
  have hj : (I 0).val % 2048 < 2048 := Nat.mod_lt _ (by norm_num)
  have hI : tiles.idx ⟨(I 0).val / 2048, hs⟩ (ix2 (n0 := 2048) (n1 := 256) ⟨(I 0).val % 2048, hj⟩ (I 1)) = I :=
    funext fun a => by
      match a with
      | ⟨0, _⟩ => exact Fin.ext (show (I 0).val / 2048 * 2048 + (I 0).val % 2048 = (I 0).val by omega)
      | ⟨1, _⟩ => rfl
  obtain ⟨x, hx⟩ := hX ⟨(I 0).val / 2048, hs⟩ (ix2 (n0 := 2048) (n1 := 256) ⟨(I 0).val % 2048, hj⟩ (I 1))
  exact ⟨x, (congrArg X hI).symm.trans hx⟩

/-- The reference's entry (R, d) on finite inputs: the quotient of the unshifted sums over all key rows. -/
theorem refTerm_row (Q K V : Cert.Attn.All.Idx → EReal)
    (hQ : ∀ I, ∃ x : ℝ, Q I = (x : EReal)) (hK : ∀ I, ∃ x : ℝ, K I = (x : EReal))
    (hV : ∀ I, ∃ x : ℝ, V I = (x : EReal)) (R : Fin 16384) (d : Fin 256) :
    refTerm Q K V (ix2 R d)
      = Ideal.div (∑ k : Fin 16384, Ideal.exp ((∑ e : Fin 256, Q (ix2 R e) * K (ix2 k e)) * Ideal.ofBits .f32 0x3D800000#32) * V (ix2 k d))
          (∑ k : Fin 16384, Ideal.exp ((∑ e : Fin 256, Q (ix2 R e) * K (ix2 k e)) * Ideal.ofBits .f32 0x3D800000#32)) := by
  rw [refTerm_at]
  exact attn_law (κ := Fin 16384) (ε := Fin 256) (fun e => Q (ix2 R e)) (fun k e => K (ix2 k e))
    (fun k => V (ix2 k d)) (fun e => hQ _) (fun k e => hK _) (fun k => hV _)
    (Ideal.ofBits .f32 0xFF800000#32) (Ideal.ofBits .f32 0x00000000#32)
    (Ideal.sqrt (Ideal.ofBits .f32 0x43800000#32)) (Ideal.ofBits .f32 0x3D800000#32)
    ofBits_neg_inf ofBits_zero (by rw [ofBits_256, sqrt_256]) ofBits_sixteenth

/-- The specification's entry (r, d) on device c, written over the whole arrays. -/
theorem out_at (Q K V : Cert.Attn.All.Idx → EReal) (c : Fin 8) (r : Fin 2048) (d : Fin 256) :
    Cert.Attn.out (Layout.block Cert.Attn.Blk Cert.Attn.All 0 8 c Q) (fun s => (Layout.block Cert.Attn.Blk Cert.Attn.All 0 8 s K)) (fun s => (Layout.block Cert.Attn.Blk Cert.Attn.All 0 8 s V)) (ix2 r d)
      = Ideal.div
          (∑ s : Fin 8, ∑ j : Fin 2048,
            Ideal.exp ((∑ e : Fin 256, Q (ix2 (⟨c.val * 2048 + r.val, row_lt c r⟩ : Fin 16384) e) * K (ix2 (⟨s.val * 2048 + j.val, row_lt s j⟩ : Fin 16384) e)) * Ideal.ofBits .f32 0x3D800000#32)
              * V (ix2 (⟨s.val * 2048 + j.val, row_lt s j⟩ : Fin 16384) d))
          (∑ s : Fin 8, ∑ j : Fin 2048,
            Ideal.exp ((∑ e : Fin 256, Q (ix2 (⟨c.val * 2048 + r.val, row_lt c r⟩ : Fin 16384) e) * K (ix2 (⟨s.val * 2048 + j.val, row_lt s j⟩ : Fin 16384) e)) * Ideal.ofBits .f32 0x3D800000#32)) := by
  simp only [Cert.Attn.out, Cert.Attn.num, Cert.Attn.den, Cert.Attn.numPart, Cert.Attn.denPart, Cert.Attn.wgt,
    block_apply, idx_ix2]

/-- Block c of the reference's result is the specification of block c of the queries against the eight blocks of
    keys and values, when every block holds reals. -/
theorem ref_block (Q K V : Cert.Attn.All.Idx → EReal)
    (hQ : ∀ (s : Fin 8) (i : Cert.Attn.Blk.Idx), ∃ x : ℝ, (Layout.block Cert.Attn.Blk Cert.Attn.All 0 8 s Q) i = (x : EReal))
    (hK : ∀ (s : Fin 8) (i : Cert.Attn.Blk.Idx), ∃ x : ℝ, (Layout.block Cert.Attn.Blk Cert.Attn.All 0 8 s K) i = (x : EReal))
    (hV : ∀ (s : Fin 8) (i : Cert.Attn.Blk.Idx), ∃ x : ℝ, (Layout.block Cert.Attn.Blk Cert.Attn.All 0 8 s V) i = (x : EReal)) (c : Fin 8) :
    Layout.block Cert.Attn.Blk Cert.Attn.All 0 8 c (refTerm Q K V)
      = Cert.Attn.out (Layout.block Cert.Attn.Blk Cert.Attn.All 0 8 c Q) (fun s => (Layout.block Cert.Attn.Blk Cert.Attn.All 0 8 s K)) (fun s => (Layout.block Cert.Attn.Blk Cert.Attn.All 0 8 s V)) := by
  funext i
  obtain ⟨r, d, rfl⟩ : ∃ (r : Fin 2048) (d : Fin 256), i = ix2 r d := ⟨i 0, i 1, eq_ix2 i⟩
  rw [block_apply, idx_ix2, refTerm_row Q K V (finite_all Q hQ) (finite_all K hK) (finite_all V hV), out_at]
  exact congrArg₂ Ideal.div
    (sum_blocks 8 2048 16384 (by norm_num) fun k : Fin 16384 =>
      Ideal.exp ((∑ e : Fin 256, Q (ix2 (⟨c.val * 2048 + r.val, row_lt c r⟩ : Fin 16384) e) * K (ix2 k e)) * Ideal.ofBits .f32 0x3D800000#32) * V (ix2 k d))
    (sum_blocks 8 2048 16384 (by norm_num) fun k : Fin 16384 =>
      Ideal.exp ((∑ e : Fin 256, Q (ix2 (⟨c.val * 2048 + r.val, row_lt c r⟩ : Fin 16384) e) * K (ix2 k e)) * Ideal.ofBits .f32 0x3D800000#32))

end Cert.AttnRef

end

/-- info: 'Cert.AttnRef.ref_block' depends on axioms: [propext, Classical.choice, Quot.sound] -/
#guard_msgs in #print axioms Cert.AttnRef.ref_block
-- ==== Proof.AttnFinite.lean ====
/-
  Finite inputs are real.

  The precondition says, of each of a device's three input blocks, that every entry's absolute value is below
  the word of +∞ (`jnp.all(jnp.abs(x) < inf)`), the three answers joined by `and`.  An extended real whose
  absolute value max(x, −x) is below ⊤ is neither ⊤ nor ⊥, so it is (the coercion of) a real.
-/
import proofs.«900462_g7700000000000463_dist_ring_attn_i_s2048_d256_v7x_i8_f32_1_alg».proof.Pre_finite_inputs_Kernel
import proofs.«900462_g7700000000000463_dist_ring_attn_i_s2048_d256_v7x_i8_f32_1_alg».proof.Proof.AttnSpec
import Idealize.ShloMosaic.Lib.ReduceAll
import Idealize.ShloMosaic.Lib.IdealHost

noncomputable section

namespace Cert.AttnRef

open Idealize.ShloMosaic Idealize.ShloMosaic.ValueIdx Cert.Pre_finite_inputs_Kernel

/-- A rank-0 array has one index. -/
local instance : Subsingleton S_.Idx := ⟨fun _ _ => funext fun d => d.elim0⟩

/-- The word of `+inf`. -/
theorem ofBits_inf : Ideal.ofBits .f32 0x7F800000#32 = ⊤ := by
  simp [Ideal.ofBits, Ideal.ieee]

/-- An extended real whose absolute value compares below the word of +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- One block: if `all(|a| < inf)` answers 1, every entry of `a` is a real. -/
theorem real_of_all [Facts] (a : FVec Ideal S2048x256 .f32)
    (h : Host.reduce IntOp.andi
        (cmpf .olt (Host.absf a) (broadcastInDim S2048x256 ![] Facts.bcast_S_S2048x256 (constant S_ .f32 0x7F800000#32)))
        (constantI S_ 1 1#1) Facts.reducesTo_S2048x256_S_d0_1 Facts.h_S_ ix0 = 1#1)
    (i : S2048x256.Idx) : ∃ r : ℝ, a i = (r : EReal) := by
  have he := Host.reduce_andi_all _ _ _ _ _ h i
  rw [cmpf_apply, broadcastInDim_scalar_apply, constant_apply] at he
  exact real_of_abs_lt_inf _ he

/-- The precondition on a device's three blocks makes every entry of each a real. -/
theorem finite_of_pre [Facts] (a0 a1 a2 : Cert.Attn.Blk.Idx → EReal)
    (h : Cert.Pre_finite_inputs_Kernel.fn (F := Ideal) a0 a1 a2 = fun _ => 1#1) :
    (∀ i, ∃ x : ℝ, a0 i = (x : EReal)) ∧ (∀ i, ∃ x : ℝ, a1 i = (x : EReal))
      ∧ (∀ i, ∃ x : ℝ, a2 i = (x : EReal)) := by
  have h0 : Cert.Pre_finite_inputs_Kernel.fn (F := Ideal) a0 a1 a2 ix0 = 1#1 := congrFun h ix0
  dsimp only [Cert.Pre_finite_inputs_Kernel.fn] at h0
  obtain ⟨h01, h2⟩ := IntOp.andi_eq_one.1 h0
  obtain ⟨h0', h1⟩ := IntOp.andi_eq_one.1 h01
  exact ⟨real_of_all a0 h0', real_of_all a1 h1, real_of_all a2 h2⟩

end Cert.AttnRef

end

/-- info: 'Cert.AttnRef.finite_of_pre' depends on axioms: [propext, Classical.choice, Quot.sound] -/
#guard_msgs in #print axioms Cert.AttnRef.finite_of_pre
-- ==== Proof.RingCommon.lean ====
/-
  The ring's shared vocabulary.  Eight devices in a ring; device `c` has a left neighbour `c − 1` and a right
  neighbour `c + 1` (mod 8).  Each device keeps two double-buffered rings of key/value blocks: the right-going ring
  (a block travels `c → c + 1`) and the left-going ring (`c → c − 1`).  A ring buffer has two slots, each a key half
  and a value half of 2048 × 256.  A slot is named the way a transfer names it: the slice of the buffer at
  offset `[b, 0, 0, 0]`, squeezed to `[2, 2048, 256]`.
  Ghost state has three components side by side: the machine's own, the rounds discipline of the semaphore cells
  (duties named by `Fin 3`), and the release counts of the receive slots (one key per device, ring and slot: the
  reader is the device that holds the slot, the writer its upstream neighbour in that ring).
-/
import proofs.«900462_g7700000000000463_dist_ring_attn_i_s2048_d256_v7x_i8_f32_1_alg».proof.Proof.Gen.KernelIdeal.Launch
import proofs.«900462_g7700000000000463_dist_ring_attn_i_s2048_d256_v7x_i8_f32_1_alg».proof.Proof.Gen.KernelIdeal.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Release
import Idealize.ShloMosaic.Lib.Tactic

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- Names of a round's duties: a barrier round has two (one per neighbour), a credit cell's one round up to three. -/
abbrev DN : Type := Fin 3
/-- The rounds discipline's algebra over the program's cells. -/
abbrev UB : Type := URounds (GSem nD τ sig) DN
/-- A receive slot's key: the device holding it (its reader), the ring (0 right-going, 1 left-going), the slot. -/
abbrev KS : Type := Dev nD × Fin 2 × Fin 2
/-- The release counts' algebra. -/
abbrev US : Type := Release.USlots KS
/-- The certificate's component: the machine's copy beside the two above. -/
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

/-- The memory as launched. -/
abbrev Mem (F : FTy → Type) [FloatOps F] : Type := (ℓ : Loc nD τ sig) → Buf (Elt F) ℓ

/-! ## The neighbours -/

/-- The left neighbour: `c − 1` mod 8. -/
def lft (c : Dev nD) : Dev nD := ⟨(c.val + 7) % 8, Nat.mod_lt _ (by decide)⟩
/-- The right neighbour: `c + 1` mod 8. -/
def rgt (c : Dev nD) : Dev nD := ⟨(c.val + 1) % 8, Nat.mod_lt _ (by decide)⟩

theorem lft_rgt : ∀ c : Dev nD, lft (rgt c) = c := by decide
theorem rgt_lft : ∀ c : Dev nD, rgt (lft c) = c := by decide
theorem lft_ne : ∀ c : Dev nD, lft c ≠ c := by decide
theorem rgt_ne : ∀ c : Dev nD, rgt c ≠ c := by decide
theorem lft_ne_rgt : ∀ c : Dev nD, lft c ≠ rgt c := by decide

/-- The downstream neighbour of ring `p` (where its blocks go) and the upstream one (where they come from). -/
def dnR : Fin 2 → Dev nD → Dev nD
  | 0, c => rgt c
  | 1, c => lft c
def upR : Fin 2 → Dev nD → Dev nD
  | 0, c => lft c
  | 1, c => rgt c
theorem upR_dnR (p : Fin 2) (c : Dev nD) : upR p (dnR p c) = c := by
  revert p c; decide
theorem dnR_upR (p : Fin 2) (c : Dev nD) : dnR p (upR p c) = c := by
  revert p c; decide

/-! The printed device chains: the entry signals name the left then the right neighbour; a right-going transfer and
    a left-ring credit the right neighbour; a left-going transfer and a right-ring credit the left one. -/
theorem dev1_eq (c : Dev nD) (h : k0_dev1 c < nD) : (⟨k0_dev1 c, h⟩ : Dev nD) = lft c := Fin.ext (k0_dev1_eq c)
theorem dev2_eq (c : Dev nD) (h : k0_dev2 c < nD) : (⟨k0_dev2 c, h⟩ : Dev nD) = rgt c := Fin.ext (k0_dev2_eq c)
theorem dev3_eq (c : Dev nD) (h : k0_dev3 c < nD) : (⟨k0_dev3 c, h⟩ : Dev nD) = rgt c := Fin.ext (k0_dev3_eq c)
theorem dev4_eq (c : Dev nD) (h : k0_dev4 c < nD) : (⟨k0_dev4 c, h⟩ : Dev nD) = lft c := Fin.ext (k0_dev4_eq c)
theorem dev5_eq (c : Dev nD) (h : k0_dev5 c < nD) : (⟨k0_dev5 c, h⟩ : Dev nD) = lft c := Fin.ext (k0_dev5_eq c)
theorem dev6_eq (c : Dev nD) (h : k0_dev6 c < nD) : (⟨k0_dev6 c, h⟩ : Dev nD) = rgt c := Fin.ext (k0_dev6_eq c)
theorem dev7_eq (c : Dev nD) (h : k0_dev7 c < nD) : (⟨k0_dev7 c, h⟩ : Dev nD) = rgt c := Fin.ext (k0_dev7_eq c)
theorem dev8_eq (c : Dev nD) (h : k0_dev8 c < nD) : (⟨k0_dev8 c, h⟩ : Dev nD) = lft c := Fin.ext (k0_dev8_eq c)
theorem dev9_eq (c : Dev nD) (h : k0_dev9 c < nD) : (⟨k0_dev9 c, h⟩ : Dev nD) = lft c := Fin.ext (k0_dev9_eq c)
theorem dev10_eq (c : Dev nD) (h : k0_dev10 c < nD) : (⟨k0_dev10 c, h⟩ : Dev nD) = rgt c := Fin.ext (k0_dev10_eq c)
theorem dev11_eq (c : Dev nD) (h : k0_dev11 c < nD) : (⟨k0_dev11 c, h⟩ : Dev nD) = rgt c := Fin.ext (k0_dev11_eq c)
theorem dev12_eq (c : Dev nD) (h : k0_dev12 c < nD) : (⟨k0_dev12 c, h⟩ : Dev nD) = lft c := Fin.ext (k0_dev12_eq c)
theorem dev13_eq (c : Dev nD) (h : k0_dev13 c < nD) : (⟨k0_dev13 c, h⟩ : Dev nD) = lft c := Fin.ext (k0_dev13_eq c)
theorem dev14_eq (c : Dev nD) (h : k0_dev14 c < nD) : (⟨k0_dev14 c, h⟩ : Dev nD) = rgt c := Fin.ext (k0_dev14_eq c)

/-! ## The ring buffers and their slots -/

/-- Ring `p`'s buffer, whole: the right-going ring is scratch operand 0, the left-going one operand 1. -/
abbrev ringM : Fin 2 → Memref sig .tc .vmem S2x2x2048x256 .bf16
  | 0 => Memref.whole cc0_scratch0
  | 1 => Memref.whole cc0_scratch1

/-- Offsets of slot `b`. -/
abbrev slotOff (b : Fin 2) : Fin 4 → Nat := ![b.val, 0, 0, 0]
theorem slot_inb : ∀ (b : Fin 2) a, slotOff b a + S1x2x2048x256.size a ≤ S2x2x2048x256.size a := by decide
/-- Slot `b`'s rectangle: both halves, all rows and columns. -/
abbrev slotR (b : Fin 2) : Rect S2x2x2048x256 := Rect.unit (s := S2x2x2048x256) (slotOff b) S1x2x2048x256.size (slot_inb b)
/-- Slot `b` of ring `p` as a transfer names it. -/
abbrev slotM (p b : Fin 2) : Memref sig .tc .vmem S2x2048x256 .bf16 :=
  ((ringM p).slice (slotR b) (fun _ => rfl)).squeeze S2x2048x256 squeezes_S1x2x2048x256_S2x2048x256

/-- What a transfer of one slot credits its cells. -/
abbrev Ncr : ℕ := (slotM 0 0).view.dmaCredit
theorem Ncr_pos : 0 < Ncr := View.dmaCredit_pos _ (by decide)

/-! ## The cells -/

/-- The runtime's barrier semaphore of collective id 0. -/
abbrev barS : Sem sig := (SemArray.scalar (sig.barrier 0 rfl) : Sems sig S_).sem
/-- Ring `p`'s credit semaphore: regular 0 for the right-going ring, 1 for the left-going. -/
abbrev capS (p : Fin 2) : Sem sig := ⟨p.val, Nat.lt_of_lt_of_le p.isLt (by decide)⟩
/-- Ring `p`'s send semaphore of slot `b`: DMA 4, 5 (right-going), 8, 9 (left-going). -/
abbrev sendS (p b : Fin 2) : DmaSem sig := ⟨4 + 4 * p.val + b.val, by have := p.isLt; have := b.isLt; show _ < 12; omega⟩
/-- Ring `p`'s receive semaphore of slot `b`: DMA 6, 7 and 10, 11. -/
abbrev recvS (p b : Fin 2) : DmaSem sig := ⟨6 + 4 * p.val + b.val, by have := p.isLt; have := b.isLt; show _ < 12; omega⟩

abbrev barCell (c : Dev nD) : GSem nD τ sig := ((c : Thread nD τ), .reg barS)
abbrev capCell (p : Fin 2) (c : Dev nD) : GSem nD τ sig := ((c : Thread nD τ), .reg (capS p))
abbrev sendCell (p b : Fin 2) (c : Dev nD) : GSem nD τ sig := ((c : Thread nD τ), .dma (sendS p b))
abbrev recvCell (p b : Fin 2) (c : Dev nD) : GSem nD τ sig := ((c : Thread nD τ), .dma (recvS p b))

end Cert.KernelIdeal.RingProof

end
-- ==== Proof.RingSchedule.lean ====
/-
  The eleven cells of a device under the rounds discipline, and what each landing tells its owner.
  Ring `p` (0 right-going, 1 left-going) makes `4 − p` hops; hop `t` reads slot `t mod 2` of the sender and
  writes slot `(t + 1) mod 2` of its downstream neighbour, so after hop `t` that slot holds the key/value block
  that started `t + 1` devices upstream.
  * The entry barrier of a device: one round, two unit duties, one per neighbour.  A neighbour's signal says that
    its first receive slot has been put at its writer's disposal.
  * A credit cell: ONE round of unit duties (three for the right-going ring, two for the left-going).  Grant `u` is
    made after the granter has finished reading slot `u mod 2` for good at that step, before it waits for its own
    next landing, so a grant may overtake the previous one's consumption: the grants carry only persistent facts —
    how often each slot has been released, and how far the granter's receive cells have come — each grant
    repeating the earlier ones, so that after `n` units consumed the waiter knows the first `n` grants' facts
    whichever signals it happened to meet.
  * A send cell: one duty a round, the source slot's lent half back at the contents sent.
  * A receive cell: one duty a round, the slot whole, holding the upstream block.
-/
import proofs.«900462_g7700000000000463_dist_ring_attn_i_s2048_d256_v7x_i8_f32_1_alg».proof.Proof.RingCommon
import proofs.«900462_g7700000000000463_dist_ring_attn_i_s2048_d256_v7x_i8_f32_1_alg».proof.Proof.Gen.KernelIdeal.Skeleton
import Idealize.ShloMosaic.Lib.ValueIdx

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What the rings carry -/

/-- A key half and a value half side by side, as a slot holds them. -/
def joinKV (kb vb : FVec F S2048x256 .bf16) : FVec F S2x2048x256 .bf16 :=
  fun i => if (i 0).val = 0 then kb (ValueIdx.ix2 (n0 := 2048) (n1 := 256) (i 1) (i 2)) else vb (ValueIdx.ix2 (n0 := 2048) (n1 := 256) (i 1) (i 2))

/-- Device `d`'s own key/value block in the rings' format. -/
def kvOf (m : Mem F) (d : Dev nD) : FVec F S2x2048x256 .bf16 :=
  joinKV (k0_pay3 (m ((d : Thread nD τ).loc main_arg1))) (k0_pay4 (m ((d : Thread nD τ).loc main_arg2)))

/-- The device `t` hops upstream of `c` in ring `p`. -/
def origin (p : Fin 2) (t : ℕ) (c : Dev nD) : Dev nD := (upR p)^[t] c

/-- What device `c` sends on hop `t` of ring `p`: the block that started `t` devices upstream of it. -/
def sentV (m : Mem F) (p : Fin 2) (t : ℕ) (c : Dev nD) : FVec F S2x2048x256 .bf16 := kvOf m (origin p t c)

/-- How many hops ring `p` makes. -/
def nHop (p : Fin 2) : ℕ := 4 - p.val
/-- How many of them read slot `b` (hops `b, b + 2, …`), that is, rounds of its send cell. -/
def nSend (p b : Fin 2) : ℕ := (nHop p - b.val + 1) / 2
/-- How many write slot `b` (hops `1 − b, 3 − b, …`): rounds of its receive cell. -/
def nRecv (p b : Fin 2) : ℕ := (nHop p - (1 - b.val) + 1) / 2
/-- How many credits ring `p`'s credit cell gets: one per hop but the first. -/
def nCap (p : Fin 2) : ℕ := nHop p - 1

/-- Slot index `n mod 2`. -/
abbrev par (n : ℕ) : Fin 2 := ⟨n % 2, Nat.mod_lt _ (by decide)⟩

/-- Slot `b` of ring `p` on device `c`, its own elements at share `q` and contents `f` of the ring buffer. -/
@[reducible] def slotPts (c : Dev nD) (p b : Fin 2) (q : PosShare TreeShare) (f : Buf (Elt F) ((slotM p b).view.loc (c : Thread nD τ))) : sProp 𝕄 :=
  (slotM p b).view.loc (c : Thread nD τ) ↦[(slotM p b).view.set]{q} f

/-- The same, whole, holding the block `V`. -/
def slotAt (c : Dev nD) (p b : Fin 2) (V : FVec F S2x2048x256 .bf16) : sProp 𝕄 :=
  iprop(∃ f, ⌜(slotM p b).view.read (Elt F) f = V⌝ ∗ slotPts c p b fullShare f)

/-- The lent half of it, holding `V`. -/
def slotLent (c : Dev nD) (p b : Fin 2) (V : FVec F S2x2048x256 .bf16) : sProp 𝕄 :=
  iprop(∃ f, ⌜(slotM p b).view.read (Elt F) f = V⌝ ∗ slotPts c p b fullShare.left f)

/-! ## The payloads -/

/-- What grant `u` of ring `p` by device `d` says: slot `u mod 2` of `d` has been released `(u + 1) / 2 + 1` times
    (slot 0 after steps 0 and 2; slot 1 once on entering and again after step 1), and the receive cell of that slot
    has come to round `(u + 1) / 2`. -/
def grantFact (p : Fin 2) (d : Dev nD) (u : ℕ) : sProp 𝕄 :=
  iprop(Release.released (ES (F := F)) ((d, p, par u) : KS) ((u + 1) / 2 + 1) ∗ reached (ER (F := F)) (recvCell p (par u) d) ((u + 1) / 2))

/-- Grants `0 … u` together. -/
def grantsUpTo (p : Fin 2) (d : Dev nD) : ℕ → sProp 𝕄
  | 0 => grantFact p d 0
  | u + 1 => iprop(grantsUpTo p d u ∗ grantFact p d (u + 1))

/-- A neighbour's entry signal landing on `c`, duty `j` (0 from the left neighbour, 1 from the right): the
    neighbour's first receive slot in the ring that runs from `c` to it has been released once. -/
def barPay (j : Fin 2) (c : Dev nD) : sProp 𝕄 :=
  Release.released (ES (F := F)) ((upR j c, (⟨1 - j.val, by omega⟩ : Fin 2), (1 : Fin 2)) : KS) 1

variable (m : Mem F)

/-- A landing on `c`, round `r` of slot `b`: the slot whole, holding what the upstream neighbour sent on hop
    `2r + (1 − b)`. -/
def recvPay (p b : Fin 2) (r : ℕ) (c : Dev nD) : sProp 𝕄 :=
  slotAt c p b (sentV m p (2 * r + (1 - b.val)) (upR p c))
/-- `c`'s own transfer read out, round `r` of slot `b`: the lent half back, at what was sent on hop `2r + b`. -/
def sendPay (p b : Fin 2) (r : ℕ) (c : Dev nD) : sProp 𝕄 :=
  slotLent c p b (sentV m p (2 * r + b.val) c)

/-! ## The schedule -/

/-- Which of the ring's cells a semaphore is. -/
inductive CellKind | bar | cap (p : Fin 2) | send (p b : Fin 2) | recv (p b : Fin 2) | other
  deriving DecidableEq

def kindOf : SemLoc sig → CellKind
  | .reg s => if s = barS then .bar else if h : s.val < 2 then .cap ⟨s.val, h⟩ else .other
  | .dma q =>
      if h : 4 ≤ q.val ∧ q.val < 6 then .send 0 ⟨q.val - 4, by omega⟩
      else if h : 6 ≤ q.val ∧ q.val < 8 then .recv 0 ⟨q.val - 6, by omega⟩
      else if h : 8 ≤ q.val ∧ q.val < 10 then .send 1 ⟨q.val - 8, by omega⟩
      else if h : 10 ≤ q.val ∧ q.val < 12 then .recv 1 ⟨q.val - 10, by omega⟩
      else .other

theorem kindOf_bar : kindOf (.reg barS : SemLoc sig) = .bar := by decide
theorem kindOf_cap (p : Fin 2) : kindOf (.reg (capS p) : SemLoc sig) = .cap p := by revert p; decide
theorem kindOf_send (p b : Fin 2) : kindOf (.dma (sendS p b) : SemLoc sig) = .send p b := by revert p b; decide
theorem kindOf_recv (p b : Fin 2) : kindOf (.dma (recvS p b) : SemLoc sig) = .recv p b := by revert p b; decide

/-- The duties `0 … n − 1`. -/
def firstN (n : ℕ) : Finset DN := Finset.univ.filter (·.val < n)

def ringRd : Rounds.Schedule (GSem nD τ sig) DN 𝕄 where
  duties g r :=
    if g.1.2 = .tc then
      match kindOf g.2 with
      | .bar => if r = 0 then firstN 2 else ∅
      | .cap p => if r = 0 then firstN (nCap p) else ∅
      | .send p b => if r < nSend p b then {0} else ∅
      | .recv p b => if r < nRecv p b then {0} else ∅
      | .other => ∅
    else ∅
  unitless _ := False
  amount g _ _ := match kindOf g.2 with
    | .send _ _ | .recv _ _ => Ncr
    | _ => 1
  payload g r d := match kindOf g.2 with
    | .bar => if h : d.val < 2 then barPay ⟨d.val, h⟩ g.1.1 else iprop(emp)
    | .cap p => grantsUpTo p (dnR p g.1.1) d.val
    | .recv p b => recvPay m p b r g.1.1
    | .send p b => sendPay m p b r g.1.1
    | .other => iprop(emp)
  amount_pos g _ _ _ := by
    cases kindOf g.2 <;> first | exact Nat.one_pos | exact Ncr_pos

end Cert.KernelIdeal.RingProof

end
-- ==== Proof.RingLevels.lean ====
/-
  What a device pays, in the order it pays, and why no wait can deadlock.
  Device `c` makes fourteen payments: its two entry signals; then on step `t` its right-going copy into the right
  neighbour's receive cell (`t < 4`), its left-going copy into the left neighbour's (`t < 3`), its credit to the
  left neighbour for the right-going ring (`t < 3`) and its credit to the right neighbour for the left-going ring
  (`t < 2`).  A tally is indexed by the step.  The level of (cell, step) is the position, in the one program all
  devices run, of the wait that consumes it: the entry wait first, then step `t`'s six waits in order.  Every
  payment stands in the program before the wait that consumes it, so at any wait everything the waiter still owes
  lies strictly above the wait's own level.
-/
import proofs.«900462_g7700000000000463_dist_ring_attn_i_s2048_d256_v7x_i8_f32_1_alg».proof.Proof.RingSchedule

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The payments -/

/-- One payment: the cell, the step it is indexed by, the amount. -/
abbrev Pay : Type := GSem nD τ sig × ℕ × ℕ

/-- Step `t`'s payments of device `c`, in order. -/
def stepPays (c : Dev nD) (t : ℕ) : List Pay :=
  (if t < 4 then [(recvCell 0 (par (t + 1)) (rgt c), t, Ncr)] else []) ++
  (if t < 3 then [(recvCell 1 (par (t + 1)) (lft c), t, Ncr)] else []) ++
  (if t < 3 then [(capCell 0 (lft c), t, 1)] else []) ++
  (if t < 2 then [(capCell 1 (rgt c), t, 1)] else [])

/-- All of them: the entry signals (left neighbour first), then steps 0 to 3. -/
def pays (c : Dev nD) : List Pay :=
  [(barCell (lft c), 0, 1), (barCell (rgt c), 0, 1)] ++ stepPays c 0 ++ stepPays c 1 ++ stepPays c 2 ++ stepPays c 3

theorem pays_length (c : Dev nD) : (pays c).length = 14 := rfl

/-- What a list of payments comes to, the first payment outermost on the right. -/
def owedL : List Pay → CellTallies nD τ sig ℕ
  | [] => 0
  | x :: xs => owedL xs + tallyAt x.1 x.2.1 x.2.2

/-- What device `c` still owes after its first `n` payments. -/
def owedFrom (c : Dev nD) (n : ℕ) : CellTallies nD τ sig ℕ := owedL ((pays c).drop n)

/-- At launch. -/
def O₀ (c : Dev nD) : CellTallies nD τ sig ℕ := owedFrom c 0

theorem owedFrom_done (c : Dev nD) : owedFrom c 14 = 0 := rfl

/-- A positive entry of what a list comes to belongs to one of its payments. -/
theorem owedL_pos {xs : List Pay} {g : GSem nD τ sig} {i : ℕ} (h : 0 < owedL xs g i) : ∃ x ∈ xs, x.1 = g ∧ x.2.1 = i := by
  induction xs with
  | nil => exact absurd h (Nat.lt_irrefl 0)
  | cons x xs ih =>
    rcases Pipeline.add_pos_cases (show 0 < (owedL xs + tallyAt x.1 x.2.1 x.2.2) g i from h) with h | h
    · obtain ⟨y, hy, hg⟩ := ih h
      exact ⟨y, List.mem_cons_of_mem _ hy, hg⟩
    · exact ⟨x, List.mem_cons_self, (Pipeline.tallyAt_pos h).1.symm, (Pipeline.tallyAt_pos h).2.symm⟩

/-! ## The levels -/

/-- The steps at which a cell is waited on. -/
def L (g : GSem nD τ sig) : Finset ℕ :=
  if g.1.2 = .tc then
    match kindOf g.2 with
    | .bar => {0}
    | .cap p => Finset.range (nCap p)
    | .send p b => (Finset.range (nHop p)).filter (fun t => t % 2 = b.val)
    | .recv p b => (Finset.range (nHop p)).filter (fun t => (t + 1) % 2 = b.val)
    | .other => {0}
  else ∅

/-- The position of the wait that consumes (cell, step): a staging cell lowest, the entry wait next, then step
    `t`'s waits — credit of the right-going ring, credit of the left-going, send and receive of the right-going,
    send and receive of the left-going — a credit granted on step `t` being consumed on step `t + 1`. -/
def lv (g : GSem nD τ sig) (t : ℕ) : ℕ :=
  match kindOf g.2 with
  | .bar => 1
  | .cap p => 10 * (t + 2) + 1 + p.val
  | .send p _ => 10 * (t + 1) + 3 + 2 * p.val
  | .recv p _ => 10 * (t + 1) + 4 + 2 * p.val
  | .other => 0

theorem hL : ∀ g : GSem nD τ sig, g.1.2 ≠ .tc → L g = ∅ := fun g h => by unfold L; rw [if_neg h]

/-- The evidence a wait of device `c` on its cell `s` at step `j` presents after its first `n` payments: every
    payment still to come is consumed by a later wait. -/
theorem mayWait_after (c : Dev nD) (s : SemLoc sig) (j n : ℕ) (hj : j ∈ L ((c : Thread nD τ), s))
    (h : ∀ x ∈ (pays c).drop n, x.2.1 ∈ L x.1 ∧ lv ((c : Thread nD τ), s) j < lv x.1 x.2.1) :
    (levAts L lv : sProp 𝕄) ⊢ MayWait (c : Thread nD τ) s j (owedFrom c n) :=
  Pipeline.mayWait_of_levAts hj fun g i hpos => by
    obtain ⟨x, hx, hg, hi⟩ := owedL_pos hpos
    rw [← hg, ← hi]; exact h x hx

end Cert.KernelIdeal.RingProof

end
-- ==== Proof.RingTables.lean ====
/-
  The schedule's tables, computed cell by cell for a device `c`: which duties a round has, what each pays, how many
  units a round expects, and what a landing hands over.  A barrier round expects two units, a credit cell's one
  round as many units as the ring has hops after the first, a send or receive round one transfer's worth.
-/
import proofs.«900462_g7700000000000463_dist_ring_attn_i_s2048_d256_v7x_i8_f32_1_alg».proof.Proof.RingLevels

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : Mem F)

instance grantFact_storable (p : Fin 2) (d : Dev nD) (u : ℕ) : BI.Storable (upEmb : UEmb _ 𝕄) (grantFact (F := F) p d u) := by
  unfold grantFact; infer_instance

instance grantsUpTo_storable (p : Fin 2) (d : Dev nD) : ∀ u : ℕ, BI.Storable (upEmb : UEmb _ 𝕄) (grantsUpTo (F := F) p d u)
  | 0 => by unfold grantsUpTo; infer_instance
  | u + 1 => by unfold grantsUpTo; haveI := grantsUpTo_storable p d u; infer_instance

instance grantFact_persistent (p : Fin 2) (d : Dev nD) (u : ℕ) : BI.Persistent (grantFact (F := F) p d u) := by
  unfold grantFact; infer_instance

instance grantsUpTo_persistent (p : Fin 2) (d : Dev nD) : ∀ u : ℕ, BI.Persistent (grantsUpTo (F := F) p d u)
  | 0 => by unfold grantsUpTo; infer_instance
  | u + 1 => by unfold grantsUpTo; haveI := grantsUpTo_persistent p d u; infer_instance

instance ringRd_payload_storable (g : GSem nD τ sig) (r : ℕ) (d : DN) :
    BI.Storable (upEmb : UEmb _ 𝕄) ((ringRd (F := F) m).payload g r d) := by
  show BI.Storable upEmb (match kindOf g.2 with
    | .bar => if h : d.val < 2 then barPay ⟨d.val, h⟩ g.1.1 else iprop(emp)
    | .cap p => grantsUpTo p (dnR p g.1.1) d.val
    | .recv p b => recvPay m p b r g.1.1
    | .send p b => sendPay m p b r g.1.1
    | .other => iprop(emp))
  unfold barPay recvPay sendPay slotAt slotLent slotPts
  split
  · split <;> infer_instance
  all_goals infer_instance

section Sched
variable (c : Dev nD) (p b : Fin 2)

theorem duties_bar : (ringRd (F := F) m).duties (barCell c) 0 = firstN 2 := by
  simp only [ringRd, kindOf_bar, if_true]
theorem duties_cap : (ringRd (F := F) m).duties (capCell p c) 0 = firstN (nCap p) := by
  simp only [ringRd, kindOf_cap, if_true]
theorem duties_send {r : ℕ} (hr : r < nSend p b) : (ringRd (F := F) m).duties (sendCell p b c) r = {0} := by
  simp only [ringRd, kindOf_send, if_true, if_pos hr]
theorem duties_recv {r : ℕ} (hr : r < nRecv p b) : (ringRd (F := F) m).duties (recvCell p b c) r = {0} := by
  simp only [ringRd, kindOf_recv, if_true, if_pos hr]

/-! No duty beyond a cell's last round: what closing the cell asks. -/
theorem duties_bar_later : ∀ r, 1 ≤ r → (ringRd (F := F) m).duties (barCell c) r = ∅ := fun r hr => by
  simp only [ringRd, kindOf_bar, if_true, if_neg (by omega : ¬ r = 0)]
theorem duties_cap_later : ∀ r, 1 ≤ r → (ringRd (F := F) m).duties (capCell p c) r = ∅ := fun r hr => by
  simp only [ringRd, kindOf_cap, if_true, if_neg (by omega : ¬ r = 0)]
theorem duties_send_later : ∀ r, nSend p b ≤ r → (ringRd (F := F) m).duties (sendCell p b c) r = ∅ := fun r hr => by
  simp only [ringRd, kindOf_send, if_true, if_neg (Nat.not_lt.mpr hr)]
theorem duties_recv_later : ∀ r, nRecv p b ≤ r → (ringRd (F := F) m).duties (recvCell p b c) r = ∅ := fun r hr => by
  simp only [ringRd, kindOf_recv, if_true, if_neg (Nat.not_lt.mpr hr)]

theorem amount_bar (r : ℕ) (d : DN) : (ringRd (F := F) m).amount (barCell c) r d = 1 := by simp only [ringRd, kindOf_bar]
theorem amount_cap (r : ℕ) (d : DN) : (ringRd (F := F) m).amount (capCell p c) r d = 1 := by simp only [ringRd, kindOf_cap]
theorem amount_send (r : ℕ) (d : DN) : (ringRd (F := F) m).amount (sendCell p b c) r d = Ncr := by simp only [ringRd, kindOf_send]
theorem amount_recv (r : ℕ) (d : DN) : (ringRd (F := F) m).amount (recvCell p b c) r d = Ncr := by simp only [ringRd, kindOf_recv]

theorem card_firstN : ∀ n : ℕ, n ≤ 3 → (firstN n).card = n := by decide

theorem expect_bar : (ringRd (F := F) m).expect (barCell c) 0 = 2 := by
  unfold Schedule.expect Schedule.amountOf
  rw [duties_bar, Finset.sum_congr rfl fun d _ => amount_bar m c 0 d, Finset.sum_const, card_firstN 2 (by decide), smul_eq_mul]
theorem expect_cap : (ringRd (F := F) m).expect (capCell p c) 0 = nCap p := by
  unfold Schedule.expect Schedule.amountOf
  rw [duties_cap, Finset.sum_congr rfl fun d _ => amount_cap m c p 0 d, Finset.sum_const, card_firstN (nCap p) (by revert p; decide), smul_eq_mul, Nat.mul_one]
theorem expect_send {r : ℕ} (hr : r < nSend p b) : (ringRd (F := F) m).expect (sendCell p b c) r = Ncr := by
  unfold Schedule.expect Schedule.amountOf; rw [duties_send m c p b hr, Finset.sum_singleton, amount_send]
theorem expect_recv {r : ℕ} (hr : r < nRecv p b) : (ringRd (F := F) m).expect (recvCell p b c) r = Ncr := by
  unfold Schedule.expect Schedule.amountOf; rw [duties_recv m c p b hr, Finset.sum_singleton, amount_recv]

theorem payload_bar (r : ℕ) (j : Fin 2) : (ringRd (F := F) m).payload (barCell c) r ⟨j.val, by omega⟩ = barPay j c := by
  simp only [ringRd, kindOf_bar, dif_pos j.isLt]
theorem payload_cap (r : ℕ) (d : DN) : (ringRd (F := F) m).payload (capCell p c) r d = grantsUpTo p (dnR p c) d.val := by simp only [ringRd, kindOf_cap]
theorem payload_send (r : ℕ) (d : DN) : (ringRd (F := F) m).payload (sendCell p b c) r d = sendPay m p b r c := by simp only [ringRd, kindOf_send]
theorem payload_recv (r : ℕ) (d : DN) : (ringRd (F := F) m).payload (recvCell p b c) r d = recvPay m p b r c := by simp only [ringRd, kindOf_recv]

/-! When no duty of a round has been taken, a wait for the whole round gets that round's one payload. -/
theorem rest_send {r : ℕ} (hr : r < nSend p b) :
    bigSep ((ringRd (F := F) m).duties (sendCell p b c) r \ ∅) (fun d => (ringRd (F := F) m).payload (sendCell p b c) r d) = sendPay m p b r c := by
  rw [Finset.sdiff_empty, duties_send m c p b hr, bigSep_singleton, payload_send]
theorem rest_recv {r : ℕ} (hr : r < nRecv p b) :
    bigSep ((ringRd (F := F) m).duties (recvCell p b c) r \ ∅) (fun d => (ringRd (F := F) m).payload (recvCell p b c) r d) = recvPay m p b r c := by
  rw [Finset.sdiff_empty, duties_recv m c p b hr, bigSep_singleton, payload_recv]

end Sched

/-! ## A credit wait's harvest

After `n` of a credit cell's units are consumed the payloads taken belong to a set of at least `n` of its duties;
one of them has index `n − 1` or more, and a grant repeats all earlier ones. -/

/-- Grants up to `u` contain grant `v ≤ u`. -/
theorem grantsUpTo_elim (p : Fin 2) (d : Dev nD) : ∀ {u v : ℕ}, v ≤ u → (grantsUpTo (F := F) p d u ⊢ grantFact p d v)
  | 0, v, h => by
    have : v = 0 := Nat.le_zero.mp h
    subst this; unfold grantsUpTo; exact Entails.rfl
  | u + 1, v, h => by
    unfold grantsUpTo
    rcases Nat.lt_or_ge v (u + 1) with hv | hv
    · exact sep_elim_left.trans (grantsUpTo_elim p d (Nat.lt_succ_iff.mp hv))
    · have : v = u + 1 := Nat.le_antisymm h hv
      subst this; exact sep_elim_right

/-- A set of at least `n + 1` duty names has one of index `n` or more. -/
theorem exists_ge_of_card {S : Finset DN} {n : ℕ} (h : n + 1 ≤ S.card) : ∃ d ∈ S, n ≤ d.val := by
  by_contra hn
  simp only [not_exists, not_and, not_le] at hn
  have hsub : S ⊆ firstN n := fun d hd => by
    unfold firstN; exact Finset.mem_filter.mpr ⟨Finset.mem_univ _, hn d hd⟩
  have hc := Finset.card_le_card hsub
  have hn3 : n ≤ 3 := by
    have := Finset.card_le_univ S; simp only [Fintype.card_fin] at this; omega
  rw [card_firstN n hn3] at hc
  omega

end Cert.KernelIdeal.RingProof

end
-- ==== Proof.RingLaunch.lean ====
/-
  The launch of the ring.  Eight devices; each runs the one region of the program.  Every semaphore a device's body
  touches is a cell of the rounds discipline: its eight transfer cells (a send and a receive cell per ring and slot),
  its two credit cells, and the barrier cell, which is not scoped to the region.  At launch the counters of all
  eighty-eight cells are zero; one update for all devices at once turns each counter and its round state into the
  cell's invariant, opens the release counts of the thirty-two receive slots, and deals every device what its body
  starts from.  The launch theorem then turns "the body is proved at every device" into a run of the whole program
  whose final memory has every windowed array at the contents the proof data computes.

  Everything the protocol decides (the schedule of duties, the tokens minted, the slots' contents, the proof data,
  what each device owes and at which levels it waits, how the minted ghost state is dealt, and the body itself) is a
  hypothesis here, stated at the exact type the launch needs.
-/
import proofs.«900462_g7700000000000463_dist_ring_attn_i_s2048_d256_v7x_i8_f32_1_alg».proof.Proof.RingCommon

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The cells of one device -/

/-- The region's own (scoped) semaphores, in the order the launch lists them: the right-going ring's two send and two
    receive cells, the left-going ring's, then the two credit cells. -/
abbrev osem : Fin 10 → SemLoc sig := fun
  | 0 => .dma (sendS 0 0) | 1 => .dma (sendS 0 1) | 2 => .dma (recvS 0 0) | 3 => .dma (recvS 0 1)
  | 4 => .dma (sendS 1 0) | 5 => .dma (sendS 1 1) | 6 => .dma (recvS 1 0) | 7 => .dma (recvS 1 1)
  | 8 => .reg (capS 0) | 9 => .reg (capS 1)
  | ⟨_ + 10, h⟩ => absurd h (Nat.not_lt.2 (Nat.le_add_left _ _))

/-- Every semaphore a body touches: its own ten, then the barrier semaphore. -/
abbrev csem : Fin 11 → SemLoc sig := fun
  | 0 => .dma (sendS 0 0) | 1 => .dma (sendS 0 1) | 2 => .dma (recvS 0 0) | 3 => .dma (recvS 0 1)
  | 4 => .dma (sendS 1 0) | 5 => .dma (sendS 1 1) | 6 => .dma (recvS 1 0) | 7 => .dma (recvS 1 1)
  | 8 => .reg (capS 0) | 9 => .reg (capS 1) | 10 => .reg barS
  | ⟨_ + 11, h⟩ => absurd h (Nat.not_lt.2 (Nat.le_add_left _ _))

/-- Cell k of device c. -/
abbrev kcell (ck : Dev nD × Fin 11) : GSem nD τ sig := ((ck.1 : Thread nD τ), csem ck.2)

theorem ownSemFacts : Pipeline.OwnSemFacts cfg0.spec osem := by decide

theorem csem_injective : Function.Injective csem := by decide

theorem kcell_injective : Function.Injective (kcell : Dev nD × Fin 11 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- All the cells of all the devices. -/
def ringCells : Finset (GSem nD τ sig) := Finset.univ.map ⟨kcell, kcell_injective⟩

omit [FloatOps F] in
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

omit [FloatOps F] in
/-- The ten own counters at zero, one by one. -/
theorem ownSems0_eq (c : Dev nD) :
    (Pipeline.ownSems0 (Ix := ℕ) (Name := ℕ) (U := UU) (Lvl := ℕ) (Val := Elt F) (τ := τ) osem c : sProp 𝕄)
      = iprop(semVal (sendCell 0 0 c) 0 ∗ semVal (sendCell 0 1 c) 0 ∗ semVal (recvCell 0 0 c) 0 ∗ semVal (recvCell 0 1 c) 0
          ∗ semVal (sendCell 1 0 c) 0 ∗ semVal (sendCell 1 1 c) 0 ∗ semVal (recvCell 1 0 c) 0 ∗ semVal (recvCell 1 1 c) 0
          ∗ semVal (capCell 0 c) 0 ∗ semVal (capCell 1 c) 0) := by
  rw [Pipeline.ownSems0_eq_of_list c osem [0, 1, 2, 3, 4, 5, 6, 7, 8, 9] (by decide) (by decide)]; rfl

omit [FloatOps F] in
/-- The barrier semaphore is the one semaphore of a device that is not scoped to the region. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All eleven counters of a device at zero. -/
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 11 => semVal (kcell (c, k)) 0 : sProp 𝕄) := by
  rw [ownSems0_eq, unscopedSems0_eq, bigSep_fin11]
  iintro ⟨⟨H0, H1, H2, H3, H4, H5, H6, H7, H8, H9⟩, HB⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HB

/-! ## The ghost state minted at launch -/

/-- The launch element: the pipeline library's copy of the machine's algebra; the rounds discipline over every cell,
    with the duty tokens T; the release counts of all thirty-two receive slots, each with two writes ahead. -/
def u₀ (T : Finset (GSem nD τ sig × ℕ × DN)) : UU :=
  (initOf (Pipeline.cells cfgs cellOf_inj) (Pipeline.launchToks cfgs cellOf_inj),
    (initOf ringCells T, Release.initSlots (Finset.univ : Finset KS) 2))

/-- What is minted once for the whole mesh rather than per device: the duty tokens and the release counts. -/
def minted (T : Finset (GSem nD τ sig × ℕ × DN)) : sProp 𝕄 :=
  iprop((bigSep T fun x => dutyTok ER x.1 x.2.1 x.2.2) ∗ BI.own (ES (Release.initSlots (Finset.univ : Finset KS) 2)))

/-- It travels through the launch with device 0. -/
def dealt0 (T : Finset (GSem nD τ sig × ℕ × DN)) (c : Dev nD) : sProp 𝕄 := if c = 0 then minted T else (BI.emp : sProp 𝕄)

omit [FloatOps F] in
theorem dealt0_all (T : Finset (GSem nD τ sig × ℕ × DN)) :
    bigSep Finset.univ (dealt0 (F := F) T) = iprop(minted T ∗ emp) := by
  have h : bigSep (Finset.univ.erase (0 : Dev nD)) (dealt0 (F := F) T)
      = bigSep (Finset.univ.erase (0 : Dev nD)) (fun _ => (BI.emp : sProp 𝕄)) :=
    bigSep_congr fun c hc => by unfold dealt0; rw [if_neg (Finset.ne_of_mem_erase hc)]
  rw [bigSep_univ_at _ (0 : Dev nD), h, bigSep_emp_const]
  unfold dealt0; rw [if_pos rfl]; rfl

/-- What the launch element deals device c (the launch theorem's G): the round state of each of its cells at counter
    zero, its position at the start of round 0 of each and that round 0 of each is reached, and, with device 0, what is
    minted once. -/
def G (Rd : Rounds.Schedule (GSem nD τ sig) DN 𝕄) (T : Finset (GSem nD τ sig × ℕ × DN)) (c : Dev nD) : sProp 𝕄 :=
  iprop((bigSep Finset.univ fun k : Fin 11 => roundState ER Rd (kcell (c, k)) 0)
    ∗ (bigSep Finset.univ fun k : Fin 11 => iprop(atPos ER (kcell (c, k)) 0 ∅ 0 ∗ reached ER (kcell (c, k)) 0))
    ∗ dealt0 T c)

omit [FloatOps F] in
/-- Funding: the rounds element and the release element are every device's G. -/
theorem fund_ring (Rd : Rounds.Schedule (GSem nD τ sig) DN 𝕄) (T : Finset (GSem nD τ sig × ℕ × DN)) :
    iprop(BI.own (ER (initOf ringCells T)) ∗ BI.own (ES (Release.initSlots (Finset.univ : Finset KS) 2)))
      ⊢ (|==> bigSep Finset.univ (G Rd T) : sProp 𝕄) := by
  have hX (Φ : GSem nD τ sig → sProp 𝕄) :
      bigSep ringCells Φ = bigSep Finset.univ fun c : Dev nD => bigSep Finset.univ fun k : Fin 11 => Φ (kcell (c, k)) := by
    unfold ringCells; rw [bigSep_map, bigSep_univ_prod]; rfl
  iintro ⟨HX, HS⟩
  imod (Rounds.fund ER Rd ringCells T) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  unfold G; simp only [bigSep_sep']
  rw [dealt0_all]
  isplitl [Hst']; · iexact Hst'
  isplitl [Hat' Hr']
  · isplitl [Hat'] <;> iassumption
  isplitl
  · unfold minted
    isplitl [Htok] <;> iassumption
  · iempintro

/-- One device's eleven counters and round states become its cells' invariants, each at some name. -/
theorem core_alloc (Rd : Rounds.Schedule (GSem nD τ sig) DN 𝕄) [∀ g r d, BI.Storable (upEmb : UEmb _ 𝕄) (Rd.payload g r d)]
    (T : Finset (GSem nD τ sig × ℕ × DN)) (c : Dev nD) :
    iprop(Pipeline.ownSems0 (Ix := ℕ) (Name := ℕ) (U := UU) (Lvl := ℕ) (Val := Elt F) (τ := τ) osem c ∗ unscopedSems0 c ∗ G Rd T c)
      ⊢ |={Set.univ}=> iprop((bigSep Finset.univ fun k : Fin 11 => iprop(∃ κ : ℕ, cellInv ER Rd κ (kcell (c, k))))
          ∗ (bigSep Finset.univ fun k : Fin 11 => iprop(atPos ER (kcell (c, k)) 0 ∅ 0 ∗ reached ER (kcell (c, k)) 0))
          ∗ dealt0 T c) := by
  unfold G
  iintro ⟨Hos, Hus, Hst, Hat, Hd⟩
  ihave Hv := (sems0_eq (F := F) c) $$ [Hos Hus]
  · isplitl [Hos] <;> iassumption
  imod (show iprop((bigSep Finset.univ fun k : Fin 11 => semVal (kcell (c, k)) 0) ∗ bigSep Finset.univ fun k : Fin 11 => roundState ER Rd (kcell (c, k)) 0)
      ⊢ (|={Set.univ}=> bigSep Finset.univ fun k : Fin 11 => iprop(∃ κ : ℕ, cellInv ER Rd κ (kcell (c, k))) : sProp 𝕄) from by
        rw [← bigSep_sep']
        exact (bigSep_mono fun k _ => (Rounds.body_intro ER Rd (kcell (c, k))).trans inv_alloc).trans (bigSep_fupd _ _)) $$ [Hv Hst] with Hinv
  · isplitl [Hv] <;> iassumption
  imodintro
  isplitl [Hinv]; · iexact Hinv
  isplitl [Hat]; · iexact Hat
  iexact Hd

/-- The dealing: with every cell's invariant allocated and the release counts opened, everything the launch minted is
    regrouped by device.  How it is dealt is the protocol's (the hypothesis hdeal): the invariants and the reached
    rounds are persistent and go to whoever needs them; positions stay with the cell's owner; a duty's token goes to
    its payer; a slot's reader count to the device that holds the slot, the tokens of its writes to its upstream
    neighbour. -/
theorem regroup (Rd : Rounds.Schedule (GSem nD τ sig) DN 𝕄) (T : Finset (GSem nD τ sig × ℕ × DN))
    (Sl : KS → sProp 𝕄) [∀ k, BI.Storable (upEmb : UEmb _ 𝕄) (Sl k)] (G' : Dev nD → sProp 𝕄)
    (hdeal : ∀ (Kn : Dev nD × Fin 11 → ℕ) (ιs : KS → ℕ), Function.Injective ιs →
      iprop((bigSep Finset.univ fun ck : Dev nD × Fin 11 => cellInv ER Rd (Kn ck) (kcell ck))
        ∗ (bigSep Finset.univ fun ck : Dev nD × Fin 11 => reached ER (kcell ck) 0)
        ∗ (bigSep Finset.univ fun ck : Dev nD × Fin 11 => atPos ER (kcell ck) 0 ∅ 0)
        ∗ (bigSep T fun x => dutyTok ER x.1 x.2.1 x.2.2)
        ∗ (bigSep (Finset.univ : Finset KS) fun k => Release.slotInv ES (ιs k) k (Sl k))
        ∗ (bigSep (Finset.univ : Finset KS) fun k => Release.readerAt ES k 0)
        ∗ (bigSep ((Finset.univ : Finset KS) ×ˢ Finset.range 2) fun x => Release.writeTok ES x.1 (x.2 + 1)))
      ⊢ (bigSep Finset.univ G' : sProp 𝕄)) :
    (bigSep Finset.univ fun c : Dev nD => iprop((bigSep Finset.univ fun k : Fin 11 => iprop(∃ κ : ℕ, cellInv ER Rd κ (kcell (c, k))))
          ∗ (bigSep Finset.univ fun k : Fin 11 => iprop(atPos ER (kcell (c, k)) 0 ∅ 0 ∗ reached ER (kcell (c, k)) 0))
          ∗ dealt0 T c) : sProp 𝕄)
      ⊢ |={Set.univ}=> bigSep Finset.univ G' := by
  rw [bigSep_sep', bigSep_sep', ← bigSep_univ_prod (fun ck : Dev nD × Fin 11 => iprop(∃ κ : ℕ, cellInv ER Rd κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄)),
    ← bigSep_univ_prod (fun ck : Dev nD × Fin 11 => (atPos ER (kcell ck) 0 ∅ 0 : sProp 𝕄)), dealt0_all]
  iintro ⟨HI, ⟨Hat, #HR⟩, ⟨Hm, -⟩⟩
  unfold minted
  icases Hm with ⟨Htok, HS⟩
  ihave HK := (BI.bigSep_exists_pi Finset.univ (fun (ck : Dev nD × Fin 11) (κ : ℕ) => (cellInv ER Rd κ (kcell ck) : sProp 𝕄))) $$ HI
  icases HK with ⟨%Kn, #HI⟩
  imod (Release.slots_init ES (Finset.univ : Finset KS) 2 Sl (Es := Set.univ)) $$ HS with ⟨%ιs, %hι, Hinv, Hrd, Hwr⟩
  imodintro
  iapply (hdeal Kn ιs fun a b h => hι.1 (Finset.mem_coe.mpr (Finset.mem_univ a)) (Finset.mem_coe.mpr (Finset.mem_univ b)) h)
  isplitr; · iexact HI
  isplitr; · iexact HR
  isplitl [Hat]; · iexact Hat
  isplitl [Htok]; · iexact Htok
  isplitl [Hinv]; · iexact Hinv
  isplitl [Hrd]; · iexact Hrd
  iexact Hwr

/-- The global step of the launch: own and unscoped counters of every device at once. -/
theorem glob (Rd : Rounds.Schedule (GSem nD τ sig) DN 𝕄) [∀ g r d, BI.Storable (upEmb : UEmb _ 𝕄) (Rd.payload g r d)]
    (T : Finset (GSem nD τ sig × ℕ × DN))
    (Sl : KS → sProp 𝕄) [∀ k, BI.Storable (upEmb : UEmb _ 𝕄) (Sl k)] (G' : Dev nD → sProp 𝕄)
    (hdeal : ∀ (Kn : Dev nD × Fin 11 → ℕ) (ιs : KS → ℕ), Function.Injective ιs →
      iprop((bigSep Finset.univ fun ck : Dev nD × Fin 11 => cellInv ER Rd (Kn ck) (kcell ck))
        ∗ (bigSep Finset.univ fun ck : Dev nD × Fin 11 => reached ER (kcell ck) 0)
        ∗ (bigSep Finset.univ fun ck : Dev nD × Fin 11 => atPos ER (kcell ck) 0 ∅ 0)
        ∗ (bigSep T fun x => dutyTok ER x.1 x.2.1 x.2.2)
        ∗ (bigSep (Finset.univ : Finset KS) fun k => Release.slotInv ES (ιs k) k (Sl k))
        ∗ (bigSep (Finset.univ : Finset KS) fun k => Release.readerAt ES k 0)
        ∗ (bigSep ((Finset.univ : Finset KS) ×ˢ Finset.range 2) fun x => Release.writeTok ES x.1 (x.2 + 1)))
      ⊢ (bigSep Finset.univ G' : sProp 𝕄)) :
    (bigSep Finset.univ fun c => iprop(Pipeline.ownSems0 (Ix := ℕ) (Name := ℕ) (U := UU) (Lvl := ℕ) (Val := Elt F) (τ := τ) osem c ∗ unscopedSems0 c ∗ G Rd T c) : sProp 𝕄)
      ⊢ |={Set.univ}=> bigSep Finset.univ G' :=
  (((bigSep_mono fun c _ => core_alloc Rd T c).trans (bigSep_fupd _ _)).trans (BI.fupd_mono (regroup Rd T Sl G' hdeal))).trans (Entails.of_eq (fupd_idem_eq _))

/-! ## The body obligation from the body lemma -/

abbrev 𝒱₀ : Variants := Variants.none

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device c runs from at the one grid point: the proof data's invariant before the point, what
    the device owes, and the four staging buffers as the pipeline hands them over. -/
def bodyPre (dats : Fin 1 → (c : Dev nD) → Dat τ (Elt F) ℕ ℕ UU ℕ cfg0 c) (c : Dev nD) : sProp 𝕄 :=
  iprop((dats 0 c).Φ t0_0.castSucc ∗ (dats 0 c).owesAt 0 t0_0.castSucc
    ∗ (∃ d, stg c cc0_stg0_0 ((dats 0 c).before (0 : Fin 4) t0_0 d))
    ∗ (∃ d, stg c cc0_stg1_0 ((dats 0 c).before (1 : Fin 4) t0_0 d))
    ∗ (∃ d, stg c cc0_stg2_0 ((dats 0 c).before (2 : Fin 4) t0_0 d))
    ∗ (∃ d, stg c cc0_stg3_0 ((dats 0 c).before (3 : Fin 4) t0_0 d)))

/-- What it must reach: the invariant after the point, what the device then owes, and each staging buffer at the
    contents the proof data names. -/
def bodyPost (dats : Fin 1 → (c : Dev nD) → Dat τ (Elt F) ℕ ℕ UU ℕ cfg0 c) (c : Dev nD) : sProp 𝕄 :=
  iprop((dats 0 c).Φ t0_0.succ ∗ (dats 0 c).owesAt 0 t0_0.succ
    ∗ stg c cc0_stg0_0 ((dats 0 c).after (0 : Fin 4) t0_0)
    ∗ stg c cc0_stg1_0 ((dats 0 c).after (1 : Fin 4) t0_0)
    ∗ stg c cc0_stg2_0 ((dats 0 c).after (2 : Fin 4) t0_0)
    ∗ stg c cc0_stg3_0 ((dats 0 c).after (3 : Fin 4) t0_0))

set_option maxRecDepth 8000 in
/-- The library's body obligation at device c, from the body run between bodyPre and bodyPost. -/
theorem body_obligation (dats : Fin 1 → (c : Dev nD) → Dat τ (Elt F) ℕ ℕ UU ℕ cfg0 c) (c : Dev nD)
    (hbody : bodyPre dats c ⊢ wp frame (wpE (defs₀ (F := F)) 𝒱₀ c none) Set.univ (bodyAt0 t0_0) (fun _ => bodyPost dats c)) :
    BodyObligation (dats 0 c) (defs₀ (F := F)) 𝒱₀ 0 Set.univ := fun t => by
  rw [fin_N0 t]
  rw [bigSep_W0, bigSep_W0]
  simp only [owns_whole_eq]
  exact hbody

/-! ## Entry and exit of the region -/

/-- A device's four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

omit [FloatOps F] in
theorem scratch_eq (c : Dev nD) :
    (Pipeline.scopedRest (Ix := ℕ) (Name := ℕ) (U := UU) (Lvl := ℕ) (Val := Elt F) spec0 c : sProp 𝕄) = scratch c :=
  scopedRest0_eq c

/-- What device c enters its region with, the scratch buffers apart: what the global step dealt it, the credit of
    every unit any device owes one of its cells, and the levels. -/
def start (G' : Dev nD → sProp 𝕄) (O₀ : Dev nD → CellTallies nD τ sig ℕ) (L : GSem nD τ sig → Finset ℕ) (lv : GSem nD τ sig → ℕ → ℕ)
    (c : Dev nD) : sProp 𝕄 :=
  iprop(G' c ∗ Pipeline.launchCred O₀ c ∗ levAts L lv)

theorem start_intro (m : Mem F) (ρ : Dev nD → PrngReg) (G' : Dev nD → sProp 𝕄) (O₀ : Dev nD → CellTallies nD τ sig ℕ)
    (L : GSem nD τ sig → Finset ℕ) (lv : GSem nD τ sig → ℕ → ℕ) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(start G' O₀ L lv c ∗ emp) := by
  iintro ⟨-, Hlev, Hcr, -, HG⟩
  imodintro
  unfold start
  isplitl
  · isplitl [HG]; · iexact HG
    isplitl [Hcr]; · iexact Hcr
    iexact Hlev
  · iempintro

theorem phi0_intro (dats : Fin 1 → (c : Dev nD) → Dat τ (Elt F) ℕ ℕ UU ℕ cfg0 c)
    (G' : Dev nD → sProp 𝕄) (O₀ : Dev nD → CellTallies nD τ sig ℕ) (L : GSem nD τ sig → Finset ℕ) (lv : GSem nD τ sig → ℕ → ℕ)
    (hentry : ∀ c, iprop(G' c ∗ Pipeline.launchCred O₀ c ∗ levAts L lv ∗ scratch c) ⊢ (dats 0 c).Φ 0) (c : Dev nD) :
    iprop(start G' O₀ L lv c ∗ Pipeline.prefHeld Pipeline.Prefetch.none c (fun _ => fullShare.right) (fun k => k.elim0) ∗ Pipeline.scopedRest cfg0.spec c)
      ⊢ (dats 0 c).Φ 0 := by
  rw [scratch_eq]
  unfold start
  iintro ⟨⟨HG, Hcr, Hlev⟩, -, Hs⟩
  iapply (hentry c)
  isplitl [HG]; · iexact HG
  isplitl [Hcr]; · iexact Hcr
  isplitl [Hlev]; · iexact Hlev
  iexact Hs

theorem phi1_exit (dats : Fin 1 → (c : Dev nD) → Dat τ (Elt F) ℕ ℕ UU ℕ cfg0 c)
    (hexit : ∀ c, (dats 0 c).Φ (Fin.last cfg0.N)
      ⊢ iprop(Pipeline.ownSems0 (Ix := ℕ) (Name := ℕ) (U := UU) (Lvl := ℕ) (Val := Elt F) (τ := τ) osem c ∗ scratch c)) (c : Dev nD) :
    (dats 0 c).Φ (Fin.last cfg0.N) ⊢ iprop(emp ∗ Pipeline.ownSems0 osem c ∗ Pipeline.scopedRest cfg0.spec c) := by
  rw [scratch_eq]
  iintro H
  ihave H' := (hexit c) $$ H
  icases H' with ⟨Hs, Hr⟩
  isplitr; · iempintro
  isplitl [Hs] <;> iassumption

/-! ## The run -/

set_option maxRecDepth 8000 in
/-- At the compiled mesh of eight devices, for any float values, from any memory with every counter at zero: every
    weakly fair execution of the program terminates without fault, and every final state has each windowed array of
    each device at the contents the proof data computes (an argument array as launched, the result array as the
    body's write-back leaves it). -/
theorem run_main (m : Mem F) (ρ : Dev nD → PrngReg)
    (Rd : Rounds.Schedule (GSem nD τ sig) DN 𝕄) [∀ g r d, BI.Storable (upEmb : UEmb _ 𝕄) (Rd.payload g r d)]
    (T : Finset (GSem nD τ sig × ℕ × DN))
    (Sl : KS → sProp 𝕄) [∀ k, BI.Storable (upEmb : UEmb _ 𝕄) (Sl k)]
    (dats : Fin 1 → (c : Dev nD) → Dat τ (Elt F) ℕ ℕ UU ℕ cfg0 c)
    (hA : ∀ c w, (dats 0 c).A w = m ((cfg0.win w).arr.view.loc (c : Thread nD τ)))
    (hq : ∀ c w, (dats 0 c).q w = fullShare)
    (O₀ : Dev nD → CellTallies nD τ sig ℕ)
    (howed₀ : ∀ c, (dats 0 c).owed 0 = O₀ c) (howedN : ∀ c, (dats 0 c).owed (Fin.last _) = 0)
    (L : GSem nD τ sig → Finset ℕ) (lv : GSem nD τ sig → ℕ → ℕ) (hL : ∀ g : GSem nD τ sig, g.1.2 ≠ .tc → L g = ∅)
    (hwaits : ∀ c, (levAts L lv : sProp 𝕄) ⊢ Pipeline.cellsWaits cfgs dats 0 0 c)
    (G' : Dev nD → sProp 𝕄)
    (hdeal : ∀ (Kn : Dev nD × Fin 11 → ℕ) (ιs : KS → ℕ), Function.Injective ιs →
      iprop((bigSep Finset.univ fun ck : Dev nD × Fin 11 => cellInv ER Rd (Kn ck) (kcell ck))
        ∗ (bigSep Finset.univ fun ck : Dev nD × Fin 11 => reached ER (kcell ck) 0)
        ∗ (bigSep Finset.univ fun ck : Dev nD × Fin 11 => atPos ER (kcell ck) 0 ∅ 0)
        ∗ (bigSep T fun x => dutyTok ER x.1 x.2.1 x.2.2)
        ∗ (bigSep (Finset.univ : Finset KS) fun k => Release.slotInv ES (ιs k) k (Sl k))
        ∗ (bigSep (Finset.univ : Finset KS) fun k => Release.readerAt ES k 0)
        ∗ (bigSep ((Finset.univ : Finset KS) ×ˢ Finset.range 2) fun x => Release.writeTok ES x.1 (x.2 + 1)))
      ⊢ (bigSep Finset.univ G' : sProp 𝕄))
    (hentry : ∀ c, iprop(G' c ∗ Pipeline.launchCred O₀ c ∗ levAts L lv ∗ scratch c) ⊢ (dats 0 c).Φ 0)
    (hexit : ∀ c, (dats 0 c).Φ (Fin.last cfg0.N)
      ⊢ iprop(Pipeline.ownSems0 (Ix := ℕ) (Name := ℕ) (U := UU) (Lvl := ℕ) (Val := Elt F) (τ := τ) osem c ∗ scratch c))
    (hbody : ∀ c, bodyPre dats c ⊢ wp frame (wpE (defs₀ (F := F)) 𝒱₀ c none) Set.univ (bodyAt0 t0_0) (fun _ => bodyPost dats c)) :
    θ_run defs (onTc (τ := τ) (main (F := F))) ⟨m, fun _ => 0, ρ⟩
      (fun r => ∀ c : Dev nD, ∀ w : Fin cfg0.W, r.2.mem ((cfg0.win w).arr.view.loc (c : Thread nD τ)) = (dats 0 c).arrAt w cfg0.N) :=
  Pipeline.θ_run_region_owing_glob_pf (fun p => (cfgs p).toPCfg) (fun p => (cfgs p).toPCfg_adm) dats 0 cellOf_inj (0 : Fin 1)
    winFacts0.to₀ ownSemFacts (Pipeline.PreFacts.none _) EP defs₀ 𝒱₀ m ρ main
    (hmain := fun _ => rfl)
    (hbody := fun c => body_obligation dats c (hbody c)) (hne := block_pos0) (harr := arr_whole0) (hstage := stage_whole0)
    (hshare := fun c w => Pipeline.Dat.share_full (dats 0 c) (hq c) w)
    (hdistinct := winFacts0.arr_inj)
    (O₀ := O₀) (howed₀ := howed₀) (howedN := howedN)
    (L := L) (lv := lv) (hL := hL) (hwaits := hwaits)
    (G := G Rd T) (G' := G') (u₀ := u₀ T)
    (hu₀ := by
      unfold u₀
      iintro Hu
      ihave H := (ownU_pair _ _) $$ Hu
      icases H with ⟨HP, HX⟩
      ihave H2 := (own_pair_emb embR _ _) $$ HX
      icases H2 with ⟨HR, HS⟩
      imod (fund_ring Rd T) $$ [HR HS] with HG
      · isplitl [HR] <;> iassumption
      imodintro
      isplitl [HP] <;> iassumption)
    (hglob := glob Rd T Sl G' hdeal)
    (hA := hA) (hpf := fun _ k => k.elim0)
    (X := start G' O₀ L lv) (Y := fun _ => iprop(emp)) (Z := fun _ => iprop(emp))
    (hX := start_intro m ρ G' O₀ L lv) (hin := phi0_intro dats G' O₀ L lv hentry) (hout := phi1_exit dats hexit)
    (QY := fun _ _ => True)
    (hY := fun c s' => by
      iintro ⟨-, -, HSI⟩
      imodintro
      isplitr; · ipureintro; trivial
      iexact HSI)
    (hQ := fun _ h c w => (h c).1 w)

/-- info: 'Cert.KernelIdeal.RingProof.run_main' depends on axioms: [propext, Classical.choice, Quot.sound] -/
#guard_msgs in #print axioms run_main

end Cert.KernelIdeal.RingProof

end
-- ==== Proof.RingSteps.lean ====
/-
  One lemma per kind of protocol step, for a device `c`, a ring `p` and a hop `t`.
  * An entry signal to a neighbour says: my first receive slot in the ring that runs from you to me has been
    released once.  The entry wait collects both neighbours' words.
  * A credit grant `u` says everything grants `0 … u` say.  A credit wait consumes one unit; whichever grants have
    landed are harvested, and once `n + 1` units are consumed some harvested grant has index `n` or more, so
    grant `n`'s facts are known.
  * A hop lends the left half of the source slot to the transfer (the right half stays for the arithmetic to
    read) and hands the destination slot, taken outright, to the downstream neighbour holding the block sent.
  * A send wait returns the lent half; a receive wait returns the slot whole, holding the upstream block.
-/
import proofs.«900462_g7700000000000463_dist_ring_attn_i_s2048_d256_v7x_i8_f32_1_alg».proof.Proof.RingTables
import proofs.«900462_g7700000000000463_dist_ring_attn_i_s2048_d256_v7x_i8_f32_1_alg».proof.Proof.RingLaunch

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig ℕ (Elt F) ℕ UU ℕ

variable (m : Mem F)

section Steps

variable {α : Type} {Q : α → sProp (MT nD τ sig ℕ (Elt F) ℕ UU ℕ)} (c : Dev nD) (p : Fin 2)

/-- Duty `j` is one of a barrier round's two. -/
theorem mem_firstN {n : ℕ} {d : DN} (h : d.val < n) : d ∈ firstN n :=
  Finset.mem_filter.mpr ⟨Finset.mem_univ _, h⟩

/-- The entry signal to the neighbour `n` that sees `c` as its ring-`j` upstream device (`j = 1` for the left
    neighbour, `0` for the right): `c`'s first receive slot of the ring running from `n` to `c` is released. -/
theorem wp_barsig (n : Dev nD) (j : Fin 2) (hn : upR j n = c) {k' : ℕ} (hk' : 1 = k')
    {k : PUnit → Prog (TpuEff nD τ sig (Elt F) Λ₀ .tc) α} {κ : ℕ}
    {O₀ : CellTallies nD τ sig ℕ} (O : CellTallies nD τ sig ℕ) (hO : O₀ = O + tallyAt (barCell n) 0 k') {W : Waits sig ℕ} :
    iprop(cellInv ER (ringRd m) κ (barCell n) ∗ owes (c : Thread nD τ) O₀ W ∗ dutyTok ER (barCell n) 0 (⟨j.val, by omega⟩ : DN)
        ∗ Release.released (ES (F := F)) ((c, (⟨1 - j.val, by omega⟩ : Fin 2), (1 : Fin 2)) : KS) 1 ∗ reached ER (barCell n) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n : Dev nD) : Thread nD τ) barS k') k) Q) := by
  iintro ⟨#HI, HO, Htok, #Hrel, #Hr⟩ Hk
  iapply (Rounds.wp_signal 𝒱₀ ER (ringRd m) (c : Thread nD τ) none (dst := ((n : Dev nD) : Thread nD τ)) (κ := κ)
      (r := 0) (d := (⟨j.val, by omega⟩ : DN)) (by rw [duties_bar m n]; exact mem_firstN j.isLt) ((amount_bar m n 0 _).trans hk') 0 O hO)
    $$ [HO Htok]
  · isplitr; · iexact HI
    isplitl [HO]; · iexact HO
    isplitl [Htok]; · iexact Htok
    isplitr
    · rw [payload_bar m n 0 j]; unfold barPay; rw [hn]; iexact Hrel
    · iexact Hr
  iexact Hk

theorem nCap_le : ∀ p : Fin 2, nCap p ≤ 3 := by decide
/-- Grant `u` as a duty name. -/
def capD (p : Fin 2) (u : ℕ) (hu : u < nCap p) : DN := ⟨u, Nat.lt_of_lt_of_le hu (nCap_le p)⟩

/-- A credit grant: grant `u` of ring `p` to the upstream neighbour, saying what grants `0 … u` say about `c`. -/
theorem wp_grant (u : ℕ) (hu : u < nCap p) {k' : ℕ} (hk' : 1 = k') {k : PUnit → Prog (TpuEff nD τ sig (Elt F) Λ₀ .tc) α} {κ : ℕ}
    {O₀ : CellTallies nD τ sig ℕ} (O : CellTallies nD τ sig ℕ) (hO : O₀ = O + tallyAt (capCell p (upR p c)) u k') {W : Waits sig ℕ} :
    iprop(cellInv ER (ringRd m) κ (capCell p (upR p c)) ∗ owes (c : Thread nD τ) O₀ W
        ∗ dutyTok ER (capCell p (upR p c)) 0 (capD p u hu)
        ∗ grantsUpTo (F := F) p c u ∗ reached ER (capCell p (upR p c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((upR p c : Dev nD) : Thread nD τ) (capS p) k') k) Q) := by
  iintro ⟨#HI, HO, Htok, #Hg, #Hr⟩ Hk
  iapply (Rounds.wp_signal 𝒱₀ ER (ringRd m) (c : Thread nD τ) none (dst := ((upR p c : Dev nD) : Thread nD τ)) (κ := κ)
      (r := 0) (d := capD p u hu) (by rw [duties_cap m _ p]; exact mem_firstN hu) ((amount_cap m _ p 0 _).trans hk') u O hO)
    $$ [HO Htok]
  · isplitr; · iexact HI
    isplitl [HO]; · iexact HO
    isplitl [Htok]; · iexact Htok
    isplitr
    · rw [payload_cap]; rw [dnR_upR]; iexact Hg
    · iexact Hr
  iexact Hk

/-- The wait on `c`'s send cell of slot `b`, round `r`: the lent half back, at what was sent. -/
theorem wp_sendwait (b : Fin 2) (r : ℕ) (hr : r < nSend p b) (ι : ℕ) {sp' : Space} {s' : Shape} {e' : EltTy} {src : Memref sig .tc sp' s' e'} {κ' : Idealize.ShloMosaic.Kind}
    {dst : Memref sig κ' .vmem S2x2048x256 .bf16} (hd : dst.view.dmaCredit = Ncr) {hsrc : src.view.WordExact} {hdst : dst.view.WordExact}
    {k : PUnit → Prog (TpuEff nD τ sig (Elt F) Λ₀ .tc) α} {κ : ℕ} {O : CellTallies nD τ sig ℕ} {W : Waits sig ℕ} :
    iprop(cellInv ER (ringRd m) κ (sendCell p b c) ∗ cred (tallyAt (sendCell p b c) ι Ncr) ∗ owes (c : Thread nD τ) O W
        ∗ MayWait (c : Thread nD τ) (.dma (sendS p b)) ι O ∗ atPos ER (sendCell p b c) r ∅ 0)
      ⊢ iprop(((owes (c : Thread nD τ) O (insert (SemLoc.dma (sendS p b), ι) W) ∗ atPos ER (sendCell p b c) (r + 1) ∅ 0 ∗ reached ER (sendCell p b c) (r + 1)
              ∗ slotLent c p b (sentV m p (2 * r + b.val) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS p b) src dst hsrc hdst) k) Q) := by
  rw [← hd]
  iintro ⟨#HI, Hc, HO, #Hmw, Hat⟩ Hk
  iapply (Rounds.wp_wait_rest_token 𝒱₀ ER (ringRd m) (c : Thread nD τ) none (κ := κ) (k' := dst.view.dmaCredit)
      (wpE_waitDma2_eq 𝒱₀ (c : Thread nD τ) none Set.univ) (Set.mem_univ _) ι (O := O) (W := W) (R := r) (m := 0) (T := ∅)
      (by rw [Nat.zero_add, hd, expect_send m c p b hr])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_send m c p b hr)) $$ Hpay
  unfold sendPay
  isplitl [HO]; · iexact HO
  isplitl [Hat]; · iexact Hat
  isplitl [Hr]; · iexact Hr
  iexact Hp

/-- The wait on `c`'s receive cell of slot `b`, round `r`: the slot whole, holding the upstream block. -/
theorem wp_recvwait (b : Fin 2) (r : ℕ) (hr : r < nRecv p b) (ι : ℕ) {sp' : Space} {s' : Shape} {e' : EltTy} {src : Memref sig .tc sp' s' e'} {κ' : Idealize.ShloMosaic.Kind}
    {dst : Memref sig κ' .vmem S2x2048x256 .bf16} (hd : dst.view.dmaCredit = Ncr) {hsrc : src.view.WordExact} {hdst : dst.view.WordExact}
    {k : PUnit → Prog (TpuEff nD τ sig (Elt F) Λ₀ .tc) α} {κ : ℕ} {O : CellTallies nD τ sig ℕ} {W : Waits sig ℕ} :
    iprop(cellInv ER (ringRd m) κ (recvCell p b c) ∗ cred (tallyAt (recvCell p b c) ι Ncr) ∗ owes (c : Thread nD τ) O W
        ∗ MayWait (c : Thread nD τ) (.dma (recvS p b)) ι O ∗ atPos ER (recvCell p b c) r ∅ 0)
      ⊢ iprop(((owes (c : Thread nD τ) O (insert (SemLoc.dma (recvS p b), ι) W) ∗ atPos ER (recvCell p b c) (r + 1) ∅ 0 ∗ reached ER (recvCell p b c) (r + 1)
              ∗ slotAt c p b (sentV m p (2 * r + (1 - b.val)) (upR p c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS p b) src dst hsrc hdst) k) Q) := by
  rw [← hd]
  iintro ⟨#HI, Hc, HO, #Hmw, Hat⟩ Hk
  iapply (Rounds.wp_wait_rest_token 𝒱₀ ER (ringRd m) (c : Thread nD τ) none (κ := κ) (k' := dst.view.dmaCredit)
      (wpE_waitDma2_eq 𝒱₀ (c : Thread nD τ) none Set.univ) (Set.mem_univ _) ι (O := O) (W := W) (R := r) (m := 0) (T := ∅)
      (by rw [Nat.zero_add, hd, expect_recv m c p b hr])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_recv m c p b hr)) $$ Hpay
  unfold recvPay
  isplitl [HO]; · iexact HO
  isplitl [Hat]; · iexact Hat
  isplitl [Hr]; · iexact Hr
  iexact Hp

end Steps

end Cert.KernelIdeal.RingProof

end
-- ==== Proof.RingSteps2.lean ====
/-
  The protocol's remaining steps: the entry wait, a credit wait and what it harvests, a hop, and the hand-back
  of a slot to its writer.
-/
import proofs.«900462_g7700000000000463_dist_ring_attn_i_s2048_d256_v7x_i8_f32_1_alg».proof.Proof.RingSteps

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig ℕ (Elt F) ℕ UU ℕ

variable (m : Mem F)

section Steps

variable {α : Type} {Q : α → sProp (MT nD τ sig ℕ (Elt F) ℕ UU ℕ)} (c : Dev nD) (p : Fin 2)

/-! ## The entry wait -/

theorem firstN_two : firstN 2 = {(0 : DN), (1 : DN)} := by decide

/-- Both neighbours' words. -/
theorem rest_bar :
    bigSep ((ringRd (F := F) m).duties (barCell c) 0 \ ∅) (fun d => (ringRd (F := F) m).payload (barCell c) 0 d)
      = iprop(barPay (F := F) 0 c ∗ barPay (F := F) 1 c) := by
  rw [Finset.sdiff_empty, duties_bar, firstN_two, bigSep_insert (by decide), bigSep_singleton]
  rw [show ((0 : DN)) = (⟨(0 : Fin 2).val, by omega⟩ : DN) from rfl, show ((1 : DN)) = (⟨(1 : Fin 2).val, by omega⟩ : DN) from rfl,
    payload_bar m c 0 0, payload_bar m c 0 1]
  rfl

/-- The entry wait: two units, the whole round; each neighbour's first receive slot (in the ring that runs from
    `c` to it) has been released once. -/
theorem wp_barwait {k : PUnit → Prog (TpuEff nD τ sig (Elt F) Λ₀ .tc) α} {κ : ℕ}
    {O : CellTallies nD τ sig ℕ} {W : Waits sig ℕ} :
    iprop(cellInv ER (ringRd m) κ (barCell c) ∗ cred (tallyAt (barCell c) 0 2) ∗ owes (c : Thread nD τ) O W
        ∗ MayWait (c : Thread nD τ) (.reg barS) 0 O ∗ atPos ER (barCell c) 0 ∅ 0)
      ⊢ iprop(((owes (c : Thread nD τ) O (insert (SemLoc.reg barS, 0) W) ∗ atPos ER (barCell c) 1 ∅ 0 ∗ reached ER (barCell c) 1
              ∗ Release.released (ES (F := F)) ((lft c, (1 : Fin 2), (1 : Fin 2)) : KS) 1
              ∗ Release.released (ES (F := F)) ((rgt c, (0 : Fin 2), (1 : Fin 2)) : KS) 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  iintro ⟨#HI, Hc, HO, #Hmw, Hat⟩ Hk
  iapply (Rounds.wp_wait_rest_token 𝒱₀ ER (ringRd m) (c : Thread nD τ) none (κ := κ) (k' := 2)
      (wpE_semWait_eq 𝒱₀ (c : Thread nD τ) none Set.univ) (Set.mem_univ _) 0 (O := O) (W := W) (R := 0) (m := 0) (T := ∅)
      (by rw [Nat.zero_add, expect_bar m c])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_bar m c)) $$ Hpay
  unfold barPay
  icases Hp with ⟨H0, H1⟩
  isplitl [HO]; · iexact HO
  isplitl [Hat]; · iexact Hat
  isplitl [Hr]; · iexact Hr
  isplitl [H0]; · iexact H0
  iexact H1

/-! ## A credit wait -/

/-- What has been harvested from the grants in `T`. -/
def harvest (T : Finset DN) : sProp 𝕄 := bigSep T (fun d : DN => grantsUpTo (F := F) p (dnR p c) d.val)

instance harvest_persistent (T : Finset DN) : BI.Persistent (harvest (F := F) c p T) := by
  unfold harvest; infer_instance

theorem payload_cap_fun : (fun d : DN => (ringRd (F := F) m).payload (capCell p c) 0 d) = fun d : DN => grantsUpTo (F := F) p (dnR p c) d.val :=
  funext fun d => payload_cap m c p 0 d

/-- A harvest from at least `n + 1` grants knows grant `n`. -/
theorem harvest_grant {S : Finset DN} {n : ℕ} (h : n + 1 ≤ S.card) : harvest (F := F) c p S ⊢ grantFact (F := F) p (dnR p c) n := by
  obtain ⟨d, hd, hn⟩ := exists_ge_of_card h
  exact (bigSep_elim (Φ := fun d : DN => grantsUpTo (F := F) p (dnR p c) d.val) hd).trans (grantsUpTo_elim p (dnR p c) hn)

/-- One unit of ring `p`'s credit, the `n + 1`-th: the grants met so far join the harvest, and grant `n`'s facts
    are known — the downstream neighbour's slot `n mod 2` has been released `n / 2 + 1` times and its receive
    cell of that slot has come to round `(n + 1) / 2`. -/
theorem wp_capwait (n : ℕ) (T : Finset DN) {k : PUnit → Prog (TpuEff nD τ sig (Elt F) Λ₀ .tc) α} {κ : ℕ}
    {O : CellTallies nD τ sig ℕ} {W : Waits sig ℕ} :
    iprop(cellInv ER (ringRd m) κ (capCell p c) ∗ cred (tallyAt (capCell p c) n 1) ∗ owes (c : Thread nD τ) O W
        ∗ MayWait (c : Thread nD τ) (.reg (capS p)) n O ∗ atPos ER (capCell p c) 0 T n ∗ harvest (F := F) c p T)
      ⊢ iprop((∀ S : Finset DN, (owes (c : Thread nD τ) O (W ∪ {(SemLoc.reg (capS p), n)}) ∗ atPos ER (capCell p c) 0 S (n + 1)
              ∗ harvest (F := F) c p S ∗ grantFact (F := F) p (dnR p c) n)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait (capS p) 1) k) Q) := by
  iintro ⟨#HI, Hc, HO, #Hmw, Hat, #Hh⟩ Hk
  iapply (Rounds.wp_wait 𝒱₀ ER (ringRd m) (c : Thread nD τ) none (κ := κ) (k' := 1)
      (wpE_semWait_eq 𝒱₀ (c : Thread nD τ) none Set.univ) (Set.mem_univ _) {(SemLoc.reg (capS p), n)} (cr := Finsupp.single n 1)
      (O := O) (W := W) (R := 0) (m := n) (T := T) (by rw [Util.total_single]) (image_single_subset _ n 1)) $$ [Hc HO Hat]
  · isplitr; · iexact HI
    isplitl [Hc]; · iexact Hc
    isplitl [HO]; · iexact HO
    isplitr; · iexact Hmw
    iexact Hat
  iintro %S ⟨%hS, HO, Hat, Hpay⟩
  obtain ⟨hTS, hSD, hcnt⟩ := hS
  have hcard : n + 1 ≤ S.card := by
    rw [duties_cap, expect_cap] at hcnt
    rw [duties_cap] at hSD
    have h1 := Finset.card_sdiff_of_subset hSD
    have h2 := card_firstN (nCap p) (nCap_le p)
    have h3 := Finset.card_le_card hSD
    omega
  rw [payload_cap_fun m c p]
  have hjoin : iprop(harvest (F := F) c p T ∗ harvest (F := F) c p (S \ T)) ⊢ harvest (F := F) c p S := by
    have hu : T ∪ (S \ T) = S := Finset.union_sdiff_of_subset hTS
    unfold harvest
    exact (bigSep_sep_union (Φ := fun d : DN => grantsUpTo (F := F) p (dnR p c) d.val) T (S \ T)).trans
      (Entails.of_eq (congrArg (fun X => bigSep X (fun d : DN => grantsUpTo (F := F) p (dnR p c) d.val)) hu))
  ihave HS := hjoin $$ [Hpay]
  · isplitr
    · iexact Hh
    · unfold harvest; iexact Hpay
  icases HS with #HS
  iapply Hk $$ %S
  isplitl [HO]; · iexact HO
  isplitl [Hat]; · iexact Hat
  isplitr; · iexact HS
  iapply (harvest_grant c p hcard); iexact HS

/-! ## A hop -/

/-- Hop `2r + b` of ring `p`: the left half of `c`'s slot `b`, holding what `c` sends on this hop, is lent to the
    transfer; the downstream neighbour's other slot, held outright, is handed to that neighbour holding the same
    block.  The addressee is a variable `n` equal to the neighbour, as the program names it by its device chain. -/
theorem wp_ringsend (b b' : Fin 2) (hb' : 1 - b'.val = b.val) (r : ℕ) (hs : r < nSend p b) (hr : r < nRecv p b') (ι : ℕ) (n : Dev nD) (hn : n = dnR p c)
    {hsc : (slotM p b' : Memref sig (Dev.tc n : Thread nD τ).2.kind .vmem S2x2048x256 .bf16).view.ref.isScScratch = false}
    {hsrc : (slotM p b).view.WordExact} {hdst : (slotM p b').view.WordExact}
    {hsem : DmaTarget.Typed .vmem (.dma (recvS p b')) (.remote (Dev.tc n : Thread nD τ) (slotM p b') (.dma (sendS p b)) hsc)}
    {k : PUnit → Prog (TpuEff nD τ sig (Elt F) Λ₀ .tc) α} {κ₁ κ₂ : ℕ}
    (fs : Buf (Elt F) ((slotM p b).view.loc (c : Thread nD τ)))
    (fd : Buf (Elt F) ((slotM p b').view.loc ((dnR p c : Dev nD) : Thread nD τ)))
    (hv : (slotM p b).view.read (Elt F) fs = sentV m p (2 * r + b.val) c)
    {O₀ : CellTallies nD τ sig ℕ} (O : CellTallies nD τ sig ℕ) (hO : O₀ = O + tallyAt (recvCell p b' (dnR p c)) ι Ncr) {W : Waits sig ℕ} :
    iprop(cellInv ER (ringRd m) κ₁ (sendCell p b c) ∗ cellInv ER (ringRd m) κ₂ (recvCell p b' (dnR p c))
        ∗ slotPts c p b fullShare.left fs ∗ slotPts (dnR p c) p b' fullShare fd
        ∗ owes (c : Thread nD τ) O₀ W
        ∗ dutyTok ER (sendCell p b c) r (0 : DN) ∗ reached ER (sendCell p b c) r
        ∗ dutyTok ER (recvCell p b' (dnR p c)) r (0 : DN) ∗ reached ER (recvCell p b' (dnR p c)) r)
      ⊢ iprop(((cred (tallyAt (sendCell p b c) ι Ncr) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM p b) (.remote (Dev.tc n : Thread nD τ) (slotM p b') (.dma (sendS p b)) hsc) (.dma (recvS p b')) hsrc hdst hsem) k) Q) := by
  subst hn
  unfold slotPts
  iintro ⟨#HI1, #HI2, Hs, Hd, HO, Ht1, #Hr1, Ht2, #Hr2⟩ Hk
  iapply (Rounds.wp_send_pointsTo 𝒱₀ ER (ringRd m) (c : Thread nD τ) none (κ₁ := κ₁) (κ₂ := κ₂)
      (r₁ := r) (r₂ := r) (d₁ := (0 : DN)) (d₂ := (0 : DN)) (fs := fs) (fd := fd)
      (by rw [duties_send m c p b hs]; exact Finset.mem_singleton_self _) (by rw [duties_recv m _ p b' hr]; exact Finset.mem_singleton_self _)
      ι ι Ncr rfl (amount_send m c p b r 0) (amount_recv m _ p b' r 0) O hO (W := W)
      (by rw [payload_send]; unfold sendPay slotLent slotPts; iintro H; iexists fs; isplitr; · ipureintro; exact hv
          iexact H)
      (by
        rw [payload_recv]; unfold recvPay slotAt slotPts; rw [upR_dnR, hb']
        iintro H
        iexists ((slotM p b').view.write (Elt F) fd ((slotM p b).view.read (Elt F) fs) Finset.univ)
        isplitr; · ipureintro; rw [View.read_write_univ]; exact hv
        iexact H)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

end Steps

end Cert.KernelIdeal.RingProof

end
-- ==== Proof.RingReadoff.lean ====
/-
  Reading the run of the ring: from "every windowed array ends at the contents the proof data computes" to the two
  posts the claims state, the argument arrays unchanged and the result array at the output window's contents.
-/
import proofs.«900462_g7700000000000463_dist_ring_attn_i_s2048_d256_v7x_i8_f32_1_alg».proof.Proof.RingLaunch

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Reading the run's post

The run ends with every windowed array of every device at the contents the proof data computes.  The three argument
arrays are input windows, never written back: they end as launched.  The result array is the one output window, its
block the whole array, written back once at the one grid point: it ends at what the body left in its staging buffer. -/

/-- An input window's array ends as launched. -/
theorem final_arg (m : Mem F) (dats : Fin 1 → (c : Dev nD) → Dat τ (Elt F) ℕ ℕ UU ℕ cfg0 c)
    (hA : ∀ c w, (dats 0 c).A w = m ((cfg0.win w).arr.view.loc (c : Thread nD τ)))
    (c : Dev nD) (w : Fin cfg0.W) (hw : (cfg0.win w).isOut = false) :
    (dats 0 c).arrAt w cfg0.N = m ((cfg0.win w).arr.view.loc (c : Thread nD τ)) :=
  ((dats 0 c).arrAt_in w hw _).trans (hA c w)

set_option maxRecDepth 8000 in
/-- The result array ends at the contents the body leaves in the output window's staging buffer: the write-back at the
    one point writes all of the array, and a view of all of an array reads what was written. -/
theorem final_out (dats : Fin 1 → (c : Dev nD) → Dat τ (Elt F) ℕ ℕ UU ℕ cfg0 c) (c : Dev nD) :
    (dats 0 c).arrAt (3 : Fin 4) cfg0.N = (dats 0 c).after (3 : Fin 4) t0_0 := by
  have h := (dats 0 c).arrAt_succ (3 : Fin 4) t0_0
  rw [flush0_3 t0_0, if_pos rfl] at h
  have hr : ∀ X : Buf (Elt F) ((c : Thread nD τ).loc main_v1), ((cfg0.win (3 : Fin 4)).blk t0_0).view.read (Elt F) X = X := fun X =>
    Memref.read_access_unit_zero (Elt F) main_v1 (funext fun a => by fin_cases a <;> rfl) _ X
  have hw := View.read_write_univ (Val := Elt F) (v := ((cfg0.win (3 : Fin 4)).blk t0_0).view)
    ((dats 0 c).arrAt (3 : Fin 4) t0_0.val) ((dats 0 c).flushed (3 : Fin 4) t0_0)
  rw [hr] at hw
  exact h.trans hw

set_option maxRecDepth 8000 in
/-- The run with its strongest post: on every device the result array ends at the proof data's contents of the
    output window, and the three argument arrays end as launched. -/
theorem run_value (m : Mem F) (ρ : Dev nD → PrngReg) (dats : Fin 1 → (c : Dev nD) → Dat τ (Elt F) ℕ ℕ UU ℕ cfg0 c)
    (hA : ∀ c w, (dats 0 c).A w = m ((cfg0.win w).arr.view.loc (c : Thread nD τ)))
    (hrun : θ_run defs (onTc (τ := τ) (main (F := F))) ⟨m, fun _ => 0, ρ⟩
      (fun r => ∀ c : Dev nD, ∀ w : Fin cfg0.W, r.2.mem ((cfg0.win w).arr.view.loc (c : Thread nD τ)) = (dats 0 c).arrAt w cfg0.N)) :
    θ_run defs (onTc (τ := τ) (main (F := F))) ⟨m, fun _ => 0, ρ⟩ (fun r => ∀ c : Dev nD,
      r.2.mem ((c.tc : Thread nD τ).loc main_v1) = (dats 0 c).after (3 : Fin 4) t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c (3 : Fin 4)).trans (final_out dats c),
      (h c (0 : Fin 4)).trans (final_arg m dats hA c (0 : Fin 4) rfl),
      (h c (1 : Fin 4)).trans (final_arg m dats hA c (1 : Fin 4) rfl),
      (h c (2 : Fin 4)).trans (final_arg m dats hA c (2 : Fin 4) rfl)⟩) hrun

/-- The frame: the run with the result's value dropped. -/
theorem run_frame (m : Mem F) (ρ : Dev nD → PrngReg) (dats : Fin 1 → (c : Dev nD) → Dat τ (Elt F) ℕ ℕ UU ℕ cfg0 c)
    (hA : ∀ c w, (dats 0 c).A w = m ((cfg0.win w).arr.view.loc (c : Thread nD τ)))
    (hrun : θ_run defs (onTc (τ := τ) (main (F := F))) ⟨m, fun _ => 0, ρ⟩
      (fun r => ∀ c : Dev nD, ∀ w : Fin cfg0.W, r.2.mem ((cfg0.win w).arr.view.loc (c : Thread nD τ)) = (dats 0 c).arrAt w cfg0.N)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ dats hA hrun)

/-- info: 'Cert.KernelIdeal.RingProof.run_value' depends on axioms: [propext, Classical.choice, Quot.sound] -/
#guard_msgs in #print axioms run_value

/-- info: 'Cert.KernelIdeal.RingProof.run_frame' depends on axioms: [propext, Classical.choice, Quot.sound] -/
#guard_msgs in #print axioms run_frame

end Cert.KernelIdeal.RingProof

end
-- ==== Proof.RingValue.lean ====
/-
  The kernel's value as a pure function of its inputs, for any float values.

  The body keeps a denominator column l (2048 × 1) and a numerator block acc (2048 × 256), both zeroed, and visits
  eight key/value blocks.  One visit ("accumulate") goes through the four chunks of 512 query rows: for chunk k it
  forms the weights  p = exp ((q_chunk · kᵀ) · 2⁻⁴),  adds their row sums to rows 512k … 512k+511 of l and the
  product p · v to the same rows of acc.  The result is acc divided, row by row, by l.

  Everything here is written over the same records, rectangles and evidence the printed program uses, so that each
  store and load the program makes is literally one of these terms.
-/
import proofs.«900462_g7700000000000463_dist_ring_attn_i_s2048_d256_v7x_i8_f32_1_alg».proof.Proof.Gen.KernelIdeal.Skeleton

noncomputable section

namespace Cert.KernelIdeal.AttnKer

open Cert.KernelIdeal Cert.KernelIdeal.Gen Idealize.ShloMosaic Idealize.SL.Sem

variable {F : FTy → Type} [FloatOps F]

/-- The contents of the denominator column's buffer. -/
abbrev LBuf (F : FTy → Type) : Type := cc0_scratch3.ty.Contents (Elt F)
/-- The contents of the numerator block's buffer. -/
abbrev ABuf (F : FTy → Type) : Type := cc0_scratch2.ty.Contents (Elt F)

/-- The rows `o … o+511` of the denominator column. -/
abbrev rowsL (o : Nat) (inb : ∀ a, (![o, 0] : Fin 2 → Nat) a + S512x1.size a ≤ S2048x1.size a) : Rect S2048x1 :=
  Rect.unit (s := S2048x1) ![o, 0] S512x1.size inb
/-- The rows `o … o+511` of the numerator block. -/
abbrev rowsA (o : Nat) (inb : ∀ a, (![o, 0] : Fin 2 → Nat) a + S512x256.size a ≤ S2048x256.size a) : Rect S2048x256 :=
  Rect.unit (s := S2048x256) ![o, 0] S512x256.size inb

/-- The weights of one chunk: the query rows from `o` on against a key block, scaled by 2⁻⁴, exponentiated. -/
def chunkW (o : Nat) (hs : S2048x256.Slices ![o, 0] S512x256) (qv kb : FVec F S2048x256 .bf16) : FVec F S512x2048 .f32 :=
  exp (mulf (matmul dot_S512x256_S2048x256_S512x2048_1_1_0_0_n_n none (extractStridedSlice S512x256 ![o, 0] qv hs) kb
    (constant S512x2048 .f32 0x00000000#32)) (broadcast S512x2048 (Scalar.ofBits .f32 0x3D800000#32)))

/-- The weights of chunk `k` of the four. -/
def weights (qv kb : FVec F S2048x256 .bf16) : Fin 4 → FVec F S512x2048 .f32
  | 0 => chunkW 0 slices_S2048x256_o0_0_S512x256 qv kb
  | 1 => chunkW 512 slices_S2048x256_o512_0_S512x256 qv kb
  | 2 => chunkW 1024 slices_S2048x256_o1024_0_S512x256 qv kb
  | 3 => chunkW 1536 slices_S2048x256_o1536_0_S512x256 qv kb

/-- What a chunk stores into its rows of the denominator: the old rows plus the weights' row sums. -/
def denVal (p : FVec F S512x2048 .f32) (old : Vec F S512x1 .f32) : FVec F S512x1 .f32 :=
  shapeCast S512x1 (addf old (shapeCast S512x1
    (multiReduction .add [1] S512 p 0x00000000#32 reduces_S512x2048_S512 (.inl rfl) rfl) shapeCasts_S512_S512x1))
    shapeCasts_S512x1_S512x1

/-- What a chunk stores into its rows of the numerator: the old rows plus the weights times the value block. -/
def numVal (p : FVec F S512x2048 .f32) (vb : FVec F S2048x256 .bf16) (old : Vec F S512x256 .f32) : FVec F S512x256 .f32 :=
  shapeCast S512x256 (addf old (matmul dot_S512x2048_S2048x256_S512x256_1_0_0_1_n_n none (truncf .bf16 p bitsLt_bf16_f32) vb
    (constant S512x256 .f32 0x00000000#32))) shapeCasts_S512x256_S512x256

/-- One chunk's new denominator buffer: rows `o … o+511` loaded, updated, stored back. -/
def stepL (o : Nat) (inb : ∀ a, (![o, 0] : Fin 2 → Nat) a + S512x1.size a ≤ S2048x1.size a)
    (p : FVec F S512x2048 .f32) (fl : LBuf F) : LBuf F :=
  ((Memref.whole cc0_scratch3).access (rowsL o inb)).write (Elt F) fl
    (denVal p ((Memref.whole cc0_scratch3).view.readAt (Elt F) (rowsL o inb).toLoadRect fl)) Finset.univ

/-- One chunk's new numerator buffer. -/
def stepA (o : Nat) (inb : ∀ a, (![o, 0] : Fin 2 → Nat) a + S512x256.size a ≤ S2048x256.size a)
    (p : FVec F S512x2048 .f32) (vb : FVec F S2048x256 .bf16) (fa : ABuf F) : ABuf F :=
  ((Memref.whole cc0_scratch2).access (rowsA o inb)).write (Elt F) fa
    (numVal p vb ((Memref.whole cc0_scratch2).view.readAt (Elt F) (rowsA o inb).toLoadRect fa)) Finset.univ

/-- One visit: the four chunks in order, against the key block `kb` and the value block `vb`. -/
def accumulate (qv kb vb : FVec F S2048x256 .bf16) (st : LBuf F × ABuf F) : LBuf F × ABuf F :=
  (stepL 1536 inb_S2048x1_S512x1_1536_0 (weights qv kb 3)
    (stepL 1024 inb_S2048x1_S512x1_1024_0 (weights qv kb 2)
      (stepL 512 inb_S2048x1_S512x1_512_0 (weights qv kb 1)
        (stepL 0 inb_S2048x1_S512x1_0_0 (weights qv kb 0) st.1))),
   stepA 1536 inb_S2048x256_S512x256_1536_0 (weights qv kb 3) vb
    (stepA 1024 inb_S2048x256_S512x256_1024_0 (weights qv kb 2) vb
      (stepA 512 inb_S2048x256_S512x256_512_0 (weights qv kb 1) vb
        (stepA 0 inb_S2048x256_S512x256_0_0 (weights qv kb 0) vb st.2))))

/-- The two buffers after the first `n` visits, from the zeroed start. -/
def visited (qv : FVec F S2048x256 .bf16) (kv : Fin 8 → FVec F S2048x256 .bf16 × FVec F S2048x256 .bf16) :
    Nat → LBuf F × ABuf F
  | 0 => (k0_pay10, k0_pay11)
  | n + 1 => if h : n < 8 then accumulate qv (kv ⟨n, h⟩).1 (kv ⟨n, h⟩).2 (visited qv kv n) else visited qv kv n

/-- The kernel's result block: the numerator read whole, divided by the denominator read whole, after the eight
    visits. -/
def kerOut (q : Vec F S2048x256 .f32) (kv : Fin 8 → FVec F S2048x256 .bf16 × FVec F S2048x256 .bf16) :
    Vec F S2048x256 .f32 :=
  k0_pay2
    ((Memref.whole cc0_scratch2).view.readAt (Elt F)
      (Rect.unit (s := S2048x256) ![0, 0] S2048x256.size inb_S2048x256_S2048x256_0_0).toLoadRect (visited (k0_pay9 q) kv 8).2)
    ((Memref.whole cc0_scratch3).view.readAt (Elt F)
      (Rect.unit (s := S2048x1) ![0, 0] S2048x1.size inb_S2048x1_S2048x1_0_0).toLoadRect (visited (k0_pay9 q) kv 8).1)

/-- The eight visits, one at a time. -/
theorem visited_succ (qv : FVec F S2048x256 .bf16) (kv : Fin 8 → FVec F S2048x256 .bf16 × FVec F S2048x256 .bf16)
    (n : Fin 8) : visited qv kv (n.val + 1) = accumulate qv (kv n).1 (kv n).2 (visited qv kv n.val) := by
  show (if h : n.val < 8 then _ else _) = _
  rw [dif_pos n.isLt]

/-! ## The printed payloads are these functions -/

theorem pay14_eq (v33 : FVec F S2048x256 .bf16) (v62 : Vec F S1x1x2048x256 .bf16) :
    k0_pay14 v33 v62 = weights v33 (k0_pay12 v62) 0 := rfl
theorem pay15_eq (v33 : FVec F S2048x256 .bf16) (v62 : Vec F S1x1x2048x256 .bf16) (v71 : Vec F S512x1 .f32) :
    k0_pay15 v33 v62 v71 = denVal (weights v33 (k0_pay12 v62) 0) v71 := rfl
theorem pay17_eq (v33 : FVec F S2048x256 .bf16) (v62 v64 : Vec F S1x1x2048x256 .bf16) (v80 : Vec F S512x256 .f32) :
    k0_pay17 (k0_pay16 v33 v62 v64 v80) = numVal (weights v33 (k0_pay12 v62) 0) (k0_pay13 v64) v80 := rfl
theorem pay18_eq (v33 v63 : FVec F S2048x256 .bf16) : k0_pay18 v33 v63 = weights v33 v63 1 := rfl
theorem pay19_eq (v33 v63 : FVec F S2048x256 .bf16) (v90 : Vec F S512x1 .f32) :
    k0_pay19 v33 v63 v90 = denVal (weights v33 v63 1) v90 := rfl
theorem pay20_eq (v33 v63 v65 : FVec F S2048x256 .bf16) (v99 : Vec F S512x256 .f32) :
    k0_pay20 v33 v63 v65 v99 = numVal (weights v33 v63 1) v65 v99 := rfl
theorem pay34_eq (v221 : FVec F S512x2048 .f32) (v222 : Vec F S512x1 .f32) : k0_pay34 v221 v222 = denVal v221 v222 := rfl
theorem pay35_eq (v197 : FVec F S2048x256 .bf16) (v221 : FVec F S512x2048 .f32) (v231 : Vec F S512x256 .f32) :
    k0_pay35 v197 v221 v231 = numVal v221 v197 v231 := rfl
theorem pay40_eq (v33 v195 : FVec F S2048x256 .bf16) :
    k0_pay40 v195 (k0_pay39 v33) (constant S512x2048 .f32 0x00000000#32) = weights v33 v195 3 := rfl
theorem pay41_eq (v33 v195 : FVec F S2048x256 .bf16) (v260 : Vec F S512x1 .f32) :
    k0_pay41 v195 (k0_pay39 v33) (constant S512x2048 .f32 0x00000000#32) v260 = denVal (weights v33 v195 3) v260 := rfl
theorem pay42_eq (v33 v195 v197 : FVec F S2048x256 .bf16) (v269 : Vec F S512x256 .f32) :
    k0_pay42 v195 v197 (k0_pay39 v33) (constant S512x2048 .f32 0x00000000#32) v269 = numVal (weights v33 v195 3) v197 v269 := rfl
theorem pay1_eq (v783 : FVec F S2048x256 .bf16) (v845 : FVec F S512x2048 .f32) (v855 : Vec F S512x256 .f32) :
    k0_pay1 v783 v845 v855 = numVal v845 v783 v855 := rfl

end Cert.KernelIdeal.AttnKer

end

/-- info: 'Cert.KernelIdeal.AttnKer.visited_succ' depends on axioms: [propext, Classical.choice, Quot.sound] -/
#guard_msgs in #print axioms Cert.KernelIdeal.AttnKer.visited_succ
-- ==== Proof.RingState.lean ====
/-
  A device's share of the ghost state, its state on entering and on leaving the body, and the proof data the
  launch theorem takes.
  Every device knows (persistently) every cell's invariant, that every cell stands at round 0, and every receive
  slot's release invariant.  Device `c` holds for itself: its eleven cells' positions at the start; the tokens of
  the fourteen payments it makes to its neighbours and of the seven rounds of its own send cells; the reader's
  count of its four receive slots; and, as writer, two write tokens for each of the four downstream slots.
  On leaving, its ten own cells stand past their last rounds and its scratch buffers are whole again.
  Its result block is the quotient the eight visited blocks accumulate to: `c` itself, then alternately the
  right-going ring's and the left-going ring's next block, the right-going ring's fourth last.
-/
import proofs.«900462_g7700000000000463_dist_ring_attn_i_s2048_d256_v7x_i8_f32_1_alg».proof.Proof.RingSteps2
import proofs.«900462_g7700000000000463_dist_ring_attn_i_s2048_d256_v7x_i8_f32_1_alg».proof.Proof.RingReadoff
import proofs.«900462_g7700000000000463_dist_ring_attn_i_s2048_d256_v7x_i8_f32_1_alg».proof.Proof.RingValue
import proofs.«900462_g7700000000000463_dist_ring_attn_i_s2048_d256_v7x_i8_f32_1_alg».proof.Proof.Gen.KernelIdeal.Frame

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : Mem F)

/-! ## Tokens and slots -/

/-- Every (cell, round, duty) of the schedule: no cell has a duty past round 1. -/
def toks : Finset (GSem nD τ sig × ℕ × DN) :=
  (Finset.univ : Finset (Dev nD × Fin 11)).biUnion fun ck =>
    (Finset.range 2).biUnion fun r => ((ringRd (F := F) m).duties (kcell ck) r).image fun d => (kcell ck, r, d)

/-- A receive slot as its release invariant holds it: the slot's elements, whole, at any contents. -/
def Sl (k : KS) : sProp 𝕄 :=
  Release.slot ((slotM k.2.1 k.2.2).view.loc ((k.1 : Dev nD) : Thread nD τ)) (slotM k.2.1 k.2.2).view.set

instance Sl_storable (k : KS) : BI.Storable (upEmb : UEmb _ 𝕄) (Sl (F := F) k) := by unfold Sl; infer_instance

/-! ## A device's share -/

/-- What every device knows. -/
def knows (Kn : Dev nD × Fin 11 → ℕ) (ιs : KS → ℕ) : sProp 𝕄 :=
  iprop((bigSep Finset.univ fun ck : Dev nD × Fin 11 => cellInv ER (ringRd m) (Kn ck) (kcell ck))
    ∗ (bigSep Finset.univ fun ck : Dev nD × Fin 11 => reached (ER (F := F)) (kcell ck) 0)
    ∗ (bigSep (Finset.univ : Finset KS) fun k => Release.slotInv (ES (F := F)) (ιs k) k (Sl k)))

/-- What device `c` holds for itself. -/
def mine (c : Dev nD) : sProp 𝕄 :=
  iprop((bigSep Finset.univ fun k : Fin 11 => atPos (ER (F := F)) (kcell (c, k)) 0 ∅ 0)
    ∗ dutyTok (ER (F := F)) (barCell (lft c)) 0 (1 : DN) ∗ dutyTok (ER (F := F)) (barCell (rgt c)) 0 (0 : DN)
    ∗ (bigSep (Finset.univ : Finset (Fin 2 × Fin 2)) fun pb => bigSep (Finset.range (nSend pb.1 pb.2)) fun r => dutyTok (ER (F := F)) (sendCell pb.1 pb.2 c) r (0 : DN))
    ∗ (bigSep (Finset.univ : Finset (Fin 2 × Fin 2)) fun pb => bigSep (Finset.range (nRecv pb.1 pb.2)) fun r => dutyTok (ER (F := F)) (recvCell pb.1 pb.2 (dnR pb.1 c)) r (0 : DN))
    ∗ (bigSep (Finset.univ : Finset (Fin 2)) fun p => bigSep (firstN (nCap p)) fun d => dutyTok (ER (F := F)) (capCell p (upR p c)) 0 d)
    ∗ (bigSep (Finset.univ : Finset (Fin 2 × Fin 2)) fun pb => Release.readerAt (ES (F := F)) ((c, pb.1, pb.2) : KS) 0)
    ∗ (bigSep ((Finset.univ : Finset (Fin 2 × Fin 2)) ×ˢ Finset.range 2) fun x => Release.writeTok (ES (F := F)) ((dnR x.1.1 c, x.1.1, x.1.2) : KS) (x.2 + 1)))

/-- The share dealt to device `c` at launch. -/
def G' (c : Dev nD) : sProp 𝕄 :=
  iprop(∃ (Kn : Dev nD × Fin 11 → ℕ) (ιs : KS → ℕ), ⌜Function.Injective ιs⌝ ∗ knows m Kn ιs ∗ mine (F := F) c)

/-! ## Entering and leaving -/

/-- The state on entering the body: the dealt share, the launch credit for what the neighbours owe this device,
    the levels, and the four scratch buffers at unknown contents. -/
def entry (c : Dev nD) : sProp 𝕄 :=
  iprop(G' m c ∗ Pipeline.launchCred O₀ c ∗ (levAts L lv : sProp 𝕄) ∗ scratch c)

/-- How many rounds own cell `k` has (in the launch's order: the right-going ring's two send and two receive
    cells, the left-going ring's, then the two credit cells): where it stands at the end. -/
def lastRound : Fin 10 → ℕ
  | 0 => nSend 0 0 | 1 => nSend 0 1 | 2 => nRecv 0 0 | 3 => nRecv 0 1
  | 4 => nSend 1 0 | 5 => nSend 1 1 | 6 => nRecv 1 0 | 7 => nRecv 1 1
  | 8 => 1 | 9 => 1

/-- The ten own cells when the body's last instruction is done: each invariant known, the owner past the cell's
    last round; from here each cell closes back to its counter at zero. -/
def cellsDone (c : Dev nD) : sProp 𝕄 :=
  bigSep Finset.univ fun k : Fin 10 => iprop(∃ κ : ℕ, cellInv ER (ringRd m) κ ((c : Thread nD τ), osem k) ∗ atPos (ER (F := F)) ((c : Thread nD τ), osem k) (lastRound k) ∅ 0)

/-- The state on leaving: the ten own counters back at zero, the scratch whole. -/
def leaving (c : Dev nD) : sProp 𝕄 :=
  iprop(Pipeline.ownSems0 (Ix := ℕ) (Name := ℕ) (U := UU) (Lvl := ℕ) (Val := Elt F) (τ := τ) osem c ∗ scratch c)

/-! ## The result -/

/-- The device whose block is visited `n`-th by `c`. -/
def visitD (c : Dev nD) : Fin 8 → Dev nD
  | 0 => c
  | 1 => origin 0 1 c | 2 => origin 1 1 c
  | 3 => origin 0 2 c | 4 => origin 1 2 c
  | 5 => origin 0 3 c | 6 => origin 1 3 c
  | 7 => origin 0 4 c

/-- Device `c`'s result block, as the body's arithmetic leaves it. -/
def outBlock (c : Dev nD) : Vec F S2048x256 .f32 :=
  Cert.KernelIdeal.AttnKer.kerOut (m ((c : Thread nD τ).loc main_arg0))
    (fun n => (k0_pay3 (m ((visitD c n : Thread nD τ).loc main_arg1)), k0_pay4 (m ((visitD c n : Thread nD τ).loc main_arg2))))

/-! ## The proof data -/

/-- Per device: the arrays as launched; the three argument blocks staged stay as fetched and the result block
    ends at `outBlock`; the states on entering and leaving; everything owed before the body, nothing after. -/
def dats (ρ : Dev nD → PrngReg) : Fin 1 → (c : Dev nD) → Dat τ (Elt F) ℕ ℕ UU ℕ cfg0 c := fun _ c =>
  { A := fun w => m ((cfg0.win w).arr.view.loc (c : Thread nD τ))
    after := fun w t => match w with
      | 0 => iblk m c 0 t
      | 1 => iblk m c 1 t
      | 2 => iblk m c 2 t
      | 3 => outBlock m c
    Φ := fun | ⟨0, _⟩ => entry m c | ⟨_ + 1, _⟩ => leaving (F := F) c
    q := fun _ => fullShare
    owed := fun | ⟨0, _⟩ => O₀ c | ⟨_ + 1, _⟩ => 0 }

theorem hA (ρ : Dev nD → PrngReg) : ∀ c w, (dats m ρ 0 c).A w = m ((cfg0.win w).arr.view.loc (c : Thread nD τ)) := fun _ _ => rfl
theorem hq (ρ : Dev nD → PrngReg) : ∀ c w, (dats m ρ 0 c).q w = fullShare := fun _ _ => rfl
theorem howed₀ (ρ : Dev nD → PrngReg) : ∀ c, (dats m ρ 0 c).owed 0 = O₀ c := fun _ => rfl
theorem howedN (ρ : Dev nD → PrngReg) : ∀ c, (dats m ρ 0 c).owed (Fin.last _) = 0 := fun _ => rfl

/-- Entering is what the launch hands over, as it stands. -/
theorem hentry (ρ : Dev nD → PrngReg) : ∀ c, iprop(G' m c ∗ Pipeline.launchCred O₀ c ∗ (levAts L lv : sProp 𝕄) ∗ scratch c) ⊢ (dats m ρ 0 c).Φ 0 :=
  fun _ => Entails.rfl

/-- Leaving is what the launch takes back, as it stands. -/
theorem hexit (ρ : Dev nD → PrngReg) : ∀ c, (dats m ρ 0 c).Φ (Fin.last cfg0.N)
    ⊢ iprop(Pipeline.ownSems0 (Ix := ℕ) (Name := ℕ) (U := UU) (Lvl := ℕ) (Val := Elt F) (τ := τ) osem c ∗ scratch c) :=
  fun _ => Entails.rfl

/-- The state when the body's last instruction is done, before the cells are closed: the cells past their last
    rounds, the scratch whole, nothing owed, the three argument blocks staged as fetched and the result block
    staged at `outBlock`. -/
def closing (ρ : Dev nD → PrngReg) (c : Dev nD) : sProp 𝕄 :=
  iprop(cellsDone m c ∗ scratch c ∗ (dats m ρ 0 c).owesAt 0 t0_0.succ
    ∗ stg c cc0_stg0_0 ((dats m ρ 0 c).after (0 : Fin 4) t0_0) ∗ stg c cc0_stg1_0 ((dats m ρ 0 c).after (1 : Fin 4) t0_0)
    ∗ stg c cc0_stg2_0 ((dats m ρ 0 c).after (2 : Fin 4) t0_0) ∗ stg c cc0_stg3_0 ((dats m ρ 0 c).after (3 : Fin 4) t0_0))

end Cert.KernelIdeal.RingProof

end
-- ==== Proof.RingSlots.lean ====
/-
  The geometry of a ring buffer.  A buffer is [2, 2, 2048, 256]: two slots, each a key half and a value half of 2048 × 256.
  Slot `b` is the set of indices whose first coordinate is `b`; half `h` of it those whose second coordinate is `h` as well.
  The two slots are disjoint and cover the buffer; the two halves of a slot are disjoint and cover the slot.
  A transfer names a slot whole (the slice at [b, 0, 0, 0], squeezed to [2, 2048, 256]); the body loads and stores it by halves
  (the rectangle at [b, h, 0, 0] of sizes [1, 1, 2048, 256]).
-/
import proofs.«900462_g7700000000000463_dist_ring_attn_i_s2048_d256_v7x_i8_f32_1_alg».proof.Proof.RingSchedule

noncomputable section

namespace Cert.KernelIdeal.RingProof

open Cert.KernelIdeal Cert.KernelIdeal.Gen

open Idealize.ShloMosaic
open Idealize.ShloMosaic.TcCoe
open Idealize.SL.Sem

variable {F : FTy → Type} [FloatOps F]

/-! ## The rectangles -/

/-- Offsets of half `h` (0 the keys, 1 the values) of slot `b`. -/
abbrev halfOff (b h : Fin 2) : Fin 4 → Nat := ![b.val, h.val, 0, 0]
theorem half_inb : ∀ (b h : Fin 2) a, halfOff b h a + S1x1x2048x256.size a ≤ S2x2x2048x256.size a := by decide
/-- Half `h` of slot `b`: all its rows and columns. -/
abbrev halfR (b h : Fin 2) : Rect S2x2x2048x256 := Rect.unit (s := S2x2x2048x256) (halfOff b h) S1x1x2048x256.size (half_inb b h)

/-- A slot is the indices with its first coordinate. -/
theorem mem_slot {b : Fin 2} {i : S2x2x2048x256.Idx} : i ∈ (slotR b).set ↔ (i 0).val = b.val := by
  rw [Rect.mem_set_unit]
  have h1 : (i 1).val < 2 := (i 1).isLt
  have h2 : (i 2).val < 2048 := (i 2).isLt
  have h3 : (i 3).val < 256 := (i 3).isLt
  constructor
  · intro h
    have h0 : b.val ≤ (i 0).val ∧ (i 0).val < b.val + 1 := h 0
    omega
  · intro h0 a
    match a with
    | ⟨0, _⟩ => exact (show b.val ≤ (i 0).val ∧ (i 0).val < b.val + 1 from ⟨by omega, by omega⟩)
    | ⟨1, _⟩ => exact (show 0 ≤ (i 1).val ∧ (i 1).val < 0 + 2 from ⟨by omega, by omega⟩)
    | ⟨2, _⟩ => exact (show 0 ≤ (i 2).val ∧ (i 2).val < 0 + 2048 from ⟨by omega, by omega⟩)
    | ⟨3, _⟩ => exact (show 0 ≤ (i 3).val ∧ (i 3).val < 0 + 256 from ⟨by omega, by omega⟩)

/-- A half is the indices with its first two coordinates. -/
theorem mem_half {b h : Fin 2} {i : S2x2x2048x256.Idx} : i ∈ (halfR b h).set ↔ (i 0).val = b.val ∧ (i 1).val = h.val := by
  rw [Rect.mem_set_unit]
  have h2 : (i 2).val < 2048 := (i 2).isLt
  have h3 : (i 3).val < 256 := (i 3).isLt
  constructor
  · intro hm
    have h0 : b.val ≤ (i 0).val ∧ (i 0).val < b.val + 1 := hm 0
    have h1 : h.val ≤ (i 1).val ∧ (i 1).val < h.val + 1 := hm 1
    exact ⟨by omega, by omega⟩
  · rintro ⟨h0, h1⟩ a
    match a with
    | ⟨0, _⟩ => exact (show b.val ≤ (i 0).val ∧ (i 0).val < b.val + 1 from ⟨by omega, by omega⟩)
    | ⟨1, _⟩ => exact (show h.val ≤ (i 1).val ∧ (i 1).val < h.val + 1 from ⟨by omega, by omega⟩)
    | ⟨2, _⟩ => exact (show 0 ≤ (i 2).val ∧ (i 2).val < 0 + 2048 from ⟨by omega, by omega⟩)
    | ⟨3, _⟩ => exact (show 0 ≤ (i 3).val ∧ (i 3).val < 0 + 256 from ⟨by omega, by omega⟩)

/-- The two slots share no index … -/
theorem slot_disjoint : Disjoint (slotR 0).set (slotR 1).set := by
  rw [Finset.disjoint_left]
  intro i hi hi'
  have h0 : (i 0).val = 0 := mem_slot.mp hi
  have h1 : (i 0).val = 1 := mem_slot.mp hi'
  omega

/-- … and between them have every index. -/
theorem slot_cover : (slotR 0).set ∪ (slotR 1).set = Finset.univ := by
  ext i
  simp only [Finset.mem_union, Finset.mem_univ, iff_true]
  have h : (i 0).val < 2 := (i 0).isLt
  rcases (by omega : (i 0).val = 0 ∨ (i 0).val = 1) with h0 | h0
  · exact Or.inl (mem_slot.mpr h0)
  · exact Or.inr (mem_slot.mpr h0)

/-- Different slots share no index, whichever way the two are named. -/
theorem slot_disjoint_of_ne {b b' : Fin 2} (hb : b ≠ b') : Disjoint (slotR b).set (slotR b').set := by
  rw [Finset.disjoint_left]
  intro i hi hi'
  exact hb (Fin.ext ((mem_slot.mp hi).symm.trans (mem_slot.mp hi')))

/-- A half lies in its slot. -/
theorem half_subset (b h : Fin 2) : (halfR b h).set ⊆ (slotR b).set :=
  fun i hi => mem_slot.mpr (mem_half.mp hi).1

/-- The two halves of a slot share no index … -/
theorem half_disjoint (b : Fin 2) : Disjoint (halfR b 0).set (halfR b 1).set := by
  rw [Finset.disjoint_left]
  intro i hi hi'
  have h0 : (i 1).val = 0 := (mem_half.mp hi).2
  have h1 : (i 1).val = 1 := (mem_half.mp hi').2
  omega

/-- … and between them have the slot's. -/
theorem half_cover (b : Fin 2) : (halfR b 0).set ∪ (halfR b 1).set = (slotR b).set := by
  ext i
  simp only [Finset.mem_union]
  constructor
  · rintro (hi | hi)
    · exact half_subset b 0 hi
    · exact half_subset b 1 hi
  · intro hi
    have h0 := mem_slot.mp hi
    have h : (i 1).val < 2 := (i 1).isLt
    rcases (by omega : (i 1).val = 0 ∨ (i 1).val = 1) with h1 | h1
    · exact Or.inl (mem_half.mpr ⟨h0, h1⟩)
    · exact Or.inr (mem_half.mpr ⟨h0, h1⟩)

/-- A half of one slot shares no index with the other slot. -/
theorem half_disjoint_slot {b b' : Fin 2} (hb : b ≠ b') (h : Fin 2) : Disjoint (halfR b h).set (slotR b').set :=
  (slot_disjoint_of_ne hb).mono_left (half_subset b h)

/-! ## The same in a ring's buffer

  Ring `p`'s buffer is one of two allocations, so for a ring given as a variable the buffer's own index type is not
  syntactically the shape's; the sets of buffer elements are therefore named through the buffer view's placement of the
  shape's indices (the identity, at either ring). -/

/-- A slot's elements, as a transfer names it, are its rectangle's. -/
theorem slot_set (p b : Fin 2) : (slotM p b).view.set = (slotR b).set.map (ringM p).view.emb := by
  show (((ringM p).view.slice (slotR b)).reshape S2x2048x256 _).set = _
  rw [View.set_reshape]; exact View.set_slice _ _

/-- A half's elements, as the body loads and stores it, are its rectangle's. -/
theorem half_set (p b h : Fin 2) : ((ringM p).access (halfR b h)).set = (halfR b h).set.map (ringM p).view.emb :=
  View.set_slice _ _

/-- A slot's elements are its two halves'. -/
theorem slot_set_halves (p b : Fin 2) :
    (slotM p b).view.set = ((ringM p).access (halfR b 0)).set ∪ ((ringM p).access (halfR b 1)).set := by
  rw [slot_set, half_set, half_set, ← Finset.map_union, half_cover]

/-- The two halves' elements are apart. -/
theorem half_set_disjoint (p b : Fin 2) :
    Disjoint ((ringM p).access (halfR b 0)).set ((ringM p).access (halfR b 1)).set := by
  rw [half_set, half_set, Finset.disjoint_map]; exact half_disjoint b

/-- Different slots' elements are apart. -/
theorem slot_set_disjoint (p : Fin 2) {b b' : Fin 2} (hb : b ≠ b') : Disjoint (slotM p b).view.set (slotM p b').view.set := by
  rw [slot_set, slot_set, Finset.disjoint_map]; exact slot_disjoint_of_ne hb

/-- At either ring the placement is the identity, so there a slot's elements are literally its rectangle. -/
theorem slot_set0 (b : Fin 2) : (slotM 0 b).view.set = (slotR b).set := by
  show (((ringM 0).view.slice (slotR b)).reshape S2x2048x256 _).set = _
  rw [View.set_reshape]; exact View.set_slice_whole _ _
theorem slot_set1 (b : Fin 2) : (slotM 1 b).view.set = (slotR b).set := by
  show (((ringM 1).view.slice (slotR b)).reshape S2x2048x256 _).set = _
  rw [View.set_reshape]; exact View.set_slice_whole _ _
theorem half_set0 (b h : Fin 2) : ((ringM 0).access (halfR b h)).set = (halfR b h).set := View.set_slice_whole _ _
theorem half_set1 (b h : Fin 2) : ((ringM 1).access (halfR b h)).set = (halfR b h).set := View.set_slice_whole _ _

/-! ## The printed spellings -/

theorem halfR_0_0 : halfR 0 0 = Rect.unit (s := S2x2x2048x256) ![0, 0, 0, 0] S1x1x2048x256.size inb_S2x2x2048x256_S1x1x2048x256_0_0_0_0 := rfl
theorem halfR_0_1 : halfR 0 1 = Rect.unit (s := S2x2x2048x256) ![0, 1, 0, 0] S1x1x2048x256.size inb_S2x2x2048x256_S1x1x2048x256_0_1_0_0 := rfl
theorem halfR_1_0 : halfR 1 0 = Rect.unit (s := S2x2x2048x256) ![1, 0, 0, 0] S1x1x2048x256.size inb_S2x2x2048x256_S1x1x2048x256_1_0_0_0 := rfl
theorem halfR_1_1 : halfR 1 1 = Rect.unit (s := S2x2x2048x256) ![1, 1, 0, 0] S1x1x2048x256.size inb_S2x2x2048x256_S1x1x2048x256_1_1_0_0 := rfl

theorem slotM_0 (p : Fin 2) : slotM p 0 = ((ringM p).slice (Rect.unit (s := S2x2x2048x256) ![0, 0, 0, 0] S1x2x2048x256.size
    inb_S2x2x2048x256_S1x2x2048x256_0_0_0_0) (fun _ => rfl)).squeeze S2x2048x256 squeezes_S1x2x2048x256_S2x2048x256 := rfl
theorem slotM_1 (p : Fin 2) : slotM p 1 = ((ringM p).slice (Rect.unit (s := S2x2x2048x256) ![1, 0, 0, 0] S1x2x2048x256.size
    inb_S2x2x2048x256_S1x2x2048x256_1_0_0_0) (fun _ => rfl)).squeeze S2x2048x256 squeezes_S1x2x2048x256_S2x2048x256 := rfl

/-- info: 'Cert.KernelIdeal.RingProof.slotM_1' depends on axioms: [propext, Classical.choice, Quot.sound] -/
#guard_msgs in
#print axioms slotM_1

end Cert.KernelIdeal.RingProof

end
-- ==== Proof.RingOpen.lean ====
/-
  Opening a device's state: a cell's invariant, its round-0 fact and a slot's release invariant out of what every
  device knows; and a ring buffer held whole as its two slots, each at some contents, and back.
-/
import proofs.«900462_g7700000000000463_dist_ring_attn_i_s2048_d256_v7x_i8_f32_1_alg».proof.Proof.RingState
import proofs.«900462_g7700000000000463_dist_ring_attn_i_s2048_d256_v7x_i8_f32_1_alg».proof.Proof.RingSlots
import Idealize.ShloMosaic.Lib.Ring

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : Mem F)

/-! ## Out of what every device knows -/

theorem knows_cell (Kn : Dev nD × Fin 11 → ℕ) (ιs : KS → ℕ) (ck : Dev nD × Fin 11) :
    knows m Kn ιs ⊢ cellInv ER (ringRd m) (Kn ck) (kcell ck) := by
  unfold knows
  exact sep_elim_left.trans (bigSep_elim (Φ := fun ck : Dev nD × Fin 11 => cellInv ER (ringRd m) (Kn ck) (kcell ck)) (Finset.mem_univ ck))

theorem knows_reached (Kn : Dev nD × Fin 11 → ℕ) (ιs : KS → ℕ) (ck : Dev nD × Fin 11) :
    knows m Kn ιs ⊢ reached (ER (F := F)) (kcell ck) 0 := by
  unfold knows
  exact sep_elim_right.trans (sep_elim_left.trans (bigSep_elim (Φ := fun ck : Dev nD × Fin 11 => reached (ER (F := F)) (kcell ck) 0) (Finset.mem_univ ck)))

theorem knows_slot (Kn : Dev nD × Fin 11 → ℕ) (ιs : KS → ℕ) (k : KS) :
    knows m Kn ιs ⊢ Release.slotInv (ES (F := F)) (ιs k) k (Sl k) := by
  unfold knows
  exact sep_elim_right.trans (sep_elim_right.trans (bigSep_elim (Φ := fun k : KS => Release.slotInv (ES (F := F)) (ιs k) k (Sl k)) (Finset.mem_univ k)))

/-! ## A ring buffer and its two slots -/

theorem slots_disjoint (a b : Fin 2) (h : a ≠ b) : Disjoint (slotR a).set (slotR b).set := slot_disjoint_of_ne h

theorem slots_cover : (Finset.univ : Finset (Fin 2)).biUnion (fun b => (slotR b).set) = Finset.univ := by
  rw [show (Finset.univ : Finset (Fin 2)) = {0, 1} from by decide, Finset.biUnion_insert, Finset.singleton_biUnion]
  exact slot_cover

omit [FloatOps F] in
theorem bigSep_two (Φ : Fin 2 → sProp 𝕄) : bigSep Finset.univ Φ = iprop(Φ 0 ∗ Φ 1) :=
  bigSep_univ_eq_bigSepL [(0 : Fin 2), 1] (by decide) (by decide) Φ

/-- The right-going ring's buffer, whole at some contents, is its two slots, each at some contents. -/
theorem ring0_split (c : Dev nD) :
    (iprop(∃ f, (c : Thread nD τ).loc cc0_scratch0 ↦{fullShare} f) : sProp 𝕄)
      ⊢ iprop((∃ f, slotPts c 0 0 fullShare f) ∗ (∃ f, slotPts c 0 1 fullShare f)) := by
  unfold slotPts
  iintro ⟨%f, H⟩
  ihave H2 := (Entails.of_eq (show ((c : Thread nD τ).loc cc0_scratch0 ↦{fullShare} f : sProp 𝕄)
      = iprop(((slotM 0 0).view.loc (c : Thread nD τ) ↦[(slotM 0 0).view.set]{fullShare} f) ∗ ((slotM 0 1).view.loc (c : Thread nD τ) ↦[(slotM 0 1).view.set]{fullShare} f)) from by
    rw [Ring.pointsTo_blocks (fun b : Fin 2 => (slotR b).set) slots_disjoint slots_cover f, bigSep_two, slot_set0, slot_set0])) $$ H
  icases H2 with ⟨H0, H1⟩
  isplitl [H0]; · iexists f; iexact H0
  iexists f; iexact H1

/-- The left-going ring's likewise. -/
theorem ring1_split (c : Dev nD) :
    (iprop(∃ f, (c : Thread nD τ).loc cc0_scratch1 ↦{fullShare} f) : sProp 𝕄)
      ⊢ iprop((∃ f, slotPts c 1 0 fullShare f) ∗ (∃ f, slotPts c 1 1 fullShare f)) := by
  unfold slotPts
  iintro ⟨%f, H⟩
  ihave H2 := (Entails.of_eq (show ((c : Thread nD τ).loc cc0_scratch1 ↦{fullShare} f : sProp 𝕄)
      = iprop(((slotM 1 0).view.loc (c : Thread nD τ) ↦[(slotM 1 0).view.set]{fullShare} f) ∗ ((slotM 1 1).view.loc (c : Thread nD τ) ↦[(slotM 1 1).view.set]{fullShare} f)) from by
    rw [Ring.pointsTo_blocks (fun b : Fin 2 => (slotR b).set) slots_disjoint slots_cover f, bigSep_two, slot_set1, slot_set1])) $$ H
  icases H2 with ⟨H0, H1⟩
  isplitl [H0]; · iexists f; iexact H0
  iexists f; iexact H1

/-- Two slots, each at some contents, are the right-going ring's buffer whole at some contents. -/
theorem ring0_join (c : Dev nD) :
    iprop((∃ f, slotPts c 0 0 fullShare f) ∗ (∃ f, slotPts c 0 1 fullShare f))
      ⊢ (iprop(∃ f, (c : Thread nD τ).loc cc0_scratch0 ↦{fullShare} f) : sProp 𝕄) := by
  unfold slotPts
  iintro ⟨⟨%f0, H0⟩, ⟨%f1, H1⟩⟩
  iapply (Ring.pointsTo_blocks_join_exists (fun b : Fin 2 => (slotR b).set) slots_disjoint slots_cover f0)
  rw [bigSep_two]
  isplitl [H0]; · iexists f0; rw [← slot_set0]; iexact H0
  iexists f1; rw [← slot_set0]; iexact H1

theorem ring1_join (c : Dev nD) :
    iprop((∃ f, slotPts c 1 0 fullShare f) ∗ (∃ f, slotPts c 1 1 fullShare f))
      ⊢ (iprop(∃ f, (c : Thread nD τ).loc cc0_scratch1 ↦{fullShare} f) : sProp 𝕄) := by
  unfold slotPts
  iintro ⟨⟨%f0, H0⟩, ⟨%f1, H1⟩⟩
  iapply (Ring.pointsTo_blocks_join_exists (fun b : Fin 2 => (slotR b).set) slots_disjoint slots_cover f0)
  rw [bigSep_two]
  isplitl [H0]; · iexists f0; rw [← slot_set1]; iexact H0
  iexists f1; rw [← slot_set1]; iexact H1

end Cert.KernelIdeal.RingProof

end
-- ==== Proof.RingOpen2.lean ====
/-
  A device's own tokens, one by one.  What device `c` holds for itself is stated with a conjunction per kind of token, each
  over the rings, slots, rounds or grants it ranges over; the counts are small literals (two send rounds per slot but one for
  the left-going ring's slot 1; two receive rounds per slot but one for the left-going ring's slot 0; three grants for the
  right-going ring, two for the left-going).  Here it is the same as one flat conjunction of the forty-four individual tokens:
  the eleven cells' positions (the launch's order: the right-going ring's two send and two receive cells, the left-going
  ring's, the two credit cells, the entry cell), the two entry duties, the seven send duties, the seven receive duties of
  the downstream neighbours' slots, the five grants to the upstream neighbours, the four readers' counts, the eight write
  tokens — each group in the order ring, slot, then round.
-/
import proofs.«900462_g7700000000000463_dist_ring_attn_i_s2048_d256_v7x_i8_f32_1_alg».proof.Proof.RingState
import proofs.«900462_g7700000000000463_dist_ring_attn_i_s2048_d256_v7x_i8_f32_1_alg».proof.Proof.RingSlots

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Conjunctions over small index sets, written out -/

omit [FloatOps F] in
/-- Conjunction is associative, as an equation. -/
theorem sep_assoc_eq (P Q R : sProp 𝕄) : iprop((P ∗ Q) ∗ R) = iprop(P ∗ Q ∗ R) :=
  equiv_iff.mp ⟨Idealize.SL.BI.sep_assoc, Idealize.SL.BI.sep_assoc'⟩

omit [FloatOps F] in
/-- Over ring and slot: (0,0), (0,1), (1,0), (1,1). -/
theorem bigSep_pb (Φ : Fin 2 × Fin 2 → sProp 𝕄) :
    bigSep Finset.univ Φ = iprop(Φ (0, 0) ∗ Φ (0, 1) ∗ Φ (1, 0) ∗ Φ (1, 1)) :=
  bigSep_univ_eq_bigSepL [((0 : Fin 2), (0 : Fin 2)), (0, 1), (1, 0), (1, 1)] (by decide) (by decide) Φ

omit [FloatOps F] in
theorem bigSep_range1 (Φ : ℕ → sProp 𝕄) : bigSep (Finset.range 1) Φ = Φ 0 :=
  bigSep_eq_bigSepL_of_eq [0] (by decide) (by decide) Φ
omit [FloatOps F] in
theorem bigSep_range2 (Φ : ℕ → sProp 𝕄) : bigSep (Finset.range 2) Φ = iprop(Φ 0 ∗ Φ 1) :=
  bigSep_eq_bigSepL_of_eq [0, 1] (by decide) (by decide) Φ
omit [FloatOps F] in
theorem bigSep_first2 (Φ : DN → sProp 𝕄) : bigSep (firstN 2) Φ = iprop(Φ 0 ∗ Φ 1) :=
  bigSep_eq_bigSepL_of_eq [0, 1] (by decide) (by decide) Φ
omit [FloatOps F] in
theorem bigSep_first3 (Φ : DN → sProp 𝕄) : bigSep (firstN 3) Φ = iprop(Φ 0 ∗ Φ 1 ∗ Φ 2) :=
  bigSep_eq_bigSepL_of_eq [0, 1, 2] (by decide) (by decide) Φ
omit [FloatOps F] in
/-- Over ring, slot and one of two counts. -/
theorem bigSep_pb2 (Φ : (Fin 2 × Fin 2) × ℕ → sProp 𝕄) :
    bigSep ((Finset.univ : Finset (Fin 2 × Fin 2)) ×ˢ Finset.range 2) Φ
      = iprop(Φ ((0, 0), 0) ∗ Φ ((0, 0), 1) ∗ Φ ((0, 1), 0) ∗ Φ ((0, 1), 1) ∗ Φ ((1, 0), 0) ∗ Φ ((1, 0), 1) ∗ Φ ((1, 1), 0) ∗ Φ ((1, 1), 1)) :=
  bigSep_eq_bigSepL_of_eq [(((0 : Fin 2), (0 : Fin 2)), 0), ((0, 0), 1), ((0, 1), 0), ((0, 1), 1), ((1, 0), 0), ((1, 0), 1), ((1, 1), 0), ((1, 1), 1)]
    (by decide) (by decide) Φ

/-! ## A slot is not empty -/

theorem slot_nonempty0 (b : Fin 2) : (slotM 0 b).view.set.Nonempty := by
  rw [slot_set0]; exact ⟨ValueIdx.ix4 (n0 := 2) (n1 := 2) (n2 := 2048) (n3 := 256) b 0 0 0, mem_slot.mpr rfl⟩
theorem slot_nonempty1 (b : Fin 2) : (slotM 1 b).view.set.Nonempty := by
  rw [slot_set1]; exact ⟨ValueIdx.ix4 (n0 := 2) (n1 := 2) (n2 := 2048) (n3 := 256) b 0 0 0, mem_slot.mpr rfl⟩

/-! ## The tokens of a device, one by one -/

theorem nSend_vals : nSend 0 0 = 2 ∧ nSend 0 1 = 2 ∧ nSend 1 0 = 2 ∧ nSend 1 1 = 1 := by decide
theorem nRecv_vals : nRecv 0 0 = 2 ∧ nRecv 0 1 = 2 ∧ nRecv 1 0 = 1 ∧ nRecv 1 1 = 2 := by decide
theorem nCap_vals : nCap 0 = 3 ∧ nCap 1 = 2 := by decide

/-- What device `c` holds for itself, as one flat conjunction. -/
theorem mine_eq (c : Dev nD) : mine (F := F) c = iprop(
      atPos (ER (F := F)) (sendCell 0 0 c) 0 ∅ 0 ∗ atPos (ER (F := F)) (sendCell 0 1 c) 0 ∅ 0
    ∗ atPos (ER (F := F)) (recvCell 0 0 c) 0 ∅ 0 ∗ atPos (ER (F := F)) (recvCell 0 1 c) 0 ∅ 0
    ∗ atPos (ER (F := F)) (sendCell 1 0 c) 0 ∅ 0 ∗ atPos (ER (F := F)) (sendCell 1 1 c) 0 ∅ 0
    ∗ atPos (ER (F := F)) (recvCell 1 0 c) 0 ∅ 0 ∗ atPos (ER (F := F)) (recvCell 1 1 c) 0 ∅ 0
    ∗ atPos (ER (F := F)) (capCell 0 c) 0 ∅ 0 ∗ atPos (ER (F := F)) (capCell 1 c) 0 ∅ 0 ∗ atPos (ER (F := F)) (barCell c) 0 ∅ 0
    ∗ dutyTok (ER (F := F)) (barCell (lft c)) 0 (1 : DN) ∗ dutyTok (ER (F := F)) (barCell (rgt c)) 0 (0 : DN)
    ∗ dutyTok (ER (F := F)) (sendCell 0 0 c) 0 (0 : DN) ∗ dutyTok (ER (F := F)) (sendCell 0 0 c) 1 (0 : DN)
    ∗ dutyTok (ER (F := F)) (sendCell 0 1 c) 0 (0 : DN) ∗ dutyTok (ER (F := F)) (sendCell 0 1 c) 1 (0 : DN)
    ∗ dutyTok (ER (F := F)) (sendCell 1 0 c) 0 (0 : DN) ∗ dutyTok (ER (F := F)) (sendCell 1 0 c) 1 (0 : DN)
    ∗ dutyTok (ER (F := F)) (sendCell 1 1 c) 0 (0 : DN)
    ∗ dutyTok (ER (F := F)) (recvCell 0 0 (dnR 0 c)) 0 (0 : DN) ∗ dutyTok (ER (F := F)) (recvCell 0 0 (dnR 0 c)) 1 (0 : DN)
    ∗ dutyTok (ER (F := F)) (recvCell 0 1 (dnR 0 c)) 0 (0 : DN) ∗ dutyTok (ER (F := F)) (recvCell 0 1 (dnR 0 c)) 1 (0 : DN)
    ∗ dutyTok (ER (F := F)) (recvCell 1 0 (dnR 1 c)) 0 (0 : DN)
    ∗ dutyTok (ER (F := F)) (recvCell 1 1 (dnR 1 c)) 0 (0 : DN) ∗ dutyTok (ER (F := F)) (recvCell 1 1 (dnR 1 c)) 1 (0 : DN)
    ∗ dutyTok (ER (F := F)) (capCell 0 (upR 0 c)) 0 (0 : DN) ∗ dutyTok (ER (F := F)) (capCell 0 (upR 0 c)) 0 (1 : DN) ∗ dutyTok (ER (F := F)) (capCell 0 (upR 0 c)) 0 (2 : DN)
    ∗ dutyTok (ER (F := F)) (capCell 1 (upR 1 c)) 0 (0 : DN) ∗ dutyTok (ER (F := F)) (capCell 1 (upR 1 c)) 0 (1 : DN)
    ∗ Release.readerAt (ES (F := F)) ((c, (0 : Fin 2), (0 : Fin 2)) : KS) 0 ∗ Release.readerAt (ES (F := F)) ((c, (0 : Fin 2), (1 : Fin 2)) : KS) 0
    ∗ Release.readerAt (ES (F := F)) ((c, (1 : Fin 2), (0 : Fin 2)) : KS) 0 ∗ Release.readerAt (ES (F := F)) ((c, (1 : Fin 2), (1 : Fin 2)) : KS) 0
    ∗ Release.writeTok (ES (F := F)) ((dnR 0 c, (0 : Fin 2), (0 : Fin 2)) : KS) 1 ∗ Release.writeTok (ES (F := F)) ((dnR 0 c, (0 : Fin 2), (0 : Fin 2)) : KS) 2
    ∗ Release.writeTok (ES (F := F)) ((dnR 0 c, (0 : Fin 2), (1 : Fin 2)) : KS) 1 ∗ Release.writeTok (ES (F := F)) ((dnR 0 c, (0 : Fin 2), (1 : Fin 2)) : KS) 2
    ∗ Release.writeTok (ES (F := F)) ((dnR 1 c, (1 : Fin 2), (0 : Fin 2)) : KS) 1 ∗ Release.writeTok (ES (F := F)) ((dnR 1 c, (1 : Fin 2), (0 : Fin 2)) : KS) 2
    ∗ Release.writeTok (ES (F := F)) ((dnR 1 c, (1 : Fin 2), (1 : Fin 2)) : KS) 1 ∗ Release.writeTok (ES (F := F)) ((dnR 1 c, (1 : Fin 2), (1 : Fin 2)) : KS) 2) := by
  unfold mine
  rw [bigSep_fin11, bigSep_pb2, bigSep_univ_two]
  simp only [bigSep_pb]
  rw [nSend_vals.1, nSend_vals.2.1, nSend_vals.2.2.1, nSend_vals.2.2.2, nRecv_vals.1, nRecv_vals.2.1, nRecv_vals.2.2.1, nRecv_vals.2.2.2,
    nCap_vals.1, nCap_vals.2]
  simp only [bigSep_range1, bigSep_range2, bigSep_first2, bigSep_first3, sep_assoc_eq]

/-- The opening, as an entailment. -/
theorem mine_open (c : Dev nD) : mine (F := F) c ⊢ iprop(
      atPos (ER (F := F)) (sendCell 0 0 c) 0 ∅ 0 ∗ atPos (ER (F := F)) (sendCell 0 1 c) 0 ∅ 0
    ∗ atPos (ER (F := F)) (recvCell 0 0 c) 0 ∅ 0 ∗ atPos (ER (F := F)) (recvCell 0 1 c) 0 ∅ 0
    ∗ atPos (ER (F := F)) (sendCell 1 0 c) 0 ∅ 0 ∗ atPos (ER (F := F)) (sendCell 1 1 c) 0 ∅ 0
    ∗ atPos (ER (F := F)) (recvCell 1 0 c) 0 ∅ 0 ∗ atPos (ER (F := F)) (recvCell 1 1 c) 0 ∅ 0
    ∗ atPos (ER (F := F)) (capCell 0 c) 0 ∅ 0 ∗ atPos (ER (F := F)) (capCell 1 c) 0 ∅ 0 ∗ atPos (ER (F := F)) (barCell c) 0 ∅ 0
    ∗ dutyTok (ER (F := F)) (barCell (lft c)) 0 (1 : DN) ∗ dutyTok (ER (F := F)) (barCell (rgt c)) 0 (0 : DN)
    ∗ dutyTok (ER (F := F)) (sendCell 0 0 c) 0 (0 : DN) ∗ dutyTok (ER (F := F)) (sendCell 0 0 c) 1 (0 : DN)
    ∗ dutyTok (ER (F := F)) (sendCell 0 1 c) 0 (0 : DN) ∗ dutyTok (ER (F := F)) (sendCell 0 1 c) 1 (0 : DN)
    ∗ dutyTok (ER (F := F)) (sendCell 1 0 c) 0 (0 : DN) ∗ dutyTok (ER (F := F)) (sendCell 1 0 c) 1 (0 : DN)
    ∗ dutyTok (ER (F := F)) (sendCell 1 1 c) 0 (0 : DN)
    ∗ dutyTok (ER (F := F)) (recvCell 0 0 (dnR 0 c)) 0 (0 : DN) ∗ dutyTok (ER (F := F)) (recvCell 0 0 (dnR 0 c)) 1 (0 : DN)
    ∗ dutyTok (ER (F := F)) (recvCell 0 1 (dnR 0 c)) 0 (0 : DN) ∗ dutyTok (ER (F := F)) (recvCell 0 1 (dnR 0 c)) 1 (0 : DN)
    ∗ dutyTok (ER (F := F)) (recvCell 1 0 (dnR 1 c)) 0 (0 : DN)
    ∗ dutyTok (ER (F := F)) (recvCell 1 1 (dnR 1 c)) 0 (0 : DN) ∗ dutyTok (ER (F := F)) (recvCell 1 1 (dnR 1 c)) 1 (0 : DN)
    ∗ dutyTok (ER (F := F)) (capCell 0 (upR 0 c)) 0 (0 : DN) ∗ dutyTok (ER (F := F)) (capCell 0 (upR 0 c)) 0 (1 : DN) ∗ dutyTok (ER (F := F)) (capCell 0 (upR 0 c)) 0 (2 : DN)
    ∗ dutyTok (ER (F := F)) (capCell 1 (upR 1 c)) 0 (0 : DN) ∗ dutyTok (ER (F := F)) (capCell 1 (upR 1 c)) 0 (1 : DN)
    ∗ Release.readerAt (ES (F := F)) ((c, (0 : Fin 2), (0 : Fin 2)) : KS) 0 ∗ Release.readerAt (ES (F := F)) ((c, (0 : Fin 2), (1 : Fin 2)) : KS) 0
    ∗ Release.readerAt (ES (F := F)) ((c, (1 : Fin 2), (0 : Fin 2)) : KS) 0 ∗ Release.readerAt (ES (F := F)) ((c, (1 : Fin 2), (1 : Fin 2)) : KS) 0
    ∗ Release.writeTok (ES (F := F)) ((dnR 0 c, (0 : Fin 2), (0 : Fin 2)) : KS) 1 ∗ Release.writeTok (ES (F := F)) ((dnR 0 c, (0 : Fin 2), (0 : Fin 2)) : KS) 2
    ∗ Release.writeTok (ES (F := F)) ((dnR 0 c, (0 : Fin 2), (1 : Fin 2)) : KS) 1 ∗ Release.writeTok (ES (F := F)) ((dnR 0 c, (0 : Fin 2), (1 : Fin 2)) : KS) 2
    ∗ Release.writeTok (ES (F := F)) ((dnR 1 c, (1 : Fin 2), (0 : Fin 2)) : KS) 1 ∗ Release.writeTok (ES (F := F)) ((dnR 1 c, (1 : Fin 2), (0 : Fin 2)) : KS) 2
    ∗ Release.writeTok (ES (F := F)) ((dnR 1 c, (1 : Fin 2), (1 : Fin 2)) : KS) 1 ∗ Release.writeTok (ES (F := F)) ((dnR 1 c, (1 : Fin 2), (1 : Fin 2)) : KS) 2) :=
  Entails.of_eq (mine_eq c)

/-- info: 'Cert.KernelIdeal.RingProof.mine_open' depends on axioms: [propext, Classical.choice, Quot.sound] -/
#guard_msgs in
#print axioms mine_open

end Cert.KernelIdeal.RingProof

end
-- ==== Proof.RingDeal.lean ====
/-
  Dealing the launch's ghost state to the devices.  The launch mints, for the whole mesh at once, every cell's
  invariant and reached round, every owner's position, one token per duty of the schedule, and for every receive slot
  its release invariant, its reader's count and the tokens of its writes.  What is persistent every device gets.  A
  position stays with the cell's owner.  A duty's token goes to the device that pays the duty: a barrier duty to the
  neighbour that signals, a credit duty to the downstream neighbour that grants, a receive duty to the upstream
  neighbour whose transfer lands, a send duty to the device itself.  A slot's reader count stays with the device that
  holds the slot; the tokens of its writes go to its upstream neighbour.  Around a ring each of these is a
  re-indexing of the devices by a neighbour map.
-/
import proofs.«900462_g7700000000000463_dist_ring_attn_i_s2048_d256_v7x_i8_f32_1_alg».proof.Proof.RingState

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Two facts about iterated separating conjunctions -/

/-- Over a union of pairwise disjoint families, family by family. -/
theorem bigSep_biUnion_split {M : Type} [URA M] {I J : Type} [DecidableEq I] [DecidableEq J]
    (s : Finset J) (t : J → Finset I) (hd : ∀ j ∈ s, ∀ j' ∈ s, j ≠ j' → Disjoint (t j) (t j')) (Φ : I → sProp M) :
    bigSep (s.biUnion t) Φ = bigSep s (fun j => bigSep (t j) Φ) := by
  induction s using Finset.induction_on with
  | empty => rw [Finset.biUnion_empty, bigSep_empty, bigSep_empty]
  | insert j s hj ih =>
    have hdj : Disjoint (t j) (s.biUnion t) :=
      (Finset.disjoint_biUnion_right _ _ _).mpr fun j' hj' =>
        hd j (Finset.mem_insert_self j s) j' (Finset.mem_insert_of_mem hj') (fun h => hj (h ▸ hj'))
    rw [Finset.biUnion_insert, bigSep_union hdj, bigSep_insert hj,
      ih fun a ha b hb hab => hd a (Finset.mem_insert_of_mem ha) b (Finset.mem_insert_of_mem hb) hab]

/-- Over a product of two sets, first coordinate by first coordinate. -/
theorem bigSep_product {M : Type} [URA M] {α β : Type} [DecidableEq α] [DecidableEq β]
    (s : Finset α) (t : Finset β) (Φ : α × β → sProp M) :
    bigSep (s ×ˢ t) Φ = bigSep s (fun a => bigSep t (fun b => Φ (a, b))) := by
  induction s using Finset.induction_on with
  | empty => rw [Finset.empty_product, bigSep_empty, bigSep_empty]
  | insert a s ha ih =>
    have hdisj : Disjoint (({a} : Finset α) ×ˢ t) (s ×ˢ t) :=
      Finset.disjoint_product.mpr (.inl (Finset.disjoint_singleton_left.mpr ha))
    rw [bigSep_insert ha, Finset.insert_eq, Finset.union_product, bigSep_union hdisj, ih, Finset.singleton_product, bigSep_map]
    rfl

/-! ## The minted tokens, cell by cell -/

/-- The tokens of one cell: for each of its rounds 0 and 1, one per duty. -/
def cellToks (m : Mem F) (g : GSem nD τ sig) : sProp 𝕄 :=
  bigSep (Finset.range 2) fun r => bigSep ((ringRd (F := F) m).duties g r) fun d => dutyTok (ER (F := F)) g r d

/-- The minted tokens are the cells' tokens, cell by cell: two cells, two rounds of a cell, two duties of a round
    never share a token. -/
theorem toks_split (m : Mem F) :
    bigSep (toks m) (fun x => (dutyTok (ER (F := F)) x.1 x.2.1 x.2.2 : sProp 𝕄))
      = bigSep Finset.univ fun ck : Dev nD × Fin 11 => cellToks m (kcell ck) := by
  unfold toks cellToks
  rw [bigSep_biUnion_split _ _ fun ck _ ck' _ hne => Finset.disjoint_left.mpr fun x hx hx' => by
    obtain ⟨r, _, hr⟩ := Finset.mem_biUnion.mp hx
    obtain ⟨d, _, rfl⟩ := Finset.mem_image.mp hr
    obtain ⟨r', _, hr'⟩ := Finset.mem_biUnion.mp hx'
    obtain ⟨d', _, h'⟩ := Finset.mem_image.mp hr'
    exact hne (kcell_injective (congrArg Prod.fst h').symm)]
  refine bigSep_congr fun ck _ => ?_
  rw [bigSep_biUnion_split _ _ fun r _ r' _ hne => Finset.disjoint_left.mpr fun x hx hx' => by
    obtain ⟨d, _, rfl⟩ := Finset.mem_image.mp hx
    obtain ⟨d', _, h'⟩ := Finset.mem_image.mp hx'
    exact hne (congrArg (fun y : GSem nD τ sig × ℕ × DN => y.2.1) h').symm]
  refine bigSep_congr fun r _ => ?_
  exact bigSep_image_of_injOn (fun a _ b _ h => congrArg (fun y : GSem nD τ sig × ℕ × DN => y.2.2) h) _

/-- A cell with one duty, named 0, in each of its first n rounds (n at most 2) has one token a round. -/
theorem cellToks_rounds (m : Mem F) (g : GSem nD τ sig) (n : ℕ) (hn : n ≤ 2)
    (hd : ∀ r, (ringRd (F := F) m).duties g r = if r < n then {0} else ∅) :
    cellToks m g = bigSep (Finset.range n) fun r => dutyTok (ER (F := F)) g r (0 : DN) := by
  unfold cellToks
  have h1 : ∀ r, (bigSep ((ringRd (F := F) m).duties g r) fun d => (dutyTok (ER (F := F)) g r d : sProp 𝕄))
      = if r < n then dutyTok (ER (F := F)) g r (0 : DN) else BI.emp := fun r => by
    rw [hd r]; split
    · rw [bigSep_singleton]
    · rw [bigSep_empty]
  rw [bigSep_congr fun r _ => h1 r, ← bigSep_filter]
  congr 1
  ext r; simp only [Finset.mem_filter, Finset.mem_range]; omega

/-- A cell whose duties are all of round 0 has that round's tokens. -/
theorem cellToks_round0 (m : Mem F) (g : GSem nD τ sig) (S : Finset DN)
    (h0 : (ringRd (F := F) m).duties g 0 = S) (h1 : (ringRd (F := F) m).duties g 1 = ∅) :
    cellToks m g = iprop((bigSep S fun d => dutyTok (ER (F := F)) g 0 d) ∗ emp) := by
  unfold cellToks
  rw [show Finset.range 2 = {0, 1} from by decide, bigSep_insert (by decide), bigSep_singleton, h0, h1, bigSep_empty]
  rfl

section Cells
variable (m : Mem F) (c : Dev nD)

theorem toks_send (p b : Fin 2) :
    cellToks m (sendCell p b c) = bigSep (Finset.range (nSend p b)) fun r => dutyTok (ER (F := F)) (sendCell p b c) r (0 : DN) :=
  cellToks_rounds m _ _ (by revert p b; decide) fun r => by simp only [ringRd, kindOf_send, if_true]

theorem toks_recv (p b : Fin 2) :
    cellToks m (recvCell p b c) = bigSep (Finset.range (nRecv p b)) fun r => dutyTok (ER (F := F)) (recvCell p b c) r (0 : DN) :=
  cellToks_rounds m _ _ (by revert p b; decide) fun r => by simp only [ringRd, kindOf_recv, if_true]

theorem toks_cap (p : Fin 2) :
    cellToks m (capCell p c) = iprop((bigSep (firstN (nCap p)) fun d => dutyTok (ER (F := F)) (capCell p c) 0 d) ∗ emp) :=
  cellToks_round0 m _ _ (duties_cap m c p) (duties_cap_later m c p 1 le_rfl)

theorem toks_bar :
    cellToks m (barCell c) = iprop((bigSep (firstN 2) fun d => dutyTok (ER (F := F)) (barCell c) 0 d) ∗ emp) :=
  cellToks_round0 m _ _ (duties_bar m c) (duties_bar_later m c 1 le_rfl)

end Cells

omit [FloatOps F] in
theorem bigSep_firstN2 (Φ : DN → sProp 𝕄) : bigSep (firstN 2) Φ = iprop(Φ 0 ∗ Φ 1) := by
  rw [show firstN 2 = {0, 1} from by decide, bigSep_insert (by decide), bigSep_singleton]; rfl

omit [FloatOps F] in
theorem bigSep_fin2x2 (Φ : Fin 2 × Fin 2 → sProp 𝕄) :
    bigSep Finset.univ Φ = iprop((Φ (0, 0) ∗ Φ (0, 1)) ∗ (Φ (1, 0) ∗ Φ (1, 1))) := by
  rw [bigSep_univ_prod, bigSep_univ_two, bigSep_univ_two, bigSep_univ_two]

/-! ## A device's cells' tokens, by kind -/

/-- The tokens of the rounds of receive cell (ring, slot) of device d. -/
def recvX (pb : Fin 2 × Fin 2) (d : Dev nD) : sProp 𝕄 :=
  bigSep (Finset.range (nRecv pb.1 pb.2)) fun r => dutyTok (ER (F := F)) (recvCell pb.1 pb.2 d) r (0 : DN)
/-- The tokens of the rounds of send cell (ring, slot) of device d. -/
def sendX (pb : Fin 2 × Fin 2) (d : Dev nD) : sProp 𝕄 :=
  bigSep (Finset.range (nSend pb.1 pb.2)) fun r => dutyTok (ER (F := F)) (sendCell pb.1 pb.2 d) r (0 : DN)
/-- The tokens of the grants of ring p's credit cell of device d. -/
def capX (p : Fin 2) (d : Dev nD) : sProp 𝕄 :=
  bigSep (firstN (nCap p)) fun d' => dutyTok (ER (F := F)) (capCell p d) 0 d'

/-- The twenty-one tokens of a device's eleven cells, by kind. -/
theorem dev_toks (m : Mem F) (c : Dev nD) :
    (bigSep Finset.univ fun k : Fin 11 => cellToks m (kcell (c, k)))
      ⊢ iprop((bigSep Finset.univ fun pb : Fin 2 × Fin 2 => sendX (F := F) pb c) ∗ (bigSep Finset.univ fun pb : Fin 2 × Fin 2 => recvX (F := F) pb c)
          ∗ (bigSep Finset.univ fun p : Fin 2 => capX (F := F) p c)
          ∗ dutyTok (ER (F := F)) (barCell c) 0 (0 : DN) ∗ dutyTok (ER (F := F)) (barCell c) 0 (1 : DN)) := by
  rw [bigSep_fin11]
  show iprop(cellToks m (sendCell 0 0 c) ∗ cellToks m (sendCell 0 1 c) ∗ cellToks m (recvCell 0 0 c) ∗ cellToks m (recvCell 0 1 c)
      ∗ cellToks m (sendCell 1 0 c) ∗ cellToks m (sendCell 1 1 c) ∗ cellToks m (recvCell 1 0 c) ∗ cellToks m (recvCell 1 1 c)
      ∗ cellToks m (capCell 0 c) ∗ cellToks m (capCell 1 c) ∗ cellToks m (barCell c)) ⊢ _
  rw [toks_send m c 0 0, toks_send m c 0 1, toks_recv m c 0 0, toks_recv m c 0 1, toks_send m c 1 0, toks_send m c 1 1,
    toks_recv m c 1 0, toks_recv m c 1 1, toks_cap m c 0, toks_cap m c 1, toks_bar m c, bigSep_firstN2,
    bigSep_fin2x2, bigSep_fin2x2, bigSep_univ_two]
  unfold sendX recvX capX
  iintro ⟨S00, S01, R00, R01, S10, S11, R10, R11, ⟨C0, -⟩, ⟨C1, -⟩, ⟨⟨B0, B1⟩, -⟩⟩
  isplitl [S00 S01 S10 S11]
  · isplitl [S00 S01]
    · isplitl [S00] <;> iassumption
    · isplitl [S10] <;> iassumption
  isplitl [R00 R01 R10 R11]
  · isplitl [R00 R01]
    · isplitl [R00] <;> iassumption
    · isplitl [R10] <;> iassumption
  isplitl [C0 C1]
  · isplitl [C0] <;> iassumption
  isplitl [B0] <;> iassumption

/-! ## Around the rings -/

/-- The neighbour maps as re-indexings of the devices. -/
def rgtE : Dev nD ≃ Dev nD := ⟨rgt, lft, lft_rgt, rgt_lft⟩
def lftE : Dev nD ≃ Dev nD := ⟨lft, rgt, rgt_lft, lft_rgt⟩
def dnE (p : Fin 2) : Dev nD ≃ Dev nD := ⟨dnR p, upR p, upR_dnR p, dnR_upR p⟩
def upE (p : Fin 2) : Dev nD ≃ Dev nD := ⟨upR p, dnR p, dnR_upR p, upR_dnR p⟩

omit [FloatOps F] in
/-- A family over (index, device), conjoined over both, may have each index's devices re-indexed by that index's
    neighbour map: what every device holds of its own cells is what every device holds of its neighbours'. -/
theorem around {ι : Type} [Fintype ι] (e : ι → Dev nD ≃ Dev nD) (X : ι → Dev nD → sProp 𝕄) :
    (bigSep Finset.univ fun c : Dev nD => bigSep Finset.univ fun i : ι => X i c)
      = bigSep Finset.univ fun c : Dev nD => bigSep Finset.univ fun i : ι => X i (e i c) := by
  rw [bigSep_univ_comm (fun (c : Dev nD) (i : ι) => X i c), bigSep_univ_comm (fun (c : Dev nD) (i : ι) => X i (e i c))]
  exact bigSep_congr fun i _ => bigSep_univ_equiv (e i) (fun c => X i c)

/-! ## The dealing -/

instance knows_persistent (m : Mem F) (Kn : Dev nD × Fin 11 → ℕ) (ιs : KS → ℕ) : BI.Persistent (knows m Kn ιs) := by
  unfold knows; infer_instance

/-- The minted tokens, by the device that pays with them: its own send rounds; the receive rounds of its downstream
    neighbours; the grants to its upstream neighbours; its entry signals to the right and to the left. -/
theorem toks_around (m : Mem F) :
    bigSep (toks m) (fun x => (dutyTok (ER (F := F)) x.1 x.2.1 x.2.2 : sProp 𝕄))
      ⊢ iprop((bigSep Finset.univ fun c : Dev nD => bigSep Finset.univ fun pb : Fin 2 × Fin 2 => sendX (F := F) pb c)
          ∗ (bigSep Finset.univ fun c : Dev nD => bigSep Finset.univ fun pb : Fin 2 × Fin 2 => recvX (F := F) pb (dnE pb.1 c))
          ∗ (bigSep Finset.univ fun c : Dev nD => bigSep Finset.univ fun p : Fin 2 => capX (F := F) p (upE p c))
          ∗ (bigSep Finset.univ fun c : Dev nD => dutyTok (ER (F := F)) (barCell (rgtE c)) 0 (0 : DN))
          ∗ (bigSep Finset.univ fun c : Dev nD => dutyTok (ER (F := F)) (barCell (lftE c)) 0 (1 : DN))) := by
  rw [toks_split, bigSep_univ_prod]
  refine (bigSep_mono fun c _ => dev_toks m c).trans ?_
  rw [bigSep_sep', bigSep_sep', bigSep_sep', bigSep_sep',
    around (fun pb : Fin 2 × Fin 2 => dnE pb.1) (fun pb d => recvX (F := F) pb d),
    around (fun p : Fin 2 => upE p) (fun p d => capX (F := F) p d),
    bigSep_univ_equiv rgtE (fun c => (dutyTok (ER (F := F)) (barCell c) 0 (0 : DN) : sProp 𝕄)),
    bigSep_univ_equiv lftE (fun c => (dutyTok (ER (F := F)) (barCell c) 0 (1 : DN) : sProp 𝕄))]
  exact BI.Entails.refl _

omit [FloatOps F] in
/-- The readers' counts, by the device that holds the slot. -/
theorem readers_by_dev :
    (bigSep (Finset.univ : Finset KS) fun k => (Release.readerAt (ES (F := F)) k 0 : sProp 𝕄))
      = bigSep Finset.univ fun c : Dev nD => bigSep (Finset.univ : Finset (Fin 2 × Fin 2)) fun pb => Release.readerAt (ES (F := F)) ((c, pb.1, pb.2) : KS) 0 :=
  bigSep_univ_prod (fun k : Dev nD × (Fin 2 × Fin 2) => (Release.readerAt (ES (F := F)) (k : KS) 0 : sProp 𝕄))

omit [FloatOps F] in
/-- The tokens of the slots' writes, by the device that writes: the upstream neighbour of the slot's holder. -/
theorem writers_by_dev :
    (bigSep ((Finset.univ : Finset KS) ×ˢ Finset.range 2) fun x => (Release.writeTok (ES (F := F)) x.1 (x.2 + 1) : sProp 𝕄))
      = bigSep Finset.univ fun c : Dev nD => bigSep ((Finset.univ : Finset (Fin 2 × Fin 2)) ×ˢ Finset.range 2) fun x =>
          Release.writeTok (ES (F := F)) ((dnR x.1.1 c, x.1.1, x.1.2) : KS) (x.2 + 1) := by
  rw [bigSep_product, bigSep_univ_prod (fun k : Dev nD × (Fin 2 × Fin 2) => bigSep (Finset.range 2) fun w => (Release.writeTok (ES (F := F)) (k : KS) (w + 1) : sProp 𝕄)),
    around (fun pb : Fin 2 × Fin 2 => dnE pb.1) (fun pb d => bigSep (Finset.range 2) fun w => (Release.writeTok (ES (F := F)) ((d, pb) : KS) (w + 1) : sProp 𝕄))]
  exact bigSep_congr fun c _ => (bigSep_product (Finset.univ : Finset (Fin 2 × Fin 2)) (Finset.range 2)
    (fun x : (Fin 2 × Fin 2) × ℕ => (Release.writeTok (ES (F := F)) ((dnR x.1.1 c, x.1.1, x.1.2) : KS) (x.2 + 1) : sProp 𝕄))).symm

/-- Every device's own share, from what the launch minted that is not persistent. -/
theorem deal_mine (m : Mem F) :
    iprop((bigSep Finset.univ fun ck : Dev nD × Fin 11 => atPos (ER (F := F)) (kcell ck) 0 ∅ 0)
        ∗ (bigSep (toks m) fun x => dutyTok (ER (F := F)) x.1 x.2.1 x.2.2)
        ∗ (bigSep (Finset.univ : Finset KS) fun k => Release.readerAt (ES (F := F)) k 0)
        ∗ (bigSep ((Finset.univ : Finset KS) ×ˢ Finset.range 2) fun x => Release.writeTok (ES (F := F)) x.1 (x.2 + 1)))
      ⊢ (bigSep Finset.univ (mine (F := F)) : sProp 𝕄) := by
  iintro ⟨HA, HT, HD, HW⟩
  ihave HT' := (toks_around m) $$ HT
  icases HT' with ⟨HS, HRv, HC, HB0, HB1⟩
  ihave HA' := (Entails.of_eq (bigSep_univ_prod (fun ck : Dev nD × Fin 11 => (atPos (ER (F := F)) (kcell ck) 0 ∅ 0 : sProp 𝕄)))) $$ HA
  ihave HD' := (Entails.of_eq (readers_by_dev (F := F))) $$ HD
  ihave HW' := (Entails.of_eq (writers_by_dev (F := F))) $$ HW
  unfold mine
  simp only [bigSep_sep']
  isplitl [HA']; · iexact HA'
  isplitl [HB1]; · iexact HB1
  isplitl [HB0]; · iexact HB0
  isplitl [HS]; · iexact HS
  isplitl [HRv]; · iexact HRv
  isplitl [HC]; · iexact HC
  isplitl [HD']; · iexact HD'
  iexact HW'

/-- THE DEALING, as the launch takes it: everything minted, regrouped into every device's share. -/
theorem hdeal (m : Mem F) (Kn : Dev nD × Fin 11 → ℕ) (ιs : KS → ℕ) (hinj : Function.Injective ιs) :
    iprop((bigSep Finset.univ fun ck : Dev nD × Fin 11 => cellInv ER (ringRd m) (Kn ck) (kcell ck))
        ∗ (bigSep Finset.univ fun ck : Dev nD × Fin 11 => reached (ER (F := F)) (kcell ck) 0)
        ∗ (bigSep Finset.univ fun ck : Dev nD × Fin 11 => atPos (ER (F := F)) (kcell ck) 0 ∅ 0)
        ∗ (bigSep (toks m) fun x => dutyTok (ER (F := F)) x.1 x.2.1 x.2.2)
        ∗ (bigSep (Finset.univ : Finset KS) fun k => Release.slotInv (ES (F := F)) (ιs k) k (Sl k))
        ∗ (bigSep (Finset.univ : Finset KS) fun k => Release.readerAt (ES (F := F)) k 0)
        ∗ (bigSep ((Finset.univ : Finset KS) ×ˢ Finset.range 2) fun x => Release.writeTok (ES (F := F)) x.1 (x.2 + 1)))
      ⊢ (bigSep Finset.univ (G' m) : sProp 𝕄) := by
  iintro ⟨#HC, #HR, HA, HT, #HS, HD, HW⟩
  iapply (bigSep_with_persistent (R := knows m Kn ιs) (Φ := mine (F := F)) fun c _ =>
    (show iprop(knows m Kn ιs ∗ mine c) ⊢ G' m c from by
      unfold G'
      iintro ⟨Hk, Hm⟩
      iexists Kn; iexists ιs
      isplitr; · ipureintro; exact hinj
      isplitl [Hk] <;> iassumption))
  isplitr
  · unfold knows
    isplitr; · iexact HC
    isplitr; · iexact HR
    iexact HS
  · iapply (deal_mine m)
    isplitl [HA]; · iexact HA
    isplitl [HT]; · iexact HT
    isplitl [HD] <;> iassumption

/-- info: 'Cert.KernelIdeal.RingProof.hdeal' depends on axioms: [propext, Classical.choice, Quot.sound] -/
#guard_msgs in #print axioms hdeal

end Cert.KernelIdeal.RingProof

end
-- ==== Proof.RingCreds.lean ====
/-
  The credit a device starts with.  At launch every device is dealt, for each of its own cells, one credit token per unit
  the other devices owe that cell.  Device `c`'s cells are owed: its entry cell two units at step 0, one from each
  neighbour; its right-going ring's credit cell one unit at steps 0, 1, 2, from its right neighbour (whose left neighbour it
  is); its left-going ring's credit cell one unit at steps 0, 1, from its left neighbour; its right-going ring's receive
  cells a transfer's worth at steps 0 to 3 (slot 1, 0, 1, 0), from its left neighbour; its left-going ring's receive cells
  the same at steps 0 to 2 (slot 1, 0, 1), from its right neighbour.  What a device owes is the sum of its fourteen payments,
  each to a cell of a neighbour; since "left neighbour" and "right neighbour" are inverse bijections of the devices, the
  payments of all devices to device `c`'s cell are the one payment of the neighbour on the other side.
-/
import proofs.«900462_g7700000000000463_dist_ring_attn_i_s2048_d256_v7x_i8_f32_1_alg».proof.Proof.RingState

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device owes, payment by payment -/

/-- The fourteen payments of a device, the last outermost on the left. -/
theorem O₀_eq : (fun d : Dev nD => O₀ d) = fun d =>
    (fun d => tallyAt (recvCell 0 0 (rgt d)) 3 Ncr) d
    + (fun d => tallyAt (capCell 0 (lft d)) 2 1) d
    + (fun d => tallyAt (recvCell 1 1 (lft d)) 2 Ncr) d
    + (fun d => tallyAt (recvCell 0 1 (rgt d)) 2 Ncr) d
    + (fun d => tallyAt (capCell 1 (rgt d)) 1 1) d
    + (fun d => tallyAt (capCell 0 (lft d)) 1 1) d
    + (fun d => tallyAt (recvCell 1 0 (lft d)) 1 Ncr) d
    + (fun d => tallyAt (recvCell 0 0 (rgt d)) 1 Ncr) d
    + (fun d => tallyAt (capCell 1 (rgt d)) 0 1) d
    + (fun d => tallyAt (capCell 0 (lft d)) 0 1) d
    + (fun d => tallyAt (recvCell 1 1 (lft d)) 0 Ncr) d
    + (fun d => tallyAt (recvCell 0 1 (rgt d)) 0 Ncr) d
    + (fun d => tallyAt (barCell (rgt d)) 0 1) d
    + (fun d => tallyAt (barCell (lft d)) 0 1) d := by
  funext d
  have h : O₀ d = 0
    + tallyAt (recvCell 0 0 (rgt d)) 3 Ncr
    + tallyAt (capCell 0 (lft d)) 2 1
    + tallyAt (recvCell 1 1 (lft d)) 2 Ncr
    + tallyAt (recvCell 0 1 (rgt d)) 2 Ncr
    + tallyAt (capCell 1 (rgt d)) 1 1
    + tallyAt (capCell 0 (lft d)) 1 1
    + tallyAt (recvCell 1 0 (lft d)) 1 Ncr
    + tallyAt (recvCell 0 0 (rgt d)) 1 Ncr
    + tallyAt (capCell 1 (rgt d)) 0 1
    + tallyAt (capCell 0 (lft d)) 0 1
    + tallyAt (recvCell 1 1 (lft d)) 0 Ncr
    + tallyAt (recvCell 0 1 (rgt d)) 0 Ncr
    + tallyAt (barCell (rgt d)) 0 1
    + tallyAt (barCell (lft d)) 0 1 := rfl
  rw [h, zero_add]

/-! ## The credit dealt for them -/

theorem creds (c : Dev nD) : (Pipeline.launchCred O₀ c : sProp 𝕄) ⊢ iprop(
      cred (tallyAt (barCell c) 0 2)
    ∗ (cred (tallyAt (capCell 0 c) 0 1) ∗ cred (tallyAt (capCell 0 c) 1 1) ∗ cred (tallyAt (capCell 0 c) 2 1))
    ∗ (cred (tallyAt (capCell 1 c) 0 1) ∗ cred (tallyAt (capCell 1 c) 1 1))
    ∗ (cred (tallyAt (recvCell 0 1 c) 0 Ncr) ∗ cred (tallyAt (recvCell 0 0 c) 1 Ncr) ∗ cred (tallyAt (recvCell 0 1 c) 2 Ncr) ∗ cred (tallyAt (recvCell 0 0 c) 3 Ncr))
    ∗ (cred (tallyAt (recvCell 1 1 c) 0 Ncr) ∗ cred (tallyAt (recvCell 1 0 c) 1 Ncr) ∗ cred (tallyAt (recvCell 1 1 c) 2 Ncr))) := by
  rw [show (O₀ : Dev nD → CellTallies nD τ sig ℕ) = _ from O₀_eq]
  simp only [Pipeline.launchCred_add]
  iintro ⟨⟨⟨⟨⟨⟨⟨⟨⟨⟨⟨⟨⟨H14, H13⟩, H12⟩, H11⟩, H10⟩, H9⟩, H8⟩, H7⟩, H6⟩, H5⟩, H4⟩, H3⟩, H2⟩, H1⟩
  -- a payment to the left neighbour's cell reaches `c` from its right neighbour, and the other way round
  ihave B1 := (Pipeline.launchCred_tallyAt (Val := Elt F) (Name := ℕ) (U := UU) (Lvl := ℕ) (.reg barS) lft rgt lft_rgt rgt_lft 0 1 c) $$ H1
  ihave B2 := (Pipeline.launchCred_tallyAt (Val := Elt F) (Name := ℕ) (U := UU) (Lvl := ℕ) (.reg barS) rgt lft rgt_lft lft_rgt 0 1 c) $$ H2
  ihave R0 := (Pipeline.launchCred_tallyAt (Val := Elt F) (Name := ℕ) (U := UU) (Lvl := ℕ) (.dma (recvS 0 1)) rgt lft rgt_lft lft_rgt 0 Ncr c) $$ H3
  ihave L0 := (Pipeline.launchCred_tallyAt (Val := Elt F) (Name := ℕ) (U := UU) (Lvl := ℕ) (.dma (recvS 1 1)) lft rgt lft_rgt rgt_lft 0 Ncr c) $$ H4
  ihave K0 := (Pipeline.launchCred_tallyAt (Val := Elt F) (Name := ℕ) (U := UU) (Lvl := ℕ) (.reg (capS 0)) lft rgt lft_rgt rgt_lft 0 1 c) $$ H5
  ihave J0 := (Pipeline.launchCred_tallyAt (Val := Elt F) (Name := ℕ) (U := UU) (Lvl := ℕ) (.reg (capS 1)) rgt lft rgt_lft lft_rgt 0 1 c) $$ H6
  ihave R1 := (Pipeline.launchCred_tallyAt (Val := Elt F) (Name := ℕ) (U := UU) (Lvl := ℕ) (.dma (recvS 0 0)) rgt lft rgt_lft lft_rgt 1 Ncr c) $$ H7
  ihave L1 := (Pipeline.launchCred_tallyAt (Val := Elt F) (Name := ℕ) (U := UU) (Lvl := ℕ) (.dma (recvS 1 0)) lft rgt lft_rgt rgt_lft 1 Ncr c) $$ H8
  ihave K1 := (Pipeline.launchCred_tallyAt (Val := Elt F) (Name := ℕ) (U := UU) (Lvl := ℕ) (.reg (capS 0)) lft rgt lft_rgt rgt_lft 1 1 c) $$ H9
  ihave J1 := (Pipeline.launchCred_tallyAt (Val := Elt F) (Name := ℕ) (U := UU) (Lvl := ℕ) (.reg (capS 1)) rgt lft rgt_lft lft_rgt 1 1 c) $$ H10
  ihave R2 := (Pipeline.launchCred_tallyAt (Val := Elt F) (Name := ℕ) (U := UU) (Lvl := ℕ) (.dma (recvS 0 1)) rgt lft rgt_lft lft_rgt 2 Ncr c) $$ H11
  ihave L2 := (Pipeline.launchCred_tallyAt (Val := Elt F) (Name := ℕ) (U := UU) (Lvl := ℕ) (.dma (recvS 1 1)) lft rgt lft_rgt rgt_lft 2 Ncr c) $$ H12
  ihave K2 := (Pipeline.launchCred_tallyAt (Val := Elt F) (Name := ℕ) (U := UU) (Lvl := ℕ) (.reg (capS 0)) lft rgt lft_rgt rgt_lft 2 1 c) $$ H13
  ihave R3 := (Pipeline.launchCred_tallyAt (Val := Elt F) (Name := ℕ) (U := UU) (Lvl := ℕ) (.dma (recvS 0 0)) rgt lft rgt_lft lft_rgt 3 Ncr c) $$ H14
  isplitl [B1 B2]
  · rw [show (cred (tallyAt (barCell c) 0 2) : sProp 𝕄) = cred (tallyAt (barCell c) 0 1 + tallyAt (barCell c) 0 1) from by
      rw [tallyAt_add]]
    iapply (cred_add _ _).2
    isplitl [B1]; · iexact B1
    iexact B2
  isplitl [K0 K1 K2]
  · isplitl [K0]; · iexact K0
    isplitl [K1]; · iexact K1
    iexact K2
  isplitl [J0 J1]
  · isplitl [J0]; · iexact J0
    iexact J1
  isplitl [R0 R1 R2 R3]
  · isplitl [R0]; · iexact R0
    isplitl [R1]; · iexact R1
    isplitl [R2]; · iexact R2
    iexact R3
  · isplitl [L0]; · iexact L0
    isplitl [L1]; · iexact L1
    iexact L2

/-- info: 'Cert.KernelIdeal.RingProof.creds' depends on axioms: [propext, Classical.choice, Quot.sound] -/
#guard_msgs in
#print axioms creds

end Cert.KernelIdeal.RingProof

end
-- ==== Proof.RingWaits.lean ====
/-
  Every wait's evidence, decided once.  The kinds and steps of a device's fourteen payments do not depend on the
  device; a wait of kind `k` at step `j` after the first `n` payments is allowed when each later payment's
  consuming wait stands above it — a finite check over the list.
-/
import proofs.«900462_g7700000000000463_dist_ring_attn_i_s2048_d256_v7x_i8_f32_1_alg».proof.Proof.RingLevels

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The steps at which a cell of a given kind is waited on. -/
def Lk : CellKind → Finset ℕ
  | .bar => {0}
  | .cap p => Finset.range (nCap p)
  | .send p b => (Finset.range (nHop p)).filter (fun t => t % 2 = b.val)
  | .recv p b => (Finset.range (nHop p)).filter (fun t => (t + 1) % 2 = b.val)
  | .other => {0}

/-- The level of (kind, step). -/
def lvk : CellKind → ℕ → ℕ
  | .bar, _ => 1
  | .cap p, t => 10 * (t + 2) + 1 + p.val
  | .send p _, t => 10 * (t + 1) + 3 + 2 * p.val
  | .recv p _, t => 10 * (t + 1) + 4 + 2 * p.val
  | .other, _ => 0

theorem L_eq (g : GSem nD τ sig) (h : g.1.2 = .tc) : L g = Lk (kindOf g.2) := by
  unfold L Lk; rw [if_pos h]; cases kindOf g.2 <;> rfl
theorem lv_eq (g : GSem nD τ sig) (t : ℕ) : lv g t = lvk (kindOf g.2) t := by
  unfold lv lvk; cases kindOf g.2 <;> rfl

/-- Kind and step of each of a device's payments, in order. -/
def payKinds : List (CellKind × ℕ) :=
  [(.bar, 0), (.bar, 0),
   (.recv 0 1, 0), (.recv 1 1, 0), (.cap 0, 0), (.cap 1, 0),
   (.recv 0 0, 1), (.recv 1 0, 1), (.cap 0, 1), (.cap 1, 1),
   (.recv 0 1, 2), (.recv 1 1, 2), (.cap 0, 2),
   (.recv 0 0, 3)]

theorem pays_kinds (c : Dev nD) : (pays c).map (fun x => (kindOf x.1.2, x.2.1)) = payKinds := by
  simp only [pays, stepPays, List.map_append, List.map_cons, List.map_nil, kindOf_bar, kindOf_recv, kindOf_cap,
    if_pos (by decide : (0 : ℕ) < 4), if_pos (by decide : (0 : ℕ) < 3), if_pos (by decide : (0 : ℕ) < 2),
    if_pos (by decide : (1 : ℕ) < 4), if_pos (by decide : (1 : ℕ) < 3), if_pos (by decide : (1 : ℕ) < 2),
    if_pos (by decide : (2 : ℕ) < 4), if_pos (by decide : (2 : ℕ) < 3), if_neg (by decide : ¬ (2 : ℕ) < 2),
    if_pos (by decide : (3 : ℕ) < 4), if_neg (by decide : ¬ (3 : ℕ) < 3), if_neg (by decide : ¬ (3 : ℕ) < 2),
    List.nil_append, List.append_nil, List.cons_append]
  rfl

theorem pays_procs (c : Dev nD) : (pays c).map (fun x => x.1.1.2) = List.replicate 14 Proc.tc := by
  simp only [pays, stepPays, List.map_append, List.map_cons, List.map_nil,
    if_pos (by decide : (0 : ℕ) < 4), if_pos (by decide : (0 : ℕ) < 3), if_pos (by decide : (0 : ℕ) < 2),
    if_pos (by decide : (1 : ℕ) < 4), if_pos (by decide : (1 : ℕ) < 3), if_pos (by decide : (1 : ℕ) < 2),
    if_pos (by decide : (2 : ℕ) < 4), if_pos (by decide : (2 : ℕ) < 3), if_neg (by decide : ¬ (2 : ℕ) < 2),
    if_pos (by decide : (3 : ℕ) < 4), if_neg (by decide : ¬ (3 : ℕ) < 3), if_neg (by decide : ¬ (3 : ℕ) < 2),
    List.nil_append, List.append_nil, List.cons_append]
  rfl

theorem pays_tc (c : Dev nD) : ∀ x ∈ pays c, x.1.1.2 = .tc := by
  intro x hx
  have h : x.1.1.2 ∈ (pays c).map (fun x => x.1.1.2) := List.mem_map_of_mem hx
  rw [pays_procs] at h
  exact List.eq_of_mem_replicate h

/-- The finite check. -/
def waitOk (k : CellKind) (j n : ℕ) : Prop :=
  ∀ x ∈ payKinds.drop n, x.2 ∈ Lk x.1 ∧ lvk k j < lvk x.1 x.2

instance (k : CellKind) (j n : ℕ) : Decidable (waitOk k j n) := by unfold waitOk; infer_instance

/-- A wait of device `c` on its own cell `s` at step `j` after its first `n` payments. -/
theorem mayWait_kind (c : Dev nD) (s : SemLoc sig) (j n : ℕ) (hj : j ∈ Lk (kindOf s)) (hok : waitOk (kindOf s) j n) :
    (levAts L lv : sProp 𝕄) ⊢ MayWait (c : Thread nD τ) s j (owedFrom c n) :=
  mayWait_after c s j n (by rw [L_eq _ rfl]; exact hj) fun x hx => by
    have hxm : x ∈ pays c := List.mem_of_mem_drop hx
    have hk : (kindOf x.1.2, x.2.1) ∈ payKinds.drop n := by
      rw [← pays_kinds c, ← List.map_drop]
      exact List.mem_map_of_mem hx
    have h := hok _ hk
    rw [L_eq _ (pays_tc c x hxm), lv_eq, lv_eq]
    exact h

end Cert.KernelIdeal.RingProof

end
-- ==== Proof.RingSlotValues.lean ====
/-
  What a ring buffer's slots hold.  A slot read as a transfer reads it is a [2, 2048, 256] block, key half then value half;
  the body loads and stores the halves one at a time as [1, 1, 2048, 256] vectors.  Entry (a, x, y) of slot `b` and entry
  (0, 0, x, y) of its half `a` are the same buffer element, (b, a, x, y).  Hence: a half loaded from a slot whose block is
  known is that block's half; a slot whose halves were stored holds the two stored vectors side by side; a store of a half
  changes nothing outside that half, in particular not the other slot; and a slot a transfer has landed in holds what landed,
  the other slot keeping what it had.
-/
import proofs.«900462_g7700000000000463_dist_ring_attn_i_s2048_d256_v7x_i8_f32_1_alg».proof.Proof.RingSlots

noncomputable section

namespace Cert.KernelIdeal.RingProof

open Cert.KernelIdeal Cert.KernelIdeal.Gen

open Idealize.ShloMosaic
open Idealize.ShloMosaic.TcCoe
open Idealize.SL.Sem

variable {F : FTy → Type} [FloatOps F]

open Idealize.ShloMosaic.ValueIdx (ix2 ix3 ix4)

/-! ## Where the entries sit -/

/-- The buffer index (b, a, x, y). -/
abbrev at4 (b a : Fin 2) (x : Fin 2048) (y : Fin 256) : S2x2x2048x256.Idx := ix4 (n0 := 2) (n1 := 2) (n2 := 2048) (n3 := 256) b a x y

/-- Entry (0, a, x, y) of slot `b`'s rectangle is the buffer's (b, a, x, y). -/
theorem slotR_idx (b a : Fin 2) (x : Fin 2048) (y : Fin 256) :
    (slotR b).toLoadRect.idx (ix4 (n0 := 1) (n1 := 2) (n2 := 2048) (n3 := 256) 0 a x y) = at4 b a x y :=
  funext fun c => Fin.ext (by
    match c with
    | ⟨0, _⟩ => show b.val + 1 * 0 = b.val; omega
    | ⟨1, _⟩ => show 0 + 1 * a.val = a.val; omega
    | ⟨2, _⟩ => show 0 + 1 * x.val = x.val; omega
    | ⟨3, _⟩ => show 0 + 1 * y.val = y.val; omega)

/-- Entry `i` of half `h` of slot `b` is the buffer's (b, h, i₂, i₃). -/
theorem halfR_idx (b h : Fin 2) (i : S1x1x2048x256.Idx) :
    (halfR b h).toLoadRect.idx i = at4 b h (i 2) (i 3) :=
  funext fun c => Fin.ext (by
    have h0 : (i 0).val < 1 := (i 0).isLt
    have h1 : (i 1).val < 1 := (i 1).isLt
    match c with
    | ⟨0, _⟩ => show b.val + 1 * (i 0).val = b.val; omega
    | ⟨1, _⟩ => show h.val + 1 * (i 1).val = h.val; omega
    | ⟨2, _⟩ => show 0 + 1 * (i 2).val = (i 2).val; omega
    | ⟨3, _⟩ => show 0 + 1 * (i 3).val = (i 3).val; omega)

theorem half_emb (b h : Fin 2) (x : Fin 2048) (y : Fin 256) :
    (halfR b h).emb (ix4 (n0 := 1) (n1 := 1) (n2 := 2048) (n3 := 256) 0 0 x y) = at4 b h x y :=
  halfR_idx b h _

theorem slot_shapeCasts : S1x2x2048x256.ShapeCasts S2x2048x256 := by decide

/-- A slot read as a transfer reads it, at (a, x, y), is the buffer read at (b, a, x, y). -/
theorem slot_read_apply (p b : Fin 2) (f : (ringM p).view.ty.Contents (Elt F)) (j : S2x2048x256.Idx) :
    (slotM p b).view.read (Elt F) f j = (ringM p).view.read (Elt F) f (at4 b (j 0) (j 1) (j 2)) := by
  have h1 : (slotM p b).view.read (Elt F) f
      = shapeCast S2x2048x256 ((ringM p).view.readAt (Elt F) (slotR b).toLoadRect f) slot_shapeCasts :=
    Memref.read_squeeze_slice (ringM p) (slotR b) (fun _ => rfl) squeezes_S1x2x2048x256_S2x2048x256 slot_shapeCasts f
  rw [h1]
  refine (shapeCast_apply _ slot_shapeCasts j (ix4 (n0 := 1) (n1 := 2) (n2 := 2048) (n3 := 256) 0 (j 0) (j 1) (j 2)) (by
    rw [Shape.rowMajor_val_four, Shape.rowMajor_val_three]
    show ((0 * 2 + (j 0).val) * 2048 + (j 1).val) * 256 + (j 2).val = ((j 0).val * 2048 + (j 1).val) * 256 + (j 2).val
    omega)).trans ?_
  exact congrArg ((ringM p).view.read (Elt F) f) (slotR_idx b (j 0) (j 1) (j 2))

/-- A half loaded, at `i`, is the buffer read at (b, h, i₂, i₃). -/
theorem half_read_apply (p b h : Fin 2) (f : (ringM p).view.ty.Contents (Elt F)) (i : S1x1x2048x256.Idx) :
    (ringM p).view.readAt (Elt F) (halfR b h).toLoadRect f i = (ringM p).view.read (Elt F) f (at4 b h (i 2) (i 3)) :=
  congrArg ((ringM p).view.read (Elt F) f) (halfR_idx b h i)

/-! ## A store of a half, seen through the buffer -/

/-- At an entry of the half stored: what was stored. -/
theorem read_write_half_mem (p b h : Fin 2) (f : (ringM p).view.ty.Contents (Elt F)) (w : Vec F S1x1x2048x256 .bf16)
    (x : Fin 2048) (y : Fin 256) :
    (ringM p).view.read (Elt F) (View.write (Elt F) ((ringM p).access (halfR b h)) f w Finset.univ) (at4 b h x y)
      = w (ix4 (n0 := 1) (n1 := 1) (n2 := 2048) (n3 := 256) 0 0 x y) := by
  rw [← half_emb]
  exact View.read_slice_write_emb (v := (ringM p).view) (halfR b h) f w (Finset.mem_univ _)

/-- Anywhere else: what was there. -/
theorem read_write_half_not_mem (p b h : Fin 2) (f : (ringM p).view.ty.Contents (Elt F)) (w : Vec F S1x1x2048x256 .bf16)
    {i : S2x2x2048x256.Idx} (hi : i ∉ (halfR b h).set) :
    (ringM p).view.read (Elt F) (View.write (Elt F) ((ringM p).access (halfR b h)) f w Finset.univ) i
      = (ringM p).view.read (Elt F) f i :=
  View.read_slice_write_of_not_mem (v := (ringM p).view) (halfR b h) f w Finset.univ (by rw [Rect.map_emb_univ]; exact hi)

/-- The same at a buffer element outside the half's own elements. -/
theorem write_half_of_not_mem (p b h : Fin 2) (f : (ringM p).view.ty.Contents (Elt F)) (w : Vec F S1x1x2048x256 .bf16)
    {i : (ringM p).view.ty.Idx} (hi : i ∉ ((ringM p).access (halfR b h)).set) :
    View.write (Elt F) ((ringM p).access (halfR b h)) f w Finset.univ i = f i :=
  View.write_of_not_mem (v := (ringM p).access (halfR b h)) f w Finset.univ hi

/-! ## What a transfer's landing leaves -/

/-- The slot landed in holds what landed. -/
theorem slot_read_write (p b : Fin 2) (fd : (ringM p).view.ty.Contents (Elt F)) (V : FVec F S2x2048x256 .bf16) :
    (slotM p b).view.read (Elt F) ((slotM p b).view.write (Elt F) fd V Finset.univ) = V :=
  View.read_write_univ (v := (slotM p b).view) fd V

/-- Outside the slot's elements the buffer is as it was. -/
theorem slot_write_of_not_mem (p b : Fin 2) (fd : (ringM p).view.ty.Contents (Elt F)) (V : FVec F S2x2048x256 .bf16)
    {i : (ringM p).view.ty.Idx} (hi : i ∉ (slotM p b).view.set) :
    (slotM p b).view.write (Elt F) fd V Finset.univ i = fd i :=
  View.write_of_not_mem (v := (slotM p b).view) fd V Finset.univ hi

/-- So the other slot holds what it held. -/
theorem slot_read_write_other (p : Fin 2) {b b' : Fin 2} (hb : b' ≠ b) (fd : (ringM p).view.ty.Contents (Elt F))
    (V : FVec F S2x2048x256 .bf16) :
    (slotM p b').view.read (Elt F) ((slotM p b).view.write (Elt F) fd V Finset.univ) = (slotM p b').view.read (Elt F) fd :=
  View.read_congr (v := (slotM p b').view) fun i hi =>
    slot_write_of_not_mem p b fd V (Finset.disjoint_left.mp (slot_set_disjoint p (b := b') (b' := b) hb) hi)

/-! ## A half loaded from a slot whose block is known -/

theorem half_read_of_slot (p b h : Fin 2) (f : (ringM p).view.ty.Contents (Elt F)) (V : FVec F S2x2048x256 .bf16)
    (hV : (slotM p b).view.read (Elt F) f = V) :
    (ringM p).view.readAt (Elt F) (halfR b h).toLoadRect f
      = fun i : S1x1x2048x256.Idx => V (ix3 (n0 := 2) (n1 := 2048) (n2 := 256) h (i 2) (i 3)) := by
  funext i
  refine (half_read_apply p b h f i).trans ?_
  subst hV
  exact (slot_read_apply p b f (ix3 (n0 := 2) (n1 := 2048) (n2 := 256) h (i 2) (i 3))).symm

/-- The two halves of a key/value pair. -/
theorem joinKV_key (kb vb : FVec F S2048x256 .bf16) (x : Fin 2048) (y : Fin 256) :
    joinKV kb vb (ix3 (n0 := 2) (n1 := 2048) (n2 := 256) 0 x y) = kb (ix2 (n0 := 2048) (n1 := 256) x y) := by
  unfold joinKV; exact if_pos rfl
theorem joinKV_val (kb vb : FVec F S2048x256 .bf16) (x : Fin 2048) (y : Fin 256) :
    joinKV kb vb (ix3 (n0 := 2) (n1 := 2048) (n2 := 256) 1 x y) = vb (ix2 (n0 := 2048) (n1 := 256) x y) := by
  unfold joinKV; exact if_neg (show ¬(1 : ℕ) = 0 from Nat.one_ne_zero)

/-- From a slot holding a key/value pair, the key half loads the keys … -/
theorem half_read_key (p b : Fin 2) (f : (ringM p).view.ty.Contents (Elt F)) (kb vb : FVec F S2048x256 .bf16)
    (hV : (slotM p b).view.read (Elt F) f = joinKV kb vb) :
    (ringM p).view.readAt (Elt F) (halfR b 0).toLoadRect f = fun i : S1x1x2048x256.Idx => kb (ix2 (n0 := 2048) (n1 := 256) (i 2) (i 3)) := by
  rw [half_read_of_slot p b 0 f _ hV]
  exact funext fun i => joinKV_key kb vb (i 2) (i 3)

/-- … and the value half the values. -/
theorem half_read_val (p b : Fin 2) (f : (ringM p).view.ty.Contents (Elt F)) (kb vb : FVec F S2048x256 .bf16)
    (hV : (slotM p b).view.read (Elt F) f = joinKV kb vb) :
    (ringM p).view.readAt (Elt F) (halfR b 1).toLoadRect f = fun i : S1x1x2048x256.Idx => vb (ix2 (n0 := 2048) (n1 := 256) (i 2) (i 3)) := by
  rw [half_read_of_slot p b 1 f _ hV]
  exact funext fun i => joinKV_val kb vb (i 2) (i 3)

/-! ## A slot whose two halves were stored -/

theorem slot_read_write_halves (p b : Fin 2) (f : (ringM p).view.ty.Contents (Elt F)) (wk wv : Vec F S1x1x2048x256 .bf16) :
    (slotM p b).view.read (Elt F)
        (View.write (Elt F) ((ringM p).access (halfR b 1))
          (View.write (Elt F) ((ringM p).access (halfR b 0)) f wk Finset.univ) wv Finset.univ)
      = joinKV (fun j => wk (ix4 (n0 := 1) (n1 := 1) (n2 := 2048) (n3 := 256) 0 0 (j 0) (j 1))) (fun j => wv (ix4 (n0 := 1) (n1 := 1) (n2 := 2048) (n3 := 256) 0 0 (j 0) (j 1))) := by
  funext j
  refine (slot_read_apply p b _ j).trans ?_
  have hj0 : (j 0).val < 2 := (j 0).isLt
  rcases (by omega : (j 0).val = 0 ∨ (j 0).val = 1) with h0 | h0
  · have ea : at4 b (j 0) (j 1) (j 2) = at4 b 0 (j 1) (j 2) := funext fun c => Fin.ext (by
      match c with
      | ⟨0, _⟩ => rfl
      | ⟨1, _⟩ => exact h0
      | ⟨2, _⟩ => rfl
      | ⟨3, _⟩ => rfl)
    have hr : joinKV (fun j => wk (ix4 (n0 := 1) (n1 := 1) (n2 := 2048) (n3 := 256) 0 0 (j 0) (j 1))) (fun j => wv (ix4 (n0 := 1) (n1 := 1) (n2 := 2048) (n3 := 256) 0 0 (j 0) (j 1))) j
        = wk (ix4 (n0 := 1) (n1 := 1) (n2 := 2048) (n3 := 256) 0 0 (j 1) (j 2)) := by unfold joinKV; exact if_pos h0
    rw [hr, ea]
    refine (read_write_half_not_mem p b 1 _ wv (fun hm => ?_)).trans (read_write_half_mem p b 0 f wk (j 1) (j 2))
    have : (0 : ℕ) = 1 := (mem_half.mp hm).2
    omega
  · have ea : at4 b (j 0) (j 1) (j 2) = at4 b 1 (j 1) (j 2) := funext fun c => Fin.ext (by
      match c with
      | ⟨0, _⟩ => rfl
      | ⟨1, _⟩ => exact h0
      | ⟨2, _⟩ => rfl
      | ⟨3, _⟩ => rfl)
    have hr : joinKV (fun j => wk (ix4 (n0 := 1) (n1 := 1) (n2 := 2048) (n3 := 256) 0 0 (j 0) (j 1))) (fun j => wv (ix4 (n0 := 1) (n1 := 1) (n2 := 2048) (n3 := 256) 0 0 (j 0) (j 1))) j
        = wv (ix4 (n0 := 1) (n1 := 1) (n2 := 2048) (n3 := 256) 0 0 (j 1) (j 2)) := by unfold joinKV; exact if_neg (by omega)
    rw [hr, ea]
    exact read_write_half_mem p b 1 _ wv (j 1) (j 2)

/-! ## A store of a half leaves the other slot alone -/

theorem slot_read_write_half_other (p : Fin 2) {b b' : Fin 2} (hb : b' ≠ b) (h : Fin 2) (f : (ringM p).view.ty.Contents (Elt F))
    (w : Vec F S1x1x2048x256 .bf16) :
    (slotM p b').view.read (Elt F) (View.write (Elt F) ((ringM p).access (halfR b h)) f w Finset.univ)
      = (slotM p b').view.read (Elt F) f := by
  funext j
  refine (slot_read_apply p b' _ j).trans (Eq.trans ?_ (slot_read_apply p b' f j).symm)
  exact read_write_half_not_mem p b h f w fun hm => hb (Fin.ext (mem_half.mp hm).1)

/-- info: 'Cert.KernelIdeal.RingProof.slot_read_write_half_other' depends on axioms: [propext, Classical.choice, Quot.sound] -/
#guard_msgs in
#print axioms slot_read_write_half_other

end Cert.KernelIdeal.RingProof

end
-- ==== Proof.RingAccess.lean ====
/-
  Loading and storing a half of a ring slot while holding the slot.
  A device holds a ring buffer slot by slot: the elements of slot `b` at some share.  The body's loads and stores go through
  the buffer itself, a half at a time; a half's elements are among its slot's, so a load of a half needs only (any share of)
  the slot, and a store of a half needs the slot at the full share and leaves it holding the written contents.
  From a slot known to hold a key block beside a value block, the key half loads the keys and the value half the values; a
  slot whose two halves were stored holds the two stored vectors side by side.
-/
import proofs.«900462_g7700000000000463_dist_ring_attn_i_s2048_d256_v7x_i8_f32_1_alg».proof.Proof.RingSlotValues
import proofs.«900462_g7700000000000463_dist_ring_attn_i_s2048_d256_v7x_i8_f32_1_alg».proof.Proof.RingSteps2

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3 ix4)

variable {F : FTy → Type} [FloatOps F]

local notation "𝕄" => MT nD τ sig ℕ (Elt F) ℕ UU ℕ

section Access

variable {α : Type} {Q : α → sProp (MT nD τ sig ℕ (Elt F) ℕ UU ℕ)} (c : Dev nD) (p b : Fin 2)

/-! ## A half's elements are among its slot's -/

theorem half_load_subset (h : Fin 2) : (ringM p).view.setOn (halfR b h).toLoadRect.set ⊆ (slotM p b).view.set := by
  rw [slot_set]
  exact Finset.map_subset_map.mpr (half_subset b h)

theorem half_store_subset (h : Fin 2) : ((ringM p).access (halfR b h)).setOn Finset.univ ⊆ (slotM p b).view.set := by
  rw [View.setOn_univ, half_set, slot_set]
  exact Finset.map_subset_map.mpr (half_subset b h)

/-! ## The two accesses -/

/-- A load of half `h` of a slot held at any share: the program continues at what the half reads, the slot as it was. -/
theorem wp_slot_load (h : Fin 2) {q : PosShare TreeShare} (f : Buf (Elt F) ((slotM p b).view.loc (c : Thread nD τ)))
    {hl : (ringM p).view.LoadsAt (halfR b h).toLoadRect}
    {k : ((halfR b h).toLoadRect.shape.Idx → Elt F .bf16) → Prog (TpuEff nD τ sig (Elt F) Λ₀ .tc) α} :
    slotPts c p b q f
      ⊢ iprop((slotPts c p b q f -∗ wp frame (wpE (defs₀ (F := F)) 𝒱₀ (c : Thread nD τ) none) Set.univ (k ((ringM p).view.readAt (Elt F) (halfR b h).toLoadRect f)) Q)
          -∗ wp frame (wpE (defs₀ (F := F)) 𝒱₀ (c : Thread nD τ) none) Set.univ (.op (.load (ringM p) (halfR b h).toLoadRect hl) k) Q) :=
  wp_load (defs := defs₀ (F := F)) (Γ := .empty) (m := ringM p) (r := (halfR b h).toLoadRect) (hl := hl) (k := k) (Q := Q)
    (S := (slotM p b).view.set) (q := q) (f := f) 𝒱₀ (c : Thread nD τ) none Set.univ (half_load_subset p b h)

/-- A store of half `h` of a slot held whole: the slot then holds the contents with that half written. -/
theorem wp_slot_store (h : Fin 2) (f : Buf (Elt F) ((slotM p b).view.loc (c : Thread nD τ))) (w : Vec F S1x1x2048x256 .bf16)
    {hx : ((ringM p).access (halfR b h)).Stores Finset.univ}
    {hm : (Finset.univ : Finset (halfR b h).shape.Idx) = Finset.univ ∨ ∀ a, (halfR b h).stride a = 1}
    {k : PUnit → Prog (TpuEff nD τ sig (Elt F) Λ₀ .tc) α} :
    slotPts c p b fullShare f
      ⊢ iprop((slotPts c p b fullShare (View.write (Elt F) ((ringM p).access (halfR b h)) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store (ringM p) (halfR b h) w Finset.univ hx hm) k) Q) :=
  wp_store (defs := defs₀ (F := F)) (Γ := .empty) (m := ringM p) (r := halfR b h) (w := w) (Mk := Finset.univ) (hx := hx) (hm := hm) (k := k) (Q := Q)
    (S := (slotM p b).view.set) (f := f) 𝒱₀ (c : Thread nD τ) none Set.univ (half_store_subset p b h)

/-! ## Loading from a slot that holds a key block beside a value block -/

/-- The key half loads the keys; what was held is given back as it was. -/
theorem wp_slot_load_key {q : PosShare TreeShare} (kb vb : FVec F S2048x256 .bf16)
    {hl : (ringM p).view.LoadsAt (halfR b 0).toLoadRect}
    {k : ((halfR b 0).toLoadRect.shape.Idx → Elt F .bf16) → Prog (TpuEff nD τ sig (Elt F) Λ₀ .tc) α} :
    iprop(∃ f, ⌜(slotM p b).view.read (Elt F) f = joinKV kb vb⌝ ∗ slotPts c p b q f)
      ⊢ iprop((iprop(∃ f, ⌜(slotM p b).view.read (Elt F) f = joinKV kb vb⌝ ∗ slotPts c p b q f)
            -∗ wp frame (wpE (defs₀ (F := F)) 𝒱₀ (c : Thread nD τ) none) Set.univ (k (fun i : S1x1x2048x256.Idx => kb (ix2 (n0 := 2048) (n1 := 256) (i 2) (i 3)))) Q)
          -∗ wp frame (wpE (defs₀ (F := F)) 𝒱₀ (c : Thread nD τ) none) Set.univ (.op (.load (ringM p) (halfR b 0).toLoadRect hl) k) Q) := by
  iintro ⟨%f, %hf, Hs⟩ Hk
  iapply (wp_slot_load (Q := Q) c p b 0 f (hl := hl) (k := k)) $$ [Hs]
  · iexact Hs
  iintro Hs
  rw [half_read_key p b f kb vb hf]
  iapply Hk
  iexists f
  isplitr
  · ipureintro; exact hf
  · iexact Hs

/-- The value half loads the values. -/
theorem wp_slot_load_val {q : PosShare TreeShare} (kb vb : FVec F S2048x256 .bf16)
    {hl : (ringM p).view.LoadsAt (halfR b 1).toLoadRect}
    {k : ((halfR b 1).toLoadRect.shape.Idx → Elt F .bf16) → Prog (TpuEff nD τ sig (Elt F) Λ₀ .tc) α} :
    iprop(∃ f, ⌜(slotM p b).view.read (Elt F) f = joinKV kb vb⌝ ∗ slotPts c p b q f)
      ⊢ iprop((iprop(∃ f, ⌜(slotM p b).view.read (Elt F) f = joinKV kb vb⌝ ∗ slotPts c p b q f)
            -∗ wp frame (wpE (defs₀ (F := F)) 𝒱₀ (c : Thread nD τ) none) Set.univ (k (fun i : S1x1x2048x256.Idx => vb (ix2 (n0 := 2048) (n1 := 256) (i 2) (i 3)))) Q)
          -∗ wp frame (wpE (defs₀ (F := F)) 𝒱₀ (c : Thread nD τ) none) Set.univ (.op (.load (ringM p) (halfR b 1).toLoadRect hl) k) Q) := by
  iintro ⟨%f, %hf, Hs⟩ Hk
  iapply (wp_slot_load (Q := Q) c p b 1 f (hl := hl) (k := k)) $$ [Hs]
  · iexact Hs
  iintro Hs
  rw [half_read_val p b f kb vb hf]
  iapply Hk
  iexists f
  isplitr
  · ipureintro; exact hf
  · iexact Hs

/-! ## A slot whose two halves were stored -/

/-- Keys stored into half 0, then values into half 1: the slot holds the two, side by side. -/
theorem slotAt_of_stores (f : Buf (Elt F) ((slotM p b).view.loc (c : Thread nD τ))) (wk wv : Vec F S1x1x2048x256 .bf16) :
    slotPts c p b fullShare
        (View.write (Elt F) ((ringM p).access (halfR b 1))
          (View.write (Elt F) ((ringM p).access (halfR b 0)) f wk Finset.univ) wv Finset.univ)
      ⊢ slotAt c p b (joinKV (fun j => wk (ix4 (n0 := 1) (n1 := 1) (n2 := 2048) (n3 := 256) 0 0 (j 0) (j 1)))
          (fun j => wv (ix4 (n0 := 1) (n1 := 1) (n2 := 2048) (n3 := 256) 0 0 (j 0) (j 1)))) := by
  unfold slotAt
  iintro H
  iexists _
  isplitr
  · ipureintro; exact slot_read_write_halves p b f wk wv
  · iexact H

/-- info: 'Cert.KernelIdeal.RingProof.slotAt_of_stores' depends on axioms: [propext, Classical.choice, Quot.sound] -/
#guard_msgs in
#print axioms slotAt_of_stores

end Access

end Cert.KernelIdeal.RingProof

end
-- ==== Proof.RingSteps3.lean ====
/-
  Three compound steps of the ring.  A hop with its take: the writer of a downstream slot, having heard the slot
  released often enough and holding the token of this write, takes the slot out of its release invariant and hands
  it to the transfer.  A slot held whole is its lent half and its kept half, and back; and a slot read is released
  to its writer.  The last unit of a credit cell: the round is done, the owner stands at the next round, and the
  last grant's facts are known, from the harvest so far or from the payloads the wait brings.
-/
import proofs.«900462_g7700000000000463_dist_ring_attn_i_s2048_d256_v7x_i8_f32_1_alg».proof.Proof.RingSteps2
import proofs.«900462_g7700000000000463_dist_ring_attn_i_s2048_d256_v7x_i8_f32_1_alg».proof.Proof.RingOpen

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig ℕ (Elt F) ℕ UU ℕ

/-! ## A hop with its take -/

/-- The slot a release invariant of key (device, ring, slot) guards is that slot at some contents. -/
theorem Sl_open (d : Dev nD) (p b : Fin 2) :
    Sl (F := F) ((d, p, b) : KS) ⊢ iprop(∃ fd : Buf (Elt F) ((slotM p b).view.loc (d : Thread nD τ)), slotPts d p b fullShare fd) := by
  unfold Sl Release.slot slotPts
  exact BI.Entails.refl _

/-- Hop 2r + b of ring p, the downstream slot taken first: the writer has heard that slot released w times and holds
    the token of write w; it takes the slot out of the slot's release invariant and the transfer hands it on. -/
theorem wp_hop {α : Type} {Q : α → sProp (MT nD τ sig ℕ (Elt F) ℕ UU ℕ)} (m : Mem F) (c : Dev nD) (p : Fin 2)
    (b b' : Fin 2) (hb' : 1 - b'.val = b.val) (r : ℕ) (hs : r < nSend p b) (hr : r < nRecv p b') (ι : ℕ) (n : Dev nD) (hn : n = dnR p c)
    {hsc : (slotM p b' : Memref sig (Dev.tc n : Thread nD τ).2.kind .vmem S2x2048x256 .bf16).view.ref.isScScratch = false}
    {hsrc : (slotM p b).view.WordExact} {hdst : (slotM p b').view.WordExact}
    {hsem : DmaTarget.Typed .vmem (.dma (recvS p b')) (.remote (Dev.tc n : Thread nD τ) (slotM p b') (.dma (sendS p b)) hsc)}
    {k : PUnit → Prog (TpuEff nD τ sig (Elt F) Λ₀ .tc) α} {κ₁ κ₂ : ℕ}
    (fs : Buf (Elt F) ((slotM p b).view.loc (c : Thread nD τ)))
    (hv : (slotM p b).view.read (Elt F) fs = sentV m p (2 * r + b.val) c)
    {O₀ : CellTallies nD τ sig ℕ} (O : CellTallies nD τ sig ℕ) (hO : O₀ = O + tallyAt (recvCell p b' (dnR p c)) ι Ncr) {W : Waits sig ℕ}
    (ιn w : ℕ) :
    iprop(cellInv ER (ringRd m) κ₁ (sendCell p b c) ∗ cellInv ER (ringRd m) κ₂ (recvCell p b' (dnR p c))
        ∗ slotPts c p b fullShare.left fs
        ∗ Release.slotInv (ES (F := F)) ιn ((dnR p c, p, b') : KS) (Sl ((dnR p c, p, b') : KS))
        ∗ Release.released (ES (F := F)) ((dnR p c, p, b') : KS) w ∗ Release.writeTok (ES (F := F)) ((dnR p c, p, b') : KS) w
        ∗ owes (c : Thread nD τ) O₀ W
        ∗ dutyTok ER (sendCell p b c) r (0 : DN) ∗ reached ER (sendCell p b c) r
        ∗ dutyTok ER (recvCell p b' (dnR p c)) r (0 : DN) ∗ reached ER (recvCell p b' (dnR p c)) r)
      ⊢ iprop(((cred (tallyAt (sendCell p b c) ι Ncr) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM p b) (.remote (Dev.tc n : Thread nD τ) (slotM p b') (.dma (sendS p b)) hsc) (.dma (recvS p b')) hsrc hdst hsem) k) Q) := by
  iintro ⟨#HI1, #HI2, Hs, #HIn, #Hrel, Hw, HO, Ht1, #Hr1, Ht2, #Hr2⟩ Hk
  imod (Release.slot_take (ES (F := F)) (Set.mem_univ ιn) w) $$ [Hw] with HS
  · isplitr; · iexact HIn
    isplitr; · iexact Hrel
    iexact Hw
  ihave HS' := (Sl_open (F := F) (dnR p c) p b') $$ HS
  icases HS' with ⟨%fd, Hd⟩
  iapply (wp_ringsend m c p b b' hb' r hs hr ι n hn fs fd hv O hO (W := W)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-! ## A slot, its halves, and its release -/

/-- A slot held whole is its lent half and its kept half, both at the same contents. -/
theorem slot_halve (c : Dev nD) (p b : Fin 2) (V : FVec F S2x2048x256 .bf16) :
    slotAt c p b V ⊢ iprop(slotLent c p b V ∗ ∃ f, ⌜(slotM p b).view.read (Elt F) f = V⌝ ∗ slotPts c p b fullShare.right f) := by
  unfold slotAt slotLent slotPts
  iintro ⟨%f, %hf, H⟩
  ihave H2 := (pointsTo_share (PosShare.mem_left_op_right fullShare)).1 $$ H
  icases H2 with ⟨HL, HR⟩
  isplitl [HL]
  · iexists f; isplitr; · ipureintro; exact hf
    iexact HL
  · iexists f; isplitr; · ipureintro; exact hf
    iexact HR

/-- The lent half back beside the kept half, at whatever contents that is held, is the slot whole: the two halves
    agree on every element of the slot. -/
theorem slot_rejoin' (c : Dev nD) (p b : Fin 2) (V : FVec F S2x2048x256 .bf16) :
    iprop(slotLent c p b V ∗ ∃ g, slotPts c p b fullShare.right g) ⊢ slotAt c p b V := by
  unfold slotAt slotLent slotPts
  iintro ⟨⟨%f, %hf, HL⟩, ⟨%g, HR⟩⟩
  ihave H := (persistent_entails_right pointsTo_agree) $$ [HL HR]
  · isplitl [HL] <;> iassumption
  icases H with ⟨%hag, HL, HR⟩
  have hgf : ∀ i ∈ (slotM p b).view.set, g i = f i := fun i hi => ((hag i (Finset.mem_inter.mpr ⟨hi, hi⟩)).1).symm
  ihave HR' := (Entails.of_eq (pointsTo_congr (q := fullShare.right) hgf)) $$ HR
  iexists f; isplitr; · ipureintro; exact hf
  iapply (pointsTo_share (PosShare.mem_left_op_right fullShare)).2
  isplitl [HL] <;> iassumption

/-- The converse of halving. -/
theorem slot_rejoin (c : Dev nD) (p b : Fin 2) (V : FVec F S2x2048x256 .bf16) :
    iprop(slotLent c p b V ∗ ∃ f, ⌜(slotM p b).view.read (Elt F) f = V⌝ ∗ slotPts c p b fullShare.right f) ⊢ slotAt c p b V := by
  iintro ⟨HL, ⟨%g, -, HR⟩⟩
  iapply (slot_rejoin' c p b V)
  isplitl [HL]; · iexact HL
  iexists g; iexact HR

omit [FloatOps F] in
/-- A slot has elements. -/
theorem slot_nonempty (p b : Fin 2) : (slotM p b).view.set.Nonempty := by
  fin_cases p
  · rw [slot_set0]; exact ⟨ValueIdx.ix4 (n0 := 2) (n1 := 2) (n2 := 2048) (n3 := 256) b 0 0 0, mem_slot.mpr rfl⟩
  · rw [slot_set1]; exact ⟨ValueIdx.ix4 (n0 := 2) (n1 := 2) (n2 := 2048) (n3 := 256) b 0 0 0, mem_slot.mpr rfl⟩

/-- A slot read is released to its writer: the reader, at count n and holding the slot whole, puts it back under
    the slot's release invariant; its count becomes n + 1 and it keeps a witness of that to send the writer. -/
theorem release_after (c : Dev nD) (p b : Fin 2) (V : FVec F S2x2048x256 .bf16) (ιn n : ℕ) :
    iprop(Release.slotInv (ES (F := F)) ιn ((c, p, b) : KS) (Sl ((c, p, b) : KS)) ∗ Release.readerAt (ES (F := F)) ((c, p, b) : KS) n ∗ slotAt c p b V)
      ⊢ |={Set.univ}=> iprop(Release.readerAt (ES (F := F)) ((c, p, b) : KS) (n + 1) ∗ Release.released (ES (F := F)) ((c, p, b) : KS) (n + 1)) := by
  iintro ⟨#HI, Hr, Hs⟩
  iapply (Release.slot_release (ES (F := F)) (Set.mem_univ ιn)
    (Release.slot_slot_false (ℓ := (slotM p b).view.loc (c : Thread nD τ)) (I := (slotM p b).view.set) (slot_nonempty p b)) n)
  isplitr; · iexact HI
  isplitl [Hr]; · iexact Hr
  unfold slotAt
  icases Hs with ⟨%f, -, H⟩
  unfold Sl Release.slot slotPts
  iexists f; iexact H

/-! ## The last unit of a credit cell -/

/-- Grant n, the last of ring p's credit cell: known from the harvest if its duty's payload has been taken, else
    from the payloads of the rest of the round. -/
theorem cap_last_grant (m : Mem F) (c : Dev nD) (p : Fin 2) (n : ℕ) (hn : n + 1 = nCap p) (T : Finset DN) :
    iprop(harvest (F := F) c p T
        ∗ bigSep ((ringRd (F := F) m).duties (capCell p c) 0 \ T) (fun d => (ringRd (F := F) m).payload (capCell p c) 0 d))
      ⊢ grantFact (F := F) p (dnR p c) n := by
  have hlt : n < nCap p := by omega
  rw [payload_cap_fun m c p]
  by_cases hT : capD p n hlt ∈ T
  · unfold harvest
    exact sep_elim_left.trans ((bigSep_elim (Φ := fun d : DN => grantsUpTo (F := F) p (dnR p c) d.val) hT).trans
      (grantsUpTo_elim p (dnR p c) (le_refl n)))
  · have hmem : capD p n hlt ∈ (ringRd (F := F) m).duties (capCell p c) 0 \ T :=
      Finset.mem_sdiff.mpr ⟨by rw [duties_cap]; exact mem_firstN hlt, hT⟩
    exact sep_elim_right.trans ((bigSep_elim (Φ := fun d : DN => grantsUpTo (F := F) p (dnR p c) d.val) hmem).trans
      (grantsUpTo_elim p (dnR p c) (le_refl n)))

/-- The last unit of ring p's credit, the nCap p-th: the round is over; the owner stands at the start of round 1,
    reached; and grant n's facts are known. -/
theorem wp_capwait_last {α : Type} {Q : α → sProp (MT nD τ sig ℕ (Elt F) ℕ UU ℕ)} (m : Mem F) (c : Dev nD) (p : Fin 2)
    (n : ℕ) (hn : n + 1 = nCap p) (T : Finset DN) {k : PUnit → Prog (TpuEff nD τ sig (Elt F) Λ₀ .tc) α} {κ : ℕ}
    {O : CellTallies nD τ sig ℕ} {W : Waits sig ℕ} :
    iprop(cellInv ER (ringRd m) κ (capCell p c) ∗ cred (tallyAt (capCell p c) n 1) ∗ owes (c : Thread nD τ) O W
        ∗ MayWait (c : Thread nD τ) (.reg (capS p)) n O ∗ atPos ER (capCell p c) 0 T n ∗ harvest (F := F) c p T)
      ⊢ iprop(((owes (c : Thread nD τ) O (W ∪ {(SemLoc.reg (capS p), n)}) ∗ atPos ER (capCell p c) 1 ∅ 0 ∗ reached ER (capCell p c) 1
              ∗ grantFact (F := F) p (dnR p c) n)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait (capS p) 1) k) Q) := by
  iintro ⟨#HI, Hc, HO, #Hmw, Hat, #Hh⟩ Hk
  iapply (Rounds.wp_wait_rest 𝒱₀ ER (ringRd m) (c : Thread nD τ) none (κ := κ) (k' := 1)
      (wpE_semWait_eq 𝒱₀ (c : Thread nD τ) none Set.univ) (Set.mem_univ _) {(SemLoc.reg (capS p), n)} (cr := Finsupp.single n 1)
      (O := O) (W := W) (R := 0) (m := n) (T := T) (by rw [expect_cap m c p]; exact hn) (by rw [Util.total_single]) (image_single_subset _ n 1)) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave #Hg := (cap_last_grant m c p n hn T) $$ [Hpay]
  · isplitr; · iexact Hh
    iexact Hpay
  isplitl [HO]; · iexact HO
  isplitl [Hat]; · iexact Hat
  isplitl [Hr]; · iexact Hr
  iexact Hg

/-- info: 'Cert.KernelIdeal.RingProof.wp_hop' depends on axioms: [propext, Classical.choice, Quot.sound] -/
#guard_msgs in #print axioms wp_hop

/-- info: 'Cert.KernelIdeal.RingProof.release_after' depends on axioms: [propext, Classical.choice, Quot.sound] -/
#guard_msgs in #print axioms release_after

/-- info: 'Cert.KernelIdeal.RingProof.wp_capwait_last' depends on axioms: [propext, Classical.choice, Quot.sound] -/
#guard_msgs in #print axioms wp_capwait_last

end Cert.KernelIdeal.RingProof

end
-- ==== Proof.RingEnd.lean ====
/-
  The end of the body.  When its last instruction is done a device holds: each of its ten own cells' invariants with
  its position past the cell's last round; its two ring buffers as their four slots; its two accumulators; nothing
  owed; and the four staging buffers, the three argument blocks as they were fetched and the result block at the
  quotient.  Regrouped, that is the state from which the cells are closed.  An argument's staging buffer, fetched at
  the one point and never written, holds the argument's block.
-/
import proofs.«900462_g7700000000000463_dist_ring_attn_i_s2048_d256_v7x_i8_f32_1_alg».proof.Proof.RingState
import proofs.«900462_g7700000000000463_dist_ring_attn_i_s2048_d256_v7x_i8_f32_1_alg».proof.Proof.RingOpen

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## What the staging buffers of the arguments hold -/

set_option maxRecDepth 16384 in
/-- Argument 0's staging buffer, as the body finds it, holds the argument's block: it is fetched at the one point. -/
theorem before_in0 (m : Mem F) (ρ : Dev nD → PrngReg) (c : Dev nD) (d : (cfg0.win (0 : Fin 4)).block.Idx → Elt F (cfg0.win (0 : Fin 4)).elt) :
    (dats m ρ 0 c).before (0 : Fin 4) t0_0 d = iblk m c (0 : Fin 4) t0_0 :=
  ((dats m ρ 0 c).before_fetched (0 : Fin 4) t0_0 (fetch0_0 t0_0) d).trans (by unfold Dat.fetched Dat.blockOf iblk; rfl)

set_option maxRecDepth 16384 in
theorem before_in1 (m : Mem F) (ρ : Dev nD → PrngReg) (c : Dev nD) (d : (cfg0.win (1 : Fin 4)).block.Idx → Elt F (cfg0.win (1 : Fin 4)).elt) :
    (dats m ρ 0 c).before (1 : Fin 4) t0_0 d = iblk m c (1 : Fin 4) t0_0 :=
  ((dats m ρ 0 c).before_fetched (1 : Fin 4) t0_0 (fetch0_1 t0_0) d).trans (by unfold Dat.fetched Dat.blockOf iblk; rfl)

set_option maxRecDepth 16384 in
theorem before_in2 (m : Mem F) (ρ : Dev nD → PrngReg) (c : Dev nD) (d : (cfg0.win (2 : Fin 4)).block.Idx → Elt F (cfg0.win (2 : Fin 4)).elt) :
    (dats m ρ 0 c).before (2 : Fin 4) t0_0 d = iblk m c (2 : Fin 4) t0_0 :=
  ((dats m ρ 0 c).before_fetched (2 : Fin 4) t0_0 (fetch0_2 t0_0) d).trans (by unfold Dat.fetched Dat.blockOf iblk; rfl)

/-! ## Nothing owed -/

/-- After the fourteenth payment nothing is owed, whatever waits have been recorded: what the loop holds after the point. -/
theorem owes_end (m : Mem F) (ρ : Dev nD → PrngReg) (c : Dev nD) (W' : Waits sig ℕ) :
    (owes (c : Thread nD τ) (owedFrom c 14) W' : sProp 𝕄) ⊢ (dats m ρ 0 c).owesAt 0 t0_0.succ := by
  rw [owedFrom_done]
  show _ ⊢ Pipeline.owesWithin c 0 ((dats m ρ 0 c).bound 0 t0_0.succ)
  iintro H
  iexists W'
  isplitr
  · ipureintro; exact fun x _ => Or.inl (Set.mem_univ x)
  iexact H

/-! ## The state after the last instruction is the state from which the cells are closed -/

omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The end of the body: the ten own cells past their last rounds (each with its invariant, at whatever name), the
    four slots at any contents, the two accumulators at any contents, nothing owed, the three argument blocks staged
    as the body found them and the result block staged at the quotient, regrouped as the closing state. -/
theorem body_end (m : Mem F) (ρ : Dev nD → PrngReg) (c : Dev nD) {κ0 κ1 κ2 κ3 κ4 κ5 κ6 κ7 κ8 κ9 : ℕ} (W' : Waits sig ℕ)
    (d0 : (cfg0.win (0 : Fin 4)).block.Idx → Elt F (cfg0.win (0 : Fin 4)).elt)
    (d1 : (cfg0.win (1 : Fin 4)).block.Idx → Elt F (cfg0.win (1 : Fin 4)).elt)
    (d2 : (cfg0.win (2 : Fin 4)).block.Idx → Elt F (cfg0.win (2 : Fin 4)).elt)
    (f0 : Buf (Elt F) ((c : Thread nD τ).loc cc0_stg0_0)) (f1 : Buf (Elt F) ((c : Thread nD τ).loc cc0_stg1_0))
    (f2 : Buf (Elt F) ((c : Thread nD τ).loc cc0_stg2_0)) (f3 : Buf (Elt F) ((c : Thread nD τ).loc cc0_stg3_0))
    (hf0 : f0 = (dats m ρ 0 c).before (0 : Fin 4) t0_0 d0) (hf1 : f1 = (dats m ρ 0 c).before (1 : Fin 4) t0_0 d1)
    (hf2 : f2 = (dats m ρ 0 c).before (2 : Fin 4) t0_0 d2) (hf3 : f3 = outBlock m c) :
    iprop((cellInv ER (ringRd m) κ0 (sendCell 0 0 c) ∗ atPos (ER (F := F)) (sendCell 0 0 c) (nSend 0 0) ∅ 0)
        ∗ (cellInv ER (ringRd m) κ1 (sendCell 0 1 c) ∗ atPos (ER (F := F)) (sendCell 0 1 c) (nSend 0 1) ∅ 0)
        ∗ (cellInv ER (ringRd m) κ2 (recvCell 0 0 c) ∗ atPos (ER (F := F)) (recvCell 0 0 c) (nRecv 0 0) ∅ 0)
        ∗ (cellInv ER (ringRd m) κ3 (recvCell 0 1 c) ∗ atPos (ER (F := F)) (recvCell 0 1 c) (nRecv 0 1) ∅ 0)
        ∗ (cellInv ER (ringRd m) κ4 (sendCell 1 0 c) ∗ atPos (ER (F := F)) (sendCell 1 0 c) (nSend 1 0) ∅ 0)
        ∗ (cellInv ER (ringRd m) κ5 (sendCell 1 1 c) ∗ atPos (ER (F := F)) (sendCell 1 1 c) (nSend 1 1) ∅ 0)
        ∗ (cellInv ER (ringRd m) κ6 (recvCell 1 0 c) ∗ atPos (ER (F := F)) (recvCell 1 0 c) (nRecv 1 0) ∅ 0)
        ∗ (cellInv ER (ringRd m) κ7 (recvCell 1 1 c) ∗ atPos (ER (F := F)) (recvCell 1 1 c) (nRecv 1 1) ∅ 0)
        ∗ (cellInv ER (ringRd m) κ8 (capCell 0 c) ∗ atPos (ER (F := F)) (capCell 0 c) 1 ∅ 0)
        ∗ (cellInv ER (ringRd m) κ9 (capCell 1 c) ∗ atPos (ER (F := F)) (capCell 1 c) 1 ∅ 0)
        ∗ (∃ f, slotPts c 0 0 fullShare f) ∗ (∃ f, slotPts c 0 1 fullShare f)
        ∗ (∃ f, slotPts c 1 0 fullShare f) ∗ (∃ f, slotPts c 1 1 fullShare f)
        ∗ (∃ f, (Memref.whole cc0_scratch2).view.loc (c : Thread nD τ) ↦{fullShare} f)
        ∗ (∃ f, (Memref.whole cc0_scratch3).view.loc (c : Thread nD τ) ↦{fullShare} f)
        ∗ owes (c : Thread nD τ) (owedFrom c 14) W'
        ∗ ((Memref.whole cc0_stg0_0).view.loc (c : Thread nD τ) ↦{fullShare} f0)
        ∗ ((Memref.whole cc0_stg1_0).view.loc (c : Thread nD τ) ↦{fullShare} f1)
        ∗ ((Memref.whole cc0_stg2_0).view.loc (c : Thread nD τ) ↦{fullShare} f2)
        ∗ ((Memref.whole cc0_stg3_0).view.loc (c : Thread nD τ) ↦{fullShare} f3))
      ⊢ closing m ρ c := by
  unfold closing cellsDone scratch stg
  rw [bigSep_fin10]
  iintro ⟨C0, C1, C2, C3, C4, C5, C6, C7, C8, C9, S00, S01, S10, S11, A2, A3, HO, H0, H1, H2, H3⟩
  ihave R0 := (ring0_join (F := F) c) $$ [S00 S01]
  · isplitl [S00] <;> iassumption
  ihave R1 := (ring1_join (F := F) c) $$ [S10 S11]
  · isplitl [S10] <;> iassumption
  ihave HO' := (owes_end m ρ c W') $$ HO
  isplitl [C0 C1 C2 C3 C4 C5 C6 C7 C8 C9]
  · isplitl [C0]; · iexists κ0; iexact C0
    isplitl [C1]; · iexists κ1; iexact C1
    isplitl [C2]; · iexists κ2; iexact C2
    isplitl [C3]; · iexists κ3; iexact C3
    isplitl [C4]; · iexists κ4; iexact C4
    isplitl [C5]; · iexists κ5; iexact C5
    isplitl [C6]; · iexists κ6; iexact C6
    isplitl [C7]; · iexists κ7; iexact C7
    isplitl [C8]; · iexists κ8; iexact C8
    iexists κ9; iexact C9
  isplitl [R0 R1 A2 A3]
  · isplitl [R0]; · iexact R0
    isplitl [R1]; · iexact R1
    isplitl [A2]; · iexact A2
    iexact A3
  isplitl [HO']; · iexact HO'
  isplitl [H0]
  · iexists f0; isplitr; · ipureintro; exact hf0.trans (before_in0 m ρ c d0)
    iexact H0
  isplitl [H1]
  · iexists f1; isplitr; · ipureintro; exact hf1.trans (before_in1 m ρ c d1)
    iexact H1
  isplitl [H2]
  · iexists f2; isplitr; · ipureintro; exact hf2.trans (before_in2 m ρ c d2)
    iexact H2
  iexists f3; isplitr; · ipureintro; exact hf3
  iexact H3

/-- info: 'Cert.KernelIdeal.RingProof.body_end' depends on axioms: [propext, Classical.choice, Quot.sound] -/
#guard_msgs in #print axioms body_end

end Cert.KernelIdeal.RingProof

end
-- ==== Proof.RingValueForms.lean ====
/-
  The chunk steps and a visit, spelt as the stores and loads themselves.

  A chunk's step is one store, through the chunk's rectangle of the running buffer, of the update of what a load
  through the same rectangle reads; a visit is the four chunks' stores into the denominator and the four into the
  numerator.  The two buffers do not share an element, so the order in which the program interleaves the
  denominator's stores with the numerator's does not enter: each buffer's contents after a visit depend only on
  its own four stores, in order.
-/
import proofs.«900462_g7700000000000463_dist_ring_attn_i_s2048_d256_v7x_i8_f32_1_alg».proof.Proof.RingValue

noncomputable section

namespace Cert.KernelIdeal.AttnKer

open Cert.KernelIdeal Cert.KernelIdeal.Gen Idealize.ShloMosaic Idealize.SL.Sem

variable {F : FTy → Type} [FloatOps F]

/-- A chunk's step on the denominator, as the store it is. -/
theorem stepL_eq (o : Nat) (inb : ∀ a, (![o, 0] : Fin 2 → Nat) a + S512x1.size a ≤ S2048x1.size a)
    (p : FVec F S512x2048 .f32) (fl : LBuf F) :
    stepL o inb p fl
      = View.write (Elt F) ((Memref.whole cc0_scratch3).access (Rect.unit (s := S2048x1) ![o, 0] S512x1.size inb)) fl
          (denVal p ((Memref.whole cc0_scratch3).view.readAt (Elt F)
            (Rect.unit (s := S2048x1) ![o, 0] S512x1.size inb).toLoadRect fl)) Finset.univ := rfl

/-- A chunk's step on the numerator, as the store it is. -/
theorem stepA_eq (o : Nat) (inb : ∀ a, (![o, 0] : Fin 2 → Nat) a + S512x256.size a ≤ S2048x256.size a)
    (p : FVec F S512x2048 .f32) (vb : FVec F S2048x256 .bf16) (fa : ABuf F) :
    stepA o inb p vb fa
      = View.write (Elt F) ((Memref.whole cc0_scratch2).access (Rect.unit (s := S2048x256) ![o, 0] S512x256.size inb)) fa
          (numVal p vb ((Memref.whole cc0_scratch2).view.readAt (Elt F)
            (Rect.unit (s := S2048x256) ![o, 0] S512x256.size inb).toLoadRect fa)) Finset.univ := rfl

/-- A store of any value that is the denominator's update of the loaded rows is the chunk's step. -/
theorem stepL_of_store (o : Nat) (inb : ∀ a, (![o, 0] : Fin 2 → Nat) a + S512x1.size a ≤ S2048x1.size a)
    (p : FVec F S512x2048 .f32) (fl : LBuf F) (w : FVec F S512x1 .f32)
    (hw : w = denVal p ((Memref.whole cc0_scratch3).view.readAt (Elt F)
      (Rect.unit (s := S2048x1) ![o, 0] S512x1.size inb).toLoadRect fl)) :
    View.write (Elt F) ((Memref.whole cc0_scratch3).access (Rect.unit (s := S2048x1) ![o, 0] S512x1.size inb)) fl w
      Finset.univ = stepL o inb p fl := by
  subst hw; rfl

/-- The same for the numerator. -/
theorem stepA_of_store (o : Nat) (inb : ∀ a, (![o, 0] : Fin 2 → Nat) a + S512x256.size a ≤ S2048x256.size a)
    (p : FVec F S512x2048 .f32) (vb : FVec F S2048x256 .bf16) (fa : ABuf F) (w : FVec F S512x256 .f32)
    (hw : w = numVal p vb ((Memref.whole cc0_scratch2).view.readAt (Elt F)
      (Rect.unit (s := S2048x256) ![o, 0] S512x256.size inb).toLoadRect fa)) :
    View.write (Elt F) ((Memref.whole cc0_scratch2).access (Rect.unit (s := S2048x256) ![o, 0] S512x256.size inb)) fa w
      Finset.univ = stepA o inb p vb fa := by
  subst hw; rfl

/-- A visit, chunk by chunk. -/
theorem accumulate_eq (qv kb vb : FVec F S2048x256 .bf16) (fl : LBuf F) (fa : ABuf F) :
    accumulate qv kb vb (fl, fa)
      = (stepL 1536 inb_S2048x1_S512x1_1536_0 (weights qv kb 3)
          (stepL 1024 inb_S2048x1_S512x1_1024_0 (weights qv kb 2)
            (stepL 512 inb_S2048x1_S512x1_512_0 (weights qv kb 1)
              (stepL 0 inb_S2048x1_S512x1_0_0 (weights qv kb 0) fl))),
         stepA 1536 inb_S2048x256_S512x256_1536_0 (weights qv kb 3) vb
          (stepA 1024 inb_S2048x256_S512x256_1024_0 (weights qv kb 2) vb
            (stepA 512 inb_S2048x256_S512x256_512_0 (weights qv kb 1) vb
              (stepA 0 inb_S2048x256_S512x256_0_0 (weights qv kb 0) vb fa)))) := rfl

/-- The denominator after a visit, as the four stores in program order, each of the update of what the load before
    it reads. -/
theorem accumulate_fst_stores (qv kb vb : FVec F S2048x256 .bf16) (fl : LBuf F) (fa : ABuf F) :
    ((View.write (Elt F) ((Memref.whole cc0_scratch3).access (Rect.unit (s := S2048x1) ![1536, 0] S512x1.size inb_S2048x1_S512x1_1536_0)) (View.write (Elt F) ((Memref.whole cc0_scratch3).access (Rect.unit (s := S2048x1) ![1024, 0] S512x1.size inb_S2048x1_S512x1_1024_0)) (View.write (Elt F) ((Memref.whole cc0_scratch3).access (Rect.unit (s := S2048x1) ![512, 0] S512x1.size inb_S2048x1_S512x1_512_0)) (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ) (denVal (weights qv kb 1) ((Memref.whole cc0_scratch3).view.readAt (Elt F) (Rect.unit (s := S2048x1) ![512, 0] S512x1.size inb_S2048x1_S512x1_512_0).toLoadRect (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ))) Finset.univ) (denVal (weights qv kb 2) ((Memref.whole cc0_scratch3).view.readAt (Elt F) (Rect.unit (s := S2048x1) ![1024, 0] S512x1.size inb_S2048x1_S512x1_1024_0).toLoadRect (View.write (Elt F) ((Memref.whole cc0_scratch3).access (Rect.unit (s := S2048x1) ![512, 0] S512x1.size inb_S2048x1_S512x1_512_0)) (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ) (denVal (weights qv kb 1) ((Memref.whole cc0_scratch3).view.readAt (Elt F) (Rect.unit (s := S2048x1) ![512, 0] S512x1.size inb_S2048x1_S512x1_512_0).toLoadRect (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ))) Finset.univ))) Finset.univ) (denVal (weights qv kb 3) ((Memref.whole cc0_scratch3).view.readAt (Elt F) (Rect.unit (s := S2048x1) ![1536, 0] S512x1.size inb_S2048x1_S512x1_1536_0).toLoadRect (View.write (Elt F) ((Memref.whole cc0_scratch3).access (Rect.unit (s := S2048x1) ![1024, 0] S512x1.size inb_S2048x1_S512x1_1024_0)) (View.write (Elt F) ((Memref.whole cc0_scratch3).access (Rect.unit (s := S2048x1) ![512, 0] S512x1.size inb_S2048x1_S512x1_512_0)) (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ) (denVal (weights qv kb 1) ((Memref.whole cc0_scratch3).view.readAt (Elt F) (Rect.unit (s := S2048x1) ![512, 0] S512x1.size inb_S2048x1_S512x1_512_0).toLoadRect (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ))) Finset.univ) (denVal (weights qv kb 2) ((Memref.whole cc0_scratch3).view.readAt (Elt F) (Rect.unit (s := S2048x1) ![1024, 0] S512x1.size inb_S2048x1_S512x1_1024_0).toLoadRect (View.write (Elt F) ((Memref.whole cc0_scratch3).access (Rect.unit (s := S2048x1) ![512, 0] S512x1.size inb_S2048x1_S512x1_512_0)) (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ) (denVal (weights qv kb 1) ((Memref.whole cc0_scratch3).view.readAt (Elt F) (Rect.unit (s := S2048x1) ![512, 0] S512x1.size inb_S2048x1_S512x1_512_0).toLoadRect (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ))) Finset.univ))) Finset.univ))) Finset.univ) : LBuf F)
      = (accumulate qv kb vb (fl, fa)).1 := rfl

/-- The numerator after a visit, likewise. -/
theorem accumulate_snd_stores (qv kb vb : FVec F S2048x256 .bf16) (fl : LBuf F) (fa : ABuf F) :
    ((View.write (Elt F) ((Memref.whole cc0_scratch2).access (Rect.unit (s := S2048x256) ![1536, 0] S512x256.size inb_S2048x256_S512x256_1536_0)) (View.write (Elt F) ((Memref.whole cc0_scratch2).access (Rect.unit (s := S2048x256) ![1024, 0] S512x256.size inb_S2048x256_S512x256_1024_0)) (View.write (Elt F) ((Memref.whole cc0_scratch2).access (Rect.unit (s := S2048x256) ![512, 0] S512x256.size inb_S2048x256_S512x256_512_0)) (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ) (numVal (weights qv kb 1) vb ((Memref.whole cc0_scratch2).view.readAt (Elt F) (Rect.unit (s := S2048x256) ![512, 0] S512x256.size inb_S2048x256_S512x256_512_0).toLoadRect (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ))) Finset.univ) (numVal (weights qv kb 2) vb ((Memref.whole cc0_scratch2).view.readAt (Elt F) (Rect.unit (s := S2048x256) ![1024, 0] S512x256.size inb_S2048x256_S512x256_1024_0).toLoadRect (View.write (Elt F) ((Memref.whole cc0_scratch2).access (Rect.unit (s := S2048x256) ![512, 0] S512x256.size inb_S2048x256_S512x256_512_0)) (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ) (numVal (weights qv kb 1) vb ((Memref.whole cc0_scratch2).view.readAt (Elt F) (Rect.unit (s := S2048x256) ![512, 0] S512x256.size inb_S2048x256_S512x256_512_0).toLoadRect (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ))) Finset.univ))) Finset.univ) (numVal (weights qv kb 3) vb ((Memref.whole cc0_scratch2).view.readAt (Elt F) (Rect.unit (s := S2048x256) ![1536, 0] S512x256.size inb_S2048x256_S512x256_1536_0).toLoadRect (View.write (Elt F) ((Memref.whole cc0_scratch2).access (Rect.unit (s := S2048x256) ![1024, 0] S512x256.size inb_S2048x256_S512x256_1024_0)) (View.write (Elt F) ((Memref.whole cc0_scratch2).access (Rect.unit (s := S2048x256) ![512, 0] S512x256.size inb_S2048x256_S512x256_512_0)) (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ) (numVal (weights qv kb 1) vb ((Memref.whole cc0_scratch2).view.readAt (Elt F) (Rect.unit (s := S2048x256) ![512, 0] S512x256.size inb_S2048x256_S512x256_512_0).toLoadRect (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ))) Finset.univ) (numVal (weights qv kb 2) vb ((Memref.whole cc0_scratch2).view.readAt (Elt F) (Rect.unit (s := S2048x256) ![1024, 0] S512x256.size inb_S2048x256_S512x256_1024_0).toLoadRect (View.write (Elt F) ((Memref.whole cc0_scratch2).access (Rect.unit (s := S2048x256) ![512, 0] S512x256.size inb_S2048x256_S512x256_512_0)) (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ) (numVal (weights qv kb 1) vb ((Memref.whole cc0_scratch2).view.readAt (Elt F) (Rect.unit (s := S2048x256) ![512, 0] S512x256.size inb_S2048x256_S512x256_512_0).toLoadRect (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ))) Finset.univ))) Finset.univ))) Finset.univ) : ABuf F)
      = (accumulate qv kb vb (fl, fa)).2 := rfl

end Cert.KernelIdeal.AttnKer

end

/-- info: 'Cert.KernelIdeal.AttnKer.accumulate_snd_stores' depends on axioms: [propext, Classical.choice, Quot.sound] -/
#guard_msgs in #print axioms Cert.KernelIdeal.AttnKer.accumulate_snd_stores
-- ==== Proof.RingValues.lean ====
/-
  Values the ring's body meets.  A staging buffer of an argument, read whole, is the argument's block.  A device's own
  key and value blocks, rounded and stored into a slot half by half, are the block it sends on hop 0.  What a device
  sends on a later hop is what its upstream neighbour sent one hop earlier.  A key or value block loaded from a slot
  and reshaped is the block itself.  The two accumulators after the eight visits, read whole and divided, are the
  device's result block.
-/
import proofs.«900462_g7700000000000463_dist_ring_attn_i_s2048_d256_v7x_i8_f32_1_alg».proof.Proof.RingEnd
import proofs.«900462_g7700000000000463_dist_ring_attn_i_s2048_d256_v7x_i8_f32_1_alg».proof.Proof.RingAccess
import proofs.«900462_g7700000000000463_dist_ring_attn_i_s2048_d256_v7x_i8_f32_1_alg».proof.Proof.RingValueForms

noncomputable section

namespace Cert.KernelIdeal.RingProof

open Cert.KernelIdeal Cert.KernelIdeal.Gen Cert.KernelIdeal.AttnKer

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## A block as a slot half, and back -/

/-- A block given two unit axes in front, read at (0, 0, a, b), is the block at (a, b). -/
theorem up_apply {α : Type} (v : S2048x256.Idx → α) (h : S2048x256.ShapeCasts S1x1x2048x256) (j : S2048x256.Idx) :
    shapeCast S1x1x2048x256 v h (ix4 (n0 := 1) (n1 := 1) (n2 := 2048) (n3 := 256) 0 0 (j 0) (j 1)) = v j :=
  shapeCast_apply v h _ j (by
    rw [Shape.rowMajor_val_two, Shape.rowMajor_val_four]
    show (j 0).val * 256 + (j 1).val = ((0 * 1 + 0) * 2048 + (j 0).val) * 256 + (j 1).val
    omega)

/-- A block read through a slot half's coordinates and reshaped to a block is the block. -/
theorem down_up {α : Type} (kb : S2048x256.Idx → α) (h : S1x1x2048x256.ShapeCasts S2048x256) :
    shapeCast S2048x256 (fun i : S1x1x2048x256.Idx => kb (ix2 (n0 := 2048) (n1 := 256) (i 2) (i 3))) h = kb := by
  funext j
  refine (shapeCast_apply _ h j (ix4 (n0 := 1) (n1 := 1) (n2 := 2048) (n3 := 256) 0 0 (j 0) (j 1)) (by
    rw [Shape.rowMajor_val_two, Shape.rowMajor_val_four]
    show ((0 * 1 + 0) * 2048 + (j 0).val) * 256 + (j 1).val = (j 0).val * 256 + (j 1).val
    omega)).trans ?_
  exact congrArg kb (eq_ix2 (n0 := 2048) (n1 := 256) j).symm

/-- The printed reshapes of a loaded key or value half. -/
theorem pay12_load (kb : FVec F S2048x256 .bf16) :
    k0_pay12 (F := F) (fun i : S1x1x2048x256.Idx => kb (ix2 (n0 := 2048) (n1 := 256) (i 2) (i 3))) = kb :=
  down_up kb _
theorem pay13_load (vb : FVec F S2048x256 .bf16) :
    k0_pay13 (F := F) (fun i : S1x1x2048x256.Idx => vb (ix2 (n0 := 2048) (n1 := 256) (i 2) (i 3))) = vb :=
  down_up vb _

/-! ## What the arguments' staging buffers hold, read whole -/

set_option maxRecDepth 16384 in
/-- The one block of an argument's window is the argument's array. -/
theorem iblk_arg0 (m : Mem F) (c : Dev nD) : iblk m c (0 : Fin 4) t0_0 = m ((c : Thread nD τ).loc main_arg0) :=
  Memref.read_access_unit_zero (Elt F) main_arg0 (funext fun a => by fin_cases a <;> rfl) _ _
set_option maxRecDepth 16384 in
theorem iblk_arg1 (m : Mem F) (c : Dev nD) : iblk m c (1 : Fin 4) t0_0 = m ((c : Thread nD τ).loc main_arg1) :=
  Memref.read_access_unit_zero (Elt F) main_arg1 (funext fun a => by fin_cases a <;> rfl) _ _
set_option maxRecDepth 16384 in
theorem iblk_arg2 (m : Mem F) (c : Dev nD) : iblk m c (2 : Fin 4) t0_0 = m ((c : Thread nD τ).loc main_arg2) :=
  Memref.read_access_unit_zero (Elt F) main_arg2 (funext fun a => by fin_cases a <;> rfl) _ _

set_option maxRecDepth 16384 in
/-- The query's staging buffer as the body finds it, read whole, is the device's query block. -/
theorem stg0_read (m : Mem F) (ρ : Dev nD → PrngReg) (c : Dev nD) (d0 : (cfg0.win (0 : Fin 4)).block.Idx → Elt F (cfg0.win (0 : Fin 4)).elt)
    (f0 : Buf (Elt F) ((c : Thread nD τ).loc cc0_stg0_0)) (hf0 : f0 = (dats m ρ 0 c).before (0 : Fin 4) t0_0 d0) :
    (Memref.whole cc0_stg0_0).view.readAt (Elt F) (Rect.unit (s := S2048x256) ![0, 0] S2048x256.size inb_S2048x256_S2048x256_0_0).toLoadRect f0
      = m ((c : Thread nD τ).loc main_arg0) :=
  (Memref.readAt_unit_zero (Elt F) cc0_stg0_0 (funext fun a => by fin_cases a <;> rfl) _ f0).trans
    ((hf0.trans (before_in0 m ρ c d0)).trans (iblk_arg0 m c))

set_option maxRecDepth 16384 in
theorem stg1_read (m : Mem F) (ρ : Dev nD → PrngReg) (c : Dev nD) (d1 : (cfg0.win (1 : Fin 4)).block.Idx → Elt F (cfg0.win (1 : Fin 4)).elt)
    (f1 : Buf (Elt F) ((c : Thread nD τ).loc cc0_stg1_0)) (hf1 : f1 = (dats m ρ 0 c).before (1 : Fin 4) t0_0 d1) :
    (Memref.whole cc0_stg1_0).view.readAt (Elt F) (Rect.unit (s := S2048x256) ![0, 0] S2048x256.size inb_S2048x256_S2048x256_0_0).toLoadRect f1
      = m ((c : Thread nD τ).loc main_arg1) :=
  (Memref.readAt_unit_zero (Elt F) cc0_stg1_0 (funext fun a => by fin_cases a <;> rfl) _ f1).trans
    ((hf1.trans (before_in1 m ρ c d1)).trans (iblk_arg1 m c))

set_option maxRecDepth 16384 in
theorem stg2_read (m : Mem F) (ρ : Dev nD → PrngReg) (c : Dev nD) (d2 : (cfg0.win (2 : Fin 4)).block.Idx → Elt F (cfg0.win (2 : Fin 4)).elt)
    (f2 : Buf (Elt F) ((c : Thread nD τ).loc cc0_stg2_0)) (hf2 : f2 = (dats m ρ 0 c).before (2 : Fin 4) t0_0 d2) :
    (Memref.whole cc0_stg2_0).view.readAt (Elt F) (Rect.unit (s := S2048x256) ![0, 0] S2048x256.size inb_S2048x256_S2048x256_0_0).toLoadRect f2
      = m ((c : Thread nD τ).loc main_arg2) :=
  (Memref.readAt_unit_zero (Elt F) cc0_stg2_0 (funext fun a => by fin_cases a <;> rfl) _ f2).trans
    ((hf2.trans (before_in2 m ρ c d2)).trans (iblk_arg2 m c))

/-! ## The device's own block, as the body stores it into the two rings -/

/-- The printed reshapes of the rounded own blocks, read at a slot half's coordinates. -/
theorem pay5_apply (v : Vec F S2048x256 .f32) (j : S2048x256.Idx) :
    k0_pay5 (F := F) v (ix4 (n0 := 1) (n1 := 1) (n2 := 2048) (n3 := 256) 0 0 (j 0) (j 1)) = k0_pay3 v j := by
  unfold k0_pay5; exact up_apply (k0_pay3 v) _ j
theorem pay6_apply (v : Vec F S2048x256 .f32) (j : S2048x256.Idx) :
    k0_pay6 (F := F) v (ix4 (n0 := 1) (n1 := 1) (n2 := 2048) (n3 := 256) 0 0 (j 0) (j 1)) = k0_pay4 v j := by
  unfold k0_pay6; exact up_apply (k0_pay4 v) _ j
theorem pay7_apply (w : FVec F S2048x256 .bf16) (j : S2048x256.Idx) :
    k0_pay7 (F := F) w (ix4 (n0 := 1) (n1 := 1) (n2 := 2048) (n3 := 256) 0 0 (j 0) (j 1)) = w j := by
  unfold k0_pay7; exact up_apply w _ j
theorem pay8_apply (w : FVec F S2048x256 .bf16) (j : S2048x256.Idx) :
    k0_pay8 (F := F) w (ix4 (n0 := 1) (n1 := 1) (n2 := 2048) (n3 := 256) 0 0 (j 0) (j 1)) = w j := by
  unfold k0_pay8; exact up_apply w _ j

set_option maxRecDepth 16384 in
/-- The right-going ring's slot 0 after the body's first two stores holds the device's own block. -/
theorem own_block0 (m : Mem F) (ρ : Dev nD → PrngReg) (c : Dev nD)
    (d1 : (cfg0.win (1 : Fin 4)).block.Idx → Elt F (cfg0.win (1 : Fin 4)).elt) (d2 : (cfg0.win (2 : Fin 4)).block.Idx → Elt F (cfg0.win (2 : Fin 4)).elt)
    (f1 : Buf (Elt F) ((c : Thread nD τ).loc cc0_stg1_0)) (f2 : Buf (Elt F) ((c : Thread nD τ).loc cc0_stg2_0))
    (hf1 : f1 = (dats m ρ 0 c).before (1 : Fin 4) t0_0 d1) (hf2 : f2 = (dats m ρ 0 c).before (2 : Fin 4) t0_0 d2) :
    joinKV (F := F)
        (fun j : S2048x256.Idx => k0_pay5 (F := F) ((Memref.whole cc0_stg1_0).view.readAt (Elt F) (Rect.unit (s := S2048x256) ![0, 0] S2048x256.size inb_S2048x256_S2048x256_0_0).toLoadRect f1)
          (ix4 (n0 := 1) (n1 := 1) (n2 := 2048) (n3 := 256) 0 0 (j 0) (j 1)))
        (fun j : S2048x256.Idx => k0_pay6 (F := F) ((Memref.whole cc0_stg2_0).view.readAt (Elt F) (Rect.unit (s := S2048x256) ![0, 0] S2048x256.size inb_S2048x256_S2048x256_0_0).toLoadRect f2)
          (ix4 (n0 := 1) (n1 := 1) (n2 := 2048) (n3 := 256) 0 0 (j 0) (j 1)))
      = kvOf m c := by
  rw [stg1_read m ρ c d1 f1 hf1, stg2_read m ρ c d2 f2 hf2]
  unfold kvOf
  rw [show (fun j : S2048x256.Idx => k0_pay5 (F := F) (m ((c : Thread nD τ).loc main_arg1)) (ix4 (n0 := 1) (n1 := 1) (n2 := 2048) (n3 := 256) 0 0 (j 0) (j 1)))
        = k0_pay3 (m ((c : Thread nD τ).loc main_arg1)) from funext fun j => pay5_apply _ j,
    show (fun j : S2048x256.Idx => k0_pay6 (F := F) (m ((c : Thread nD τ).loc main_arg2)) (ix4 (n0 := 1) (n1 := 1) (n2 := 2048) (n3 := 256) 0 0 (j 0) (j 1)))
        = k0_pay4 (m ((c : Thread nD τ).loc main_arg2)) from funext fun j => pay6_apply _ j]

set_option maxRecDepth 16384 in
/-- The left-going ring's slot 0 likewise. -/
theorem own_block1 (m : Mem F) (ρ : Dev nD → PrngReg) (c : Dev nD)
    (d1 : (cfg0.win (1 : Fin 4)).block.Idx → Elt F (cfg0.win (1 : Fin 4)).elt) (d2 : (cfg0.win (2 : Fin 4)).block.Idx → Elt F (cfg0.win (2 : Fin 4)).elt)
    (f1 : Buf (Elt F) ((c : Thread nD τ).loc cc0_stg1_0)) (f2 : Buf (Elt F) ((c : Thread nD τ).loc cc0_stg2_0))
    (hf1 : f1 = (dats m ρ 0 c).before (1 : Fin 4) t0_0 d1) (hf2 : f2 = (dats m ρ 0 c).before (2 : Fin 4) t0_0 d2) :
    joinKV (F := F)
        (fun j : S2048x256.Idx => k0_pay7 (F := F) (k0_pay3 ((Memref.whole cc0_stg1_0).view.readAt (Elt F) (Rect.unit (s := S2048x256) ![0, 0] S2048x256.size inb_S2048x256_S2048x256_0_0).toLoadRect f1))
          (ix4 (n0 := 1) (n1 := 1) (n2 := 2048) (n3 := 256) 0 0 (j 0) (j 1)))
        (fun j : S2048x256.Idx => k0_pay8 (F := F) (k0_pay4 ((Memref.whole cc0_stg2_0).view.readAt (Elt F) (Rect.unit (s := S2048x256) ![0, 0] S2048x256.size inb_S2048x256_S2048x256_0_0).toLoadRect f2))
          (ix4 (n0 := 1) (n1 := 1) (n2 := 2048) (n3 := 256) 0 0 (j 0) (j 1)))
      = kvOf m c := by
  rw [stg1_read m ρ c d1 f1 hf1, stg2_read m ρ c d2 f2 hf2]
  unfold kvOf
  rw [show (fun j : S2048x256.Idx => k0_pay7 (F := F) (k0_pay3 (m ((c : Thread nD τ).loc main_arg1))) (ix4 (n0 := 1) (n1 := 1) (n2 := 2048) (n3 := 256) 0 0 (j 0) (j 1)))
        = k0_pay3 (m ((c : Thread nD τ).loc main_arg1)) from funext fun j => pay7_apply _ j,
    show (fun j : S2048x256.Idx => k0_pay8 (F := F) (k0_pay4 (m ((c : Thread nD τ).loc main_arg2))) (ix4 (n0 := 1) (n1 := 1) (n2 := 2048) (n3 := 256) 0 0 (j 0) (j 1)))
        = k0_pay4 (m ((c : Thread nD τ).loc main_arg2)) from funext fun j => pay8_apply _ j]

/-- The query block the body rounds once. -/
theorem query_block (m : Mem F) (ρ : Dev nD → PrngReg) (c : Dev nD) (d0 : (cfg0.win (0 : Fin 4)).block.Idx → Elt F (cfg0.win (0 : Fin 4)).elt)
    (f0 : Buf (Elt F) ((c : Thread nD τ).loc cc0_stg0_0)) (hf0 : f0 = (dats m ρ 0 c).before (0 : Fin 4) t0_0 d0) :
    k0_pay9 (F := F) ((Memref.whole cc0_stg0_0).view.readAt (Elt F) (Rect.unit (s := S2048x256) ![0, 0] S2048x256.size inb_S2048x256_S2048x256_0_0).toLoadRect f0)
      = k0_pay9 (m ((c : Thread nD τ).loc main_arg0)) :=
  congrArg k0_pay9 (stg0_read m ρ c d0 f0 hf0)

/-! ## What travels -/

/-- On hop 0 a device sends its own block. -/
theorem sentV_zero (m : Mem F) (p : Fin 2) (c : Dev nD) : sentV m p 0 c = kvOf m c := rfl

/-- On a later hop it sends what its upstream neighbour sent one hop earlier. -/
theorem sentV_succ (m : Mem F) (p : Fin 2) (t : ℕ) (c : Dev nD) : sentV m p (t + 1) c = sentV m p t (upR p c) := by
  unfold sentV origin
  rw [Function.iterate_succ_apply]

/-- A device's block in the rings' format: its rounded keys beside its rounded values. -/
theorem kvOf_eq (m : Mem F) (d : Dev nD) :
    kvOf m d = joinKV (k0_pay3 (m ((d : Thread nD τ).loc main_arg1))) (k0_pay4 (m ((d : Thread nD τ).loc main_arg2))) := rfl

/-! ## The eight visits and the result -/

/-- The rounded query block of device c. -/
def qAt (m : Mem F) (c : Dev nD) : FVec F S2048x256 .bf16 := k0_pay9 (m ((c : Thread nD τ).loc main_arg0))

/-- The key and value blocks of the n-th visit of device c. -/
def kvAt (m : Mem F) (c : Dev nD) (n : Fin 8) : FVec F S2048x256 .bf16 × FVec F S2048x256 .bf16 :=
  (k0_pay3 (m ((visitD c n : Thread nD τ).loc main_arg1)), k0_pay4 (m ((visitD c n : Thread nD τ).loc main_arg2)))

/-- The denominator and the numerator after the first n visits. -/
def accAt (m : Mem F) (c : Dev nD) (n : ℕ) : LBuf F × ABuf F := visited (qAt m c) (kvAt m c) n

theorem accAt_zero (m : Mem F) (c : Dev nD) : accAt m c 0 = (k0_pay10, k0_pay11) := rfl

theorem accAt_succ (m : Mem F) (c : Dev nD) (n : Fin 8) :
    accAt m c (n.val + 1) = accumulate (qAt m c) (kvAt m c n).1 (kvAt m c n).2 (accAt m c n.val) :=
  visited_succ (qAt m c) (kvAt m c) n

/-- The block of the device visited n-th is that visit's key block beside its value block. -/
theorem kvOf_visit (m : Mem F) (c : Dev nD) (n : Fin 8) : kvOf m (visitD c n) = joinKV (kvAt m c n).1 (kvAt m c n).2 := rfl

/-- Which device's block each ring brings at each step: the right-going ring the odd visits, the left-going the even. -/
theorem sentV_visit0 (m : Mem F) (p : Fin 2) (c : Dev nD) : sentV m p 0 c = kvOf m (visitD c 0) := rfl
theorem sentV_visit1 (m : Mem F) (c : Dev nD) : sentV m 0 1 c = kvOf m (visitD c 1) := rfl
theorem sentV_visit2 (m : Mem F) (c : Dev nD) : sentV m 1 1 c = kvOf m (visitD c 2) := rfl
theorem sentV_visit3 (m : Mem F) (c : Dev nD) : sentV m 0 2 c = kvOf m (visitD c 3) := rfl
theorem sentV_visit4 (m : Mem F) (c : Dev nD) : sentV m 1 2 c = kvOf m (visitD c 4) := rfl
theorem sentV_visit5 (m : Mem F) (c : Dev nD) : sentV m 0 3 c = kvOf m (visitD c 5) := rfl
theorem sentV_visit6 (m : Mem F) (c : Dev nD) : sentV m 1 3 c = kvOf m (visitD c 6) := rfl
theorem sentV_visit7 (m : Mem F) (c : Dev nD) : sentV m 0 4 c = kvOf m (visitD c 7) := rfl

/-- THE RESULT: the numerator after the eight visits read whole, divided by the denominator read whole, is the
    device's result block. -/
theorem result_block (m : Mem F) (c : Dev nD) :
    k0_pay2 (F := F)
        ((Memref.whole cc0_scratch2).view.readAt (Elt F) (Rect.unit (s := S2048x256) ![0, 0] S2048x256.size inb_S2048x256_S2048x256_0_0).toLoadRect (accAt m c 8).2)
        ((Memref.whole cc0_scratch3).view.readAt (Elt F) (Rect.unit (s := S2048x1) ![0, 0] S2048x1.size inb_S2048x1_S2048x1_0_0).toLoadRect (accAt m c 8).1)
      = outBlock m c := rfl

/-- info: 'Cert.KernelIdeal.RingProof.own_block0' depends on axioms: [propext, Classical.choice, Quot.sound] -/
#guard_msgs in #print axioms own_block0

/-- info: 'Cert.KernelIdeal.RingProof.result_block' depends on axioms: [propext, Classical.choice, Quot.sound] -/
#guard_msgs in #print axioms result_block

end Cert.KernelIdeal.RingProof

end
-- ==== Proof.RingValueRun.lean ====
/-
  A visit as a list of stores over one contents.

  The four chunks of a visit write rows 0…511, 512…1023, 1024…1535, 1536…2047 of a running buffer: rows no two of
  them share.  So what chunk k loads — its own rows — is the same whether read from the buffer as the earlier
  chunks of the visit left it or from the buffer as the visit found it, and the visit's four stores, each storing the
  update of its rows AS THE VISIT FOUND THEM, leave the buffer `accumulate` describes.  Stated for the list of
  writes (last write first) a run of stores is kept as.
-/
import proofs.«900462_g7700000000000463_dist_ring_attn_i_s2048_d256_v7x_i8_f32_1_alg».proof.Proof.RingValueForms
import Idealize.ShloMosaic.Lib.Writes

noncomputable section

namespace Cert.KernelIdeal.AttnKer

open Cert.KernelIdeal Cert.KernelIdeal.Gen Idealize.ShloMosaic Idealize.SL.Sem

variable {F : FTy → Type} [FloatOps F]

/-! ## A load of one chunk's rows does not see a store into another chunk's rows -/

theorem readAt_rowsL_write (o o' : Nat) (inb : ∀ a, (![o, 0] : Fin 2 → Nat) a + S512x1.size a ≤ S2048x1.size a)
    (inb' : ∀ a, (![o', 0] : Fin 2 → Nat) a + S512x1.size a ≤ S2048x1.size a) (h : o + 512 ≤ o' ∨ o' + 512 ≤ o)
    (f : LBuf F) (w : FVec F S512x1 .f32) :
    (Memref.whole cc0_scratch3).view.readAt (Elt F) (rowsL o' inb').toLoadRect
        (((Memref.whole cc0_scratch3).access (rowsL o inb)).write (Elt F) f w Finset.univ)
      = (Memref.whole cc0_scratch3).view.readAt (Elt F) (rowsL o' inb').toLoadRect f := by
  funext x
  show (Memref.whole cc0_scratch3).view.read (Elt F)
      ((((Memref.whole cc0_scratch3).view).slice (rowsL o inb)).write (Elt F) f w Finset.univ) ((rowsL o' inb').emb x)
    = (Memref.whole cc0_scratch3).view.read (Elt F) f ((rowsL o' inb').emb x)
  refine View.read_slice_write_of_not_mem (v := (Memref.whole cc0_scratch3).view) (Val := Elt F) (rowsL o inb) f w
    Finset.univ (y := (rowsL o' inb').emb x) ?_
  intro hm
  obtain ⟨y, -, hy⟩ := Finset.mem_map.mp hm
  have h0 : ((rowsL o inb).emb y 0).val = ((rowsL o' inb').emb x 0).val := congrArg (fun i : S2048x1.Idx => (i 0).val) hy
  rw [Rect.emb_apply, Rect.emb_apply] at h0
  have hy0 : (y 0).val < 512 := (y 0).isLt
  have hx0 : (x 0).val < 512 := (x 0).isLt
  have h1 : o + 1 * (y 0).val = o' + 1 * (x 0).val := h0
  omega

theorem readAt_rowsA_write (o o' : Nat) (inb : ∀ a, (![o, 0] : Fin 2 → Nat) a + S512x256.size a ≤ S2048x256.size a)
    (inb' : ∀ a, (![o', 0] : Fin 2 → Nat) a + S512x256.size a ≤ S2048x256.size a) (h : o + 512 ≤ o' ∨ o' + 512 ≤ o)
    (f : ABuf F) (w : FVec F S512x256 .f32) :
    (Memref.whole cc0_scratch2).view.readAt (Elt F) (rowsA o' inb').toLoadRect
        (((Memref.whole cc0_scratch2).access (rowsA o inb)).write (Elt F) f w Finset.univ)
      = (Memref.whole cc0_scratch2).view.readAt (Elt F) (rowsA o' inb').toLoadRect f := by
  funext x
  show (Memref.whole cc0_scratch2).view.read (Elt F)
      ((((Memref.whole cc0_scratch2).view).slice (rowsA o inb)).write (Elt F) f w Finset.univ) ((rowsA o' inb').emb x)
    = (Memref.whole cc0_scratch2).view.read (Elt F) f ((rowsA o' inb').emb x)
  refine View.read_slice_write_of_not_mem (v := (Memref.whole cc0_scratch2).view) (Val := Elt F) (rowsA o inb) f w
    Finset.univ (y := (rowsA o' inb').emb x) ?_
  intro hm
  obtain ⟨y, -, hy⟩ := Finset.mem_map.mp hm
  have h0 : ((rowsA o inb).emb y 0).val = ((rowsA o' inb').emb x 0).val := congrArg (fun i : S2048x256.Idx => (i 0).val) hy
  rw [Rect.emb_apply, Rect.emb_apply] at h0
  have hy0 : (y 0).val < 512 := (y 0).isLt
  have hx0 : (x 0).val < 512 := (x 0).isLt
  have h1 : o + 1 * (y 0).val = o' + 1 * (x 0).val := h0
  omega

/-- In particular through another chunk's step. -/
theorem readAt_rowsL_stepL (o o' : Nat) (inb : ∀ a, (![o, 0] : Fin 2 → Nat) a + S512x1.size a ≤ S2048x1.size a)
    (inb' : ∀ a, (![o', 0] : Fin 2 → Nat) a + S512x1.size a ≤ S2048x1.size a) (h : o + 512 ≤ o' ∨ o' + 512 ≤ o)
    (p : FVec F S512x2048 .f32) (f : LBuf F) :
    (Memref.whole cc0_scratch3).view.readAt (Elt F) (rowsL o' inb').toLoadRect (stepL o inb p f)
      = (Memref.whole cc0_scratch3).view.readAt (Elt F) (rowsL o' inb').toLoadRect f :=
  readAt_rowsL_write o o' inb inb' h f _

theorem readAt_rowsA_stepA (o o' : Nat) (inb : ∀ a, (![o, 0] : Fin 2 → Nat) a + S512x256.size a ≤ S2048x256.size a)
    (inb' : ∀ a, (![o', 0] : Fin 2 → Nat) a + S512x256.size a ≤ S2048x256.size a) (h : o + 512 ≤ o' ∨ o' + 512 ≤ o)
    (p : FVec F S512x2048 .f32) (vb : FVec F S2048x256 .bf16) (f : ABuf F) :
    (Memref.whole cc0_scratch2).view.readAt (Elt F) (rowsA o' inb').toLoadRect (stepA o inb p vb f)
      = (Memref.whole cc0_scratch2).view.readAt (Elt F) (rowsA o' inb').toLoadRect f :=
  readAt_rowsA_write o o' inb inb' h f _

/-! ## A visit's four stores, every load spelt on the contents the visit found -/

/-- The denominator: the list of the four stores (the last first), each of the update of its own rows of `fl`, leaves
    what `accumulate` says. -/
theorem writes_accumulate_fst (qv kb vb : FVec F S2048x256 .bf16) (fl : LBuf F) (fa : ABuf F)
    (w0 w1 w2 w3 : FVec F S512x1 .f32)
    (h0 : w0 = denVal (weights qv kb 0) ((Memref.whole cc0_scratch3).view.readAt (Elt F) (rowsL 0 inb_S2048x1_S512x1_0_0).toLoadRect fl))
    (h1 : w1 = denVal (weights qv kb 1) ((Memref.whole cc0_scratch3).view.readAt (Elt F) (rowsL 512 inb_S2048x1_S512x1_512_0).toLoadRect fl))
    (h2 : w2 = denVal (weights qv kb 2) ((Memref.whole cc0_scratch3).view.readAt (Elt F) (rowsL 1024 inb_S2048x1_S512x1_1024_0).toLoadRect fl))
    (h3 : w3 = denVal (weights qv kb 3) ((Memref.whole cc0_scratch3).view.readAt (Elt F) (rowsL 1536 inb_S2048x1_S512x1_1536_0).toLoadRect fl)) :
    (Memref.whole cc0_scratch3).view.writes (Elt F) fl
        [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩]
      = (accumulate qv kb vb (fl, fa)).1 := by
  subst h0 h1 h2 h3
  show _ = stepL 1536 inb_S2048x1_S512x1_1536_0 (weights qv kb 3) (stepL 1024 inb_S2048x1_S512x1_1024_0 (weights qv kb 2)
    (stepL 512 inb_S2048x1_S512x1_512_0 (weights qv kb 1) (stepL 0 inb_S2048x1_S512x1_0_0 (weights qv kb 0) fl)))
  rw [stepL_eq 1536, readAt_rowsL_stepL 1024 1536 _ _ (Or.inl (by omega)),
    readAt_rowsL_stepL 512 1536 _ _ (Or.inl (by omega)), readAt_rowsL_stepL 0 1536 _ _ (Or.inl (by omega)),
    stepL_eq 1024, readAt_rowsL_stepL 512 1024 _ _ (Or.inl (by omega)),
    readAt_rowsL_stepL 0 1024 _ _ (Or.inl (by omega)),
    stepL_eq 512, readAt_rowsL_stepL 0 512 _ _ (Or.inl (by omega)), stepL_eq 0]
  rfl

/-- The numerator likewise. -/
theorem writes_accumulate_snd (qv kb vb : FVec F S2048x256 .bf16) (fl : LBuf F) (fa : ABuf F)
    (w0 w1 w2 w3 : FVec F S512x256 .f32)
    (h0 : w0 = numVal (weights qv kb 0) vb ((Memref.whole cc0_scratch2).view.readAt (Elt F) (rowsA 0 inb_S2048x256_S512x256_0_0).toLoadRect fa))
    (h1 : w1 = numVal (weights qv kb 1) vb ((Memref.whole cc0_scratch2).view.readAt (Elt F) (rowsA 512 inb_S2048x256_S512x256_512_0).toLoadRect fa))
    (h2 : w2 = numVal (weights qv kb 2) vb ((Memref.whole cc0_scratch2).view.readAt (Elt F) (rowsA 1024 inb_S2048x256_S512x256_1024_0).toLoadRect fa))
    (h3 : w3 = numVal (weights qv kb 3) vb ((Memref.whole cc0_scratch2).view.readAt (Elt F) (rowsA 1536 inb_S2048x256_S512x256_1536_0).toLoadRect fa)) :
    (Memref.whole cc0_scratch2).view.writes (Elt F) fa
        [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩]
      = (accumulate qv kb vb (fl, fa)).2 := by
  subst h0 h1 h2 h3
  show _ = stepA 1536 inb_S2048x256_S512x256_1536_0 (weights qv kb 3) vb (stepA 1024 inb_S2048x256_S512x256_1024_0 (weights qv kb 2) vb
    (stepA 512 inb_S2048x256_S512x256_512_0 (weights qv kb 1) vb (stepA 0 inb_S2048x256_S512x256_0_0 (weights qv kb 0) vb fa)))
  rw [stepA_eq 1536, readAt_rowsA_stepA 1024 1536 _ _ (Or.inl (by omega)),
    readAt_rowsA_stepA 512 1536 _ _ (Or.inl (by omega)), readAt_rowsA_stepA 0 1536 _ _ (Or.inl (by omega)),
    stepA_eq 1024, readAt_rowsA_stepA 512 1024 _ _ (Or.inl (by omega)),
    readAt_rowsA_stepA 0 1024 _ _ (Or.inl (by omega)),
    stepA_eq 512, readAt_rowsA_stepA 0 512 _ _ (Or.inl (by omega)), stepA_eq 0]
  rfl

/-! ## The same, the four stores put in front of a list of earlier ones -/

theorem writes_append_accumulate_fst (qv kb vb : FVec F S2048x256 .bf16) (f0 : LBuf F) (fa : ABuf F)
    (xs : List (View.Piece (Elt F) S2048x1 .f32)) (w0 w1 w2 w3 : FVec F S512x1 .f32)
    (h0 : w0 = denVal (weights qv kb 0) ((Memref.whole cc0_scratch3).view.readAt (Elt F) (rowsL 0 inb_S2048x1_S512x1_0_0).toLoadRect ((Memref.whole cc0_scratch3).view.writes (Elt F) f0 xs)))
    (h1 : w1 = denVal (weights qv kb 1) ((Memref.whole cc0_scratch3).view.readAt (Elt F) (rowsL 512 inb_S2048x1_S512x1_512_0).toLoadRect ((Memref.whole cc0_scratch3).view.writes (Elt F) f0 xs)))
    (h2 : w2 = denVal (weights qv kb 2) ((Memref.whole cc0_scratch3).view.readAt (Elt F) (rowsL 1024 inb_S2048x1_S512x1_1024_0).toLoadRect ((Memref.whole cc0_scratch3).view.writes (Elt F) f0 xs)))
    (h3 : w3 = denVal (weights qv kb 3) ((Memref.whole cc0_scratch3).view.readAt (Elt F) (rowsL 1536 inb_S2048x1_S512x1_1536_0).toLoadRect ((Memref.whole cc0_scratch3).view.writes (Elt F) f0 xs))) :
    (Memref.whole cc0_scratch3).view.writes (Elt F) f0
        ([⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩] ++ xs)
      = (accumulate qv kb vb ((Memref.whole cc0_scratch3).view.writes (Elt F) f0 xs, fa)).1 := by
  rw [View.writes_append]
  exact writes_accumulate_fst qv kb vb _ fa w0 w1 w2 w3 h0 h1 h2 h3

theorem writes_append_accumulate_snd (qv kb vb : FVec F S2048x256 .bf16) (fl : LBuf F) (f0 : ABuf F)
    (xs : List (View.Piece (Elt F) S2048x256 .f32)) (w0 w1 w2 w3 : FVec F S512x256 .f32)
    (h0 : w0 = numVal (weights qv kb 0) vb ((Memref.whole cc0_scratch2).view.readAt (Elt F) (rowsA 0 inb_S2048x256_S512x256_0_0).toLoadRect ((Memref.whole cc0_scratch2).view.writes (Elt F) f0 xs)))
    (h1 : w1 = numVal (weights qv kb 1) vb ((Memref.whole cc0_scratch2).view.readAt (Elt F) (rowsA 512 inb_S2048x256_S512x256_512_0).toLoadRect ((Memref.whole cc0_scratch2).view.writes (Elt F) f0 xs)))
    (h2 : w2 = numVal (weights qv kb 2) vb ((Memref.whole cc0_scratch2).view.readAt (Elt F) (rowsA 1024 inb_S2048x256_S512x256_1024_0).toLoadRect ((Memref.whole cc0_scratch2).view.writes (Elt F) f0 xs)))
    (h3 : w3 = numVal (weights qv kb 3) vb ((Memref.whole cc0_scratch2).view.readAt (Elt F) (rowsA 1536 inb_S2048x256_S512x256_1536_0).toLoadRect ((Memref.whole cc0_scratch2).view.writes (Elt F) f0 xs))) :
    (Memref.whole cc0_scratch2).view.writes (Elt F) f0
        ([⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩] ++ xs)
      = (accumulate qv kb vb (fl, (Memref.whole cc0_scratch2).view.writes (Elt F) f0 xs)).2 := by
  rw [View.writes_append]
  exact writes_accumulate_snd qv kb vb fl _ w0 w1 w2 w3 h0 h1 h2 h3

end Cert.KernelIdeal.AttnKer

end

/-- info: 'Cert.KernelIdeal.AttnKer.writes_append_accumulate_snd' depends on axioms: [propext, Classical.choice, Quot.sound] -/
#guard_msgs in #print axioms Cert.KernelIdeal.AttnKer.writes_append_accumulate_snd
-- ==== Proof.RingAcc0.lean ====
/-
  The first visit's stores as the run lists them.  Both accumulators are first overwritten whole with zeros; the four
  chunk updates of the visit then each load their own rows, which none of the earlier chunks' stores touch, so every
  load reads the zeros: the list of the five stores over any prior contents is the accumulator after one visit from
  the zeroed start.
-/
import proofs.«900462_g7700000000000463_dist_ring_attn_i_s2048_d256_v7x_i8_f32_1_alg».proof.Proof.RingValues
import proofs.«900462_g7700000000000463_dist_ring_attn_i_s2048_d256_v7x_i8_f32_1_alg».proof.Proof.RingValueRun
import Idealize.ShloMosaic.Lib.Pipeline.RowLoads

noncomputable section

namespace Cert.KernelIdeal.RingProof

open Cert.KernelIdeal Cert.KernelIdeal.Gen Cert.KernelIdeal.AttnKer

open Idealize.ShloMosaic Idealize.ShloMosaic.ValueIdx
open Idealize.ShloMosaic.TcCoe
open Idealize.SL Idealize.SL.Sem

variable {F : FTy → Type} [FloatOps F]

/-- The zero-fill of the denominator, as a piece. -/
abbrev initL : View.Piece (Elt F) S2048x1 .f32 := ⟨Rect.unit (s := S2048x1) ![0, 0] S2048x1.size inb_S2048x1_S2048x1_0_0, k0_pay10⟩
/-- The zero-fill of the numerator, as a piece. -/
abbrev initA : View.Piece (Elt F) S2048x256 .f32 := ⟨Rect.unit (s := S2048x256) ![0, 0] S2048x256.size inb_S2048x256_S2048x256_0_0, k0_pay11⟩

/-- Whatever the denominator held, after the zero-fill it holds the zeros. -/
theorem initL_writes (f : LBuf F) : (Memref.whole cc0_scratch3).view.writes (Elt F) f [initL] = k0_pay10 := by
  show ((Memref.whole cc0_scratch3).access (Rect.unit (s := S2048x1) ![0, 0] S2048x1.size inb_S2048x1_S2048x1_0_0) : View _ _ _ _ _).write (Elt F) f k0_pay10 Finset.univ = k0_pay10
  exact Memref.write_access_unit_zero_univ (Elt F) cc0_scratch3 (off := ![0, 0]) (funext fun a => by fin_cases a <;> rfl) inb_S2048x1_S2048x1_0_0 f k0_pay10
theorem initA_writes (f : ABuf F) : (Memref.whole cc0_scratch2).view.writes (Elt F) f [initA] = k0_pay11 := by
  show ((Memref.whole cc0_scratch2).access (Rect.unit (s := S2048x256) ![0, 0] S2048x256.size inb_S2048x256_S2048x256_0_0) : View _ _ _ _ _).write (Elt F) f k0_pay11 Finset.univ = k0_pay11
  exact Memref.write_access_unit_zero_univ (Elt F) cc0_scratch2 (off := ![0, 0]) (funext fun a => by fin_cases a <;> rfl) inb_S2048x256_S2048x256_0_0 f k0_pay11

/-- A load off the zero-fill alone reads the zeros. -/
theorem covL_init (B : LoadRect S2048x1) :
    (Memref.whole cc0_scratch3).view.readCov [initL (F := F)] B = (Memref.whole cc0_scratch3).view.readAt (Elt F) B k0_pay10 := by
  unfold View.readCov; rw [initL_writes]
theorem covA_init (B : LoadRect S2048x256) :
    (Memref.whole cc0_scratch2).view.readCov [initA (F := F)] B = (Memref.whole cc0_scratch2).view.readAt (Elt F) B k0_pay11 := by
  unfold View.readCov; rw [initA_writes]

set_option maxHeartbeats 2000000 in
/-- The denominator after the first visit, as the run lists its five stores, each chunk's load named off the list as
    it stood. -/
theorem writes_acc0_fst (qv kb vb : FVec F S2048x256 .bf16) (fl0 : LBuf F) (w0 w1 w2 w3 : FVec F S512x1 .f32)
    (h0 : w0 = denVal (weights qv kb 0) ((Memref.whole cc0_scratch3).view.readCov [initL (F := F)] (rowsL 0 inb_S2048x1_S512x1_0_0).toLoadRect))
    (h1 : w1 = denVal (weights qv kb 1) ((Memref.whole cc0_scratch3).view.readCov [⟨rowsL 0 inb_S2048x1_S512x1_0_0, w0⟩, initL (F := F)] (rowsL 512 inb_S2048x1_S512x1_512_0).toLoadRect))
    (h2 : w2 = denVal (weights qv kb 2) ((Memref.whole cc0_scratch3).view.readCov [⟨rowsL 512 inb_S2048x1_S512x1_512_0, w1⟩, ⟨rowsL 0 inb_S2048x1_S512x1_0_0, w0⟩, initL (F := F)] (rowsL 1024 inb_S2048x1_S512x1_1024_0).toLoadRect))
    (h3 : w3 = denVal (weights qv kb 3) ((Memref.whole cc0_scratch3).view.readCov [⟨rowsL 1024 inb_S2048x1_S512x1_1024_0, w2⟩, ⟨rowsL 512 inb_S2048x1_S512x1_512_0, w1⟩, ⟨rowsL 0 inb_S2048x1_S512x1_0_0, w0⟩, initL (F := F)] (rowsL 1536 inb_S2048x1_S512x1_1536_0).toLoadRect)) :
    (Memref.whole cc0_scratch3).view.writes (Elt F) fl0
        [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩, initL]
      = (accumulate qv kb vb (k0_pay10, k0_pay11)).1 := by
  have hX : (Memref.whole cc0_scratch3).view.writes (Elt F) fl0 [initL] = k0_pay10 := initL_writes fl0
  have key := writes_append_accumulate_fst qv kb vb fl0 k0_pay11 [initL] w0 w1 w2 w3
    (by rw [h0, covL_init, hX])
    (by rw [h1, View.readCov_cons_of_rows_disjoint _ 0 512 (Or.inl (by omega)), covL_init, hX])
    (by rw [h2, View.readCov_cons_of_rows_disjoint _ 512 1024 (Or.inl (by omega)), View.readCov_cons_of_rows_disjoint _ 0 1024 (Or.inl (by omega)), covL_init, hX])
    (by rw [h3, View.readCov_cons_of_rows_disjoint _ 1024 1536 (Or.inl (by omega)), View.readCov_cons_of_rows_disjoint _ 512 1536 (Or.inl (by omega)),
      View.readCov_cons_of_rows_disjoint _ 0 1536 (Or.inl (by omega)), covL_init, hX])
  rw [hX] at key
  exact key

set_option maxHeartbeats 2000000 in
/-- The numerator after the first visit likewise. -/
theorem writes_acc0_snd (qv kb vb : FVec F S2048x256 .bf16) (fa0 : ABuf F) (w0 w1 w2 w3 : FVec F S512x256 .f32)
    (h0 : w0 = numVal (weights qv kb 0) vb ((Memref.whole cc0_scratch2).view.readCov [initA (F := F)] (rowsA 0 inb_S2048x256_S512x256_0_0).toLoadRect))
    (h1 : w1 = numVal (weights qv kb 1) vb ((Memref.whole cc0_scratch2).view.readCov [⟨rowsA 0 inb_S2048x256_S512x256_0_0, w0⟩, initA (F := F)] (rowsA 512 inb_S2048x256_S512x256_512_0).toLoadRect))
    (h2 : w2 = numVal (weights qv kb 2) vb ((Memref.whole cc0_scratch2).view.readCov [⟨rowsA 512 inb_S2048x256_S512x256_512_0, w1⟩, ⟨rowsA 0 inb_S2048x256_S512x256_0_0, w0⟩, initA (F := F)] (rowsA 1024 inb_S2048x256_S512x256_1024_0).toLoadRect))
    (h3 : w3 = numVal (weights qv kb 3) vb ((Memref.whole cc0_scratch2).view.readCov [⟨rowsA 1024 inb_S2048x256_S512x256_1024_0, w2⟩, ⟨rowsA 512 inb_S2048x256_S512x256_512_0, w1⟩, ⟨rowsA 0 inb_S2048x256_S512x256_0_0, w0⟩, initA (F := F)] (rowsA 1536 inb_S2048x256_S512x256_1536_0).toLoadRect)) :
    (Memref.whole cc0_scratch2).view.writes (Elt F) fa0
        [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩, initA]
      = (accumulate qv kb vb (k0_pay10, k0_pay11)).2 := by
  have hX : (Memref.whole cc0_scratch2).view.writes (Elt F) fa0 [initA] = k0_pay11 := initA_writes fa0
  have key := writes_append_accumulate_snd qv kb vb k0_pay10 fa0 [initA] w0 w1 w2 w3
    (by rw [h0, covA_init, hX])
    (by rw [h1, View.readCov_cons_of_rows_disjoint _ 0 512 (Or.inl (by omega)), covA_init, hX])
    (by rw [h2, View.readCov_cons_of_rows_disjoint _ 512 1024 (Or.inl (by omega)), View.readCov_cons_of_rows_disjoint _ 0 1024 (Or.inl (by omega)), covA_init, hX])
    (by rw [h3, View.readCov_cons_of_rows_disjoint _ 1024 1536 (Or.inl (by omega)), View.readCov_cons_of_rows_disjoint _ 512 1536 (Or.inl (by omega)),
      View.readCov_cons_of_rows_disjoint _ 0 1536 (Or.inl (by omega)), covA_init, hX])
  rw [hX] at key
  exact key

/-- info: 'Cert.KernelIdeal.RingProof.writes_acc0_snd' depends on axioms: [propext, Classical.choice, Quot.sound] -/
#guard_msgs in #print axioms writes_acc0_snd

end Cert.KernelIdeal.RingProof

end
-- ==== Proof.RingAcc2.lean ====
/-
  Two visits in one run, as the list of their eight stores.

  The first visit's chunks load their rows off the contents X the run started from; the second visit's chunk k loads
  its rows after the first visit's four stores (and its own earlier chunks'), so what it reads is what the first
  visit's chunk k stored there — named off the list as it stood.  Rows of different chunks are disjoint, so the list
  of eight stores leaves `accumulate` of `accumulate` of X.
-/
import proofs.«900462_g7700000000000463_dist_ring_attn_i_s2048_d256_v7x_i8_f32_1_alg».proof.Proof.RingValueRun
import Idealize.ShloMosaic.Lib.Exec.Geometry

noncomputable section

namespace Cert.KernelIdeal.AttnKer

open Cert.KernelIdeal Cert.KernelIdeal.Gen Idealize.ShloMosaic Idealize.SL.Sem

variable {F : FTy → Type} [FloatOps F]

/-- A load of a chunk's rows right after the store into those rows reads what was stored. -/
theorem readAt_rowsL_write_self (o : Nat) (inb : ∀ a, (![o, 0] : Fin 2 → Nat) a + S512x1.size a ≤ S2048x1.size a)
    (f : LBuf F) (w : FVec F S512x1 .f32) :
    (Memref.whole cc0_scratch3).view.readAt (Elt F) (rowsL o inb).toLoadRect
        (((Memref.whole cc0_scratch3).access (rowsL o inb)).write (Elt F) f w Finset.univ) = w :=
  View.read_write_univ (v := ((Memref.whole cc0_scratch3).view).slice (rowsL o inb)) (Val := Elt F) f w

theorem readAt_rowsA_write_self (o : Nat) (inb : ∀ a, (![o, 0] : Fin 2 → Nat) a + S512x256.size a ≤ S2048x256.size a)
    (f : ABuf F) (w : FVec F S512x256 .f32) :
    (Memref.whole cc0_scratch2).view.readAt (Elt F) (rowsA o inb).toLoadRect
        (((Memref.whole cc0_scratch2).access (rowsA o inb)).write (Elt F) f w Finset.univ) = w :=
  View.read_write_univ (v := ((Memref.whole cc0_scratch2).view).slice (rowsA o inb)) (Val := Elt F) f w

set_option maxHeartbeats 4000000 in
/-- The denominator after two visits in one run. -/
theorem writes_acc2_fst [∀ e, Nonempty (Elt F e)] (qv kbA vbA kbB vbB : FVec F S2048x256 .bf16) (X : LBuf F) (Y : ABuf F)
    (u0 u1 u2 u3 w0 w1 w2 w3 : FVec F S512x1 .f32)
    (hu0 : u0 = denVal (weights qv kbA 0) ((Memref.whole cc0_scratch3).view.readAt (Elt F) (rowsL 0 inb_S2048x1_S512x1_0_0).toLoadRect X))
    (hu1 : u1 = denVal (weights qv kbA 1) ((Memref.whole cc0_scratch3).view.readAt (Elt F) (rowsL 512 inb_S2048x1_S512x1_512_0).toLoadRect X))
    (hu2 : u2 = denVal (weights qv kbA 2) ((Memref.whole cc0_scratch3).view.readAt (Elt F) (rowsL 1024 inb_S2048x1_S512x1_1024_0).toLoadRect X))
    (hu3 : u3 = denVal (weights qv kbA 3) ((Memref.whole cc0_scratch3).view.readAt (Elt F) (rowsL 1536 inb_S2048x1_S512x1_1536_0).toLoadRect X))
    (hw0 : w0 = denVal (weights qv kbB 0) ((Memref.whole cc0_scratch3).view.readCov (Val := Elt F) [⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 0 inb_S2048x1_S512x1_0_0).toLoadRect))
    (hw1 : w1 = denVal (weights qv kbB 1) ((Memref.whole cc0_scratch3).view.readCov (Val := Elt F) [⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 512 inb_S2048x1_S512x1_512_0).toLoadRect))
    (hw2 : w2 = denVal (weights qv kbB 2) ((Memref.whole cc0_scratch3).view.readCov (Val := Elt F) [⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 1024 inb_S2048x1_S512x1_1024_0).toLoadRect))
    (hw3 : w3 = denVal (weights qv kbB 3) ((Memref.whole cc0_scratch3).view.readCov (Val := Elt F) [⟨rowsL 1024 inb_S2048x1_S512x1_1024_0, w2⟩, ⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 1536 inb_S2048x1_S512x1_1536_0).toLoadRect)) :
    (Memref.whole cc0_scratch3).view.writes (Elt F) X
        [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩]
      = (accumulate qv kbB vbB (accumulate qv kbA vbA (X, Y))).1 := by
  have hX1 : (Memref.whole cc0_scratch3).view.writes (Elt F) X [⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] = (accumulate qv kbA vbA (X, Y)).1 :=
    writes_accumulate_fst qv kbA vbA X Y u0 u1 u2 u3 hu0 hu1 hu2 hu3
  have hsplit : ([⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] : List (View.Piece (Elt F) S2048x1 .f32))
      = [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩] ++ [⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] := rfl
  rw [hsplit, View.writes_append, hX1]
  refine writes_accumulate_fst qv kbB vbB (accumulate qv kbA vbA (X, Y)).1 (accumulate qv kbA vbA (X, Y)).2 w0 w1 w2 w3 ?_ ?_ ?_ ?_
  · rw [hw0]
    refine congrArg (denVal (weights qv kbB 0)) ?_
    have hc : (Memref.whole cc0_scratch3).view.readCov (Val := Elt F) [⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 0 inb_S2048x1_S512x1_0_0).toLoadRect = u0 := by
      unfold View.readCov
      simp only [View.writes_cons]
      rw [readAt_rowsL_write 1536 0 _ _ (Or.inr (by omega)), readAt_rowsL_write 1024 0 _ _ (Or.inr (by omega)), readAt_rowsL_write 512 0 _ _ (Or.inr (by omega)), readAt_rowsL_write_self]
    have ha : ((Memref.whole cc0_scratch3).view.readAt (Elt F) (rowsL 0 inb_S2048x1_S512x1_0_0).toLoadRect (accumulate qv kbA vbA (X, Y)).1) = u0 := by
      rw [← hX1]
      simp only [View.writes_cons]
      rw [readAt_rowsL_write 1536 0 _ _ (Or.inr (by omega)), readAt_rowsL_write 1024 0 _ _ (Or.inr (by omega)), readAt_rowsL_write 512 0 _ _ (Or.inr (by omega)), readAt_rowsL_write_self]
    rw [hc, ha]
  · rw [hw1]
    refine congrArg (denVal (weights qv kbB 1)) ?_
    have hc : (Memref.whole cc0_scratch3).view.readCov (Val := Elt F) [⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 512 inb_S2048x1_S512x1_512_0).toLoadRect = u1 := by
      unfold View.readCov
      simp only [View.writes_cons]
      rw [readAt_rowsL_write 0 512 _ _ (Or.inl (by omega)), readAt_rowsL_write 1536 512 _ _ (Or.inr (by omega)), readAt_rowsL_write 1024 512 _ _ (Or.inr (by omega)), readAt_rowsL_write_self]
    have ha : ((Memref.whole cc0_scratch3).view.readAt (Elt F) (rowsL 512 inb_S2048x1_S512x1_512_0).toLoadRect (accumulate qv kbA vbA (X, Y)).1) = u1 := by
      rw [← hX1]
      simp only [View.writes_cons]
      rw [readAt_rowsL_write 1536 512 _ _ (Or.inr (by omega)), readAt_rowsL_write 1024 512 _ _ (Or.inr (by omega)), readAt_rowsL_write_self]
    rw [hc, ha]
  · rw [hw2]
    refine congrArg (denVal (weights qv kbB 2)) ?_
    have hc : (Memref.whole cc0_scratch3).view.readCov (Val := Elt F) [⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 1024 inb_S2048x1_S512x1_1024_0).toLoadRect = u2 := by
      unfold View.readCov
      simp only [View.writes_cons]
      rw [readAt_rowsL_write 512 1024 _ _ (Or.inl (by omega)), readAt_rowsL_write 0 1024 _ _ (Or.inl (by omega)), readAt_rowsL_write 1536 1024 _ _ (Or.inr (by omega)), readAt_rowsL_write_self]
    have ha : ((Memref.whole cc0_scratch3).view.readAt (Elt F) (rowsL 1024 inb_S2048x1_S512x1_1024_0).toLoadRect (accumulate qv kbA vbA (X, Y)).1) = u2 := by
      rw [← hX1]
      simp only [View.writes_cons]
      rw [readAt_rowsL_write 1536 1024 _ _ (Or.inr (by omega)), readAt_rowsL_write_self]
    rw [hc, ha]
  · rw [hw3]
    refine congrArg (denVal (weights qv kbB 3)) ?_
    have hc : (Memref.whole cc0_scratch3).view.readCov (Val := Elt F) [⟨rowsL 1024 inb_S2048x1_S512x1_1024_0, w2⟩, ⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 1536 inb_S2048x1_S512x1_1536_0).toLoadRect = u3 := by
      unfold View.readCov
      simp only [View.writes_cons]
      rw [readAt_rowsL_write 1024 1536 _ _ (Or.inl (by omega)), readAt_rowsL_write 512 1536 _ _ (Or.inl (by omega)), readAt_rowsL_write 0 1536 _ _ (Or.inl (by omega)), readAt_rowsL_write_self]
    have ha : ((Memref.whole cc0_scratch3).view.readAt (Elt F) (rowsL 1536 inb_S2048x1_S512x1_1536_0).toLoadRect (accumulate qv kbA vbA (X, Y)).1) = u3 := by
      rw [← hX1]
      simp only [View.writes_cons]
      rw [readAt_rowsL_write_self]
    rw [hc, ha]

set_option maxHeartbeats 4000000 in
/-- The numerator after two visits in one run. -/
theorem writes_acc2_snd [∀ e, Nonempty (Elt F e)] (qv kbA vbA kbB vbB : FVec F S2048x256 .bf16) (X : LBuf F) (Y : ABuf F)
    (u0 u1 u2 u3 w0 w1 w2 w3 : FVec F S512x256 .f32)
    (hu0 : u0 = numVal (weights qv kbA 0) vbA ((Memref.whole cc0_scratch2).view.readAt (Elt F) (rowsA 0 inb_S2048x256_S512x256_0_0).toLoadRect Y))
    (hu1 : u1 = numVal (weights qv kbA 1) vbA ((Memref.whole cc0_scratch2).view.readAt (Elt F) (rowsA 512 inb_S2048x256_S512x256_512_0).toLoadRect Y))
    (hu2 : u2 = numVal (weights qv kbA 2) vbA ((Memref.whole cc0_scratch2).view.readAt (Elt F) (rowsA 1024 inb_S2048x256_S512x256_1024_0).toLoadRect Y))
    (hu3 : u3 = numVal (weights qv kbA 3) vbA ((Memref.whole cc0_scratch2).view.readAt (Elt F) (rowsA 1536 inb_S2048x256_S512x256_1536_0).toLoadRect Y))
    (hw0 : w0 = numVal (weights qv kbB 0) vbB ((Memref.whole cc0_scratch2).view.readCov (Val := Elt F) [⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 0 inb_S2048x256_S512x256_0_0).toLoadRect))
    (hw1 : w1 = numVal (weights qv kbB 1) vbB ((Memref.whole cc0_scratch2).view.readCov (Val := Elt F) [⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 512 inb_S2048x256_S512x256_512_0).toLoadRect))
    (hw2 : w2 = numVal (weights qv kbB 2) vbB ((Memref.whole cc0_scratch2).view.readCov (Val := Elt F) [⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 1024 inb_S2048x256_S512x256_1024_0).toLoadRect))
    (hw3 : w3 = numVal (weights qv kbB 3) vbB ((Memref.whole cc0_scratch2).view.readCov (Val := Elt F) [⟨rowsA 1024 inb_S2048x256_S512x256_1024_0, w2⟩, ⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 1536 inb_S2048x256_S512x256_1536_0).toLoadRect)) :
    (Memref.whole cc0_scratch2).view.writes (Elt F) Y
        [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩]
      = (accumulate qv kbB vbB (accumulate qv kbA vbA (X, Y))).2 := by
  have hY1 : (Memref.whole cc0_scratch2).view.writes (Elt F) Y [⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] = (accumulate qv kbA vbA (X, Y)).2 :=
    writes_accumulate_snd qv kbA vbA X Y u0 u1 u2 u3 hu0 hu1 hu2 hu3
  have hsplit : ([⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] : List (View.Piece (Elt F) S2048x256 .f32))
      = [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩] ++ [⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] := rfl
  rw [hsplit, View.writes_append, hY1]
  refine writes_accumulate_snd qv kbB vbB (accumulate qv kbA vbA (X, Y)).1 (accumulate qv kbA vbA (X, Y)).2 w0 w1 w2 w3 ?_ ?_ ?_ ?_
  · rw [hw0]
    refine congrArg (numVal (weights qv kbB 0) vbB) ?_
    have hc : (Memref.whole cc0_scratch2).view.readCov (Val := Elt F) [⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 0 inb_S2048x256_S512x256_0_0).toLoadRect = u0 := by
      unfold View.readCov
      simp only [View.writes_cons]
      rw [readAt_rowsA_write 1536 0 _ _ (Or.inr (by omega)), readAt_rowsA_write 1024 0 _ _ (Or.inr (by omega)), readAt_rowsA_write 512 0 _ _ (Or.inr (by omega)), readAt_rowsA_write_self]
    have ha : ((Memref.whole cc0_scratch2).view.readAt (Elt F) (rowsA 0 inb_S2048x256_S512x256_0_0).toLoadRect (accumulate qv kbA vbA (X, Y)).2) = u0 := by
      rw [← hY1]
      simp only [View.writes_cons]
      rw [readAt_rowsA_write 1536 0 _ _ (Or.inr (by omega)), readAt_rowsA_write 1024 0 _ _ (Or.inr (by omega)), readAt_rowsA_write 512 0 _ _ (Or.inr (by omega)), readAt_rowsA_write_self]
    rw [hc, ha]
  · rw [hw1]
    refine congrArg (numVal (weights qv kbB 1) vbB) ?_
    have hc : (Memref.whole cc0_scratch2).view.readCov (Val := Elt F) [⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 512 inb_S2048x256_S512x256_512_0).toLoadRect = u1 := by
      unfold View.readCov
      simp only [View.writes_cons]
      rw [readAt_rowsA_write 0 512 _ _ (Or.inl (by omega)), readAt_rowsA_write 1536 512 _ _ (Or.inr (by omega)), readAt_rowsA_write 1024 512 _ _ (Or.inr (by omega)), readAt_rowsA_write_self]
    have ha : ((Memref.whole cc0_scratch2).view.readAt (Elt F) (rowsA 512 inb_S2048x256_S512x256_512_0).toLoadRect (accumulate qv kbA vbA (X, Y)).2) = u1 := by
      rw [← hY1]
      simp only [View.writes_cons]
      rw [readAt_rowsA_write 1536 512 _ _ (Or.inr (by omega)), readAt_rowsA_write 1024 512 _ _ (Or.inr (by omega)), readAt_rowsA_write_self]
    rw [hc, ha]
  · rw [hw2]
    refine congrArg (numVal (weights qv kbB 2) vbB) ?_
    have hc : (Memref.whole cc0_scratch2).view.readCov (Val := Elt F) [⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 1024 inb_S2048x256_S512x256_1024_0).toLoadRect = u2 := by
      unfold View.readCov
      simp only [View.writes_cons]
      rw [readAt_rowsA_write 512 1024 _ _ (Or.inl (by omega)), readAt_rowsA_write 0 1024 _ _ (Or.inl (by omega)), readAt_rowsA_write 1536 1024 _ _ (Or.inr (by omega)), readAt_rowsA_write_self]
    have ha : ((Memref.whole cc0_scratch2).view.readAt (Elt F) (rowsA 1024 inb_S2048x256_S512x256_1024_0).toLoadRect (accumulate qv kbA vbA (X, Y)).2) = u2 := by
      rw [← hY1]
      simp only [View.writes_cons]
      rw [readAt_rowsA_write 1536 1024 _ _ (Or.inr (by omega)), readAt_rowsA_write_self]
    rw [hc, ha]
  · rw [hw3]
    refine congrArg (numVal (weights qv kbB 3) vbB) ?_
    have hc : (Memref.whole cc0_scratch2).view.readCov (Val := Elt F) [⟨rowsA 1024 inb_S2048x256_S512x256_1024_0, w2⟩, ⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 1536 inb_S2048x256_S512x256_1536_0).toLoadRect = u3 := by
      unfold View.readCov
      simp only [View.writes_cons]
      rw [readAt_rowsA_write 1024 1536 _ _ (Or.inl (by omega)), readAt_rowsA_write 512 1536 _ _ (Or.inl (by omega)), readAt_rowsA_write 0 1536 _ _ (Or.inl (by omega)), readAt_rowsA_write_self]
    have ha : ((Memref.whole cc0_scratch2).view.readAt (Elt F) (rowsA 1536 inb_S2048x256_S512x256_1536_0).toLoadRect (accumulate qv kbA vbA (X, Y)).2) = u3 := by
      rw [← hY1]
      simp only [View.writes_cons]
      rw [readAt_rowsA_write_self]
    rw [hc, ha]

end Cert.KernelIdeal.AttnKer

end

/-- info: 'Cert.KernelIdeal.AttnKer.writes_acc2_snd' depends on axioms: [propext, Classical.choice, Quot.sound] -/
#guard_msgs in #print axioms Cert.KernelIdeal.AttnKer.writes_acc2_snd
-- ==== Proof.RingAcc3.lean ====
/-
  The last reads and the last store.

  After a visit's four stores the whole of a running buffer is read: the four chunks of rows cover every row, so what
  is read is determined by the four stored values alone — it is the buffer the stores leave, read whole, whatever it
  held before.  The quotient is then stored whole into the result's staging buffer, which holds exactly it.
-/
import proofs.«900462_g7700000000000463_dist_ring_attn_i_s2048_d256_v7x_i8_f32_1_alg».proof.Proof.RingAcc2

noncomputable section

namespace Cert.KernelIdeal.AttnKer

open Cert.KernelIdeal Cert.KernelIdeal.Gen Idealize.ShloMosaic Idealize.SL.Sem

variable {F : FTy → Type} [FloatOps F]

/-- Whatever the result's staging buffer held, after the whole unmasked store of `w` it holds `w`. -/
theorem stg3_whole_store (f3 : cc0_stg3_0.ty.Contents (Elt F)) (w : FVec F S2048x256 .f32) :
    (Memref.whole cc0_stg3_0).view.writes (Elt F) f3 [⟨(Rect.unit (s := S2048x256) ![0, 0] S2048x256.size inb_S2048x256_S2048x256_0_0), w⟩] = w := by
  show ((Memref.whole cc0_stg3_0).access (Rect.unit (s := S2048x256) ![0, 0] S2048x256.size inb_S2048x256_S2048x256_0_0) : View _ _ _ _ _).write (Elt F) f3 w Finset.univ = w
  exact Memref.write_access_unit_zero_univ (Elt F) cc0_stg3_0 (off := ![0, 0])
    (funext fun a => by match a with | ⟨0, _⟩ => rfl | ⟨1, _⟩ => rfl) inb_S2048x256_S2048x256_0_0 f3 w

/-- Every entry of the numerator lies in one of the four chunks of rows. -/
theorem cover_rowsA (w0 w1 w2 w3 : FVec F S512x256 .f32) (j : ((Rect.unit (s := S2048x256) ![0, 0] S2048x256.size inb_S2048x256_S2048x256_0_0).toLoadRect).shape.Idx) :
    ∃ p ∈ ([⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩] : List (View.Piece (Elt F) S2048x256 .f32)), ((Rect.unit (s := S2048x256) ![0, 0] S2048x256.size inb_S2048x256_S2048x256_0_0).toLoadRect).idx j ∈ p.1.set := by
  have hj0 : (j 0).val < 2048 := (j 0).isLt
  have hj1 : (j 1).val < 256 := (j 1).isLt
  rcases (by omega : (j 0).val < 512 ∨ (512 ≤ (j 0).val ∧ (j 0).val < 1024) ∨ (1024 ≤ (j 0).val ∧ (j 0).val < 1536) ∨ 1536 ≤ (j 0).val)
    with h | h | h | h
  · refine ⟨⟨rowsA 0 inb_S2048x256_S512x256_0_0, w0⟩, List.mem_cons_of_mem _ (List.mem_cons_of_mem _ (List.mem_cons_of_mem _ (List.mem_cons_self))), (Rect.mem_set_unit (inb := inb_S2048x256_S512x256_0_0)).mpr fun a => ?_⟩
    match a with
    | ⟨0, _⟩ =>
      show 0 ≤ 0 + 1 * (j 0).val ∧ 0 + 1 * (j 0).val < 0 + 512
      omega
    | ⟨1, _⟩ =>
      show 0 ≤ 0 + 1 * (j 1).val ∧ 0 + 1 * (j 1).val < 0 + 256
      omega
  · refine ⟨⟨rowsA 512 inb_S2048x256_S512x256_512_0, w1⟩, List.mem_cons_of_mem _ (List.mem_cons_of_mem _ (List.mem_cons_self)), (Rect.mem_set_unit (inb := inb_S2048x256_S512x256_512_0)).mpr fun a => ?_⟩
    match a with
    | ⟨0, _⟩ =>
      show 512 ≤ 0 + 1 * (j 0).val ∧ 0 + 1 * (j 0).val < 512 + 512
      omega
    | ⟨1, _⟩ =>
      show 0 ≤ 0 + 1 * (j 1).val ∧ 0 + 1 * (j 1).val < 0 + 256
      omega
  · refine ⟨⟨rowsA 1024 inb_S2048x256_S512x256_1024_0, w2⟩, List.mem_cons_of_mem _ (List.mem_cons_self), (Rect.mem_set_unit (inb := inb_S2048x256_S512x256_1024_0)).mpr fun a => ?_⟩
    match a with
    | ⟨0, _⟩ =>
      show 1024 ≤ 0 + 1 * (j 0).val ∧ 0 + 1 * (j 0).val < 1024 + 512
      omega
    | ⟨1, _⟩ =>
      show 0 ≤ 0 + 1 * (j 1).val ∧ 0 + 1 * (j 1).val < 0 + 256
      omega
  · refine ⟨⟨rowsA 1536 inb_S2048x256_S512x256_1536_0, w3⟩, List.mem_cons_self, (Rect.mem_set_unit (inb := inb_S2048x256_S512x256_1536_0)).mpr fun a => ?_⟩
    match a with
    | ⟨0, _⟩ =>
      show 1536 ≤ 0 + 1 * (j 0).val ∧ 0 + 1 * (j 0).val < 1536 + 512
      omega
    | ⟨1, _⟩ =>
      show 0 ≤ 0 + 1 * (j 1).val ∧ 0 + 1 * (j 1).val < 0 + 256
      omega

/-- Every entry of the denominator lies in one of the four chunks of rows. -/
theorem cover_rowsL (w0 w1 w2 w3 : FVec F S512x1 .f32) (j : ((Rect.unit (s := S2048x1) ![0, 0] S2048x1.size inb_S2048x1_S2048x1_0_0).toLoadRect).shape.Idx) :
    ∃ p ∈ ([⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩] : List (View.Piece (Elt F) S2048x1 .f32)), ((Rect.unit (s := S2048x1) ![0, 0] S2048x1.size inb_S2048x1_S2048x1_0_0).toLoadRect).idx j ∈ p.1.set := by
  have hj0 : (j 0).val < 2048 := (j 0).isLt
  have hj1 : (j 1).val < 1 := (j 1).isLt
  rcases (by omega : (j 0).val < 512 ∨ (512 ≤ (j 0).val ∧ (j 0).val < 1024) ∨ (1024 ≤ (j 0).val ∧ (j 0).val < 1536) ∨ 1536 ≤ (j 0).val)
    with h | h | h | h
  · refine ⟨⟨rowsL 0 inb_S2048x1_S512x1_0_0, w0⟩, List.mem_cons_of_mem _ (List.mem_cons_of_mem _ (List.mem_cons_of_mem _ (List.mem_cons_self))), (Rect.mem_set_unit (inb := inb_S2048x1_S512x1_0_0)).mpr fun a => ?_⟩
    match a with
    | ⟨0, _⟩ =>
      show 0 ≤ 0 + 1 * (j 0).val ∧ 0 + 1 * (j 0).val < 0 + 512
      omega
    | ⟨1, _⟩ =>
      show 0 ≤ 0 + 1 * (j 1).val ∧ 0 + 1 * (j 1).val < 0 + 1
      omega
  · refine ⟨⟨rowsL 512 inb_S2048x1_S512x1_512_0, w1⟩, List.mem_cons_of_mem _ (List.mem_cons_of_mem _ (List.mem_cons_self)), (Rect.mem_set_unit (inb := inb_S2048x1_S512x1_512_0)).mpr fun a => ?_⟩
    match a with
    | ⟨0, _⟩ =>
      show 512 ≤ 0 + 1 * (j 0).val ∧ 0 + 1 * (j 0).val < 512 + 512
      omega
    | ⟨1, _⟩ =>
      show 0 ≤ 0 + 1 * (j 1).val ∧ 0 + 1 * (j 1).val < 0 + 1
      omega
  · refine ⟨⟨rowsL 1024 inb_S2048x1_S512x1_1024_0, w2⟩, List.mem_cons_of_mem _ (List.mem_cons_self), (Rect.mem_set_unit (inb := inb_S2048x1_S512x1_1024_0)).mpr fun a => ?_⟩
    match a with
    | ⟨0, _⟩ =>
      show 1024 ≤ 0 + 1 * (j 0).val ∧ 0 + 1 * (j 0).val < 1024 + 512
      omega
    | ⟨1, _⟩ =>
      show 0 ≤ 0 + 1 * (j 1).val ∧ 0 + 1 * (j 1).val < 0 + 1
      omega
  · refine ⟨⟨rowsL 1536 inb_S2048x1_S512x1_1536_0, w3⟩, List.mem_cons_self, (Rect.mem_set_unit (inb := inb_S2048x1_S512x1_1536_0)).mpr fun a => ?_⟩
    match a with
    | ⟨0, _⟩ =>
      show 1536 ≤ 0 + 1 * (j 0).val ∧ 0 + 1 * (j 0).val < 1536 + 512
      omega
    | ⟨1, _⟩ =>
      show 0 ≤ 0 + 1 * (j 1).val ∧ 0 + 1 * (j 1).val < 0 + 1
      omega

/-- The whole read of the numerator off a visit's four stores is the whole read of the buffer they leave, over any
    prior contents. -/
theorem readCov_whole_rowsA [∀ e, Nonempty (Elt F e)] (Y : ABuf F) (w0 w1 w2 w3 : FVec F S512x256 .f32) :
    (Memref.whole cc0_scratch2).view.readCov (Val := Elt F) [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩] (Rect.unit (s := S2048x256) ![0, 0] S2048x256.size inb_S2048x256_S2048x256_0_0).toLoadRect
      = (Memref.whole cc0_scratch2).view.readAt (Elt F) (Rect.unit (s := S2048x256) ![0, 0] S2048x256.size inb_S2048x256_S2048x256_0_0).toLoadRect
          ((Memref.whole cc0_scratch2).view.writes (Elt F) Y [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩]) :=
  (View.readAt_writes_of_cover (Memref.whole cc0_scratch2).view Y _ _ (cover_rowsA w0 w1 w2 w3)).symm

/-- The whole read of the denominator likewise. -/
theorem readCov_whole_rowsL [∀ e, Nonempty (Elt F e)] (X : LBuf F) (w0 w1 w2 w3 : FVec F S512x1 .f32) :
    (Memref.whole cc0_scratch3).view.readCov (Val := Elt F) [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩] (Rect.unit (s := S2048x1) ![0, 0] S2048x1.size inb_S2048x1_S2048x1_0_0).toLoadRect
      = (Memref.whole cc0_scratch3).view.readAt (Elt F) (Rect.unit (s := S2048x1) ![0, 0] S2048x1.size inb_S2048x1_S2048x1_0_0).toLoadRect
          ((Memref.whole cc0_scratch3).view.writes (Elt F) X [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩]) :=
  (View.readAt_writes_of_cover (Memref.whole cc0_scratch3).view X _ _ (cover_rowsL w0 w1 w2 w3)).symm

end Cert.KernelIdeal.AttnKer

end

/-- info: 'Cert.KernelIdeal.AttnKer.readCov_whole_rowsL' depends on axioms: [propext, Classical.choice, Quot.sound] -/
#guard_msgs in #print axioms Cert.KernelIdeal.AttnKer.readCov_whole_rowsL
-- ==== Proof.RingBody.lean ====
/-
  The body, once, at a symbolic device `c`: from the state on entering — the dealt share, the launch credit, the
  levels, the scratch buffers, and the three argument blocks staged — every step of the body runs (the entry
  handshake, five ring steps with their hops, credits and waits, thirty-two chunk updates of the two accumulators,
  the final quotient) and leaves the ten own cells past their last rounds, the scratch whole, nothing owed, the
  argument blocks staged as fetched and the result block staged at `outBlock`.
  The local code between two protocol steps is run by the symbolic executor; each protocol step is one of the
  step lemmas.  On entering, the two first receive slots are released to their writers, and the entry signals
  carry that word.  On ring step `t` the device waits for its neighbour's credit (`t ≥ 1`), takes the neighbour's
  free slot out of its release invariant and sends its current slot there (the left half of the source lent, the
  right half kept for the arithmetic), accumulates, waits for its own copy to be read out, rejoins and releases the
  slot and grants the credit, and waits for the upstream block to land.
-/
import proofs.«900462_g7700000000000463_dist_ring_attn_i_s2048_d256_v7x_i8_f32_1_alg».proof.Proof.RingState
import proofs.«900462_g7700000000000463_dist_ring_attn_i_s2048_d256_v7x_i8_f32_1_alg».proof.Proof.RingOpen
import proofs.«900462_g7700000000000463_dist_ring_attn_i_s2048_d256_v7x_i8_f32_1_alg».proof.Proof.RingOpen2
import proofs.«900462_g7700000000000463_dist_ring_attn_i_s2048_d256_v7x_i8_f32_1_alg».proof.Proof.RingDeal
import proofs.«900462_g7700000000000463_dist_ring_attn_i_s2048_d256_v7x_i8_f32_1_alg».proof.Proof.RingCreds
import proofs.«900462_g7700000000000463_dist_ring_attn_i_s2048_d256_v7x_i8_f32_1_alg».proof.Proof.RingWaits
import proofs.«900462_g7700000000000463_dist_ring_attn_i_s2048_d256_v7x_i8_f32_1_alg».proof.Proof.RingAccess
import proofs.«900462_g7700000000000463_dist_ring_attn_i_s2048_d256_v7x_i8_f32_1_alg».proof.Proof.RingSteps3
import proofs.«900462_g7700000000000463_dist_ring_attn_i_s2048_d256_v7x_i8_f32_1_alg».proof.Proof.RingEnd
import proofs.«900462_g7700000000000463_dist_ring_attn_i_s2048_d256_v7x_i8_f32_1_alg».proof.Proof.RingValues
import proofs.«900462_g7700000000000463_dist_ring_attn_i_s2048_d256_v7x_i8_f32_1_alg».proof.Proof.RingAcc0
import proofs.«900462_g7700000000000463_dist_ring_attn_i_s2048_d256_v7x_i8_f32_1_alg».proof.Proof.RingValueRun
import proofs.«900462_g7700000000000463_dist_ring_attn_i_s2048_d256_v7x_i8_f32_1_alg».proof.Proof.RingAcc2
import proofs.«900462_g7700000000000463_dist_ring_attn_i_s2048_d256_v7x_i8_f32_1_alg».proof.Proof.RingAcc3
noncomputable section
namespace Cert.KernelIdeal.RingProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]
local notation "𝕄" => MT nD τ sig ℕ (Elt F) ℕ UU ℕ
variable (m : Mem F)

omit [FloatOps F] in
/-- A buffer held whole, in the spelling through its whole memref. -/
theorem whole_pts (c : Dev nD) (b : Ref sig .tc) (f : Buf (Elt F) ((c : Thread nD τ).loc b)) :
    (((c : Thread nD τ).loc b ↦{fullShare} f) : sProp 𝕄)
      = ((Memref.whole b).view.loc (c : Thread nD τ) ↦{fullShare} f) := rfl

/-! The printed semaphore slices are the ring's cells. -/
theorem sem_s00 : ((SemArray.slice cc0_scratch4 (Rect.unit (s := S2) ![0] S1.size inb_S2_S1_0)).squeeze S_ squeezes_S1_S_).sem = sendS 0 0 := by decide +kernel
theorem sem_s01 : ((SemArray.slice cc0_scratch4 (Rect.unit (s := S2) ![1] S1.size inb_S2_S1_1)).squeeze S_ squeezes_S1_S_).sem = sendS 0 1 := by decide +kernel
theorem sem_r00 : ((SemArray.slice cc0_scratch5 (Rect.unit (s := S2) ![0] S1.size inb_S2_S1_0)).squeeze S_ squeezes_S1_S_).sem = recvS 0 0 := by decide +kernel
theorem sem_r01 : ((SemArray.slice cc0_scratch5 (Rect.unit (s := S2) ![1] S1.size inb_S2_S1_1)).squeeze S_ squeezes_S1_S_).sem = recvS 0 1 := by decide +kernel
theorem sem_s10 : ((SemArray.slice cc0_scratch6 (Rect.unit (s := S2) ![0] S1.size inb_S2_S1_0)).squeeze S_ squeezes_S1_S_).sem = sendS 1 0 := by decide +kernel
theorem sem_s11 : ((SemArray.slice cc0_scratch6 (Rect.unit (s := S2) ![1] S1.size inb_S2_S1_1)).squeeze S_ squeezes_S1_S_).sem = sendS 1 1 := by decide +kernel
theorem sem_r10 : ((SemArray.slice cc0_scratch7 (Rect.unit (s := S2) ![0] S1.size inb_S2_S1_0)).squeeze S_ squeezes_S1_S_).sem = recvS 1 0 := by decide +kernel
theorem sem_r11 : ((SemArray.slice cc0_scratch7 (Rect.unit (s := S2) ![1] S1.size inb_S2_S1_1)).squeeze S_ squeezes_S1_S_).sem = recvS 1 1 := by decide +kernel

/-- Every slot's transfer credits the same amount. -/
theorem Ncr_slot (p b : Fin 2) : (slotM p b).view.dmaCredit = Ncr := by
  fin_cases p <;> fin_cases b <;> rfl

/-- A slot held whole at contents that read as `V`. -/
theorem slotAt_of_pts (c : Dev nD) (p b : Fin 2) (f : Buf (Elt F) ((slotM p b).view.loc (c : Thread nD τ))) (V : FVec F S2x2048x256 .bf16)
    (h : (slotM p b).view.read (Elt F) f = V) : slotPts c p b fullShare f ⊢ slotAt c p b V := by
  unfold slotAt
  iintro H; iexists f; isplitr; · ipureintro; exact h
  iexact H

/-- A resource set aside for a while: the same assertion under a name the executor does not look through. -/
def aside (P : sProp 𝕄) : sProp 𝕄 := P
theorem aside_eq (P : sProp 𝕄) : aside P = P := rfl
attribute [irreducible] aside

set_option maxHeartbeats 16000000 in
theorem sound_body (ρ : Dev nD → PrngReg) (c : Dev nD) :
    bodyPre (dats m ρ) c ⊢ wp frame (wpE (defs₀ (F := F)) 𝒱₀ (c : Thread nD τ) none) Set.univ (bodyAt0 t0_0) (fun _ => closing m ρ c) := by
  unfold bodyPre bodyAt0 stg
  rw [show (dats m ρ 0 c).Φ t0_0.castSucc = entry m c from rfl]
  unfold Dat.owesAt Pipeline.owesWithin
  rw [show (dats m ρ 0 c).owed t0_0.castSucc = owedFrom c 0 from rfl]
  unfold entry G' scratch
  rw [mine_eq]
  iintro ⟨⟨⟨%Kn, %ιs, %hinj, #Hk, HaS00, HaS01, HaR00, HaR01, HaS10, HaS11, HaR10, HaR11, HaK0, HaK1, HaB, HtBl, HtBr,
      HtS000, HtS001, HtS010, HtS011, HtS100, HtS101, HtS110, HtR000, HtR001, HtR010, HtR011, HtR100, HtR110, HtR111,
      HtK00, HtK01, HtK02, HtK10, HtK11, Hrd00, Hrd01, Hrd10, Hrd11, Hw001, Hw002, Hw011, Hw012, Hw101, Hw102, Hw111, Hw112⟩,
      Hcred, #Hlev, Hs0, Hs1, Hs2, Hs3⟩, ⟨%W, %hW, HO⟩,
    ⟨%d0, %f0, %hf0, H0⟩, ⟨%d1, %f1, %hf1, H1⟩, ⟨%d2, %f2, %hf2, H2⟩, ⟨%d3, %f3, %hf3, H3⟩⟩
  icases Hs2 with ⟨%fa0, Hs2⟩
  icases Hs3 with ⟨%fl0, Hs3⟩
  ihave Hs2 := (Entails.of_eq (whole_pts (F := F) c cc0_scratch2 fa0)) $$ Hs2
  ihave Hs3 := (Entails.of_eq (whole_pts (F := F) c cc0_scratch3 fl0)) $$ Hs3
  ihave H0 := (Entails.of_eq (whole_pts (F := F) c cc0_stg0_0 f0)) $$ H0
  ihave H1 := (Entails.of_eq (whole_pts (F := F) c cc0_stg1_0 f1)) $$ H1
  ihave H2 := (Entails.of_eq (whole_pts (F := F) c cc0_stg2_0 f2)) $$ H2
  ihave H3 := (Entails.of_eq (whole_pts (F := F) c cc0_stg3_0 f3)) $$ H3
  ihave Hr0 := (ring0_split (F := F) c) $$ Hs0
  icases Hr0 with ⟨Hs00, Hs01⟩
  ihave Hr1 := (ring1_split (F := F) c) $$ Hs1
  icases Hr1 with ⟨Hs10, Hs11⟩
  icases Hs00 with ⟨%g00, Hs00⟩
  icases Hs10 with ⟨%g10, Hs10⟩
  ihave Hc := (creds (F := F) c) $$ Hcred
  icases Hc with ⟨HcB, ⟨HcK00, HcK01, HcK02⟩, ⟨HcK10, HcK11⟩, ⟨HcR00, HcR01, HcR02, HcR03⟩, ⟨HcR10, HcR11, HcR12⟩⟩
  -- the two first receive slots are put at their writers' disposal
  ihave #HI01 := (knows_slot m Kn ιs ((c, (0 : Fin 2), (1 : Fin 2)) : KS)) $$ Hk
  ihave #HI11 := (knows_slot m Kn ιs ((c, (1 : Fin 2), (1 : Fin 2)) : KS)) $$ Hk
  imod (Release.slot_release (ES (F := F)) (Set.mem_univ (ιs ((c, (0 : Fin 2), (1 : Fin 2)) : KS))) (Release.slot_slot_false (ℓ := (slotM 0 1).view.loc (c : Thread nD τ)) (I := (slotM 0 1).view.set) (slot_nonempty0 1)) 0) $$ [Hrd01 Hs01] with ⟨Hrd01, #Hrel01⟩
  · isplitr; · iexact HI01
    isplitl [Hrd01]; · iexact Hrd01
    unfold Sl Release.slot slotPts; iexact Hs01
  imod (Release.slot_release (ES (F := F)) (Set.mem_univ (ιs ((c, (1 : Fin 2), (1 : Fin 2)) : KS))) (Release.slot_slot_false (ℓ := (slotM 1 1).view.loc (c : Thread nD τ)) (I := (slotM 1 1).view.set) (slot_nonempty1 1)) 0) $$ [Hrd11 Hs11] with ⟨Hrd11, #Hrel11⟩
  · isplitr; · iexact HI11
    isplitl [Hrd11]; · iexact Hrd11
    unfold Sl Release.slot slotPts; iexact Hs11
  sl_exec_parts
  rw [dev1_eq]
  -- the entry signal to the left neighbour
  ihave #HIbl := (knows_cell m Kn ιs (lft c, (10 : Fin 11))) $$ Hk
  ihave #HrBl := (knows_reached m Kn ιs (lft c, (10 : Fin 11))) $$ Hk
  iapply (wp_barsig m c (lft c) 1 (rgt_lft c) (by decide : 1 = (1#32).toNat) (owedFrom c 1) rfl (κ := Kn (lft c, 10))) $$ [HO HtBl]
  · isplitr; · iexact HIbl
    isplitl [HO]; · iexact HO
    isplitl [HtBl]; · iexact HtBl
    isplitr; · iexact Hrel01
    iexact HrBl
  iintro HO
  sl_exec_parts
  rw [dev2_eq]
  -- the entry signal to the right neighbour
  ihave #HIbr := (knows_cell m Kn ιs (rgt c, (10 : Fin 11))) $$ Hk
  ihave #HrBr := (knows_reached m Kn ιs (rgt c, (10 : Fin 11))) $$ Hk
  iapply (wp_barsig m c (rgt c) 0 (lft_rgt c) (by decide : 1 = (1#32).toNat) (owedFrom c 2) rfl (κ := Kn (rgt c, 10))) $$ [HO HtBr]
  · isplitr; · iexact HIbr
    isplitl [HO]; · iexact HO
    isplitl [HtBr]; · iexact HtBr
    isplitr; · iexact Hrel11
    iexact HrBr
  iintro HO
  sl_exec_parts
  -- the entry wait
  ihave #HIb := (knows_cell m Kn ιs (c, (10 : Fin 11))) $$ Hk
  iapply (wp_barwait m c (κ := Kn (c, 10))) $$ [HcB HO HaB]
  · isplitr; · iexact HIb
    isplitl [HcB]; · iexact HcB
    isplitl [HO]; · iexact HO
    isplitr
    · iapply (mayWait_kind (F := F) c (.reg barS) 0 2 (by rw [kindOf_bar]; decide) (by rw [kindOf_bar]; decide)); iexact Hlev
    iexact HaB
  iintro ⟨HO, HaB, #HrB1, #HrelL, #HrelR⟩
  sl_exec_parts
  -- hop 0 of the right-going ring: slot 0 (the device's own block) to the right neighbour's slot 1
  have hv00 : (slotM 0 0).view.read (Elt F) (sound_body.sl.Hs00_w2 c f1 f2 g00) = sentV m 0 (2 * 0 + (0 : Fin 2).val) c := by
    unfold sound_body.sl.Hs00_w2 sound_body.sl.Hs00_w1
    exact (slot_read_write_halves (F := F) 0 0 g00 _ _).trans ((own_block0 m ρ c d1 d2 f1 f2 hf1 hf2).trans (sentV_zero m 0 c).symm)
  ihave Hs00 := (slotAt_of_pts (F := F) c 0 0 _ _ hv00) $$ Hs00
  ihave Hh := (slot_halve (F := F) c 0 0 _) $$ Hs00
  icases Hh with ⟨Hl00, Hr00⟩
  unfold slotLent
  icases Hl00 with ⟨%fs00, %hfs00, Hl00⟩
  ihave #HIs00 := (knows_cell m Kn ιs (c, (0 : Fin 11))) $$ Hk
  ihave #HrS00 := (knows_reached m Kn ιs (c, (0 : Fin 11))) $$ Hk
  ihave #HIr01R := (knows_cell m Kn ιs (rgt c, (3 : Fin 11))) $$ Hk
  ihave #HrR01R := (knows_reached m Kn ιs (rgt c, (3 : Fin 11))) $$ Hk
  ihave #HIslR01 := (knows_slot m Kn ιs ((rgt c, (0 : Fin 2), (1 : Fin 2)) : KS)) $$ Hk
  iapply (wp_hop m c 0 0 1 rfl 0 (by decide) (by decide) 0 _ (dev3_eq c _) fs00 hfs00 (owedFrom c 3) rfl (ιs ((rgt c, (0 : Fin 2), (1 : Fin 2)) : KS)) 1) $$ [Hl00 Hw011 HO HtS000 HtR010]
  · isplitr; · iexact HIs00
    isplitr; · iexact HIr01R
    isplitl [Hl00]; · iexact Hl00
    isplitr; · iexact HIslR01
    isplitr; · iexact HrelR
    isplitl [Hw011]; · iexact Hw011
    isplitl [HO]; · iexact HO
    isplitl [HtS000]; · iexact HtS000
    isplitr; · iexact HrS00
    isplitl [HtR010]; · iexact HtR010
    iexact HrR01R
  iintro ⟨HcS00, HO⟩
  sl_exec_parts
  -- the kept half of the source is read by the arithmetic meanwhile
  icases Hr00 with ⟨%fr00, %hfr00, Hr00⟩
  -- hop 0 of the left-going ring: slot 0 to the left neighbour's slot 1
  have hv10 : (slotM 1 0).view.read (Elt F) (sound_body.sl.Hs10_w4 c f1 f2 g10) = sentV m 1 (2 * 0 + (0 : Fin 2).val) c := by
    unfold sound_body.sl.Hs10_w4 sound_body.sl.Hs10_w3
    exact (slot_read_write_halves (F := F) 1 0 g10 _ _).trans ((own_block1 m ρ c d1 d2 f1 f2 hf1 hf2).trans (sentV_zero m 1 c).symm)
  ihave Hs10 := (slotAt_of_pts (F := F) c 1 0 _ _ hv10) $$ Hs10
  ihave Hh := (slot_halve (F := F) c 1 0 _) $$ Hs10
  icases Hh with ⟨Hl10, Hr10⟩
  unfold slotLent
  icases Hl10 with ⟨%fs10, %hfs10, Hl10⟩
  icases Hr10 with ⟨%fr10, %hfr10, Hr10⟩
  ihave #HIs10 := (knows_cell m Kn ιs (c, (4 : Fin 11))) $$ Hk
  ihave #HrS10 := (knows_reached m Kn ιs (c, (4 : Fin 11))) $$ Hk
  ihave #HIr11L := (knows_cell m Kn ιs (lft c, (7 : Fin 11))) $$ Hk
  ihave #HrR11L := (knows_reached m Kn ιs (lft c, (7 : Fin 11))) $$ Hk
  ihave #HIslL11 := (knows_slot m Kn ιs ((lft c, (1 : Fin 2), (1 : Fin 2)) : KS)) $$ Hk
  iapply (wp_hop m c 1 0 1 rfl 0 (by decide) (by decide) 0 _ (dev4_eq c _) fs10 hfs10 (owedFrom c 4) rfl (ιs ((lft c, (1 : Fin 2), (1 : Fin 2)) : KS)) 1) $$ [Hl10 Hw111 HO HtS100 HtR110]
  · isplitr; · iexact HIs10
    isplitr; · iexact HIr11L
    isplitl [Hl10]; · iexact Hl10
    isplitr; · iexact HIslL11
    isplitr; · iexact HrelL
    isplitl [Hw111]; · iexact Hw111
    isplitl [HO]; · iexact HO
    isplitl [HtS100]; · iexact HtS100
    isplitr; · iexact HrS10
    isplitl [HtR110]; · iexact HtR110
    iexact HrR11L
  iintro ⟨HcS10, HO⟩
  -- the first block is accumulated
  sl_exec_parts
  -- the accumulators after the first visit, named
  have hjoin0 : (slotM 0 0).view.read (Elt F) fr00 = joinKV (kvAt m c 0).1 (kvAt m c 0).2 := hfr00
  have hq : sound_body.sl.r_2 c f0 = qAt m c := by
    unfold sound_body.sl.r_2 qAt; exact query_block m ρ c d0 f0 hf0
  have hk0 : sound_body.sl.r_3 fr00 = (kvAt m c 0).1 := by
    unfold sound_body.sl.r_3
    exact (congrArg k0_pay12 (half_read_key 0 0 fr00 _ _ hjoin0)).trans (pay12_load _)
  have hv0 : sound_body.sl.r_4 fr00 = (kvAt m c 0).2 := by
    unfold sound_body.sl.r_4
    exact (congrArg k0_pay13 (half_read_val 0 0 fr00 _ _ hjoin0)).trans (pay13_load _)
  have hacc1 : accAt m c 1 = Cert.KernelIdeal.AttnKer.accumulate (qAt m c) (kvAt m c 0).1 (kvAt m c 0).2 (k0_pay10, k0_pay11) := accAt_succ m c 0
  have hL : (Memref.whole cc0_scratch3).view.writes (Elt F) fl0 (sound_body.sl.Hs3_5 c f0 fr00) = (accAt m c 1).1 := by
    rw [hacc1]
    unfold sound_body.sl.Hs3_5 sound_body.sl.Hs3_4 sound_body.sl.Hs3_3 sound_body.sl.Hs3_2
    refine writes_acc0_fst (qAt m c) (kvAt m c 0).1 (kvAt m c 0).2 fl0 _ _ _ _ ?_ ?_ ?_ ?_
    · rw [← hq, ← hk0]; rfl
    · rw [← hq, ← hk0]; rfl
    · rw [← hq, ← hk0]; rfl
    · rw [← hq, ← hk0]; rfl
  have hA : (Memref.whole cc0_scratch2).view.writes (Elt F) fa0 (sound_body.sl.Hs2_5 c f0 fr00) = (accAt m c 1).2 := by
    rw [hacc1]
    unfold sound_body.sl.Hs2_5 sound_body.sl.Hs2_4 sound_body.sl.Hs2_3 sound_body.sl.Hs2_2
    refine writes_acc0_snd (qAt m c) (kvAt m c 0).1 (kvAt m c 0).2 fa0 _ _ _ _ ?_ ?_ ?_ ?_
    · rw [← hq, ← hk0, ← hv0]; rfl
    · rw [← hq, ← hk0, ← hv0]; rfl
    · rw [← hq, ← hk0, ← hv0]; rfl
    · rw [← hq, ← hk0, ← hv0]; rfl
  ihave Hs3 := (Entails.of_eq (congrArg (fun X => (View.loc (c : Thread nD τ) (Memref.whole cc0_scratch3).view ↦{fullShare} X : sProp 𝕄)) hL)) $$ Hs3
  ihave Hs2 := (Entails.of_eq (congrArg (fun X => (View.loc (c : Thread nD τ) (Memref.whole cc0_scratch2).view ↦{fullShare} X : sProp 𝕄)) hA)) $$ Hs2
  -- the right-going copy has been read out: the lent half comes back
  iapply (wp_sendwait m c 0 0 0 (by decide) 0 (Ncr_slot 0 0) (κ := Kn (c, 0))) $$ [HcS00 HO HaS00]
  · isplitr; · iexact HIs00
    isplitl [HcS00]; · iexact HcS00
    isplitl [HO]; · iexact HO
    isplitr
    · iapply (mayWait_kind (F := F) c (.dma (sendS 0 0)) 0 4 (by rw [kindOf_send]; decide) (by rw [kindOf_send]; decide)); iexact Hlev
    iexact HaS00
  iintro ⟨HO, HaS00, #HrS00_1x, Hl00⟩
  -- whole again, and handed back to its writer
  ihave Hs00 := (slot_rejoin' (F := F) c 0 0 _) $$ [Hl00 Hr00]
  · isplitl [Hl00]; · iexact Hl00
    iexists fr00; iexact Hr00
  ihave #HI00 := (knows_slot m Kn ιs ((c, (0 : Fin 2), (0 : Fin 2)) : KS)) $$ Hk
  imod (release_after (F := F) c 0 0 _ (ιs ((c, (0 : Fin 2), (0 : Fin 2)) : KS)) 0) $$ [Hrd00 Hs00] with ⟨Hrd00, #Hrel00⟩
  · isplitr; · iexact HI00
    isplitl [Hrd00]; · iexact Hrd00
    iexact Hs00
  sl_exec_parts
  rw [dev5_eq]
  -- the credit to the left neighbour: slot 0 of the right-going ring is free
  ihave #HIk0L := (knows_cell m Kn ιs (lft c, (8 : Fin 11))) $$ Hk
  ihave #HrK0L := (knows_reached m Kn ιs (lft c, (8 : Fin 11))) $$ Hk
  ihave #HrR00 := (knows_reached m Kn ιs (c, (2 : Fin 11))) $$ Hk
  iapply (wp_grant m c 0 0 (by decide) (by decide : 1 = (1#32).toNat) (owedFrom c 5) rfl (κ := Kn (lft c, 8))) $$ [HO HtK00]
  · isplitr; · iexact HIk0L
    isplitl [HO]; · iexact HO
    isplitl [HtK00]; · iexact HtK00
    isplitr
    · unfold grantsUpTo grantFact; isplitr; · iexact Hrel00
      iexact HrR00
    iexact HrK0L
  iintro HO
  sl_exec_parts
  -- the left neighbour's copy 0 has landed in slot 1
  ihave #HIr01 := (knows_cell m Kn ιs (c, (3 : Fin 11))) $$ Hk
  iapply (wp_recvwait m c 0 1 0 (by decide) 0 (Ncr_slot 0 1) (κ := Kn (c, 3))) $$ [HcR00 HO HaR01]
  · isplitr; · iexact HIr01
    isplitl [HcR00]; · iexact HcR00
    isplitl [HO]; · iexact HO
    isplitr
    · iapply (mayWait_kind (F := F) c (.dma (recvS 0 1)) 0 5 (by rw [kindOf_recv]; decide) (by rw [kindOf_recv]; decide)); iexact Hlev
    iexact HaR01
  iintro ⟨HO, HaR01, #HrR01_1, Hs01⟩
  sl_exec_parts
  -- the left-going copy has been read out
  iapply (wp_sendwait m c 1 0 0 (by decide) 0 (Ncr_slot 1 0) (κ := Kn (c, 4))) $$ [HcS10 HO HaS10]
  · isplitr; · iexact HIs10
    isplitl [HcS10]; · iexact HcS10
    isplitl [HO]; · iexact HO
    isplitr
    · iapply (mayWait_kind (F := F) c (.dma (sendS 1 0)) 0 5 (by rw [kindOf_send]; decide) (by rw [kindOf_send]; decide)); iexact Hlev
    iexact HaS10
  iintro ⟨HO, HaS10, #HrS10_1x, Hl10⟩
  ihave Hs10 := (slot_rejoin' (F := F) c 1 0 _) $$ [Hl10 Hr10]
  · isplitl [Hl10]; · iexact Hl10
    iexists fr10; iexact Hr10
  ihave #HI10 := (knows_slot m Kn ιs ((c, (1 : Fin 2), (0 : Fin 2)) : KS)) $$ Hk
  imod (release_after (F := F) c 1 0 _ (ιs ((c, (1 : Fin 2), (0 : Fin 2)) : KS)) 0) $$ [Hrd10 Hs10] with ⟨Hrd10, #Hrel10⟩
  · isplitr; · iexact HI10
    isplitl [Hrd10]; · iexact Hrd10
    iexact Hs10
  sl_exec_parts
  rw [dev6_eq]
  -- the credit to the right neighbour: slot 0 of the left-going ring is free
  ihave #HIk1R := (knows_cell m Kn ιs (rgt c, (9 : Fin 11))) $$ Hk
  ihave #HrK1R := (knows_reached m Kn ιs (rgt c, (9 : Fin 11))) $$ Hk
  ihave #HrR10 := (knows_reached m Kn ιs (c, (6 : Fin 11))) $$ Hk
  iapply (wp_grant m c 1 0 (by decide) (by decide : 1 = (1#32).toNat) (owedFrom c 6) rfl (κ := Kn (rgt c, 9))) $$ [HO HtK10]
  · isplitr; · iexact HIk1R
    isplitl [HO]; · iexact HO
    isplitl [HtK10]; · iexact HtK10
    isplitr
    · unfold grantsUpTo grantFact; isplitr; · iexact Hrel10
      iexact HrR10
    iexact HrK1R
  iintro HO
  sl_exec_parts
  -- the right neighbour's copy 0 has landed in slot 1 of the left-going ring
  ihave #HIr11 := (knows_cell m Kn ιs (c, (7 : Fin 11))) $$ Hk
  iapply (wp_recvwait m c 1 1 0 (by decide) 0 (Ncr_slot 1 1) (κ := Kn (c, 7))) $$ [HcR10 HO HaR11]
  · isplitr; · iexact HIr11
    isplitl [HcR10]; · iexact HcR10
    isplitl [HO]; · iexact HO
    isplitr
    · iapply (mayWait_kind (F := F) c (.dma (recvS 1 1)) 0 6 (by rw [kindOf_recv]; decide) (by rw [kindOf_recv]; decide)); iexact Hlev
    iexact HaR11
  iintro ⟨HO, HaR11, #HrR11_1, Hs11⟩
  sl_exec_parts
  -- the right neighbour's credit 0 for the right-going ring
  ihave #HIk0 := (knows_cell m Kn ιs (c, (8 : Fin 11))) $$ Hk
  iapply (wp_capwait m c 0 0 ∅ (κ := Kn (c, 8))) $$ [HcK00 HO HaK0]
  · isplitr; · iexact HIk0
    isplitl [HcK00]; · iexact HcK00
    isplitl [HO]; · iexact HO
    isplitr
    · iapply (mayWait_kind (F := F) c (.reg (capS 0)) 0 6 (by rw [kindOf_cap]; decide) (by rw [kindOf_cap]; decide)); iexact Hlev
    isplitl [HaK0]; · iexact HaK0
    unfold harvest; rw [bigSep_empty]; iempintro
  iintro %S00 ⟨HO, HaK0, #Hhv00, #Hg00⟩
  unfold grantFact
  icases Hg00 with ⟨#HrelD00, #HrD00⟩
  sl_exec_parts
  -- hop 1 of the right-going ring: slot 1 to the right neighbour's slot 0
  have e01 : sentV m 0 (2 * 0 + (1 - ((1 : Fin 2) : ℕ))) (upR 0 c) = sentV m 0 (2 * 0 + ((1 : Fin 2) : ℕ)) c := (sentV_succ m 0 0 c).symm
  ihave Hs01 := (Entails.of_eq (congrArg (slotAt (F := F) c 0 1) e01)) $$ Hs01
  ihave Hh := (slot_halve (F := F) c 0 1 _) $$ Hs01
  icases Hh with ⟨Hl01, Hr01⟩
  unfold slotLent
  icases Hl01 with ⟨%fs01, %hfs01, Hl01⟩
  icases Hr01 with ⟨%fr01, %hfr01, Hr01⟩
  ihave #HIs01_1 := (knows_cell m Kn ιs (c, (1 : Fin 11))) $$ Hk
  ihave #HIrD00_1 := (knows_cell m Kn ιs (rgt c, (2 : Fin 11))) $$ Hk
  ihave #HIslD00_1 := (knows_slot m Kn ιs ((rgt c, (0 : Fin 2), (0 : Fin 2)) : KS)) $$ Hk
  ihave #HrS01_r0 := (knows_reached m Kn ιs (c, (1 : Fin 11))) $$ Hk
  iapply (wp_hop m c 0 1 0 rfl 0 (by decide) (by decide) 1 _ (dev7_eq c _) fs01 hfs01 (owedFrom c 7) rfl (ιs ((rgt c, (0 : Fin 2), (0 : Fin 2)) : KS)) 1) $$ [Hl01 Hw001 HO HtS010 HtR000]
  · isplitr; · iexact HIs01_1
    isplitr; · iexact HIrD00_1
    isplitl [Hl01]; · iexact Hl01
    isplitr; · iexact HIslD00_1
    isplitr; · iexact HrelD00
    isplitl [Hw001]; · iexact Hw001
    isplitl [HO]; · iexact HO
    isplitl [HtS010]; · iexact HtS010
    isplitr; · iexact HrS01_r0
    isplitl [HtR000]; · iexact HtR000
    iexact HrD00
  iintro ⟨HcS01, HO⟩
  sl_exec_parts
  -- the left neighbour's credit 0 for the left-going ring
  ihave #HIk1 := (knows_cell m Kn ιs (c, (9 : Fin 11))) $$ Hk
  iapply (wp_capwait m c 1 0 ∅ (κ := Kn (c, 9))) $$ [HcK10 HO HaK1]
  · isplitr; · iexact HIk1
    isplitl [HcK10]; · iexact HcK10
    isplitl [HO]; · iexact HO
    isplitr
    · iapply (mayWait_kind (F := F) c (.reg (capS 1)) 0 7 (by rw [kindOf_cap]; decide) (by rw [kindOf_cap]; decide)); iexact Hlev
    isplitl [HaK1]; · iexact HaK1
    unfold harvest; rw [bigSep_empty]; iempintro
  iintro %S10 ⟨HO, HaK1, #Hhv10, #Hg10⟩
  unfold grantFact
  icases Hg10 with ⟨#HrelD10, #HrD10⟩
  sl_exec_parts
  -- hop 1 of the left-going ring: slot 1 to the left neighbour's slot 0
  have e11 : sentV m 1 (2 * 0 + (1 - ((1 : Fin 2) : ℕ))) (upR 1 c) = sentV m 1 (2 * 0 + ((1 : Fin 2) : ℕ)) c := (sentV_succ m 1 0 c).symm
  ihave Hs11 := (Entails.of_eq (congrArg (slotAt (F := F) c 1 1) e11)) $$ Hs11
  ihave Hh := (slot_halve (F := F) c 1 1 _) $$ Hs11
  icases Hh with ⟨Hl11, Hr11⟩
  unfold slotLent
  icases Hl11 with ⟨%fs11, %hfs11, Hl11⟩
  icases Hr11 with ⟨%fr11, %hfr11, Hr11⟩
  ihave #HIs11_1 := (knows_cell m Kn ιs (c, (5 : Fin 11))) $$ Hk
  ihave #HIrD10_1 := (knows_cell m Kn ιs (lft c, (6 : Fin 11))) $$ Hk
  ihave #HIslD10_1 := (knows_slot m Kn ιs ((lft c, (1 : Fin 2), (0 : Fin 2)) : KS)) $$ Hk
  ihave #HrS11_r0 := (knows_reached m Kn ιs (c, (5 : Fin 11))) $$ Hk
  iapply (wp_hop m c 1 1 0 rfl 0 (by decide) (by decide) 1 _ (dev8_eq c _) fs11 hfs11 (owedFrom c 8) rfl (ιs ((lft c, (1 : Fin 2), (0 : Fin 2)) : KS)) 1) $$ [Hl11 Hw101 HO HtS110 HtR100]
  · isplitr; · iexact HIs11_1
    isplitr; · iexact HIrD10_1
    isplitl [Hl11]; · iexact Hl11
    isplitr; · iexact HIslD10_1
    isplitr; · iexact HrelD10
    isplitl [Hw101]; · iexact Hw101
    isplitl [HO]; · iexact HO
    isplitl [HtS110]; · iexact HtS110
    isplitr; · iexact HrS11_r0
    isplitl [HtR100]; · iexact HtR100
    iexact HrD10
  iintro ⟨HcS11, HO⟩
  -- the two blocks received on step 0 are accumulated
  sl_exec_parts
  -- the accumulators after visits 1 and 2, named
  have hjoin1 : (slotM 0 1).view.read (Elt F) fr01 = joinKV (kvAt m c 1).1 (kvAt m c 1).2 := hfr01
  have hjoin2 : (slotM 1 1).view.read (Elt F) fr11 = joinKV (kvAt m c 2).1 (kvAt m c 2).2 := hfr11
  have hk1 : sound_body.sl.r_7 fr01 = (kvAt m c 1).1 := by
    unfold sound_body.sl.r_7
    exact (congrArg k0_pay28 (half_read_key 0 1 fr01 _ _ hjoin1)).trans (down_up _ _)
  have hv1 : sound_body.sl.r_8 fr01 = (kvAt m c 1).2 := by
    unfold sound_body.sl.r_8
    exact (congrArg k0_pay29 (half_read_val 0 1 fr01 _ _ hjoin1)).trans (down_up _ _)
  have hk2 : sound_body.sl.r_11 fr11 = (kvAt m c 2).1 := by
    unfold sound_body.sl.r_11
    exact (congrArg k0_pay43 (half_read_key 1 1 fr11 _ _ hjoin2)).trans (down_up _ _)
  have hv2 : sound_body.sl.r_12 fr11 = (kvAt m c 2).2 := by
    unfold sound_body.sl.r_12
    exact (congrArg k0_pay44 (half_read_val 1 1 fr11 _ _ hjoin2)).trans (down_up _ _)
  have hacc3 : accAt m c 3 = Cert.KernelIdeal.AttnKer.accumulate (qAt m c) (kvAt m c 2).1 (kvAt m c 2).2
      (Cert.KernelIdeal.AttnKer.accumulate (qAt m c) (kvAt m c 1).1 (kvAt m c 1).2 ((accAt m c 1).1, (accAt m c 1).2)) :=
    (accAt_succ m c 2).trans (congrArg (Cert.KernelIdeal.AttnKer.accumulate (qAt m c) (kvAt m c 2).1 (kvAt m c 2).2) (accAt_succ m c 1))
  have hL3 : (Memref.whole cc0_scratch3).view.writes (Elt F) (accAt m c 1).1 (sound_body.sl.Hs3_8 m c f0 fr01 fr11) = (accAt m c 3).1 := by
    rw [hacc3]
    unfold sound_body.sl.Hs3_8 sound_body.sl.Hs3_7 sound_body.sl.Hs3_6 sound_body.sl.Hs3_5_1 sound_body.sl.Hs3_4_1 sound_body.sl.Hs3_3_1 sound_body.sl.Hs3_1
    refine Cert.KernelIdeal.AttnKer.writes_acc2_fst (qAt m c) (kvAt m c 1).1 (kvAt m c 1).2 (kvAt m c 2).1 (kvAt m c 2).2
      (accAt m c 1).1 (accAt m c 1).2 _ _ _ _ _ _ _ _ ?_ ?_ ?_ ?_ ?_ ?_ ?_ ?_
    all_goals (first | (rw [← hq, ← hk1]; rfl) | (rw [← hq, ← hk2]; rfl))
  have hA3 : (Memref.whole cc0_scratch2).view.writes (Elt F) (accAt m c 1).2 (sound_body.sl.Hs2_8 m c f0 fr01 fr11) = (accAt m c 3).2 := by
    rw [hacc3]
    unfold sound_body.sl.Hs2_8 sound_body.sl.Hs2_7 sound_body.sl.Hs2_6 sound_body.sl.Hs2_5_1 sound_body.sl.Hs2_4_1 sound_body.sl.Hs2_3_1 sound_body.sl.Hs2_1
    refine Cert.KernelIdeal.AttnKer.writes_acc2_snd (qAt m c) (kvAt m c 1).1 (kvAt m c 1).2 (kvAt m c 2).1 (kvAt m c 2).2
      (accAt m c 1).1 (accAt m c 1).2 _ _ _ _ _ _ _ _ ?_ ?_ ?_ ?_ ?_ ?_ ?_ ?_
    all_goals (first | (rw [← hq, ← hk1, ← hv1]; rfl) | (rw [← hq, ← hk2, ← hv2]; rfl))
  ihave Hs3 := (Entails.of_eq (congrArg (fun X => (View.loc (c : Thread nD τ) (Memref.whole cc0_scratch3).view ↦{fullShare} X : sProp 𝕄)) hL3)) $$ Hs3
  ihave Hs2 := (Entails.of_eq (congrArg (fun X => (View.loc (c : Thread nD τ) (Memref.whole cc0_scratch2).view ↦{fullShare} X : sProp 𝕄)) hA3)) $$ Hs2
  -- the right-going copy 1 has been read out: the lent half comes back
  iapply (wp_sendwait m c 0 1 0 (by decide) 1 (Ncr_slot 0 1) (κ := Kn (c, 1))) $$ [HcS01 HO HaS01]
  · isplitr; · iexact HIs01_1
    isplitl [HcS01]; · iexact HcS01
    isplitl [HO]; · iexact HO
    isplitr
    · iapply (mayWait_kind (F := F) c (.dma (sendS 0 1)) 1 8 (by rw [kindOf_send]; decide) (by rw [kindOf_send]; decide)); iexact Hlev
    iexact HaS01
  iintro ⟨HO, HaS01, #HrS01_1x, Hl01⟩
  ihave Hs01 := (slot_rejoin' (F := F) c 0 1 _) $$ [Hl01 Hr01]
  · isplitl [Hl01]; · iexact Hl01
    iexists fr01; iexact Hr01
  ihave #HIown01_1 := (knows_slot m Kn ιs ((c, (0 : Fin 2), (1 : Fin 2)) : KS)) $$ Hk
  imod (release_after (F := F) c 0 1 _ (ιs ((c, (0 : Fin 2), (1 : Fin 2)) : KS)) 1) $$ [Hrd01 Hs01] with ⟨Hrd01, #Hrel01_2⟩
  · isplitr; · iexact HIown01_1
    isplitl [Hrd01]; · iexact Hrd01
    iexact Hs01
  sl_exec_parts
  rw [dev9_eq]
  -- credit 1 to the left neighbour: slot 1 of the right-going ring is free
  ihave #HIkU0u1 := (knows_cell m Kn ιs (lft c, (8 : Fin 11))) $$ Hk
  ihave #HrKU0u1 := (knows_reached m Kn ιs (lft c, (8 : Fin 11))) $$ Hk
  iapply (wp_grant m c 0 1 (by decide) (by decide : 1 = (1#32).toNat) (owedFrom c 9) rfl (κ := Kn (lft c, 8))) $$ [HO HtK01]
  · isplitr; · iexact HIkU0u1
    isplitl [HO]; · iexact HO
    isplitl [HtK01]; · iexact HtK01
    isplitr
    · unfold grantsUpTo; unfold grantsUpTo grantFact
      isplitr
      · isplitr; · iexact Hrel00
        iexact HrR00
      · isplitr; · iexact Hrel01_2
        iexact HrR01_1
    iexact HrKU0u1
  iintro HO
  sl_exec_parts
  -- the left neighbour's copy 1 has landed in slot 0
  ihave #HIr00 := (knows_cell m Kn ιs (c, (2 : Fin 11))) $$ Hk
  iapply (wp_recvwait m c 0 0 0 (by decide) 1 (Ncr_slot 0 0) (κ := Kn (c, 2))) $$ [HcR01 HO HaR00]
  · isplitr; · iexact HIr00
    isplitl [HcR01]; · iexact HcR01
    isplitl [HO]; · iexact HO
    isplitr
    · iapply (mayWait_kind (F := F) c (.dma (recvS 0 0)) 1 9 (by rw [kindOf_recv]; decide) (by rw [kindOf_recv]; decide)); iexact Hlev
    iexact HaR00
  iintro ⟨HO, HaR00, #HrR00_1, Hs00⟩
  sl_exec_parts
  -- the left-going copy 1 has been read out: the lent half comes back
  iapply (wp_sendwait m c 1 1 0 (by decide) 1 (Ncr_slot 1 1) (κ := Kn (c, 5))) $$ [HcS11 HO HaS11]
  · isplitr; · iexact HIs11_1
    isplitl [HcS11]; · iexact HcS11
    isplitl [HO]; · iexact HO
    isplitr
    · iapply (mayWait_kind (F := F) c (.dma (sendS 1 1)) 1 9 (by rw [kindOf_send]; decide) (by rw [kindOf_send]; decide)); iexact Hlev
    iexact HaS11
  iintro ⟨HO, HaS11, #HrS11_1x, Hl11⟩
  ihave Hs11 := (slot_rejoin' (F := F) c 1 1 _) $$ [Hl11 Hr11]
  · isplitl [Hl11]; · iexact Hl11
    iexists fr11; iexact Hr11
  ihave #HIown11_1 := (knows_slot m Kn ιs ((c, (1 : Fin 2), (1 : Fin 2)) : KS)) $$ Hk
  imod (release_after (F := F) c 1 1 _ (ιs ((c, (1 : Fin 2), (1 : Fin 2)) : KS)) 1) $$ [Hrd11 Hs11] with ⟨Hrd11, #Hrel11_2⟩
  · isplitr; · iexact HIown11_1
    isplitl [Hrd11]; · iexact Hrd11
    iexact Hs11
  sl_exec_parts
  rw [dev10_eq]
  -- credit 1 to the right neighbour: slot 1 of the left-going ring is free
  ihave #HIkU1u1 := (knows_cell m Kn ιs (rgt c, (9 : Fin 11))) $$ Hk
  ihave #HrKU1u1 := (knows_reached m Kn ιs (rgt c, (9 : Fin 11))) $$ Hk
  iapply (wp_grant m c 1 1 (by decide) (by decide : 1 = (1#32).toNat) (owedFrom c 10) rfl (κ := Kn (rgt c, 9))) $$ [HO HtK11]
  · isplitr; · iexact HIkU1u1
    isplitl [HO]; · iexact HO
    isplitl [HtK11]; · iexact HtK11
    isplitr
    · unfold grantsUpTo; unfold grantsUpTo grantFact
      isplitr
      · isplitr; · iexact Hrel10
        iexact HrR10
      · isplitr; · iexact Hrel11_2
        iexact HrR11_1
    iexact HrKU1u1
  iintro HO
  sl_exec_parts
  -- the right neighbour's copy 1 has landed in slot 0
  ihave #HIr10 := (knows_cell m Kn ιs (c, (6 : Fin 11))) $$ Hk
  iapply (wp_recvwait m c 1 0 0 (by decide) 1 (Ncr_slot 1 0) (κ := Kn (c, 6))) $$ [HcR11 HO HaR10]
  · isplitr; · iexact HIr10
    isplitl [HcR11]; · iexact HcR11
    isplitl [HO]; · iexact HO
    isplitr
    · iapply (mayWait_kind (F := F) c (.dma (recvS 1 0)) 1 10 (by rw [kindOf_recv]; decide) (by rw [kindOf_recv]; decide)); iexact Hlev
    iexact HaR10
  iintro ⟨HO, HaR10, #HrR10_1, Hs10⟩
  sl_exec_parts
  -- the right neighbour's credit 1 for the right-going ring
  iapply (wp_capwait m c 0 1 S00 (κ := Kn (c, 8))) $$ [HcK01 HO HaK0]
  · isplitr; · iexact HIk0
    isplitl [HcK01]; · iexact HcK01
    isplitl [HO]; · iexact HO
    isplitr
    · iapply (mayWait_kind (F := F) c (.reg (capS 0)) 1 10 (by rw [kindOf_cap]; decide) (by rw [kindOf_cap]; decide)); iexact Hlev
    isplitl [HaK0]; · iexact HaK0
    iexact Hhv00
  iintro %S01 ⟨HO, HaK0, #Hhv01, #Hg01⟩
  unfold grantFact
  icases Hg01 with ⟨#HrelD01, #HrD01⟩
  sl_exec_parts
  -- hop 2 of the right-going ring: slot 0 to the right neighbour's slot 1
  have e02 : sentV m 0 (2 * 0 + (1 - ((0 : Fin 2) : ℕ))) (upR 0 c) = sentV m 0 (2 * 1 + ((0 : Fin 2) : ℕ)) c := (sentV_succ m 0 1 c).symm
  ihave Hs00 := (Entails.of_eq (congrArg (slotAt (F := F) c 0 0) e02)) $$ Hs00
  ihave Hh := (slot_halve (F := F) c 0 0 _) $$ Hs00
  icases Hh with ⟨Hl00, Hr00⟩
  unfold slotLent
  icases Hl00 with ⟨%fs02, %hfs02, Hl00⟩
  icases Hr00 with ⟨%fr02, %hfr02, Hr00⟩
  ihave #HIs00_2 := (knows_cell m Kn ιs (c, (0 : Fin 11))) $$ Hk
  ihave #HIrD01_2 := (knows_cell m Kn ιs (rgt c, (3 : Fin 11))) $$ Hk
  ihave #HIslD01_2 := (knows_slot m Kn ιs ((rgt c, (0 : Fin 2), (1 : Fin 2)) : KS)) $$ Hk
  iapply (wp_hop m c 0 0 1 rfl 1 (by decide) (by decide) 2 _ (dev11_eq c _) fs02 hfs02 (owedFrom c 11) rfl (ιs ((rgt c, (0 : Fin 2), (1 : Fin 2)) : KS)) 2) $$ [Hl00 Hw012 HO HtS001 HtR011]
  · isplitr; · iexact HIs00_2
    isplitr; · iexact HIrD01_2
    isplitl [Hl00]; · iexact Hl00
    isplitr; · iexact HIslD01_2
    isplitr; · iexact HrelD01
    isplitl [Hw012]; · iexact Hw012
    isplitl [HO]; · iexact HO
    isplitl [HtS001]; · iexact HtS001
    isplitr; · iexact HrS00_1x
    isplitl [HtR011]; · iexact HtR011
    iexact HrD01
  iintro ⟨HcS00, HO⟩
  sl_exec_parts
  -- the left neighbour's credit 1 for the left-going ring
  iapply (wp_capwait_last m c 1 1 (by decide) S10 (κ := Kn (c, 9))) $$ [HcK11 HO HaK1]
  · isplitr; · iexact HIk1
    isplitl [HcK11]; · iexact HcK11
    isplitl [HO]; · iexact HO
    isplitr
    · iapply (mayWait_kind (F := F) c (.reg (capS 1)) 1 11 (by rw [kindOf_cap]; decide) (by rw [kindOf_cap]; decide)); iexact Hlev
    isplitl [HaK1]; · iexact HaK1
    iexact Hhv10
  iintro ⟨HO, HaK1, #HrK1_1, #Hg11⟩
  unfold grantFact
  icases Hg11 with ⟨#HrelD11, #HrD11⟩
  sl_exec_parts
  -- hop 2 of the left-going ring: slot 0 to the left neighbour's slot 1
  have e12 : sentV m 1 (2 * 0 + (1 - ((0 : Fin 2) : ℕ))) (upR 1 c) = sentV m 1 (2 * 1 + ((0 : Fin 2) : ℕ)) c := (sentV_succ m 1 1 c).symm
  ihave Hs10 := (Entails.of_eq (congrArg (slotAt (F := F) c 1 0) e12)) $$ Hs10
  ihave Hh := (slot_halve (F := F) c 1 0 _) $$ Hs10
  icases Hh with ⟨Hl10, Hr10⟩
  unfold slotLent
  icases Hl10 with ⟨%fs12, %hfs12, Hl10⟩
  icases Hr10 with ⟨%fr12, %hfr12, Hr10⟩
  ihave #HIs10_2 := (knows_cell m Kn ιs (c, (4 : Fin 11))) $$ Hk
  ihave #HIrD11_2 := (knows_cell m Kn ιs (lft c, (7 : Fin 11))) $$ Hk
  ihave #HIslD11_2 := (knows_slot m Kn ιs ((lft c, (1 : Fin 2), (1 : Fin 2)) : KS)) $$ Hk
  iapply (wp_hop m c 1 0 1 rfl 1 (by decide) (by decide) 2 _ (dev12_eq c _) fs12 hfs12 (owedFrom c 12) rfl (ιs ((lft c, (1 : Fin 2), (1 : Fin 2)) : KS)) 2) $$ [Hl10 Hw112 HO HtS101 HtR111]
  · isplitr; · iexact HIs10_2
    isplitr; · iexact HIrD11_2
    isplitl [Hl10]; · iexact Hl10
    isplitr; · iexact HIslD11_2
    isplitr; · iexact HrelD11
    isplitl [Hw112]; · iexact Hw112
    isplitl [HO]; · iexact HO
    isplitl [HtS101]; · iexact HtS101
    isplitr; · iexact HrS10_1x
    isplitl [HtR111]; · iexact HtR111
    iexact HrD11
  iintro ⟨HcS10, HO⟩
  -- the two blocks received on step 1 are accumulated
  sl_exec_parts
  -- the accumulators after visits 3 and 4, named
  have hjoin3 : (slotM 0 0).view.read (Elt F) fr02 = joinKV (kvAt m c 3).1 (kvAt m c 3).2 := hfr02
  have hjoin4 : (slotM 1 0).view.read (Elt F) fr12 = joinKV (kvAt m c 4).1 (kvAt m c 4).2 := hfr12
  have hk3 : sound_body.sl.r_16 fr02 = (kvAt m c 3).1 := by
    unfold sound_body.sl.r_16
    exact (congrArg k0_pay58 (half_read_key 0 0 fr02 _ _ hjoin3)).trans (down_up _ _)
  have hv3 : sound_body.sl.r_17 fr02 = (kvAt m c 3).2 := by
    unfold sound_body.sl.r_17
    exact (congrArg k0_pay59 (half_read_val 0 0 fr02 _ _ hjoin3)).trans (down_up _ _)
  have hk4 : sound_body.sl.r_20 fr12 = (kvAt m c 4).1 := by
    unfold sound_body.sl.r_20
    exact (congrArg k0_pay74 (half_read_key 1 0 fr12 _ _ hjoin4)).trans (down_up _ _)
  have hv4 : sound_body.sl.r_21 fr12 = (kvAt m c 4).2 := by
    unfold sound_body.sl.r_21
    exact (congrArg k0_pay75 (half_read_val 1 0 fr12 _ _ hjoin4)).trans (down_up _ _)
  have hacc5 : accAt m c 5 = Cert.KernelIdeal.AttnKer.accumulate (qAt m c) (kvAt m c 4).1 (kvAt m c 4).2
      (Cert.KernelIdeal.AttnKer.accumulate (qAt m c) (kvAt m c 3).1 (kvAt m c 3).2 ((accAt m c 3).1, (accAt m c 3).2)) :=
    (accAt_succ m c 4).trans (congrArg (Cert.KernelIdeal.AttnKer.accumulate (qAt m c) (kvAt m c 4).1 (kvAt m c 4).2) (accAt_succ m c 3))
  have hL5 : (Memref.whole cc0_scratch3).view.writes (Elt F) (accAt m c 3).1 (sound_body.sl.Hs3_8_1 m c f0 fr02 fr12) = (accAt m c 5).1 := by
    rw [hacc5]
    unfold sound_body.sl.Hs3_8_1 sound_body.sl.Hs3_7_1 sound_body.sl.Hs3_6_1 sound_body.sl.Hs3_5_2 sound_body.sl.Hs3_4_2 sound_body.sl.Hs3_3_2 sound_body.sl.Hs3_1_1
    refine Cert.KernelIdeal.AttnKer.writes_acc2_fst (qAt m c) (kvAt m c 3).1 (kvAt m c 3).2 (kvAt m c 4).1 (kvAt m c 4).2
      (accAt m c 3).1 (accAt m c 3).2 _ _ _ _ _ _ _ _ ?_ ?_ ?_ ?_ ?_ ?_ ?_ ?_
    all_goals (first | (rw [← hq, ← hk3]; rfl) | (rw [← hq, ← hk4]; rfl))
  have hA5 : (Memref.whole cc0_scratch2).view.writes (Elt F) (accAt m c 3).2 (⟨Rect.unit (s := S2048x256) ![1536, 0] S512x256.size inb_S2048x256_S512x256_1536_0, @sound_body.sl.v565 F _ m c f0 fr02 fr12⟩ :: sound_body.sl.Hs2_7_1 m c f0 fr02 fr12) = (accAt m c 5).2 := by
    rw [hacc5]
    unfold sound_body.sl.v565 sound_body.sl.Hs2_7_1 sound_body.sl.Hs2_6_1 sound_body.sl.Hs2_5_2 sound_body.sl.Hs2_4_2 sound_body.sl.Hs2_2_1
    refine Cert.KernelIdeal.AttnKer.writes_acc2_snd (qAt m c) (kvAt m c 3).1 (kvAt m c 3).2 (kvAt m c 4).1 (kvAt m c 4).2
      (accAt m c 3).1 (accAt m c 3).2 _ _ _ _ _ _ _ _ ?_ ?_ ?_ ?_ ?_ ?_ ?_ ?_
    all_goals (first | (rw [← hq, ← hk3, ← hv3]; rfl) | (rw [← hq, ← hk4, ← hv4]; rfl))
  ihave Hs3 := (Entails.of_eq (congrArg (fun X => (View.loc (c : Thread nD τ) (Memref.whole cc0_scratch3).view ↦{fullShare} X : sProp 𝕄)) hL5)) $$ Hs3
  ihave Hs2 := (Entails.of_eq (congrArg (fun X => (View.loc (c : Thread nD τ) (Memref.whole cc0_scratch2).view ↦{fullShare} X : sProp 𝕄)) hA5)) $$ Hs2
  -- the right-going copy 2 has been read out: the lent half comes back
  iapply (wp_sendwait m c 0 0 1 (by decide) 2 (Ncr_slot 0 0) (κ := Kn (c, 0))) $$ [HcS00 HO HaS00]
  · isplitr; · iexact HIs00_2
    isplitl [HcS00]; · iexact HcS00
    isplitl [HO]; · iexact HO
    isplitr
    · iapply (mayWait_kind (F := F) c (.dma (sendS 0 0)) 2 12 (by rw [kindOf_send]; decide) (by rw [kindOf_send]; decide)); iexact Hlev
    iexact HaS00
  iintro ⟨HO, HaS00, #HrS00_2x, Hl00⟩
  ihave Hs00 := (slot_rejoin' (F := F) c 0 0 _) $$ [Hl00 Hr00]
  · isplitl [Hl00]; · iexact Hl00
    iexists fr02; iexact Hr00
  ihave #HIown00_2 := (knows_slot m Kn ιs ((c, (0 : Fin 2), (0 : Fin 2)) : KS)) $$ Hk
  imod (release_after (F := F) c 0 0 _ (ιs ((c, (0 : Fin 2), (0 : Fin 2)) : KS)) 1) $$ [Hrd00 Hs00] with ⟨Hrd00, #Hrel00_2⟩
  · isplitr; · iexact HIown00_2
    isplitl [Hrd00]; · iexact Hrd00
    iexact Hs00
  sl_exec_parts
  rw [dev13_eq]
  -- credit 2 to the left neighbour: slot 0 of the right-going ring is free
  ihave #HIkU0u2 := (knows_cell m Kn ιs (lft c, (8 : Fin 11))) $$ Hk
  ihave #HrKU0u2 := (knows_reached m Kn ιs (lft c, (8 : Fin 11))) $$ Hk
  iapply (wp_grant m c 0 2 (by decide) (by decide : 1 = (1#32).toNat) (owedFrom c 13) rfl (κ := Kn (lft c, 8))) $$ [HO HtK02]
  · isplitr; · iexact HIkU0u2
    isplitl [HO]; · iexact HO
    isplitl [HtK02]; · iexact HtK02
    isplitr
    · unfold grantsUpTo; unfold grantsUpTo; unfold grantsUpTo grantFact
      isplitr
      · isplitr
        · isplitr; · iexact Hrel00
          iexact HrR00
        · isplitr; · iexact Hrel01_2
          iexact HrR01_1
      · isplitr; · iexact Hrel00_2
        iexact HrR00_1
    iexact HrKU0u2
  iintro HO
  sl_exec_parts
  -- the left neighbour's copy 2 has landed in slot 1
  iapply (wp_recvwait m c 0 1 1 (by decide) 2 (Ncr_slot 0 1) (κ := Kn (c, 3))) $$ [HcR02 HO HaR01]
  · isplitr; · iexact HIr01
    isplitl [HcR02]; · iexact HcR02
    isplitl [HO]; · iexact HO
    isplitr
    · iapply (mayWait_kind (F := F) c (.dma (recvS 0 1)) 2 13 (by rw [kindOf_recv]; decide) (by rw [kindOf_recv]; decide)); iexact Hlev
    iexact HaR01
  iintro ⟨HO, HaR01, #HrR01_2, Hs01⟩
  sl_exec_parts
  -- the left-going copy 2 has been read out: the lent half comes back
  iapply (wp_sendwait m c 1 0 1 (by decide) 2 (Ncr_slot 1 0) (κ := Kn (c, 4))) $$ [HcS10 HO HaS10]
  · isplitr; · iexact HIs10_2
    isplitl [HcS10]; · iexact HcS10
    isplitl [HO]; · iexact HO
    isplitr
    · iapply (mayWait_kind (F := F) c (.dma (sendS 1 0)) 2 13 (by rw [kindOf_send]; decide) (by rw [kindOf_send]; decide)); iexact Hlev
    iexact HaS10
  iintro ⟨HO, HaS10, #HrS10_2x, Hl10⟩
  ihave Hs10 := (slot_rejoin' (F := F) c 1 0 _) $$ [Hl10 Hr10]
  · isplitl [Hl10]; · iexact Hl10
    iexists fr12; iexact Hr10
  sl_exec_parts
  -- the right neighbour's copy 2 has landed in slot 1
  iapply (wp_recvwait m c 1 1 1 (by decide) 2 (Ncr_slot 1 1) (κ := Kn (c, 7))) $$ [HcR12 HO HaR11]
  · isplitr; · iexact HIr11
    isplitl [HcR12]; · iexact HcR12
    isplitl [HO]; · iexact HO
    isplitr
    · iapply (mayWait_kind (F := F) c (.dma (recvS 1 1)) 2 13 (by rw [kindOf_recv]; decide) (by rw [kindOf_recv]; decide)); iexact Hlev
    iexact HaR11
  iintro ⟨HO, HaR11, #HrR11_2, Hs11⟩
  sl_exec_parts
  -- the right neighbour's credit 2 for the right-going ring
  iapply (wp_capwait_last m c 0 2 (by decide) S01 (κ := Kn (c, 8))) $$ [HcK02 HO HaK0]
  · isplitr; · iexact HIk0
    isplitl [HcK02]; · iexact HcK02
    isplitl [HO]; · iexact HO
    isplitr
    · iapply (mayWait_kind (F := F) c (.reg (capS 0)) 2 13 (by rw [kindOf_cap]; decide) (by rw [kindOf_cap]; decide)); iexact Hlev
    isplitl [HaK0]; · iexact HaK0
    iexact Hhv01
  iintro ⟨HO, HaK0, #HrK0_1, #Hg02⟩
  unfold grantFact
  icases Hg02 with ⟨#HrelD02, #HrD02⟩
  sl_exec_parts
  -- hop 3 of the right-going ring: slot 1 to the right neighbour's slot 0
  have e03 : sentV m 0 (2 * 1 + (1 - ((1 : Fin 2) : ℕ))) (upR 0 c) = sentV m 0 (2 * 1 + ((1 : Fin 2) : ℕ)) c := (sentV_succ m 0 2 c).symm
  ihave Hs01 := (Entails.of_eq (congrArg (slotAt (F := F) c 0 1) e03)) $$ Hs01
  ihave Hh := (slot_halve (F := F) c 0 1 _) $$ Hs01
  icases Hh with ⟨Hl01, Hr01⟩
  unfold slotLent
  icases Hl01 with ⟨%fs03, %hfs03, Hl01⟩
  icases Hr01 with ⟨%fr03, %hfr03, Hr01⟩
  ihave #HIs01_3 := (knows_cell m Kn ιs (c, (1 : Fin 11))) $$ Hk
  ihave #HIrD00_3 := (knows_cell m Kn ιs (rgt c, (2 : Fin 11))) $$ Hk
  ihave #HIslD00_3 := (knows_slot m Kn ιs ((rgt c, (0 : Fin 2), (0 : Fin 2)) : KS)) $$ Hk
  iapply (wp_hop m c 0 1 0 rfl 1 (by decide) (by decide) 3 _ (dev14_eq c _) fs03 hfs03 (owedFrom c 14) rfl (ιs ((rgt c, (0 : Fin 2), (0 : Fin 2)) : KS)) 2) $$ [Hl01 Hw002 HO HtS011 HtR001]
  · isplitr; · iexact HIs01_3
    isplitr; · iexact HIrD00_3
    isplitl [Hl01]; · iexact Hl01
    isplitr; · iexact HIslD00_3
    isplitr; · iexact HrelD02
    isplitl [Hw002]; · iexact Hw002
    isplitl [HO]; · iexact HO
    isplitl [HtS011]; · iexact HtS011
    isplitr; · iexact HrS01_1x
    isplitl [HtR001]; · iexact HtR001
    iexact HrD02
  iintro ⟨HcS01, HO⟩
  -- nothing is owed from here on; the credits of the last two waits are set aside so that each wait is taken in its turn
  ihave HcS01 := (Entails.of_eq (aside_eq (F := F) _).symm) $$ HcS01
  ihave HcR03 := (Entails.of_eq (aside_eq (F := F) _).symm) $$ HcR03
  -- the two blocks received on step 2 are accumulated (the left-going ring's is read where it landed)
  unfold slotAt
  icases Hs11 with ⟨%gL3, %hgL3, Hs11⟩
  sl_exec_parts
  -- the accumulators after visits 5 and 6, named
  have hjoin5 : (slotM 0 1).view.read (Elt F) fr03 = joinKV (kvAt m c 5).1 (kvAt m c 5).2 := hfr03
  have hjoin6 : (slotM 1 1).view.read (Elt F) gL3 = joinKV (kvAt m c 6).1 (kvAt m c 6).2 := (hgL3.trans (sentV_succ m 1 2 c).symm)
  have hk5 : sound_body.sl.r_26 fr03 = (kvAt m c 5).1 := by
    unfold sound_body.sl.r_26 sound_body.sl.r_25
    exact (congrArg k0_pay90 (half_read_key 0 1 fr03 _ _ hjoin5)).trans (down_up _ _)
  have hv5 : sound_body.sl.r_27 fr03 = (kvAt m c 5).2 := by
    unfold sound_body.sl.r_27
    exact (congrArg k0_pay91 (half_read_val 0 1 fr03 _ _ hjoin5)).trans (down_up _ _)
  have hk6 : sound_body.sl.r_31 gL3 = (kvAt m c 6).1 := by
    unfold sound_body.sl.r_31
    exact (congrArg k0_pay105 (half_read_key 1 1 gL3 _ _ hjoin6)).trans (down_up _ _)
  have hv6 : sound_body.sl.r_32 gL3 = (kvAt m c 6).2 := by
    unfold sound_body.sl.r_32
    exact (congrArg k0_pay106 (half_read_val 1 1 gL3 _ _ hjoin6)).trans (down_up _ _)
  have hacc7 : accAt m c 7 = Cert.KernelIdeal.AttnKer.accumulate (qAt m c) (kvAt m c 6).1 (kvAt m c 6).2
      (Cert.KernelIdeal.AttnKer.accumulate (qAt m c) (kvAt m c 5).1 (kvAt m c 5).2 ((accAt m c 5).1, (accAt m c 5).2)) :=
    (accAt_succ m c 6).trans (congrArg (Cert.KernelIdeal.AttnKer.accumulate (qAt m c) (kvAt m c 6).1 (kvAt m c 6).2) (accAt_succ m c 5))
  have hL7 : (Memref.whole cc0_scratch3).view.writes (Elt F) (accAt m c 5).1 (sound_body.sl.Hs3_8_2 m c f0 fr03 gL3) = (accAt m c 7).1 := by
    rw [hacc7]
    unfold sound_body.sl.Hs3_8_2 sound_body.sl.Hs3_7_2 sound_body.sl.Hs3_6_2 sound_body.sl.Hs3_5_3 sound_body.sl.Hs3_4_3 sound_body.sl.Hs3_3_3 sound_body.sl.Hs3_2_1
    try unfold sound_body.sl.Hs3_1_2
    refine Cert.KernelIdeal.AttnKer.writes_acc2_fst (qAt m c) (kvAt m c 5).1 (kvAt m c 5).2 (kvAt m c 6).1 (kvAt m c 6).2
      (accAt m c 5).1 (accAt m c 5).2 _ _ _ _ _ _ _ _ ?_ ?_ ?_ ?_ ?_ ?_ ?_ ?_
    all_goals (first | (rw [← hq, ← hk5]; rfl) | (rw [← hq, ← hk6]; rfl))
  have hA7 : (Memref.whole cc0_scratch2).view.writes (Elt F) (accAt m c 5).2 (sound_body.sl.Hs2_8_1 m c f0 fr03 gL3) = (accAt m c 7).2 := by
    rw [hacc7]
    unfold sound_body.sl.Hs2_8_1 sound_body.sl.Hs2_7_2 sound_body.sl.Hs2_6_2 sound_body.sl.Hs2_5_3 sound_body.sl.Hs2_4_3 sound_body.sl.Hs2_3_2 sound_body.sl.Hs2_1_1
    refine Cert.KernelIdeal.AttnKer.writes_acc2_snd (qAt m c) (kvAt m c 5).1 (kvAt m c 5).2 (kvAt m c 6).1 (kvAt m c 6).2
      (accAt m c 5).1 (accAt m c 5).2 _ _ _ _ _ _ _ _ ?_ ?_ ?_ ?_ ?_ ?_ ?_ ?_
    all_goals (first | (rw [← hq, ← hk5, ← hv5]; rfl) | (rw [← hq, ← hk6, ← hv6]; rfl))
  ihave Hs3 := (Entails.of_eq (congrArg (fun X => (View.loc (c : Thread nD τ) (Memref.whole cc0_scratch3).view ↦{fullShare} X : sProp 𝕄)) hL7)) $$ Hs3
  ihave Hs2 := (Entails.of_eq (congrArg (fun X => (View.loc (c : Thread nD τ) (Memref.whole cc0_scratch2).view ↦{fullShare} X : sProp 𝕄)) hA7)) $$ Hs2
  ihave HcS01 := (Entails.of_eq (aside_eq (F := F) _)) $$ HcS01
  -- the right-going copy 3 has been read out: the lent half comes back
  iapply (wp_sendwait m c 0 1 1 (by decide) 3 (Ncr_slot 0 1) (κ := Kn (c, 1))) $$ [HcS01 HO HaS01]
  · isplitr; · iexact HIs01_3
    isplitl [HcS01]; · iexact HcS01
    isplitl [HO]; · iexact HO
    isplitr
    · iapply (mayWait_kind (F := F) c (.dma (sendS 0 1)) 3 14 (by rw [kindOf_send]; decide) (by rw [kindOf_send]; decide)); iexact Hlev
    iexact HaS01
  iintro ⟨HO, HaS01, #HrS01_2x, Hl01⟩
  ihave Hs01 := (slot_rejoin' (F := F) c 0 1 _) $$ [Hl01 Hr01]
  · isplitl [Hl01]; · iexact Hl01
    iexists fr03; iexact Hr01
  sl_exec_parts
  ihave HcR03 := (Entails.of_eq (aside_eq (F := F) _)) $$ HcR03
  -- the left neighbour's copy 3 has landed in slot 0
  iapply (wp_recvwait m c 0 0 1 (by decide) 3 (Ncr_slot 0 0) (κ := Kn (c, 2))) $$ [HcR03 HO HaR00]
  · isplitr; · iexact HIr00
    isplitl [HcR03]; · iexact HcR03
    isplitl [HO]; · iexact HO
    isplitr
    · iapply (mayWait_kind (F := F) c (.dma (recvS 0 0)) 3 14 (by rw [kindOf_recv]; decide) (by rw [kindOf_recv]; decide)); iexact Hlev
    iexact HaR00
  iintro ⟨HO, HaR00, #HrR00_2, Hs00⟩
  -- step 4: the last block is accumulated where it landed, and the quotient stored
  unfold slotAt
  icases Hs00 with ⟨%gR4, %hgR4, Hs00⟩
  sl_exec_parts
  -- the accumulators after the last visit, and the result block
  have hjoin7 : (slotM 0 0).view.read (Elt F) gR4 = joinKV (kvAt m c 7).1 (kvAt m c 7).2 := hgR4.trans (sentV_succ m 0 3 c).symm
  have hk7 : sound_body.sl.r_35 gR4 = (kvAt m c 7).1 := by
    unfold sound_body.sl.r_35
    exact (congrArg k0_pay121 (half_read_key 0 0 gR4 _ _ hjoin7)).trans (down_up _ _)
  have hv7 : sound_body.sl.r_36 gR4 = (kvAt m c 7).2 := by
    unfold sound_body.sl.r_36
    exact (congrArg k0_pay122 (half_read_val 0 0 gR4 _ _ hjoin7)).trans (down_up _ _)
  have hacc8 : accAt m c 8 = Cert.KernelIdeal.AttnKer.accumulate (qAt m c) (kvAt m c 7).1 (kvAt m c 7).2 ((accAt m c 7).1, (accAt m c 7).2) := accAt_succ m c 7
  have hL8 : (Memref.whole cc0_scratch3).view.writes (Elt F) (accAt m c 7).1 (sound_body.sl.Hs3_4_4 m c f0 gR4) = (accAt m c 8).1 := by
    rw [hacc8]
    unfold sound_body.sl.Hs3_4_4 sound_body.sl.Hs3_1_2
    refine Cert.KernelIdeal.AttnKer.writes_accumulate_fst (qAt m c) (kvAt m c 7).1 (kvAt m c 7).2 (accAt m c 7).1 (accAt m c 7).2 _ _ _ _ ?_ ?_ ?_ ?_
    all_goals (rw [← hq, ← hk7]; rfl)
  have hA8 : (Memref.whole cc0_scratch2).view.writes (Elt F) (accAt m c 7).2 (sound_body.sl.Hs2_4_4 m c f0 gR4) = (accAt m c 8).2 := by
    rw [hacc8]
    unfold sound_body.sl.Hs2_4_4
    refine Cert.KernelIdeal.AttnKer.writes_accumulate_snd (qAt m c) (kvAt m c 7).1 (kvAt m c 7).2 (accAt m c 7).1 (accAt m c 7).2 _ _ _ _ ?_ ?_ ?_ ?_
    all_goals (rw [← hq, ← hk7, ← hv7]; rfl)
  -- the result block: the whole store of the quotient of the two accumulators, both read whole off the last visit's stores
  have h860 : sound_body.sl.v860 m c f0 gR4
      = (Memref.whole cc0_scratch2).view.readAt (Elt F) (Rect.unit (s := S2048x256) ![0, 0] S2048x256.size inb_S2048x256_S2048x256_0_0).toLoadRect
          ((Memref.whole cc0_scratch2).view.writes (Elt F) (accAt m c 7).2 (sound_body.sl.Hs2_4_4 m c f0 gR4)) := by
    unfold sound_body.sl.v860 sound_body.sl.Hs2_4_4
    exact Cert.KernelIdeal.AttnKer.readCov_whole_rowsA (accAt m c 7).2 _ _ _ _
  have h861 : sound_body.sl.v861 m c f0 gR4
      = (Memref.whole cc0_scratch3).view.readAt (Elt F) (Rect.unit (s := S2048x1) ![0, 0] S2048x1.size inb_S2048x1_S2048x1_0_0).toLoadRect
          ((Memref.whole cc0_scratch3).view.writes (Elt F) (accAt m c 7).1 (sound_body.sl.Hs3_4_4 m c f0 gR4)) := by
    unfold sound_body.sl.v861 sound_body.sl.Hs3_4_4 sound_body.sl.Hs3_1_2
    exact Cert.KernelIdeal.AttnKer.readCov_whole_rowsL (accAt m c 7).1 _ _ _ _
  rw [hA8] at h860
  rw [hL8] at h861
  have hout : (Memref.whole cc0_stg3_0).view.writes (Elt F) f3
      [⟨Rect.unit (s := S2048x256) ![0, 0] S2048x256.size inb_S2048x256_S2048x256_0_0, k0_pay2 (sound_body.sl.v860 m c f0 gR4) (sound_body.sl.v861 m c f0 gR4)⟩]
      = outBlock m c := by
    rw [Cert.KernelIdeal.AttnKer.stg3_whole_store, h860, h861]
    exact result_block m c
  -- the body's last instruction is done: everything is handed back
  rw [wp_ret]
  imodintro
  icases Hs01 with ⟨%g01e, %hg01e, Hs01⟩
  icases Hs10 with ⟨%g10e, %hg10e, Hs10⟩
  iapply (body_end m ρ c _ d0 d1 d2 f0 f1 f2 _ hf0 hf1 hf2 hout (κ0 := Kn (c, 0)) (κ1 := Kn (c, 1)) (κ2 := Kn (c, 2)) (κ3 := Kn (c, 3)) (κ4 := Kn (c, 4)) (κ5 := Kn (c, 5)) (κ6 := Kn (c, 6)) (κ7 := Kn (c, 7)) (κ8 := Kn (c, 8)) (κ9 := Kn (c, 9)))
  isplitl [HaS00]
  · isplitr; · iexact HIs00
    iexact HaS00
  isplitl [HaS01]
  · isplitr; · iexact HIs01_1
    iexact HaS01
  isplitl [HaR00]
  · isplitr; · iexact HIr00
    iexact HaR00
  isplitl [HaR01]
  · isplitr; · iexact HIr01
    iexact HaR01
  isplitl [HaS10]
  · isplitr; · iexact HIs10
    iexact HaS10
  isplitl [HaS11]
  · isplitr; · iexact HIs11_1
    iexact HaS11
  isplitl [HaR10]
  · isplitr; · iexact HIr10
    iexact HaR10
  isplitl [HaR11]
  · isplitr; · iexact HIr11
    iexact HaR11
  isplitl [HaK0]
  · isplitr; · iexact HIk0
    iexact HaK0
  isplitl [HaK1]
  · isplitr; · iexact HIk1
    iexact HaK1
  isplitl [Hs00]; · iexists gR4; iexact Hs00
  isplitl [Hs01]; · iexists g01e; iexact Hs01
  isplitl [Hs10]; · iexists g10e; iexact Hs10
  isplitl [Hs11]; · iexists gL3; iexact Hs11
  isplitl [Hs2]; · iexists _; iexact Hs2
  isplitl [Hs3]; · iexists _; iexact Hs3
  isplitl [HO]; · iexact HO
  isplitl [H0]; · iexact H0
  isplitl [H1]; · iexact H1
  isplitl [H2]; · iexact H2
  iexact H3

end Cert.KernelIdeal.RingProof
end
-- ==== Proof.RingClose.lean ====
/-
  Closing the ring's cells.  When a device's body has consumed every round of one of its own cells, the cell's
  counter is zero and nothing can land on it again: the owner takes the counter back out of the invariant.  Done for
  the ten own cells of a device under one update, this is what the region hands back at its exit.  An update in the
  post of a run can be absorbed, so the closing follows the body's last instruction.
-/
import proofs.«900462_g7700000000000463_dist_ring_attn_i_s2048_d256_v7x_i8_f32_1_alg».proof.Proof.RingLaunch
import proofs.«900462_g7700000000000463_dist_ring_attn_i_s2048_d256_v7x_i8_f32_1_alg».proof.Proof.RingTables

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The round from which own cell k has no duty: a send or receive cell its number of rounds, a credit cell 1. -/
def lastR : Fin 10 → ℕ := fun
  | 0 => nSend 0 0 | 1 => nSend 0 1 | 2 => nRecv 0 0 | 3 => nRecv 0 1
  | 4 => nSend 1 0 | 5 => nSend 1 1 | 6 => nRecv 1 0 | 7 => nRecv 1 1
  | 8 => 1 | 9 => 1
  | ⟨_ + 10, h⟩ => absurd h (Nat.not_lt.2 (Nat.le_add_left _ _))

/-- Own cell k of device c. -/
abbrev ownCell (c : Dev nD) (k : Fin 10) : GSem nD τ sig := ((c : Thread nD τ), osem k)

theorem duties_own_later (m : Mem F) (c : Dev nD) (k : Fin 10) :
    ∀ r, lastR k ≤ r → (ringRd (F := F) m).duties (ownCell c k) r = ∅ := by
  fin_cases k
  · exact duties_send_later m c 0 0
  · exact duties_send_later m c 0 1
  · exact duties_recv_later m c 0 0
  · exact duties_recv_later m c 0 1
  · exact duties_send_later m c 1 0
  · exact duties_send_later m c 1 1
  · exact duties_recv_later m c 1 0
  · exact duties_recv_later m c 1 1
  · exact duties_cap_later m c 0
  · exact duties_cap_later m c 1

/-- One own cell closed: its invariant (at any name) and its owner's position at the start of the round from which
    it has no duty give back its counter at zero. -/
theorem close_one (m : Mem F) (c : Dev nD) (k : Fin 10) :
    iprop(∃ κ : ℕ, cellInv ER (ringRd m) κ (ownCell c k) ∗ atPos ER (ownCell c k) (lastR k) ∅ 0)
      ⊢ (|={Set.univ}=> semVal (ownCell c k) 0 : sProp 𝕄) := by
  iintro ⟨%κ, H⟩
  iapply (Rounds.cell_close ER (ringRd m) (Set.mem_univ κ) (fun h => h) (duties_own_later m c k))
  iexact H

/-- The ten own cells of a device closed under one update: what the region hands back. -/
theorem close_own (m : Mem F) (c : Dev nD) :
    (bigSep Finset.univ fun k : Fin 10 => iprop(∃ κ : ℕ, cellInv ER (ringRd m) κ (ownCell c k) ∗ atPos ER (ownCell c k) (lastR k) ∅ 0) : sProp 𝕄)
      ⊢ |={Set.univ}=> Pipeline.ownSems0 (Ix := ℕ) (Name := ℕ) (U := UU) (Lvl := ℕ) (Val := Elt F) (τ := τ) osem c :=
  (bigSep_mono fun k _ => close_one m c k).trans (bigSep_fupd _ _)

/-- A run to a state from which one update reaches the post is a run to the post. -/
theorem hbody_of_open (dats : Fin 1 → (c : Dev nD) → Dat τ (Elt F) ℕ ℕ UU ℕ cfg0 c) (c : Dev nD) (Ψ : sProp 𝕄)
    (hrun : bodyPre dats c ⊢ wp frame (wpE (defs₀ (F := F)) 𝒱₀ c none) Set.univ (bodyAt0 t0_0) (fun _ => Ψ))
    (hclose : Ψ ⊢ |={Set.univ}=> bodyPost dats c) :
    bodyPre dats c ⊢ wp frame (wpE (defs₀ (F := F)) 𝒱₀ c none) Set.univ (bodyAt0 t0_0) (fun _ => bodyPost dats c) :=
  hrun.trans ((wp_mono _ _ _ fun _ => hclose).trans (wp_fupd _ _ _ _ _))

/-- info: 'Cert.KernelIdeal.RingProof.close_own' depends on axioms: [propext, Classical.choice, Quot.sound] -/
#guard_msgs in #print axioms close_own

end Cert.KernelIdeal.RingProof

end
-- ==== Proof.RingClosing.lean ====
/-
  From the state in which the body's last instruction leaves a device to the post of its body obligation: the ten own
  cells, each past its last round, close back to their counters at zero under one update; everything else is already
  as the post states it.
-/
import proofs.«900462_g7700000000000463_dist_ring_attn_i_s2048_d256_v7x_i8_f32_1_alg».proof.Proof.RingState
import proofs.«900462_g7700000000000463_dist_ring_attn_i_s2048_d256_v7x_i8_f32_1_alg».proof.Proof.RingClose

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

omit [FloatOps F] in
theorem lastRound_eq : lastRound = lastR := by
  funext k; fin_cases k <;> rfl

/-- Closing: what the body's run ends in reaches, by one update, the post of the body obligation. -/
theorem hclose (m : Mem F) (ρ : Dev nD → PrngReg) (c : Dev nD) :
    closing m ρ c ⊢ |={Set.univ}=> bodyPost (dats m ρ) c := by
  have hΦ : (dats m ρ 0 c).Φ t0_0.succ = leaving (F := F) c := rfl
  unfold closing cellsDone bodyPost
  rw [hΦ, lastRound_eq]
  iintro ⟨Hc, Hs, Ho, H0, H1, H2, H3⟩
  imod (close_own m c) $$ Hc with Hz
  imodintro
  unfold leaving
  isplitl [Hz Hs]
  · isplitl [Hz] <;> iassumption
  isplitl [Ho]; · iexact Ho
  isplitl [H0]; · iexact H0
  isplitl [H1]; · iexact H1
  isplitl [H2] <;> iassumption

/-- info: 'Cert.KernelIdeal.RingProof.hclose' depends on axioms: [propext, Classical.choice, Quot.sound] -/
#guard_msgs in #print axioms hclose

end Cert.KernelIdeal.RingProof

end
-- ==== Proof.RingHWaits.lean ====
/-
  The pipeline's own waits (the four staging cells, at step 0) stand below everything a device owes: a staging cell
  is of no ring kind, its level the lowest.
-/
import proofs.«900462_g7700000000000463_dist_ring_attn_i_s2048_d256_v7x_i8_f32_1_alg».proof.Proof.RingState
import proofs.«900462_g7700000000000463_dist_ring_attn_i_s2048_d256_v7x_i8_f32_1_alg».proof.Proof.RingWaits

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : Mem F)

theorem staging_kind : ∀ (w : Fin cfg0.W) (s : Fin (cfg0.win w).nbuf), kindOf (.dma ((cfg0.win w).sem s) : SemLoc sig) = .other := by decide

theorem hwaits (ρ : Dev nD → PrngReg) : ∀ c, (levAts L lv : sProp 𝕄) ⊢ Pipeline.cellsWaits cfgs (dats m ρ) 0 0 c := fun c =>
  Pipeline.cellsWaits_intro cfgs (dats m ρ) 0 0 c fun w s t => by
    match t with
    | ⟨0, _⟩ =>
      show _ ⊢ MayWait (c : Thread nD τ) (.dma ((cfg0.win w).sem s)) 0 (owedFrom c 0)
      refine mayWait_kind c _ 0 0 ?_ ?_
      · rw [staging_kind]; decide
      · rw [staging_kind]; decide
    | ⟨_ + 1, _⟩ =>
      show _ ⊢ MayWait (c : Thread nD τ) (.dma ((cfg0.win w).sem s)) 0 0
      refine Pipeline.mayWait_of_levAts (L := L) (lev := lv) ?_ fun g i h => ?_
      · rw [L_eq _ rfl, staging_kind]; decide
      · exact absurd h (by simp)

end Cert.KernelIdeal.RingProof

end
-- ==== Proof.RingMain.lean ====
/-
  The kernel's run assembled: the launch theorem applied to the schedule, the levels, the dealing of the ghost
  state, the states on entering and leaving, and the body's run closed by its ten cells' closing; then read off —
  the three argument blocks unchanged on every device, and device `c`'s result block at `outBlock m c`.
-/
import proofs.«900462_g7700000000000463_dist_ring_attn_i_s2048_d256_v7x_i8_f32_1_alg».proof.Proof.RingBody
import proofs.«900462_g7700000000000463_dist_ring_attn_i_s2048_d256_v7x_i8_f32_1_alg».proof.Proof.RingClosing
import proofs.«900462_g7700000000000463_dist_ring_attn_i_s2048_d256_v7x_i8_f32_1_alg».proof.Proof.RingDeal
import proofs.«900462_g7700000000000463_dist_ring_attn_i_s2048_d256_v7x_i8_f32_1_alg».proof.Proof.RingReadoff
import proofs.«900462_g7700000000000463_dist_ring_attn_i_s2048_d256_v7x_i8_f32_1_alg».proof.Proof.RingHWaits

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : Mem F)

/-- Every weakly fair run of the eight devices ends, faults nowhere, and leaves every windowed array at what the
    proof data says. -/
theorem ring_run (ρ : Dev nD → PrngReg) :
    θ_run (defs (F := F)) (onTc (τ := τ) (main (F := F))) ⟨m, fun _ => 0, ρ⟩
      (fun r => ∀ c : Dev nD, ∀ w : Fin cfg0.W, r.2.mem ((cfg0.win w).arr.view.loc (c : Thread nD τ)) = (dats m ρ 0 c).arrAt w cfg0.N) :=
  run_main m ρ (ringRd m) (toks m) Sl (dats m ρ) (hA m ρ) (hq m ρ) O₀ (howed₀ m ρ) (howedN m ρ) L lv hL (hwaits m ρ) (G' m) (hdeal m)
    (hentry m ρ) (hexit m ρ)
    (fun c => hbody_of_open (dats m ρ) c (closing m ρ c) (sound_body m ρ c) (hclose m ρ c))

/-- The frame: the argument blocks end as launched. -/
theorem ring_frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_frame m ρ (dats m ρ) (hA m ρ) (ring_run m ρ)

/-- The value: device `c`'s result block ends at `outBlock m c`, the argument blocks as launched. -/
theorem ring_value (ρ : Dev nD → PrngReg) :
    θ_run (defs (F := F)) (onTc (τ := τ) (main (F := F))) ⟨m, fun _ => 0, ρ⟩ (fun r => ∀ c : Dev nD,
      r.2.mem ((c.tc : Thread nD τ).loc main_v1) = outBlock m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_value m ρ (dats m ρ) (hA m ρ) (ring_run m ρ)

end Cert.KernelIdeal.RingProof

end
-- ==== Proof.RingCommonK.lean ====
/-
  The ring's shared vocabulary.  Eight devices in a ring; device `c` has a left neighbour `c − 1` and a right
  neighbour `c + 1` (mod 8).  Each device keeps two double-buffered rings of key/value blocks: the right-going ring
  (a block travels `c → c + 1`) and the left-going ring (`c → c − 1`).  A ring buffer has two slots, each a key half
  and a value half of 2048 × 256.  A slot is named the way a transfer names it: the slice of the buffer at
  offset `[b, 0, 0, 0]`, squeezed to `[2, 2048, 256]`.
  Ghost state has three components side by side: the machine's own, the rounds discipline of the semaphore cells
  (duties named by `Fin 3`), and the release counts of the receive slots (one key per device, ring and slot: the
  reader is the device that holds the slot, the writer its upstream neighbour in that ring).
-/
import proofs.«900462_g7700000000000463_dist_ring_attn_i_s2048_d256_v7x_i8_f32_1_alg».proof.Proof.Gen.Kernel.Launch
import proofs.«900462_g7700000000000463_dist_ring_attn_i_s2048_d256_v7x_i8_f32_1_alg».proof.Proof.Gen.Kernel.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Release
import Idealize.ShloMosaic.Lib.Tactic

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- Names of a round's duties: a barrier round has two (one per neighbour), a credit cell's one round up to three. -/
abbrev DN : Type := Fin 3
/-- The rounds discipline's algebra over the program's cells. -/
abbrev UB : Type := URounds (GSem nD τ sig) DN
/-- A receive slot's key: the device holding it (its reader), the ring (0 right-going, 1 left-going), the slot. -/
abbrev KS : Type := Dev nD × Fin 2 × Fin 2
/-- The release counts' algebra. -/
abbrev US : Type := Release.USlots KS
/-- The certificate's component: the machine's copy beside the two above. -/
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

/-- The memory as launched. -/
abbrev Mem (F : FTy → Type) [FloatOps F] : Type := (ℓ : Loc nD τ sig) → Buf (Elt F) ℓ

/-! ## The neighbours -/

/-- The left neighbour: `c − 1` mod 8. -/
def lft (c : Dev nD) : Dev nD := ⟨(c.val + 7) % 8, Nat.mod_lt _ (by decide)⟩
/-- The right neighbour: `c + 1` mod 8. -/
def rgt (c : Dev nD) : Dev nD := ⟨(c.val + 1) % 8, Nat.mod_lt _ (by decide)⟩

theorem lft_rgt : ∀ c : Dev nD, lft (rgt c) = c := by decide
theorem rgt_lft : ∀ c : Dev nD, rgt (lft c) = c := by decide
theorem lft_ne : ∀ c : Dev nD, lft c ≠ c := by decide
theorem rgt_ne : ∀ c : Dev nD, rgt c ≠ c := by decide
theorem lft_ne_rgt : ∀ c : Dev nD, lft c ≠ rgt c := by decide

/-- The downstream neighbour of ring `p` (where its blocks go) and the upstream one (where they come from). -/
def dnR : Fin 2 → Dev nD → Dev nD
  | 0, c => rgt c
  | 1, c => lft c
def upR : Fin 2 → Dev nD → Dev nD
  | 0, c => lft c
  | 1, c => rgt c
theorem upR_dnR (p : Fin 2) (c : Dev nD) : upR p (dnR p c) = c := by
  revert p c; decide
theorem dnR_upR (p : Fin 2) (c : Dev nD) : dnR p (upR p c) = c := by
  revert p c; decide

/-! The printed device chains: the entry signals name the left then the right neighbour; a right-going transfer and
    a left-ring credit the right neighbour; a left-going transfer and a right-ring credit the left one. -/
theorem dev1_eq (c : Dev nD) (h : k0_dev1 c < nD) : (⟨k0_dev1 c, h⟩ : Dev nD) = lft c := Fin.ext (k0_dev1_eq c)
theorem dev2_eq (c : Dev nD) (h : k0_dev2 c < nD) : (⟨k0_dev2 c, h⟩ : Dev nD) = rgt c := Fin.ext (k0_dev2_eq c)
theorem dev3_eq (c : Dev nD) (h : k0_dev3 c < nD) : (⟨k0_dev3 c, h⟩ : Dev nD) = rgt c := Fin.ext (k0_dev3_eq c)
theorem dev4_eq (c : Dev nD) (h : k0_dev4 c < nD) : (⟨k0_dev4 c, h⟩ : Dev nD) = lft c := Fin.ext (k0_dev4_eq c)
theorem dev5_eq (c : Dev nD) (h : k0_dev5 c < nD) : (⟨k0_dev5 c, h⟩ : Dev nD) = lft c := Fin.ext (k0_dev5_eq c)
theorem dev6_eq (c : Dev nD) (h : k0_dev6 c < nD) : (⟨k0_dev6 c, h⟩ : Dev nD) = rgt c := Fin.ext (k0_dev6_eq c)
theorem dev7_eq (c : Dev nD) (h : k0_dev7 c < nD) : (⟨k0_dev7 c, h⟩ : Dev nD) = rgt c := Fin.ext (k0_dev7_eq c)
theorem dev8_eq (c : Dev nD) (h : k0_dev8 c < nD) : (⟨k0_dev8 c, h⟩ : Dev nD) = lft c := Fin.ext (k0_dev8_eq c)
theorem dev9_eq (c : Dev nD) (h : k0_dev9 c < nD) : (⟨k0_dev9 c, h⟩ : Dev nD) = lft c := Fin.ext (k0_dev9_eq c)
theorem dev10_eq (c : Dev nD) (h : k0_dev10 c < nD) : (⟨k0_dev10 c, h⟩ : Dev nD) = rgt c := Fin.ext (k0_dev10_eq c)
theorem dev11_eq (c : Dev nD) (h : k0_dev11 c < nD) : (⟨k0_dev11 c, h⟩ : Dev nD) = rgt c := Fin.ext (k0_dev11_eq c)
theorem dev12_eq (c : Dev nD) (h : k0_dev12 c < nD) : (⟨k0_dev12 c, h⟩ : Dev nD) = lft c := Fin.ext (k0_dev12_eq c)
theorem dev13_eq (c : Dev nD) (h : k0_dev13 c < nD) : (⟨k0_dev13 c, h⟩ : Dev nD) = lft c := Fin.ext (k0_dev13_eq c)
theorem dev14_eq (c : Dev nD) (h : k0_dev14 c < nD) : (⟨k0_dev14 c, h⟩ : Dev nD) = rgt c := Fin.ext (k0_dev14_eq c)

/-! ## The ring buffers and their slots -/

/-- Ring `p`'s buffer, whole: the right-going ring is scratch operand 0, the left-going one operand 1. -/
abbrev ringM : Fin 2 → Memref sig .tc .vmem S2x2x2048x256 .bf16
  | 0 => Memref.whole cc0_scratch0
  | 1 => Memref.whole cc0_scratch1

/-- Offsets of slot `b`. -/
abbrev slotOff (b : Fin 2) : Fin 4 → Nat := ![b.val, 0, 0, 0]
theorem slot_inb : ∀ (b : Fin 2) a, slotOff b a + S1x2x2048x256.size a ≤ S2x2x2048x256.size a := by decide
/-- Slot `b`'s rectangle: both halves, all rows and columns. -/
abbrev slotR (b : Fin 2) : Rect S2x2x2048x256 := Rect.unit (s := S2x2x2048x256) (slotOff b) S1x2x2048x256.size (slot_inb b)
/-- Slot `b` of ring `p` as a transfer names it. -/
abbrev slotM (p b : Fin 2) : Memref sig .tc .vmem S2x2048x256 .bf16 :=
  ((ringM p).slice (slotR b) (fun _ => rfl)).squeeze S2x2048x256 squeezes_S1x2x2048x256_S2x2048x256

/-- What a transfer of one slot credits its cells. -/
abbrev Ncr : ℕ := (slotM 0 0).view.dmaCredit
theorem Ncr_pos : 0 < Ncr := View.dmaCredit_pos _ (by decide)

/-! ## The cells -/

/-- The runtime's barrier semaphore of collective id 0. -/
abbrev barS : Sem sig := (SemArray.scalar (sig.barrier 0 rfl) : Sems sig S_).sem
/-- Ring `p`'s credit semaphore: regular 0 for the right-going ring, 1 for the left-going. -/
abbrev capS (p : Fin 2) : Sem sig := ⟨p.val, Nat.lt_of_lt_of_le p.isLt (by decide)⟩
/-- Ring `p`'s send semaphore of slot `b`: DMA 4, 5 (right-going), 8, 9 (left-going). -/
abbrev sendS (p b : Fin 2) : DmaSem sig := ⟨4 + 4 * p.val + b.val, by have := p.isLt; have := b.isLt; show _ < 12; omega⟩
/-- Ring `p`'s receive semaphore of slot `b`: DMA 6, 7 and 10, 11. -/
abbrev recvS (p b : Fin 2) : DmaSem sig := ⟨6 + 4 * p.val + b.val, by have := p.isLt; have := b.isLt; show _ < 12; omega⟩

abbrev barCell (c : Dev nD) : GSem nD τ sig := ((c : Thread nD τ), .reg barS)
abbrev capCell (p : Fin 2) (c : Dev nD) : GSem nD τ sig := ((c : Thread nD τ), .reg (capS p))
abbrev sendCell (p b : Fin 2) (c : Dev nD) : GSem nD τ sig := ((c : Thread nD τ), .dma (sendS p b))
abbrev recvCell (p b : Fin 2) (c : Dev nD) : GSem nD τ sig := ((c : Thread nD τ), .dma (recvS p b))

end Cert.Kernel.RingProof

end
-- ==== Proof.RingScheduleK.lean ====
/-
  The eleven cells of a device under the rounds discipline, and what each landing tells its owner.
  Ring `p` (0 right-going, 1 left-going) makes `4 − p` hops; hop `t` reads slot `t mod 2` of the sender and
  writes slot `(t + 1) mod 2` of its downstream neighbour, so after hop `t` that slot holds the key/value block
  that started `t + 1` devices upstream.
  * The entry barrier of a device: one round, two unit duties, one per neighbour.  A neighbour's signal says that
    its first receive slot has been put at its writer's disposal.
  * A credit cell: ONE round of unit duties (three for the right-going ring, two for the left-going).  Grant `u` is
    made after the granter has finished reading slot `u mod 2` for good at that step, before it waits for its own
    next landing, so a grant may overtake the previous one's consumption: the grants carry only persistent facts —
    how often each slot has been released, and how far the granter's receive cells have come — each grant
    repeating the earlier ones, so that after `n` units consumed the waiter knows the first `n` grants' facts
    whichever signals it happened to meet.
  * A send cell: one duty a round, the source slot's lent half back at the contents sent.
  * A receive cell: one duty a round, the slot whole, holding the upstream block.
-/
import proofs.«900462_g7700000000000463_dist_ring_attn_i_s2048_d256_v7x_i8_f32_1_alg».proof.Proof.RingCommonK
import proofs.«900462_g7700000000000463_dist_ring_attn_i_s2048_d256_v7x_i8_f32_1_alg».proof.Proof.Gen.Kernel.Skeleton
import Idealize.ShloMosaic.Lib.ValueIdx

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What the rings carry -/

/-- A key half and a value half side by side, as a slot holds them. -/
def joinKV (kb vb : FVec F S2048x256 .bf16) : FVec F S2x2048x256 .bf16 :=
  fun i => if (i 0).val = 0 then kb (ValueIdx.ix2 (n0 := 2048) (n1 := 256) (i 1) (i 2)) else vb (ValueIdx.ix2 (n0 := 2048) (n1 := 256) (i 1) (i 2))

/-- Device `d`'s own key/value block in the rings' format. -/
def kvOf (m : Mem F) (d : Dev nD) : FVec F S2x2048x256 .bf16 :=
  joinKV (k0_pay3 (m ((d : Thread nD τ).loc main_arg1))) (k0_pay4 (m ((d : Thread nD τ).loc main_arg2)))

/-- The device `t` hops upstream of `c` in ring `p`. -/
def origin (p : Fin 2) (t : ℕ) (c : Dev nD) : Dev nD := (upR p)^[t] c

/-- What device `c` sends on hop `t` of ring `p`: the block that started `t` devices upstream of it. -/
def sentV (m : Mem F) (p : Fin 2) (t : ℕ) (c : Dev nD) : FVec F S2x2048x256 .bf16 := kvOf m (origin p t c)

/-- How many hops ring `p` makes. -/
def nHop (p : Fin 2) : ℕ := 4 - p.val
/-- How many of them read slot `b` (hops `b, b + 2, …`), that is, rounds of its send cell. -/
def nSend (p b : Fin 2) : ℕ := (nHop p - b.val + 1) / 2
/-- How many write slot `b` (hops `1 − b, 3 − b, …`): rounds of its receive cell. -/
def nRecv (p b : Fin 2) : ℕ := (nHop p - (1 - b.val) + 1) / 2
/-- How many credits ring `p`'s credit cell gets: one per hop but the first. -/
def nCap (p : Fin 2) : ℕ := nHop p - 1

/-- Slot index `n mod 2`. -/
abbrev par (n : ℕ) : Fin 2 := ⟨n % 2, Nat.mod_lt _ (by decide)⟩

/-- Slot `b` of ring `p` on device `c`, its own elements at share `q` and contents `f` of the ring buffer. -/
@[reducible] def slotPts (c : Dev nD) (p b : Fin 2) (q : PosShare TreeShare) (f : Buf (Elt F) ((slotM p b).view.loc (c : Thread nD τ))) : sProp 𝕄 :=
  (slotM p b).view.loc (c : Thread nD τ) ↦[(slotM p b).view.set]{q} f

/-- The same, whole, holding the block `V`. -/
def slotAt (c : Dev nD) (p b : Fin 2) (V : FVec F S2x2048x256 .bf16) : sProp 𝕄 :=
  iprop(∃ f, ⌜(slotM p b).view.read (Elt F) f = V⌝ ∗ slotPts c p b fullShare f)

/-- The lent half of it, holding `V`. -/
def slotLent (c : Dev nD) (p b : Fin 2) (V : FVec F S2x2048x256 .bf16) : sProp 𝕄 :=
  iprop(∃ f, ⌜(slotM p b).view.read (Elt F) f = V⌝ ∗ slotPts c p b fullShare.left f)

/-! ## The payloads -/

/-- What grant `u` of ring `p` by device `d` says: slot `u mod 2` of `d` has been released `(u + 1) / 2 + 1` times
    (slot 0 after steps 0 and 2; slot 1 once on entering and again after step 1), and the receive cell of that slot
    has come to round `(u + 1) / 2`. -/
def grantFact (p : Fin 2) (d : Dev nD) (u : ℕ) : sProp 𝕄 :=
  iprop(Release.released (ES (F := F)) ((d, p, par u) : KS) ((u + 1) / 2 + 1) ∗ reached (ER (F := F)) (recvCell p (par u) d) ((u + 1) / 2))

/-- Grants `0 … u` together. -/
def grantsUpTo (p : Fin 2) (d : Dev nD) : ℕ → sProp 𝕄
  | 0 => grantFact p d 0
  | u + 1 => iprop(grantsUpTo p d u ∗ grantFact p d (u + 1))

/-- A neighbour's entry signal landing on `c`, duty `j` (0 from the left neighbour, 1 from the right): the
    neighbour's first receive slot in the ring that runs from `c` to it has been released once. -/
def barPay (j : Fin 2) (c : Dev nD) : sProp 𝕄 :=
  Release.released (ES (F := F)) ((upR j c, (⟨1 - j.val, by omega⟩ : Fin 2), (1 : Fin 2)) : KS) 1

variable (m : Mem F)

/-- A landing on `c`, round `r` of slot `b`: the slot whole, holding what the upstream neighbour sent on hop
    `2r + (1 − b)`. -/
def recvPay (p b : Fin 2) (r : ℕ) (c : Dev nD) : sProp 𝕄 :=
  slotAt c p b (sentV m p (2 * r + (1 - b.val)) (upR p c))
/-- `c`'s own transfer read out, round `r` of slot `b`: the lent half back, at what was sent on hop `2r + b`. -/
def sendPay (p b : Fin 2) (r : ℕ) (c : Dev nD) : sProp 𝕄 :=
  slotLent c p b (sentV m p (2 * r + b.val) c)

/-! ## The schedule -/

/-- Which of the ring's cells a semaphore is. -/
inductive CellKind | bar | cap (p : Fin 2) | send (p b : Fin 2) | recv (p b : Fin 2) | other
  deriving DecidableEq

def kindOf : SemLoc sig → CellKind
  | .reg s => if s = barS then .bar else if h : s.val < 2 then .cap ⟨s.val, h⟩ else .other
  | .dma q =>
      if h : 4 ≤ q.val ∧ q.val < 6 then .send 0 ⟨q.val - 4, by omega⟩
      else if h : 6 ≤ q.val ∧ q.val < 8 then .recv 0 ⟨q.val - 6, by omega⟩
      else if h : 8 ≤ q.val ∧ q.val < 10 then .send 1 ⟨q.val - 8, by omega⟩
      else if h : 10 ≤ q.val ∧ q.val < 12 then .recv 1 ⟨q.val - 10, by omega⟩
      else .other

theorem kindOf_bar : kindOf (.reg barS : SemLoc sig) = .bar := by decide
theorem kindOf_cap (p : Fin 2) : kindOf (.reg (capS p) : SemLoc sig) = .cap p := by revert p; decide
theorem kindOf_send (p b : Fin 2) : kindOf (.dma (sendS p b) : SemLoc sig) = .send p b := by revert p b; decide
theorem kindOf_recv (p b : Fin 2) : kindOf (.dma (recvS p b) : SemLoc sig) = .recv p b := by revert p b; decide

/-- The duties `0 … n − 1`. -/
def firstN (n : ℕ) : Finset DN := Finset.univ.filter (·.val < n)

def ringRd : Rounds.Schedule (GSem nD τ sig) DN 𝕄 where
  duties g r :=
    if g.1.2 = .tc then
      match kindOf g.2 with
      | .bar => if r = 0 then firstN 2 else ∅
      | .cap p => if r = 0 then firstN (nCap p) else ∅
      | .send p b => if r < nSend p b then {0} else ∅
      | .recv p b => if r < nRecv p b then {0} else ∅
      | .other => ∅
    else ∅
  unitless _ := False
  amount g _ _ := match kindOf g.2 with
    | .send _ _ | .recv _ _ => Ncr
    | _ => 1
  payload g r d := match kindOf g.2 with
    | .bar => if h : d.val < 2 then barPay ⟨d.val, h⟩ g.1.1 else iprop(emp)
    | .cap p => grantsUpTo p (dnR p g.1.1) d.val
    | .recv p b => recvPay m p b r g.1.1
    | .send p b => sendPay m p b r g.1.1
    | .other => iprop(emp)
  amount_pos g _ _ _ := by
    cases kindOf g.2 <;> first | exact Nat.one_pos | exact Ncr_pos

end Cert.Kernel.RingProof

end
-- ==== Proof.RingLevelsK.lean ====
/-
  What a device pays, in the order it pays, and why no wait can deadlock.
  Device `c` makes fourteen payments: its two entry signals; then on step `t` its right-going copy into the right
  neighbour's receive cell (`t < 4`), its left-going copy into the left neighbour's (`t < 3`), its credit to the
  left neighbour for the right-going ring (`t < 3`) and its credit to the right neighbour for the left-going ring
  (`t < 2`).  A tally is indexed by the step.  The level of (cell, step) is the position, in the one program all
  devices run, of the wait that consumes it: the entry wait first, then step `t`'s six waits in order.  Every
  payment stands in the program before the wait that consumes it, so at any wait everything the waiter still owes
  lies strictly above the wait's own level.
-/
import proofs.«900462_g7700000000000463_dist_ring_attn_i_s2048_d256_v7x_i8_f32_1_alg».proof.Proof.RingScheduleK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The payments -/

/-- One payment: the cell, the step it is indexed by, the amount. -/
abbrev Pay : Type := GSem nD τ sig × ℕ × ℕ

/-- Step `t`'s payments of device `c`, in order. -/
def stepPays (c : Dev nD) (t : ℕ) : List Pay :=
  (if t < 4 then [(recvCell 0 (par (t + 1)) (rgt c), t, Ncr)] else []) ++
  (if t < 3 then [(recvCell 1 (par (t + 1)) (lft c), t, Ncr)] else []) ++
  (if t < 3 then [(capCell 0 (lft c), t, 1)] else []) ++
  (if t < 2 then [(capCell 1 (rgt c), t, 1)] else [])

/-- All of them: the entry signals (left neighbour first), then steps 0 to 3. -/
def pays (c : Dev nD) : List Pay :=
  [(barCell (lft c), 0, 1), (barCell (rgt c), 0, 1)] ++ stepPays c 0 ++ stepPays c 1 ++ stepPays c 2 ++ stepPays c 3

theorem pays_length (c : Dev nD) : (pays c).length = 14 := rfl

/-- What a list of payments comes to, the first payment outermost on the right. -/
def owedL : List Pay → CellTallies nD τ sig ℕ
  | [] => 0
  | x :: xs => owedL xs + tallyAt x.1 x.2.1 x.2.2

/-- What device `c` still owes after its first `n` payments. -/
def owedFrom (c : Dev nD) (n : ℕ) : CellTallies nD τ sig ℕ := owedL ((pays c).drop n)

/-- At launch. -/
def O₀ (c : Dev nD) : CellTallies nD τ sig ℕ := owedFrom c 0

theorem owedFrom_done (c : Dev nD) : owedFrom c 14 = 0 := rfl

/-- A positive entry of what a list comes to belongs to one of its payments. -/
theorem owedL_pos {xs : List Pay} {g : GSem nD τ sig} {i : ℕ} (h : 0 < owedL xs g i) : ∃ x ∈ xs, x.1 = g ∧ x.2.1 = i := by
  induction xs with
  | nil => exact absurd h (Nat.lt_irrefl 0)
  | cons x xs ih =>
    rcases Pipeline.add_pos_cases (show 0 < (owedL xs + tallyAt x.1 x.2.1 x.2.2) g i from h) with h | h
    · obtain ⟨y, hy, hg⟩ := ih h
      exact ⟨y, List.mem_cons_of_mem _ hy, hg⟩
    · exact ⟨x, List.mem_cons_self, (Pipeline.tallyAt_pos h).1.symm, (Pipeline.tallyAt_pos h).2.symm⟩

/-! ## The levels -/

/-- The steps at which a cell is waited on. -/
def L (g : GSem nD τ sig) : Finset ℕ :=
  if g.1.2 = .tc then
    match kindOf g.2 with
    | .bar => {0}
    | .cap p => Finset.range (nCap p)
    | .send p b => (Finset.range (nHop p)).filter (fun t => t % 2 = b.val)
    | .recv p b => (Finset.range (nHop p)).filter (fun t => (t + 1) % 2 = b.val)
    | .other => {0}
  else ∅

/-- The position of the wait that consumes (cell, step): a staging cell lowest, the entry wait next, then step
    `t`'s waits — credit of the right-going ring, credit of the left-going, send and receive of the right-going,
    send and receive of the left-going — a credit granted on step `t` being consumed on step `t + 1`. -/
def lv (g : GSem nD τ sig) (t : ℕ) : ℕ :=
  match kindOf g.2 with
  | .bar => 1
  | .cap p => 10 * (t + 2) + 1 + p.val
  | .send p _ => 10 * (t + 1) + 3 + 2 * p.val
  | .recv p _ => 10 * (t + 1) + 4 + 2 * p.val
  | .other => 0

theorem hL : ∀ g : GSem nD τ sig, g.1.2 ≠ .tc → L g = ∅ := fun g h => by unfold L; rw [if_neg h]

/-- The evidence a wait of device `c` on its cell `s` at step `j` presents after its first `n` payments: every
    payment still to come is consumed by a later wait. -/
theorem mayWait_after (c : Dev nD) (s : SemLoc sig) (j n : ℕ) (hj : j ∈ L ((c : Thread nD τ), s))
    (h : ∀ x ∈ (pays c).drop n, x.2.1 ∈ L x.1 ∧ lv ((c : Thread nD τ), s) j < lv x.1 x.2.1) :
    (levAts L lv : sProp 𝕄) ⊢ MayWait (c : Thread nD τ) s j (owedFrom c n) :=
  Pipeline.mayWait_of_levAts hj fun g i hpos => by
    obtain ⟨x, hx, hg, hi⟩ := owedL_pos hpos
    rw [← hg, ← hi]; exact h x hx

end Cert.Kernel.RingProof

end
-- ==== Proof.RingTablesK.lean ====
/-
  The schedule's tables, computed cell by cell for a device `c`: which duties a round has, what each pays, how many
  units a round expects, and what a landing hands over.  A barrier round expects two units, a credit cell's one
  round as many units as the ring has hops after the first, a send or receive round one transfer's worth.
-/
import proofs.«900462_g7700000000000463_dist_ring_attn_i_s2048_d256_v7x_i8_f32_1_alg».proof.Proof.RingLevelsK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : Mem F)

instance grantFact_storable (p : Fin 2) (d : Dev nD) (u : ℕ) : BI.Storable (upEmb : UEmb _ 𝕄) (grantFact (F := F) p d u) := by
  unfold grantFact; infer_instance

instance grantsUpTo_storable (p : Fin 2) (d : Dev nD) : ∀ u : ℕ, BI.Storable (upEmb : UEmb _ 𝕄) (grantsUpTo (F := F) p d u)
  | 0 => by unfold grantsUpTo; infer_instance
  | u + 1 => by unfold grantsUpTo; haveI := grantsUpTo_storable p d u; infer_instance

instance grantFact_persistent (p : Fin 2) (d : Dev nD) (u : ℕ) : BI.Persistent (grantFact (F := F) p d u) := by
  unfold grantFact; infer_instance

instance grantsUpTo_persistent (p : Fin 2) (d : Dev nD) : ∀ u : ℕ, BI.Persistent (grantsUpTo (F := F) p d u)
  | 0 => by unfold grantsUpTo; infer_instance
  | u + 1 => by unfold grantsUpTo; haveI := grantsUpTo_persistent p d u; infer_instance

instance ringRd_payload_storable (g : GSem nD τ sig) (r : ℕ) (d : DN) :
    BI.Storable (upEmb : UEmb _ 𝕄) ((ringRd (F := F) m).payload g r d) := by
  show BI.Storable upEmb (match kindOf g.2 with
    | .bar => if h : d.val < 2 then barPay ⟨d.val, h⟩ g.1.1 else iprop(emp)
    | .cap p => grantsUpTo p (dnR p g.1.1) d.val
    | .recv p b => recvPay m p b r g.1.1
    | .send p b => sendPay m p b r g.1.1
    | .other => iprop(emp))
  unfold barPay recvPay sendPay slotAt slotLent slotPts
  split
  · split <;> infer_instance
  all_goals infer_instance

section Sched
variable (c : Dev nD) (p b : Fin 2)

theorem duties_bar : (ringRd (F := F) m).duties (barCell c) 0 = firstN 2 := by
  simp only [ringRd, kindOf_bar, if_true]
theorem duties_cap : (ringRd (F := F) m).duties (capCell p c) 0 = firstN (nCap p) := by
  simp only [ringRd, kindOf_cap, if_true]
theorem duties_send {r : ℕ} (hr : r < nSend p b) : (ringRd (F := F) m).duties (sendCell p b c) r = {0} := by
  simp only [ringRd, kindOf_send, if_true, if_pos hr]
theorem duties_recv {r : ℕ} (hr : r < nRecv p b) : (ringRd (F := F) m).duties (recvCell p b c) r = {0} := by
  simp only [ringRd, kindOf_recv, if_true, if_pos hr]

/-! No duty beyond a cell's last round: what closing the cell asks. -/
theorem duties_bar_later : ∀ r, 1 ≤ r → (ringRd (F := F) m).duties (barCell c) r = ∅ := fun r hr => by
  simp only [ringRd, kindOf_bar, if_true, if_neg (by omega : ¬ r = 0)]
theorem duties_cap_later : ∀ r, 1 ≤ r → (ringRd (F := F) m).duties (capCell p c) r = ∅ := fun r hr => by
  simp only [ringRd, kindOf_cap, if_true, if_neg (by omega : ¬ r = 0)]
theorem duties_send_later : ∀ r, nSend p b ≤ r → (ringRd (F := F) m).duties (sendCell p b c) r = ∅ := fun r hr => by
  simp only [ringRd, kindOf_send, if_true, if_neg (Nat.not_lt.mpr hr)]
theorem duties_recv_later : ∀ r, nRecv p b ≤ r → (ringRd (F := F) m).duties (recvCell p b c) r = ∅ := fun r hr => by
  simp only [ringRd, kindOf_recv, if_true, if_neg (Nat.not_lt.mpr hr)]

theorem amount_bar (r : ℕ) (d : DN) : (ringRd (F := F) m).amount (barCell c) r d = 1 := by simp only [ringRd, kindOf_bar]
theorem amount_cap (r : ℕ) (d : DN) : (ringRd (F := F) m).amount (capCell p c) r d = 1 := by simp only [ringRd, kindOf_cap]
theorem amount_send (r : ℕ) (d : DN) : (ringRd (F := F) m).amount (sendCell p b c) r d = Ncr := by simp only [ringRd, kindOf_send]
theorem amount_recv (r : ℕ) (d : DN) : (ringRd (F := F) m).amount (recvCell p b c) r d = Ncr := by simp only [ringRd, kindOf_recv]

theorem card_firstN : ∀ n : ℕ, n ≤ 3 → (firstN n).card = n := by decide

theorem expect_bar : (ringRd (F := F) m).expect (barCell c) 0 = 2 := by
  unfold Schedule.expect Schedule.amountOf
  rw [duties_bar, Finset.sum_congr rfl fun d _ => amount_bar m c 0 d, Finset.sum_const, card_firstN 2 (by decide), smul_eq_mul]
theorem expect_cap : (ringRd (F := F) m).expect (capCell p c) 0 = nCap p := by
  unfold Schedule.expect Schedule.amountOf
  rw [duties_cap, Finset.sum_congr rfl fun d _ => amount_cap m c p 0 d, Finset.sum_const, card_firstN (nCap p) (by revert p; decide), smul_eq_mul, Nat.mul_one]
theorem expect_send {r : ℕ} (hr : r < nSend p b) : (ringRd (F := F) m).expect (sendCell p b c) r = Ncr := by
  unfold Schedule.expect Schedule.amountOf; rw [duties_send m c p b hr, Finset.sum_singleton, amount_send]
theorem expect_recv {r : ℕ} (hr : r < nRecv p b) : (ringRd (F := F) m).expect (recvCell p b c) r = Ncr := by
  unfold Schedule.expect Schedule.amountOf; rw [duties_recv m c p b hr, Finset.sum_singleton, amount_recv]

theorem payload_bar (r : ℕ) (j : Fin 2) : (ringRd (F := F) m).payload (barCell c) r ⟨j.val, by omega⟩ = barPay j c := by
  simp only [ringRd, kindOf_bar, dif_pos j.isLt]
theorem payload_cap (r : ℕ) (d : DN) : (ringRd (F := F) m).payload (capCell p c) r d = grantsUpTo p (dnR p c) d.val := by simp only [ringRd, kindOf_cap]
theorem payload_send (r : ℕ) (d : DN) : (ringRd (F := F) m).payload (sendCell p b c) r d = sendPay m p b r c := by simp only [ringRd, kindOf_send]
theorem payload_recv (r : ℕ) (d : DN) : (ringRd (F := F) m).payload (recvCell p b c) r d = recvPay m p b r c := by simp only [ringRd, kindOf_recv]

/-! When no duty of a round has been taken, a wait for the whole round gets that round's one payload. -/
theorem rest_send {r : ℕ} (hr : r < nSend p b) :
    bigSep ((ringRd (F := F) m).duties (sendCell p b c) r \ ∅) (fun d => (ringRd (F := F) m).payload (sendCell p b c) r d) = sendPay m p b r c := by
  rw [Finset.sdiff_empty, duties_send m c p b hr, bigSep_singleton, payload_send]
theorem rest_recv {r : ℕ} (hr : r < nRecv p b) :
    bigSep ((ringRd (F := F) m).duties (recvCell p b c) r \ ∅) (fun d => (ringRd (F := F) m).payload (recvCell p b c) r d) = recvPay m p b r c := by
  rw [Finset.sdiff_empty, duties_recv m c p b hr, bigSep_singleton, payload_recv]

end Sched

/-! ## A credit wait's harvest

After `n` of a credit cell's units are consumed the payloads taken belong to a set of at least `n` of its duties;
one of them has index `n − 1` or more, and a grant repeats all earlier ones. -/

/-- Grants up to `u` contain grant `v ≤ u`. -/
theorem grantsUpTo_elim (p : Fin 2) (d : Dev nD) : ∀ {u v : ℕ}, v ≤ u → (grantsUpTo (F := F) p d u ⊢ grantFact p d v)
  | 0, v, h => by
    have : v = 0 := Nat.le_zero.mp h
    subst this; unfold grantsUpTo; exact Entails.rfl
  | u + 1, v, h => by
    unfold grantsUpTo
    rcases Nat.lt_or_ge v (u + 1) with hv | hv
    · exact sep_elim_left.trans (grantsUpTo_elim p d (Nat.lt_succ_iff.mp hv))
    · have : v = u + 1 := Nat.le_antisymm h hv
      subst this; exact sep_elim_right

/-- A set of at least `n + 1` duty names has one of index `n` or more. -/
theorem exists_ge_of_card {S : Finset DN} {n : ℕ} (h : n + 1 ≤ S.card) : ∃ d ∈ S, n ≤ d.val := by
  by_contra hn
  simp only [not_exists, not_and, not_le] at hn
  have hsub : S ⊆ firstN n := fun d hd => by
    unfold firstN; exact Finset.mem_filter.mpr ⟨Finset.mem_univ _, hn d hd⟩
  have hc := Finset.card_le_card hsub
  have hn3 : n ≤ 3 := by
    have := Finset.card_le_univ S; simp only [Fintype.card_fin] at this; omega
  rw [card_firstN n hn3] at hc
  omega

end Cert.Kernel.RingProof

end
-- ==== Proof.RingLaunchK.lean ====
/-
  The launch of the ring.  Eight devices; each runs the one region of the program.  Every semaphore a device's body
  touches is a cell of the rounds discipline: its eight transfer cells (a send and a receive cell per ring and slot),
  its two credit cells, and the barrier cell, which is not scoped to the region.  At launch the counters of all
  eighty-eight cells are zero; one update for all devices at once turns each counter and its round state into the
  cell's invariant, opens the release counts of the thirty-two receive slots, and deals every device what its body
  starts from.  The launch theorem then turns "the body is proved at every device" into a run of the whole program
  whose final memory has every windowed array at the contents the proof data computes.

  Everything the protocol decides (the schedule of duties, the tokens minted, the slots' contents, the proof data,
  what each device owes and at which levels it waits, how the minted ghost state is dealt, and the body itself) is a
  hypothesis here, stated at the exact type the launch needs.
-/
import proofs.«900462_g7700000000000463_dist_ring_attn_i_s2048_d256_v7x_i8_f32_1_alg».proof.Proof.RingCommonK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The cells of one device -/

/-- The region's own (scoped) semaphores, in the order the launch lists them: the right-going ring's two send and two
    receive cells, the left-going ring's, then the two credit cells. -/
abbrev osem : Fin 10 → SemLoc sig := fun
  | 0 => .dma (sendS 0 0) | 1 => .dma (sendS 0 1) | 2 => .dma (recvS 0 0) | 3 => .dma (recvS 0 1)
  | 4 => .dma (sendS 1 0) | 5 => .dma (sendS 1 1) | 6 => .dma (recvS 1 0) | 7 => .dma (recvS 1 1)
  | 8 => .reg (capS 0) | 9 => .reg (capS 1)
  | ⟨_ + 10, h⟩ => absurd h (Nat.not_lt.2 (Nat.le_add_left _ _))

/-- Every semaphore a body touches: its own ten, then the barrier semaphore. -/
abbrev csem : Fin 11 → SemLoc sig := fun
  | 0 => .dma (sendS 0 0) | 1 => .dma (sendS 0 1) | 2 => .dma (recvS 0 0) | 3 => .dma (recvS 0 1)
  | 4 => .dma (sendS 1 0) | 5 => .dma (sendS 1 1) | 6 => .dma (recvS 1 0) | 7 => .dma (recvS 1 1)
  | 8 => .reg (capS 0) | 9 => .reg (capS 1) | 10 => .reg barS
  | ⟨_ + 11, h⟩ => absurd h (Nat.not_lt.2 (Nat.le_add_left _ _))

/-- Cell k of device c. -/
abbrev kcell (ck : Dev nD × Fin 11) : GSem nD τ sig := ((ck.1 : Thread nD τ), csem ck.2)

theorem ownSemFacts : Pipeline.OwnSemFacts cfg0.spec osem := by decide

theorem csem_injective : Function.Injective csem := by decide

theorem kcell_injective : Function.Injective (kcell : Dev nD × Fin 11 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- All the cells of all the devices. -/
def ringCells : Finset (GSem nD τ sig) := Finset.univ.map ⟨kcell, kcell_injective⟩

omit [FloatOps F] in
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

omit [FloatOps F] in
/-- The ten own counters at zero, one by one. -/
theorem ownSems0_eq (c : Dev nD) :
    (Pipeline.ownSems0 (Ix := ℕ) (Name := ℕ) (U := UU) (Lvl := ℕ) (Val := Elt F) (τ := τ) osem c : sProp 𝕄)
      = iprop(semVal (sendCell 0 0 c) 0 ∗ semVal (sendCell 0 1 c) 0 ∗ semVal (recvCell 0 0 c) 0 ∗ semVal (recvCell 0 1 c) 0
          ∗ semVal (sendCell 1 0 c) 0 ∗ semVal (sendCell 1 1 c) 0 ∗ semVal (recvCell 1 0 c) 0 ∗ semVal (recvCell 1 1 c) 0
          ∗ semVal (capCell 0 c) 0 ∗ semVal (capCell 1 c) 0) := by
  rw [Pipeline.ownSems0_eq_of_list c osem [0, 1, 2, 3, 4, 5, 6, 7, 8, 9] (by decide) (by decide)]; rfl

omit [FloatOps F] in
/-- The barrier semaphore is the one semaphore of a device that is not scoped to the region. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All eleven counters of a device at zero. -/
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 11 => semVal (kcell (c, k)) 0 : sProp 𝕄) := by
  rw [ownSems0_eq, unscopedSems0_eq, bigSep_fin11]
  iintro ⟨⟨H0, H1, H2, H3, H4, H5, H6, H7, H8, H9⟩, HB⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HB

/-! ## The ghost state minted at launch -/

/-- The launch element: the pipeline library's copy of the machine's algebra; the rounds discipline over every cell,
    with the duty tokens T; the release counts of all thirty-two receive slots, each with two writes ahead. -/
def u₀ (T : Finset (GSem nD τ sig × ℕ × DN)) : UU :=
  (initOf (Pipeline.cells cfgs cellOf_inj) (Pipeline.launchToks cfgs cellOf_inj),
    (initOf ringCells T, Release.initSlots (Finset.univ : Finset KS) 2))

/-- What is minted once for the whole mesh rather than per device: the duty tokens and the release counts. -/
def minted (T : Finset (GSem nD τ sig × ℕ × DN)) : sProp 𝕄 :=
  iprop((bigSep T fun x => dutyTok ER x.1 x.2.1 x.2.2) ∗ BI.own (ES (Release.initSlots (Finset.univ : Finset KS) 2)))

/-- It travels through the launch with device 0. -/
def dealt0 (T : Finset (GSem nD τ sig × ℕ × DN)) (c : Dev nD) : sProp 𝕄 := if c = 0 then minted T else (BI.emp : sProp 𝕄)

omit [FloatOps F] in
theorem dealt0_all (T : Finset (GSem nD τ sig × ℕ × DN)) :
    bigSep Finset.univ (dealt0 (F := F) T) = iprop(minted T ∗ emp) := by
  have h : bigSep (Finset.univ.erase (0 : Dev nD)) (dealt0 (F := F) T)
      = bigSep (Finset.univ.erase (0 : Dev nD)) (fun _ => (BI.emp : sProp 𝕄)) :=
    bigSep_congr fun c hc => by unfold dealt0; rw [if_neg (Finset.ne_of_mem_erase hc)]
  rw [bigSep_univ_at _ (0 : Dev nD), h, bigSep_emp_const]
  unfold dealt0; rw [if_pos rfl]; rfl

/-- What the launch element deals device c (the launch theorem's G): the round state of each of its cells at counter
    zero, its position at the start of round 0 of each and that round 0 of each is reached, and, with device 0, what is
    minted once. -/
def G (Rd : Rounds.Schedule (GSem nD τ sig) DN 𝕄) (T : Finset (GSem nD τ sig × ℕ × DN)) (c : Dev nD) : sProp 𝕄 :=
  iprop((bigSep Finset.univ fun k : Fin 11 => roundState ER Rd (kcell (c, k)) 0)
    ∗ (bigSep Finset.univ fun k : Fin 11 => iprop(atPos ER (kcell (c, k)) 0 ∅ 0 ∗ reached ER (kcell (c, k)) 0))
    ∗ dealt0 T c)

omit [FloatOps F] in
/-- Funding: the rounds element and the release element are every device's G. -/
theorem fund_ring (Rd : Rounds.Schedule (GSem nD τ sig) DN 𝕄) (T : Finset (GSem nD τ sig × ℕ × DN)) :
    iprop(BI.own (ER (initOf ringCells T)) ∗ BI.own (ES (Release.initSlots (Finset.univ : Finset KS) 2)))
      ⊢ (|==> bigSep Finset.univ (G Rd T) : sProp 𝕄) := by
  have hX (Φ : GSem nD τ sig → sProp 𝕄) :
      bigSep ringCells Φ = bigSep Finset.univ fun c : Dev nD => bigSep Finset.univ fun k : Fin 11 => Φ (kcell (c, k)) := by
    unfold ringCells; rw [bigSep_map, bigSep_univ_prod]; rfl
  iintro ⟨HX, HS⟩
  imod (Rounds.fund ER Rd ringCells T) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  unfold G; simp only [bigSep_sep']
  rw [dealt0_all]
  isplitl [Hst']; · iexact Hst'
  isplitl [Hat' Hr']
  · isplitl [Hat'] <;> iassumption
  isplitl
  · unfold minted
    isplitl [Htok] <;> iassumption
  · iempintro

/-- One device's eleven counters and round states become its cells' invariants, each at some name. -/
theorem core_alloc (Rd : Rounds.Schedule (GSem nD τ sig) DN 𝕄) [∀ g r d, BI.Storable (upEmb : UEmb _ 𝕄) (Rd.payload g r d)]
    (T : Finset (GSem nD τ sig × ℕ × DN)) (c : Dev nD) :
    iprop(Pipeline.ownSems0 (Ix := ℕ) (Name := ℕ) (U := UU) (Lvl := ℕ) (Val := Elt F) (τ := τ) osem c ∗ unscopedSems0 c ∗ G Rd T c)
      ⊢ |={Set.univ}=> iprop((bigSep Finset.univ fun k : Fin 11 => iprop(∃ κ : ℕ, cellInv ER Rd κ (kcell (c, k))))
          ∗ (bigSep Finset.univ fun k : Fin 11 => iprop(atPos ER (kcell (c, k)) 0 ∅ 0 ∗ reached ER (kcell (c, k)) 0))
          ∗ dealt0 T c) := by
  unfold G
  iintro ⟨Hos, Hus, Hst, Hat, Hd⟩
  ihave Hv := (sems0_eq (F := F) c) $$ [Hos Hus]
  · isplitl [Hos] <;> iassumption
  imod (show iprop((bigSep Finset.univ fun k : Fin 11 => semVal (kcell (c, k)) 0) ∗ bigSep Finset.univ fun k : Fin 11 => roundState ER Rd (kcell (c, k)) 0)
      ⊢ (|={Set.univ}=> bigSep Finset.univ fun k : Fin 11 => iprop(∃ κ : ℕ, cellInv ER Rd κ (kcell (c, k))) : sProp 𝕄) from by
        rw [← bigSep_sep']
        exact (bigSep_mono fun k _ => (Rounds.body_intro ER Rd (kcell (c, k))).trans inv_alloc).trans (bigSep_fupd _ _)) $$ [Hv Hst] with Hinv
  · isplitl [Hv] <;> iassumption
  imodintro
  isplitl [Hinv]; · iexact Hinv
  isplitl [Hat]; · iexact Hat
  iexact Hd

/-- The dealing: with every cell's invariant allocated and the release counts opened, everything the launch minted is
    regrouped by device.  How it is dealt is the protocol's (the hypothesis hdeal): the invariants and the reached
    rounds are persistent and go to whoever needs them; positions stay with the cell's owner; a duty's token goes to
    its payer; a slot's reader count to the device that holds the slot, the tokens of its writes to its upstream
    neighbour. -/
theorem regroup (Rd : Rounds.Schedule (GSem nD τ sig) DN 𝕄) (T : Finset (GSem nD τ sig × ℕ × DN))
    (Sl : KS → sProp 𝕄) [∀ k, BI.Storable (upEmb : UEmb _ 𝕄) (Sl k)] (G' : Dev nD → sProp 𝕄)
    (hdeal : ∀ (Kn : Dev nD × Fin 11 → ℕ) (ιs : KS → ℕ), Function.Injective ιs →
      iprop((bigSep Finset.univ fun ck : Dev nD × Fin 11 => cellInv ER Rd (Kn ck) (kcell ck))
        ∗ (bigSep Finset.univ fun ck : Dev nD × Fin 11 => reached ER (kcell ck) 0)
        ∗ (bigSep Finset.univ fun ck : Dev nD × Fin 11 => atPos ER (kcell ck) 0 ∅ 0)
        ∗ (bigSep T fun x => dutyTok ER x.1 x.2.1 x.2.2)
        ∗ (bigSep (Finset.univ : Finset KS) fun k => Release.slotInv ES (ιs k) k (Sl k))
        ∗ (bigSep (Finset.univ : Finset KS) fun k => Release.readerAt ES k 0)
        ∗ (bigSep ((Finset.univ : Finset KS) ×ˢ Finset.range 2) fun x => Release.writeTok ES x.1 (x.2 + 1)))
      ⊢ (bigSep Finset.univ G' : sProp 𝕄)) :
    (bigSep Finset.univ fun c : Dev nD => iprop((bigSep Finset.univ fun k : Fin 11 => iprop(∃ κ : ℕ, cellInv ER Rd κ (kcell (c, k))))
          ∗ (bigSep Finset.univ fun k : Fin 11 => iprop(atPos ER (kcell (c, k)) 0 ∅ 0 ∗ reached ER (kcell (c, k)) 0))
          ∗ dealt0 T c) : sProp 𝕄)
      ⊢ |={Set.univ}=> bigSep Finset.univ G' := by
  rw [bigSep_sep', bigSep_sep', ← bigSep_univ_prod (fun ck : Dev nD × Fin 11 => iprop(∃ κ : ℕ, cellInv ER Rd κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄)),
    ← bigSep_univ_prod (fun ck : Dev nD × Fin 11 => (atPos ER (kcell ck) 0 ∅ 0 : sProp 𝕄)), dealt0_all]
  iintro ⟨HI, ⟨Hat, #HR⟩, ⟨Hm, -⟩⟩
  unfold minted
  icases Hm with ⟨Htok, HS⟩
  ihave HK := (BI.bigSep_exists_pi Finset.univ (fun (ck : Dev nD × Fin 11) (κ : ℕ) => (cellInv ER Rd κ (kcell ck) : sProp 𝕄))) $$ HI
  icases HK with ⟨%Kn, #HI⟩
  imod (Release.slots_init ES (Finset.univ : Finset KS) 2 Sl (Es := Set.univ)) $$ HS with ⟨%ιs, %hι, Hinv, Hrd, Hwr⟩
  imodintro
  iapply (hdeal Kn ιs fun a b h => hι.1 (Finset.mem_coe.mpr (Finset.mem_univ a)) (Finset.mem_coe.mpr (Finset.mem_univ b)) h)
  isplitr; · iexact HI
  isplitr; · iexact HR
  isplitl [Hat]; · iexact Hat
  isplitl [Htok]; · iexact Htok
  isplitl [Hinv]; · iexact Hinv
  isplitl [Hrd]; · iexact Hrd
  iexact Hwr

/-- The global step of the launch: own and unscoped counters of every device at once. -/
theorem glob (Rd : Rounds.Schedule (GSem nD τ sig) DN 𝕄) [∀ g r d, BI.Storable (upEmb : UEmb _ 𝕄) (Rd.payload g r d)]
    (T : Finset (GSem nD τ sig × ℕ × DN))
    (Sl : KS → sProp 𝕄) [∀ k, BI.Storable (upEmb : UEmb _ 𝕄) (Sl k)] (G' : Dev nD → sProp 𝕄)
    (hdeal : ∀ (Kn : Dev nD × Fin 11 → ℕ) (ιs : KS → ℕ), Function.Injective ιs →
      iprop((bigSep Finset.univ fun ck : Dev nD × Fin 11 => cellInv ER Rd (Kn ck) (kcell ck))
        ∗ (bigSep Finset.univ fun ck : Dev nD × Fin 11 => reached ER (kcell ck) 0)
        ∗ (bigSep Finset.univ fun ck : Dev nD × Fin 11 => atPos ER (kcell ck) 0 ∅ 0)
        ∗ (bigSep T fun x => dutyTok ER x.1 x.2.1 x.2.2)
        ∗ (bigSep (Finset.univ : Finset KS) fun k => Release.slotInv ES (ιs k) k (Sl k))
        ∗ (bigSep (Finset.univ : Finset KS) fun k => Release.readerAt ES k 0)
        ∗ (bigSep ((Finset.univ : Finset KS) ×ˢ Finset.range 2) fun x => Release.writeTok ES x.1 (x.2 + 1)))
      ⊢ (bigSep Finset.univ G' : sProp 𝕄)) :
    (bigSep Finset.univ fun c => iprop(Pipeline.ownSems0 (Ix := ℕ) (Name := ℕ) (U := UU) (Lvl := ℕ) (Val := Elt F) (τ := τ) osem c ∗ unscopedSems0 c ∗ G Rd T c) : sProp 𝕄)
      ⊢ |={Set.univ}=> bigSep Finset.univ G' :=
  (((bigSep_mono fun c _ => core_alloc Rd T c).trans (bigSep_fupd _ _)).trans (BI.fupd_mono (regroup Rd T Sl G' hdeal))).trans (Entails.of_eq (fupd_idem_eq _))

/-! ## The body obligation from the body lemma -/

abbrev 𝒱₀ : Variants := Variants.none

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device c runs from at the one grid point: the proof data's invariant before the point, what
    the device owes, and the four staging buffers as the pipeline hands them over. -/
def bodyPre (dats : Fin 1 → (c : Dev nD) → Dat τ (Elt F) ℕ ℕ UU ℕ cfg0 c) (c : Dev nD) : sProp 𝕄 :=
  iprop((dats 0 c).Φ t0_0.castSucc ∗ (dats 0 c).owesAt 0 t0_0.castSucc
    ∗ (∃ d, stg c cc0_stg0_0 ((dats 0 c).before (0 : Fin 4) t0_0 d))
    ∗ (∃ d, stg c cc0_stg1_0 ((dats 0 c).before (1 : Fin 4) t0_0 d))
    ∗ (∃ d, stg c cc0_stg2_0 ((dats 0 c).before (2 : Fin 4) t0_0 d))
    ∗ (∃ d, stg c cc0_stg3_0 ((dats 0 c).before (3 : Fin 4) t0_0 d)))

/-- What it must reach: the invariant after the point, what the device then owes, and each staging buffer at the
    contents the proof data names. -/
def bodyPost (dats : Fin 1 → (c : Dev nD) → Dat τ (Elt F) ℕ ℕ UU ℕ cfg0 c) (c : Dev nD) : sProp 𝕄 :=
  iprop((dats 0 c).Φ t0_0.succ ∗ (dats 0 c).owesAt 0 t0_0.succ
    ∗ stg c cc0_stg0_0 ((dats 0 c).after (0 : Fin 4) t0_0)
    ∗ stg c cc0_stg1_0 ((dats 0 c).after (1 : Fin 4) t0_0)
    ∗ stg c cc0_stg2_0 ((dats 0 c).after (2 : Fin 4) t0_0)
    ∗ stg c cc0_stg3_0 ((dats 0 c).after (3 : Fin 4) t0_0))

set_option maxRecDepth 8000 in
/-- The library's body obligation at device c, from the body run between bodyPre and bodyPost. -/
theorem body_obligation (dats : Fin 1 → (c : Dev nD) → Dat τ (Elt F) ℕ ℕ UU ℕ cfg0 c) (c : Dev nD)
    (hbody : bodyPre dats c ⊢ wp frame (wpE (defs₀ (F := F)) 𝒱₀ c none) Set.univ (bodyAt0 t0_0) (fun _ => bodyPost dats c)) :
    BodyObligation (dats 0 c) (defs₀ (F := F)) 𝒱₀ 0 Set.univ := fun t => by
  rw [fin_N0 t]
  rw [bigSep_W0, bigSep_W0]
  simp only [owns_whole_eq]
  exact hbody

/-! ## Entry and exit of the region -/

/-- A device's four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

omit [FloatOps F] in
theorem scratch_eq (c : Dev nD) :
    (Pipeline.scopedRest (Ix := ℕ) (Name := ℕ) (U := UU) (Lvl := ℕ) (Val := Elt F) spec0 c : sProp 𝕄) = scratch c :=
  scopedRest0_eq c

/-- What device c enters its region with, the scratch buffers apart: what the global step dealt it, the credit of
    every unit any device owes one of its cells, and the levels. -/
def start (G' : Dev nD → sProp 𝕄) (O₀ : Dev nD → CellTallies nD τ sig ℕ) (L : GSem nD τ sig → Finset ℕ) (lv : GSem nD τ sig → ℕ → ℕ)
    (c : Dev nD) : sProp 𝕄 :=
  iprop(G' c ∗ Pipeline.launchCred O₀ c ∗ levAts L lv)

theorem start_intro (m : Mem F) (ρ : Dev nD → PrngReg) (G' : Dev nD → sProp 𝕄) (O₀ : Dev nD → CellTallies nD τ sig ℕ)
    (L : GSem nD τ sig → Finset ℕ) (lv : GSem nD τ sig → ℕ → ℕ) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(start G' O₀ L lv c ∗ emp) := by
  iintro ⟨-, Hlev, Hcr, -, HG⟩
  imodintro
  unfold start
  isplitl
  · isplitl [HG]; · iexact HG
    isplitl [Hcr]; · iexact Hcr
    iexact Hlev
  · iempintro

theorem phi0_intro (dats : Fin 1 → (c : Dev nD) → Dat τ (Elt F) ℕ ℕ UU ℕ cfg0 c)
    (G' : Dev nD → sProp 𝕄) (O₀ : Dev nD → CellTallies nD τ sig ℕ) (L : GSem nD τ sig → Finset ℕ) (lv : GSem nD τ sig → ℕ → ℕ)
    (hentry : ∀ c, iprop(G' c ∗ Pipeline.launchCred O₀ c ∗ levAts L lv ∗ scratch c) ⊢ (dats 0 c).Φ 0) (c : Dev nD) :
    iprop(start G' O₀ L lv c ∗ Pipeline.prefHeld Pipeline.Prefetch.none c (fun _ => fullShare.right) (fun k => k.elim0) ∗ Pipeline.scopedRest cfg0.spec c)
      ⊢ (dats 0 c).Φ 0 := by
  rw [scratch_eq]
  unfold start
  iintro ⟨⟨HG, Hcr, Hlev⟩, -, Hs⟩
  iapply (hentry c)
  isplitl [HG]; · iexact HG
  isplitl [Hcr]; · iexact Hcr
  isplitl [Hlev]; · iexact Hlev
  iexact Hs

theorem phi1_exit (dats : Fin 1 → (c : Dev nD) → Dat τ (Elt F) ℕ ℕ UU ℕ cfg0 c)
    (hexit : ∀ c, (dats 0 c).Φ (Fin.last cfg0.N)
      ⊢ iprop(Pipeline.ownSems0 (Ix := ℕ) (Name := ℕ) (U := UU) (Lvl := ℕ) (Val := Elt F) (τ := τ) osem c ∗ scratch c)) (c : Dev nD) :
    (dats 0 c).Φ (Fin.last cfg0.N) ⊢ iprop(emp ∗ Pipeline.ownSems0 osem c ∗ Pipeline.scopedRest cfg0.spec c) := by
  rw [scratch_eq]
  iintro H
  ihave H' := (hexit c) $$ H
  icases H' with ⟨Hs, Hr⟩
  isplitr; · iempintro
  isplitl [Hs] <;> iassumption

/-! ## The run -/

set_option maxRecDepth 8000 in
/-- At the compiled mesh of eight devices, for any float values, from any memory with every counter at zero: every
    weakly fair execution of the program terminates without fault, and every final state has each windowed array of
    each device at the contents the proof data computes (an argument array as launched, the result array as the
    body's write-back leaves it). -/
theorem run_main (m : Mem F) (ρ : Dev nD → PrngReg)
    (Rd : Rounds.Schedule (GSem nD τ sig) DN 𝕄) [∀ g r d, BI.Storable (upEmb : UEmb _ 𝕄) (Rd.payload g r d)]
    (T : Finset (GSem nD τ sig × ℕ × DN))
    (Sl : KS → sProp 𝕄) [∀ k, BI.Storable (upEmb : UEmb _ 𝕄) (Sl k)]
    (dats : Fin 1 → (c : Dev nD) → Dat τ (Elt F) ℕ ℕ UU ℕ cfg0 c)
    (hA : ∀ c w, (dats 0 c).A w = m ((cfg0.win w).arr.view.loc (c : Thread nD τ)))
    (hq : ∀ c w, (dats 0 c).q w = fullShare)
    (O₀ : Dev nD → CellTallies nD τ sig ℕ)
    (howed₀ : ∀ c, (dats 0 c).owed 0 = O₀ c) (howedN : ∀ c, (dats 0 c).owed (Fin.last _) = 0)
    (L : GSem nD τ sig → Finset ℕ) (lv : GSem nD τ sig → ℕ → ℕ) (hL : ∀ g : GSem nD τ sig, g.1.2 ≠ .tc → L g = ∅)
    (hwaits : ∀ c, (levAts L lv : sProp 𝕄) ⊢ Pipeline.cellsWaits cfgs dats 0 0 c)
    (G' : Dev nD → sProp 𝕄)
    (hdeal : ∀ (Kn : Dev nD × Fin 11 → ℕ) (ιs : KS → ℕ), Function.Injective ιs →
      iprop((bigSep Finset.univ fun ck : Dev nD × Fin 11 => cellInv ER Rd (Kn ck) (kcell ck))
        ∗ (bigSep Finset.univ fun ck : Dev nD × Fin 11 => reached ER (kcell ck) 0)
        ∗ (bigSep Finset.univ fun ck : Dev nD × Fin 11 => atPos ER (kcell ck) 0 ∅ 0)
        ∗ (bigSep T fun x => dutyTok ER x.1 x.2.1 x.2.2)
        ∗ (bigSep (Finset.univ : Finset KS) fun k => Release.slotInv ES (ιs k) k (Sl k))
        ∗ (bigSep (Finset.univ : Finset KS) fun k => Release.readerAt ES k 0)
        ∗ (bigSep ((Finset.univ : Finset KS) ×ˢ Finset.range 2) fun x => Release.writeTok ES x.1 (x.2 + 1)))
      ⊢ (bigSep Finset.univ G' : sProp 𝕄))
    (hentry : ∀ c, iprop(G' c ∗ Pipeline.launchCred O₀ c ∗ levAts L lv ∗ scratch c) ⊢ (dats 0 c).Φ 0)
    (hexit : ∀ c, (dats 0 c).Φ (Fin.last cfg0.N)
      ⊢ iprop(Pipeline.ownSems0 (Ix := ℕ) (Name := ℕ) (U := UU) (Lvl := ℕ) (Val := Elt F) (τ := τ) osem c ∗ scratch c))
    (hbody : ∀ c, bodyPre dats c ⊢ wp frame (wpE (defs₀ (F := F)) 𝒱₀ c none) Set.univ (bodyAt0 t0_0) (fun _ => bodyPost dats c)) :
    θ_run defs (onTc (τ := τ) (main (F := F))) ⟨m, fun _ => 0, ρ⟩
      (fun r => ∀ c : Dev nD, ∀ w : Fin cfg0.W, r.2.mem ((cfg0.win w).arr.view.loc (c : Thread nD τ)) = (dats 0 c).arrAt w cfg0.N) :=
  Pipeline.θ_run_region_owing_glob_pf (fun p => (cfgs p).toPCfg) (fun p => (cfgs p).toPCfg_adm) dats 0 cellOf_inj (0 : Fin 1)
    winFacts0.to₀ ownSemFacts (Pipeline.PreFacts.none _) EP defs₀ 𝒱₀ m ρ main
    (hmain := fun _ => rfl)
    (hbody := fun c => body_obligation dats c (hbody c)) (hne := block_pos0) (harr := arr_whole0) (hstage := stage_whole0)
    (hshare := fun c w => Pipeline.Dat.share_full (dats 0 c) (hq c) w)
    (hdistinct := winFacts0.arr_inj)
    (O₀ := O₀) (howed₀ := howed₀) (howedN := howedN)
    (L := L) (lv := lv) (hL := hL) (hwaits := hwaits)
    (G := G Rd T) (G' := G') (u₀ := u₀ T)
    (hu₀ := by
      unfold u₀
      iintro Hu
      ihave H := (ownU_pair _ _) $$ Hu
      icases H with ⟨HP, HX⟩
      ihave H2 := (own_pair_emb embR _ _) $$ HX
      icases H2 with ⟨HR, HS⟩
      imod (fund_ring Rd T) $$ [HR HS] with HG
      · isplitl [HR] <;> iassumption
      imodintro
      isplitl [HP] <;> iassumption)
    (hglob := glob Rd T Sl G' hdeal)
    (hA := hA) (hpf := fun _ k => k.elim0)
    (X := start G' O₀ L lv) (Y := fun _ => iprop(emp)) (Z := fun _ => iprop(emp))
    (hX := start_intro m ρ G' O₀ L lv) (hin := phi0_intro dats G' O₀ L lv hentry) (hout := phi1_exit dats hexit)
    (QY := fun _ _ => True)
    (hY := fun c s' => by
      iintro ⟨-, -, HSI⟩
      imodintro
      isplitr; · ipureintro; trivial
      iexact HSI)
    (hQ := fun _ h c w => (h c).1 w)

/-- info: 'Cert.Kernel.RingProof.run_main' depends on axioms: [propext, Classical.choice, Quot.sound] -/
#guard_msgs in #print axioms run_main

end Cert.Kernel.RingProof

end
-- ==== Proof.RingStepsK.lean ====
/-
  One lemma per kind of protocol step, for a device `c`, a ring `p` and a hop `t`.
  * An entry signal to a neighbour says: my first receive slot in the ring that runs from you to me has been
    released once.  The entry wait collects both neighbours' words.
  * A credit grant `u` says everything grants `0 … u` say.  A credit wait consumes one unit; whichever grants have
    landed are harvested, and once `n + 1` units are consumed some harvested grant has index `n` or more, so
    grant `n`'s facts are known.
  * A hop lends the left half of the source slot to the transfer (the right half stays for the arithmetic to
    read) and hands the destination slot, taken outright, to the downstream neighbour holding the block sent.
  * A send wait returns the lent half; a receive wait returns the slot whole, holding the upstream block.
-/
import proofs.«900462_g7700000000000463_dist_ring_attn_i_s2048_d256_v7x_i8_f32_1_alg».proof.Proof.RingTablesK
import proofs.«900462_g7700000000000463_dist_ring_attn_i_s2048_d256_v7x_i8_f32_1_alg».proof.Proof.RingLaunchK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig ℕ (Elt F) ℕ UU ℕ

variable (m : Mem F)

section Steps

variable {α : Type} {Q : α → sProp (MT nD τ sig ℕ (Elt F) ℕ UU ℕ)} (c : Dev nD) (p : Fin 2)

/-- Duty `j` is one of a barrier round's two. -/
theorem mem_firstN {n : ℕ} {d : DN} (h : d.val < n) : d ∈ firstN n :=
  Finset.mem_filter.mpr ⟨Finset.mem_univ _, h⟩

/-- The entry signal to the neighbour `n` that sees `c` as its ring-`j` upstream device (`j = 1` for the left
    neighbour, `0` for the right): `c`'s first receive slot of the ring running from `n` to `c` is released. -/
theorem wp_barsig (n : Dev nD) (j : Fin 2) (hn : upR j n = c) {k' : ℕ} (hk' : 1 = k')
    {k : PUnit → Prog (TpuEff nD τ sig (Elt F) Λ₀ .tc) α} {κ : ℕ}
    {O₀ : CellTallies nD τ sig ℕ} (O : CellTallies nD τ sig ℕ) (hO : O₀ = O + tallyAt (barCell n) 0 k') {W : Waits sig ℕ} :
    iprop(cellInv ER (ringRd m) κ (barCell n) ∗ owes (c : Thread nD τ) O₀ W ∗ dutyTok ER (barCell n) 0 (⟨j.val, by omega⟩ : DN)
        ∗ Release.released (ES (F := F)) ((c, (⟨1 - j.val, by omega⟩ : Fin 2), (1 : Fin 2)) : KS) 1 ∗ reached ER (barCell n) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n : Dev nD) : Thread nD τ) barS k') k) Q) := by
  iintro ⟨#HI, HO, Htok, #Hrel, #Hr⟩ Hk
  iapply (Rounds.wp_signal 𝒱₀ ER (ringRd m) (c : Thread nD τ) none (dst := ((n : Dev nD) : Thread nD τ)) (κ := κ)
      (r := 0) (d := (⟨j.val, by omega⟩ : DN)) (by rw [duties_bar m n]; exact mem_firstN j.isLt) ((amount_bar m n 0 _).trans hk') 0 O hO)
    $$ [HO Htok]
  · isplitr; · iexact HI
    isplitl [HO]; · iexact HO
    isplitl [Htok]; · iexact Htok
    isplitr
    · rw [payload_bar m n 0 j]; unfold barPay; rw [hn]; iexact Hrel
    · iexact Hr
  iexact Hk

theorem nCap_le : ∀ p : Fin 2, nCap p ≤ 3 := by decide
/-- Grant `u` as a duty name. -/
def capD (p : Fin 2) (u : ℕ) (hu : u < nCap p) : DN := ⟨u, Nat.lt_of_lt_of_le hu (nCap_le p)⟩

/-- A credit grant: grant `u` of ring `p` to the upstream neighbour, saying what grants `0 … u` say about `c`. -/
theorem wp_grant (u : ℕ) (hu : u < nCap p) {k' : ℕ} (hk' : 1 = k') {k : PUnit → Prog (TpuEff nD τ sig (Elt F) Λ₀ .tc) α} {κ : ℕ}
    {O₀ : CellTallies nD τ sig ℕ} (O : CellTallies nD τ sig ℕ) (hO : O₀ = O + tallyAt (capCell p (upR p c)) u k') {W : Waits sig ℕ} :
    iprop(cellInv ER (ringRd m) κ (capCell p (upR p c)) ∗ owes (c : Thread nD τ) O₀ W
        ∗ dutyTok ER (capCell p (upR p c)) 0 (capD p u hu)
        ∗ grantsUpTo (F := F) p c u ∗ reached ER (capCell p (upR p c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((upR p c : Dev nD) : Thread nD τ) (capS p) k') k) Q) := by
  iintro ⟨#HI, HO, Htok, #Hg, #Hr⟩ Hk
  iapply (Rounds.wp_signal 𝒱₀ ER (ringRd m) (c : Thread nD τ) none (dst := ((upR p c : Dev nD) : Thread nD τ)) (κ := κ)
      (r := 0) (d := capD p u hu) (by rw [duties_cap m _ p]; exact mem_firstN hu) ((amount_cap m _ p 0 _).trans hk') u O hO)
    $$ [HO Htok]
  · isplitr; · iexact HI
    isplitl [HO]; · iexact HO
    isplitl [Htok]; · iexact Htok
    isplitr
    · rw [payload_cap]; rw [dnR_upR]; iexact Hg
    · iexact Hr
  iexact Hk

/-- The wait on `c`'s send cell of slot `b`, round `r`: the lent half back, at what was sent. -/
theorem wp_sendwait (b : Fin 2) (r : ℕ) (hr : r < nSend p b) (ι : ℕ) {sp' : Space} {s' : Shape} {e' : EltTy} {src : Memref sig .tc sp' s' e'} {κ' : Idealize.ShloMosaic.Kind}
    {dst : Memref sig κ' .vmem S2x2048x256 .bf16} (hd : dst.view.dmaCredit = Ncr) {hsrc : src.view.WordExact} {hdst : dst.view.WordExact}
    {k : PUnit → Prog (TpuEff nD τ sig (Elt F) Λ₀ .tc) α} {κ : ℕ} {O : CellTallies nD τ sig ℕ} {W : Waits sig ℕ} :
    iprop(cellInv ER (ringRd m) κ (sendCell p b c) ∗ cred (tallyAt (sendCell p b c) ι Ncr) ∗ owes (c : Thread nD τ) O W
        ∗ MayWait (c : Thread nD τ) (.dma (sendS p b)) ι O ∗ atPos ER (sendCell p b c) r ∅ 0)
      ⊢ iprop(((owes (c : Thread nD τ) O (insert (SemLoc.dma (sendS p b), ι) W) ∗ atPos ER (sendCell p b c) (r + 1) ∅ 0 ∗ reached ER (sendCell p b c) (r + 1)
              ∗ slotLent c p b (sentV m p (2 * r + b.val) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS p b) src dst hsrc hdst) k) Q) := by
  rw [← hd]
  iintro ⟨#HI, Hc, HO, #Hmw, Hat⟩ Hk
  iapply (Rounds.wp_wait_rest_token 𝒱₀ ER (ringRd m) (c : Thread nD τ) none (κ := κ) (k' := dst.view.dmaCredit)
      (wpE_waitDma2_eq 𝒱₀ (c : Thread nD τ) none Set.univ) (Set.mem_univ _) ι (O := O) (W := W) (R := r) (m := 0) (T := ∅)
      (by rw [Nat.zero_add, hd, expect_send m c p b hr])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_send m c p b hr)) $$ Hpay
  unfold sendPay
  isplitl [HO]; · iexact HO
  isplitl [Hat]; · iexact Hat
  isplitl [Hr]; · iexact Hr
  iexact Hp

/-- The wait on `c`'s receive cell of slot `b`, round `r`: the slot whole, holding the upstream block. -/
theorem wp_recvwait (b : Fin 2) (r : ℕ) (hr : r < nRecv p b) (ι : ℕ) {sp' : Space} {s' : Shape} {e' : EltTy} {src : Memref sig .tc sp' s' e'} {κ' : Idealize.ShloMosaic.Kind}
    {dst : Memref sig κ' .vmem S2x2048x256 .bf16} (hd : dst.view.dmaCredit = Ncr) {hsrc : src.view.WordExact} {hdst : dst.view.WordExact}
    {k : PUnit → Prog (TpuEff nD τ sig (Elt F) Λ₀ .tc) α} {κ : ℕ} {O : CellTallies nD τ sig ℕ} {W : Waits sig ℕ} :
    iprop(cellInv ER (ringRd m) κ (recvCell p b c) ∗ cred (tallyAt (recvCell p b c) ι Ncr) ∗ owes (c : Thread nD τ) O W
        ∗ MayWait (c : Thread nD τ) (.dma (recvS p b)) ι O ∗ atPos ER (recvCell p b c) r ∅ 0)
      ⊢ iprop(((owes (c : Thread nD τ) O (insert (SemLoc.dma (recvS p b), ι) W) ∗ atPos ER (recvCell p b c) (r + 1) ∅ 0 ∗ reached ER (recvCell p b c) (r + 1)
              ∗ slotAt c p b (sentV m p (2 * r + (1 - b.val)) (upR p c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS p b) src dst hsrc hdst) k) Q) := by
  rw [← hd]
  iintro ⟨#HI, Hc, HO, #Hmw, Hat⟩ Hk
  iapply (Rounds.wp_wait_rest_token 𝒱₀ ER (ringRd m) (c : Thread nD τ) none (κ := κ) (k' := dst.view.dmaCredit)
      (wpE_waitDma2_eq 𝒱₀ (c : Thread nD τ) none Set.univ) (Set.mem_univ _) ι (O := O) (W := W) (R := r) (m := 0) (T := ∅)
      (by rw [Nat.zero_add, hd, expect_recv m c p b hr])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_recv m c p b hr)) $$ Hpay
  unfold recvPay
  isplitl [HO]; · iexact HO
  isplitl [Hat]; · iexact Hat
  isplitl [Hr]; · iexact Hr
  iexact Hp

end Steps

end Cert.Kernel.RingProof

end
-- ==== Proof.RingSteps2K.lean ====
/-
  The protocol's remaining steps: the entry wait, a credit wait and what it harvests, a hop, and the hand-back
  of a slot to its writer.
-/
import proofs.«900462_g7700000000000463_dist_ring_attn_i_s2048_d256_v7x_i8_f32_1_alg».proof.Proof.RingStepsK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig ℕ (Elt F) ℕ UU ℕ

variable (m : Mem F)

section Steps

variable {α : Type} {Q : α → sProp (MT nD τ sig ℕ (Elt F) ℕ UU ℕ)} (c : Dev nD) (p : Fin 2)

/-! ## The entry wait -/

theorem firstN_two : firstN 2 = {(0 : DN), (1 : DN)} := by decide

/-- Both neighbours' words. -/
theorem rest_bar :
    bigSep ((ringRd (F := F) m).duties (barCell c) 0 \ ∅) (fun d => (ringRd (F := F) m).payload (barCell c) 0 d)
      = iprop(barPay (F := F) 0 c ∗ barPay (F := F) 1 c) := by
  rw [Finset.sdiff_empty, duties_bar, firstN_two, bigSep_insert (by decide), bigSep_singleton]
  rw [show ((0 : DN)) = (⟨(0 : Fin 2).val, by omega⟩ : DN) from rfl, show ((1 : DN)) = (⟨(1 : Fin 2).val, by omega⟩ : DN) from rfl,
    payload_bar m c 0 0, payload_bar m c 0 1]
  rfl

/-- The entry wait: two units, the whole round; each neighbour's first receive slot (in the ring that runs from
    `c` to it) has been released once. -/
theorem wp_barwait {k : PUnit → Prog (TpuEff nD τ sig (Elt F) Λ₀ .tc) α} {κ : ℕ}
    {O : CellTallies nD τ sig ℕ} {W : Waits sig ℕ} :
    iprop(cellInv ER (ringRd m) κ (barCell c) ∗ cred (tallyAt (barCell c) 0 2) ∗ owes (c : Thread nD τ) O W
        ∗ MayWait (c : Thread nD τ) (.reg barS) 0 O ∗ atPos ER (barCell c) 0 ∅ 0)
      ⊢ iprop(((owes (c : Thread nD τ) O (insert (SemLoc.reg barS, 0) W) ∗ atPos ER (barCell c) 1 ∅ 0 ∗ reached ER (barCell c) 1
              ∗ Release.released (ES (F := F)) ((lft c, (1 : Fin 2), (1 : Fin 2)) : KS) 1
              ∗ Release.released (ES (F := F)) ((rgt c, (0 : Fin 2), (1 : Fin 2)) : KS) 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  iintro ⟨#HI, Hc, HO, #Hmw, Hat⟩ Hk
  iapply (Rounds.wp_wait_rest_token 𝒱₀ ER (ringRd m) (c : Thread nD τ) none (κ := κ) (k' := 2)
      (wpE_semWait_eq 𝒱₀ (c : Thread nD τ) none Set.univ) (Set.mem_univ _) 0 (O := O) (W := W) (R := 0) (m := 0) (T := ∅)
      (by rw [Nat.zero_add, expect_bar m c])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_bar m c)) $$ Hpay
  unfold barPay
  icases Hp with ⟨H0, H1⟩
  isplitl [HO]; · iexact HO
  isplitl [Hat]; · iexact Hat
  isplitl [Hr]; · iexact Hr
  isplitl [H0]; · iexact H0
  iexact H1

/-! ## A credit wait -/

/-- What has been harvested from the grants in `T`. -/
def harvest (T : Finset DN) : sProp 𝕄 := bigSep T (fun d : DN => grantsUpTo (F := F) p (dnR p c) d.val)

instance harvest_persistent (T : Finset DN) : BI.Persistent (harvest (F := F) c p T) := by
  unfold harvest; infer_instance

theorem payload_cap_fun : (fun d : DN => (ringRd (F := F) m).payload (capCell p c) 0 d) = fun d : DN => grantsUpTo (F := F) p (dnR p c) d.val :=
  funext fun d => payload_cap m c p 0 d

/-- A harvest from at least `n + 1` grants knows grant `n`. -/
theorem harvest_grant {S : Finset DN} {n : ℕ} (h : n + 1 ≤ S.card) : harvest (F := F) c p S ⊢ grantFact (F := F) p (dnR p c) n := by
  obtain ⟨d, hd, hn⟩ := exists_ge_of_card h
  exact (bigSep_elim (Φ := fun d : DN => grantsUpTo (F := F) p (dnR p c) d.val) hd).trans (grantsUpTo_elim p (dnR p c) hn)

/-- One unit of ring `p`'s credit, the `n + 1`-th: the grants met so far join the harvest, and grant `n`'s facts
    are known — the downstream neighbour's slot `n mod 2` has been released `n / 2 + 1` times and its receive
    cell of that slot has come to round `(n + 1) / 2`. -/
theorem wp_capwait (n : ℕ) (T : Finset DN) {k : PUnit → Prog (TpuEff nD τ sig (Elt F) Λ₀ .tc) α} {κ : ℕ}
    {O : CellTallies nD τ sig ℕ} {W : Waits sig ℕ} :
    iprop(cellInv ER (ringRd m) κ (capCell p c) ∗ cred (tallyAt (capCell p c) n 1) ∗ owes (c : Thread nD τ) O W
        ∗ MayWait (c : Thread nD τ) (.reg (capS p)) n O ∗ atPos ER (capCell p c) 0 T n ∗ harvest (F := F) c p T)
      ⊢ iprop((∀ S : Finset DN, (owes (c : Thread nD τ) O (W ∪ {(SemLoc.reg (capS p), n)}) ∗ atPos ER (capCell p c) 0 S (n + 1)
              ∗ harvest (F := F) c p S ∗ grantFact (F := F) p (dnR p c) n)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait (capS p) 1) k) Q) := by
  iintro ⟨#HI, Hc, HO, #Hmw, Hat, #Hh⟩ Hk
  iapply (Rounds.wp_wait 𝒱₀ ER (ringRd m) (c : Thread nD τ) none (κ := κ) (k' := 1)
      (wpE_semWait_eq 𝒱₀ (c : Thread nD τ) none Set.univ) (Set.mem_univ _) {(SemLoc.reg (capS p), n)} (cr := Finsupp.single n 1)
      (O := O) (W := W) (R := 0) (m := n) (T := T) (by rw [Util.total_single]) (image_single_subset _ n 1)) $$ [Hc HO Hat]
  · isplitr; · iexact HI
    isplitl [Hc]; · iexact Hc
    isplitl [HO]; · iexact HO
    isplitr; · iexact Hmw
    iexact Hat
  iintro %S ⟨%hS, HO, Hat, Hpay⟩
  obtain ⟨hTS, hSD, hcnt⟩ := hS
  have hcard : n + 1 ≤ S.card := by
    rw [duties_cap, expect_cap] at hcnt
    rw [duties_cap] at hSD
    have h1 := Finset.card_sdiff_of_subset hSD
    have h2 := card_firstN (nCap p) (nCap_le p)
    have h3 := Finset.card_le_card hSD
    omega
  rw [payload_cap_fun m c p]
  have hjoin : iprop(harvest (F := F) c p T ∗ harvest (F := F) c p (S \ T)) ⊢ harvest (F := F) c p S := by
    have hu : T ∪ (S \ T) = S := Finset.union_sdiff_of_subset hTS
    unfold harvest
    exact (bigSep_sep_union (Φ := fun d : DN => grantsUpTo (F := F) p (dnR p c) d.val) T (S \ T)).trans
      (Entails.of_eq (congrArg (fun X => bigSep X (fun d : DN => grantsUpTo (F := F) p (dnR p c) d.val)) hu))
  ihave HS := hjoin $$ [Hpay]
  · isplitr
    · iexact Hh
    · unfold harvest; iexact Hpay
  icases HS with #HS
  iapply Hk $$ %S
  isplitl [HO]; · iexact HO
  isplitl [Hat]; · iexact Hat
  isplitr; · iexact HS
  iapply (harvest_grant c p hcard); iexact HS

/-! ## A hop -/

/-- Hop `2r + b` of ring `p`: the left half of `c`'s slot `b`, holding what `c` sends on this hop, is lent to the
    transfer; the downstream neighbour's other slot, held outright, is handed to that neighbour holding the same
    block.  The addressee is a variable `n` equal to the neighbour, as the program names it by its device chain. -/
theorem wp_ringsend (b b' : Fin 2) (hb' : 1 - b'.val = b.val) (r : ℕ) (hs : r < nSend p b) (hr : r < nRecv p b') (ι : ℕ) (n : Dev nD) (hn : n = dnR p c)
    {hsc : (slotM p b' : Memref sig (Dev.tc n : Thread nD τ).2.kind .vmem S2x2048x256 .bf16).view.ref.isScScratch = false}
    {hsrc : (slotM p b).view.WordExact} {hdst : (slotM p b').view.WordExact}
    {hsem : DmaTarget.Typed .vmem (.dma (recvS p b')) (.remote (Dev.tc n : Thread nD τ) (slotM p b') (.dma (sendS p b)) hsc)}
    {k : PUnit → Prog (TpuEff nD τ sig (Elt F) Λ₀ .tc) α} {κ₁ κ₂ : ℕ}
    (fs : Buf (Elt F) ((slotM p b).view.loc (c : Thread nD τ)))
    (fd : Buf (Elt F) ((slotM p b').view.loc ((dnR p c : Dev nD) : Thread nD τ)))
    (hv : (slotM p b).view.read (Elt F) fs = sentV m p (2 * r + b.val) c)
    {O₀ : CellTallies nD τ sig ℕ} (O : CellTallies nD τ sig ℕ) (hO : O₀ = O + tallyAt (recvCell p b' (dnR p c)) ι Ncr) {W : Waits sig ℕ} :
    iprop(cellInv ER (ringRd m) κ₁ (sendCell p b c) ∗ cellInv ER (ringRd m) κ₂ (recvCell p b' (dnR p c))
        ∗ slotPts c p b fullShare.left fs ∗ slotPts (dnR p c) p b' fullShare fd
        ∗ owes (c : Thread nD τ) O₀ W
        ∗ dutyTok ER (sendCell p b c) r (0 : DN) ∗ reached ER (sendCell p b c) r
        ∗ dutyTok ER (recvCell p b' (dnR p c)) r (0 : DN) ∗ reached ER (recvCell p b' (dnR p c)) r)
      ⊢ iprop(((cred (tallyAt (sendCell p b c) ι Ncr) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM p b) (.remote (Dev.tc n : Thread nD τ) (slotM p b') (.dma (sendS p b)) hsc) (.dma (recvS p b')) hsrc hdst hsem) k) Q) := by
  subst hn
  unfold slotPts
  iintro ⟨#HI1, #HI2, Hs, Hd, HO, Ht1, #Hr1, Ht2, #Hr2⟩ Hk
  iapply (Rounds.wp_send_pointsTo 𝒱₀ ER (ringRd m) (c : Thread nD τ) none (κ₁ := κ₁) (κ₂ := κ₂)
      (r₁ := r) (r₂ := r) (d₁ := (0 : DN)) (d₂ := (0 : DN)) (fs := fs) (fd := fd)
      (by rw [duties_send m c p b hs]; exact Finset.mem_singleton_self _) (by rw [duties_recv m _ p b' hr]; exact Finset.mem_singleton_self _)
      ι ι Ncr rfl (amount_send m c p b r 0) (amount_recv m _ p b' r 0) O hO (W := W)
      (by rw [payload_send]; unfold sendPay slotLent slotPts; iintro H; iexists fs; isplitr; · ipureintro; exact hv
          iexact H)
      (by
        rw [payload_recv]; unfold recvPay slotAt slotPts; rw [upR_dnR, hb']
        iintro H
        iexists ((slotM p b').view.write (Elt F) fd ((slotM p b).view.read (Elt F) fs) Finset.univ)
        isplitr; · ipureintro; rw [View.read_write_univ]; exact hv
        iexact H)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

end Steps

end Cert.Kernel.RingProof

end
-- ==== Proof.RingReadoffK.lean ====
/-
  Reading the run of the ring: from "every windowed array ends at the contents the proof data computes" to the two
  posts the claims state, the argument arrays unchanged and the result array at the output window's contents.
-/
import proofs.«900462_g7700000000000463_dist_ring_attn_i_s2048_d256_v7x_i8_f32_1_alg».proof.Proof.RingLaunchK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Reading the run's post

The run ends with every windowed array of every device at the contents the proof data computes.  The three argument
arrays are input windows, never written back: they end as launched.  The result array is the one output window, its
block the whole array, written back once at the one grid point: it ends at what the body left in its staging buffer. -/

/-- An input window's array ends as launched. -/
theorem final_arg (m : Mem F) (dats : Fin 1 → (c : Dev nD) → Dat τ (Elt F) ℕ ℕ UU ℕ cfg0 c)
    (hA : ∀ c w, (dats 0 c).A w = m ((cfg0.win w).arr.view.loc (c : Thread nD τ)))
    (c : Dev nD) (w : Fin cfg0.W) (hw : (cfg0.win w).isOut = false) :
    (dats 0 c).arrAt w cfg0.N = m ((cfg0.win w).arr.view.loc (c : Thread nD τ)) :=
  ((dats 0 c).arrAt_in w hw _).trans (hA c w)

set_option maxRecDepth 8000 in
/-- The result array ends at the contents the body leaves in the output window's staging buffer: the write-back at the
    one point writes all of the array, and a view of all of an array reads what was written. -/
theorem final_out (dats : Fin 1 → (c : Dev nD) → Dat τ (Elt F) ℕ ℕ UU ℕ cfg0 c) (c : Dev nD) :
    (dats 0 c).arrAt (3 : Fin 4) cfg0.N = (dats 0 c).after (3 : Fin 4) t0_0 := by
  have h := (dats 0 c).arrAt_succ (3 : Fin 4) t0_0
  rw [flush0_3 t0_0, if_pos rfl] at h
  have hr : ∀ X : Buf (Elt F) ((c : Thread nD τ).loc main_v1), ((cfg0.win (3 : Fin 4)).blk t0_0).view.read (Elt F) X = X := fun X =>
    Memref.read_access_unit_zero (Elt F) main_v1 (funext fun a => by fin_cases a <;> rfl) _ X
  have hw := View.read_write_univ (Val := Elt F) (v := ((cfg0.win (3 : Fin 4)).blk t0_0).view)
    ((dats 0 c).arrAt (3 : Fin 4) t0_0.val) ((dats 0 c).flushed (3 : Fin 4) t0_0)
  rw [hr] at hw
  exact h.trans hw

set_option maxRecDepth 8000 in
/-- The run with its strongest post: on every device the result array ends at the proof data's contents of the
    output window, and the three argument arrays end as launched. -/
theorem run_value (m : Mem F) (ρ : Dev nD → PrngReg) (dats : Fin 1 → (c : Dev nD) → Dat τ (Elt F) ℕ ℕ UU ℕ cfg0 c)
    (hA : ∀ c w, (dats 0 c).A w = m ((cfg0.win w).arr.view.loc (c : Thread nD τ)))
    (hrun : θ_run defs (onTc (τ := τ) (main (F := F))) ⟨m, fun _ => 0, ρ⟩
      (fun r => ∀ c : Dev nD, ∀ w : Fin cfg0.W, r.2.mem ((cfg0.win w).arr.view.loc (c : Thread nD τ)) = (dats 0 c).arrAt w cfg0.N)) :
    θ_run defs (onTc (τ := τ) (main (F := F))) ⟨m, fun _ => 0, ρ⟩ (fun r => ∀ c : Dev nD,
      r.2.mem ((c.tc : Thread nD τ).loc main_v1) = (dats 0 c).after (3 : Fin 4) t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c (3 : Fin 4)).trans (final_out dats c),
      (h c (0 : Fin 4)).trans (final_arg m dats hA c (0 : Fin 4) rfl),
      (h c (1 : Fin 4)).trans (final_arg m dats hA c (1 : Fin 4) rfl),
      (h c (2 : Fin 4)).trans (final_arg m dats hA c (2 : Fin 4) rfl)⟩) hrun

/-- The frame: the run with the result's value dropped. -/
theorem run_frame (m : Mem F) (ρ : Dev nD → PrngReg) (dats : Fin 1 → (c : Dev nD) → Dat τ (Elt F) ℕ ℕ UU ℕ cfg0 c)
    (hA : ∀ c w, (dats 0 c).A w = m ((cfg0.win w).arr.view.loc (c : Thread nD τ)))
    (hrun : θ_run defs (onTc (τ := τ) (main (F := F))) ⟨m, fun _ => 0, ρ⟩
      (fun r => ∀ c : Dev nD, ∀ w : Fin cfg0.W, r.2.mem ((cfg0.win w).arr.view.loc (c : Thread nD τ)) = (dats 0 c).arrAt w cfg0.N)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ dats hA hrun)

/-- info: 'Cert.Kernel.RingProof.run_value' depends on axioms: [propext, Classical.choice, Quot.sound] -/
#guard_msgs in #print axioms run_value

/-- info: 'Cert.Kernel.RingProof.run_frame' depends on axioms: [propext, Classical.choice, Quot.sound] -/
#guard_msgs in #print axioms run_frame

end Cert.Kernel.RingProof

end
-- ==== Proof.RingValueK.lean ====
/-
  The kernel's value as a pure function of its inputs, for any float values.

  The body keeps a denominator column l (2048 × 1) and a numerator block acc (2048 × 256), both zeroed, and visits
  eight key/value blocks.  One visit ("accumulate") goes through the four chunks of 512 query rows: for chunk k it
  forms the weights  p = exp ((q_chunk · kᵀ) · 2⁻⁴),  adds their row sums to rows 512k … 512k+511 of l and the
  product p · v to the same rows of acc.  The result is acc divided, row by row, by l.

  Everything here is written over the same records, rectangles and evidence the printed program uses, so that each
  store and load the program makes is literally one of these terms.
-/
import proofs.«900462_g7700000000000463_dist_ring_attn_i_s2048_d256_v7x_i8_f32_1_alg».proof.Proof.Gen.Kernel.Skeleton

noncomputable section

namespace Cert.Kernel.AttnKer

open Cert.Kernel Cert.Kernel.Gen Idealize.ShloMosaic Idealize.SL.Sem

variable {F : FTy → Type} [FloatOps F]

/-- The contents of the denominator column's buffer. -/
abbrev LBuf (F : FTy → Type) : Type := cc0_scratch3.ty.Contents (Elt F)
/-- The contents of the numerator block's buffer. -/
abbrev ABuf (F : FTy → Type) : Type := cc0_scratch2.ty.Contents (Elt F)

/-- The rows `o … o+511` of the denominator column. -/
abbrev rowsL (o : Nat) (inb : ∀ a, (![o, 0] : Fin 2 → Nat) a + S512x1.size a ≤ S2048x1.size a) : Rect S2048x1 :=
  Rect.unit (s := S2048x1) ![o, 0] S512x1.size inb
/-- The rows `o … o+511` of the numerator block. -/
abbrev rowsA (o : Nat) (inb : ∀ a, (![o, 0] : Fin 2 → Nat) a + S512x256.size a ≤ S2048x256.size a) : Rect S2048x256 :=
  Rect.unit (s := S2048x256) ![o, 0] S512x256.size inb

/-- The weights of one chunk: the query rows from `o` on against a key block, scaled by 2⁻⁴, exponentiated. -/
def chunkW (o : Nat) (hs : S2048x256.Slices ![o, 0] S512x256) (qv kb : FVec F S2048x256 .bf16) : FVec F S512x2048 .f32 :=
  exp (mulf (matmul dot_S512x256_S2048x256_S512x2048_1_1_0_0_n_n none (extractStridedSlice S512x256 ![o, 0] qv hs) kb
    (constant S512x2048 .f32 0x00000000#32)) (broadcast S512x2048 (Scalar.ofBits .f32 0x3D800000#32)))

/-- The weights of chunk `k` of the four. -/
def weights (qv kb : FVec F S2048x256 .bf16) : Fin 4 → FVec F S512x2048 .f32
  | 0 => chunkW 0 slices_S2048x256_o0_0_S512x256 qv kb
  | 1 => chunkW 512 slices_S2048x256_o512_0_S512x256 qv kb
  | 2 => chunkW 1024 slices_S2048x256_o1024_0_S512x256 qv kb
  | 3 => chunkW 1536 slices_S2048x256_o1536_0_S512x256 qv kb

/-- What a chunk stores into its rows of the denominator: the old rows plus the weights' row sums. -/
def denVal (p : FVec F S512x2048 .f32) (old : Vec F S512x1 .f32) : FVec F S512x1 .f32 :=
  shapeCast S512x1 (addf old (shapeCast S512x1
    (multiReduction .add [1] S512 p 0x00000000#32 reduces_S512x2048_S512 (.inl rfl) rfl) shapeCasts_S512_S512x1))
    shapeCasts_S512x1_S512x1

/-- What a chunk stores into its rows of the numerator: the old rows plus the weights times the value block. -/
def numVal (p : FVec F S512x2048 .f32) (vb : FVec F S2048x256 .bf16) (old : Vec F S512x256 .f32) : FVec F S512x256 .f32 :=
  shapeCast S512x256 (addf old (matmul dot_S512x2048_S2048x256_S512x256_1_0_0_1_n_n none (truncf .bf16 p bitsLt_bf16_f32) vb
    (constant S512x256 .f32 0x00000000#32))) shapeCasts_S512x256_S512x256

/-- One chunk's new denominator buffer: rows `o … o+511` loaded, updated, stored back. -/
def stepL (o : Nat) (inb : ∀ a, (![o, 0] : Fin 2 → Nat) a + S512x1.size a ≤ S2048x1.size a)
    (p : FVec F S512x2048 .f32) (fl : LBuf F) : LBuf F :=
  ((Memref.whole cc0_scratch3).access (rowsL o inb)).write (Elt F) fl
    (denVal p ((Memref.whole cc0_scratch3).view.readAt (Elt F) (rowsL o inb).toLoadRect fl)) Finset.univ

/-- One chunk's new numerator buffer. -/
def stepA (o : Nat) (inb : ∀ a, (![o, 0] : Fin 2 → Nat) a + S512x256.size a ≤ S2048x256.size a)
    (p : FVec F S512x2048 .f32) (vb : FVec F S2048x256 .bf16) (fa : ABuf F) : ABuf F :=
  ((Memref.whole cc0_scratch2).access (rowsA o inb)).write (Elt F) fa
    (numVal p vb ((Memref.whole cc0_scratch2).view.readAt (Elt F) (rowsA o inb).toLoadRect fa)) Finset.univ

/-- One visit: the four chunks in order, against the key block `kb` and the value block `vb`. -/
def accumulate (qv kb vb : FVec F S2048x256 .bf16) (st : LBuf F × ABuf F) : LBuf F × ABuf F :=
  (stepL 1536 inb_S2048x1_S512x1_1536_0 (weights qv kb 3)
    (stepL 1024 inb_S2048x1_S512x1_1024_0 (weights qv kb 2)
      (stepL 512 inb_S2048x1_S512x1_512_0 (weights qv kb 1)
        (stepL 0 inb_S2048x1_S512x1_0_0 (weights qv kb 0) st.1))),
   stepA 1536 inb_S2048x256_S512x256_1536_0 (weights qv kb 3) vb
    (stepA 1024 inb_S2048x256_S512x256_1024_0 (weights qv kb 2) vb
      (stepA 512 inb_S2048x256_S512x256_512_0 (weights qv kb 1) vb
        (stepA 0 inb_S2048x256_S512x256_0_0 (weights qv kb 0) vb st.2))))

/-- The two buffers after the first `n` visits, from the zeroed start. -/
def visited (qv : FVec F S2048x256 .bf16) (kv : Fin 8 → FVec F S2048x256 .bf16 × FVec F S2048x256 .bf16) :
    Nat → LBuf F × ABuf F
  | 0 => (k0_pay10, k0_pay11)
  | n + 1 => if h : n < 8 then accumulate qv (kv ⟨n, h⟩).1 (kv ⟨n, h⟩).2 (visited qv kv n) else visited qv kv n

/-- The kernel's result block: the numerator read whole, divided by the denominator read whole, after the eight
    visits. -/
def kerOut (q : Vec F S2048x256 .f32) (kv : Fin 8 → FVec F S2048x256 .bf16 × FVec F S2048x256 .bf16) :
    Vec F S2048x256 .f32 :=
  k0_pay2
    ((Memref.whole cc0_scratch2).view.readAt (Elt F)
      (Rect.unit (s := S2048x256) ![0, 0] S2048x256.size inb_S2048x256_S2048x256_0_0).toLoadRect (visited (k0_pay9 q) kv 8).2)
    ((Memref.whole cc0_scratch3).view.readAt (Elt F)
      (Rect.unit (s := S2048x1) ![0, 0] S2048x1.size inb_S2048x1_S2048x1_0_0).toLoadRect (visited (k0_pay9 q) kv 8).1)

/-- The eight visits, one at a time. -/
theorem visited_succ (qv : FVec F S2048x256 .bf16) (kv : Fin 8 → FVec F S2048x256 .bf16 × FVec F S2048x256 .bf16)
    (n : Fin 8) : visited qv kv (n.val + 1) = accumulate qv (kv n).1 (kv n).2 (visited qv kv n.val) := by
  show (if h : n.val < 8 then _ else _) = _
  rw [dif_pos n.isLt]

/-! ## The printed payloads are these functions -/

theorem pay14_eq (v33 : FVec F S2048x256 .bf16) (v62 : Vec F S1x1x2048x256 .bf16) :
    k0_pay14 v33 v62 = weights v33 (k0_pay12 v62) 0 := rfl
theorem pay15_eq (v33 : FVec F S2048x256 .bf16) (v62 : Vec F S1x1x2048x256 .bf16) (v71 : Vec F S512x1 .f32) :
    k0_pay15 v33 v62 v71 = denVal (weights v33 (k0_pay12 v62) 0) v71 := rfl
theorem pay17_eq (v33 : FVec F S2048x256 .bf16) (v62 v64 : Vec F S1x1x2048x256 .bf16) (v80 : Vec F S512x256 .f32) :
    k0_pay17 (k0_pay16 v33 v62 v64 v80) = numVal (weights v33 (k0_pay12 v62) 0) (k0_pay13 v64) v80 := rfl
theorem pay18_eq (v33 v63 : FVec F S2048x256 .bf16) : k0_pay18 v33 v63 = weights v33 v63 1 := rfl
theorem pay19_eq (v33 v63 : FVec F S2048x256 .bf16) (v90 : Vec F S512x1 .f32) :
    k0_pay19 v33 v63 v90 = denVal (weights v33 v63 1) v90 := rfl
theorem pay20_eq (v33 v63 v65 : FVec F S2048x256 .bf16) (v99 : Vec F S512x256 .f32) :
    k0_pay20 v33 v63 v65 v99 = numVal (weights v33 v63 1) v65 v99 := rfl
theorem pay34_eq (v221 : FVec F S512x2048 .f32) (v222 : Vec F S512x1 .f32) : k0_pay34 v221 v222 = denVal v221 v222 := rfl
theorem pay35_eq (v197 : FVec F S2048x256 .bf16) (v221 : FVec F S512x2048 .f32) (v231 : Vec F S512x256 .f32) :
    k0_pay35 v197 v221 v231 = numVal v221 v197 v231 := rfl
theorem pay40_eq (v33 v195 : FVec F S2048x256 .bf16) :
    k0_pay40 v195 (k0_pay39 v33) (constant S512x2048 .f32 0x00000000#32) = weights v33 v195 3 := rfl
theorem pay41_eq (v33 v195 : FVec F S2048x256 .bf16) (v260 : Vec F S512x1 .f32) :
    k0_pay41 v195 (k0_pay39 v33) (constant S512x2048 .f32 0x00000000#32) v260 = denVal (weights v33 v195 3) v260 := rfl
theorem pay42_eq (v33 v195 v197 : FVec F S2048x256 .bf16) (v269 : Vec F S512x256 .f32) :
    k0_pay42 v195 v197 (k0_pay39 v33) (constant S512x2048 .f32 0x00000000#32) v269 = numVal (weights v33 v195 3) v197 v269 := rfl
theorem pay1_eq (v783 : FVec F S2048x256 .bf16) (v845 : FVec F S512x2048 .f32) (v855 : Vec F S512x256 .f32) :
    k0_pay1 v783 v845 v855 = numVal v845 v783 v855 := rfl

end Cert.Kernel.AttnKer

end

/-- info: 'Cert.Kernel.AttnKer.visited_succ' depends on axioms: [propext, Classical.choice, Quot.sound] -/
#guard_msgs in #print axioms Cert.Kernel.AttnKer.visited_succ
-- ==== Proof.RingStateK.lean ====
/-
  A device's share of the ghost state, its state on entering and on leaving the body, and the proof data the
  launch theorem takes.
  Every device knows (persistently) every cell's invariant, that every cell stands at round 0, and every receive
  slot's release invariant.  Device `c` holds for itself: its eleven cells' positions at the start; the tokens of
  the fourteen payments it makes to its neighbours and of the seven rounds of its own send cells; the reader's
  count of its four receive slots; and, as writer, two write tokens for each of the four downstream slots.
  On leaving, its ten own cells stand past their last rounds and its scratch buffers are whole again.
  Its result block is the quotient the eight visited blocks accumulate to: `c` itself, then alternately the
  right-going ring's and the left-going ring's next block, the right-going ring's fourth last.
-/
import proofs.«900462_g7700000000000463_dist_ring_attn_i_s2048_d256_v7x_i8_f32_1_alg».proof.Proof.RingSteps2K
import proofs.«900462_g7700000000000463_dist_ring_attn_i_s2048_d256_v7x_i8_f32_1_alg».proof.Proof.RingReadoffK
import proofs.«900462_g7700000000000463_dist_ring_attn_i_s2048_d256_v7x_i8_f32_1_alg».proof.Proof.RingValueK
import proofs.«900462_g7700000000000463_dist_ring_attn_i_s2048_d256_v7x_i8_f32_1_alg».proof.Proof.Gen.Kernel.Frame

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : Mem F)

/-! ## Tokens and slots -/

/-- Every (cell, round, duty) of the schedule: no cell has a duty past round 1. -/
def toks : Finset (GSem nD τ sig × ℕ × DN) :=
  (Finset.univ : Finset (Dev nD × Fin 11)).biUnion fun ck =>
    (Finset.range 2).biUnion fun r => ((ringRd (F := F) m).duties (kcell ck) r).image fun d => (kcell ck, r, d)

/-- A receive slot as its release invariant holds it: the slot's elements, whole, at any contents. -/
def Sl (k : KS) : sProp 𝕄 :=
  Release.slot ((slotM k.2.1 k.2.2).view.loc ((k.1 : Dev nD) : Thread nD τ)) (slotM k.2.1 k.2.2).view.set

instance Sl_storable (k : KS) : BI.Storable (upEmb : UEmb _ 𝕄) (Sl (F := F) k) := by unfold Sl; infer_instance

/-! ## A device's share -/

/-- What every device knows. -/
def knows (Kn : Dev nD × Fin 11 → ℕ) (ιs : KS → ℕ) : sProp 𝕄 :=
  iprop((bigSep Finset.univ fun ck : Dev nD × Fin 11 => cellInv ER (ringRd m) (Kn ck) (kcell ck))
    ∗ (bigSep Finset.univ fun ck : Dev nD × Fin 11 => reached (ER (F := F)) (kcell ck) 0)
    ∗ (bigSep (Finset.univ : Finset KS) fun k => Release.slotInv (ES (F := F)) (ιs k) k (Sl k)))

/-- What device `c` holds for itself. -/
def mine (c : Dev nD) : sProp 𝕄 :=
  iprop((bigSep Finset.univ fun k : Fin 11 => atPos (ER (F := F)) (kcell (c, k)) 0 ∅ 0)
    ∗ dutyTok (ER (F := F)) (barCell (lft c)) 0 (1 : DN) ∗ dutyTok (ER (F := F)) (barCell (rgt c)) 0 (0 : DN)
    ∗ (bigSep (Finset.univ : Finset (Fin 2 × Fin 2)) fun pb => bigSep (Finset.range (nSend pb.1 pb.2)) fun r => dutyTok (ER (F := F)) (sendCell pb.1 pb.2 c) r (0 : DN))
    ∗ (bigSep (Finset.univ : Finset (Fin 2 × Fin 2)) fun pb => bigSep (Finset.range (nRecv pb.1 pb.2)) fun r => dutyTok (ER (F := F)) (recvCell pb.1 pb.2 (dnR pb.1 c)) r (0 : DN))
    ∗ (bigSep (Finset.univ : Finset (Fin 2)) fun p => bigSep (firstN (nCap p)) fun d => dutyTok (ER (F := F)) (capCell p (upR p c)) 0 d)
    ∗ (bigSep (Finset.univ : Finset (Fin 2 × Fin 2)) fun pb => Release.readerAt (ES (F := F)) ((c, pb.1, pb.2) : KS) 0)
    ∗ (bigSep ((Finset.univ : Finset (Fin 2 × Fin 2)) ×ˢ Finset.range 2) fun x => Release.writeTok (ES (F := F)) ((dnR x.1.1 c, x.1.1, x.1.2) : KS) (x.2 + 1)))

/-- The share dealt to device `c` at launch. -/
def G' (c : Dev nD) : sProp 𝕄 :=
  iprop(∃ (Kn : Dev nD × Fin 11 → ℕ) (ιs : KS → ℕ), ⌜Function.Injective ιs⌝ ∗ knows m Kn ιs ∗ mine (F := F) c)

/-! ## Entering and leaving -/

/-- The state on entering the body: the dealt share, the launch credit for what the neighbours owe this device,
    the levels, and the four scratch buffers at unknown contents. -/
def entry (c : Dev nD) : sProp 𝕄 :=
  iprop(G' m c ∗ Pipeline.launchCred O₀ c ∗ (levAts L lv : sProp 𝕄) ∗ scratch c)

/-- How many rounds own cell `k` has (in the launch's order: the right-going ring's two send and two receive
    cells, the left-going ring's, then the two credit cells): where it stands at the end. -/
def lastRound : Fin 10 → ℕ
  | 0 => nSend 0 0 | 1 => nSend 0 1 | 2 => nRecv 0 0 | 3 => nRecv 0 1
  | 4 => nSend 1 0 | 5 => nSend 1 1 | 6 => nRecv 1 0 | 7 => nRecv 1 1
  | 8 => 1 | 9 => 1

/-- The ten own cells when the body's last instruction is done: each invariant known, the owner past the cell's
    last round; from here each cell closes back to its counter at zero. -/
def cellsDone (c : Dev nD) : sProp 𝕄 :=
  bigSep Finset.univ fun k : Fin 10 => iprop(∃ κ : ℕ, cellInv ER (ringRd m) κ ((c : Thread nD τ), osem k) ∗ atPos (ER (F := F)) ((c : Thread nD τ), osem k) (lastRound k) ∅ 0)

/-- The state on leaving: the ten own counters back at zero, the scratch whole. -/
def leaving (c : Dev nD) : sProp 𝕄 :=
  iprop(Pipeline.ownSems0 (Ix := ℕ) (Name := ℕ) (U := UU) (Lvl := ℕ) (Val := Elt F) (τ := τ) osem c ∗ scratch c)

/-! ## The result -/

/-- The device whose block is visited `n`-th by `c`. -/
def visitD (c : Dev nD) : Fin 8 → Dev nD
  | 0 => c
  | 1 => origin 0 1 c | 2 => origin 1 1 c
  | 3 => origin 0 2 c | 4 => origin 1 2 c
  | 5 => origin 0 3 c | 6 => origin 1 3 c
  | 7 => origin 0 4 c

/-- Device `c`'s result block, as the body's arithmetic leaves it. -/
def outBlock (c : Dev nD) : Vec F S2048x256 .f32 :=
  Cert.Kernel.AttnKer.kerOut (m ((c : Thread nD τ).loc main_arg0))
    (fun n => (k0_pay3 (m ((visitD c n : Thread nD τ).loc main_arg1)), k0_pay4 (m ((visitD c n : Thread nD τ).loc main_arg2))))

/-! ## The proof data -/

/-- Per device: the arrays as launched; the three argument blocks staged stay as fetched and the result block
    ends at `outBlock`; the states on entering and leaving; everything owed before the body, nothing after. -/
def dats (ρ : Dev nD → PrngReg) : Fin 1 → (c : Dev nD) → Dat τ (Elt F) ℕ ℕ UU ℕ cfg0 c := fun _ c =>
  { A := fun w => m ((cfg0.win w).arr.view.loc (c : Thread nD τ))
    after := fun w t => match w with
      | 0 => iblk m c 0 t
      | 1 => iblk m c 1 t
      | 2 => iblk m c 2 t
      | 3 => outBlock m c
    Φ := fun | ⟨0, _⟩ => entry m c | ⟨_ + 1, _⟩ => leaving (F := F) c
    q := fun _ => fullShare
    owed := fun | ⟨0, _⟩ => O₀ c | ⟨_ + 1, _⟩ => 0 }

theorem hA (ρ : Dev nD → PrngReg) : ∀ c w, (dats m ρ 0 c).A w = m ((cfg0.win w).arr.view.loc (c : Thread nD τ)) := fun _ _ => rfl
theorem hq (ρ : Dev nD → PrngReg) : ∀ c w, (dats m ρ 0 c).q w = fullShare := fun _ _ => rfl
theorem howed₀ (ρ : Dev nD → PrngReg) : ∀ c, (dats m ρ 0 c).owed 0 = O₀ c := fun _ => rfl
theorem howedN (ρ : Dev nD → PrngReg) : ∀ c, (dats m ρ 0 c).owed (Fin.last _) = 0 := fun _ => rfl

/-- Entering is what the launch hands over, as it stands. -/
theorem hentry (ρ : Dev nD → PrngReg) : ∀ c, iprop(G' m c ∗ Pipeline.launchCred O₀ c ∗ (levAts L lv : sProp 𝕄) ∗ scratch c) ⊢ (dats m ρ 0 c).Φ 0 :=
  fun _ => Entails.rfl

/-- Leaving is what the launch takes back, as it stands. -/
theorem hexit (ρ : Dev nD → PrngReg) : ∀ c, (dats m ρ 0 c).Φ (Fin.last cfg0.N)
    ⊢ iprop(Pipeline.ownSems0 (Ix := ℕ) (Name := ℕ) (U := UU) (Lvl := ℕ) (Val := Elt F) (τ := τ) osem c ∗ scratch c) :=
  fun _ => Entails.rfl

/-- The state when the body's last instruction is done, before the cells are closed: the cells past their last
    rounds, the scratch whole, nothing owed, the three argument blocks staged as fetched and the result block
    staged at `outBlock`. -/
def closing (ρ : Dev nD → PrngReg) (c : Dev nD) : sProp 𝕄 :=
  iprop(cellsDone m c ∗ scratch c ∗ (dats m ρ 0 c).owesAt 0 t0_0.succ
    ∗ stg c cc0_stg0_0 ((dats m ρ 0 c).after (0 : Fin 4) t0_0) ∗ stg c cc0_stg1_0 ((dats m ρ 0 c).after (1 : Fin 4) t0_0)
    ∗ stg c cc0_stg2_0 ((dats m ρ 0 c).after (2 : Fin 4) t0_0) ∗ stg c cc0_stg3_0 ((dats m ρ 0 c).after (3 : Fin 4) t0_0))

end Cert.Kernel.RingProof

end
-- ==== Proof.RingSlotsK.lean ====
/-
  The geometry of a ring buffer.  A buffer is [2, 2, 2048, 256]: two slots, each a key half and a value half of 2048 × 256.
  Slot `b` is the set of indices whose first coordinate is `b`; half `h` of it those whose second coordinate is `h` as well.
  The two slots are disjoint and cover the buffer; the two halves of a slot are disjoint and cover the slot.
  A transfer names a slot whole (the slice at [b, 0, 0, 0], squeezed to [2, 2048, 256]); the body loads and stores it by halves
  (the rectangle at [b, h, 0, 0] of sizes [1, 1, 2048, 256]).
-/
import proofs.«900462_g7700000000000463_dist_ring_attn_i_s2048_d256_v7x_i8_f32_1_alg».proof.Proof.RingScheduleK

noncomputable section

namespace Cert.Kernel.RingProof

open Cert.Kernel Cert.Kernel.Gen

open Idealize.ShloMosaic
open Idealize.ShloMosaic.TcCoe
open Idealize.SL.Sem

variable {F : FTy → Type} [FloatOps F]

/-! ## The rectangles -/

/-- Offsets of half `h` (0 the keys, 1 the values) of slot `b`. -/
abbrev halfOff (b h : Fin 2) : Fin 4 → Nat := ![b.val, h.val, 0, 0]
theorem half_inb : ∀ (b h : Fin 2) a, halfOff b h a + S1x1x2048x256.size a ≤ S2x2x2048x256.size a := by decide
/-- Half `h` of slot `b`: all its rows and columns. -/
abbrev halfR (b h : Fin 2) : Rect S2x2x2048x256 := Rect.unit (s := S2x2x2048x256) (halfOff b h) S1x1x2048x256.size (half_inb b h)

/-- A slot is the indices with its first coordinate. -/
theorem mem_slot {b : Fin 2} {i : S2x2x2048x256.Idx} : i ∈ (slotR b).set ↔ (i 0).val = b.val := by
  rw [Rect.mem_set_unit]
  have h1 : (i 1).val < 2 := (i 1).isLt
  have h2 : (i 2).val < 2048 := (i 2).isLt
  have h3 : (i 3).val < 256 := (i 3).isLt
  constructor
  · intro h
    have h0 : b.val ≤ (i 0).val ∧ (i 0).val < b.val + 1 := h 0
    omega
  · intro h0 a
    match a with
    | ⟨0, _⟩ => exact (show b.val ≤ (i 0).val ∧ (i 0).val < b.val + 1 from ⟨by omega, by omega⟩)
    | ⟨1, _⟩ => exact (show 0 ≤ (i 1).val ∧ (i 1).val < 0 + 2 from ⟨by omega, by omega⟩)
    | ⟨2, _⟩ => exact (show 0 ≤ (i 2).val ∧ (i 2).val < 0 + 2048 from ⟨by omega, by omega⟩)
    | ⟨3, _⟩ => exact (show 0 ≤ (i 3).val ∧ (i 3).val < 0 + 256 from ⟨by omega, by omega⟩)

/-- A half is the indices with its first two coordinates. -/
theorem mem_half {b h : Fin 2} {i : S2x2x2048x256.Idx} : i ∈ (halfR b h).set ↔ (i 0).val = b.val ∧ (i 1).val = h.val := by
  rw [Rect.mem_set_unit]
  have h2 : (i 2).val < 2048 := (i 2).isLt
  have h3 : (i 3).val < 256 := (i 3).isLt
  constructor
  · intro hm
    have h0 : b.val ≤ (i 0).val ∧ (i 0).val < b.val + 1 := hm 0
    have h1 : h.val ≤ (i 1).val ∧ (i 1).val < h.val + 1 := hm 1
    exact ⟨by omega, by omega⟩
  · rintro ⟨h0, h1⟩ a
    match a with
    | ⟨0, _⟩ => exact (show b.val ≤ (i 0).val ∧ (i 0).val < b.val + 1 from ⟨by omega, by omega⟩)
    | ⟨1, _⟩ => exact (show h.val ≤ (i 1).val ∧ (i 1).val < h.val + 1 from ⟨by omega, by omega⟩)
    | ⟨2, _⟩ => exact (show 0 ≤ (i 2).val ∧ (i 2).val < 0 + 2048 from ⟨by omega, by omega⟩)
    | ⟨3, _⟩ => exact (show 0 ≤ (i 3).val ∧ (i 3).val < 0 + 256 from ⟨by omega, by omega⟩)

/-- The two slots share no index … -/
theorem slot_disjoint : Disjoint (slotR 0).set (slotR 1).set := by
  rw [Finset.disjoint_left]
  intro i hi hi'
  have h0 : (i 0).val = 0 := mem_slot.mp hi
  have h1 : (i 0).val = 1 := mem_slot.mp hi'
  omega

/-- … and between them have every index. -/
theorem slot_cover : (slotR 0).set ∪ (slotR 1).set = Finset.univ := by
  ext i
  simp only [Finset.mem_union, Finset.mem_univ, iff_true]
  have h : (i 0).val < 2 := (i 0).isLt
  rcases (by omega : (i 0).val = 0 ∨ (i 0).val = 1) with h0 | h0
  · exact Or.inl (mem_slot.mpr h0)
  · exact Or.inr (mem_slot.mpr h0)

/-- Different slots share no index, whichever way the two are named. -/
theorem slot_disjoint_of_ne {b b' : Fin 2} (hb : b ≠ b') : Disjoint (slotR b).set (slotR b').set := by
  rw [Finset.disjoint_left]
  intro i hi hi'
  exact hb (Fin.ext ((mem_slot.mp hi).symm.trans (mem_slot.mp hi')))

/-- A half lies in its slot. -/
theorem half_subset (b h : Fin 2) : (halfR b h).set ⊆ (slotR b).set :=
  fun i hi => mem_slot.mpr (mem_half.mp hi).1

/-- The two halves of a slot share no index … -/
theorem half_disjoint (b : Fin 2) : Disjoint (halfR b 0).set (halfR b 1).set := by
  rw [Finset.disjoint_left]
  intro i hi hi'
  have h0 : (i 1).val = 0 := (mem_half.mp hi).2
  have h1 : (i 1).val = 1 := (mem_half.mp hi').2
  omega

/-- … and between them have the slot's. -/
theorem half_cover (b : Fin 2) : (halfR b 0).set ∪ (halfR b 1).set = (slotR b).set := by
  ext i
  simp only [Finset.mem_union]
  constructor
  · rintro (hi | hi)
    · exact half_subset b 0 hi
    · exact half_subset b 1 hi
  · intro hi
    have h0 := mem_slot.mp hi
    have h : (i 1).val < 2 := (i 1).isLt
    rcases (by omega : (i 1).val = 0 ∨ (i 1).val = 1) with h1 | h1
    · exact Or.inl (mem_half.mpr ⟨h0, h1⟩)
    · exact Or.inr (mem_half.mpr ⟨h0, h1⟩)

/-- A half of one slot shares no index with the other slot. -/
theorem half_disjoint_slot {b b' : Fin 2} (hb : b ≠ b') (h : Fin 2) : Disjoint (halfR b h).set (slotR b').set :=
  (slot_disjoint_of_ne hb).mono_left (half_subset b h)

/-! ## The same in a ring's buffer

  Ring `p`'s buffer is one of two allocations, so for a ring given as a variable the buffer's own index type is not
  syntactically the shape's; the sets of buffer elements are therefore named through the buffer view's placement of the
  shape's indices (the identity, at either ring). -/

/-- A slot's elements, as a transfer names it, are its rectangle's. -/
theorem slot_set (p b : Fin 2) : (slotM p b).view.set = (slotR b).set.map (ringM p).view.emb := by
  show (((ringM p).view.slice (slotR b)).reshape S2x2048x256 _).set = _
  rw [View.set_reshape]; exact View.set_slice _ _

/-- A half's elements, as the body loads and stores it, are its rectangle's. -/
theorem half_set (p b h : Fin 2) : ((ringM p).access (halfR b h)).set = (halfR b h).set.map (ringM p).view.emb :=
  View.set_slice _ _

/-- A slot's elements are its two halves'. -/
theorem slot_set_halves (p b : Fin 2) :
    (slotM p b).view.set = ((ringM p).access (halfR b 0)).set ∪ ((ringM p).access (halfR b 1)).set := by
  rw [slot_set, half_set, half_set, ← Finset.map_union, half_cover]

/-- The two halves' elements are apart. -/
theorem half_set_disjoint (p b : Fin 2) :
    Disjoint ((ringM p).access (halfR b 0)).set ((ringM p).access (halfR b 1)).set := by
  rw [half_set, half_set, Finset.disjoint_map]; exact half_disjoint b

/-- Different slots' elements are apart. -/
theorem slot_set_disjoint (p : Fin 2) {b b' : Fin 2} (hb : b ≠ b') : Disjoint (slotM p b).view.set (slotM p b').view.set := by
  rw [slot_set, slot_set, Finset.disjoint_map]; exact slot_disjoint_of_ne hb

/-- At either ring the placement is the identity, so there a slot's elements are literally its rectangle. -/
theorem slot_set0 (b : Fin 2) : (slotM 0 b).view.set = (slotR b).set := by
  show (((ringM 0).view.slice (slotR b)).reshape S2x2048x256 _).set = _
  rw [View.set_reshape]; exact View.set_slice_whole _ _
theorem slot_set1 (b : Fin 2) : (slotM 1 b).view.set = (slotR b).set := by
  show (((ringM 1).view.slice (slotR b)).reshape S2x2048x256 _).set = _
  rw [View.set_reshape]; exact View.set_slice_whole _ _
theorem half_set0 (b h : Fin 2) : ((ringM 0).access (halfR b h)).set = (halfR b h).set := View.set_slice_whole _ _
theorem half_set1 (b h : Fin 2) : ((ringM 1).access (halfR b h)).set = (halfR b h).set := View.set_slice_whole _ _

/-! ## The printed spellings -/

theorem halfR_0_0 : halfR 0 0 = Rect.unit (s := S2x2x2048x256) ![0, 0, 0, 0] S1x1x2048x256.size inb_S2x2x2048x256_S1x1x2048x256_0_0_0_0 := rfl
theorem halfR_0_1 : halfR 0 1 = Rect.unit (s := S2x2x2048x256) ![0, 1, 0, 0] S1x1x2048x256.size inb_S2x2x2048x256_S1x1x2048x256_0_1_0_0 := rfl
theorem halfR_1_0 : halfR 1 0 = Rect.unit (s := S2x2x2048x256) ![1, 0, 0, 0] S1x1x2048x256.size inb_S2x2x2048x256_S1x1x2048x256_1_0_0_0 := rfl
theorem halfR_1_1 : halfR 1 1 = Rect.unit (s := S2x2x2048x256) ![1, 1, 0, 0] S1x1x2048x256.size inb_S2x2x2048x256_S1x1x2048x256_1_1_0_0 := rfl

theorem slotM_0 (p : Fin 2) : slotM p 0 = ((ringM p).slice (Rect.unit (s := S2x2x2048x256) ![0, 0, 0, 0] S1x2x2048x256.size
    inb_S2x2x2048x256_S1x2x2048x256_0_0_0_0) (fun _ => rfl)).squeeze S2x2048x256 squeezes_S1x2x2048x256_S2x2048x256 := rfl
theorem slotM_1 (p : Fin 2) : slotM p 1 = ((ringM p).slice (Rect.unit (s := S2x2x2048x256) ![1, 0, 0, 0] S1x2x2048x256.size
    inb_S2x2x2048x256_S1x2x2048x256_1_0_0_0) (fun _ => rfl)).squeeze S2x2048x256 squeezes_S1x2x2048x256_S2x2048x256 := rfl

/-- info: 'Cert.Kernel.RingProof.slotM_1' depends on axioms: [propext, Classical.choice, Quot.sound] -/
#guard_msgs in
#print axioms slotM_1

end Cert.Kernel.RingProof

end
-- ==== Proof.RingOpenK.lean ====
/-
  Opening a device's state: a cell's invariant, its round-0 fact and a slot's release invariant out of what every
  device knows; and a ring buffer held whole as its two slots, each at some contents, and back.
-/
import proofs.«900462_g7700000000000463_dist_ring_attn_i_s2048_d256_v7x_i8_f32_1_alg».proof.Proof.RingStateK
import proofs.«900462_g7700000000000463_dist_ring_attn_i_s2048_d256_v7x_i8_f32_1_alg».proof.Proof.RingSlotsK
import Idealize.ShloMosaic.Lib.Ring

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : Mem F)

/-! ## Out of what every device knows -/

theorem knows_cell (Kn : Dev nD × Fin 11 → ℕ) (ιs : KS → ℕ) (ck : Dev nD × Fin 11) :
    knows m Kn ιs ⊢ cellInv ER (ringRd m) (Kn ck) (kcell ck) := by
  unfold knows
  exact sep_elim_left.trans (bigSep_elim (Φ := fun ck : Dev nD × Fin 11 => cellInv ER (ringRd m) (Kn ck) (kcell ck)) (Finset.mem_univ ck))

theorem knows_reached (Kn : Dev nD × Fin 11 → ℕ) (ιs : KS → ℕ) (ck : Dev nD × Fin 11) :
    knows m Kn ιs ⊢ reached (ER (F := F)) (kcell ck) 0 := by
  unfold knows
  exact sep_elim_right.trans (sep_elim_left.trans (bigSep_elim (Φ := fun ck : Dev nD × Fin 11 => reached (ER (F := F)) (kcell ck) 0) (Finset.mem_univ ck)))

theorem knows_slot (Kn : Dev nD × Fin 11 → ℕ) (ιs : KS → ℕ) (k : KS) :
    knows m Kn ιs ⊢ Release.slotInv (ES (F := F)) (ιs k) k (Sl k) := by
  unfold knows
  exact sep_elim_right.trans (sep_elim_right.trans (bigSep_elim (Φ := fun k : KS => Release.slotInv (ES (F := F)) (ιs k) k (Sl k)) (Finset.mem_univ k)))

/-! ## A ring buffer and its two slots -/

theorem slots_disjoint (a b : Fin 2) (h : a ≠ b) : Disjoint (slotR a).set (slotR b).set := slot_disjoint_of_ne h

theorem slots_cover : (Finset.univ : Finset (Fin 2)).biUnion (fun b => (slotR b).set) = Finset.univ := by
  rw [show (Finset.univ : Finset (Fin 2)) = {0, 1} from by decide, Finset.biUnion_insert, Finset.singleton_biUnion]
  exact slot_cover

omit [FloatOps F] in
theorem bigSep_two (Φ : Fin 2 → sProp 𝕄) : bigSep Finset.univ Φ = iprop(Φ 0 ∗ Φ 1) :=
  bigSep_univ_eq_bigSepL [(0 : Fin 2), 1] (by decide) (by decide) Φ

/-- The right-going ring's buffer, whole at some contents, is its two slots, each at some contents. -/
theorem ring0_split (c : Dev nD) :
    (iprop(∃ f, (c : Thread nD τ).loc cc0_scratch0 ↦{fullShare} f) : sProp 𝕄)
      ⊢ iprop((∃ f, slotPts c 0 0 fullShare f) ∗ (∃ f, slotPts c 0 1 fullShare f)) := by
  unfold slotPts
  iintro ⟨%f, H⟩
  ihave H2 := (Entails.of_eq (show ((c : Thread nD τ).loc cc0_scratch0 ↦{fullShare} f : sProp 𝕄)
      = iprop(((slotM 0 0).view.loc (c : Thread nD τ) ↦[(slotM 0 0).view.set]{fullShare} f) ∗ ((slotM 0 1).view.loc (c : Thread nD τ) ↦[(slotM 0 1).view.set]{fullShare} f)) from by
    rw [Ring.pointsTo_blocks (fun b : Fin 2 => (slotR b).set) slots_disjoint slots_cover f, bigSep_two, slot_set0, slot_set0])) $$ H
  icases H2 with ⟨H0, H1⟩
  isplitl [H0]; · iexists f; iexact H0
  iexists f; iexact H1

/-- The left-going ring's likewise. -/
theorem ring1_split (c : Dev nD) :
    (iprop(∃ f, (c : Thread nD τ).loc cc0_scratch1 ↦{fullShare} f) : sProp 𝕄)
      ⊢ iprop((∃ f, slotPts c 1 0 fullShare f) ∗ (∃ f, slotPts c 1 1 fullShare f)) := by
  unfold slotPts
  iintro ⟨%f, H⟩
  ihave H2 := (Entails.of_eq (show ((c : Thread nD τ).loc cc0_scratch1 ↦{fullShare} f : sProp 𝕄)
      = iprop(((slotM 1 0).view.loc (c : Thread nD τ) ↦[(slotM 1 0).view.set]{fullShare} f) ∗ ((slotM 1 1).view.loc (c : Thread nD τ) ↦[(slotM 1 1).view.set]{fullShare} f)) from by
    rw [Ring.pointsTo_blocks (fun b : Fin 2 => (slotR b).set) slots_disjoint slots_cover f, bigSep_two, slot_set1, slot_set1])) $$ H
  icases H2 with ⟨H0, H1⟩
  isplitl [H0]; · iexists f; iexact H0
  iexists f; iexact H1

/-- Two slots, each at some contents, are the right-going ring's buffer whole at some contents. -/
theorem ring0_join (c : Dev nD) :
    iprop((∃ f, slotPts c 0 0 fullShare f) ∗ (∃ f, slotPts c 0 1 fullShare f))
      ⊢ (iprop(∃ f, (c : Thread nD τ).loc cc0_scratch0 ↦{fullShare} f) : sProp 𝕄) := by
  unfold slotPts
  iintro ⟨⟨%f0, H0⟩, ⟨%f1, H1⟩⟩
  iapply (Ring.pointsTo_blocks_join_exists (fun b : Fin 2 => (slotR b).set) slots_disjoint slots_cover f0)
  rw [bigSep_two]
  isplitl [H0]; · iexists f0; rw [← slot_set0]; iexact H0
  iexists f1; rw [← slot_set0]; iexact H1

theorem ring1_join (c : Dev nD) :
    iprop((∃ f, slotPts c 1 0 fullShare f) ∗ (∃ f, slotPts c 1 1 fullShare f))
      ⊢ (iprop(∃ f, (c : Thread nD τ).loc cc0_scratch1 ↦{fullShare} f) : sProp 𝕄) := by
  unfold slotPts
  iintro ⟨⟨%f0, H0⟩, ⟨%f1, H1⟩⟩
  iapply (Ring.pointsTo_blocks_join_exists (fun b : Fin 2 => (slotR b).set) slots_disjoint slots_cover f0)
  rw [bigSep_two]
  isplitl [H0]; · iexists f0; rw [← slot_set1]; iexact H0
  iexists f1; rw [← slot_set1]; iexact H1

end Cert.Kernel.RingProof

end
-- ==== Proof.RingOpen2K.lean ====
/-
  A device's own tokens, one by one.  What device `c` holds for itself is stated with a conjunction per kind of token, each
  over the rings, slots, rounds or grants it ranges over; the counts are small literals (two send rounds per slot but one for
  the left-going ring's slot 1; two receive rounds per slot but one for the left-going ring's slot 0; three grants for the
  right-going ring, two for the left-going).  Here it is the same as one flat conjunction of the forty-four individual tokens:
  the eleven cells' positions (the launch's order: the right-going ring's two send and two receive cells, the left-going
  ring's, the two credit cells, the entry cell), the two entry duties, the seven send duties, the seven receive duties of
  the downstream neighbours' slots, the five grants to the upstream neighbours, the four readers' counts, the eight write
  tokens — each group in the order ring, slot, then round.
-/
import proofs.«900462_g7700000000000463_dist_ring_attn_i_s2048_d256_v7x_i8_f32_1_alg».proof.Proof.RingStateK
import proofs.«900462_g7700000000000463_dist_ring_attn_i_s2048_d256_v7x_i8_f32_1_alg».proof.Proof.RingSlotsK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Conjunctions over small index sets, written out -/

omit [FloatOps F] in
/-- Conjunction is associative, as an equation. -/
theorem sep_assoc_eq (P Q R : sProp 𝕄) : iprop((P ∗ Q) ∗ R) = iprop(P ∗ Q ∗ R) :=
  equiv_iff.mp ⟨Idealize.SL.BI.sep_assoc, Idealize.SL.BI.sep_assoc'⟩

omit [FloatOps F] in
/-- Over ring and slot: (0,0), (0,1), (1,0), (1,1). -/
theorem bigSep_pb (Φ : Fin 2 × Fin 2 → sProp 𝕄) :
    bigSep Finset.univ Φ = iprop(Φ (0, 0) ∗ Φ (0, 1) ∗ Φ (1, 0) ∗ Φ (1, 1)) :=
  bigSep_univ_eq_bigSepL [((0 : Fin 2), (0 : Fin 2)), (0, 1), (1, 0), (1, 1)] (by decide) (by decide) Φ

omit [FloatOps F] in
theorem bigSep_range1 (Φ : ℕ → sProp 𝕄) : bigSep (Finset.range 1) Φ = Φ 0 :=
  bigSep_eq_bigSepL_of_eq [0] (by decide) (by decide) Φ
omit [FloatOps F] in
theorem bigSep_range2 (Φ : ℕ → sProp 𝕄) : bigSep (Finset.range 2) Φ = iprop(Φ 0 ∗ Φ 1) :=
  bigSep_eq_bigSepL_of_eq [0, 1] (by decide) (by decide) Φ
omit [FloatOps F] in
theorem bigSep_first2 (Φ : DN → sProp 𝕄) : bigSep (firstN 2) Φ = iprop(Φ 0 ∗ Φ 1) :=
  bigSep_eq_bigSepL_of_eq [0, 1] (by decide) (by decide) Φ
omit [FloatOps F] in
theorem bigSep_first3 (Φ : DN → sProp 𝕄) : bigSep (firstN 3) Φ = iprop(Φ 0 ∗ Φ 1 ∗ Φ 2) :=
  bigSep_eq_bigSepL_of_eq [0, 1, 2] (by decide) (by decide) Φ
omit [FloatOps F] in
/-- Over ring, slot and one of two counts. -/
theorem bigSep_pb2 (Φ : (Fin 2 × Fin 2) × ℕ → sProp 𝕄) :
    bigSep ((Finset.univ : Finset (Fin 2 × Fin 2)) ×ˢ Finset.range 2) Φ
      = iprop(Φ ((0, 0), 0) ∗ Φ ((0, 0), 1) ∗ Φ ((0, 1), 0) ∗ Φ ((0, 1), 1) ∗ Φ ((1, 0), 0) ∗ Φ ((1, 0), 1) ∗ Φ ((1, 1), 0) ∗ Φ ((1, 1), 1)) :=
  bigSep_eq_bigSepL_of_eq [(((0 : Fin 2), (0 : Fin 2)), 0), ((0, 0), 1), ((0, 1), 0), ((0, 1), 1), ((1, 0), 0), ((1, 0), 1), ((1, 1), 0), ((1, 1), 1)]
    (by decide) (by decide) Φ

/-! ## A slot is not empty -/

theorem slot_nonempty0 (b : Fin 2) : (slotM 0 b).view.set.Nonempty := by
  rw [slot_set0]; exact ⟨ValueIdx.ix4 (n0 := 2) (n1 := 2) (n2 := 2048) (n3 := 256) b 0 0 0, mem_slot.mpr rfl⟩
theorem slot_nonempty1 (b : Fin 2) : (slotM 1 b).view.set.Nonempty := by
  rw [slot_set1]; exact ⟨ValueIdx.ix4 (n0 := 2) (n1 := 2) (n2 := 2048) (n3 := 256) b 0 0 0, mem_slot.mpr rfl⟩

/-! ## The tokens of a device, one by one -/

theorem nSend_vals : nSend 0 0 = 2 ∧ nSend 0 1 = 2 ∧ nSend 1 0 = 2 ∧ nSend 1 1 = 1 := by decide
theorem nRecv_vals : nRecv 0 0 = 2 ∧ nRecv 0 1 = 2 ∧ nRecv 1 0 = 1 ∧ nRecv 1 1 = 2 := by decide
theorem nCap_vals : nCap 0 = 3 ∧ nCap 1 = 2 := by decide

/-- What device `c` holds for itself, as one flat conjunction. -/
theorem mine_eq (c : Dev nD) : mine (F := F) c = iprop(
      atPos (ER (F := F)) (sendCell 0 0 c) 0 ∅ 0 ∗ atPos (ER (F := F)) (sendCell 0 1 c) 0 ∅ 0
    ∗ atPos (ER (F := F)) (recvCell 0 0 c) 0 ∅ 0 ∗ atPos (ER (F := F)) (recvCell 0 1 c) 0 ∅ 0
    ∗ atPos (ER (F := F)) (sendCell 1 0 c) 0 ∅ 0 ∗ atPos (ER (F := F)) (sendCell 1 1 c) 0 ∅ 0
    ∗ atPos (ER (F := F)) (recvCell 1 0 c) 0 ∅ 0 ∗ atPos (ER (F := F)) (recvCell 1 1 c) 0 ∅ 0
    ∗ atPos (ER (F := F)) (capCell 0 c) 0 ∅ 0 ∗ atPos (ER (F := F)) (capCell 1 c) 0 ∅ 0 ∗ atPos (ER (F := F)) (barCell c) 0 ∅ 0
    ∗ dutyTok (ER (F := F)) (barCell (lft c)) 0 (1 : DN) ∗ dutyTok (ER (F := F)) (barCell (rgt c)) 0 (0 : DN)
    ∗ dutyTok (ER (F := F)) (sendCell 0 0 c) 0 (0 : DN) ∗ dutyTok (ER (F := F)) (sendCell 0 0 c) 1 (0 : DN)
    ∗ dutyTok (ER (F := F)) (sendCell 0 1 c) 0 (0 : DN) ∗ dutyTok (ER (F := F)) (sendCell 0 1 c) 1 (0 : DN)
    ∗ dutyTok (ER (F := F)) (sendCell 1 0 c) 0 (0 : DN) ∗ dutyTok (ER (F := F)) (sendCell 1 0 c) 1 (0 : DN)
    ∗ dutyTok (ER (F := F)) (sendCell 1 1 c) 0 (0 : DN)
    ∗ dutyTok (ER (F := F)) (recvCell 0 0 (dnR 0 c)) 0 (0 : DN) ∗ dutyTok (ER (F := F)) (recvCell 0 0 (dnR 0 c)) 1 (0 : DN)
    ∗ dutyTok (ER (F := F)) (recvCell 0 1 (dnR 0 c)) 0 (0 : DN) ∗ dutyTok (ER (F := F)) (recvCell 0 1 (dnR 0 c)) 1 (0 : DN)
    ∗ dutyTok (ER (F := F)) (recvCell 1 0 (dnR 1 c)) 0 (0 : DN)
    ∗ dutyTok (ER (F := F)) (recvCell 1 1 (dnR 1 c)) 0 (0 : DN) ∗ dutyTok (ER (F := F)) (recvCell 1 1 (dnR 1 c)) 1 (0 : DN)
    ∗ dutyTok (ER (F := F)) (capCell 0 (upR 0 c)) 0 (0 : DN) ∗ dutyTok (ER (F := F)) (capCell 0 (upR 0 c)) 0 (1 : DN) ∗ dutyTok (ER (F := F)) (capCell 0 (upR 0 c)) 0 (2 : DN)
    ∗ dutyTok (ER (F := F)) (capCell 1 (upR 1 c)) 0 (0 : DN) ∗ dutyTok (ER (F := F)) (capCell 1 (upR 1 c)) 0 (1 : DN)
    ∗ Release.readerAt (ES (F := F)) ((c, (0 : Fin 2), (0 : Fin 2)) : KS) 0 ∗ Release.readerAt (ES (F := F)) ((c, (0 : Fin 2), (1 : Fin 2)) : KS) 0
    ∗ Release.readerAt (ES (F := F)) ((c, (1 : Fin 2), (0 : Fin 2)) : KS) 0 ∗ Release.readerAt (ES (F := F)) ((c, (1 : Fin 2), (1 : Fin 2)) : KS) 0
    ∗ Release.writeTok (ES (F := F)) ((dnR 0 c, (0 : Fin 2), (0 : Fin 2)) : KS) 1 ∗ Release.writeTok (ES (F := F)) ((dnR 0 c, (0 : Fin 2), (0 : Fin 2)) : KS) 2
    ∗ Release.writeTok (ES (F := F)) ((dnR 0 c, (0 : Fin 2), (1 : Fin 2)) : KS) 1 ∗ Release.writeTok (ES (F := F)) ((dnR 0 c, (0 : Fin 2), (1 : Fin 2)) : KS) 2
    ∗ Release.writeTok (ES (F := F)) ((dnR 1 c, (1 : Fin 2), (0 : Fin 2)) : KS) 1 ∗ Release.writeTok (ES (F := F)) ((dnR 1 c, (1 : Fin 2), (0 : Fin 2)) : KS) 2
    ∗ Release.writeTok (ES (F := F)) ((dnR 1 c, (1 : Fin 2), (1 : Fin 2)) : KS) 1 ∗ Release.writeTok (ES (F := F)) ((dnR 1 c, (1 : Fin 2), (1 : Fin 2)) : KS) 2) := by
  unfold mine
  rw [bigSep_fin11, bigSep_pb2, bigSep_univ_two]
  simp only [bigSep_pb]
  rw [nSend_vals.1, nSend_vals.2.1, nSend_vals.2.2.1, nSend_vals.2.2.2, nRecv_vals.1, nRecv_vals.2.1, nRecv_vals.2.2.1, nRecv_vals.2.2.2,
    nCap_vals.1, nCap_vals.2]
  simp only [bigSep_range1, bigSep_range2, bigSep_first2, bigSep_first3, sep_assoc_eq]

/-- The opening, as an entailment. -/
theorem mine_open (c : Dev nD) : mine (F := F) c ⊢ iprop(
      atPos (ER (F := F)) (sendCell 0 0 c) 0 ∅ 0 ∗ atPos (ER (F := F)) (sendCell 0 1 c) 0 ∅ 0
    ∗ atPos (ER (F := F)) (recvCell 0 0 c) 0 ∅ 0 ∗ atPos (ER (F := F)) (recvCell 0 1 c) 0 ∅ 0
    ∗ atPos (ER (F := F)) (sendCell 1 0 c) 0 ∅ 0 ∗ atPos (ER (F := F)) (sendCell 1 1 c) 0 ∅ 0
    ∗ atPos (ER (F := F)) (recvCell 1 0 c) 0 ∅ 0 ∗ atPos (ER (F := F)) (recvCell 1 1 c) 0 ∅ 0
    ∗ atPos (ER (F := F)) (capCell 0 c) 0 ∅ 0 ∗ atPos (ER (F := F)) (capCell 1 c) 0 ∅ 0 ∗ atPos (ER (F := F)) (barCell c) 0 ∅ 0
    ∗ dutyTok (ER (F := F)) (barCell (lft c)) 0 (1 : DN) ∗ dutyTok (ER (F := F)) (barCell (rgt c)) 0 (0 : DN)
    ∗ dutyTok (ER (F := F)) (sendCell 0 0 c) 0 (0 : DN) ∗ dutyTok (ER (F := F)) (sendCell 0 0 c) 1 (0 : DN)
    ∗ dutyTok (ER (F := F)) (sendCell 0 1 c) 0 (0 : DN) ∗ dutyTok (ER (F := F)) (sendCell 0 1 c) 1 (0 : DN)
    ∗ dutyTok (ER (F := F)) (sendCell 1 0 c) 0 (0 : DN) ∗ dutyTok (ER (F := F)) (sendCell 1 0 c) 1 (0 : DN)
    ∗ dutyTok (ER (F := F)) (sendCell 1 1 c) 0 (0 : DN)
    ∗ dutyTok (ER (F := F)) (recvCell 0 0 (dnR 0 c)) 0 (0 : DN) ∗ dutyTok (ER (F := F)) (recvCell 0 0 (dnR 0 c)) 1 (0 : DN)
    ∗ dutyTok (ER (F := F)) (recvCell 0 1 (dnR 0 c)) 0 (0 : DN) ∗ dutyTok (ER (F := F)) (recvCell 0 1 (dnR 0 c)) 1 (0 : DN)
    ∗ dutyTok (ER (F := F)) (recvCell 1 0 (dnR 1 c)) 0 (0 : DN)
    ∗ dutyTok (ER (F := F)) (recvCell 1 1 (dnR 1 c)) 0 (0 : DN) ∗ dutyTok (ER (F := F)) (recvCell 1 1 (dnR 1 c)) 1 (0 : DN)
    ∗ dutyTok (ER (F := F)) (capCell 0 (upR 0 c)) 0 (0 : DN) ∗ dutyTok (ER (F := F)) (capCell 0 (upR 0 c)) 0 (1 : DN) ∗ dutyTok (ER (F := F)) (capCell 0 (upR 0 c)) 0 (2 : DN)
    ∗ dutyTok (ER (F := F)) (capCell 1 (upR 1 c)) 0 (0 : DN) ∗ dutyTok (ER (F := F)) (capCell 1 (upR 1 c)) 0 (1 : DN)
    ∗ Release.readerAt (ES (F := F)) ((c, (0 : Fin 2), (0 : Fin 2)) : KS) 0 ∗ Release.readerAt (ES (F := F)) ((c, (0 : Fin 2), (1 : Fin 2)) : KS) 0
    ∗ Release.readerAt (ES (F := F)) ((c, (1 : Fin 2), (0 : Fin 2)) : KS) 0 ∗ Release.readerAt (ES (F := F)) ((c, (1 : Fin 2), (1 : Fin 2)) : KS) 0
    ∗ Release.writeTok (ES (F := F)) ((dnR 0 c, (0 : Fin 2), (0 : Fin 2)) : KS) 1 ∗ Release.writeTok (ES (F := F)) ((dnR 0 c, (0 : Fin 2), (0 : Fin 2)) : KS) 2
    ∗ Release.writeTok (ES (F := F)) ((dnR 0 c, (0 : Fin 2), (1 : Fin 2)) : KS) 1 ∗ Release.writeTok (ES (F := F)) ((dnR 0 c, (0 : Fin 2), (1 : Fin 2)) : KS) 2
    ∗ Release.writeTok (ES (F := F)) ((dnR 1 c, (1 : Fin 2), (0 : Fin 2)) : KS) 1 ∗ Release.writeTok (ES (F := F)) ((dnR 1 c, (1 : Fin 2), (0 : Fin 2)) : KS) 2
    ∗ Release.writeTok (ES (F := F)) ((dnR 1 c, (1 : Fin 2), (1 : Fin 2)) : KS) 1 ∗ Release.writeTok (ES (F := F)) ((dnR 1 c, (1 : Fin 2), (1 : Fin 2)) : KS) 2) :=
  Entails.of_eq (mine_eq c)

/-- info: 'Cert.Kernel.RingProof.mine_open' depends on axioms: [propext, Classical.choice, Quot.sound] -/
#guard_msgs in
#print axioms mine_open

end Cert.Kernel.RingProof

end
-- ==== Proof.RingDealK.lean ====
/-
  Dealing the launch's ghost state to the devices.  The launch mints, for the whole mesh at once, every cell's
  invariant and reached round, every owner's position, one token per duty of the schedule, and for every receive slot
  its release invariant, its reader's count and the tokens of its writes.  What is persistent every device gets.  A
  position stays with the cell's owner.  A duty's token goes to the device that pays the duty: a barrier duty to the
  neighbour that signals, a credit duty to the downstream neighbour that grants, a receive duty to the upstream
  neighbour whose transfer lands, a send duty to the device itself.  A slot's reader count stays with the device that
  holds the slot; the tokens of its writes go to its upstream neighbour.  Around a ring each of these is a
  re-indexing of the devices by a neighbour map.
-/
import proofs.«900462_g7700000000000463_dist_ring_attn_i_s2048_d256_v7x_i8_f32_1_alg».proof.Proof.RingStateK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Two facts about iterated separating conjunctions -/

/-- Over a union of pairwise disjoint families, family by family. -/
theorem bigSep_biUnion_split {M : Type} [URA M] {I J : Type} [DecidableEq I] [DecidableEq J]
    (s : Finset J) (t : J → Finset I) (hd : ∀ j ∈ s, ∀ j' ∈ s, j ≠ j' → Disjoint (t j) (t j')) (Φ : I → sProp M) :
    bigSep (s.biUnion t) Φ = bigSep s (fun j => bigSep (t j) Φ) := by
  induction s using Finset.induction_on with
  | empty => rw [Finset.biUnion_empty, bigSep_empty, bigSep_empty]
  | insert j s hj ih =>
    have hdj : Disjoint (t j) (s.biUnion t) :=
      (Finset.disjoint_biUnion_right _ _ _).mpr fun j' hj' =>
        hd j (Finset.mem_insert_self j s) j' (Finset.mem_insert_of_mem hj') (fun h => hj (h ▸ hj'))
    rw [Finset.biUnion_insert, bigSep_union hdj, bigSep_insert hj,
      ih fun a ha b hb hab => hd a (Finset.mem_insert_of_mem ha) b (Finset.mem_insert_of_mem hb) hab]

/-- Over a product of two sets, first coordinate by first coordinate. -/
theorem bigSep_product {M : Type} [URA M] {α β : Type} [DecidableEq α] [DecidableEq β]
    (s : Finset α) (t : Finset β) (Φ : α × β → sProp M) :
    bigSep (s ×ˢ t) Φ = bigSep s (fun a => bigSep t (fun b => Φ (a, b))) := by
  induction s using Finset.induction_on with
  | empty => rw [Finset.empty_product, bigSep_empty, bigSep_empty]
  | insert a s ha ih =>
    have hdisj : Disjoint (({a} : Finset α) ×ˢ t) (s ×ˢ t) :=
      Finset.disjoint_product.mpr (.inl (Finset.disjoint_singleton_left.mpr ha))
    rw [bigSep_insert ha, Finset.insert_eq, Finset.union_product, bigSep_union hdisj, ih, Finset.singleton_product, bigSep_map]
    rfl

/-! ## The minted tokens, cell by cell -/

/-- The tokens of one cell: for each of its rounds 0 and 1, one per duty. -/
def cellToks (m : Mem F) (g : GSem nD τ sig) : sProp 𝕄 :=
  bigSep (Finset.range 2) fun r => bigSep ((ringRd (F := F) m).duties g r) fun d => dutyTok (ER (F := F)) g r d

/-- The minted tokens are the cells' tokens, cell by cell: two cells, two rounds of a cell, two duties of a round
    never share a token. -/
theorem toks_split (m : Mem F) :
    bigSep (toks m) (fun x => (dutyTok (ER (F := F)) x.1 x.2.1 x.2.2 : sProp 𝕄))
      = bigSep Finset.univ fun ck : Dev nD × Fin 11 => cellToks m (kcell ck) := by
  unfold toks cellToks
  rw [bigSep_biUnion_split _ _ fun ck _ ck' _ hne => Finset.disjoint_left.mpr fun x hx hx' => by
    obtain ⟨r, _, hr⟩ := Finset.mem_biUnion.mp hx
    obtain ⟨d, _, rfl⟩ := Finset.mem_image.mp hr
    obtain ⟨r', _, hr'⟩ := Finset.mem_biUnion.mp hx'
    obtain ⟨d', _, h'⟩ := Finset.mem_image.mp hr'
    exact hne (kcell_injective (congrArg Prod.fst h').symm)]
  refine bigSep_congr fun ck _ => ?_
  rw [bigSep_biUnion_split _ _ fun r _ r' _ hne => Finset.disjoint_left.mpr fun x hx hx' => by
    obtain ⟨d, _, rfl⟩ := Finset.mem_image.mp hx
    obtain ⟨d', _, h'⟩ := Finset.mem_image.mp hx'
    exact hne (congrArg (fun y : GSem nD τ sig × ℕ × DN => y.2.1) h').symm]
  refine bigSep_congr fun r _ => ?_
  exact bigSep_image_of_injOn (fun a _ b _ h => congrArg (fun y : GSem nD τ sig × ℕ × DN => y.2.2) h) _

/-- A cell with one duty, named 0, in each of its first n rounds (n at most 2) has one token a round. -/
theorem cellToks_rounds (m : Mem F) (g : GSem nD τ sig) (n : ℕ) (hn : n ≤ 2)
    (hd : ∀ r, (ringRd (F := F) m).duties g r = if r < n then {0} else ∅) :
    cellToks m g = bigSep (Finset.range n) fun r => dutyTok (ER (F := F)) g r (0 : DN) := by
  unfold cellToks
  have h1 : ∀ r, (bigSep ((ringRd (F := F) m).duties g r) fun d => (dutyTok (ER (F := F)) g r d : sProp 𝕄))
      = if r < n then dutyTok (ER (F := F)) g r (0 : DN) else BI.emp := fun r => by
    rw [hd r]; split
    · rw [bigSep_singleton]
    · rw [bigSep_empty]
  rw [bigSep_congr fun r _ => h1 r, ← bigSep_filter]
  congr 1
  ext r; simp only [Finset.mem_filter, Finset.mem_range]; omega

/-- A cell whose duties are all of round 0 has that round's tokens. -/
theorem cellToks_round0 (m : Mem F) (g : GSem nD τ sig) (S : Finset DN)
    (h0 : (ringRd (F := F) m).duties g 0 = S) (h1 : (ringRd (F := F) m).duties g 1 = ∅) :
    cellToks m g = iprop((bigSep S fun d => dutyTok (ER (F := F)) g 0 d) ∗ emp) := by
  unfold cellToks
  rw [show Finset.range 2 = {0, 1} from by decide, bigSep_insert (by decide), bigSep_singleton, h0, h1, bigSep_empty]
  rfl

section Cells
variable (m : Mem F) (c : Dev nD)

theorem toks_send (p b : Fin 2) :
    cellToks m (sendCell p b c) = bigSep (Finset.range (nSend p b)) fun r => dutyTok (ER (F := F)) (sendCell p b c) r (0 : DN) :=
  cellToks_rounds m _ _ (by revert p b; decide) fun r => by simp only [ringRd, kindOf_send, if_true]

theorem toks_recv (p b : Fin 2) :
    cellToks m (recvCell p b c) = bigSep (Finset.range (nRecv p b)) fun r => dutyTok (ER (F := F)) (recvCell p b c) r (0 : DN) :=
  cellToks_rounds m _ _ (by revert p b; decide) fun r => by simp only [ringRd, kindOf_recv, if_true]

theorem toks_cap (p : Fin 2) :
    cellToks m (capCell p c) = iprop((bigSep (firstN (nCap p)) fun d => dutyTok (ER (F := F)) (capCell p c) 0 d) ∗ emp) :=
  cellToks_round0 m _ _ (duties_cap m c p) (duties_cap_later m c p 1 le_rfl)

theorem toks_bar :
    cellToks m (barCell c) = iprop((bigSep (firstN 2) fun d => dutyTok (ER (F := F)) (barCell c) 0 d) ∗ emp) :=
  cellToks_round0 m _ _ (duties_bar m c) (duties_bar_later m c 1 le_rfl)

end Cells

omit [FloatOps F] in
theorem bigSep_firstN2 (Φ : DN → sProp 𝕄) : bigSep (firstN 2) Φ = iprop(Φ 0 ∗ Φ 1) := by
  rw [show firstN 2 = {0, 1} from by decide, bigSep_insert (by decide), bigSep_singleton]; rfl

omit [FloatOps F] in
theorem bigSep_fin2x2 (Φ : Fin 2 × Fin 2 → sProp 𝕄) :
    bigSep Finset.univ Φ = iprop((Φ (0, 0) ∗ Φ (0, 1)) ∗ (Φ (1, 0) ∗ Φ (1, 1))) := by
  rw [bigSep_univ_prod, bigSep_univ_two, bigSep_univ_two, bigSep_univ_two]

/-! ## A device's cells' tokens, by kind -/

/-- The tokens of the rounds of receive cell (ring, slot) of device d. -/
def recvX (pb : Fin 2 × Fin 2) (d : Dev nD) : sProp 𝕄 :=
  bigSep (Finset.range (nRecv pb.1 pb.2)) fun r => dutyTok (ER (F := F)) (recvCell pb.1 pb.2 d) r (0 : DN)
/-- The tokens of the rounds of send cell (ring, slot) of device d. -/
def sendX (pb : Fin 2 × Fin 2) (d : Dev nD) : sProp 𝕄 :=
  bigSep (Finset.range (nSend pb.1 pb.2)) fun r => dutyTok (ER (F := F)) (sendCell pb.1 pb.2 d) r (0 : DN)
/-- The tokens of the grants of ring p's credit cell of device d. -/
def capX (p : Fin 2) (d : Dev nD) : sProp 𝕄 :=
  bigSep (firstN (nCap p)) fun d' => dutyTok (ER (F := F)) (capCell p d) 0 d'

/-- The twenty-one tokens of a device's eleven cells, by kind. -/
theorem dev_toks (m : Mem F) (c : Dev nD) :
    (bigSep Finset.univ fun k : Fin 11 => cellToks m (kcell (c, k)))
      ⊢ iprop((bigSep Finset.univ fun pb : Fin 2 × Fin 2 => sendX (F := F) pb c) ∗ (bigSep Finset.univ fun pb : Fin 2 × Fin 2 => recvX (F := F) pb c)
          ∗ (bigSep Finset.univ fun p : Fin 2 => capX (F := F) p c)
          ∗ dutyTok (ER (F := F)) (barCell c) 0 (0 : DN) ∗ dutyTok (ER (F := F)) (barCell c) 0 (1 : DN)) := by
  rw [bigSep_fin11]
  show iprop(cellToks m (sendCell 0 0 c) ∗ cellToks m (sendCell 0 1 c) ∗ cellToks m (recvCell 0 0 c) ∗ cellToks m (recvCell 0 1 c)
      ∗ cellToks m (sendCell 1 0 c) ∗ cellToks m (sendCell 1 1 c) ∗ cellToks m (recvCell 1 0 c) ∗ cellToks m (recvCell 1 1 c)
      ∗ cellToks m (capCell 0 c) ∗ cellToks m (capCell 1 c) ∗ cellToks m (barCell c)) ⊢ _
  rw [toks_send m c 0 0, toks_send m c 0 1, toks_recv m c 0 0, toks_recv m c 0 1, toks_send m c 1 0, toks_send m c 1 1,
    toks_recv m c 1 0, toks_recv m c 1 1, toks_cap m c 0, toks_cap m c 1, toks_bar m c, bigSep_firstN2,
    bigSep_fin2x2, bigSep_fin2x2, bigSep_univ_two]
  unfold sendX recvX capX
  iintro ⟨S00, S01, R00, R01, S10, S11, R10, R11, ⟨C0, -⟩, ⟨C1, -⟩, ⟨⟨B0, B1⟩, -⟩⟩
  isplitl [S00 S01 S10 S11]
  · isplitl [S00 S01]
    · isplitl [S00] <;> iassumption
    · isplitl [S10] <;> iassumption
  isplitl [R00 R01 R10 R11]
  · isplitl [R00 R01]
    · isplitl [R00] <;> iassumption
    · isplitl [R10] <;> iassumption
  isplitl [C0 C1]
  · isplitl [C0] <;> iassumption
  isplitl [B0] <;> iassumption

/-! ## Around the rings -/

/-- The neighbour maps as re-indexings of the devices. -/
def rgtE : Dev nD ≃ Dev nD := ⟨rgt, lft, lft_rgt, rgt_lft⟩
def lftE : Dev nD ≃ Dev nD := ⟨lft, rgt, rgt_lft, lft_rgt⟩
def dnE (p : Fin 2) : Dev nD ≃ Dev nD := ⟨dnR p, upR p, upR_dnR p, dnR_upR p⟩
def upE (p : Fin 2) : Dev nD ≃ Dev nD := ⟨upR p, dnR p, dnR_upR p, upR_dnR p⟩

omit [FloatOps F] in
/-- A family over (index, device), conjoined over both, may have each index's devices re-indexed by that index's
    neighbour map: what every device holds of its own cells is what every device holds of its neighbours'. -/
theorem around {ι : Type} [Fintype ι] (e : ι → Dev nD ≃ Dev nD) (X : ι → Dev nD → sProp 𝕄) :
    (bigSep Finset.univ fun c : Dev nD => bigSep Finset.univ fun i : ι => X i c)
      = bigSep Finset.univ fun c : Dev nD => bigSep Finset.univ fun i : ι => X i (e i c) := by
  rw [bigSep_univ_comm (fun (c : Dev nD) (i : ι) => X i c), bigSep_univ_comm (fun (c : Dev nD) (i : ι) => X i (e i c))]
  exact bigSep_congr fun i _ => bigSep_univ_equiv (e i) (fun c => X i c)

/-! ## The dealing -/

instance knows_persistent (m : Mem F) (Kn : Dev nD × Fin 11 → ℕ) (ιs : KS → ℕ) : BI.Persistent (knows m Kn ιs) := by
  unfold knows; infer_instance

/-- The minted tokens, by the device that pays with them: its own send rounds; the receive rounds of its downstream
    neighbours; the grants to its upstream neighbours; its entry signals to the right and to the left. -/
theorem toks_around (m : Mem F) :
    bigSep (toks m) (fun x => (dutyTok (ER (F := F)) x.1 x.2.1 x.2.2 : sProp 𝕄))
      ⊢ iprop((bigSep Finset.univ fun c : Dev nD => bigSep Finset.univ fun pb : Fin 2 × Fin 2 => sendX (F := F) pb c)
          ∗ (bigSep Finset.univ fun c : Dev nD => bigSep Finset.univ fun pb : Fin 2 × Fin 2 => recvX (F := F) pb (dnE pb.1 c))
          ∗ (bigSep Finset.univ fun c : Dev nD => bigSep Finset.univ fun p : Fin 2 => capX (F := F) p (upE p c))
          ∗ (bigSep Finset.univ fun c : Dev nD => dutyTok (ER (F := F)) (barCell (rgtE c)) 0 (0 : DN))
          ∗ (bigSep Finset.univ fun c : Dev nD => dutyTok (ER (F := F)) (barCell (lftE c)) 0 (1 : DN))) := by
  rw [toks_split, bigSep_univ_prod]
  refine (bigSep_mono fun c _ => dev_toks m c).trans ?_
  rw [bigSep_sep', bigSep_sep', bigSep_sep', bigSep_sep',
    around (fun pb : Fin 2 × Fin 2 => dnE pb.1) (fun pb d => recvX (F := F) pb d),
    around (fun p : Fin 2 => upE p) (fun p d => capX (F := F) p d),
    bigSep_univ_equiv rgtE (fun c => (dutyTok (ER (F := F)) (barCell c) 0 (0 : DN) : sProp 𝕄)),
    bigSep_univ_equiv lftE (fun c => (dutyTok (ER (F := F)) (barCell c) 0 (1 : DN) : sProp 𝕄))]
  exact BI.Entails.refl _

omit [FloatOps F] in
/-- The readers' counts, by the device that holds the slot. -/
theorem readers_by_dev :
    (bigSep (Finset.univ : Finset KS) fun k => (Release.readerAt (ES (F := F)) k 0 : sProp 𝕄))
      = bigSep Finset.univ fun c : Dev nD => bigSep (Finset.univ : Finset (Fin 2 × Fin 2)) fun pb => Release.readerAt (ES (F := F)) ((c, pb.1, pb.2) : KS) 0 :=
  bigSep_univ_prod (fun k : Dev nD × (Fin 2 × Fin 2) => (Release.readerAt (ES (F := F)) (k : KS) 0 : sProp 𝕄))

omit [FloatOps F] in
/-- The tokens of the slots' writes, by the device that writes: the upstream neighbour of the slot's holder. -/
theorem writers_by_dev :
    (bigSep ((Finset.univ : Finset KS) ×ˢ Finset.range 2) fun x => (Release.writeTok (ES (F := F)) x.1 (x.2 + 1) : sProp 𝕄))
      = bigSep Finset.univ fun c : Dev nD => bigSep ((Finset.univ : Finset (Fin 2 × Fin 2)) ×ˢ Finset.range 2) fun x =>
          Release.writeTok (ES (F := F)) ((dnR x.1.1 c, x.1.1, x.1.2) : KS) (x.2 + 1) := by
  rw [bigSep_product, bigSep_univ_prod (fun k : Dev nD × (Fin 2 × Fin 2) => bigSep (Finset.range 2) fun w => (Release.writeTok (ES (F := F)) (k : KS) (w + 1) : sProp 𝕄)),
    around (fun pb : Fin 2 × Fin 2 => dnE pb.1) (fun pb d => bigSep (Finset.range 2) fun w => (Release.writeTok (ES (F := F)) ((d, pb) : KS) (w + 1) : sProp 𝕄))]
  exact bigSep_congr fun c _ => (bigSep_product (Finset.univ : Finset (Fin 2 × Fin 2)) (Finset.range 2)
    (fun x : (Fin 2 × Fin 2) × ℕ => (Release.writeTok (ES (F := F)) ((dnR x.1.1 c, x.1.1, x.1.2) : KS) (x.2 + 1) : sProp 𝕄))).symm

/-- Every device's own share, from what the launch minted that is not persistent. -/
theorem deal_mine (m : Mem F) :
    iprop((bigSep Finset.univ fun ck : Dev nD × Fin 11 => atPos (ER (F := F)) (kcell ck) 0 ∅ 0)
        ∗ (bigSep (toks m) fun x => dutyTok (ER (F := F)) x.1 x.2.1 x.2.2)
        ∗ (bigSep (Finset.univ : Finset KS) fun k => Release.readerAt (ES (F := F)) k 0)
        ∗ (bigSep ((Finset.univ : Finset KS) ×ˢ Finset.range 2) fun x => Release.writeTok (ES (F := F)) x.1 (x.2 + 1)))
      ⊢ (bigSep Finset.univ (mine (F := F)) : sProp 𝕄) := by
  iintro ⟨HA, HT, HD, HW⟩
  ihave HT' := (toks_around m) $$ HT
  icases HT' with ⟨HS, HRv, HC, HB0, HB1⟩
  ihave HA' := (Entails.of_eq (bigSep_univ_prod (fun ck : Dev nD × Fin 11 => (atPos (ER (F := F)) (kcell ck) 0 ∅ 0 : sProp 𝕄)))) $$ HA
  ihave HD' := (Entails.of_eq (readers_by_dev (F := F))) $$ HD
  ihave HW' := (Entails.of_eq (writers_by_dev (F := F))) $$ HW
  unfold mine
  simp only [bigSep_sep']
  isplitl [HA']; · iexact HA'
  isplitl [HB1]; · iexact HB1
  isplitl [HB0]; · iexact HB0
  isplitl [HS]; · iexact HS
  isplitl [HRv]; · iexact HRv
  isplitl [HC]; · iexact HC
  isplitl [HD']; · iexact HD'
  iexact HW'

/-- THE DEALING, as the launch takes it: everything minted, regrouped into every device's share. -/
theorem hdeal (m : Mem F) (Kn : Dev nD × Fin 11 → ℕ) (ιs : KS → ℕ) (hinj : Function.Injective ιs) :
    iprop((bigSep Finset.univ fun ck : Dev nD × Fin 11 => cellInv ER (ringRd m) (Kn ck) (kcell ck))
        ∗ (bigSep Finset.univ fun ck : Dev nD × Fin 11 => reached (ER (F := F)) (kcell ck) 0)
        ∗ (bigSep Finset.univ fun ck : Dev nD × Fin 11 => atPos (ER (F := F)) (kcell ck) 0 ∅ 0)
        ∗ (bigSep (toks m) fun x => dutyTok (ER (F := F)) x.1 x.2.1 x.2.2)
        ∗ (bigSep (Finset.univ : Finset KS) fun k => Release.slotInv (ES (F := F)) (ιs k) k (Sl k))
        ∗ (bigSep (Finset.univ : Finset KS) fun k => Release.readerAt (ES (F := F)) k 0)
        ∗ (bigSep ((Finset.univ : Finset KS) ×ˢ Finset.range 2) fun x => Release.writeTok (ES (F := F)) x.1 (x.2 + 1)))
      ⊢ (bigSep Finset.univ (G' m) : sProp 𝕄) := by
  iintro ⟨#HC, #HR, HA, HT, #HS, HD, HW⟩
  iapply (bigSep_with_persistent (R := knows m Kn ιs) (Φ := mine (F := F)) fun c _ =>
    (show iprop(knows m Kn ιs ∗ mine c) ⊢ G' m c from by
      unfold G'
      iintro ⟨Hk, Hm⟩
      iexists Kn; iexists ιs
      isplitr; · ipureintro; exact hinj
      isplitl [Hk] <;> iassumption))
  isplitr
  · unfold knows
    isplitr; · iexact HC
    isplitr; · iexact HR
    iexact HS
  · iapply (deal_mine m)
    isplitl [HA]; · iexact HA
    isplitl [HT]; · iexact HT
    isplitl [HD] <;> iassumption

/-- info: 'Cert.Kernel.RingProof.hdeal' depends on axioms: [propext, Classical.choice, Quot.sound] -/
#guard_msgs in #print axioms hdeal

end Cert.Kernel.RingProof

end
-- ==== Proof.RingCredsK.lean ====
/-
  The credit a device starts with.  At launch every device is dealt, for each of its own cells, one credit token per unit
  the other devices owe that cell.  Device `c`'s cells are owed: its entry cell two units at step 0, one from each
  neighbour; its right-going ring's credit cell one unit at steps 0, 1, 2, from its right neighbour (whose left neighbour it
  is); its left-going ring's credit cell one unit at steps 0, 1, from its left neighbour; its right-going ring's receive
  cells a transfer's worth at steps 0 to 3 (slot 1, 0, 1, 0), from its left neighbour; its left-going ring's receive cells
  the same at steps 0 to 2 (slot 1, 0, 1), from its right neighbour.  What a device owes is the sum of its fourteen payments,
  each to a cell of a neighbour; since "left neighbour" and "right neighbour" are inverse bijections of the devices, the
  payments of all devices to device `c`'s cell are the one payment of the neighbour on the other side.
-/
import proofs.«900462_g7700000000000463_dist_ring_attn_i_s2048_d256_v7x_i8_f32_1_alg».proof.Proof.RingStateK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device owes, payment by payment -/

/-- The fourteen payments of a device, the last outermost on the left. -/
theorem O₀_eq : (fun d : Dev nD => O₀ d) = fun d =>
    (fun d => tallyAt (recvCell 0 0 (rgt d)) 3 Ncr) d
    + (fun d => tallyAt (capCell 0 (lft d)) 2 1) d
    + (fun d => tallyAt (recvCell 1 1 (lft d)) 2 Ncr) d
    + (fun d => tallyAt (recvCell 0 1 (rgt d)) 2 Ncr) d
    + (fun d => tallyAt (capCell 1 (rgt d)) 1 1) d
    + (fun d => tallyAt (capCell 0 (lft d)) 1 1) d
    + (fun d => tallyAt (recvCell 1 0 (lft d)) 1 Ncr) d
    + (fun d => tallyAt (recvCell 0 0 (rgt d)) 1 Ncr) d
    + (fun d => tallyAt (capCell 1 (rgt d)) 0 1) d
    + (fun d => tallyAt (capCell 0 (lft d)) 0 1) d
    + (fun d => tallyAt (recvCell 1 1 (lft d)) 0 Ncr) d
    + (fun d => tallyAt (recvCell 0 1 (rgt d)) 0 Ncr) d
    + (fun d => tallyAt (barCell (rgt d)) 0 1) d
    + (fun d => tallyAt (barCell (lft d)) 0 1) d := by
  funext d
  have h : O₀ d = 0
    + tallyAt (recvCell 0 0 (rgt d)) 3 Ncr
    + tallyAt (capCell 0 (lft d)) 2 1
    + tallyAt (recvCell 1 1 (lft d)) 2 Ncr
    + tallyAt (recvCell 0 1 (rgt d)) 2 Ncr
    + tallyAt (capCell 1 (rgt d)) 1 1
    + tallyAt (capCell 0 (lft d)) 1 1
    + tallyAt (recvCell 1 0 (lft d)) 1 Ncr
    + tallyAt (recvCell 0 0 (rgt d)) 1 Ncr
    + tallyAt (capCell 1 (rgt d)) 0 1
    + tallyAt (capCell 0 (lft d)) 0 1
    + tallyAt (recvCell 1 1 (lft d)) 0 Ncr
    + tallyAt (recvCell 0 1 (rgt d)) 0 Ncr
    + tallyAt (barCell (rgt d)) 0 1
    + tallyAt (barCell (lft d)) 0 1 := rfl
  rw [h, zero_add]

/-! ## The credit dealt for them -/

theorem creds (c : Dev nD) : (Pipeline.launchCred O₀ c : sProp 𝕄) ⊢ iprop(
      cred (tallyAt (barCell c) 0 2)
    ∗ (cred (tallyAt (capCell 0 c) 0 1) ∗ cred (tallyAt (capCell 0 c) 1 1) ∗ cred (tallyAt (capCell 0 c) 2 1))
    ∗ (cred (tallyAt (capCell 1 c) 0 1) ∗ cred (tallyAt (capCell 1 c) 1 1))
    ∗ (cred (tallyAt (recvCell 0 1 c) 0 Ncr) ∗ cred (tallyAt (recvCell 0 0 c) 1 Ncr) ∗ cred (tallyAt (recvCell 0 1 c) 2 Ncr) ∗ cred (tallyAt (recvCell 0 0 c) 3 Ncr))
    ∗ (cred (tallyAt (recvCell 1 1 c) 0 Ncr) ∗ cred (tallyAt (recvCell 1 0 c) 1 Ncr) ∗ cred (tallyAt (recvCell 1 1 c) 2 Ncr))) := by
  rw [show (O₀ : Dev nD → CellTallies nD τ sig ℕ) = _ from O₀_eq]
  simp only [Pipeline.launchCred_add]
  iintro ⟨⟨⟨⟨⟨⟨⟨⟨⟨⟨⟨⟨⟨H14, H13⟩, H12⟩, H11⟩, H10⟩, H9⟩, H8⟩, H7⟩, H6⟩, H5⟩, H4⟩, H3⟩, H2⟩, H1⟩
  -- a payment to the left neighbour's cell reaches `c` from its right neighbour, and the other way round
  ihave B1 := (Pipeline.launchCred_tallyAt (Val := Elt F) (Name := ℕ) (U := UU) (Lvl := ℕ) (.reg barS) lft rgt lft_rgt rgt_lft 0 1 c) $$ H1
  ihave B2 := (Pipeline.launchCred_tallyAt (Val := Elt F) (Name := ℕ) (U := UU) (Lvl := ℕ) (.reg barS) rgt lft rgt_lft lft_rgt 0 1 c) $$ H2
  ihave R0 := (Pipeline.launchCred_tallyAt (Val := Elt F) (Name := ℕ) (U := UU) (Lvl := ℕ) (.dma (recvS 0 1)) rgt lft rgt_lft lft_rgt 0 Ncr c) $$ H3
  ihave L0 := (Pipeline.launchCred_tallyAt (Val := Elt F) (Name := ℕ) (U := UU) (Lvl := ℕ) (.dma (recvS 1 1)) lft rgt lft_rgt rgt_lft 0 Ncr c) $$ H4
  ihave K0 := (Pipeline.launchCred_tallyAt (Val := Elt F) (Name := ℕ) (U := UU) (Lvl := ℕ) (.reg (capS 0)) lft rgt lft_rgt rgt_lft 0 1 c) $$ H5
  ihave J0 := (Pipeline.launchCred_tallyAt (Val := Elt F) (Name := ℕ) (U := UU) (Lvl := ℕ) (.reg (capS 1)) rgt lft rgt_lft lft_rgt 0 1 c) $$ H6
  ihave R1 := (Pipeline.launchCred_tallyAt (Val := Elt F) (Name := ℕ) (U := UU) (Lvl := ℕ) (.dma (recvS 0 0)) rgt lft rgt_lft lft_rgt 1 Ncr c) $$ H7
  ihave L1 := (Pipeline.launchCred_tallyAt (Val := Elt F) (Name := ℕ) (U := UU) (Lvl := ℕ) (.dma (recvS 1 0)) lft rgt lft_rgt rgt_lft 1 Ncr c) $$ H8
  ihave K1 := (Pipeline.launchCred_tallyAt (Val := Elt F) (Name := ℕ) (U := UU) (Lvl := ℕ) (.reg (capS 0)) lft rgt lft_rgt rgt_lft 1 1 c) $$ H9
  ihave J1 := (Pipeline.launchCred_tallyAt (Val := Elt F) (Name := ℕ) (U := UU) (Lvl := ℕ) (.reg (capS 1)) rgt lft rgt_lft lft_rgt 1 1 c) $$ H10
  ihave R2 := (Pipeline.launchCred_tallyAt (Val := Elt F) (Name := ℕ) (U := UU) (Lvl := ℕ) (.dma (recvS 0 1)) rgt lft rgt_lft lft_rgt 2 Ncr c) $$ H11
  ihave L2 := (Pipeline.launchCred_tallyAt (Val := Elt F) (Name := ℕ) (U := UU) (Lvl := ℕ) (.dma (recvS 1 1)) lft rgt lft_rgt rgt_lft 2 Ncr c) $$ H12
  ihave K2 := (Pipeline.launchCred_tallyAt (Val := Elt F) (Name := ℕ) (U := UU) (Lvl := ℕ) (.reg (capS 0)) lft rgt lft_rgt rgt_lft 2 1 c) $$ H13
  ihave R3 := (Pipeline.launchCred_tallyAt (Val := Elt F) (Name := ℕ) (U := UU) (Lvl := ℕ) (.dma (recvS 0 0)) rgt lft rgt_lft lft_rgt 3 Ncr c) $$ H14
  isplitl [B1 B2]
  · rw [show (cred (tallyAt (barCell c) 0 2) : sProp 𝕄) = cred (tallyAt (barCell c) 0 1 + tallyAt (barCell c) 0 1) from by
      rw [tallyAt_add]]
    iapply (cred_add _ _).2
    isplitl [B1]; · iexact B1
    iexact B2
  isplitl [K0 K1 K2]
  · isplitl [K0]; · iexact K0
    isplitl [K1]; · iexact K1
    iexact K2
  isplitl [J0 J1]
  · isplitl [J0]; · iexact J0
    iexact J1
  isplitl [R0 R1 R2 R3]
  · isplitl [R0]; · iexact R0
    isplitl [R1]; · iexact R1
    isplitl [R2]; · iexact R2
    iexact R3
  · isplitl [L0]; · iexact L0
    isplitl [L1]; · iexact L1
    iexact L2

/-- info: 'Cert.Kernel.RingProof.creds' depends on axioms: [propext, Classical.choice, Quot.sound] -/
#guard_msgs in
#print axioms creds

end Cert.Kernel.RingProof

end
-- ==== Proof.RingWaitsK.lean ====
/-
  Every wait's evidence, decided once.  The kinds and steps of a device's fourteen payments do not depend on the
  device; a wait of kind `k` at step `j` after the first `n` payments is allowed when each later payment's
  consuming wait stands above it — a finite check over the list.
-/
import proofs.«900462_g7700000000000463_dist_ring_attn_i_s2048_d256_v7x_i8_f32_1_alg».proof.Proof.RingLevelsK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The steps at which a cell of a given kind is waited on. -/
def Lk : CellKind → Finset ℕ
  | .bar => {0}
  | .cap p => Finset.range (nCap p)
  | .send p b => (Finset.range (nHop p)).filter (fun t => t % 2 = b.val)
  | .recv p b => (Finset.range (nHop p)).filter (fun t => (t + 1) % 2 = b.val)
  | .other => {0}

/-- The level of (kind, step). -/
def lvk : CellKind → ℕ → ℕ
  | .bar, _ => 1
  | .cap p, t => 10 * (t + 2) + 1 + p.val
  | .send p _, t => 10 * (t + 1) + 3 + 2 * p.val
  | .recv p _, t => 10 * (t + 1) + 4 + 2 * p.val
  | .other, _ => 0

theorem L_eq (g : GSem nD τ sig) (h : g.1.2 = .tc) : L g = Lk (kindOf g.2) := by
  unfold L Lk; rw [if_pos h]; cases kindOf g.2 <;> rfl
theorem lv_eq (g : GSem nD τ sig) (t : ℕ) : lv g t = lvk (kindOf g.2) t := by
  unfold lv lvk; cases kindOf g.2 <;> rfl

/-- Kind and step of each of a device's payments, in order. -/
def payKinds : List (CellKind × ℕ) :=
  [(.bar, 0), (.bar, 0),
   (.recv 0 1, 0), (.recv 1 1, 0), (.cap 0, 0), (.cap 1, 0),
   (.recv 0 0, 1), (.recv 1 0, 1), (.cap 0, 1), (.cap 1, 1),
   (.recv 0 1, 2), (.recv 1 1, 2), (.cap 0, 2),
   (.recv 0 0, 3)]

theorem pays_kinds (c : Dev nD) : (pays c).map (fun x => (kindOf x.1.2, x.2.1)) = payKinds := by
  simp only [pays, stepPays, List.map_append, List.map_cons, List.map_nil, kindOf_bar, kindOf_recv, kindOf_cap,
    if_pos (by decide : (0 : ℕ) < 4), if_pos (by decide : (0 : ℕ) < 3), if_pos (by decide : (0 : ℕ) < 2),
    if_pos (by decide : (1 : ℕ) < 4), if_pos (by decide : (1 : ℕ) < 3), if_pos (by decide : (1 : ℕ) < 2),
    if_pos (by decide : (2 : ℕ) < 4), if_pos (by decide : (2 : ℕ) < 3), if_neg (by decide : ¬ (2 : ℕ) < 2),
    if_pos (by decide : (3 : ℕ) < 4), if_neg (by decide : ¬ (3 : ℕ) < 3), if_neg (by decide : ¬ (3 : ℕ) < 2),
    List.nil_append, List.append_nil, List.cons_append]
  rfl

theorem pays_procs (c : Dev nD) : (pays c).map (fun x => x.1.1.2) = List.replicate 14 Proc.tc := by
  simp only [pays, stepPays, List.map_append, List.map_cons, List.map_nil,
    if_pos (by decide : (0 : ℕ) < 4), if_pos (by decide : (0 : ℕ) < 3), if_pos (by decide : (0 : ℕ) < 2),
    if_pos (by decide : (1 : ℕ) < 4), if_pos (by decide : (1 : ℕ) < 3), if_pos (by decide : (1 : ℕ) < 2),
    if_pos (by decide : (2 : ℕ) < 4), if_pos (by decide : (2 : ℕ) < 3), if_neg (by decide : ¬ (2 : ℕ) < 2),
    if_pos (by decide : (3 : ℕ) < 4), if_neg (by decide : ¬ (3 : ℕ) < 3), if_neg (by decide : ¬ (3 : ℕ) < 2),
    List.nil_append, List.append_nil, List.cons_append]
  rfl

theorem pays_tc (c : Dev nD) : ∀ x ∈ pays c, x.1.1.2 = .tc := by
  intro x hx
  have h : x.1.1.2 ∈ (pays c).map (fun x => x.1.1.2) := List.mem_map_of_mem hx
  rw [pays_procs] at h
  exact List.eq_of_mem_replicate h

/-- The finite check. -/
def waitOk (k : CellKind) (j n : ℕ) : Prop :=
  ∀ x ∈ payKinds.drop n, x.2 ∈ Lk x.1 ∧ lvk k j < lvk x.1 x.2

instance (k : CellKind) (j n : ℕ) : Decidable (waitOk k j n) := by unfold waitOk; infer_instance

/-- A wait of device `c` on its own cell `s` at step `j` after its first `n` payments. -/
theorem mayWait_kind (c : Dev nD) (s : SemLoc sig) (j n : ℕ) (hj : j ∈ Lk (kindOf s)) (hok : waitOk (kindOf s) j n) :
    (levAts L lv : sProp 𝕄) ⊢ MayWait (c : Thread nD τ) s j (owedFrom c n) :=
  mayWait_after c s j n (by rw [L_eq _ rfl]; exact hj) fun x hx => by
    have hxm : x ∈ pays c := List.mem_of_mem_drop hx
    have hk : (kindOf x.1.2, x.2.1) ∈ payKinds.drop n := by
      rw [← pays_kinds c, ← List.map_drop]
      exact List.mem_map_of_mem hx
    have h := hok _ hk
    rw [L_eq _ (pays_tc c x hxm), lv_eq, lv_eq]
    exact h

end Cert.Kernel.RingProof

end
-- ==== Proof.RingSlotValuesK.lean ====
/-
  What a ring buffer's slots hold.  A slot read as a transfer reads it is a [2, 2048, 256] block, key half then value half;
  the body loads and stores the halves one at a time as [1, 1, 2048, 256] vectors.  Entry (a, x, y) of slot `b` and entry
  (0, 0, x, y) of its half `a` are the same buffer element, (b, a, x, y).  Hence: a half loaded from a slot whose block is
  known is that block's half; a slot whose halves were stored holds the two stored vectors side by side; a store of a half
  changes nothing outside that half, in particular not the other slot; and a slot a transfer has landed in holds what landed,
  the other slot keeping what it had.
-/
import proofs.«900462_g7700000000000463_dist_ring_attn_i_s2048_d256_v7x_i8_f32_1_alg».proof.Proof.RingSlotsK

noncomputable section

namespace Cert.Kernel.RingProof

open Cert.Kernel Cert.Kernel.Gen

open Idealize.ShloMosaic
open Idealize.ShloMosaic.TcCoe
open Idealize.SL.Sem

variable {F : FTy → Type} [FloatOps F]

open Idealize.ShloMosaic.ValueIdx (ix2 ix3 ix4)

/-! ## Where the entries sit -/

/-- The buffer index (b, a, x, y). -/
abbrev at4 (b a : Fin 2) (x : Fin 2048) (y : Fin 256) : S2x2x2048x256.Idx := ix4 (n0 := 2) (n1 := 2) (n2 := 2048) (n3 := 256) b a x y

/-- Entry (0, a, x, y) of slot `b`'s rectangle is the buffer's (b, a, x, y). -/
theorem slotR_idx (b a : Fin 2) (x : Fin 2048) (y : Fin 256) :
    (slotR b).toLoadRect.idx (ix4 (n0 := 1) (n1 := 2) (n2 := 2048) (n3 := 256) 0 a x y) = at4 b a x y :=
  funext fun c => Fin.ext (by
    match c with
    | ⟨0, _⟩ => show b.val + 1 * 0 = b.val; omega
    | ⟨1, _⟩ => show 0 + 1 * a.val = a.val; omega
    | ⟨2, _⟩ => show 0 + 1 * x.val = x.val; omega
    | ⟨3, _⟩ => show 0 + 1 * y.val = y.val; omega)

/-- Entry `i` of half `h` of slot `b` is the buffer's (b, h, i₂, i₃). -/
theorem halfR_idx (b h : Fin 2) (i : S1x1x2048x256.Idx) :
    (halfR b h).toLoadRect.idx i = at4 b h (i 2) (i 3) :=
  funext fun c => Fin.ext (by
    have h0 : (i 0).val < 1 := (i 0).isLt
    have h1 : (i 1).val < 1 := (i 1).isLt
    match c with
    | ⟨0, _⟩ => show b.val + 1 * (i 0).val = b.val; omega
    | ⟨1, _⟩ => show h.val + 1 * (i 1).val = h.val; omega
    | ⟨2, _⟩ => show 0 + 1 * (i 2).val = (i 2).val; omega
    | ⟨3, _⟩ => show 0 + 1 * (i 3).val = (i 3).val; omega)

theorem half_emb (b h : Fin 2) (x : Fin 2048) (y : Fin 256) :
    (halfR b h).emb (ix4 (n0 := 1) (n1 := 1) (n2 := 2048) (n3 := 256) 0 0 x y) = at4 b h x y :=
  halfR_idx b h _

theorem slot_shapeCasts : S1x2x2048x256.ShapeCasts S2x2048x256 := by decide

/-- A slot read as a transfer reads it, at (a, x, y), is the buffer read at (b, a, x, y). -/
theorem slot_read_apply (p b : Fin 2) (f : (ringM p).view.ty.Contents (Elt F)) (j : S2x2048x256.Idx) :
    (slotM p b).view.read (Elt F) f j = (ringM p).view.read (Elt F) f (at4 b (j 0) (j 1) (j 2)) := by
  have h1 : (slotM p b).view.read (Elt F) f
      = shapeCast S2x2048x256 ((ringM p).view.readAt (Elt F) (slotR b).toLoadRect f) slot_shapeCasts :=
    Memref.read_squeeze_slice (ringM p) (slotR b) (fun _ => rfl) squeezes_S1x2x2048x256_S2x2048x256 slot_shapeCasts f
  rw [h1]
  refine (shapeCast_apply _ slot_shapeCasts j (ix4 (n0 := 1) (n1 := 2) (n2 := 2048) (n3 := 256) 0 (j 0) (j 1) (j 2)) (by
    rw [Shape.rowMajor_val_four, Shape.rowMajor_val_three]
    show ((0 * 2 + (j 0).val) * 2048 + (j 1).val) * 256 + (j 2).val = ((j 0).val * 2048 + (j 1).val) * 256 + (j 2).val
    omega)).trans ?_
  exact congrArg ((ringM p).view.read (Elt F) f) (slotR_idx b (j 0) (j 1) (j 2))

/-- A half loaded, at `i`, is the buffer read at (b, h, i₂, i₃). -/
theorem half_read_apply (p b h : Fin 2) (f : (ringM p).view.ty.Contents (Elt F)) (i : S1x1x2048x256.Idx) :
    (ringM p).view.readAt (Elt F) (halfR b h).toLoadRect f i = (ringM p).view.read (Elt F) f (at4 b h (i 2) (i 3)) :=
  congrArg ((ringM p).view.read (Elt F) f) (halfR_idx b h i)

/-! ## A store of a half, seen through the buffer -/

/-- At an entry of the half stored: what was stored. -/
theorem read_write_half_mem (p b h : Fin 2) (f : (ringM p).view.ty.Contents (Elt F)) (w : Vec F S1x1x2048x256 .bf16)
    (x : Fin 2048) (y : Fin 256) :
    (ringM p).view.read (Elt F) (View.write (Elt F) ((ringM p).access (halfR b h)) f w Finset.univ) (at4 b h x y)
      = w (ix4 (n0 := 1) (n1 := 1) (n2 := 2048) (n3 := 256) 0 0 x y) := by
  rw [← half_emb]
  exact View.read_slice_write_emb (v := (ringM p).view) (halfR b h) f w (Finset.mem_univ _)

/-- Anywhere else: what was there. -/
theorem read_write_half_not_mem (p b h : Fin 2) (f : (ringM p).view.ty.Contents (Elt F)) (w : Vec F S1x1x2048x256 .bf16)
    {i : S2x2x2048x256.Idx} (hi : i ∉ (halfR b h).set) :
    (ringM p).view.read (Elt F) (View.write (Elt F) ((ringM p).access (halfR b h)) f w Finset.univ) i
      = (ringM p).view.read (Elt F) f i :=
  View.read_slice_write_of_not_mem (v := (ringM p).view) (halfR b h) f w Finset.univ (by rw [Rect.map_emb_univ]; exact hi)

/-- The same at a buffer element outside the half's own elements. -/
theorem write_half_of_not_mem (p b h : Fin 2) (f : (ringM p).view.ty.Contents (Elt F)) (w : Vec F S1x1x2048x256 .bf16)
    {i : (ringM p).view.ty.Idx} (hi : i ∉ ((ringM p).access (halfR b h)).set) :
    View.write (Elt F) ((ringM p).access (halfR b h)) f w Finset.univ i = f i :=
  View.write_of_not_mem (v := (ringM p).access (halfR b h)) f w Finset.univ hi

/-! ## What a transfer's landing leaves -/

/-- The slot landed in holds what landed. -/
theorem slot_read_write (p b : Fin 2) (fd : (ringM p).view.ty.Contents (Elt F)) (V : FVec F S2x2048x256 .bf16) :
    (slotM p b).view.read (Elt F) ((slotM p b).view.write (Elt F) fd V Finset.univ) = V :=
  View.read_write_univ (v := (slotM p b).view) fd V

/-- Outside the slot's elements the buffer is as it was. -/
theorem slot_write_of_not_mem (p b : Fin 2) (fd : (ringM p).view.ty.Contents (Elt F)) (V : FVec F S2x2048x256 .bf16)
    {i : (ringM p).view.ty.Idx} (hi : i ∉ (slotM p b).view.set) :
    (slotM p b).view.write (Elt F) fd V Finset.univ i = fd i :=
  View.write_of_not_mem (v := (slotM p b).view) fd V Finset.univ hi

/-- So the other slot holds what it held. -/
theorem slot_read_write_other (p : Fin 2) {b b' : Fin 2} (hb : b' ≠ b) (fd : (ringM p).view.ty.Contents (Elt F))
    (V : FVec F S2x2048x256 .bf16) :
    (slotM p b').view.read (Elt F) ((slotM p b).view.write (Elt F) fd V Finset.univ) = (slotM p b').view.read (Elt F) fd :=
  View.read_congr (v := (slotM p b').view) fun i hi =>
    slot_write_of_not_mem p b fd V (Finset.disjoint_left.mp (slot_set_disjoint p (b := b') (b' := b) hb) hi)

/-! ## A half loaded from a slot whose block is known -/

theorem half_read_of_slot (p b h : Fin 2) (f : (ringM p).view.ty.Contents (Elt F)) (V : FVec F S2x2048x256 .bf16)
    (hV : (slotM p b).view.read (Elt F) f = V) :
    (ringM p).view.readAt (Elt F) (halfR b h).toLoadRect f
      = fun i : S1x1x2048x256.Idx => V (ix3 (n0 := 2) (n1 := 2048) (n2 := 256) h (i 2) (i 3)) := by
  funext i
  refine (half_read_apply p b h f i).trans ?_
  subst hV
  exact (slot_read_apply p b f (ix3 (n0 := 2) (n1 := 2048) (n2 := 256) h (i 2) (i 3))).symm

/-- The two halves of a key/value pair. -/
theorem joinKV_key (kb vb : FVec F S2048x256 .bf16) (x : Fin 2048) (y : Fin 256) :
    joinKV kb vb (ix3 (n0 := 2) (n1 := 2048) (n2 := 256) 0 x y) = kb (ix2 (n0 := 2048) (n1 := 256) x y) := by
  unfold joinKV; exact if_pos rfl
theorem joinKV_val (kb vb : FVec F S2048x256 .bf16) (x : Fin 2048) (y : Fin 256) :
    joinKV kb vb (ix3 (n0 := 2) (n1 := 2048) (n2 := 256) 1 x y) = vb (ix2 (n0 := 2048) (n1 := 256) x y) := by
  unfold joinKV; exact if_neg (show ¬(1 : ℕ) = 0 from Nat.one_ne_zero)

/-- From a slot holding a key/value pair, the key half loads the keys … -/
theorem half_read_key (p b : Fin 2) (f : (ringM p).view.ty.Contents (Elt F)) (kb vb : FVec F S2048x256 .bf16)
    (hV : (slotM p b).view.read (Elt F) f = joinKV kb vb) :
    (ringM p).view.readAt (Elt F) (halfR b 0).toLoadRect f = fun i : S1x1x2048x256.Idx => kb (ix2 (n0 := 2048) (n1 := 256) (i 2) (i 3)) := by
  rw [half_read_of_slot p b 0 f _ hV]
  exact funext fun i => joinKV_key kb vb (i 2) (i 3)

/-- … and the value half the values. -/
theorem half_read_val (p b : Fin 2) (f : (ringM p).view.ty.Contents (Elt F)) (kb vb : FVec F S2048x256 .bf16)
    (hV : (slotM p b).view.read (Elt F) f = joinKV kb vb) :
    (ringM p).view.readAt (Elt F) (halfR b 1).toLoadRect f = fun i : S1x1x2048x256.Idx => vb (ix2 (n0 := 2048) (n1 := 256) (i 2) (i 3)) := by
  rw [half_read_of_slot p b 1 f _ hV]
  exact funext fun i => joinKV_val kb vb (i 2) (i 3)

/-! ## A slot whose two halves were stored -/

theorem slot_read_write_halves (p b : Fin 2) (f : (ringM p).view.ty.Contents (Elt F)) (wk wv : Vec F S1x1x2048x256 .bf16) :
    (slotM p b).view.read (Elt F)
        (View.write (Elt F) ((ringM p).access (halfR b 1))
          (View.write (Elt F) ((ringM p).access (halfR b 0)) f wk Finset.univ) wv Finset.univ)
      = joinKV (fun j => wk (ix4 (n0 := 1) (n1 := 1) (n2 := 2048) (n3 := 256) 0 0 (j 0) (j 1))) (fun j => wv (ix4 (n0 := 1) (n1 := 1) (n2 := 2048) (n3 := 256) 0 0 (j 0) (j 1))) := by
  funext j
  refine (slot_read_apply p b _ j).trans ?_
  have hj0 : (j 0).val < 2 := (j 0).isLt
  rcases (by omega : (j 0).val = 0 ∨ (j 0).val = 1) with h0 | h0
  · have ea : at4 b (j 0) (j 1) (j 2) = at4 b 0 (j 1) (j 2) := funext fun c => Fin.ext (by
      match c with
      | ⟨0, _⟩ => rfl
      | ⟨1, _⟩ => exact h0
      | ⟨2, _⟩ => rfl
      | ⟨3, _⟩ => rfl)
    have hr : joinKV (fun j => wk (ix4 (n0 := 1) (n1 := 1) (n2 := 2048) (n3 := 256) 0 0 (j 0) (j 1))) (fun j => wv (ix4 (n0 := 1) (n1 := 1) (n2 := 2048) (n3 := 256) 0 0 (j 0) (j 1))) j
        = wk (ix4 (n0 := 1) (n1 := 1) (n2 := 2048) (n3 := 256) 0 0 (j 1) (j 2)) := by unfold joinKV; exact if_pos h0
    rw [hr, ea]
    refine (read_write_half_not_mem p b 1 _ wv (fun hm => ?_)).trans (read_write_half_mem p b 0 f wk (j 1) (j 2))
    have : (0 : ℕ) = 1 := (mem_half.mp hm).2
    omega
  · have ea : at4 b (j 0) (j 1) (j 2) = at4 b 1 (j 1) (j 2) := funext fun c => Fin.ext (by
      match c with
      | ⟨0, _⟩ => rfl
      | ⟨1, _⟩ => exact h0
      | ⟨2, _⟩ => rfl
      | ⟨3, _⟩ => rfl)
    have hr : joinKV (fun j => wk (ix4 (n0 := 1) (n1 := 1) (n2 := 2048) (n3 := 256) 0 0 (j 0) (j 1))) (fun j => wv (ix4 (n0 := 1) (n1 := 1) (n2 := 2048) (n3 := 256) 0 0 (j 0) (j 1))) j
        = wv (ix4 (n0 := 1) (n1 := 1) (n2 := 2048) (n3 := 256) 0 0 (j 1) (j 2)) := by unfold joinKV; exact if_neg (by omega)
    rw [hr, ea]
    exact read_write_half_mem p b 1 _ wv (j 1) (j 2)

/-! ## A store of a half leaves the other slot alone -/

theorem slot_read_write_half_other (p : Fin 2) {b b' : Fin 2} (hb : b' ≠ b) (h : Fin 2) (f : (ringM p).view.ty.Contents (Elt F))
    (w : Vec F S1x1x2048x256 .bf16) :
    (slotM p b').view.read (Elt F) (View.write (Elt F) ((ringM p).access (halfR b h)) f w Finset.univ)
      = (slotM p b').view.read (Elt F) f := by
  funext j
  refine (slot_read_apply p b' _ j).trans (Eq.trans ?_ (slot_read_apply p b' f j).symm)
  exact read_write_half_not_mem p b h f w fun hm => hb (Fin.ext (mem_half.mp hm).1)

/-- info: 'Cert.Kernel.RingProof.slot_read_write_half_other' depends on axioms: [propext, Classical.choice, Quot.sound] -/
#guard_msgs in
#print axioms slot_read_write_half_other

end Cert.Kernel.RingProof

end
-- ==== Proof.RingAccessK.lean ====
/-
  Loading and storing a half of a ring slot while holding the slot.
  A device holds a ring buffer slot by slot: the elements of slot `b` at some share.  The body's loads and stores go through
  the buffer itself, a half at a time; a half's elements are among its slot's, so a load of a half needs only (any share of)
  the slot, and a store of a half needs the slot at the full share and leaves it holding the written contents.
  From a slot known to hold a key block beside a value block, the key half loads the keys and the value half the values; a
  slot whose two halves were stored holds the two stored vectors side by side.
-/
import proofs.«900462_g7700000000000463_dist_ring_attn_i_s2048_d256_v7x_i8_f32_1_alg».proof.Proof.RingSlotValuesK
import proofs.«900462_g7700000000000463_dist_ring_attn_i_s2048_d256_v7x_i8_f32_1_alg».proof.Proof.RingSteps2K

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3 ix4)

variable {F : FTy → Type} [FloatOps F]

local notation "𝕄" => MT nD τ sig ℕ (Elt F) ℕ UU ℕ

section Access

variable {α : Type} {Q : α → sProp (MT nD τ sig ℕ (Elt F) ℕ UU ℕ)} (c : Dev nD) (p b : Fin 2)

/-! ## A half's elements are among its slot's -/

theorem half_load_subset (h : Fin 2) : (ringM p).view.setOn (halfR b h).toLoadRect.set ⊆ (slotM p b).view.set := by
  rw [slot_set]
  exact Finset.map_subset_map.mpr (half_subset b h)

theorem half_store_subset (h : Fin 2) : ((ringM p).access (halfR b h)).setOn Finset.univ ⊆ (slotM p b).view.set := by
  rw [View.setOn_univ, half_set, slot_set]
  exact Finset.map_subset_map.mpr (half_subset b h)

/-! ## The two accesses -/

/-- A load of half `h` of a slot held at any share: the program continues at what the half reads, the slot as it was. -/
theorem wp_slot_load (h : Fin 2) {q : PosShare TreeShare} (f : Buf (Elt F) ((slotM p b).view.loc (c : Thread nD τ)))
    {hl : (ringM p).view.LoadsAt (halfR b h).toLoadRect}
    {k : ((halfR b h).toLoadRect.shape.Idx → Elt F .bf16) → Prog (TpuEff nD τ sig (Elt F) Λ₀ .tc) α} :
    slotPts c p b q f
      ⊢ iprop((slotPts c p b q f -∗ wp frame (wpE (defs₀ (F := F)) 𝒱₀ (c : Thread nD τ) none) Set.univ (k ((ringM p).view.readAt (Elt F) (halfR b h).toLoadRect f)) Q)
          -∗ wp frame (wpE (defs₀ (F := F)) 𝒱₀ (c : Thread nD τ) none) Set.univ (.op (.load (ringM p) (halfR b h).toLoadRect hl) k) Q) :=
  wp_load (defs := defs₀ (F := F)) (Γ := .empty) (m := ringM p) (r := (halfR b h).toLoadRect) (hl := hl) (k := k) (Q := Q)
    (S := (slotM p b).view.set) (q := q) (f := f) 𝒱₀ (c : Thread nD τ) none Set.univ (half_load_subset p b h)

/-- A store of half `h` of a slot held whole: the slot then holds the contents with that half written. -/
theorem wp_slot_store (h : Fin 2) (f : Buf (Elt F) ((slotM p b).view.loc (c : Thread nD τ))) (w : Vec F S1x1x2048x256 .bf16)
    {hx : ((ringM p).access (halfR b h)).Stores Finset.univ}
    {hm : (Finset.univ : Finset (halfR b h).shape.Idx) = Finset.univ ∨ ∀ a, (halfR b h).stride a = 1}
    {k : PUnit → Prog (TpuEff nD τ sig (Elt F) Λ₀ .tc) α} :
    slotPts c p b fullShare f
      ⊢ iprop((slotPts c p b fullShare (View.write (Elt F) ((ringM p).access (halfR b h)) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store (ringM p) (halfR b h) w Finset.univ hx hm) k) Q) :=
  wp_store (defs := defs₀ (F := F)) (Γ := .empty) (m := ringM p) (r := halfR b h) (w := w) (Mk := Finset.univ) (hx := hx) (hm := hm) (k := k) (Q := Q)
    (S := (slotM p b).view.set) (f := f) 𝒱₀ (c : Thread nD τ) none Set.univ (half_store_subset p b h)

/-! ## Loading from a slot that holds a key block beside a value block -/

/-- The key half loads the keys; what was held is given back as it was. -/
theorem wp_slot_load_key {q : PosShare TreeShare} (kb vb : FVec F S2048x256 .bf16)
    {hl : (ringM p).view.LoadsAt (halfR b 0).toLoadRect}
    {k : ((halfR b 0).toLoadRect.shape.Idx → Elt F .bf16) → Prog (TpuEff nD τ sig (Elt F) Λ₀ .tc) α} :
    iprop(∃ f, ⌜(slotM p b).view.read (Elt F) f = joinKV kb vb⌝ ∗ slotPts c p b q f)
      ⊢ iprop((iprop(∃ f, ⌜(slotM p b).view.read (Elt F) f = joinKV kb vb⌝ ∗ slotPts c p b q f)
            -∗ wp frame (wpE (defs₀ (F := F)) 𝒱₀ (c : Thread nD τ) none) Set.univ (k (fun i : S1x1x2048x256.Idx => kb (ix2 (n0 := 2048) (n1 := 256) (i 2) (i 3)))) Q)
          -∗ wp frame (wpE (defs₀ (F := F)) 𝒱₀ (c : Thread nD τ) none) Set.univ (.op (.load (ringM p) (halfR b 0).toLoadRect hl) k) Q) := by
  iintro ⟨%f, %hf, Hs⟩ Hk
  iapply (wp_slot_load (Q := Q) c p b 0 f (hl := hl) (k := k)) $$ [Hs]
  · iexact Hs
  iintro Hs
  rw [half_read_key p b f kb vb hf]
  iapply Hk
  iexists f
  isplitr
  · ipureintro; exact hf
  · iexact Hs

/-- The value half loads the values. -/
theorem wp_slot_load_val {q : PosShare TreeShare} (kb vb : FVec F S2048x256 .bf16)
    {hl : (ringM p).view.LoadsAt (halfR b 1).toLoadRect}
    {k : ((halfR b 1).toLoadRect.shape.Idx → Elt F .bf16) → Prog (TpuEff nD τ sig (Elt F) Λ₀ .tc) α} :
    iprop(∃ f, ⌜(slotM p b).view.read (Elt F) f = joinKV kb vb⌝ ∗ slotPts c p b q f)
      ⊢ iprop((iprop(∃ f, ⌜(slotM p b).view.read (Elt F) f = joinKV kb vb⌝ ∗ slotPts c p b q f)
            -∗ wp frame (wpE (defs₀ (F := F)) 𝒱₀ (c : Thread nD τ) none) Set.univ (k (fun i : S1x1x2048x256.Idx => vb (ix2 (n0 := 2048) (n1 := 256) (i 2) (i 3)))) Q)
          -∗ wp frame (wpE (defs₀ (F := F)) 𝒱₀ (c : Thread nD τ) none) Set.univ (.op (.load (ringM p) (halfR b 1).toLoadRect hl) k) Q) := by
  iintro ⟨%f, %hf, Hs⟩ Hk
  iapply (wp_slot_load (Q := Q) c p b 1 f (hl := hl) (k := k)) $$ [Hs]
  · iexact Hs
  iintro Hs
  rw [half_read_val p b f kb vb hf]
  iapply Hk
  iexists f
  isplitr
  · ipureintro; exact hf
  · iexact Hs

/-! ## A slot whose two halves were stored -/

/-- Keys stored into half 0, then values into half 1: the slot holds the two, side by side. -/
theorem slotAt_of_stores (f : Buf (Elt F) ((slotM p b).view.loc (c : Thread nD τ))) (wk wv : Vec F S1x1x2048x256 .bf16) :
    slotPts c p b fullShare
        (View.write (Elt F) ((ringM p).access (halfR b 1))
          (View.write (Elt F) ((ringM p).access (halfR b 0)) f wk Finset.univ) wv Finset.univ)
      ⊢ slotAt c p b (joinKV (fun j => wk (ix4 (n0 := 1) (n1 := 1) (n2 := 2048) (n3 := 256) 0 0 (j 0) (j 1)))
          (fun j => wv (ix4 (n0 := 1) (n1 := 1) (n2 := 2048) (n3 := 256) 0 0 (j 0) (j 1)))) := by
  unfold slotAt
  iintro H
  iexists _
  isplitr
  · ipureintro; exact slot_read_write_halves p b f wk wv
  · iexact H

/-- info: 'Cert.Kernel.RingProof.slotAt_of_stores' depends on axioms: [propext, Classical.choice, Quot.sound] -/
#guard_msgs in
#print axioms slotAt_of_stores

end Access

end Cert.Kernel.RingProof

end
-- ==== Proof.RingSteps3K.lean ====
/-
  Three compound steps of the ring.  A hop with its take: the writer of a downstream slot, having heard the slot
  released often enough and holding the token of this write, takes the slot out of its release invariant and hands
  it to the transfer.  A slot held whole is its lent half and its kept half, and back; and a slot read is released
  to its writer.  The last unit of a credit cell: the round is done, the owner stands at the next round, and the
  last grant's facts are known, from the harvest so far or from the payloads the wait brings.
-/
import proofs.«900462_g7700000000000463_dist_ring_attn_i_s2048_d256_v7x_i8_f32_1_alg».proof.Proof.RingSteps2K
import proofs.«900462_g7700000000000463_dist_ring_attn_i_s2048_d256_v7x_i8_f32_1_alg».proof.Proof.RingOpenK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig ℕ (Elt F) ℕ UU ℕ

/-! ## A hop with its take -/

/-- The slot a release invariant of key (device, ring, slot) guards is that slot at some contents. -/
theorem Sl_open (d : Dev nD) (p b : Fin 2) :
    Sl (F := F) ((d, p, b) : KS) ⊢ iprop(∃ fd : Buf (Elt F) ((slotM p b).view.loc (d : Thread nD τ)), slotPts d p b fullShare fd) := by
  unfold Sl Release.slot slotPts
  exact BI.Entails.refl _

/-- Hop 2r + b of ring p, the downstream slot taken first: the writer has heard that slot released w times and holds
    the token of write w; it takes the slot out of the slot's release invariant and the transfer hands it on. -/
theorem wp_hop {α : Type} {Q : α → sProp (MT nD τ sig ℕ (Elt F) ℕ UU ℕ)} (m : Mem F) (c : Dev nD) (p : Fin 2)
    (b b' : Fin 2) (hb' : 1 - b'.val = b.val) (r : ℕ) (hs : r < nSend p b) (hr : r < nRecv p b') (ι : ℕ) (n : Dev nD) (hn : n = dnR p c)
    {hsc : (slotM p b' : Memref sig (Dev.tc n : Thread nD τ).2.kind .vmem S2x2048x256 .bf16).view.ref.isScScratch = false}
    {hsrc : (slotM p b).view.WordExact} {hdst : (slotM p b').view.WordExact}
    {hsem : DmaTarget.Typed .vmem (.dma (recvS p b')) (.remote (Dev.tc n : Thread nD τ) (slotM p b') (.dma (sendS p b)) hsc)}
    {k : PUnit → Prog (TpuEff nD τ sig (Elt F) Λ₀ .tc) α} {κ₁ κ₂ : ℕ}
    (fs : Buf (Elt F) ((slotM p b).view.loc (c : Thread nD τ)))
    (hv : (slotM p b).view.read (Elt F) fs = sentV m p (2 * r + b.val) c)
    {O₀ : CellTallies nD τ sig ℕ} (O : CellTallies nD τ sig ℕ) (hO : O₀ = O + tallyAt (recvCell p b' (dnR p c)) ι Ncr) {W : Waits sig ℕ}
    (ιn w : ℕ) :
    iprop(cellInv ER (ringRd m) κ₁ (sendCell p b c) ∗ cellInv ER (ringRd m) κ₂ (recvCell p b' (dnR p c))
        ∗ slotPts c p b fullShare.left fs
        ∗ Release.slotInv (ES (F := F)) ιn ((dnR p c, p, b') : KS) (Sl ((dnR p c, p, b') : KS))
        ∗ Release.released (ES (F := F)) ((dnR p c, p, b') : KS) w ∗ Release.writeTok (ES (F := F)) ((dnR p c, p, b') : KS) w
        ∗ owes (c : Thread nD τ) O₀ W
        ∗ dutyTok ER (sendCell p b c) r (0 : DN) ∗ reached ER (sendCell p b c) r
        ∗ dutyTok ER (recvCell p b' (dnR p c)) r (0 : DN) ∗ reached ER (recvCell p b' (dnR p c)) r)
      ⊢ iprop(((cred (tallyAt (sendCell p b c) ι Ncr) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM p b) (.remote (Dev.tc n : Thread nD τ) (slotM p b') (.dma (sendS p b)) hsc) (.dma (recvS p b')) hsrc hdst hsem) k) Q) := by
  iintro ⟨#HI1, #HI2, Hs, #HIn, #Hrel, Hw, HO, Ht1, #Hr1, Ht2, #Hr2⟩ Hk
  imod (Release.slot_take (ES (F := F)) (Set.mem_univ ιn) w) $$ [Hw] with HS
  · isplitr; · iexact HIn
    isplitr; · iexact Hrel
    iexact Hw
  ihave HS' := (Sl_open (F := F) (dnR p c) p b') $$ HS
  icases HS' with ⟨%fd, Hd⟩
  iapply (wp_ringsend m c p b b' hb' r hs hr ι n hn fs fd hv O hO (W := W)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-! ## A slot, its halves, and its release -/

/-- A slot held whole is its lent half and its kept half, both at the same contents. -/
theorem slot_halve (c : Dev nD) (p b : Fin 2) (V : FVec F S2x2048x256 .bf16) :
    slotAt c p b V ⊢ iprop(slotLent c p b V ∗ ∃ f, ⌜(slotM p b).view.read (Elt F) f = V⌝ ∗ slotPts c p b fullShare.right f) := by
  unfold slotAt slotLent slotPts
  iintro ⟨%f, %hf, H⟩
  ihave H2 := (pointsTo_share (PosShare.mem_left_op_right fullShare)).1 $$ H
  icases H2 with ⟨HL, HR⟩
  isplitl [HL]
  · iexists f; isplitr; · ipureintro; exact hf
    iexact HL
  · iexists f; isplitr; · ipureintro; exact hf
    iexact HR

/-- The lent half back beside the kept half, at whatever contents that is held, is the slot whole: the two halves
    agree on every element of the slot. -/
theorem slot_rejoin' (c : Dev nD) (p b : Fin 2) (V : FVec F S2x2048x256 .bf16) :
    iprop(slotLent c p b V ∗ ∃ g, slotPts c p b fullShare.right g) ⊢ slotAt c p b V := by
  unfold slotAt slotLent slotPts
  iintro ⟨⟨%f, %hf, HL⟩, ⟨%g, HR⟩⟩
  ihave H := (persistent_entails_right pointsTo_agree) $$ [HL HR]
  · isplitl [HL] <;> iassumption
  icases H with ⟨%hag, HL, HR⟩
  have hgf : ∀ i ∈ (slotM p b).view.set, g i = f i := fun i hi => ((hag i (Finset.mem_inter.mpr ⟨hi, hi⟩)).1).symm
  ihave HR' := (Entails.of_eq (pointsTo_congr (q := fullShare.right) hgf)) $$ HR
  iexists f; isplitr; · ipureintro; exact hf
  iapply (pointsTo_share (PosShare.mem_left_op_right fullShare)).2
  isplitl [HL] <;> iassumption

/-- The converse of halving. -/
theorem slot_rejoin (c : Dev nD) (p b : Fin 2) (V : FVec F S2x2048x256 .bf16) :
    iprop(slotLent c p b V ∗ ∃ f, ⌜(slotM p b).view.read (Elt F) f = V⌝ ∗ slotPts c p b fullShare.right f) ⊢ slotAt c p b V := by
  iintro ⟨HL, ⟨%g, -, HR⟩⟩
  iapply (slot_rejoin' c p b V)
  isplitl [HL]; · iexact HL
  iexists g; iexact HR

omit [FloatOps F] in
/-- A slot has elements. -/
theorem slot_nonempty (p b : Fin 2) : (slotM p b).view.set.Nonempty := by
  fin_cases p
  · rw [slot_set0]; exact ⟨ValueIdx.ix4 (n0 := 2) (n1 := 2) (n2 := 2048) (n3 := 256) b 0 0 0, mem_slot.mpr rfl⟩
  · rw [slot_set1]; exact ⟨ValueIdx.ix4 (n0 := 2) (n1 := 2) (n2 := 2048) (n3 := 256) b 0 0 0, mem_slot.mpr rfl⟩

/-- A slot read is released to its writer: the reader, at count n and holding the slot whole, puts it back under
    the slot's release invariant; its count becomes n + 1 and it keeps a witness of that to send the writer. -/
theorem release_after (c : Dev nD) (p b : Fin 2) (V : FVec F S2x2048x256 .bf16) (ιn n : ℕ) :
    iprop(Release.slotInv (ES (F := F)) ιn ((c, p, b) : KS) (Sl ((c, p, b) : KS)) ∗ Release.readerAt (ES (F := F)) ((c, p, b) : KS) n ∗ slotAt c p b V)
      ⊢ |={Set.univ}=> iprop(Release.readerAt (ES (F := F)) ((c, p, b) : KS) (n + 1) ∗ Release.released (ES (F := F)) ((c, p, b) : KS) (n + 1)) := by
  iintro ⟨#HI, Hr, Hs⟩
  iapply (Release.slot_release (ES (F := F)) (Set.mem_univ ιn)
    (Release.slot_slot_false (ℓ := (slotM p b).view.loc (c : Thread nD τ)) (I := (slotM p b).view.set) (slot_nonempty p b)) n)
  isplitr; · iexact HI
  isplitl [Hr]; · iexact Hr
  unfold slotAt
  icases Hs with ⟨%f, -, H⟩
  unfold Sl Release.slot slotPts
  iexists f; iexact H

/-! ## The last unit of a credit cell -/

/-- Grant n, the last of ring p's credit cell: known from the harvest if its duty's payload has been taken, else
    from the payloads of the rest of the round. -/
theorem cap_last_grant (m : Mem F) (c : Dev nD) (p : Fin 2) (n : ℕ) (hn : n + 1 = nCap p) (T : Finset DN) :
    iprop(harvest (F := F) c p T
        ∗ bigSep ((ringRd (F := F) m).duties (capCell p c) 0 \ T) (fun d => (ringRd (F := F) m).payload (capCell p c) 0 d))
      ⊢ grantFact (F := F) p (dnR p c) n := by
  have hlt : n < nCap p := by omega
  rw [payload_cap_fun m c p]
  by_cases hT : capD p n hlt ∈ T
  · unfold harvest
    exact sep_elim_left.trans ((bigSep_elim (Φ := fun d : DN => grantsUpTo (F := F) p (dnR p c) d.val) hT).trans
      (grantsUpTo_elim p (dnR p c) (le_refl n)))
  · have hmem : capD p n hlt ∈ (ringRd (F := F) m).duties (capCell p c) 0 \ T :=
      Finset.mem_sdiff.mpr ⟨by rw [duties_cap]; exact mem_firstN hlt, hT⟩
    exact sep_elim_right.trans ((bigSep_elim (Φ := fun d : DN => grantsUpTo (F := F) p (dnR p c) d.val) hmem).trans
      (grantsUpTo_elim p (dnR p c) (le_refl n)))

/-- The last unit of ring p's credit, the nCap p-th: the round is over; the owner stands at the start of round 1,
    reached; and grant n's facts are known. -/
theorem wp_capwait_last {α : Type} {Q : α → sProp (MT nD τ sig ℕ (Elt F) ℕ UU ℕ)} (m : Mem F) (c : Dev nD) (p : Fin 2)
    (n : ℕ) (hn : n + 1 = nCap p) (T : Finset DN) {k : PUnit → Prog (TpuEff nD τ sig (Elt F) Λ₀ .tc) α} {κ : ℕ}
    {O : CellTallies nD τ sig ℕ} {W : Waits sig ℕ} :
    iprop(cellInv ER (ringRd m) κ (capCell p c) ∗ cred (tallyAt (capCell p c) n 1) ∗ owes (c : Thread nD τ) O W
        ∗ MayWait (c : Thread nD τ) (.reg (capS p)) n O ∗ atPos ER (capCell p c) 0 T n ∗ harvest (F := F) c p T)
      ⊢ iprop(((owes (c : Thread nD τ) O (W ∪ {(SemLoc.reg (capS p), n)}) ∗ atPos ER (capCell p c) 1 ∅ 0 ∗ reached ER (capCell p c) 1
              ∗ grantFact (F := F) p (dnR p c) n)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait (capS p) 1) k) Q) := by
  iintro ⟨#HI, Hc, HO, #Hmw, Hat, #Hh⟩ Hk
  iapply (Rounds.wp_wait_rest 𝒱₀ ER (ringRd m) (c : Thread nD τ) none (κ := κ) (k' := 1)
      (wpE_semWait_eq 𝒱₀ (c : Thread nD τ) none Set.univ) (Set.mem_univ _) {(SemLoc.reg (capS p), n)} (cr := Finsupp.single n 1)
      (O := O) (W := W) (R := 0) (m := n) (T := T) (by rw [expect_cap m c p]; exact hn) (by rw [Util.total_single]) (image_single_subset _ n 1)) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave #Hg := (cap_last_grant m c p n hn T) $$ [Hpay]
  · isplitr; · iexact Hh
    iexact Hpay
  isplitl [HO]; · iexact HO
  isplitl [Hat]; · iexact Hat
  isplitl [Hr]; · iexact Hr
  iexact Hg

/-- info: 'Cert.Kernel.RingProof.wp_hop' depends on axioms: [propext, Classical.choice, Quot.sound] -/
#guard_msgs in #print axioms wp_hop

/-- info: 'Cert.Kernel.RingProof.release_after' depends on axioms: [propext, Classical.choice, Quot.sound] -/
#guard_msgs in #print axioms release_after

/-- info: 'Cert.Kernel.RingProof.wp_capwait_last' depends on axioms: [propext, Classical.choice, Quot.sound] -/
#guard_msgs in #print axioms wp_capwait_last

end Cert.Kernel.RingProof

end
-- ==== Proof.RingEndK.lean ====
/-
  The end of the body.  When its last instruction is done a device holds: each of its ten own cells' invariants with
  its position past the cell's last round; its two ring buffers as their four slots; its two accumulators; nothing
  owed; and the four staging buffers, the three argument blocks as they were fetched and the result block at the
  quotient.  Regrouped, that is the state from which the cells are closed.  An argument's staging buffer, fetched at
  the one point and never written, holds the argument's block.
-/
import proofs.«900462_g7700000000000463_dist_ring_attn_i_s2048_d256_v7x_i8_f32_1_alg».proof.Proof.RingStateK
import proofs.«900462_g7700000000000463_dist_ring_attn_i_s2048_d256_v7x_i8_f32_1_alg».proof.Proof.RingOpenK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## What the staging buffers of the arguments hold -/

set_option maxRecDepth 16384 in
/-- Argument 0's staging buffer, as the body finds it, holds the argument's block: it is fetched at the one point. -/
theorem before_in0 (m : Mem F) (ρ : Dev nD → PrngReg) (c : Dev nD) (d : (cfg0.win (0 : Fin 4)).block.Idx → Elt F (cfg0.win (0 : Fin 4)).elt) :
    (dats m ρ 0 c).before (0 : Fin 4) t0_0 d = iblk m c (0 : Fin 4) t0_0 :=
  ((dats m ρ 0 c).before_fetched (0 : Fin 4) t0_0 (fetch0_0 t0_0) d).trans (by unfold Dat.fetched Dat.blockOf iblk; rfl)

set_option maxRecDepth 16384 in
theorem before_in1 (m : Mem F) (ρ : Dev nD → PrngReg) (c : Dev nD) (d : (cfg0.win (1 : Fin 4)).block.Idx → Elt F (cfg0.win (1 : Fin 4)).elt) :
    (dats m ρ 0 c).before (1 : Fin 4) t0_0 d = iblk m c (1 : Fin 4) t0_0 :=
  ((dats m ρ 0 c).before_fetched (1 : Fin 4) t0_0 (fetch0_1 t0_0) d).trans (by unfold Dat.fetched Dat.blockOf iblk; rfl)

set_option maxRecDepth 16384 in
theorem before_in2 (m : Mem F) (ρ : Dev nD → PrngReg) (c : Dev nD) (d : (cfg0.win (2 : Fin 4)).block.Idx → Elt F (cfg0.win (2 : Fin 4)).elt) :
    (dats m ρ 0 c).before (2 : Fin 4) t0_0 d = iblk m c (2 : Fin 4) t0_0 :=
  ((dats m ρ 0 c).before_fetched (2 : Fin 4) t0_0 (fetch0_2 t0_0) d).trans (by unfold Dat.fetched Dat.blockOf iblk; rfl)

/-! ## Nothing owed -/

/-- After the fourteenth payment nothing is owed, whatever waits have been recorded: what the loop holds after the point. -/
theorem owes_end (m : Mem F) (ρ : Dev nD → PrngReg) (c : Dev nD) (W' : Waits sig ℕ) :
    (owes (c : Thread nD τ) (owedFrom c 14) W' : sProp 𝕄) ⊢ (dats m ρ 0 c).owesAt 0 t0_0.succ := by
  rw [owedFrom_done]
  show _ ⊢ Pipeline.owesWithin c 0 ((dats m ρ 0 c).bound 0 t0_0.succ)
  iintro H
  iexists W'
  isplitr
  · ipureintro; exact fun x _ => Or.inl (Set.mem_univ x)
  iexact H

/-! ## The state after the last instruction is the state from which the cells are closed -/

omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The end of the body: the ten own cells past their last rounds (each with its invariant, at whatever name), the
    four slots at any contents, the two accumulators at any contents, nothing owed, the three argument blocks staged
    as the body found them and the result block staged at the quotient, regrouped as the closing state. -/
theorem body_end (m : Mem F) (ρ : Dev nD → PrngReg) (c : Dev nD) {κ0 κ1 κ2 κ3 κ4 κ5 κ6 κ7 κ8 κ9 : ℕ} (W' : Waits sig ℕ)
    (d0 : (cfg0.win (0 : Fin 4)).block.Idx → Elt F (cfg0.win (0 : Fin 4)).elt)
    (d1 : (cfg0.win (1 : Fin 4)).block.Idx → Elt F (cfg0.win (1 : Fin 4)).elt)
    (d2 : (cfg0.win (2 : Fin 4)).block.Idx → Elt F (cfg0.win (2 : Fin 4)).elt)
    (f0 : Buf (Elt F) ((c : Thread nD τ).loc cc0_stg0_0)) (f1 : Buf (Elt F) ((c : Thread nD τ).loc cc0_stg1_0))
    (f2 : Buf (Elt F) ((c : Thread nD τ).loc cc0_stg2_0)) (f3 : Buf (Elt F) ((c : Thread nD τ).loc cc0_stg3_0))
    (hf0 : f0 = (dats m ρ 0 c).before (0 : Fin 4) t0_0 d0) (hf1 : f1 = (dats m ρ 0 c).before (1 : Fin 4) t0_0 d1)
    (hf2 : f2 = (dats m ρ 0 c).before (2 : Fin 4) t0_0 d2) (hf3 : f3 = outBlock m c) :
    iprop((cellInv ER (ringRd m) κ0 (sendCell 0 0 c) ∗ atPos (ER (F := F)) (sendCell 0 0 c) (nSend 0 0) ∅ 0)
        ∗ (cellInv ER (ringRd m) κ1 (sendCell 0 1 c) ∗ atPos (ER (F := F)) (sendCell 0 1 c) (nSend 0 1) ∅ 0)
        ∗ (cellInv ER (ringRd m) κ2 (recvCell 0 0 c) ∗ atPos (ER (F := F)) (recvCell 0 0 c) (nRecv 0 0) ∅ 0)
        ∗ (cellInv ER (ringRd m) κ3 (recvCell 0 1 c) ∗ atPos (ER (F := F)) (recvCell 0 1 c) (nRecv 0 1) ∅ 0)
        ∗ (cellInv ER (ringRd m) κ4 (sendCell 1 0 c) ∗ atPos (ER (F := F)) (sendCell 1 0 c) (nSend 1 0) ∅ 0)
        ∗ (cellInv ER (ringRd m) κ5 (sendCell 1 1 c) ∗ atPos (ER (F := F)) (sendCell 1 1 c) (nSend 1 1) ∅ 0)
        ∗ (cellInv ER (ringRd m) κ6 (recvCell 1 0 c) ∗ atPos (ER (F := F)) (recvCell 1 0 c) (nRecv 1 0) ∅ 0)
        ∗ (cellInv ER (ringRd m) κ7 (recvCell 1 1 c) ∗ atPos (ER (F := F)) (recvCell 1 1 c) (nRecv 1 1) ∅ 0)
        ∗ (cellInv ER (ringRd m) κ8 (capCell 0 c) ∗ atPos (ER (F := F)) (capCell 0 c) 1 ∅ 0)
        ∗ (cellInv ER (ringRd m) κ9 (capCell 1 c) ∗ atPos (ER (F := F)) (capCell 1 c) 1 ∅ 0)
        ∗ (∃ f, slotPts c 0 0 fullShare f) ∗ (∃ f, slotPts c 0 1 fullShare f)
        ∗ (∃ f, slotPts c 1 0 fullShare f) ∗ (∃ f, slotPts c 1 1 fullShare f)
        ∗ (∃ f, (Memref.whole cc0_scratch2).view.loc (c : Thread nD τ) ↦{fullShare} f)
        ∗ (∃ f, (Memref.whole cc0_scratch3).view.loc (c : Thread nD τ) ↦{fullShare} f)
        ∗ owes (c : Thread nD τ) (owedFrom c 14) W'
        ∗ ((Memref.whole cc0_stg0_0).view.loc (c : Thread nD τ) ↦{fullShare} f0)
        ∗ ((Memref.whole cc0_stg1_0).view.loc (c : Thread nD τ) ↦{fullShare} f1)
        ∗ ((Memref.whole cc0_stg2_0).view.loc (c : Thread nD τ) ↦{fullShare} f2)
        ∗ ((Memref.whole cc0_stg3_0).view.loc (c : Thread nD τ) ↦{fullShare} f3))
      ⊢ closing m ρ c := by
  unfold closing cellsDone scratch stg
  rw [bigSep_fin10]
  iintro ⟨C0, C1, C2, C3, C4, C5, C6, C7, C8, C9, S00, S01, S10, S11, A2, A3, HO, H0, H1, H2, H3⟩
  ihave R0 := (ring0_join (F := F) c) $$ [S00 S01]
  · isplitl [S00] <;> iassumption
  ihave R1 := (ring1_join (F := F) c) $$ [S10 S11]
  · isplitl [S10] <;> iassumption
  ihave HO' := (owes_end m ρ c W') $$ HO
  isplitl [C0 C1 C2 C3 C4 C5 C6 C7 C8 C9]
  · isplitl [C0]; · iexists κ0; iexact C0
    isplitl [C1]; · iexists κ1; iexact C1
    isplitl [C2]; · iexists κ2; iexact C2
    isplitl [C3]; · iexists κ3; iexact C3
    isplitl [C4]; · iexists κ4; iexact C4
    isplitl [C5]; · iexists κ5; iexact C5
    isplitl [C6]; · iexists κ6; iexact C6
    isplitl [C7]; · iexists κ7; iexact C7
    isplitl [C8]; · iexists κ8; iexact C8
    iexists κ9; iexact C9
  isplitl [R0 R1 A2 A3]
  · isplitl [R0]; · iexact R0
    isplitl [R1]; · iexact R1
    isplitl [A2]; · iexact A2
    iexact A3
  isplitl [HO']; · iexact HO'
  isplitl [H0]
  · iexists f0; isplitr; · ipureintro; exact hf0.trans (before_in0 m ρ c d0)
    iexact H0
  isplitl [H1]
  · iexists f1; isplitr; · ipureintro; exact hf1.trans (before_in1 m ρ c d1)
    iexact H1
  isplitl [H2]
  · iexists f2; isplitr; · ipureintro; exact hf2.trans (before_in2 m ρ c d2)
    iexact H2
  iexists f3; isplitr; · ipureintro; exact hf3
  iexact H3

/-- info: 'Cert.Kernel.RingProof.body_end' depends on axioms: [propext, Classical.choice, Quot.sound] -/
#guard_msgs in #print axioms body_end

end Cert.Kernel.RingProof

end
-- ==== Proof.RingValueFormsK.lean ====
/-
  The chunk steps and a visit, spelt as the stores and loads themselves.

  A chunk's step is one store, through the chunk's rectangle of the running buffer, of the update of what a load
  through the same rectangle reads; a visit is the four chunks' stores into the denominator and the four into the
  numerator.  The two buffers do not share an element, so the order in which the program interleaves the
  denominator's stores with the numerator's does not enter: each buffer's contents after a visit depend only on
  its own four stores, in order.
-/
import proofs.«900462_g7700000000000463_dist_ring_attn_i_s2048_d256_v7x_i8_f32_1_alg».proof.Proof.RingValueK

noncomputable section

namespace Cert.Kernel.AttnKer

open Cert.Kernel Cert.Kernel.Gen Idealize.ShloMosaic Idealize.SL.Sem

variable {F : FTy → Type} [FloatOps F]

/-- A chunk's step on the denominator, as the store it is. -/
theorem stepL_eq (o : Nat) (inb : ∀ a, (![o, 0] : Fin 2 → Nat) a + S512x1.size a ≤ S2048x1.size a)
    (p : FVec F S512x2048 .f32) (fl : LBuf F) :
    stepL o inb p fl
      = View.write (Elt F) ((Memref.whole cc0_scratch3).access (Rect.unit (s := S2048x1) ![o, 0] S512x1.size inb)) fl
          (denVal p ((Memref.whole cc0_scratch3).view.readAt (Elt F)
            (Rect.unit (s := S2048x1) ![o, 0] S512x1.size inb).toLoadRect fl)) Finset.univ := rfl

/-- A chunk's step on the numerator, as the store it is. -/
theorem stepA_eq (o : Nat) (inb : ∀ a, (![o, 0] : Fin 2 → Nat) a + S512x256.size a ≤ S2048x256.size a)
    (p : FVec F S512x2048 .f32) (vb : FVec F S2048x256 .bf16) (fa : ABuf F) :
    stepA o inb p vb fa
      = View.write (Elt F) ((Memref.whole cc0_scratch2).access (Rect.unit (s := S2048x256) ![o, 0] S512x256.size inb)) fa
          (numVal p vb ((Memref.whole cc0_scratch2).view.readAt (Elt F)
            (Rect.unit (s := S2048x256) ![o, 0] S512x256.size inb).toLoadRect fa)) Finset.univ := rfl

/-- A store of any value that is the denominator's update of the loaded rows is the chunk's step. -/
theorem stepL_of_store (o : Nat) (inb : ∀ a, (![o, 0] : Fin 2 → Nat) a + S512x1.size a ≤ S2048x1.size a)
    (p : FVec F S512x2048 .f32) (fl : LBuf F) (w : FVec F S512x1 .f32)
    (hw : w = denVal p ((Memref.whole cc0_scratch3).view.readAt (Elt F)
      (Rect.unit (s := S2048x1) ![o, 0] S512x1.size inb).toLoadRect fl)) :
    View.write (Elt F) ((Memref.whole cc0_scratch3).access (Rect.unit (s := S2048x1) ![o, 0] S512x1.size inb)) fl w
      Finset.univ = stepL o inb p fl := by
  subst hw; rfl

/-- The same for the numerator. -/
theorem stepA_of_store (o : Nat) (inb : ∀ a, (![o, 0] : Fin 2 → Nat) a + S512x256.size a ≤ S2048x256.size a)
    (p : FVec F S512x2048 .f32) (vb : FVec F S2048x256 .bf16) (fa : ABuf F) (w : FVec F S512x256 .f32)
    (hw : w = numVal p vb ((Memref.whole cc0_scratch2).view.readAt (Elt F)
      (Rect.unit (s := S2048x256) ![o, 0] S512x256.size inb).toLoadRect fa)) :
    View.write (Elt F) ((Memref.whole cc0_scratch2).access (Rect.unit (s := S2048x256) ![o, 0] S512x256.size inb)) fa w
      Finset.univ = stepA o inb p vb fa := by
  subst hw; rfl

/-- A visit, chunk by chunk. -/
theorem accumulate_eq (qv kb vb : FVec F S2048x256 .bf16) (fl : LBuf F) (fa : ABuf F) :
    accumulate qv kb vb (fl, fa)
      = (stepL 1536 inb_S2048x1_S512x1_1536_0 (weights qv kb 3)
          (stepL 1024 inb_S2048x1_S512x1_1024_0 (weights qv kb 2)
            (stepL 512 inb_S2048x1_S512x1_512_0 (weights qv kb 1)
              (stepL 0 inb_S2048x1_S512x1_0_0 (weights qv kb 0) fl))),
         stepA 1536 inb_S2048x256_S512x256_1536_0 (weights qv kb 3) vb
          (stepA 1024 inb_S2048x256_S512x256_1024_0 (weights qv kb 2) vb
            (stepA 512 inb_S2048x256_S512x256_512_0 (weights qv kb 1) vb
              (stepA 0 inb_S2048x256_S512x256_0_0 (weights qv kb 0) vb fa)))) := rfl

/-- The denominator after a visit, as the four stores in program order, each of the update of what the load before
    it reads. -/
theorem accumulate_fst_stores (qv kb vb : FVec F S2048x256 .bf16) (fl : LBuf F) (fa : ABuf F) :
    ((View.write (Elt F) ((Memref.whole cc0_scratch3).access (Rect.unit (s := S2048x1) ![1536, 0] S512x1.size inb_S2048x1_S512x1_1536_0)) (View.write (Elt F) ((Memref.whole cc0_scratch3).access (Rect.unit (s := S2048x1) ![1024, 0] S512x1.size inb_S2048x1_S512x1_1024_0)) (View.write (Elt F) ((Memref.whole cc0_scratch3).access (Rect.unit (s := S2048x1) ![512, 0] S512x1.size inb_S2048x1_S512x1_512_0)) (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ) (denVal (weights qv kb 1) ((Memref.whole cc0_scratch3).view.readAt (Elt F) (Rect.unit (s := S2048x1) ![512, 0] S512x1.size inb_S2048x1_S512x1_512_0).toLoadRect (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ))) Finset.univ) (denVal (weights qv kb 2) ((Memref.whole cc0_scratch3).view.readAt (Elt F) (Rect.unit (s := S2048x1) ![1024, 0] S512x1.size inb_S2048x1_S512x1_1024_0).toLoadRect (View.write (Elt F) ((Memref.whole cc0_scratch3).access (Rect.unit (s := S2048x1) ![512, 0] S512x1.size inb_S2048x1_S512x1_512_0)) (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ) (denVal (weights qv kb 1) ((Memref.whole cc0_scratch3).view.readAt (Elt F) (Rect.unit (s := S2048x1) ![512, 0] S512x1.size inb_S2048x1_S512x1_512_0).toLoadRect (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ))) Finset.univ))) Finset.univ) (denVal (weights qv kb 3) ((Memref.whole cc0_scratch3).view.readAt (Elt F) (Rect.unit (s := S2048x1) ![1536, 0] S512x1.size inb_S2048x1_S512x1_1536_0).toLoadRect (View.write (Elt F) ((Memref.whole cc0_scratch3).access (Rect.unit (s := S2048x1) ![1024, 0] S512x1.size inb_S2048x1_S512x1_1024_0)) (View.write (Elt F) ((Memref.whole cc0_scratch3).access (Rect.unit (s := S2048x1) ![512, 0] S512x1.size inb_S2048x1_S512x1_512_0)) (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ) (denVal (weights qv kb 1) ((Memref.whole cc0_scratch3).view.readAt (Elt F) (Rect.unit (s := S2048x1) ![512, 0] S512x1.size inb_S2048x1_S512x1_512_0).toLoadRect (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ))) Finset.univ) (denVal (weights qv kb 2) ((Memref.whole cc0_scratch3).view.readAt (Elt F) (Rect.unit (s := S2048x1) ![1024, 0] S512x1.size inb_S2048x1_S512x1_1024_0).toLoadRect (View.write (Elt F) ((Memref.whole cc0_scratch3).access (Rect.unit (s := S2048x1) ![512, 0] S512x1.size inb_S2048x1_S512x1_512_0)) (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ) (denVal (weights qv kb 1) ((Memref.whole cc0_scratch3).view.readAt (Elt F) (Rect.unit (s := S2048x1) ![512, 0] S512x1.size inb_S2048x1_S512x1_512_0).toLoadRect (View.write (Elt F) ((Memref.whole cc0_scratch3).access (Rect.unit (s := S2048x1) ![0, 0] S512x1.size inb_S2048x1_S512x1_0_0)) fl (denVal (weights qv kb 0) ((Memref.whole cc0_scratch3).view.readAt (Elt F) (Rect.unit (s := S2048x1) ![0, 0] S512x1.size inb_S2048x1_S512x1_0_0).toLoadRect fl)) Finset.univ))) Finset.univ))) Finset.univ))) Finset.univ) : LBuf F)
      = (accumulate qv kb vb (fl, fa)).1 := rfl

/-- The numerator after a visit, likewise. -/
theorem accumulate_snd_stores (qv kb vb : FVec F S2048x256 .bf16) (fl : LBuf F) (fa : ABuf F) :
    ((View.write (Elt F) ((Memref.whole cc0_scratch2).access (Rect.unit (s := S2048x256) ![1536, 0] S512x256.size inb_S2048x256_S512x256_1536_0)) (View.write (Elt F) ((Memref.whole cc0_scratch2).access (Rect.unit (s := S2048x256) ![1024, 0] S512x256.size inb_S2048x256_S512x256_1024_0)) (View.write (Elt F) ((Memref.whole cc0_scratch2).access (Rect.unit (s := S2048x256) ![512, 0] S512x256.size inb_S2048x256_S512x256_512_0)) (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ) (numVal (weights qv kb 1) vb ((Memref.whole cc0_scratch2).view.readAt (Elt F) (Rect.unit (s := S2048x256) ![512, 0] S512x256.size inb_S2048x256_S512x256_512_0).toLoadRect (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ))) Finset.univ) (numVal (weights qv kb 2) vb ((Memref.whole cc0_scratch2).view.readAt (Elt F) (Rect.unit (s := S2048x256) ![1024, 0] S512x256.size inb_S2048x256_S512x256_1024_0).toLoadRect (View.write (Elt F) ((Memref.whole cc0_scratch2).access (Rect.unit (s := S2048x256) ![512, 0] S512x256.size inb_S2048x256_S512x256_512_0)) (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ) (numVal (weights qv kb 1) vb ((Memref.whole cc0_scratch2).view.readAt (Elt F) (Rect.unit (s := S2048x256) ![512, 0] S512x256.size inb_S2048x256_S512x256_512_0).toLoadRect (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ))) Finset.univ))) Finset.univ) (numVal (weights qv kb 3) vb ((Memref.whole cc0_scratch2).view.readAt (Elt F) (Rect.unit (s := S2048x256) ![1536, 0] S512x256.size inb_S2048x256_S512x256_1536_0).toLoadRect (View.write (Elt F) ((Memref.whole cc0_scratch2).access (Rect.unit (s := S2048x256) ![1024, 0] S512x256.size inb_S2048x256_S512x256_1024_0)) (View.write (Elt F) ((Memref.whole cc0_scratch2).access (Rect.unit (s := S2048x256) ![512, 0] S512x256.size inb_S2048x256_S512x256_512_0)) (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ) (numVal (weights qv kb 1) vb ((Memref.whole cc0_scratch2).view.readAt (Elt F) (Rect.unit (s := S2048x256) ![512, 0] S512x256.size inb_S2048x256_S512x256_512_0).toLoadRect (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ))) Finset.univ) (numVal (weights qv kb 2) vb ((Memref.whole cc0_scratch2).view.readAt (Elt F) (Rect.unit (s := S2048x256) ![1024, 0] S512x256.size inb_S2048x256_S512x256_1024_0).toLoadRect (View.write (Elt F) ((Memref.whole cc0_scratch2).access (Rect.unit (s := S2048x256) ![512, 0] S512x256.size inb_S2048x256_S512x256_512_0)) (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ) (numVal (weights qv kb 1) vb ((Memref.whole cc0_scratch2).view.readAt (Elt F) (Rect.unit (s := S2048x256) ![512, 0] S512x256.size inb_S2048x256_S512x256_512_0).toLoadRect (View.write (Elt F) ((Memref.whole cc0_scratch2).access (Rect.unit (s := S2048x256) ![0, 0] S512x256.size inb_S2048x256_S512x256_0_0)) fa (numVal (weights qv kb 0) vb ((Memref.whole cc0_scratch2).view.readAt (Elt F) (Rect.unit (s := S2048x256) ![0, 0] S512x256.size inb_S2048x256_S512x256_0_0).toLoadRect fa)) Finset.univ))) Finset.univ))) Finset.univ))) Finset.univ) : ABuf F)
      = (accumulate qv kb vb (fl, fa)).2 := rfl

end Cert.Kernel.AttnKer

end

/-- info: 'Cert.Kernel.AttnKer.accumulate_snd_stores' depends on axioms: [propext, Classical.choice, Quot.sound] -/
#guard_msgs in #print axioms Cert.Kernel.AttnKer.accumulate_snd_stores
-- ==== Proof.RingValuesK.lean ====
/-
  Values the ring's body meets.  A staging buffer of an argument, read whole, is the argument's block.  A device's own
  key and value blocks, rounded and stored into a slot half by half, are the block it sends on hop 0.  What a device
  sends on a later hop is what its upstream neighbour sent one hop earlier.  A key or value block loaded from a slot
  and reshaped is the block itself.  The two accumulators after the eight visits, read whole and divided, are the
  device's result block.
-/
import proofs.«900462_g7700000000000463_dist_ring_attn_i_s2048_d256_v7x_i8_f32_1_alg».proof.Proof.RingEndK
import proofs.«900462_g7700000000000463_dist_ring_attn_i_s2048_d256_v7x_i8_f32_1_alg».proof.Proof.RingAccessK
import proofs.«900462_g7700000000000463_dist_ring_attn_i_s2048_d256_v7x_i8_f32_1_alg».proof.Proof.RingValueFormsK

noncomputable section

namespace Cert.Kernel.RingProof

open Cert.Kernel Cert.Kernel.Gen Cert.Kernel.AttnKer

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## A block as a slot half, and back -/

/-- A block given two unit axes in front, read at (0, 0, a, b), is the block at (a, b). -/
theorem up_apply {α : Type} (v : S2048x256.Idx → α) (h : S2048x256.ShapeCasts S1x1x2048x256) (j : S2048x256.Idx) :
    shapeCast S1x1x2048x256 v h (ix4 (n0 := 1) (n1 := 1) (n2 := 2048) (n3 := 256) 0 0 (j 0) (j 1)) = v j :=
  shapeCast_apply v h _ j (by
    rw [Shape.rowMajor_val_two, Shape.rowMajor_val_four]
    show (j 0).val * 256 + (j 1).val = ((0 * 1 + 0) * 2048 + (j 0).val) * 256 + (j 1).val
    omega)

/-- A block read through a slot half's coordinates and reshaped to a block is the block. -/
theorem down_up {α : Type} (kb : S2048x256.Idx → α) (h : S1x1x2048x256.ShapeCasts S2048x256) :
    shapeCast S2048x256 (fun i : S1x1x2048x256.Idx => kb (ix2 (n0 := 2048) (n1 := 256) (i 2) (i 3))) h = kb := by
  funext j
  refine (shapeCast_apply _ h j (ix4 (n0 := 1) (n1 := 1) (n2 := 2048) (n3 := 256) 0 0 (j 0) (j 1)) (by
    rw [Shape.rowMajor_val_two, Shape.rowMajor_val_four]
    show ((0 * 1 + 0) * 2048 + (j 0).val) * 256 + (j 1).val = (j 0).val * 256 + (j 1).val
    omega)).trans ?_
  exact congrArg kb (eq_ix2 (n0 := 2048) (n1 := 256) j).symm

/-- The printed reshapes of a loaded key or value half. -/
theorem pay12_load (kb : FVec F S2048x256 .bf16) :
    k0_pay12 (F := F) (fun i : S1x1x2048x256.Idx => kb (ix2 (n0 := 2048) (n1 := 256) (i 2) (i 3))) = kb :=
  down_up kb _
theorem pay13_load (vb : FVec F S2048x256 .bf16) :
    k0_pay13 (F := F) (fun i : S1x1x2048x256.Idx => vb (ix2 (n0 := 2048) (n1 := 256) (i 2) (i 3))) = vb :=
  down_up vb _

/-! ## What the arguments' staging buffers hold, read whole -/

set_option maxRecDepth 16384 in
/-- The one block of an argument's window is the argument's array. -/
theorem iblk_arg0 (m : Mem F) (c : Dev nD) : iblk m c (0 : Fin 4) t0_0 = m ((c : Thread nD τ).loc main_arg0) :=
  Memref.read_access_unit_zero (Elt F) main_arg0 (funext fun a => by fin_cases a <;> rfl) _ _
set_option maxRecDepth 16384 in
theorem iblk_arg1 (m : Mem F) (c : Dev nD) : iblk m c (1 : Fin 4) t0_0 = m ((c : Thread nD τ).loc main_arg1) :=
  Memref.read_access_unit_zero (Elt F) main_arg1 (funext fun a => by fin_cases a <;> rfl) _ _
set_option maxRecDepth 16384 in
theorem iblk_arg2 (m : Mem F) (c : Dev nD) : iblk m c (2 : Fin 4) t0_0 = m ((c : Thread nD τ).loc main_arg2) :=
  Memref.read_access_unit_zero (Elt F) main_arg2 (funext fun a => by fin_cases a <;> rfl) _ _

set_option maxRecDepth 16384 in
/-- The query's staging buffer as the body finds it, read whole, is the device's query block. -/
theorem stg0_read (m : Mem F) (ρ : Dev nD → PrngReg) (c : Dev nD) (d0 : (cfg0.win (0 : Fin 4)).block.Idx → Elt F (cfg0.win (0 : Fin 4)).elt)
    (f0 : Buf (Elt F) ((c : Thread nD τ).loc cc0_stg0_0)) (hf0 : f0 = (dats m ρ 0 c).before (0 : Fin 4) t0_0 d0) :
    (Memref.whole cc0_stg0_0).view.readAt (Elt F) (Rect.unit (s := S2048x256) ![0, 0] S2048x256.size inb_S2048x256_S2048x256_0_0).toLoadRect f0
      = m ((c : Thread nD τ).loc main_arg0) :=
  (Memref.readAt_unit_zero (Elt F) cc0_stg0_0 (funext fun a => by fin_cases a <;> rfl) _ f0).trans
    ((hf0.trans (before_in0 m ρ c d0)).trans (iblk_arg0 m c))

set_option maxRecDepth 16384 in
theorem stg1_read (m : Mem F) (ρ : Dev nD → PrngReg) (c : Dev nD) (d1 : (cfg0.win (1 : Fin 4)).block.Idx → Elt F (cfg0.win (1 : Fin 4)).elt)
    (f1 : Buf (Elt F) ((c : Thread nD τ).loc cc0_stg1_0)) (hf1 : f1 = (dats m ρ 0 c).before (1 : Fin 4) t0_0 d1) :
    (Memref.whole cc0_stg1_0).view.readAt (Elt F) (Rect.unit (s := S2048x256) ![0, 0] S2048x256.size inb_S2048x256_S2048x256_0_0).toLoadRect f1
      = m ((c : Thread nD τ).loc main_arg1) :=
  (Memref.readAt_unit_zero (Elt F) cc0_stg1_0 (funext fun a => by fin_cases a <;> rfl) _ f1).trans
    ((hf1.trans (before_in1 m ρ c d1)).trans (iblk_arg1 m c))

set_option maxRecDepth 16384 in
theorem stg2_read (m : Mem F) (ρ : Dev nD → PrngReg) (c : Dev nD) (d2 : (cfg0.win (2 : Fin 4)).block.Idx → Elt F (cfg0.win (2 : Fin 4)).elt)
    (f2 : Buf (Elt F) ((c : Thread nD τ).loc cc0_stg2_0)) (hf2 : f2 = (dats m ρ 0 c).before (2 : Fin 4) t0_0 d2) :
    (Memref.whole cc0_stg2_0).view.readAt (Elt F) (Rect.unit (s := S2048x256) ![0, 0] S2048x256.size inb_S2048x256_S2048x256_0_0).toLoadRect f2
      = m ((c : Thread nD τ).loc main_arg2) :=
  (Memref.readAt_unit_zero (Elt F) cc0_stg2_0 (funext fun a => by fin_cases a <;> rfl) _ f2).trans
    ((hf2.trans (before_in2 m ρ c d2)).trans (iblk_arg2 m c))

/-! ## The device's own block, as the body stores it into the two rings -/

/-- The printed reshapes of the rounded own blocks, read at a slot half's coordinates. -/
theorem pay5_apply (v : Vec F S2048x256 .f32) (j : S2048x256.Idx) :
    k0_pay5 (F := F) v (ix4 (n0 := 1) (n1 := 1) (n2 := 2048) (n3 := 256) 0 0 (j 0) (j 1)) = k0_pay3 v j := by
  unfold k0_pay5; exact up_apply (k0_pay3 v) _ j
theorem pay6_apply (v : Vec F S2048x256 .f32) (j : S2048x256.Idx) :
    k0_pay6 (F := F) v (ix4 (n0 := 1) (n1 := 1) (n2 := 2048) (n3 := 256) 0 0 (j 0) (j 1)) = k0_pay4 v j := by
  unfold k0_pay6; exact up_apply (k0_pay4 v) _ j
theorem pay7_apply (w : FVec F S2048x256 .bf16) (j : S2048x256.Idx) :
    k0_pay7 (F := F) w (ix4 (n0 := 1) (n1 := 1) (n2 := 2048) (n3 := 256) 0 0 (j 0) (j 1)) = w j := by
  unfold k0_pay7; exact up_apply w _ j
theorem pay8_apply (w : FVec F S2048x256 .bf16) (j : S2048x256.Idx) :
    k0_pay8 (F := F) w (ix4 (n0 := 1) (n1 := 1) (n2 := 2048) (n3 := 256) 0 0 (j 0) (j 1)) = w j := by
  unfold k0_pay8; exact up_apply w _ j

set_option maxRecDepth 16384 in
/-- The right-going ring's slot 0 after the body's first two stores holds the device's own block. -/
theorem own_block0 (m : Mem F) (ρ : Dev nD → PrngReg) (c : Dev nD)
    (d1 : (cfg0.win (1 : Fin 4)).block.Idx → Elt F (cfg0.win (1 : Fin 4)).elt) (d2 : (cfg0.win (2 : Fin 4)).block.Idx → Elt F (cfg0.win (2 : Fin 4)).elt)
    (f1 : Buf (Elt F) ((c : Thread nD τ).loc cc0_stg1_0)) (f2 : Buf (Elt F) ((c : Thread nD τ).loc cc0_stg2_0))
    (hf1 : f1 = (dats m ρ 0 c).before (1 : Fin 4) t0_0 d1) (hf2 : f2 = (dats m ρ 0 c).before (2 : Fin 4) t0_0 d2) :
    joinKV (F := F)
        (fun j : S2048x256.Idx => k0_pay5 (F := F) ((Memref.whole cc0_stg1_0).view.readAt (Elt F) (Rect.unit (s := S2048x256) ![0, 0] S2048x256.size inb_S2048x256_S2048x256_0_0).toLoadRect f1)
          (ix4 (n0 := 1) (n1 := 1) (n2 := 2048) (n3 := 256) 0 0 (j 0) (j 1)))
        (fun j : S2048x256.Idx => k0_pay6 (F := F) ((Memref.whole cc0_stg2_0).view.readAt (Elt F) (Rect.unit (s := S2048x256) ![0, 0] S2048x256.size inb_S2048x256_S2048x256_0_0).toLoadRect f2)
          (ix4 (n0 := 1) (n1 := 1) (n2 := 2048) (n3 := 256) 0 0 (j 0) (j 1)))
      = kvOf m c := by
  rw [stg1_read m ρ c d1 f1 hf1, stg2_read m ρ c d2 f2 hf2]
  unfold kvOf
  rw [show (fun j : S2048x256.Idx => k0_pay5 (F := F) (m ((c : Thread nD τ).loc main_arg1)) (ix4 (n0 := 1) (n1 := 1) (n2 := 2048) (n3 := 256) 0 0 (j 0) (j 1)))
        = k0_pay3 (m ((c : Thread nD τ).loc main_arg1)) from funext fun j => pay5_apply _ j,
    show (fun j : S2048x256.Idx => k0_pay6 (F := F) (m ((c : Thread nD τ).loc main_arg2)) (ix4 (n0 := 1) (n1 := 1) (n2 := 2048) (n3 := 256) 0 0 (j 0) (j 1)))
        = k0_pay4 (m ((c : Thread nD τ).loc main_arg2)) from funext fun j => pay6_apply _ j]

set_option maxRecDepth 16384 in
/-- The left-going ring's slot 0 likewise. -/
theorem own_block1 (m : Mem F) (ρ : Dev nD → PrngReg) (c : Dev nD)
    (d1 : (cfg0.win (1 : Fin 4)).block.Idx → Elt F (cfg0.win (1 : Fin 4)).elt) (d2 : (cfg0.win (2 : Fin 4)).block.Idx → Elt F (cfg0.win (2 : Fin 4)).elt)
    (f1 : Buf (Elt F) ((c : Thread nD τ).loc cc0_stg1_0)) (f2 : Buf (Elt F) ((c : Thread nD τ).loc cc0_stg2_0))
    (hf1 : f1 = (dats m ρ 0 c).before (1 : Fin 4) t0_0 d1) (hf2 : f2 = (dats m ρ 0 c).before (2 : Fin 4) t0_0 d2) :
    joinKV (F := F)
        (fun j : S2048x256.Idx => k0_pay7 (F := F) (k0_pay3 ((Memref.whole cc0_stg1_0).view.readAt (Elt F) (Rect.unit (s := S2048x256) ![0, 0] S2048x256.size inb_S2048x256_S2048x256_0_0).toLoadRect f1))
          (ix4 (n0 := 1) (n1 := 1) (n2 := 2048) (n3 := 256) 0 0 (j 0) (j 1)))
        (fun j : S2048x256.Idx => k0_pay8 (F := F) (k0_pay4 ((Memref.whole cc0_stg2_0).view.readAt (Elt F) (Rect.unit (s := S2048x256) ![0, 0] S2048x256.size inb_S2048x256_S2048x256_0_0).toLoadRect f2))
          (ix4 (n0 := 1) (n1 := 1) (n2 := 2048) (n3 := 256) 0 0 (j 0) (j 1)))
      = kvOf m c := by
  rw [stg1_read m ρ c d1 f1 hf1, stg2_read m ρ c d2 f2 hf2]
  unfold kvOf
  rw [show (fun j : S2048x256.Idx => k0_pay7 (F := F) (k0_pay3 (m ((c : Thread nD τ).loc main_arg1))) (ix4 (n0 := 1) (n1 := 1) (n2 := 2048) (n3 := 256) 0 0 (j 0) (j 1)))
        = k0_pay3 (m ((c : Thread nD τ).loc main_arg1)) from funext fun j => pay7_apply _ j,
    show (fun j : S2048x256.Idx => k0_pay8 (F := F) (k0_pay4 (m ((c : Thread nD τ).loc main_arg2))) (ix4 (n0 := 1) (n1 := 1) (n2 := 2048) (n3 := 256) 0 0 (j 0) (j 1)))
        = k0_pay4 (m ((c : Thread nD τ).loc main_arg2)) from funext fun j => pay8_apply _ j]

/-- The query block the body rounds once. -/
theorem query_block (m : Mem F) (ρ : Dev nD → PrngReg) (c : Dev nD) (d0 : (cfg0.win (0 : Fin 4)).block.Idx → Elt F (cfg0.win (0 : Fin 4)).elt)
    (f0 : Buf (Elt F) ((c : Thread nD τ).loc cc0_stg0_0)) (hf0 : f0 = (dats m ρ 0 c).before (0 : Fin 4) t0_0 d0) :
    k0_pay9 (F := F) ((Memref.whole cc0_stg0_0).view.readAt (Elt F) (Rect.unit (s := S2048x256) ![0, 0] S2048x256.size inb_S2048x256_S2048x256_0_0).toLoadRect f0)
      = k0_pay9 (m ((c : Thread nD τ).loc main_arg0)) :=
  congrArg k0_pay9 (stg0_read m ρ c d0 f0 hf0)

/-! ## What travels -/

/-- On hop 0 a device sends its own block. -/
theorem sentV_zero (m : Mem F) (p : Fin 2) (c : Dev nD) : sentV m p 0 c = kvOf m c := rfl

/-- On a later hop it sends what its upstream neighbour sent one hop earlier. -/
theorem sentV_succ (m : Mem F) (p : Fin 2) (t : ℕ) (c : Dev nD) : sentV m p (t + 1) c = sentV m p t (upR p c) := by
  unfold sentV origin
  rw [Function.iterate_succ_apply]

/-- A device's block in the rings' format: its rounded keys beside its rounded values. -/
theorem kvOf_eq (m : Mem F) (d : Dev nD) :
    kvOf m d = joinKV (k0_pay3 (m ((d : Thread nD τ).loc main_arg1))) (k0_pay4 (m ((d : Thread nD τ).loc main_arg2))) := rfl

/-! ## The eight visits and the result -/

/-- The rounded query block of device c. -/
def qAt (m : Mem F) (c : Dev nD) : FVec F S2048x256 .bf16 := k0_pay9 (m ((c : Thread nD τ).loc main_arg0))

/-- The key and value blocks of the n-th visit of device c. -/
def kvAt (m : Mem F) (c : Dev nD) (n : Fin 8) : FVec F S2048x256 .bf16 × FVec F S2048x256 .bf16 :=
  (k0_pay3 (m ((visitD c n : Thread nD τ).loc main_arg1)), k0_pay4 (m ((visitD c n : Thread nD τ).loc main_arg2)))

/-- The denominator and the numerator after the first n visits. -/
def accAt (m : Mem F) (c : Dev nD) (n : ℕ) : LBuf F × ABuf F := visited (qAt m c) (kvAt m c) n

theorem accAt_zero (m : Mem F) (c : Dev nD) : accAt m c 0 = (k0_pay10, k0_pay11) := rfl

theorem accAt_succ (m : Mem F) (c : Dev nD) (n : Fin 8) :
    accAt m c (n.val + 1) = accumulate (qAt m c) (kvAt m c n).1 (kvAt m c n).2 (accAt m c n.val) :=
  visited_succ (qAt m c) (kvAt m c) n

/-- The block of the device visited n-th is that visit's key block beside its value block. -/
theorem kvOf_visit (m : Mem F) (c : Dev nD) (n : Fin 8) : kvOf m (visitD c n) = joinKV (kvAt m c n).1 (kvAt m c n).2 := rfl

/-- Which device's block each ring brings at each step: the right-going ring the odd visits, the left-going the even. -/
theorem sentV_visit0 (m : Mem F) (p : Fin 2) (c : Dev nD) : sentV m p 0 c = kvOf m (visitD c 0) := rfl
theorem sentV_visit1 (m : Mem F) (c : Dev nD) : sentV m 0 1 c = kvOf m (visitD c 1) := rfl
theorem sentV_visit2 (m : Mem F) (c : Dev nD) : sentV m 1 1 c = kvOf m (visitD c 2) := rfl
theorem sentV_visit3 (m : Mem F) (c : Dev nD) : sentV m 0 2 c = kvOf m (visitD c 3) := rfl
theorem sentV_visit4 (m : Mem F) (c : Dev nD) : sentV m 1 2 c = kvOf m (visitD c 4) := rfl
theorem sentV_visit5 (m : Mem F) (c : Dev nD) : sentV m 0 3 c = kvOf m (visitD c 5) := rfl
theorem sentV_visit6 (m : Mem F) (c : Dev nD) : sentV m 1 3 c = kvOf m (visitD c 6) := rfl
theorem sentV_visit7 (m : Mem F) (c : Dev nD) : sentV m 0 4 c = kvOf m (visitD c 7) := rfl

/-- THE RESULT: the numerator after the eight visits read whole, divided by the denominator read whole, is the
    device's result block. -/
theorem result_block (m : Mem F) (c : Dev nD) :
    k0_pay2 (F := F)
        ((Memref.whole cc0_scratch2).view.readAt (Elt F) (Rect.unit (s := S2048x256) ![0, 0] S2048x256.size inb_S2048x256_S2048x256_0_0).toLoadRect (accAt m c 8).2)
        ((Memref.whole cc0_scratch3).view.readAt (Elt F) (Rect.unit (s := S2048x1) ![0, 0] S2048x1.size inb_S2048x1_S2048x1_0_0).toLoadRect (accAt m c 8).1)
      = outBlock m c := rfl

/-- info: 'Cert.Kernel.RingProof.own_block0' depends on axioms: [propext, Classical.choice, Quot.sound] -/
#guard_msgs in #print axioms own_block0

/-- info: 'Cert.Kernel.RingProof.result_block' depends on axioms: [propext, Classical.choice, Quot.sound] -/
#guard_msgs in #print axioms result_block

end Cert.Kernel.RingProof

end
-- ==== Proof.RingValueRunK.lean ====
/-
  A visit as a list of stores over one contents.

  The four chunks of a visit write rows 0…511, 512…1023, 1024…1535, 1536…2047 of a running buffer: rows no two of
  them share.  So what chunk k loads — its own rows — is the same whether read from the buffer as the earlier
  chunks of the visit left it or from the buffer as the visit found it, and the visit's four stores, each storing the
  update of its rows AS THE VISIT FOUND THEM, leave the buffer `accumulate` describes.  Stated for the list of
  writes (last write first) a run of stores is kept as.
-/
import proofs.«900462_g7700000000000463_dist_ring_attn_i_s2048_d256_v7x_i8_f32_1_alg».proof.Proof.RingValueFormsK
import Idealize.ShloMosaic.Lib.Writes

noncomputable section

namespace Cert.Kernel.AttnKer

open Cert.Kernel Cert.Kernel.Gen Idealize.ShloMosaic Idealize.SL.Sem

variable {F : FTy → Type} [FloatOps F]

/-! ## A load of one chunk's rows does not see a store into another chunk's rows -/

theorem readAt_rowsL_write (o o' : Nat) (inb : ∀ a, (![o, 0] : Fin 2 → Nat) a + S512x1.size a ≤ S2048x1.size a)
    (inb' : ∀ a, (![o', 0] : Fin 2 → Nat) a + S512x1.size a ≤ S2048x1.size a) (h : o + 512 ≤ o' ∨ o' + 512 ≤ o)
    (f : LBuf F) (w : FVec F S512x1 .f32) :
    (Memref.whole cc0_scratch3).view.readAt (Elt F) (rowsL o' inb').toLoadRect
        (((Memref.whole cc0_scratch3).access (rowsL o inb)).write (Elt F) f w Finset.univ)
      = (Memref.whole cc0_scratch3).view.readAt (Elt F) (rowsL o' inb').toLoadRect f := by
  funext x
  show (Memref.whole cc0_scratch3).view.read (Elt F)
      ((((Memref.whole cc0_scratch3).view).slice (rowsL o inb)).write (Elt F) f w Finset.univ) ((rowsL o' inb').emb x)
    = (Memref.whole cc0_scratch3).view.read (Elt F) f ((rowsL o' inb').emb x)
  refine View.read_slice_write_of_not_mem (v := (Memref.whole cc0_scratch3).view) (Val := Elt F) (rowsL o inb) f w
    Finset.univ (y := (rowsL o' inb').emb x) ?_
  intro hm
  obtain ⟨y, -, hy⟩ := Finset.mem_map.mp hm
  have h0 : ((rowsL o inb).emb y 0).val = ((rowsL o' inb').emb x 0).val := congrArg (fun i : S2048x1.Idx => (i 0).val) hy
  rw [Rect.emb_apply, Rect.emb_apply] at h0
  have hy0 : (y 0).val < 512 := (y 0).isLt
  have hx0 : (x 0).val < 512 := (x 0).isLt
  have h1 : o + 1 * (y 0).val = o' + 1 * (x 0).val := h0
  omega

theorem readAt_rowsA_write (o o' : Nat) (inb : ∀ a, (![o, 0] : Fin 2 → Nat) a + S512x256.size a ≤ S2048x256.size a)
    (inb' : ∀ a, (![o', 0] : Fin 2 → Nat) a + S512x256.size a ≤ S2048x256.size a) (h : o + 512 ≤ o' ∨ o' + 512 ≤ o)
    (f : ABuf F) (w : FVec F S512x256 .f32) :
    (Memref.whole cc0_scratch2).view.readAt (Elt F) (rowsA o' inb').toLoadRect
        (((Memref.whole cc0_scratch2).access (rowsA o inb)).write (Elt F) f w Finset.univ)
      = (Memref.whole cc0_scratch2).view.readAt (Elt F) (rowsA o' inb').toLoadRect f := by
  funext x
  show (Memref.whole cc0_scratch2).view.read (Elt F)
      ((((Memref.whole cc0_scratch2).view).slice (rowsA o inb)).write (Elt F) f w Finset.univ) ((rowsA o' inb').emb x)
    = (Memref.whole cc0_scratch2).view.read (Elt F) f ((rowsA o' inb').emb x)
  refine View.read_slice_write_of_not_mem (v := (Memref.whole cc0_scratch2).view) (Val := Elt F) (rowsA o inb) f w
    Finset.univ (y := (rowsA o' inb').emb x) ?_
  intro hm
  obtain ⟨y, -, hy⟩ := Finset.mem_map.mp hm
  have h0 : ((rowsA o inb).emb y 0).val = ((rowsA o' inb').emb x 0).val := congrArg (fun i : S2048x256.Idx => (i 0).val) hy
  rw [Rect.emb_apply, Rect.emb_apply] at h0
  have hy0 : (y 0).val < 512 := (y 0).isLt
  have hx0 : (x 0).val < 512 := (x 0).isLt
  have h1 : o + 1 * (y 0).val = o' + 1 * (x 0).val := h0
  omega

/-- In particular through another chunk's step. -/
theorem readAt_rowsL_stepL (o o' : Nat) (inb : ∀ a, (![o, 0] : Fin 2 → Nat) a + S512x1.size a ≤ S2048x1.size a)
    (inb' : ∀ a, (![o', 0] : Fin 2 → Nat) a + S512x1.size a ≤ S2048x1.size a) (h : o + 512 ≤ o' ∨ o' + 512 ≤ o)
    (p : FVec F S512x2048 .f32) (f : LBuf F) :
    (Memref.whole cc0_scratch3).view.readAt (Elt F) (rowsL o' inb').toLoadRect (stepL o inb p f)
      = (Memref.whole cc0_scratch3).view.readAt (Elt F) (rowsL o' inb').toLoadRect f :=
  readAt_rowsL_write o o' inb inb' h f _

theorem readAt_rowsA_stepA (o o' : Nat) (inb : ∀ a, (![o, 0] : Fin 2 → Nat) a + S512x256.size a ≤ S2048x256.size a)
    (inb' : ∀ a, (![o', 0] : Fin 2 → Nat) a + S512x256.size a ≤ S2048x256.size a) (h : o + 512 ≤ o' ∨ o' + 512 ≤ o)
    (p : FVec F S512x2048 .f32) (vb : FVec F S2048x256 .bf16) (f : ABuf F) :
    (Memref.whole cc0_scratch2).view.readAt (Elt F) (rowsA o' inb').toLoadRect (stepA o inb p vb f)
      = (Memref.whole cc0_scratch2).view.readAt (Elt F) (rowsA o' inb').toLoadRect f :=
  readAt_rowsA_write o o' inb inb' h f _

/-! ## A visit's four stores, every load spelt on the contents the visit found -/

/-- The denominator: the list of the four stores (the last first), each of the update of its own rows of `fl`, leaves
    what `accumulate` says. -/
theorem writes_accumulate_fst (qv kb vb : FVec F S2048x256 .bf16) (fl : LBuf F) (fa : ABuf F)
    (w0 w1 w2 w3 : FVec F S512x1 .f32)
    (h0 : w0 = denVal (weights qv kb 0) ((Memref.whole cc0_scratch3).view.readAt (Elt F) (rowsL 0 inb_S2048x1_S512x1_0_0).toLoadRect fl))
    (h1 : w1 = denVal (weights qv kb 1) ((Memref.whole cc0_scratch3).view.readAt (Elt F) (rowsL 512 inb_S2048x1_S512x1_512_0).toLoadRect fl))
    (h2 : w2 = denVal (weights qv kb 2) ((Memref.whole cc0_scratch3).view.readAt (Elt F) (rowsL 1024 inb_S2048x1_S512x1_1024_0).toLoadRect fl))
    (h3 : w3 = denVal (weights qv kb 3) ((Memref.whole cc0_scratch3).view.readAt (Elt F) (rowsL 1536 inb_S2048x1_S512x1_1536_0).toLoadRect fl)) :
    (Memref.whole cc0_scratch3).view.writes (Elt F) fl
        [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩]
      = (accumulate qv kb vb (fl, fa)).1 := by
  subst h0 h1 h2 h3
  show _ = stepL 1536 inb_S2048x1_S512x1_1536_0 (weights qv kb 3) (stepL 1024 inb_S2048x1_S512x1_1024_0 (weights qv kb 2)
    (stepL 512 inb_S2048x1_S512x1_512_0 (weights qv kb 1) (stepL 0 inb_S2048x1_S512x1_0_0 (weights qv kb 0) fl)))
  rw [stepL_eq 1536, readAt_rowsL_stepL 1024 1536 _ _ (Or.inl (by omega)),
    readAt_rowsL_stepL 512 1536 _ _ (Or.inl (by omega)), readAt_rowsL_stepL 0 1536 _ _ (Or.inl (by omega)),
    stepL_eq 1024, readAt_rowsL_stepL 512 1024 _ _ (Or.inl (by omega)),
    readAt_rowsL_stepL 0 1024 _ _ (Or.inl (by omega)),
    stepL_eq 512, readAt_rowsL_stepL 0 512 _ _ (Or.inl (by omega)), stepL_eq 0]
  rfl

/-- The numerator likewise. -/
theorem writes_accumulate_snd (qv kb vb : FVec F S2048x256 .bf16) (fl : LBuf F) (fa : ABuf F)
    (w0 w1 w2 w3 : FVec F S512x256 .f32)
    (h0 : w0 = numVal (weights qv kb 0) vb ((Memref.whole cc0_scratch2).view.readAt (Elt F) (rowsA 0 inb_S2048x256_S512x256_0_0).toLoadRect fa))
    (h1 : w1 = numVal (weights qv kb 1) vb ((Memref.whole cc0_scratch2).view.readAt (Elt F) (rowsA 512 inb_S2048x256_S512x256_512_0).toLoadRect fa))
    (h2 : w2 = numVal (weights qv kb 2) vb ((Memref.whole cc0_scratch2).view.readAt (Elt F) (rowsA 1024 inb_S2048x256_S512x256_1024_0).toLoadRect fa))
    (h3 : w3 = numVal (weights qv kb 3) vb ((Memref.whole cc0_scratch2).view.readAt (Elt F) (rowsA 1536 inb_S2048x256_S512x256_1536_0).toLoadRect fa)) :
    (Memref.whole cc0_scratch2).view.writes (Elt F) fa
        [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩]
      = (accumulate qv kb vb (fl, fa)).2 := by
  subst h0 h1 h2 h3
  show _ = stepA 1536 inb_S2048x256_S512x256_1536_0 (weights qv kb 3) vb (stepA 1024 inb_S2048x256_S512x256_1024_0 (weights qv kb 2) vb
    (stepA 512 inb_S2048x256_S512x256_512_0 (weights qv kb 1) vb (stepA 0 inb_S2048x256_S512x256_0_0 (weights qv kb 0) vb fa)))
  rw [stepA_eq 1536, readAt_rowsA_stepA 1024 1536 _ _ (Or.inl (by omega)),
    readAt_rowsA_stepA 512 1536 _ _ (Or.inl (by omega)), readAt_rowsA_stepA 0 1536 _ _ (Or.inl (by omega)),
    stepA_eq 1024, readAt_rowsA_stepA 512 1024 _ _ (Or.inl (by omega)),
    readAt_rowsA_stepA 0 1024 _ _ (Or.inl (by omega)),
    stepA_eq 512, readAt_rowsA_stepA 0 512 _ _ (Or.inl (by omega)), stepA_eq 0]
  rfl

/-! ## The same, the four stores put in front of a list of earlier ones -/

theorem writes_append_accumulate_fst (qv kb vb : FVec F S2048x256 .bf16) (f0 : LBuf F) (fa : ABuf F)
    (xs : List (View.Piece (Elt F) S2048x1 .f32)) (w0 w1 w2 w3 : FVec F S512x1 .f32)
    (h0 : w0 = denVal (weights qv kb 0) ((Memref.whole cc0_scratch3).view.readAt (Elt F) (rowsL 0 inb_S2048x1_S512x1_0_0).toLoadRect ((Memref.whole cc0_scratch3).view.writes (Elt F) f0 xs)))
    (h1 : w1 = denVal (weights qv kb 1) ((Memref.whole cc0_scratch3).view.readAt (Elt F) (rowsL 512 inb_S2048x1_S512x1_512_0).toLoadRect ((Memref.whole cc0_scratch3).view.writes (Elt F) f0 xs)))
    (h2 : w2 = denVal (weights qv kb 2) ((Memref.whole cc0_scratch3).view.readAt (Elt F) (rowsL 1024 inb_S2048x1_S512x1_1024_0).toLoadRect ((Memref.whole cc0_scratch3).view.writes (Elt F) f0 xs)))
    (h3 : w3 = denVal (weights qv kb 3) ((Memref.whole cc0_scratch3).view.readAt (Elt F) (rowsL 1536 inb_S2048x1_S512x1_1536_0).toLoadRect ((Memref.whole cc0_scratch3).view.writes (Elt F) f0 xs))) :
    (Memref.whole cc0_scratch3).view.writes (Elt F) f0
        ([⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩] ++ xs)
      = (accumulate qv kb vb ((Memref.whole cc0_scratch3).view.writes (Elt F) f0 xs, fa)).1 := by
  rw [View.writes_append]
  exact writes_accumulate_fst qv kb vb _ fa w0 w1 w2 w3 h0 h1 h2 h3

theorem writes_append_accumulate_snd (qv kb vb : FVec F S2048x256 .bf16) (fl : LBuf F) (f0 : ABuf F)
    (xs : List (View.Piece (Elt F) S2048x256 .f32)) (w0 w1 w2 w3 : FVec F S512x256 .f32)
    (h0 : w0 = numVal (weights qv kb 0) vb ((Memref.whole cc0_scratch2).view.readAt (Elt F) (rowsA 0 inb_S2048x256_S512x256_0_0).toLoadRect ((Memref.whole cc0_scratch2).view.writes (Elt F) f0 xs)))
    (h1 : w1 = numVal (weights qv kb 1) vb ((Memref.whole cc0_scratch2).view.readAt (Elt F) (rowsA 512 inb_S2048x256_S512x256_512_0).toLoadRect ((Memref.whole cc0_scratch2).view.writes (Elt F) f0 xs)))
    (h2 : w2 = numVal (weights qv kb 2) vb ((Memref.whole cc0_scratch2).view.readAt (Elt F) (rowsA 1024 inb_S2048x256_S512x256_1024_0).toLoadRect ((Memref.whole cc0_scratch2).view.writes (Elt F) f0 xs)))
    (h3 : w3 = numVal (weights qv kb 3) vb ((Memref.whole cc0_scratch2).view.readAt (Elt F) (rowsA 1536 inb_S2048x256_S512x256_1536_0).toLoadRect ((Memref.whole cc0_scratch2).view.writes (Elt F) f0 xs))) :
    (Memref.whole cc0_scratch2).view.writes (Elt F) f0
        ([⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩] ++ xs)
      = (accumulate qv kb vb (fl, (Memref.whole cc0_scratch2).view.writes (Elt F) f0 xs)).2 := by
  rw [View.writes_append]
  exact writes_accumulate_snd qv kb vb fl _ w0 w1 w2 w3 h0 h1 h2 h3

end Cert.Kernel.AttnKer

end

/-- info: 'Cert.Kernel.AttnKer.writes_append_accumulate_snd' depends on axioms: [propext, Classical.choice, Quot.sound] -/
#guard_msgs in #print axioms Cert.Kernel.AttnKer.writes_append_accumulate_snd
-- ==== Proof.RingAcc0K.lean ====
/-
  The first visit's stores as the run lists them.  Both accumulators are first overwritten whole with zeros; the four
  chunk updates of the visit then each load their own rows, which none of the earlier chunks' stores touch, so every
  load reads the zeros: the list of the five stores over any prior contents is the accumulator after one visit from
  the zeroed start.
-/
import proofs.«900462_g7700000000000463_dist_ring_attn_i_s2048_d256_v7x_i8_f32_1_alg».proof.Proof.RingValuesK
import proofs.«900462_g7700000000000463_dist_ring_attn_i_s2048_d256_v7x_i8_f32_1_alg».proof.Proof.RingValueRunK
import Idealize.ShloMosaic.Lib.Pipeline.RowLoads

noncomputable section

namespace Cert.Kernel.RingProof

open Cert.Kernel Cert.Kernel.Gen Cert.Kernel.AttnKer

open Idealize.ShloMosaic Idealize.ShloMosaic.ValueIdx
open Idealize.ShloMosaic.TcCoe
open Idealize.SL Idealize.SL.Sem

variable {F : FTy → Type} [FloatOps F]

/-- The zero-fill of the denominator, as a piece. -/
abbrev initL : View.Piece (Elt F) S2048x1 .f32 := ⟨Rect.unit (s := S2048x1) ![0, 0] S2048x1.size inb_S2048x1_S2048x1_0_0, k0_pay10⟩
/-- The zero-fill of the numerator, as a piece. -/
abbrev initA : View.Piece (Elt F) S2048x256 .f32 := ⟨Rect.unit (s := S2048x256) ![0, 0] S2048x256.size inb_S2048x256_S2048x256_0_0, k0_pay11⟩

/-- Whatever the denominator held, after the zero-fill it holds the zeros. -/
theorem initL_writes (f : LBuf F) : (Memref.whole cc0_scratch3).view.writes (Elt F) f [initL] = k0_pay10 := by
  show ((Memref.whole cc0_scratch3).access (Rect.unit (s := S2048x1) ![0, 0] S2048x1.size inb_S2048x1_S2048x1_0_0) : View _ _ _ _ _).write (Elt F) f k0_pay10 Finset.univ = k0_pay10
  exact Memref.write_access_unit_zero_univ (Elt F) cc0_scratch3 (off := ![0, 0]) (funext fun a => by fin_cases a <;> rfl) inb_S2048x1_S2048x1_0_0 f k0_pay10
theorem initA_writes (f : ABuf F) : (Memref.whole cc0_scratch2).view.writes (Elt F) f [initA] = k0_pay11 := by
  show ((Memref.whole cc0_scratch2).access (Rect.unit (s := S2048x256) ![0, 0] S2048x256.size inb_S2048x256_S2048x256_0_0) : View _ _ _ _ _).write (Elt F) f k0_pay11 Finset.univ = k0_pay11
  exact Memref.write_access_unit_zero_univ (Elt F) cc0_scratch2 (off := ![0, 0]) (funext fun a => by fin_cases a <;> rfl) inb_S2048x256_S2048x256_0_0 f k0_pay11

/-- A load off the zero-fill alone reads the zeros. -/
theorem covL_init (B : LoadRect S2048x1) :
    (Memref.whole cc0_scratch3).view.readCov [initL (F := F)] B = (Memref.whole cc0_scratch3).view.readAt (Elt F) B k0_pay10 := by
  unfold View.readCov; rw [initL_writes]
theorem covA_init (B : LoadRect S2048x256) :
    (Memref.whole cc0_scratch2).view.readCov [initA (F := F)] B = (Memref.whole cc0_scratch2).view.readAt (Elt F) B k0_pay11 := by
  unfold View.readCov; rw [initA_writes]

set_option maxHeartbeats 2000000 in
/-- The denominator after the first visit, as the run lists its five stores, each chunk's load named off the list as
    it stood. -/
theorem writes_acc0_fst (qv kb vb : FVec F S2048x256 .bf16) (fl0 : LBuf F) (w0 w1 w2 w3 : FVec F S512x1 .f32)
    (h0 : w0 = denVal (weights qv kb 0) ((Memref.whole cc0_scratch3).view.readCov [initL (F := F)] (rowsL 0 inb_S2048x1_S512x1_0_0).toLoadRect))
    (h1 : w1 = denVal (weights qv kb 1) ((Memref.whole cc0_scratch3).view.readCov [⟨rowsL 0 inb_S2048x1_S512x1_0_0, w0⟩, initL (F := F)] (rowsL 512 inb_S2048x1_S512x1_512_0).toLoadRect))
    (h2 : w2 = denVal (weights qv kb 2) ((Memref.whole cc0_scratch3).view.readCov [⟨rowsL 512 inb_S2048x1_S512x1_512_0, w1⟩, ⟨rowsL 0 inb_S2048x1_S512x1_0_0, w0⟩, initL (F := F)] (rowsL 1024 inb_S2048x1_S512x1_1024_0).toLoadRect))
    (h3 : w3 = denVal (weights qv kb 3) ((Memref.whole cc0_scratch3).view.readCov [⟨rowsL 1024 inb_S2048x1_S512x1_1024_0, w2⟩, ⟨rowsL 512 inb_S2048x1_S512x1_512_0, w1⟩, ⟨rowsL 0 inb_S2048x1_S512x1_0_0, w0⟩, initL (F := F)] (rowsL 1536 inb_S2048x1_S512x1_1536_0).toLoadRect)) :
    (Memref.whole cc0_scratch3).view.writes (Elt F) fl0
        [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩, initL]
      = (accumulate qv kb vb (k0_pay10, k0_pay11)).1 := by
  have hX : (Memref.whole cc0_scratch3).view.writes (Elt F) fl0 [initL] = k0_pay10 := initL_writes fl0
  have key := writes_append_accumulate_fst qv kb vb fl0 k0_pay11 [initL] w0 w1 w2 w3
    (by rw [h0, covL_init, hX])
    (by rw [h1, View.readCov_cons_of_rows_disjoint _ 0 512 (Or.inl (by omega)), covL_init, hX])
    (by rw [h2, View.readCov_cons_of_rows_disjoint _ 512 1024 (Or.inl (by omega)), View.readCov_cons_of_rows_disjoint _ 0 1024 (Or.inl (by omega)), covL_init, hX])
    (by rw [h3, View.readCov_cons_of_rows_disjoint _ 1024 1536 (Or.inl (by omega)), View.readCov_cons_of_rows_disjoint _ 512 1536 (Or.inl (by omega)),
      View.readCov_cons_of_rows_disjoint _ 0 1536 (Or.inl (by omega)), covL_init, hX])
  rw [hX] at key
  exact key

set_option maxHeartbeats 2000000 in
/-- The numerator after the first visit likewise. -/
theorem writes_acc0_snd (qv kb vb : FVec F S2048x256 .bf16) (fa0 : ABuf F) (w0 w1 w2 w3 : FVec F S512x256 .f32)
    (h0 : w0 = numVal (weights qv kb 0) vb ((Memref.whole cc0_scratch2).view.readCov [initA (F := F)] (rowsA 0 inb_S2048x256_S512x256_0_0).toLoadRect))
    (h1 : w1 = numVal (weights qv kb 1) vb ((Memref.whole cc0_scratch2).view.readCov [⟨rowsA 0 inb_S2048x256_S512x256_0_0, w0⟩, initA (F := F)] (rowsA 512 inb_S2048x256_S512x256_512_0).toLoadRect))
    (h2 : w2 = numVal (weights qv kb 2) vb ((Memref.whole cc0_scratch2).view.readCov [⟨rowsA 512 inb_S2048x256_S512x256_512_0, w1⟩, ⟨rowsA 0 inb_S2048x256_S512x256_0_0, w0⟩, initA (F := F)] (rowsA 1024 inb_S2048x256_S512x256_1024_0).toLoadRect))
    (h3 : w3 = numVal (weights qv kb 3) vb ((Memref.whole cc0_scratch2).view.readCov [⟨rowsA 1024 inb_S2048x256_S512x256_1024_0, w2⟩, ⟨rowsA 512 inb_S2048x256_S512x256_512_0, w1⟩, ⟨rowsA 0 inb_S2048x256_S512x256_0_0, w0⟩, initA (F := F)] (rowsA 1536 inb_S2048x256_S512x256_1536_0).toLoadRect)) :
    (Memref.whole cc0_scratch2).view.writes (Elt F) fa0
        [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩, initA]
      = (accumulate qv kb vb (k0_pay10, k0_pay11)).2 := by
  have hX : (Memref.whole cc0_scratch2).view.writes (Elt F) fa0 [initA] = k0_pay11 := initA_writes fa0
  have key := writes_append_accumulate_snd qv kb vb k0_pay10 fa0 [initA] w0 w1 w2 w3
    (by rw [h0, covA_init, hX])
    (by rw [h1, View.readCov_cons_of_rows_disjoint _ 0 512 (Or.inl (by omega)), covA_init, hX])
    (by rw [h2, View.readCov_cons_of_rows_disjoint _ 512 1024 (Or.inl (by omega)), View.readCov_cons_of_rows_disjoint _ 0 1024 (Or.inl (by omega)), covA_init, hX])
    (by rw [h3, View.readCov_cons_of_rows_disjoint _ 1024 1536 (Or.inl (by omega)), View.readCov_cons_of_rows_disjoint _ 512 1536 (Or.inl (by omega)),
      View.readCov_cons_of_rows_disjoint _ 0 1536 (Or.inl (by omega)), covA_init, hX])
  rw [hX] at key
  exact key

/-- info: 'Cert.Kernel.RingProof.writes_acc0_snd' depends on axioms: [propext, Classical.choice, Quot.sound] -/
#guard_msgs in #print axioms writes_acc0_snd

end Cert.Kernel.RingProof

end
-- ==== Proof.RingAcc2K.lean ====
/-
  Two visits in one run, as the list of their eight stores.

  The first visit's chunks load their rows off the contents X the run started from; the second visit's chunk k loads
  its rows after the first visit's four stores (and its own earlier chunks'), so what it reads is what the first
  visit's chunk k stored there — named off the list as it stood.  Rows of different chunks are disjoint, so the list
  of eight stores leaves `accumulate` of `accumulate` of X.
-/
import proofs.«900462_g7700000000000463_dist_ring_attn_i_s2048_d256_v7x_i8_f32_1_alg».proof.Proof.RingValueRunK
import Idealize.ShloMosaic.Lib.Exec.Geometry

noncomputable section

namespace Cert.Kernel.AttnKer

open Cert.Kernel Cert.Kernel.Gen Idealize.ShloMosaic Idealize.SL.Sem

variable {F : FTy → Type} [FloatOps F]

/-- A load of a chunk's rows right after the store into those rows reads what was stored. -/
theorem readAt_rowsL_write_self (o : Nat) (inb : ∀ a, (![o, 0] : Fin 2 → Nat) a + S512x1.size a ≤ S2048x1.size a)
    (f : LBuf F) (w : FVec F S512x1 .f32) :
    (Memref.whole cc0_scratch3).view.readAt (Elt F) (rowsL o inb).toLoadRect
        (((Memref.whole cc0_scratch3).access (rowsL o inb)).write (Elt F) f w Finset.univ) = w :=
  View.read_write_univ (v := ((Memref.whole cc0_scratch3).view).slice (rowsL o inb)) (Val := Elt F) f w

theorem readAt_rowsA_write_self (o : Nat) (inb : ∀ a, (![o, 0] : Fin 2 → Nat) a + S512x256.size a ≤ S2048x256.size a)
    (f : ABuf F) (w : FVec F S512x256 .f32) :
    (Memref.whole cc0_scratch2).view.readAt (Elt F) (rowsA o inb).toLoadRect
        (((Memref.whole cc0_scratch2).access (rowsA o inb)).write (Elt F) f w Finset.univ) = w :=
  View.read_write_univ (v := ((Memref.whole cc0_scratch2).view).slice (rowsA o inb)) (Val := Elt F) f w

set_option maxHeartbeats 4000000 in
/-- The denominator after two visits in one run. -/
theorem writes_acc2_fst [∀ e, Nonempty (Elt F e)] (qv kbA vbA kbB vbB : FVec F S2048x256 .bf16) (X : LBuf F) (Y : ABuf F)
    (u0 u1 u2 u3 w0 w1 w2 w3 : FVec F S512x1 .f32)
    (hu0 : u0 = denVal (weights qv kbA 0) ((Memref.whole cc0_scratch3).view.readAt (Elt F) (rowsL 0 inb_S2048x1_S512x1_0_0).toLoadRect X))
    (hu1 : u1 = denVal (weights qv kbA 1) ((Memref.whole cc0_scratch3).view.readAt (Elt F) (rowsL 512 inb_S2048x1_S512x1_512_0).toLoadRect X))
    (hu2 : u2 = denVal (weights qv kbA 2) ((Memref.whole cc0_scratch3).view.readAt (Elt F) (rowsL 1024 inb_S2048x1_S512x1_1024_0).toLoadRect X))
    (hu3 : u3 = denVal (weights qv kbA 3) ((Memref.whole cc0_scratch3).view.readAt (Elt F) (rowsL 1536 inb_S2048x1_S512x1_1536_0).toLoadRect X))
    (hw0 : w0 = denVal (weights qv kbB 0) ((Memref.whole cc0_scratch3).view.readCov (Val := Elt F) [⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 0 inb_S2048x1_S512x1_0_0).toLoadRect))
    (hw1 : w1 = denVal (weights qv kbB 1) ((Memref.whole cc0_scratch3).view.readCov (Val := Elt F) [⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 512 inb_S2048x1_S512x1_512_0).toLoadRect))
    (hw2 : w2 = denVal (weights qv kbB 2) ((Memref.whole cc0_scratch3).view.readCov (Val := Elt F) [⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 1024 inb_S2048x1_S512x1_1024_0).toLoadRect))
    (hw3 : w3 = denVal (weights qv kbB 3) ((Memref.whole cc0_scratch3).view.readCov (Val := Elt F) [⟨rowsL 1024 inb_S2048x1_S512x1_1024_0, w2⟩, ⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 1536 inb_S2048x1_S512x1_1536_0).toLoadRect)) :
    (Memref.whole cc0_scratch3).view.writes (Elt F) X
        [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩]
      = (accumulate qv kbB vbB (accumulate qv kbA vbA (X, Y))).1 := by
  have hX1 : (Memref.whole cc0_scratch3).view.writes (Elt F) X [⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] = (accumulate qv kbA vbA (X, Y)).1 :=
    writes_accumulate_fst qv kbA vbA X Y u0 u1 u2 u3 hu0 hu1 hu2 hu3
  have hsplit : ([⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] : List (View.Piece (Elt F) S2048x1 .f32))
      = [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩] ++ [⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] := rfl
  rw [hsplit, View.writes_append, hX1]
  refine writes_accumulate_fst qv kbB vbB (accumulate qv kbA vbA (X, Y)).1 (accumulate qv kbA vbA (X, Y)).2 w0 w1 w2 w3 ?_ ?_ ?_ ?_
  · rw [hw0]
    refine congrArg (denVal (weights qv kbB 0)) ?_
    have hc : (Memref.whole cc0_scratch3).view.readCov (Val := Elt F) [⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 0 inb_S2048x1_S512x1_0_0).toLoadRect = u0 := by
      unfold View.readCov
      simp only [View.writes_cons]
      rw [readAt_rowsL_write 1536 0 _ _ (Or.inr (by omega)), readAt_rowsL_write 1024 0 _ _ (Or.inr (by omega)), readAt_rowsL_write 512 0 _ _ (Or.inr (by omega)), readAt_rowsL_write_self]
    have ha : ((Memref.whole cc0_scratch3).view.readAt (Elt F) (rowsL 0 inb_S2048x1_S512x1_0_0).toLoadRect (accumulate qv kbA vbA (X, Y)).1) = u0 := by
      rw [← hX1]
      simp only [View.writes_cons]
      rw [readAt_rowsL_write 1536 0 _ _ (Or.inr (by omega)), readAt_rowsL_write 1024 0 _ _ (Or.inr (by omega)), readAt_rowsL_write 512 0 _ _ (Or.inr (by omega)), readAt_rowsL_write_self]
    rw [hc, ha]
  · rw [hw1]
    refine congrArg (denVal (weights qv kbB 1)) ?_
    have hc : (Memref.whole cc0_scratch3).view.readCov (Val := Elt F) [⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 512 inb_S2048x1_S512x1_512_0).toLoadRect = u1 := by
      unfold View.readCov
      simp only [View.writes_cons]
      rw [readAt_rowsL_write 0 512 _ _ (Or.inl (by omega)), readAt_rowsL_write 1536 512 _ _ (Or.inr (by omega)), readAt_rowsL_write 1024 512 _ _ (Or.inr (by omega)), readAt_rowsL_write_self]
    have ha : ((Memref.whole cc0_scratch3).view.readAt (Elt F) (rowsL 512 inb_S2048x1_S512x1_512_0).toLoadRect (accumulate qv kbA vbA (X, Y)).1) = u1 := by
      rw [← hX1]
      simp only [View.writes_cons]
      rw [readAt_rowsL_write 1536 512 _ _ (Or.inr (by omega)), readAt_rowsL_write 1024 512 _ _ (Or.inr (by omega)), readAt_rowsL_write_self]
    rw [hc, ha]
  · rw [hw2]
    refine congrArg (denVal (weights qv kbB 2)) ?_
    have hc : (Memref.whole cc0_scratch3).view.readCov (Val := Elt F) [⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 1024 inb_S2048x1_S512x1_1024_0).toLoadRect = u2 := by
      unfold View.readCov
      simp only [View.writes_cons]
      rw [readAt_rowsL_write 512 1024 _ _ (Or.inl (by omega)), readAt_rowsL_write 0 1024 _ _ (Or.inl (by omega)), readAt_rowsL_write 1536 1024 _ _ (Or.inr (by omega)), readAt_rowsL_write_self]
    have ha : ((Memref.whole cc0_scratch3).view.readAt (Elt F) (rowsL 1024 inb_S2048x1_S512x1_1024_0).toLoadRect (accumulate qv kbA vbA (X, Y)).1) = u2 := by
      rw [← hX1]
      simp only [View.writes_cons]
      rw [readAt_rowsL_write 1536 1024 _ _ (Or.inr (by omega)), readAt_rowsL_write_self]
    rw [hc, ha]
  · rw [hw3]
    refine congrArg (denVal (weights qv kbB 3)) ?_
    have hc : (Memref.whole cc0_scratch3).view.readCov (Val := Elt F) [⟨rowsL 1024 inb_S2048x1_S512x1_1024_0, w2⟩, ⟨rowsL 512 inb_S2048x1_S512x1_512_0, w1⟩, ⟨rowsL 0 inb_S2048x1_S512x1_0_0, w0⟩, ⟨rowsL 1536 inb_S2048x1_S512x1_1536_0, u3⟩, ⟨rowsL 1024 inb_S2048x1_S512x1_1024_0, u2⟩, ⟨rowsL 512 inb_S2048x1_S512x1_512_0, u1⟩, ⟨rowsL 0 inb_S2048x1_S512x1_0_0, u0⟩] (rowsL 1536 inb_S2048x1_S512x1_1536_0).toLoadRect = u3 := by
      unfold View.readCov
      simp only [View.writes_cons]
      rw [readAt_rowsL_write 1024 1536 _ _ (Or.inl (by omega)), readAt_rowsL_write 512 1536 _ _ (Or.inl (by omega)), readAt_rowsL_write 0 1536 _ _ (Or.inl (by omega)), readAt_rowsL_write_self]
    have ha : ((Memref.whole cc0_scratch3).view.readAt (Elt F) (rowsL 1536 inb_S2048x1_S512x1_1536_0).toLoadRect (accumulate qv kbA vbA (X, Y)).1) = u3 := by
      rw [← hX1]
      simp only [View.writes_cons]
      rw [readAt_rowsL_write_self]
    rw [hc, ha]

set_option maxHeartbeats 4000000 in
/-- The numerator after two visits in one run. -/
theorem writes_acc2_snd [∀ e, Nonempty (Elt F e)] (qv kbA vbA kbB vbB : FVec F S2048x256 .bf16) (X : LBuf F) (Y : ABuf F)
    (u0 u1 u2 u3 w0 w1 w2 w3 : FVec F S512x256 .f32)
    (hu0 : u0 = numVal (weights qv kbA 0) vbA ((Memref.whole cc0_scratch2).view.readAt (Elt F) (rowsA 0 inb_S2048x256_S512x256_0_0).toLoadRect Y))
    (hu1 : u1 = numVal (weights qv kbA 1) vbA ((Memref.whole cc0_scratch2).view.readAt (Elt F) (rowsA 512 inb_S2048x256_S512x256_512_0).toLoadRect Y))
    (hu2 : u2 = numVal (weights qv kbA 2) vbA ((Memref.whole cc0_scratch2).view.readAt (Elt F) (rowsA 1024 inb_S2048x256_S512x256_1024_0).toLoadRect Y))
    (hu3 : u3 = numVal (weights qv kbA 3) vbA ((Memref.whole cc0_scratch2).view.readAt (Elt F) (rowsA 1536 inb_S2048x256_S512x256_1536_0).toLoadRect Y))
    (hw0 : w0 = numVal (weights qv kbB 0) vbB ((Memref.whole cc0_scratch2).view.readCov (Val := Elt F) [⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 0 inb_S2048x256_S512x256_0_0).toLoadRect))
    (hw1 : w1 = numVal (weights qv kbB 1) vbB ((Memref.whole cc0_scratch2).view.readCov (Val := Elt F) [⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 512 inb_S2048x256_S512x256_512_0).toLoadRect))
    (hw2 : w2 = numVal (weights qv kbB 2) vbB ((Memref.whole cc0_scratch2).view.readCov (Val := Elt F) [⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 1024 inb_S2048x256_S512x256_1024_0).toLoadRect))
    (hw3 : w3 = numVal (weights qv kbB 3) vbB ((Memref.whole cc0_scratch2).view.readCov (Val := Elt F) [⟨rowsA 1024 inb_S2048x256_S512x256_1024_0, w2⟩, ⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 1536 inb_S2048x256_S512x256_1536_0).toLoadRect)) :
    (Memref.whole cc0_scratch2).view.writes (Elt F) Y
        [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩]
      = (accumulate qv kbB vbB (accumulate qv kbA vbA (X, Y))).2 := by
  have hY1 : (Memref.whole cc0_scratch2).view.writes (Elt F) Y [⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] = (accumulate qv kbA vbA (X, Y)).2 :=
    writes_accumulate_snd qv kbA vbA X Y u0 u1 u2 u3 hu0 hu1 hu2 hu3
  have hsplit : ([⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] : List (View.Piece (Elt F) S2048x256 .f32))
      = [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩] ++ [⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] := rfl
  rw [hsplit, View.writes_append, hY1]
  refine writes_accumulate_snd qv kbB vbB (accumulate qv kbA vbA (X, Y)).1 (accumulate qv kbA vbA (X, Y)).2 w0 w1 w2 w3 ?_ ?_ ?_ ?_
  · rw [hw0]
    refine congrArg (numVal (weights qv kbB 0) vbB) ?_
    have hc : (Memref.whole cc0_scratch2).view.readCov (Val := Elt F) [⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 0 inb_S2048x256_S512x256_0_0).toLoadRect = u0 := by
      unfold View.readCov
      simp only [View.writes_cons]
      rw [readAt_rowsA_write 1536 0 _ _ (Or.inr (by omega)), readAt_rowsA_write 1024 0 _ _ (Or.inr (by omega)), readAt_rowsA_write 512 0 _ _ (Or.inr (by omega)), readAt_rowsA_write_self]
    have ha : ((Memref.whole cc0_scratch2).view.readAt (Elt F) (rowsA 0 inb_S2048x256_S512x256_0_0).toLoadRect (accumulate qv kbA vbA (X, Y)).2) = u0 := by
      rw [← hY1]
      simp only [View.writes_cons]
      rw [readAt_rowsA_write 1536 0 _ _ (Or.inr (by omega)), readAt_rowsA_write 1024 0 _ _ (Or.inr (by omega)), readAt_rowsA_write 512 0 _ _ (Or.inr (by omega)), readAt_rowsA_write_self]
    rw [hc, ha]
  · rw [hw1]
    refine congrArg (numVal (weights qv kbB 1) vbB) ?_
    have hc : (Memref.whole cc0_scratch2).view.readCov (Val := Elt F) [⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 512 inb_S2048x256_S512x256_512_0).toLoadRect = u1 := by
      unfold View.readCov
      simp only [View.writes_cons]
      rw [readAt_rowsA_write 0 512 _ _ (Or.inl (by omega)), readAt_rowsA_write 1536 512 _ _ (Or.inr (by omega)), readAt_rowsA_write 1024 512 _ _ (Or.inr (by omega)), readAt_rowsA_write_self]
    have ha : ((Memref.whole cc0_scratch2).view.readAt (Elt F) (rowsA 512 inb_S2048x256_S512x256_512_0).toLoadRect (accumulate qv kbA vbA (X, Y)).2) = u1 := by
      rw [← hY1]
      simp only [View.writes_cons]
      rw [readAt_rowsA_write 1536 512 _ _ (Or.inr (by omega)), readAt_rowsA_write 1024 512 _ _ (Or.inr (by omega)), readAt_rowsA_write_self]
    rw [hc, ha]
  · rw [hw2]
    refine congrArg (numVal (weights qv kbB 2) vbB) ?_
    have hc : (Memref.whole cc0_scratch2).view.readCov (Val := Elt F) [⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 1024 inb_S2048x256_S512x256_1024_0).toLoadRect = u2 := by
      unfold View.readCov
      simp only [View.writes_cons]
      rw [readAt_rowsA_write 512 1024 _ _ (Or.inl (by omega)), readAt_rowsA_write 0 1024 _ _ (Or.inl (by omega)), readAt_rowsA_write 1536 1024 _ _ (Or.inr (by omega)), readAt_rowsA_write_self]
    have ha : ((Memref.whole cc0_scratch2).view.readAt (Elt F) (rowsA 1024 inb_S2048x256_S512x256_1024_0).toLoadRect (accumulate qv kbA vbA (X, Y)).2) = u2 := by
      rw [← hY1]
      simp only [View.writes_cons]
      rw [readAt_rowsA_write 1536 1024 _ _ (Or.inr (by omega)), readAt_rowsA_write_self]
    rw [hc, ha]
  · rw [hw3]
    refine congrArg (numVal (weights qv kbB 3) vbB) ?_
    have hc : (Memref.whole cc0_scratch2).view.readCov (Val := Elt F) [⟨rowsA 1024 inb_S2048x256_S512x256_1024_0, w2⟩, ⟨rowsA 512 inb_S2048x256_S512x256_512_0, w1⟩, ⟨rowsA 0 inb_S2048x256_S512x256_0_0, w0⟩, ⟨rowsA 1536 inb_S2048x256_S512x256_1536_0, u3⟩, ⟨rowsA 1024 inb_S2048x256_S512x256_1024_0, u2⟩, ⟨rowsA 512 inb_S2048x256_S512x256_512_0, u1⟩, ⟨rowsA 0 inb_S2048x256_S512x256_0_0, u0⟩] (rowsA 1536 inb_S2048x256_S512x256_1536_0).toLoadRect = u3 := by
      unfold View.readCov
      simp only [View.writes_cons]
      rw [readAt_rowsA_write 1024 1536 _ _ (Or.inl (by omega)), readAt_rowsA_write 512 1536 _ _ (Or.inl (by omega)), readAt_rowsA_write 0 1536 _ _ (Or.inl (by omega)), readAt_rowsA_write_self]
    have ha : ((Memref.whole cc0_scratch2).view.readAt (Elt F) (rowsA 1536 inb_S2048x256_S512x256_1536_0).toLoadRect (accumulate qv kbA vbA (X, Y)).2) = u3 := by
      rw [← hY1]
      simp only [View.writes_cons]
      rw [readAt_rowsA_write_self]
    rw [hc, ha]

end Cert.Kernel.AttnKer

end

/-- info: 'Cert.Kernel.AttnKer.writes_acc2_snd' depends on axioms: [propext, Classical.choice, Quot.sound] -/
#guard_msgs in #print axioms Cert.Kernel.AttnKer.writes_acc2_snd
-- ==== Proof.RingAcc3K.lean ====
/-
  The last reads and the last store.

  After a visit's four stores the whole of a running buffer is read: the four chunks of rows cover every row, so what
  is read is determined by the four stored values alone — it is the buffer the stores leave, read whole, whatever it
  held before.  The quotient is then stored whole into the result's staging buffer, which holds exactly it.
-/
import proofs.«900462_g7700000000000463_dist_ring_attn_i_s2048_d256_v7x_i8_f32_1_alg».proof.Proof.RingAcc2K

noncomputable section

namespace Cert.Kernel.AttnKer

open Cert.Kernel Cert.Kernel.Gen Idealize.ShloMosaic Idealize.SL.Sem

variable {F : FTy → Type} [FloatOps F]

/-- Whatever the result's staging buffer held, after the whole unmasked store of `w` it holds `w`. -/
theorem stg3_whole_store (f3 : cc0_stg3_0.ty.Contents (Elt F)) (w : FVec F S2048x256 .f32) :
    (Memref.whole cc0_stg3_0).view.writes (Elt F) f3 [⟨(Rect.unit (s := S2048x256) ![0, 0] S2048x256.size inb_S2048x256_S2048x256_0_0), w⟩] = w := by
  show ((Memref.whole cc0_stg3_0).access (Rect.unit (s := S2048x256) ![0, 0] S2048x256.size inb_S2048x256_S2048x256_0_0) : View _ _ _ _ _).write (Elt F) f3 w Finset.univ = w
  exact Memref.write_access_unit_zero_univ (Elt F) cc0_stg3_0 (off := ![0, 0])
    (funext fun a => by match a with | ⟨0, _⟩ => rfl | ⟨1, _⟩ => rfl) inb_S2048x256_S2048x256_0_0 f3 w

/-- Every entry of the numerator lies in one of the four chunks of rows. -/
theorem cover_rowsA (w0 w1 w2 w3 : FVec F S512x256 .f32) (j : ((Rect.unit (s := S2048x256) ![0, 0] S2048x256.size inb_S2048x256_S2048x256_0_0).toLoadRect).shape.Idx) :
    ∃ p ∈ ([⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩] : List (View.Piece (Elt F) S2048x256 .f32)), ((Rect.unit (s := S2048x256) ![0, 0] S2048x256.size inb_S2048x256_S2048x256_0_0).toLoadRect).idx j ∈ p.1.set := by
  have hj0 : (j 0).val < 2048 := (j 0).isLt
  have hj1 : (j 1).val < 256 := (j 1).isLt
  rcases (by omega : (j 0).val < 512 ∨ (512 ≤ (j 0).val ∧ (j 0).val < 1024) ∨ (1024 ≤ (j 0).val ∧ (j 0).val < 1536) ∨ 1536 ≤ (j 0).val)
    with h | h | h | h
  · refine ⟨⟨rowsA 0 inb_S2048x256_S512x256_0_0, w0⟩, List.mem_cons_of_mem _ (List.mem_cons_of_mem _ (List.mem_cons_of_mem _ (List.mem_cons_self))), (Rect.mem_set_unit (inb := inb_S2048x256_S512x256_0_0)).mpr fun a => ?_⟩
    match a with
    | ⟨0, _⟩ =>
      show 0 ≤ 0 + 1 * (j 0).val ∧ 0 + 1 * (j 0).val < 0 + 512
      omega
    | ⟨1, _⟩ =>
      show 0 ≤ 0 + 1 * (j 1).val ∧ 0 + 1 * (j 1).val < 0 + 256
      omega
  · refine ⟨⟨rowsA 512 inb_S2048x256_S512x256_512_0, w1⟩, List.mem_cons_of_mem _ (List.mem_cons_of_mem _ (List.mem_cons_self)), (Rect.mem_set_unit (inb := inb_S2048x256_S512x256_512_0)).mpr fun a => ?_⟩
    match a with
    | ⟨0, _⟩ =>
      show 512 ≤ 0 + 1 * (j 0).val ∧ 0 + 1 * (j 0).val < 512 + 512
      omega
    | ⟨1, _⟩ =>
      show 0 ≤ 0 + 1 * (j 1).val ∧ 0 + 1 * (j 1).val < 0 + 256
      omega
  · refine ⟨⟨rowsA 1024 inb_S2048x256_S512x256_1024_0, w2⟩, List.mem_cons_of_mem _ (List.mem_cons_self), (Rect.mem_set_unit (inb := inb_S2048x256_S512x256_1024_0)).mpr fun a => ?_⟩
    match a with
    | ⟨0, _⟩ =>
      show 1024 ≤ 0 + 1 * (j 0).val ∧ 0 + 1 * (j 0).val < 1024 + 512
      omega
    | ⟨1, _⟩ =>
      show 0 ≤ 0 + 1 * (j 1).val ∧ 0 + 1 * (j 1).val < 0 + 256
      omega
  · refine ⟨⟨rowsA 1536 inb_S2048x256_S512x256_1536_0, w3⟩, List.mem_cons_self, (Rect.mem_set_unit (inb := inb_S2048x256_S512x256_1536_0)).mpr fun a => ?_⟩
    match a with
    | ⟨0, _⟩ =>
      show 1536 ≤ 0 + 1 * (j 0).val ∧ 0 + 1 * (j 0).val < 1536 + 512
      omega
    | ⟨1, _⟩ =>
      show 0 ≤ 0 + 1 * (j 1).val ∧ 0 + 1 * (j 1).val < 0 + 256
      omega

/-- Every entry of the denominator lies in one of the four chunks of rows. -/
theorem cover_rowsL (w0 w1 w2 w3 : FVec F S512x1 .f32) (j : ((Rect.unit (s := S2048x1) ![0, 0] S2048x1.size inb_S2048x1_S2048x1_0_0).toLoadRect).shape.Idx) :
    ∃ p ∈ ([⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩] : List (View.Piece (Elt F) S2048x1 .f32)), ((Rect.unit (s := S2048x1) ![0, 0] S2048x1.size inb_S2048x1_S2048x1_0_0).toLoadRect).idx j ∈ p.1.set := by
  have hj0 : (j 0).val < 2048 := (j 0).isLt
  have hj1 : (j 1).val < 1 := (j 1).isLt
  rcases (by omega : (j 0).val < 512 ∨ (512 ≤ (j 0).val ∧ (j 0).val < 1024) ∨ (1024 ≤ (j 0).val ∧ (j 0).val < 1536) ∨ 1536 ≤ (j 0).val)
    with h | h | h | h
  · refine ⟨⟨rowsL 0 inb_S2048x1_S512x1_0_0, w0⟩, List.mem_cons_of_mem _ (List.mem_cons_of_mem _ (List.mem_cons_of_mem _ (List.mem_cons_self))), (Rect.mem_set_unit (inb := inb_S2048x1_S512x1_0_0)).mpr fun a => ?_⟩
    match a with
    | ⟨0, _⟩ =>
      show 0 ≤ 0 + 1 * (j 0).val ∧ 0 + 1 * (j 0).val < 0 + 512
      omega
    | ⟨1, _⟩ =>
      show 0 ≤ 0 + 1 * (j 1).val ∧ 0 + 1 * (j 1).val < 0 + 1
      omega
  · refine ⟨⟨rowsL 512 inb_S2048x1_S512x1_512_0, w1⟩, List.mem_cons_of_mem _ (List.mem_cons_of_mem _ (List.mem_cons_self)), (Rect.mem_set_unit (inb := inb_S2048x1_S512x1_512_0)).mpr fun a => ?_⟩
    match a with
    | ⟨0, _⟩ =>
      show 512 ≤ 0 + 1 * (j 0).val ∧ 0 + 1 * (j 0).val < 512 + 512
      omega
    | ⟨1, _⟩ =>
      show 0 ≤ 0 + 1 * (j 1).val ∧ 0 + 1 * (j 1).val < 0 + 1
      omega
  · refine ⟨⟨rowsL 1024 inb_S2048x1_S512x1_1024_0, w2⟩, List.mem_cons_of_mem _ (List.mem_cons_self), (Rect.mem_set_unit (inb := inb_S2048x1_S512x1_1024_0)).mpr fun a => ?_⟩
    match a with
    | ⟨0, _⟩ =>
      show 1024 ≤ 0 + 1 * (j 0).val ∧ 0 + 1 * (j 0).val < 1024 + 512
      omega
    | ⟨1, _⟩ =>
      show 0 ≤ 0 + 1 * (j 1).val ∧ 0 + 1 * (j 1).val < 0 + 1
      omega
  · refine ⟨⟨rowsL 1536 inb_S2048x1_S512x1_1536_0, w3⟩, List.mem_cons_self, (Rect.mem_set_unit (inb := inb_S2048x1_S512x1_1536_0)).mpr fun a => ?_⟩
    match a with
    | ⟨0, _⟩ =>
      show 1536 ≤ 0 + 1 * (j 0).val ∧ 0 + 1 * (j 0).val < 1536 + 512
      omega
    | ⟨1, _⟩ =>
      show 0 ≤ 0 + 1 * (j 1).val ∧ 0 + 1 * (j 1).val < 0 + 1
      omega

/-- The whole read of the numerator off a visit's four stores is the whole read of the buffer they leave, over any
    prior contents. -/
theorem readCov_whole_rowsA [∀ e, Nonempty (Elt F e)] (Y : ABuf F) (w0 w1 w2 w3 : FVec F S512x256 .f32) :
    (Memref.whole cc0_scratch2).view.readCov (Val := Elt F) [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩] (Rect.unit (s := S2048x256) ![0, 0] S2048x256.size inb_S2048x256_S2048x256_0_0).toLoadRect
      = (Memref.whole cc0_scratch2).view.readAt (Elt F) (Rect.unit (s := S2048x256) ![0, 0] S2048x256.size inb_S2048x256_S2048x256_0_0).toLoadRect
          ((Memref.whole cc0_scratch2).view.writes (Elt F) Y [⟨rowsA 1536 inb_S2048x256_S512x256_1536_0, w3⟩, ⟨rowsA 1024 inb_S2048x256_S512x256_1024_0, w2⟩, ⟨rowsA 512 inb_S2048x256_S512x256_512_0, w1⟩, ⟨rowsA 0 inb_S2048x256_S512x256_0_0, w0⟩]) :=
  (View.readAt_writes_of_cover (Memref.whole cc0_scratch2).view Y _ _ (cover_rowsA w0 w1 w2 w3)).symm

/-- The whole read of the denominator likewise. -/
theorem readCov_whole_rowsL [∀ e, Nonempty (Elt F e)] (X : LBuf F) (w0 w1 w2 w3 : FVec F S512x1 .f32) :
    (Memref.whole cc0_scratch3).view.readCov (Val := Elt F) [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩] (Rect.unit (s := S2048x1) ![0, 0] S2048x1.size inb_S2048x1_S2048x1_0_0).toLoadRect
      = (Memref.whole cc0_scratch3).view.readAt (Elt F) (Rect.unit (s := S2048x1) ![0, 0] S2048x1.size inb_S2048x1_S2048x1_0_0).toLoadRect
          ((Memref.whole cc0_scratch3).view.writes (Elt F) X [⟨rowsL 1536 inb_S2048x1_S512x1_1536_0, w3⟩, ⟨rowsL 1024 inb_S2048x1_S512x1_1024_0, w2⟩, ⟨rowsL 512 inb_S2048x1_S512x1_512_0, w1⟩, ⟨rowsL 0 inb_S2048x1_S512x1_0_0, w0⟩]) :=
  (View.readAt_writes_of_cover (Memref.whole cc0_scratch3).view X _ _ (cover_rowsL w0 w1 w2 w3)).symm

end Cert.Kernel.AttnKer

end

/-- info: 'Cert.Kernel.AttnKer.readCov_whole_rowsL' depends on axioms: [propext, Classical.choice, Quot.sound] -/
#guard_msgs in #print axioms Cert.Kernel.AttnKer.readCov_whole_rowsL
-- ==== Proof.RingBodyK.lean ====
/-
  The body, once, at a symbolic device `c`: from the state on entering — the dealt share, the launch credit, the
  levels, the scratch buffers, and the three argument blocks staged — every step of the body runs (the entry
  handshake, five ring steps with their hops, credits and waits, thirty-two chunk updates of the two accumulators,
  the final quotient) and leaves the ten own cells past their last rounds, the scratch whole, nothing owed, the
  argument blocks staged as fetched and the result block staged at `outBlock`.
  The local code between two protocol steps is run by the symbolic executor; each protocol step is one of the
  step lemmas.  On entering, the two first receive slots are released to their writers, and the entry signals
  carry that word.  On ring step `t` the device waits for its neighbour's credit (`t ≥ 1`), takes the neighbour's
  free slot out of its release invariant and sends its current slot there (the left half of the source lent, the
  right half kept for the arithmetic), accumulates, waits for its own copy to be read out, rejoins and releases the
  slot and grants the credit, and waits for the upstream block to land.
-/
import proofs.«900462_g7700000000000463_dist_ring_attn_i_s2048_d256_v7x_i8_f32_1_alg».proof.Proof.RingStateK
import proofs.«900462_g7700000000000463_dist_ring_attn_i_s2048_d256_v7x_i8_f32_1_alg».proof.Proof.RingOpenK
import proofs.«900462_g7700000000000463_dist_ring_attn_i_s2048_d256_v7x_i8_f32_1_alg».proof.Proof.RingOpen2K
import proofs.«900462_g7700000000000463_dist_ring_attn_i_s2048_d256_v7x_i8_f32_1_alg».proof.Proof.RingDealK
import proofs.«900462_g7700000000000463_dist_ring_attn_i_s2048_d256_v7x_i8_f32_1_alg».proof.Proof.RingCredsK
import proofs.«900462_g7700000000000463_dist_ring_attn_i_s2048_d256_v7x_i8_f32_1_alg».proof.Proof.RingWaitsK
import proofs.«900462_g7700000000000463_dist_ring_attn_i_s2048_d256_v7x_i8_f32_1_alg».proof.Proof.RingAccessK
import proofs.«900462_g7700000000000463_dist_ring_attn_i_s2048_d256_v7x_i8_f32_1_alg».proof.Proof.RingSteps3K
import proofs.«900462_g7700000000000463_dist_ring_attn_i_s2048_d256_v7x_i8_f32_1_alg».proof.Proof.RingEndK
import proofs.«900462_g7700000000000463_dist_ring_attn_i_s2048_d256_v7x_i8_f32_1_alg».proof.Proof.RingValuesK
import proofs.«900462_g7700000000000463_dist_ring_attn_i_s2048_d256_v7x_i8_f32_1_alg».proof.Proof.RingAcc0K
import proofs.«900462_g7700000000000463_dist_ring_attn_i_s2048_d256_v7x_i8_f32_1_alg».proof.Proof.RingValueRunK
import proofs.«900462_g7700000000000463_dist_ring_attn_i_s2048_d256_v7x_i8_f32_1_alg».proof.Proof.RingAcc2K
import proofs.«900462_g7700000000000463_dist_ring_attn_i_s2048_d256_v7x_i8_f32_1_alg».proof.Proof.RingAcc3K
noncomputable section
namespace Cert.Kernel.RingProof
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]
local notation "𝕄" => MT nD τ sig ℕ (Elt F) ℕ UU ℕ
variable (m : Mem F)

omit [FloatOps F] in
/-- A buffer held whole, in the spelling through its whole memref. -/
theorem whole_pts (c : Dev nD) (b : Ref sig .tc) (f : Buf (Elt F) ((c : Thread nD τ).loc b)) :
    (((c : Thread nD τ).loc b ↦{fullShare} f) : sProp 𝕄)
      = ((Memref.whole b).view.loc (c : Thread nD τ) ↦{fullShare} f) := rfl

/-! The printed semaphore slices are the ring's cells. -/
theorem sem_s00 : ((SemArray.slice cc0_scratch4 (Rect.unit (s := S2) ![0] S1.size inb_S2_S1_0)).squeeze S_ squeezes_S1_S_).sem = sendS 0 0 := by decide +kernel
theorem sem_s01 : ((SemArray.slice cc0_scratch4 (Rect.unit (s := S2) ![1] S1.size inb_S2_S1_1)).squeeze S_ squeezes_S1_S_).sem = sendS 0 1 := by decide +kernel
theorem sem_r00 : ((SemArray.slice cc0_scratch5 (Rect.unit (s := S2) ![0] S1.size inb_S2_S1_0)).squeeze S_ squeezes_S1_S_).sem = recvS 0 0 := by decide +kernel
theorem sem_r01 : ((SemArray.slice cc0_scratch5 (Rect.unit (s := S2) ![1] S1.size inb_S2_S1_1)).squeeze S_ squeezes_S1_S_).sem = recvS 0 1 := by decide +kernel
theorem sem_s10 : ((SemArray.slice cc0_scratch6 (Rect.unit (s := S2) ![0] S1.size inb_S2_S1_0)).squeeze S_ squeezes_S1_S_).sem = sendS 1 0 := by decide +kernel
theorem sem_s11 : ((SemArray.slice cc0_scratch6 (Rect.unit (s := S2) ![1] S1.size inb_S2_S1_1)).squeeze S_ squeezes_S1_S_).sem = sendS 1 1 := by decide +kernel
theorem sem_r10 : ((SemArray.slice cc0_scratch7 (Rect.unit (s := S2) ![0] S1.size inb_S2_S1_0)).squeeze S_ squeezes_S1_S_).sem = recvS 1 0 := by decide +kernel
theorem sem_r11 : ((SemArray.slice cc0_scratch7 (Rect.unit (s := S2) ![1] S1.size inb_S2_S1_1)).squeeze S_ squeezes_S1_S_).sem = recvS 1 1 := by decide +kernel

/-- Every slot's transfer credits the same amount. -/
theorem Ncr_slot (p b : Fin 2) : (slotM p b).view.dmaCredit = Ncr := by
  fin_cases p <;> fin_cases b <;> rfl

/-- A slot held whole at contents that read as `V`. -/
theorem slotAt_of_pts (c : Dev nD) (p b : Fin 2) (f : Buf (Elt F) ((slotM p b).view.loc (c : Thread nD τ))) (V : FVec F S2x2048x256 .bf16)
    (h : (slotM p b).view.read (Elt F) f = V) : slotPts c p b fullShare f ⊢ slotAt c p b V := by
  unfold slotAt
  iintro H; iexists f; isplitr; · ipureintro; exact h
  iexact H

/-- A resource set aside for a while: the same assertion under a name the executor does not look through. -/
def aside (P : sProp 𝕄) : sProp 𝕄 := P
theorem aside_eq (P : sProp 𝕄) : aside P = P := rfl
attribute [irreducible] aside

set_option maxHeartbeats 16000000 in
theorem sound_body (ρ : Dev nD → PrngReg) (c : Dev nD) :
    bodyPre (dats m ρ) c ⊢ wp frame (wpE (defs₀ (F := F)) 𝒱₀ (c : Thread nD τ) none) Set.univ (bodyAt0 t0_0) (fun _ => closing m ρ c) := by
  unfold bodyPre bodyAt0 stg
  rw [show (dats m ρ 0 c).Φ t0_0.castSucc = entry m c from rfl]
  unfold Dat.owesAt Pipeline.owesWithin
  rw [show (dats m ρ 0 c).owed t0_0.castSucc = owedFrom c 0 from rfl]
  unfold entry G' scratch
  rw [mine_eq]
  iintro ⟨⟨⟨%Kn, %ιs, %hinj, #Hk, HaS00, HaS01, HaR00, HaR01, HaS10, HaS11, HaR10, HaR11, HaK0, HaK1, HaB, HtBl, HtBr,
      HtS000, HtS001, HtS010, HtS011, HtS100, HtS101, HtS110, HtR000, HtR001, HtR010, HtR011, HtR100, HtR110, HtR111,
      HtK00, HtK01, HtK02, HtK10, HtK11, Hrd00, Hrd01, Hrd10, Hrd11, Hw001, Hw002, Hw011, Hw012, Hw101, Hw102, Hw111, Hw112⟩,
      Hcred, #Hlev, Hs0, Hs1, Hs2, Hs3⟩, ⟨%W, %hW, HO⟩,
    ⟨%d0, %f0, %hf0, H0⟩, ⟨%d1, %f1, %hf1, H1⟩, ⟨%d2, %f2, %hf2, H2⟩, ⟨%d3, %f3, %hf3, H3⟩⟩
  icases Hs2 with ⟨%fa0, Hs2⟩
  icases Hs3 with ⟨%fl0, Hs3⟩
  ihave Hs2 := (Entails.of_eq (whole_pts (F := F) c cc0_scratch2 fa0)) $$ Hs2
  ihave Hs3 := (Entails.of_eq (whole_pts (F := F) c cc0_scratch3 fl0)) $$ Hs3
  ihave H0 := (Entails.of_eq (whole_pts (F := F) c cc0_stg0_0 f0)) $$ H0
  ihave H1 := (Entails.of_eq (whole_pts (F := F) c cc0_stg1_0 f1)) $$ H1
  ihave H2 := (Entails.of_eq (whole_pts (F := F) c cc0_stg2_0 f2)) $$ H2
  ihave H3 := (Entails.of_eq (whole_pts (F := F) c cc0_stg3_0 f3)) $$ H3
  ihave Hr0 := (ring0_split (F := F) c) $$ Hs0
  icases Hr0 with ⟨Hs00, Hs01⟩
  ihave Hr1 := (ring1_split (F := F) c) $$ Hs1
  icases Hr1 with ⟨Hs10, Hs11⟩
  icases Hs00 with ⟨%g00, Hs00⟩
  icases Hs10 with ⟨%g10, Hs10⟩
  ihave Hc := (creds (F := F) c) $$ Hcred
  icases Hc with ⟨HcB, ⟨HcK00, HcK01, HcK02⟩, ⟨HcK10, HcK11⟩, ⟨HcR00, HcR01, HcR02, HcR03⟩, ⟨HcR10, HcR11, HcR12⟩⟩
  -- the two first receive slots are put at their writers' disposal
  ihave #HI01 := (knows_slot m Kn ιs ((c, (0 : Fin 2), (1 : Fin 2)) : KS)) $$ Hk
  ihave #HI11 := (knows_slot m Kn ιs ((c, (1 : Fin 2), (1 : Fin 2)) : KS)) $$ Hk
  imod (Release.slot_release (ES (F := F)) (Set.mem_univ (ιs ((c, (0 : Fin 2), (1 : Fin 2)) : KS))) (Release.slot_slot_false (ℓ := (slotM 0 1).view.loc (c : Thread nD τ)) (I := (slotM 0 1).view.set) (slot_nonempty0 1)) 0) $$ [Hrd01 Hs01] with ⟨Hrd01, #Hrel01⟩
  · isplitr; · iexact HI01
    isplitl [Hrd01]; · iexact Hrd01
    unfold Sl Release.slot slotPts; iexact Hs01
  imod (Release.slot_release (ES (F := F)) (Set.mem_univ (ιs ((c, (1 : Fin 2), (1 : Fin 2)) : KS))) (Release.slot_slot_false (ℓ := (slotM 1 1).view.loc (c : Thread nD τ)) (I := (slotM 1 1).view.set) (slot_nonempty1 1)) 0) $$ [Hrd11 Hs11] with ⟨Hrd11, #Hrel11⟩
  · isplitr; · iexact HI11
    isplitl [Hrd11]; · iexact Hrd11
    unfold Sl Release.slot slotPts; iexact Hs11
  sl_exec_parts
  rw [dev1_eq]
  -- the entry signal to the left neighbour
  ihave #HIbl := (knows_cell m Kn ιs (lft c, (10 : Fin 11))) $$ Hk
  ihave #HrBl := (knows_reached m Kn ιs (lft c, (10 : Fin 11))) $$ Hk
  iapply (wp_barsig m c (lft c) 1 (rgt_lft c) (by decide : 1 = (1#32).toNat) (owedFrom c 1) rfl (κ := Kn (lft c, 10))) $$ [HO HtBl]
  · isplitr; · iexact HIbl
    isplitl [HO]; · iexact HO
    isplitl [HtBl]; · iexact HtBl
    isplitr; · iexact Hrel01
    iexact HrBl
  iintro HO
  sl_exec_parts
  rw [dev2_eq]
  -- the entry signal to the right neighbour
  ihave #HIbr := (knows_cell m Kn ιs (rgt c, (10 : Fin 11))) $$ Hk
  ihave #HrBr := (knows_reached m Kn ιs (rgt c, (10 : Fin 11))) $$ Hk
  iapply (wp_barsig m c (rgt c) 0 (lft_rgt c) (by decide : 1 = (1#32).toNat) (owedFrom c 2) rfl (κ := Kn (rgt c, 10))) $$ [HO HtBr]
  · isplitr; · iexact HIbr
    isplitl [HO]; · iexact HO
    isplitl [HtBr]; · iexact HtBr
    isplitr; · iexact Hrel11
    iexact HrBr
  iintro HO
  sl_exec_parts
  -- the entry wait
  ihave #HIb := (knows_cell m Kn ιs (c, (10 : Fin 11))) $$ Hk
  iapply (wp_barwait m c (κ := Kn (c, 10))) $$ [HcB HO HaB]
  · isplitr; · iexact HIb
    isplitl [HcB]; · iexact HcB
    isplitl [HO]; · iexact HO
    isplitr
    · iapply (mayWait_kind (F := F) c (.reg barS) 0 2 (by rw [kindOf_bar]; decide) (by rw [kindOf_bar]; decide)); iexact Hlev
    iexact HaB
  iintro ⟨HO, HaB, #HrB1, #HrelL, #HrelR⟩
  sl_exec_parts
  -- hop 0 of the right-going ring: slot 0 (the device's own block) to the right neighbour's slot 1
  have hv00 : (slotM 0 0).view.read (Elt F) (sound_body.sl.Hs00_w2 c f1 f2 g00) = sentV m 0 (2 * 0 + (0 : Fin 2).val) c := by
    unfold sound_body.sl.Hs00_w2 sound_body.sl.Hs00_w1
    exact (slot_read_write_halves (F := F) 0 0 g00 _ _).trans ((own_block0 m ρ c d1 d2 f1 f2 hf1 hf2).trans (sentV_zero m 0 c).symm)
  ihave Hs00 := (slotAt_of_pts (F := F) c 0 0 _ _ hv00) $$ Hs00
  ihave Hh := (slot_halve (F := F) c 0 0 _) $$ Hs00
  icases Hh with ⟨Hl00, Hr00⟩
  unfold slotLent
  icases Hl00 with ⟨%fs00, %hfs00, Hl00⟩
  ihave #HIs00 := (knows_cell m Kn ιs (c, (0 : Fin 11))) $$ Hk
  ihave #HrS00 := (knows_reached m Kn ιs (c, (0 : Fin 11))) $$ Hk
  ihave #HIr01R := (knows_cell m Kn ιs (rgt c, (3 : Fin 11))) $$ Hk
  ihave #HrR01R := (knows_reached m Kn ιs (rgt c, (3 : Fin 11))) $$ Hk
  ihave #HIslR01 := (knows_slot m Kn ιs ((rgt c, (0 : Fin 2), (1 : Fin 2)) : KS)) $$ Hk
  iapply (wp_hop m c 0 0 1 rfl 0 (by decide) (by decide) 0 _ (dev3_eq c _) fs00 hfs00 (owedFrom c 3) rfl (ιs ((rgt c, (0 : Fin 2), (1 : Fin 2)) : KS)) 1) $$ [Hl00 Hw011 HO HtS000 HtR010]
  · isplitr; · iexact HIs00
    isplitr; · iexact HIr01R
    isplitl [Hl00]; · iexact Hl00
    isplitr; · iexact HIslR01
    isplitr; · iexact HrelR
    isplitl [Hw011]; · iexact Hw011
    isplitl [HO]; · iexact HO
    isplitl [HtS000]; · iexact HtS000
    isplitr; · iexact HrS00
    isplitl [HtR010]; · iexact HtR010
    iexact HrR01R
  iintro ⟨HcS00, HO⟩
  sl_exec_parts
  -- the kept half of the source is read by the arithmetic meanwhile
  icases Hr00 with ⟨%fr00, %hfr00, Hr00⟩
  -- hop 0 of the left-going ring: slot 0 to the left neighbour's slot 1
  have hv10 : (slotM 1 0).view.read (Elt F) (sound_body.sl.Hs10_w4 c f1 f2 g10) = sentV m 1 (2 * 0 + (0 : Fin 2).val) c := by
    unfold sound_body.sl.Hs10_w4 sound_body.sl.Hs10_w3
    exact (slot_read_write_halves (F := F) 1 0 g10 _ _).trans ((own_block1 m ρ c d1 d2 f1 f2 hf1 hf2).trans (sentV_zero m 1 c).symm)
  ihave Hs10 := (slotAt_of_pts (F := F) c 1 0 _ _ hv10) $$ Hs10
  ihave Hh := (slot_halve (F := F) c 1 0 _) $$ Hs10
  icases Hh with ⟨Hl10, Hr10⟩
  unfold slotLent
  icases Hl10 with ⟨%fs10, %hfs10, Hl10⟩
  icases Hr10 with ⟨%fr10, %hfr10, Hr10⟩
  ihave #HIs10 := (knows_cell m Kn ιs (c, (4 : Fin 11))) $$ Hk
  ihave #HrS10 := (knows_reached m Kn ιs (c, (4 : Fin 11))) $$ Hk
  ihave #HIr11L := (knows_cell m Kn ιs (lft c, (7 : Fin 11))) $$ Hk
  ihave #HrR11L := (knows_reached m Kn ιs (lft c, (7 : Fin 11))) $$ Hk
  ihave #HIslL11 := (knows_slot m Kn ιs ((lft c, (1 : Fin 2), (1 : Fin 2)) : KS)) $$ Hk
  iapply (wp_hop m c 1 0 1 rfl 0 (by decide) (by decide) 0 _ (dev4_eq c _) fs10 hfs10 (owedFrom c 4) rfl (ιs ((lft c, (1 : Fin 2), (1 : Fin 2)) : KS)) 1) $$ [Hl10 Hw111 HO HtS100 HtR110]
  · isplitr; · iexact HIs10
    isplitr; · iexact HIr11L
    isplitl [Hl10]; · iexact Hl10
    isplitr; · iexact HIslL11
    isplitr; · iexact HrelL
    isplitl [Hw111]; · iexact Hw111
    isplitl [HO]; · iexact HO
    isplitl [HtS100]; · iexact HtS100
    isplitr; · iexact HrS10
    isplitl [HtR110]; · iexact HtR110
    iexact HrR11L
  iintro ⟨HcS10, HO⟩
  -- the first block is accumulated
  sl_exec_parts
  -- the accumulators after the first visit, named
  have hjoin0 : (slotM 0 0).view.read (Elt F) fr00 = joinKV (kvAt m c 0).1 (kvAt m c 0).2 := hfr00
  have hq : sound_body.sl.r_2 c f0 = qAt m c := by
    unfold sound_body.sl.r_2 qAt; exact query_block m ρ c d0 f0 hf0
  have hk0 : sound_body.sl.r_3 fr00 = (kvAt m c 0).1 := by
    unfold sound_body.sl.r_3
    exact (congrArg k0_pay12 (half_read_key 0 0 fr00 _ _ hjoin0)).trans (pay12_load _)
  have hv0 : sound_body.sl.r_4 fr00 = (kvAt m c 0).2 := by
    unfold sound_body.sl.r_4
    exact (congrArg k0_pay13 (half_read_val 0 0 fr00 _ _ hjoin0)).trans (pay13_load _)
  have hacc1 : accAt m c 1 = Cert.Kernel.AttnKer.accumulate (qAt m c) (kvAt m c 0).1 (kvAt m c 0).2 (k0_pay10, k0_pay11) := accAt_succ m c 0
  have hL : (Memref.whole cc0_scratch3).view.writes (Elt F) fl0 (sound_body.sl.Hs3_5 c f0 fr00) = (accAt m c 1).1 := by
    rw [hacc1]
    unfold sound_body.sl.Hs3_5 sound_body.sl.Hs3_4 sound_body.sl.Hs3_3 sound_body.sl.Hs3_2
    refine writes_acc0_fst (qAt m c) (kvAt m c 0).1 (kvAt m c 0).2 fl0 _ _ _ _ ?_ ?_ ?_ ?_
    · rw [← hq, ← hk0]; rfl
    · rw [← hq, ← hk0]; rfl
    · rw [← hq, ← hk0]; rfl
    · rw [← hq, ← hk0]; rfl
  have hA : (Memref.whole cc0_scratch2).view.writes (Elt F) fa0 (sound_body.sl.Hs2_5 c f0 fr00) = (accAt m c 1).2 := by
    rw [hacc1]
    unfold sound_body.sl.Hs2_5 sound_body.sl.Hs2_4 sound_body.sl.Hs2_3 sound_body.sl.Hs2_2
    refine writes_acc0_snd (qAt m c) (kvAt m c 0).1 (kvAt m c 0).2 fa0 _ _ _ _ ?_ ?_ ?_ ?_
    · rw [← hq, ← hk0, ← hv0]; rfl
    · rw [← hq, ← hk0, ← hv0]; rfl
    · rw [← hq, ← hk0, ← hv0]; rfl
    · rw [← hq, ← hk0, ← hv0]; rfl
  ihave Hs3 := (Entails.of_eq (congrArg (fun X => (View.loc (c : Thread nD τ) (Memref.whole cc0_scratch3).view ↦{fullShare} X : sProp 𝕄)) hL)) $$ Hs3
  ihave Hs2 := (Entails.of_eq (congrArg (fun X => (View.loc (c : Thread nD τ) (Memref.whole cc0_scratch2).view ↦{fullShare} X : sProp 𝕄)) hA)) $$ Hs2
  -- the right-going copy has been read out: the lent half comes back
  iapply (wp_sendwait m c 0 0 0 (by decide) 0 (Ncr_slot 0 0) (κ := Kn (c, 0))) $$ [HcS00 HO HaS00]
  · isplitr; · iexact HIs00
    isplitl [HcS00]; · iexact HcS00
    isplitl [HO]; · iexact HO
    isplitr
    · iapply (mayWait_kind (F := F) c (.dma (sendS 0 0)) 0 4 (by rw [kindOf_send]; decide) (by rw [kindOf_send]; decide)); iexact Hlev
    iexact HaS00
  iintro ⟨HO, HaS00, #HrS00_1x, Hl00⟩
  -- whole again, and handed back to its writer
  ihave Hs00 := (slot_rejoin' (F := F) c 0 0 _) $$ [Hl00 Hr00]
  · isplitl [Hl00]; · iexact Hl00
    iexists fr00; iexact Hr00
  ihave #HI00 := (knows_slot m Kn ιs ((c, (0 : Fin 2), (0 : Fin 2)) : KS)) $$ Hk
  imod (release_after (F := F) c 0 0 _ (ιs ((c, (0 : Fin 2), (0 : Fin 2)) : KS)) 0) $$ [Hrd00 Hs00] with ⟨Hrd00, #Hrel00⟩
  · isplitr; · iexact HI00
    isplitl [Hrd00]; · iexact Hrd00
    iexact Hs00
  sl_exec_parts
  rw [dev5_eq]
  -- the credit to the left neighbour: slot 0 of the right-going ring is free
  ihave #HIk0L := (knows_cell m Kn ιs (lft c, (8 : Fin 11))) $$ Hk
  ihave #HrK0L := (knows_reached m Kn ιs (lft c, (8 : Fin 11))) $$ Hk
  ihave #HrR00 := (knows_reached m Kn ιs (c, (2 : Fin 11))) $$ Hk
  iapply (wp_grant m c 0 0 (by decide) (by decide : 1 = (1#32).toNat) (owedFrom c 5) rfl (κ := Kn (lft c, 8))) $$ [HO HtK00]
  · isplitr; · iexact HIk0L
    isplitl [HO]; · iexact HO
    isplitl [HtK00]; · iexact HtK00
    isplitr
    · unfold grantsUpTo grantFact; isplitr; · iexact Hrel00
      iexact HrR00
    iexact HrK0L
  iintro HO
  sl_exec_parts
  -- the left neighbour's copy 0 has landed in slot 1
  ihave #HIr01 := (knows_cell m Kn ιs (c, (3 : Fin 11))) $$ Hk
  iapply (wp_recvwait m c 0 1 0 (by decide) 0 (Ncr_slot 0 1) (κ := Kn (c, 3))) $$ [HcR00 HO HaR01]
  · isplitr; · iexact HIr01
    isplitl [HcR00]; · iexact HcR00
    isplitl [HO]; · iexact HO
    isplitr
    · iapply (mayWait_kind (F := F) c (.dma (recvS 0 1)) 0 5 (by rw [kindOf_recv]; decide) (by rw [kindOf_recv]; decide)); iexact Hlev
    iexact HaR01
  iintro ⟨HO, HaR01, #HrR01_1, Hs01⟩
  sl_exec_parts
  -- the left-going copy has been read out
  iapply (wp_sendwait m c 1 0 0 (by decide) 0 (Ncr_slot 1 0) (κ := Kn (c, 4))) $$ [HcS10 HO HaS10]
  · isplitr; · iexact HIs10
    isplitl [HcS10]; · iexact HcS10
    isplitl [HO]; · iexact HO
    isplitr
    · iapply (mayWait_kind (F := F) c (.dma (sendS 1 0)) 0 5 (by rw [kindOf_send]; decide) (by rw [kindOf_send]; decide)); iexact Hlev
    iexact HaS10
  iintro ⟨HO, HaS10, #HrS10_1x, Hl10⟩
  ihave Hs10 := (slot_rejoin' (F := F) c 1 0 _) $$ [Hl10 Hr10]
  · isplitl [Hl10]; · iexact Hl10
    iexists fr10; iexact Hr10
  ihave #HI10 := (knows_slot m Kn ιs ((c, (1 : Fin 2), (0 : Fin 2)) : KS)) $$ Hk
  imod (release_after (F := F) c 1 0 _ (ιs ((c, (1 : Fin 2), (0 : Fin 2)) : KS)) 0) $$ [Hrd10 Hs10] with ⟨Hrd10, #Hrel10⟩
  · isplitr; · iexact HI10
    isplitl [Hrd10]; · iexact Hrd10
    iexact Hs10
  sl_exec_parts
  rw [dev6_eq]
  -- the credit to the right neighbour: slot 0 of the left-going ring is free
  ihave #HIk1R := (knows_cell m Kn ιs (rgt c, (9 : Fin 11))) $$ Hk
  ihave #HrK1R := (knows_reached m Kn ιs (rgt c, (9 : Fin 11))) $$ Hk
  ihave #HrR10 := (knows_reached m Kn ιs (c, (6 : Fin 11))) $$ Hk
  iapply (wp_grant m c 1 0 (by decide) (by decide : 1 = (1#32).toNat) (owedFrom c 6) rfl (κ := Kn (rgt c, 9))) $$ [HO HtK10]
  · isplitr; · iexact HIk1R
    isplitl [HO]; · iexact HO
    isplitl [HtK10]; · iexact HtK10
    isplitr
    · unfold grantsUpTo grantFact; isplitr; · iexact Hrel10
      iexact HrR10
    iexact HrK1R
  iintro HO
  sl_exec_parts
  -- the right neighbour's copy 0 has landed in slot 1 of the left-going ring
  ihave #HIr11 := (knows_cell m Kn ιs (c, (7 : Fin 11))) $$ Hk
  iapply (wp_recvwait m c 1 1 0 (by decide) 0 (Ncr_slot 1 1) (κ := Kn (c, 7))) $$ [HcR10 HO HaR11]
  · isplitr; · iexact HIr11
    isplitl [HcR10]; · iexact HcR10
    isplitl [HO]; · iexact HO
    isplitr
    · iapply (mayWait_kind (F := F) c (.dma (recvS 1 1)) 0 6 (by rw [kindOf_recv]; decide) (by rw [kindOf_recv]; decide)); iexact Hlev
    iexact HaR11
  iintro ⟨HO, HaR11, #HrR11_1, Hs11⟩
  sl_exec_parts
  -- the right neighbour's credit 0 for the right-going ring
  ihave #HIk0 := (knows_cell m Kn ιs (c, (8 : Fin 11))) $$ Hk
  iapply (wp_capwait m c 0 0 ∅ (κ := Kn (c, 8))) $$ [HcK00 HO HaK0]
  · isplitr; · iexact HIk0
    isplitl [HcK00]; · iexact HcK00
    isplitl [HO]; · iexact HO
    isplitr
    · iapply (mayWait_kind (F := F) c (.reg (capS 0)) 0 6 (by rw [kindOf_cap]; decide) (by rw [kindOf_cap]; decide)); iexact Hlev
    isplitl [HaK0]; · iexact HaK0
    unfold harvest; rw [bigSep_empty]; iempintro
  iintro %S00 ⟨HO, HaK0, #Hhv00, #Hg00⟩
  unfold grantFact
  icases Hg00 with ⟨#HrelD00, #HrD00⟩
  sl_exec_parts
  -- hop 1 of the right-going ring: slot 1 to the right neighbour's slot 0
  have e01 : sentV m 0 (2 * 0 + (1 - ((1 : Fin 2) : ℕ))) (upR 0 c) = sentV m 0 (2 * 0 + ((1 : Fin 2) : ℕ)) c := (sentV_succ m 0 0 c).symm
  ihave Hs01 := (Entails.of_eq (congrArg (slotAt (F := F) c 0 1) e01)) $$ Hs01
  ihave Hh := (slot_halve (F := F) c 0 1 _) $$ Hs01
  icases Hh with ⟨Hl01, Hr01⟩
  unfold slotLent
  icases Hl01 with ⟨%fs01, %hfs01, Hl01⟩
  icases Hr01 with ⟨%fr01, %hfr01, Hr01⟩
  ihave #HIs01_1 := (knows_cell m Kn ιs (c, (1 : Fin 11))) $$ Hk
  ihave #HIrD00_1 := (knows_cell m Kn ιs (rgt c, (2 : Fin 11))) $$ Hk
  ihave #HIslD00_1 := (knows_slot m Kn ιs ((rgt c, (0 : Fin 2), (0 : Fin 2)) : KS)) $$ Hk
  ihave #HrS01_r0 := (knows_reached m Kn ιs (c, (1 : Fin 11))) $$ Hk
  iapply (wp_hop m c 0 1 0 rfl 0 (by decide) (by decide) 1 _ (dev7_eq c _) fs01 hfs01 (owedFrom c 7) rfl (ιs ((rgt c, (0 : Fin 2), (0 : Fin 2)) : KS)) 1) $$ [Hl01 Hw001 HO HtS010 HtR000]
  · isplitr; · iexact HIs01_1
    isplitr; · iexact HIrD00_1
    isplitl [Hl01]; · iexact Hl01
    isplitr; · iexact HIslD00_1
    isplitr; · iexact HrelD00
    isplitl [Hw001]; · iexact Hw001
    isplitl [HO]; · iexact HO
    isplitl [HtS010]; · iexact HtS010
    isplitr; · iexact HrS01_r0
    isplitl [HtR000]; · iexact HtR000
    iexact HrD00
  iintro ⟨HcS01, HO⟩
  sl_exec_parts
  -- the left neighbour's credit 0 for the left-going ring
  ihave #HIk1 := (knows_cell m Kn ιs (c, (9 : Fin 11))) $$ Hk
  iapply (wp_capwait m c 1 0 ∅ (κ := Kn (c, 9))) $$ [HcK10 HO HaK1]
  · isplitr; · iexact HIk1
    isplitl [HcK10]; · iexact HcK10
    isplitl [HO]; · iexact HO
    isplitr
    · iapply (mayWait_kind (F := F) c (.reg (capS 1)) 0 7 (by rw [kindOf_cap]; decide) (by rw [kindOf_cap]; decide)); iexact Hlev
    isplitl [HaK1]; · iexact HaK1
    unfold harvest; rw [bigSep_empty]; iempintro
  iintro %S10 ⟨HO, HaK1, #Hhv10, #Hg10⟩
  unfold grantFact
  icases Hg10 with ⟨#HrelD10, #HrD10⟩
  sl_exec_parts
  -- hop 1 of the left-going ring: slot 1 to the left neighbour's slot 0
  have e11 : sentV m 1 (2 * 0 + (1 - ((1 : Fin 2) : ℕ))) (upR 1 c) = sentV m 1 (2 * 0 + ((1 : Fin 2) : ℕ)) c := (sentV_succ m 1 0 c).symm
  ihave Hs11 := (Entails.of_eq (congrArg (slotAt (F := F) c 1 1) e11)) $$ Hs11
  ihave Hh := (slot_halve (F := F) c 1 1 _) $$ Hs11
  icases Hh with ⟨Hl11, Hr11⟩
  unfold slotLent
  icases Hl11 with ⟨%fs11, %hfs11, Hl11⟩
  icases Hr11 with ⟨%fr11, %hfr11, Hr11⟩
  ihave #HIs11_1 := (knows_cell m Kn ιs (c, (5 : Fin 11))) $$ Hk
  ihave #HIrD10_1 := (knows_cell m Kn ιs (lft c, (6 : Fin 11))) $$ Hk
  ihave #HIslD10_1 := (knows_slot m Kn ιs ((lft c, (1 : Fin 2), (0 : Fin 2)) : KS)) $$ Hk
  ihave #HrS11_r0 := (knows_reached m Kn ιs (c, (5 : Fin 11))) $$ Hk
  iapply (wp_hop m c 1 1 0 rfl 0 (by decide) (by decide) 1 _ (dev8_eq c _) fs11 hfs11 (owedFrom c 8) rfl (ιs ((lft c, (1 : Fin 2), (0 : Fin 2)) : KS)) 1) $$ [Hl11 Hw101 HO HtS110 HtR100]
  · isplitr; · iexact HIs11_1
    isplitr; · iexact HIrD10_1
    isplitl [Hl11]; · iexact Hl11
    isplitr; · iexact HIslD10_1
    isplitr; · iexact HrelD10
    isplitl [Hw101]; · iexact Hw101
    isplitl [HO]; · iexact HO
    isplitl [HtS110]; · iexact HtS110
    isplitr; · iexact HrS11_r0
    isplitl [HtR100]; · iexact HtR100
    iexact HrD10
  iintro ⟨HcS11, HO⟩
  -- the two blocks received on step 0 are accumulated
  sl_exec_parts
  -- the accumulators after visits 1 and 2, named
  have hjoin1 : (slotM 0 1).view.read (Elt F) fr01 = joinKV (kvAt m c 1).1 (kvAt m c 1).2 := hfr01
  have hjoin2 : (slotM 1 1).view.read (Elt F) fr11 = joinKV (kvAt m c 2).1 (kvAt m c 2).2 := hfr11
  have hk1 : sound_body.sl.r_7 fr01 = (kvAt m c 1).1 := by
    unfold sound_body.sl.r_7
    exact (congrArg k0_pay28 (half_read_key 0 1 fr01 _ _ hjoin1)).trans (down_up _ _)
  have hv1 : sound_body.sl.r_8 fr01 = (kvAt m c 1).2 := by
    unfold sound_body.sl.r_8
    exact (congrArg k0_pay29 (half_read_val 0 1 fr01 _ _ hjoin1)).trans (down_up _ _)
  have hk2 : sound_body.sl.r_11 fr11 = (kvAt m c 2).1 := by
    unfold sound_body.sl.r_11
    exact (congrArg k0_pay43 (half_read_key 1 1 fr11 _ _ hjoin2)).trans (down_up _ _)
  have hv2 : sound_body.sl.r_12 fr11 = (kvAt m c 2).2 := by
    unfold sound_body.sl.r_12
    exact (congrArg k0_pay44 (half_read_val 1 1 fr11 _ _ hjoin2)).trans (down_up _ _)
  have hacc3 : accAt m c 3 = Cert.Kernel.AttnKer.accumulate (qAt m c) (kvAt m c 2).1 (kvAt m c 2).2
      (Cert.Kernel.AttnKer.accumulate (qAt m c) (kvAt m c 1).1 (kvAt m c 1).2 ((accAt m c 1).1, (accAt m c 1).2)) :=
    (accAt_succ m c 2).trans (congrArg (Cert.Kernel.AttnKer.accumulate (qAt m c) (kvAt m c 2).1 (kvAt m c 2).2) (accAt_succ m c 1))
  have hL3 : (Memref.whole cc0_scratch3).view.writes (Elt F) (accAt m c 1).1 (sound_body.sl.Hs3_8 m c f0 fr01 fr11) = (accAt m c 3).1 := by
    rw [hacc3]
    unfold sound_body.sl.Hs3_8 sound_body.sl.Hs3_7 sound_body.sl.Hs3_6 sound_body.sl.Hs3_5_1 sound_body.sl.Hs3_4_1 sound_body.sl.Hs3_3_1 sound_body.sl.Hs3_1
    refine Cert.Kernel.AttnKer.writes_acc2_fst (qAt m c) (kvAt m c 1).1 (kvAt m c 1).2 (kvAt m c 2).1 (kvAt m c 2).2
      (accAt m c 1).1 (accAt m c 1).2 _ _ _ _ _ _ _ _ ?_ ?_ ?_ ?_ ?_ ?_ ?_ ?_
    all_goals (first | (rw [← hq, ← hk1]; rfl) | (rw [← hq, ← hk2]; rfl))
  have hA3 : (Memref.whole cc0_scratch2).view.writes (Elt F) (accAt m c 1).2 (sound_body.sl.Hs2_8 m c f0 fr01 fr11) = (accAt m c 3).2 := by
    rw [hacc3]
    unfold sound_body.sl.Hs2_8 sound_body.sl.Hs2_7 sound_body.sl.Hs2_6 sound_body.sl.Hs2_5_1 sound_body.sl.Hs2_4_1 sound_body.sl.Hs2_3_1 sound_body.sl.Hs2_1
    refine Cert.Kernel.AttnKer.writes_acc2_snd (qAt m c) (kvAt m c 1).1 (kvAt m c 1).2 (kvAt m c 2).1 (kvAt m c 2).2
      (accAt m c 1).1 (accAt m c 1).2 _ _ _ _ _ _ _ _ ?_ ?_ ?_ ?_ ?_ ?_ ?_ ?_
    all_goals (first | (rw [← hq, ← hk1, ← hv1]; rfl) | (rw [← hq, ← hk2, ← hv2]; rfl))
  ihave Hs3 := (Entails.of_eq (congrArg (fun X => (View.loc (c : Thread nD τ) (Memref.whole cc0_scratch3).view ↦{fullShare} X : sProp 𝕄)) hL3)) $$ Hs3
  ihave Hs2 := (Entails.of_eq (congrArg (fun X => (View.loc (c : Thread nD τ) (Memref.whole cc0_scratch2).view ↦{fullShare} X : sProp 𝕄)) hA3)) $$ Hs2
  -- the right-going copy 1 has been read out: the lent half comes back
  iapply (wp_sendwait m c 0 1 0 (by decide) 1 (Ncr_slot 0 1) (κ := Kn (c, 1))) $$ [HcS01 HO HaS01]
  · isplitr; · iexact HIs01_1
    isplitl [HcS01]; · iexact HcS01
    isplitl [HO]; · iexact HO
    isplitr
    · iapply (mayWait_kind (F := F) c (.dma (sendS 0 1)) 1 8 (by rw [kindOf_send]; decide) (by rw [kindOf_send]; decide)); iexact Hlev
    iexact HaS01
  iintro ⟨HO, HaS01, #HrS01_1x, Hl01⟩
  ihave Hs01 := (slot_rejoin' (F := F) c 0 1 _) $$ [Hl01 Hr01]
  · isplitl [Hl01]; · iexact Hl01
    iexists fr01; iexact Hr01
  ihave #HIown01_1 := (knows_slot m Kn ιs ((c, (0 : Fin 2), (1 : Fin 2)) : KS)) $$ Hk
  imod (release_after (F := F) c 0 1 _ (ιs ((c, (0 : Fin 2), (1 : Fin 2)) : KS)) 1) $$ [Hrd01 Hs01] with ⟨Hrd01, #Hrel01_2⟩
  · isplitr; · iexact HIown01_1
    isplitl [Hrd01]; · iexact Hrd01
    iexact Hs01
  sl_exec_parts
  rw [dev9_eq]
  -- credit 1 to the left neighbour: slot 1 of the right-going ring is free
  ihave #HIkU0u1 := (knows_cell m Kn ιs (lft c, (8 : Fin 11))) $$ Hk
  ihave #HrKU0u1 := (knows_reached m Kn ιs (lft c, (8 : Fin 11))) $$ Hk
  iapply (wp_grant m c 0 1 (by decide) (by decide : 1 = (1#32).toNat) (owedFrom c 9) rfl (κ := Kn (lft c, 8))) $$ [HO HtK01]
  · isplitr; · iexact HIkU0u1
    isplitl [HO]; · iexact HO
    isplitl [HtK01]; · iexact HtK01
    isplitr
    · unfold grantsUpTo; unfold grantsUpTo grantFact
      isplitr
      · isplitr; · iexact Hrel00
        iexact HrR00
      · isplitr; · iexact Hrel01_2
        iexact HrR01_1
    iexact HrKU0u1
  iintro HO
  sl_exec_parts
  -- the left neighbour's copy 1 has landed in slot 0
  ihave #HIr00 := (knows_cell m Kn ιs (c, (2 : Fin 11))) $$ Hk
  iapply (wp_recvwait m c 0 0 0 (by decide) 1 (Ncr_slot 0 0) (κ := Kn (c, 2))) $$ [HcR01 HO HaR00]
  · isplitr; · iexact HIr00
    isplitl [HcR01]; · iexact HcR01
    isplitl [HO]; · iexact HO
    isplitr
    · iapply (mayWait_kind (F := F) c (.dma (recvS 0 0)) 1 9 (by rw [kindOf_recv]; decide) (by rw [kindOf_recv]; decide)); iexact Hlev
    iexact HaR00
  iintro ⟨HO, HaR00, #HrR00_1, Hs00⟩
  sl_exec_parts
  -- the left-going copy 1 has been read out: the lent half comes back
  iapply (wp_sendwait m c 1 1 0 (by decide) 1 (Ncr_slot 1 1) (κ := Kn (c, 5))) $$ [HcS11 HO HaS11]
  · isplitr; · iexact HIs11_1
    isplitl [HcS11]; · iexact HcS11
    isplitl [HO]; · iexact HO
    isplitr
    · iapply (mayWait_kind (F := F) c (.dma (sendS 1 1)) 1 9 (by rw [kindOf_send]; decide) (by rw [kindOf_send]; decide)); iexact Hlev
    iexact HaS11
  iintro ⟨HO, HaS11, #HrS11_1x, Hl11⟩
  ihave Hs11 := (slot_rejoin' (F := F) c 1 1 _) $$ [Hl11 Hr11]
  · isplitl [Hl11]; · iexact Hl11
    iexists fr11; iexact Hr11
  ihave #HIown11_1 := (knows_slot m Kn ιs ((c, (1 : Fin 2), (1 : Fin 2)) : KS)) $$ Hk
  imod (release_after (F := F) c 1 1 _ (ιs ((c, (1 : Fin 2), (1 : Fin 2)) : KS)) 1) $$ [Hrd11 Hs11] with ⟨Hrd11, #Hrel11_2⟩
  · isplitr; · iexact HIown11_1
    isplitl [Hrd11]; · iexact Hrd11
    iexact Hs11
  sl_exec_parts
  rw [dev10_eq]
  -- credit 1 to the right neighbour: slot 1 of the left-going ring is free
  ihave #HIkU1u1 := (knows_cell m Kn ιs (rgt c, (9 : Fin 11))) $$ Hk
  ihave #HrKU1u1 := (knows_reached m Kn ιs (rgt c, (9 : Fin 11))) $$ Hk
  iapply (wp_grant m c 1 1 (by decide) (by decide : 1 = (1#32).toNat) (owedFrom c 10) rfl (κ := Kn (rgt c, 9))) $$ [HO HtK11]
  · isplitr; · iexact HIkU1u1
    isplitl [HO]; · iexact HO
    isplitl [HtK11]; · iexact HtK11
    isplitr
    · unfold grantsUpTo; unfold grantsUpTo grantFact
      isplitr
      · isplitr; · iexact Hrel10
        iexact HrR10
      · isplitr; · iexact Hrel11_2
        iexact HrR11_1
    iexact HrKU1u1
  iintro HO
  sl_exec_parts
  -- the right neighbour's copy 1 has landed in slot 0
  ihave #HIr10 := (knows_cell m Kn ιs (c, (6 : Fin 11))) $$ Hk
  iapply (wp_recvwait m c 1 0 0 (by decide) 1 (Ncr_slot 1 0) (κ := Kn (c, 6))) $$ [HcR11 HO HaR10]
  · isplitr; · iexact HIr10
    isplitl [HcR11]; · iexact HcR11
    isplitl [HO]; · iexact HO
    isplitr
    · iapply (mayWait_kind (F := F) c (.dma (recvS 1 0)) 1 10 (by rw [kindOf_recv]; decide) (by rw [kindOf_recv]; decide)); iexact Hlev
    iexact HaR10
  iintro ⟨HO, HaR10, #HrR10_1, Hs10⟩
  sl_exec_parts
  -- the right neighbour's credit 1 for the right-going ring
  iapply (wp_capwait m c 0 1 S00 (κ := Kn (c, 8))) $$ [HcK01 HO HaK0]
  · isplitr; · iexact HIk0
    isplitl [HcK01]; · iexact HcK01
    isplitl [HO]; · iexact HO
    isplitr
    · iapply (mayWait_kind (F := F) c (.reg (capS 0)) 1 10 (by rw [kindOf_cap]; decide) (by rw [kindOf_cap]; decide)); iexact Hlev
    isplitl [HaK0]; · iexact HaK0
    iexact Hhv00
  iintro %S01 ⟨HO, HaK0, #Hhv01, #Hg01⟩
  unfold grantFact
  icases Hg01 with ⟨#HrelD01, #HrD01⟩
  sl_exec_parts
  -- hop 2 of the right-going ring: slot 0 to the right neighbour's slot 1
  have e02 : sentV m 0 (2 * 0 + (1 - ((0 : Fin 2) : ℕ))) (upR 0 c) = sentV m 0 (2 * 1 + ((0 : Fin 2) : ℕ)) c := (sentV_succ m 0 1 c).symm
  ihave Hs00 := (Entails.of_eq (congrArg (slotAt (F := F) c 0 0) e02)) $$ Hs00
  ihave Hh := (slot_halve (F := F) c 0 0 _) $$ Hs00
  icases Hh with ⟨Hl00, Hr00⟩
  unfold slotLent
  icases Hl00 with ⟨%fs02, %hfs02, Hl00⟩
  icases Hr00 with ⟨%fr02, %hfr02, Hr00⟩
  ihave #HIs00_2 := (knows_cell m Kn ιs (c, (0 : Fin 11))) $$ Hk
  ihave #HIrD01_2 := (knows_cell m Kn ιs (rgt c, (3 : Fin 11))) $$ Hk
  ihave #HIslD01_2 := (knows_slot m Kn ιs ((rgt c, (0 : Fin 2), (1 : Fin 2)) : KS)) $$ Hk
  iapply (wp_hop m c 0 0 1 rfl 1 (by decide) (by decide) 2 _ (dev11_eq c _) fs02 hfs02 (owedFrom c 11) rfl (ιs ((rgt c, (0 : Fin 2), (1 : Fin 2)) : KS)) 2) $$ [Hl00 Hw012 HO HtS001 HtR011]
  · isplitr; · iexact HIs00_2
    isplitr; · iexact HIrD01_2
    isplitl [Hl00]; · iexact Hl00
    isplitr; · iexact HIslD01_2
    isplitr; · iexact HrelD01
    isplitl [Hw012]; · iexact Hw012
    isplitl [HO]; · iexact HO
    isplitl [HtS001]; · iexact HtS001
    isplitr; · iexact HrS00_1x
    isplitl [HtR011]; · iexact HtR011
    iexact HrD01
  iintro ⟨HcS00, HO⟩
  sl_exec_parts
  -- the left neighbour's credit 1 for the left-going ring
  iapply (wp_capwait_last m c 1 1 (by decide) S10 (κ := Kn (c, 9))) $$ [HcK11 HO HaK1]
  · isplitr; · iexact HIk1
    isplitl [HcK11]; · iexact HcK11
    isplitl [HO]; · iexact HO
    isplitr
    · iapply (mayWait_kind (F := F) c (.reg (capS 1)) 1 11 (by rw [kindOf_cap]; decide) (by rw [kindOf_cap]; decide)); iexact Hlev
    isplitl [HaK1]; · iexact HaK1
    iexact Hhv10
  iintro ⟨HO, HaK1, #HrK1_1, #Hg11⟩
  unfold grantFact
  icases Hg11 with ⟨#HrelD11, #HrD11⟩
  sl_exec_parts
  -- hop 2 of the left-going ring: slot 0 to the left neighbour's slot 1
  have e12 : sentV m 1 (2 * 0 + (1 - ((0 : Fin 2) : ℕ))) (upR 1 c) = sentV m 1 (2 * 1 + ((0 : Fin 2) : ℕ)) c := (sentV_succ m 1 1 c).symm
  ihave Hs10 := (Entails.of_eq (congrArg (slotAt (F := F) c 1 0) e12)) $$ Hs10
  ihave Hh := (slot_halve (F := F) c 1 0 _) $$ Hs10
  icases Hh with ⟨Hl10, Hr10⟩
  unfold slotLent
  icases Hl10 with ⟨%fs12, %hfs12, Hl10⟩
  icases Hr10 with ⟨%fr12, %hfr12, Hr10⟩
  ihave #HIs10_2 := (knows_cell m Kn ιs (c, (4 : Fin 11))) $$ Hk
  ihave #HIrD11_2 := (knows_cell m Kn ιs (lft c, (7 : Fin 11))) $$ Hk
  ihave #HIslD11_2 := (knows_slot m Kn ιs ((lft c, (1 : Fin 2), (1 : Fin 2)) : KS)) $$ Hk
  iapply (wp_hop m c 1 0 1 rfl 1 (by decide) (by decide) 2 _ (dev12_eq c _) fs12 hfs12 (owedFrom c 12) rfl (ιs ((lft c, (1 : Fin 2), (1 : Fin 2)) : KS)) 2) $$ [Hl10 Hw112 HO HtS101 HtR111]
  · isplitr; · iexact HIs10_2
    isplitr; · iexact HIrD11_2
    isplitl [Hl10]; · iexact Hl10
    isplitr; · iexact HIslD11_2
    isplitr; · iexact HrelD11
    isplitl [Hw112]; · iexact Hw112
    isplitl [HO]; · iexact HO
    isplitl [HtS101]; · iexact HtS101
    isplitr; · iexact HrS10_1x
    isplitl [HtR111]; · iexact HtR111
    iexact HrD11
  iintro ⟨HcS10, HO⟩
  -- the two blocks received on step 1 are accumulated
  sl_exec_parts
  -- the accumulators after visits 3 and 4, named
  have hjoin3 : (slotM 0 0).view.read (Elt F) fr02 = joinKV (kvAt m c 3).1 (kvAt m c 3).2 := hfr02
  have hjoin4 : (slotM 1 0).view.read (Elt F) fr12 = joinKV (kvAt m c 4).1 (kvAt m c 4).2 := hfr12
  have hk3 : sound_body.sl.r_16 fr02 = (kvAt m c 3).1 := by
    unfold sound_body.sl.r_16
    exact (congrArg k0_pay58 (half_read_key 0 0 fr02 _ _ hjoin3)).trans (down_up _ _)
  have hv3 : sound_body.sl.r_17 fr02 = (kvAt m c 3).2 := by
    unfold sound_body.sl.r_17
    exact (congrArg k0_pay59 (half_read_val 0 0 fr02 _ _ hjoin3)).trans (down_up _ _)
  have hk4 : sound_body.sl.r_20 fr12 = (kvAt m c 4).1 := by
    unfold sound_body.sl.r_20
    exact (congrArg k0_pay74 (half_read_key 1 0 fr12 _ _ hjoin4)).trans (down_up _ _)
  have hv4 : sound_body.sl.r_21 fr12 = (kvAt m c 4).2 := by
    unfold sound_body.sl.r_21
    exact (congrArg k0_pay75 (half_read_val 1 0 fr12 _ _ hjoin4)).trans (down_up _ _)
  have hacc5 : accAt m c 5 = Cert.Kernel.AttnKer.accumulate (qAt m c) (kvAt m c 4).1 (kvAt m c 4).2
      (Cert.Kernel.AttnKer.accumulate (qAt m c) (kvAt m c 3).1 (kvAt m c 3).2 ((accAt m c 3).1, (accAt m c 3).2)) :=
    (accAt_succ m c 4).trans (congrArg (Cert.Kernel.AttnKer.accumulate (qAt m c) (kvAt m c 4).1 (kvAt m c 4).2) (accAt_succ m c 3))
  have hL5 : (Memref.whole cc0_scratch3).view.writes (Elt F) (accAt m c 3).1 (sound_body.sl.Hs3_8_1 m c f0 fr02 fr12) = (accAt m c 5).1 := by
    rw [hacc5]
    unfold sound_body.sl.Hs3_8_1 sound_body.sl.Hs3_7_1 sound_body.sl.Hs3_6_1 sound_body.sl.Hs3_5_2 sound_body.sl.Hs3_4_2 sound_body.sl.Hs3_3_2 sound_body.sl.Hs3_1_1
    refine Cert.Kernel.AttnKer.writes_acc2_fst (qAt m c) (kvAt m c 3).1 (kvAt m c 3).2 (kvAt m c 4).1 (kvAt m c 4).2
      (accAt m c 3).1 (accAt m c 3).2 _ _ _ _ _ _ _ _ ?_ ?_ ?_ ?_ ?_ ?_ ?_ ?_
    all_goals (first | (rw [← hq, ← hk3]; rfl) | (rw [← hq, ← hk4]; rfl))
  have hA5 : (Memref.whole cc0_scratch2).view.writes (Elt F) (accAt m c 3).2 (⟨Rect.unit (s := S2048x256) ![1536, 0] S512x256.size inb_S2048x256_S512x256_1536_0, @sound_body.sl.v565 F _ m c f0 fr02 fr12⟩ :: sound_body.sl.Hs2_7_1 m c f0 fr02 fr12) = (accAt m c 5).2 := by
    rw [hacc5]
    unfold sound_body.sl.v565 sound_body.sl.Hs2_7_1 sound_body.sl.Hs2_6_1 sound_body.sl.Hs2_5_2 sound_body.sl.Hs2_4_2 sound_body.sl.Hs2_2_1
    refine Cert.Kernel.AttnKer.writes_acc2_snd (qAt m c) (kvAt m c 3).1 (kvAt m c 3).2 (kvAt m c 4).1 (kvAt m c 4).2
      (accAt m c 3).1 (accAt m c 3).2 _ _ _ _ _ _ _ _ ?_ ?_ ?_ ?_ ?_ ?_ ?_ ?_
    all_goals (first | (rw [← hq, ← hk3, ← hv3]; rfl) | (rw [← hq, ← hk4, ← hv4]; rfl))
  ihave Hs3 := (Entails.of_eq (congrArg (fun X => (View.loc (c : Thread nD τ) (Memref.whole cc0_scratch3).view ↦{fullShare} X : sProp 𝕄)) hL5)) $$ Hs3
  ihave Hs2 := (Entails.of_eq (congrArg (fun X => (View.loc (c : Thread nD τ) (Memref.whole cc0_scratch2).view ↦{fullShare} X : sProp 𝕄)) hA5)) $$ Hs2
  -- the right-going copy 2 has been read out: the lent half comes back
  iapply (wp_sendwait m c 0 0 1 (by decide) 2 (Ncr_slot 0 0) (κ := Kn (c, 0))) $$ [HcS00 HO HaS00]
  · isplitr; · iexact HIs00_2
    isplitl [HcS00]; · iexact HcS00
    isplitl [HO]; · iexact HO
    isplitr
    · iapply (mayWait_kind (F := F) c (.dma (sendS 0 0)) 2 12 (by rw [kindOf_send]; decide) (by rw [kindOf_send]; decide)); iexact Hlev
    iexact HaS00
  iintro ⟨HO, HaS00, #HrS00_2x, Hl00⟩
  ihave Hs00 := (slot_rejoin' (F := F) c 0 0 _) $$ [Hl00 Hr00]
  · isplitl [Hl00]; · iexact Hl00
    iexists fr02; iexact Hr00
  ihave #HIown00_2 := (knows_slot m Kn ιs ((c, (0 : Fin 2), (0 : Fin 2)) : KS)) $$ Hk
  imod (release_after (F := F) c 0 0 _ (ιs ((c, (0 : Fin 2), (0 : Fin 2)) : KS)) 1) $$ [Hrd00 Hs00] with ⟨Hrd00, #Hrel00_2⟩
  · isplitr; · iexact HIown00_2
    isplitl [Hrd00]; · iexact Hrd00
    iexact Hs00
  sl_exec_parts
  rw [dev13_eq]
  -- credit 2 to the left neighbour: slot 0 of the right-going ring is free
  ihave #HIkU0u2 := (knows_cell m Kn ιs (lft c, (8 : Fin 11))) $$ Hk
  ihave #HrKU0u2 := (knows_reached m Kn ιs (lft c, (8 : Fin 11))) $$ Hk
  iapply (wp_grant m c 0 2 (by decide) (by decide : 1 = (1#32).toNat) (owedFrom c 13) rfl (κ := Kn (lft c, 8))) $$ [HO HtK02]
  · isplitr; · iexact HIkU0u2
    isplitl [HO]; · iexact HO
    isplitl [HtK02]; · iexact HtK02
    isplitr
    · unfold grantsUpTo; unfold grantsUpTo; unfold grantsUpTo grantFact
      isplitr
      · isplitr
        · isplitr; · iexact Hrel00
          iexact HrR00
        · isplitr; · iexact Hrel01_2
          iexact HrR01_1
      · isplitr; · iexact Hrel00_2
        iexact HrR00_1
    iexact HrKU0u2
  iintro HO
  sl_exec_parts
  -- the left neighbour's copy 2 has landed in slot 1
  iapply (wp_recvwait m c 0 1 1 (by decide) 2 (Ncr_slot 0 1) (κ := Kn (c, 3))) $$ [HcR02 HO HaR01]
  · isplitr; · iexact HIr01
    isplitl [HcR02]; · iexact HcR02
    isplitl [HO]; · iexact HO
    isplitr
    · iapply (mayWait_kind (F := F) c (.dma (recvS 0 1)) 2 13 (by rw [kindOf_recv]; decide) (by rw [kindOf_recv]; decide)); iexact Hlev
    iexact HaR01
  iintro ⟨HO, HaR01, #HrR01_2, Hs01⟩
  sl_exec_parts
  -- the left-going copy 2 has been read out: the lent half comes back
  iapply (wp_sendwait m c 1 0 1 (by decide) 2 (Ncr_slot 1 0) (κ := Kn (c, 4))) $$ [HcS10 HO HaS10]
  · isplitr; · iexact HIs10_2
    isplitl [HcS10]; · iexact HcS10
    isplitl [HO]; · iexact HO
    isplitr
    · iapply (mayWait_kind (F := F) c (.dma (sendS 1 0)) 2 13 (by rw [kindOf_send]; decide) (by rw [kindOf_send]; decide)); iexact Hlev
    iexact HaS10
  iintro ⟨HO, HaS10, #HrS10_2x, Hl10⟩
  ihave Hs10 := (slot_rejoin' (F := F) c 1 0 _) $$ [Hl10 Hr10]
  · isplitl [Hl10]; · iexact Hl10
    iexists fr12; iexact Hr10
  sl_exec_parts
  -- the right neighbour's copy 2 has landed in slot 1
  iapply (wp_recvwait m c 1 1 1 (by decide) 2 (Ncr_slot 1 1) (κ := Kn (c, 7))) $$ [HcR12 HO HaR11]
  · isplitr; · iexact HIr11
    isplitl [HcR12]; · iexact HcR12
    isplitl [HO]; · iexact HO
    isplitr
    · iapply (mayWait_kind (F := F) c (.dma (recvS 1 1)) 2 13 (by rw [kindOf_recv]; decide) (by rw [kindOf_recv]; decide)); iexact Hlev
    iexact HaR11
  iintro ⟨HO, HaR11, #HrR11_2, Hs11⟩
  sl_exec_parts
  -- the right neighbour's credit 2 for the right-going ring
  iapply (wp_capwait_last m c 0 2 (by decide) S01 (κ := Kn (c, 8))) $$ [HcK02 HO HaK0]
  · isplitr; · iexact HIk0
    isplitl [HcK02]; · iexact HcK02
    isplitl [HO]; · iexact HO
    isplitr
    · iapply (mayWait_kind (F := F) c (.reg (capS 0)) 2 13 (by rw [kindOf_cap]; decide) (by rw [kindOf_cap]; decide)); iexact Hlev
    isplitl [HaK0]; · iexact HaK0
    iexact Hhv01
  iintro ⟨HO, HaK0, #HrK0_1, #Hg02⟩
  unfold grantFact
  icases Hg02 with ⟨#HrelD02, #HrD02⟩
  sl_exec_parts
  -- hop 3 of the right-going ring: slot 1 to the right neighbour's slot 0
  have e03 : sentV m 0 (2 * 1 + (1 - ((1 : Fin 2) : ℕ))) (upR 0 c) = sentV m 0 (2 * 1 + ((1 : Fin 2) : ℕ)) c := (sentV_succ m 0 2 c).symm
  ihave Hs01 := (Entails.of_eq (congrArg (slotAt (F := F) c 0 1) e03)) $$ Hs01
  ihave Hh := (slot_halve (F := F) c 0 1 _) $$ Hs01
  icases Hh with ⟨Hl01, Hr01⟩
  unfold slotLent
  icases Hl01 with ⟨%fs03, %hfs03, Hl01⟩
  icases Hr01 with ⟨%fr03, %hfr03, Hr01⟩
  ihave #HIs01_3 := (knows_cell m Kn ιs (c, (1 : Fin 11))) $$ Hk
  ihave #HIrD00_3 := (knows_cell m Kn ιs (rgt c, (2 : Fin 11))) $$ Hk
  ihave #HIslD00_3 := (knows_slot m Kn ιs ((rgt c, (0 : Fin 2), (0 : Fin 2)) : KS)) $$ Hk
  iapply (wp_hop m c 0 1 0 rfl 1 (by decide) (by decide) 3 _ (dev14_eq c _) fs03 hfs03 (owedFrom c 14) rfl (ιs ((rgt c, (0 : Fin 2), (0 : Fin 2)) : KS)) 2) $$ [Hl01 Hw002 HO HtS011 HtR001]
  · isplitr; · iexact HIs01_3
    isplitr; · iexact HIrD00_3
    isplitl [Hl01]; · iexact Hl01
    isplitr; · iexact HIslD00_3
    isplitr; · iexact HrelD02
    isplitl [Hw002]; · iexact Hw002
    isplitl [HO]; · iexact HO
    isplitl [HtS011]; · iexact HtS011
    isplitr; · iexact HrS01_1x
    isplitl [HtR001]; · iexact HtR001
    iexact HrD02
  iintro ⟨HcS01, HO⟩
  -- nothing is owed from here on; the credits of the last two waits are set aside so that each wait is taken in its turn
  ihave HcS01 := (Entails.of_eq (aside_eq (F := F) _).symm) $$ HcS01
  ihave HcR03 := (Entails.of_eq (aside_eq (F := F) _).symm) $$ HcR03
  -- the two blocks received on step 2 are accumulated (the left-going ring's is read where it landed)
  unfold slotAt
  icases Hs11 with ⟨%gL3, %hgL3, Hs11⟩
  sl_exec_parts
  -- the accumulators after visits 5 and 6, named
  have hjoin5 : (slotM 0 1).view.read (Elt F) fr03 = joinKV (kvAt m c 5).1 (kvAt m c 5).2 := hfr03
  have hjoin6 : (slotM 1 1).view.read (Elt F) gL3 = joinKV (kvAt m c 6).1 (kvAt m c 6).2 := (hgL3.trans (sentV_succ m 1 2 c).symm)
  have hk5 : sound_body.sl.r_26 fr03 = (kvAt m c 5).1 := by
    unfold sound_body.sl.r_26 sound_body.sl.r_25
    exact (congrArg k0_pay90 (half_read_key 0 1 fr03 _ _ hjoin5)).trans (down_up _ _)
  have hv5 : sound_body.sl.r_27 fr03 = (kvAt m c 5).2 := by
    unfold sound_body.sl.r_27
    exact (congrArg k0_pay91 (half_read_val 0 1 fr03 _ _ hjoin5)).trans (down_up _ _)
  have hk6 : sound_body.sl.r_31 gL3 = (kvAt m c 6).1 := by
    unfold sound_body.sl.r_31
    exact (congrArg k0_pay105 (half_read_key 1 1 gL3 _ _ hjoin6)).trans (down_up _ _)
  have hv6 : sound_body.sl.r_32 gL3 = (kvAt m c 6).2 := by
    unfold sound_body.sl.r_32
    exact (congrArg k0_pay106 (half_read_val 1 1 gL3 _ _ hjoin6)).trans (down_up _ _)
  have hacc7 : accAt m c 7 = Cert.Kernel.AttnKer.accumulate (qAt m c) (kvAt m c 6).1 (kvAt m c 6).2
      (Cert.Kernel.AttnKer.accumulate (qAt m c) (kvAt m c 5).1 (kvAt m c 5).2 ((accAt m c 5).1, (accAt m c 5).2)) :=
    (accAt_succ m c 6).trans (congrArg (Cert.Kernel.AttnKer.accumulate (qAt m c) (kvAt m c 6).1 (kvAt m c 6).2) (accAt_succ m c 5))
  have hL7 : (Memref.whole cc0_scratch3).view.writes (Elt F) (accAt m c 5).1 (sound_body.sl.Hs3_8_2 m c f0 fr03 gL3) = (accAt m c 7).1 := by
    rw [hacc7]
    unfold sound_body.sl.Hs3_8_2 sound_body.sl.Hs3_7_2 sound_body.sl.Hs3_6_2 sound_body.sl.Hs3_5_3 sound_body.sl.Hs3_4_3 sound_body.sl.Hs3_3_3 sound_body.sl.Hs3_2_1
    try unfold sound_body.sl.Hs3_1_2
    refine Cert.Kernel.AttnKer.writes_acc2_fst (qAt m c) (kvAt m c 5).1 (kvAt m c 5).2 (kvAt m c 6).1 (kvAt m c 6).2
      (accAt m c 5).1 (accAt m c 5).2 _ _ _ _ _ _ _ _ ?_ ?_ ?_ ?_ ?_ ?_ ?_ ?_
    all_goals (first | (rw [← hq, ← hk5]; rfl) | (rw [← hq, ← hk6]; rfl))
  have hA7 : (Memref.whole cc0_scratch2).view.writes (Elt F) (accAt m c 5).2 (sound_body.sl.Hs2_8_1 m c f0 fr03 gL3) = (accAt m c 7).2 := by
    rw [hacc7]
    unfold sound_body.sl.Hs2_8_1 sound_body.sl.Hs2_7_2 sound_body.sl.Hs2_6_2 sound_body.sl.Hs2_5_3 sound_body.sl.Hs2_4_3 sound_body.sl.Hs2_3_2 sound_body.sl.Hs2_1_1
    refine Cert.Kernel.AttnKer.writes_acc2_snd (qAt m c) (kvAt m c 5).1 (kvAt m c 5).2 (kvAt m c 6).1 (kvAt m c 6).2
      (accAt m c 5).1 (accAt m c 5).2 _ _ _ _ _ _ _ _ ?_ ?_ ?_ ?_ ?_ ?_ ?_ ?_
    all_goals (first | (rw [← hq, ← hk5, ← hv5]; rfl) | (rw [← hq, ← hk6, ← hv6]; rfl))
  ihave Hs3 := (Entails.of_eq (congrArg (fun X => (View.loc (c : Thread nD τ) (Memref.whole cc0_scratch3).view ↦{fullShare} X : sProp 𝕄)) hL7)) $$ Hs3
  ihave Hs2 := (Entails.of_eq (congrArg (fun X => (View.loc (c : Thread nD τ) (Memref.whole cc0_scratch2).view ↦{fullShare} X : sProp 𝕄)) hA7)) $$ Hs2
  ihave HcS01 := (Entails.of_eq (aside_eq (F := F) _)) $$ HcS01
  -- the right-going copy 3 has been read out: the lent half comes back
  iapply (wp_sendwait m c 0 1 1 (by decide) 3 (Ncr_slot 0 1) (κ := Kn (c, 1))) $$ [HcS01 HO HaS01]
  · isplitr; · iexact HIs01_3
    isplitl [HcS01]; · iexact HcS01
    isplitl [HO]; · iexact HO
    isplitr
    · iapply (mayWait_kind (F := F) c (.dma (sendS 0 1)) 3 14 (by rw [kindOf_send]; decide) (by rw [kindOf_send]; decide)); iexact Hlev
    iexact HaS01
  iintro ⟨HO, HaS01, #HrS01_2x, Hl01⟩
  ihave Hs01 := (slot_rejoin' (F := F) c 0 1 _) $$ [Hl01 Hr01]
  · isplitl [Hl01]; · iexact Hl01
    iexists fr03; iexact Hr01
  sl_exec_parts
  ihave HcR03 := (Entails.of_eq (aside_eq (F := F) _)) $$ HcR03
  -- the left neighbour's copy 3 has landed in slot 0
  iapply (wp_recvwait m c 0 0 1 (by decide) 3 (Ncr_slot 0 0) (κ := Kn (c, 2))) $$ [HcR03 HO HaR00]
  · isplitr; · iexact HIr00
    isplitl [HcR03]; · iexact HcR03
    isplitl [HO]; · iexact HO
    isplitr
    · iapply (mayWait_kind (F := F) c (.dma (recvS 0 0)) 3 14 (by rw [kindOf_recv]; decide) (by rw [kindOf_recv]; decide)); iexact Hlev
    iexact HaR00
  iintro ⟨HO, HaR00, #HrR00_2, Hs00⟩
  -- step 4: the last block is accumulated where it landed, and the quotient stored
  unfold slotAt
  icases Hs00 with ⟨%gR4, %hgR4, Hs00⟩
  sl_exec_parts
  -- the accumulators after the last visit, and the result block
  have hjoin7 : (slotM 0 0).view.read (Elt F) gR4 = joinKV (kvAt m c 7).1 (kvAt m c 7).2 := hgR4.trans (sentV_succ m 0 3 c).symm
  have hk7 : sound_body.sl.r_35 gR4 = (kvAt m c 7).1 := by
    unfold sound_body.sl.r_35
    exact (congrArg k0_pay121 (half_read_key 0 0 gR4 _ _ hjoin7)).trans (down_up _ _)
  have hv7 : sound_body.sl.r_36 gR4 = (kvAt m c 7).2 := by
    unfold sound_body.sl.r_36
    exact (congrArg k0_pay122 (half_read_val 0 0 gR4 _ _ hjoin7)).trans (down_up _ _)
  have hacc8 : accAt m c 8 = Cert.Kernel.AttnKer.accumulate (qAt m c) (kvAt m c 7).1 (kvAt m c 7).2 ((accAt m c 7).1, (accAt m c 7).2) := accAt_succ m c 7
  have hL8 : (Memref.whole cc0_scratch3).view.writes (Elt F) (accAt m c 7).1 (sound_body.sl.Hs3_4_4 m c f0 gR4) = (accAt m c 8).1 := by
    rw [hacc8]
    unfold sound_body.sl.Hs3_4_4 sound_body.sl.Hs3_1_2
    refine Cert.Kernel.AttnKer.writes_accumulate_fst (qAt m c) (kvAt m c 7).1 (kvAt m c 7).2 (accAt m c 7).1 (accAt m c 7).2 _ _ _ _ ?_ ?_ ?_ ?_
    all_goals (rw [← hq, ← hk7]; rfl)
  have hA8 : (Memref.whole cc0_scratch2).view.writes (Elt F) (accAt m c 7).2 (sound_body.sl.Hs2_4_4 m c f0 gR4) = (accAt m c 8).2 := by
    rw [hacc8]
    unfold sound_body.sl.Hs2_4_4
    refine Cert.Kernel.AttnKer.writes_accumulate_snd (qAt m c) (kvAt m c 7).1 (kvAt m c 7).2 (accAt m c 7).1 (accAt m c 7).2 _ _ _ _ ?_ ?_ ?_ ?_
    all_goals (rw [← hq, ← hk7, ← hv7]; rfl)
  -- the result block: the whole store of the quotient of the two accumulators, both read whole off the last visit's stores
  have h860 : sound_body.sl.v860 m c f0 gR4
      = (Memref.whole cc0_scratch2).view.readAt (Elt F) (Rect.unit (s := S2048x256) ![0, 0] S2048x256.size inb_S2048x256_S2048x256_0_0).toLoadRect
          ((Memref.whole cc0_scratch2).view.writes (Elt F) (accAt m c 7).2 (sound_body.sl.Hs2_4_4 m c f0 gR4)) := by
    unfold sound_body.sl.v860 sound_body.sl.Hs2_4_4
    exact Cert.Kernel.AttnKer.readCov_whole_rowsA (accAt m c 7).2 _ _ _ _
  have h861 : sound_body.sl.v861 m c f0 gR4
      = (Memref.whole cc0_scratch3).view.readAt (Elt F) (Rect.unit (s := S2048x1) ![0, 0] S2048x1.size inb_S2048x1_S2048x1_0_0).toLoadRect
          ((Memref.whole cc0_scratch3).view.writes (Elt F) (accAt m c 7).1 (sound_body.sl.Hs3_4_4 m c f0 gR4)) := by
    unfold sound_body.sl.v861 sound_body.sl.Hs3_4_4 sound_body.sl.Hs3_1_2
    exact Cert.Kernel.AttnKer.readCov_whole_rowsL (accAt m c 7).1 _ _ _ _
  rw [hA8] at h860
  rw [hL8] at h861
  have hout : (Memref.whole cc0_stg3_0).view.writes (Elt F) f3
      [⟨Rect.unit (s := S2048x256) ![0, 0] S2048x256.size inb_S2048x256_S2048x256_0_0, k0_pay2 (sound_body.sl.v860 m c f0 gR4) (sound_body.sl.v861 m c f0 gR4)⟩]
      = outBlock m c := by
    rw [Cert.Kernel.AttnKer.stg3_whole_store, h860, h861]
    exact result_block m c
  -- the body's last instruction is done: everything is handed back
  rw [wp_ret]
  imodintro
  icases Hs01 with ⟨%g01e, %hg01e, Hs01⟩
  icases Hs10 with ⟨%g10e, %hg10e, Hs10⟩
  iapply (body_end m ρ c _ d0 d1 d2 f0 f1 f2 _ hf0 hf1 hf2 hout (κ0 := Kn (c, 0)) (κ1 := Kn (c, 1)) (κ2 := Kn (c, 2)) (κ3 := Kn (c, 3)) (κ4 := Kn (c, 4)) (κ5 := Kn (c, 5)) (κ6 := Kn (c, 6)) (κ7 := Kn (c, 7)) (κ8 := Kn (c, 8)) (κ9 := Kn (c, 9)))
  isplitl [HaS00]
  · isplitr; · iexact HIs00
    iexact HaS00
  isplitl [HaS01]
  · isplitr; · iexact HIs01_1
    iexact HaS01
  isplitl [HaR00]
  · isplitr; · iexact HIr00
    iexact HaR00
  isplitl [HaR01]
  · isplitr; · iexact HIr01
    iexact HaR01
  isplitl [HaS10]
  · isplitr; · iexact HIs10
    iexact HaS10
  isplitl [HaS11]
  · isplitr; · iexact HIs11_1
    iexact HaS11
  isplitl [HaR10]
  · isplitr; · iexact HIr10
    iexact HaR10
  isplitl [HaR11]
  · isplitr; · iexact HIr11
    iexact HaR11
  isplitl [HaK0]
  · isplitr; · iexact HIk0
    iexact HaK0
  isplitl [HaK1]
  · isplitr; · iexact HIk1
    iexact HaK1
  isplitl [Hs00]; · iexists gR4; iexact Hs00
  isplitl [Hs01]; · iexists g01e; iexact Hs01
  isplitl [Hs10]; · iexists g10e; iexact Hs10
  isplitl [Hs11]; · iexists gL3; iexact Hs11
  isplitl [Hs2]; · iexists _; iexact Hs2
  isplitl [Hs3]; · iexists _; iexact Hs3
  isplitl [HO]; · iexact HO
  isplitl [H0]; · iexact H0
  isplitl [H1]; · iexact H1
  isplitl [H2]; · iexact H2
  iexact H3

end Cert.Kernel.RingProof
end
-- ==== Proof.RingCloseK.lean ====
/-
  Closing the ring's cells.  When a device's body has consumed every round of one of its own cells, the cell's
  counter is zero and nothing can land on it again: the owner takes the counter back out of the invariant.  Done for
  the ten own cells of a device under one update, this is what the region hands back at its exit.  An update in the
  post of a run can be absorbed, so the closing follows the body's last instruction.
-/
import proofs.«900462_g7700000000000463_dist_ring_attn_i_s2048_d256_v7x_i8_f32_1_alg».proof.Proof.RingLaunchK
import proofs.«900462_g7700000000000463_dist_ring_attn_i_s2048_d256_v7x_i8_f32_1_alg».proof.Proof.RingTablesK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The round from which own cell k has no duty: a send or receive cell its number of rounds, a credit cell 1. -/
def lastR : Fin 10 → ℕ := fun
  | 0 => nSend 0 0 | 1 => nSend 0 1 | 2 => nRecv 0 0 | 3 => nRecv 0 1
  | 4 => nSend 1 0 | 5 => nSend 1 1 | 6 => nRecv 1 0 | 7 => nRecv 1 1
  | 8 => 1 | 9 => 1
  | ⟨_ + 10, h⟩ => absurd h (Nat.not_lt.2 (Nat.le_add_left _ _))

/-- Own cell k of device c. -/
abbrev ownCell (c : Dev nD) (k : Fin 10) : GSem nD τ sig := ((c : Thread nD τ), osem k)

theorem duties_own_later (m : Mem F) (c : Dev nD) (k : Fin 10) :
    ∀ r, lastR k ≤ r → (ringRd (F := F) m).duties (ownCell c k) r = ∅ := by
  fin_cases k
  · exact duties_send_later m c 0 0
  · exact duties_send_later m c 0 1
  · exact duties_recv_later m c 0 0
  · exact duties_recv_later m c 0 1
  · exact duties_send_later m c 1 0
  · exact duties_send_later m c 1 1
  · exact duties_recv_later m c 1 0
  · exact duties_recv_later m c 1 1
  · exact duties_cap_later m c 0
  · exact duties_cap_later m c 1

/-- One own cell closed: its invariant (at any name) and its owner's position at the start of the round from which
    it has no duty give back its counter at zero. -/
theorem close_one (m : Mem F) (c : Dev nD) (k : Fin 10) :
    iprop(∃ κ : ℕ, cellInv ER (ringRd m) κ (ownCell c k) ∗ atPos ER (ownCell c k) (lastR k) ∅ 0)
      ⊢ (|={Set.univ}=> semVal (ownCell c k) 0 : sProp 𝕄) := by
  iintro ⟨%κ, H⟩
  iapply (Rounds.cell_close ER (ringRd m) (Set.mem_univ κ) (fun h => h) (duties_own_later m c k))
  iexact H

/-- The ten own cells of a device closed under one update: what the region hands back. -/
theorem close_own (m : Mem F) (c : Dev nD) :
    (bigSep Finset.univ fun k : Fin 10 => iprop(∃ κ : ℕ, cellInv ER (ringRd m) κ (ownCell c k) ∗ atPos ER (ownCell c k) (lastR k) ∅ 0) : sProp 𝕄)
      ⊢ |={Set.univ}=> Pipeline.ownSems0 (Ix := ℕ) (Name := ℕ) (U := UU) (Lvl := ℕ) (Val := Elt F) (τ := τ) osem c :=
  (bigSep_mono fun k _ => close_one m c k).trans (bigSep_fupd _ _)

/-- A run to a state from which one update reaches the post is a run to the post. -/
theorem hbody_of_open (dats : Fin 1 → (c : Dev nD) → Dat τ (Elt F) ℕ ℕ UU ℕ cfg0 c) (c : Dev nD) (Ψ : sProp 𝕄)
    (hrun : bodyPre dats c ⊢ wp frame (wpE (defs₀ (F := F)) 𝒱₀ c none) Set.univ (bodyAt0 t0_0) (fun _ => Ψ))
    (hclose : Ψ ⊢ |={Set.univ}=> bodyPost dats c) :
    bodyPre dats c ⊢ wp frame (wpE (defs₀ (F := F)) 𝒱₀ c none) Set.univ (bodyAt0 t0_0) (fun _ => bodyPost dats c) :=
  hrun.trans ((wp_mono _ _ _ fun _ => hclose).trans (wp_fupd _ _ _ _ _))

/-- info: 'Cert.Kernel.RingProof.close_own' depends on axioms: [propext, Classical.choice, Quot.sound] -/
#guard_msgs in #print axioms close_own

end Cert.Kernel.RingProof

end
-- ==== Proof.RingClosingK.lean ====
/-
  From the state in which the body's last instruction leaves a device to the post of its body obligation: the ten own
  cells, each past its last round, close back to their counters at zero under one update; everything else is already
  as the post states it.
-/
import proofs.«900462_g7700000000000463_dist_ring_attn_i_s2048_d256_v7x_i8_f32_1_alg».proof.Proof.RingStateK
import proofs.«900462_g7700000000000463_dist_ring_attn_i_s2048_d256_v7x_i8_f32_1_alg».proof.Proof.RingCloseK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

omit [FloatOps F] in
theorem lastRound_eq : lastRound = lastR := by
  funext k; fin_cases k <;> rfl

/-- Closing: what the body's run ends in reaches, by one update, the post of the body obligation. -/
theorem hclose (m : Mem F) (ρ : Dev nD → PrngReg) (c : Dev nD) :
    closing m ρ c ⊢ |={Set.univ}=> bodyPost (dats m ρ) c := by
  have hΦ : (dats m ρ 0 c).Φ t0_0.succ = leaving (F := F) c := rfl
  unfold closing cellsDone bodyPost
  rw [hΦ, lastRound_eq]
  iintro ⟨Hc, Hs, Ho, H0, H1, H2, H3⟩
  imod (close_own m c) $$ Hc with Hz
  imodintro
  unfold leaving
  isplitl [Hz Hs]
  · isplitl [Hz] <;> iassumption
  isplitl [Ho]; · iexact Ho
  isplitl [H0]; · iexact H0
  isplitl [H1]; · iexact H1
  isplitl [H2] <;> iassumption

/-- info: 'Cert.Kernel.RingProof.hclose' depends on axioms: [propext, Classical.choice, Quot.sound] -/
#guard_msgs in #print axioms hclose

end Cert.Kernel.RingProof

end
-- ==== Proof.RingHWaitsK.lean ====
/-
  The pipeline's own waits (the four staging cells, at step 0) stand below everything a device owes: a staging cell
  is of no ring kind, its level the lowest.
-/
import proofs.«900462_g7700000000000463_dist_ring_attn_i_s2048_d256_v7x_i8_f32_1_alg».proof.Proof.RingStateK
import proofs.«900462_g7700000000000463_dist_ring_attn_i_s2048_d256_v7x_i8_f32_1_alg».proof.Proof.RingWaitsK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : Mem F)

theorem staging_kind : ∀ (w : Fin cfg0.W) (s : Fin (cfg0.win w).nbuf), kindOf (.dma ((cfg0.win w).sem s) : SemLoc sig) = .other := by decide

theorem hwaits (ρ : Dev nD → PrngReg) : ∀ c, (levAts L lv : sProp 𝕄) ⊢ Pipeline.cellsWaits cfgs (dats m ρ) 0 0 c := fun c =>
  Pipeline.cellsWaits_intro cfgs (dats m ρ) 0 0 c fun w s t => by
    match t with
    | ⟨0, _⟩ =>
      show _ ⊢ MayWait (c : Thread nD τ) (.dma ((cfg0.win w).sem s)) 0 (owedFrom c 0)
      refine mayWait_kind c _ 0 0 ?_ ?_
      · rw [staging_kind]; decide
      · rw [staging_kind]; decide
    | ⟨_ + 1, _⟩ =>
      show _ ⊢ MayWait (c : Thread nD τ) (.dma ((cfg0.win w).sem s)) 0 0
      refine Pipeline.mayWait_of_levAts (L := L) (lev := lv) ?_ fun g i h => ?_
      · rw [L_eq _ rfl, staging_kind]; decide
      · exact absurd h (by simp)

end Cert.Kernel.RingProof

end
-- ==== Proof.RingMainK.lean ====
/-
  The kernel's run assembled: the launch theorem applied to the schedule, the levels, the dealing of the ghost
  state, the states on entering and leaving, and the body's run closed by its ten cells' closing; then read off —
  the three argument blocks unchanged on every device, and device `c`'s result block at `outBlock m c`.
-/
import proofs.«900462_g7700000000000463_dist_ring_attn_i_s2048_d256_v7x_i8_f32_1_alg».proof.Proof.RingBodyK
import proofs.«900462_g7700000000000463_dist_ring_attn_i_s2048_d256_v7x_i8_f32_1_alg».proof.Proof.RingClosingK
import proofs.«900462_g7700000000000463_dist_ring_attn_i_s2048_d256_v7x_i8_f32_1_alg».proof.Proof.RingDealK
import proofs.«900462_g7700000000000463_dist_ring_attn_i_s2048_d256_v7x_i8_f32_1_alg».proof.Proof.RingReadoffK
import proofs.«900462_g7700000000000463_dist_ring_attn_i_s2048_d256_v7x_i8_f32_1_alg».proof.Proof.RingHWaitsK

noncomputable section

namespace Cert.Kernel.RingProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : Mem F)

/-- Every weakly fair run of the eight devices ends, faults nowhere, and leaves every windowed array at what the
    proof data says. -/
theorem ring_run (ρ : Dev nD → PrngReg) :
    θ_run (defs (F := F)) (onTc (τ := τ) (main (F := F))) ⟨m, fun _ => 0, ρ⟩
      (fun r => ∀ c : Dev nD, ∀ w : Fin cfg0.W, r.2.mem ((cfg0.win w).arr.view.loc (c : Thread nD τ)) = (dats m ρ 0 c).arrAt w cfg0.N) :=
  run_main m ρ (ringRd m) (toks m) Sl (dats m ρ) (hA m ρ) (hq m ρ) O₀ (howed₀ m ρ) (howedN m ρ) L lv hL (hwaits m ρ) (G' m) (hdeal m)
    (hentry m ρ) (hexit m ρ)
    (fun c => hbody_of_open (dats m ρ) c (closing m ρ c) (sound_body m ρ c) (hclose m ρ c))

/-- The frame: the argument blocks end as launched. -/
theorem ring_frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_frame m ρ (dats m ρ) (hA m ρ) (ring_run m ρ)

/-- The value: device `c`'s result block ends at `outBlock m c`, the argument blocks as launched. -/
theorem ring_value (ρ : Dev nD → PrngReg) :
    θ_run (defs (F := F)) (onTc (τ := τ) (main (F := F))) ⟨m, fun _ => 0, ρ⟩ (fun r => ∀ c : Dev nD,
      r.2.mem ((c.tc : Thread nD τ).loc main_v1) = outBlock m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_value m ρ (dats m ρ) (hA m ρ) (ring_run m ρ)

end Cert.Kernel.RingProof

end
-- ==== Proof.AttnChunk.lean ====
/-
  One chunk of the attention update, read entry by entry over the extended reals.

  A chunk takes 512 query rows `qc`, a key block `kb` and a value block `vb` (2048 rows of 256 each) and forms
    p r j = exp ((∑ₑ qc r e · kb j e) · 2⁻⁴),
  then adds  ∑ⱼ p r j  to the row's running denominator and  ∑ⱼ p r j · vb j d  to its running numerator.
  Over the extended reals every format change is the identity and every operation exact, so each of these vector
  expressions, read at an index, is literally that scalar expression.  This file states those readings once, over
  variables; the payload files instantiate them.
-/
import proofs.«900462_g7700000000000463_dist_ring_attn_i_s2048_d256_v7x_i8_f32_1_alg».proof.Proof.Gen.KernelIdeal
import proofs.«900462_g7700000000000463_dist_ring_attn_i_s2048_d256_v7x_i8_f32_1_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.AttnPay

open Idealize.ShloMosaic Idealize.ShloMosaic.ValueIdx Cert.KernelIdeal

/-- Row `r` of the `c`-th block of 512 rows, as a row of the 2048. -/
abbrev row (c : Fin 4) (r : Fin 512) : Fin 2048 := ⟨512 * c.val + r.val, by omega⟩

/-! ## The two products -/

theorem scoreDot_lhs0 (i : S512x2048.Idx) (q : dot_S512x256_S2048x256_S512x2048_1_1_0_0_n_n.contr.Idx) : (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide),
    dif_pos (show (0 : Fin S512x256.rank) ∈ dot_S512x256_S2048x256_S512x2048_1_1_0_0_n_n.lhsNonContracting by decide)]
  rfl
theorem scoreDot_lhs1 (i : S512x2048.Idx) (q : dot_S512x256_S2048x256_S512x2048_1_1_0_0_n_n.contr.Idx) : (dot_S512x256_S2048x256_S512x2048_1_1_0_0_n_n.lhsIdx i q 1).val = (q ⟨0, by decide⟩).val :=
  dot_S512x256_S2048x256_S512x2048_1_1_0_0_n_n.lhsIdx_val_of_single rfl i q
theorem scoreDot_rhs0 (i : S512x2048.Idx) (q : dot_S512x256_S2048x256_S512x2048_1_1_0_0_n_n.contr.Idx) : (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide),
    dif_pos (show (0 : Fin S2048x256.rank) ∈ dot_S512x256_S2048x256_S512x2048_1_1_0_0_n_n.rhsNonContracting by decide)]
  rfl
theorem scoreDot_rhs1 (i : S512x2048.Idx) (q : dot_S512x256_S2048x256_S512x2048_1_1_0_0_n_n.contr.Idx) : (dot_S512x256_S2048x256_S512x2048_1_1_0_0_n_n.rhsIdx i q 1).val = (q ⟨0, by decide⟩).val :=
  dot_S512x256_S2048x256_S512x2048_1_1_0_0_n_n.rhsIdx_val_of_single rfl i q

/-- The score product contracts the 256 columns of a query row with the 256 columns of a key row. -/
theorem scoreDot_apply (qc : FVec Ideal S512x256 .bf16) (kb : FVec Ideal S2048x256 .bf16) (acc : FVec Ideal S512x2048 .f32)
    (r : Fin 512) (j : Fin 2048) :
    matmul dot_S512x256_S2048x256_S512x2048_1_1_0_0_n_n none qc kb acc (ix2 r j) = acc (ix2 r j) + ∑ e : Fin 256, qc (ix2 r e) * kb (ix2 j e) := by
  show FloatOps.matmul dot_S512x256_S2048x256_S512x2048_1_1_0_0_n_n none qc kb acc (ix2 r j) = _
  rw [Ideal.matmul_apply, ← Equiv.sum_comp (contrEquiv1 dot_S512x256_S2048x256_S512x2048_1_1_0_0_n_n 256 rfl rfl).symm]
  refine congrArg (acc (ix2 r j) + ·) (Finset.sum_congr rfl fun e _ => ?_)
  have he := contrEquiv1_symm_val dot_S512x256_S2048x256_S512x2048_1_1_0_0_n_n 256 rfl rfl e
  have el : dot_S512x256_S2048x256_S512x2048_1_1_0_0_n_n.lhsIdx (ix2 r j) ((contrEquiv1 dot_S512x256_S2048x256_S512x2048_1_1_0_0_n_n 256 rfl rfl).symm e) = ix2 r e :=
    funext fun a => Fin.ext (by
      match a with
      | ⟨0, _⟩ => exact scoreDot_lhs0 _ _
      | ⟨1, _⟩ => exact (scoreDot_lhs1 _ _).trans he)
  have er : dot_S512x256_S2048x256_S512x2048_1_1_0_0_n_n.rhsIdx (ix2 r j) ((contrEquiv1 dot_S512x256_S2048x256_S512x2048_1_1_0_0_n_n 256 rfl rfl).symm e) = ix2 j e :=
    funext fun a => Fin.ext (by
      match a with
      | ⟨0, _⟩ => exact scoreDot_rhs0 _ _
      | ⟨1, _⟩ => exact (scoreDot_rhs1 _ _).trans he)
  rw [el, er]

theorem valueDot_lhs0 (i : S512x256.Idx) (q : dot_S512x2048_S2048x256_S512x256_1_0_0_1_n_n.contr.Idx) : (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl
theorem valueDot_lhs1 (i : S512x256.Idx) (q : dot_S512x2048_S2048x256_S512x256_1_0_0_1_n_n.contr.Idx) : (dot_S512x2048_S2048x256_S512x256_1_0_0_1_n_n.lhsIdx i q 1).val = (q ⟨0, by decide⟩).val :=
  dot_S512x2048_S2048x256_S512x256_1_0_0_1_n_n.lhsIdx_val_of_single rfl i q
theorem valueDot_rhs0 (i : S512x256.Idx) (q : dot_S512x2048_S2048x256_S512x256_1_0_0_1_n_n.contr.Idx) : (dot_S512x2048_S2048x256_S512x256_1_0_0_1_n_n.rhsIdx i q 0).val = (q ⟨0, by decide⟩).val :=
  dot_S512x2048_S2048x256_S512x256_1_0_0_1_n_n.rhsIdx_val_of_single rfl i q
theorem valueDot_rhs1 (i : S512x256.Idx) (q : dot_S512x2048_S2048x256_S512x256_1_0_0_1_n_n.contr.Idx) : (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl

/-- The value product contracts the 2048 key rows: row `r` of the weights with column `d` of the values. -/
theorem valueDot_apply (pb : FVec Ideal S512x2048 .bf16) (vb : FVec Ideal S2048x256 .bf16) (acc : FVec Ideal S512x256 .f32)
    (r : Fin 512) (d : Fin 256) :
    matmul dot_S512x2048_S2048x256_S512x256_1_0_0_1_n_n none pb vb acc (ix2 r d) = acc (ix2 r d) + ∑ j : Fin 2048, pb (ix2 r j) * vb (ix2 j d) := by
  show FloatOps.matmul dot_S512x2048_S2048x256_S512x256_1_0_0_1_n_n none pb vb acc (ix2 r d) = _
  rw [Ideal.matmul_apply, ← Equiv.sum_comp (contrEquiv1 dot_S512x2048_S2048x256_S512x256_1_0_0_1_n_n 2048 rfl rfl).symm]
  refine congrArg (acc (ix2 r d) + ·) (Finset.sum_congr rfl fun j _ => ?_)
  have hj := contrEquiv1_symm_val dot_S512x2048_S2048x256_S512x256_1_0_0_1_n_n 2048 rfl rfl j
  have el : dot_S512x2048_S2048x256_S512x256_1_0_0_1_n_n.lhsIdx (ix2 r d) ((contrEquiv1 dot_S512x2048_S2048x256_S512x256_1_0_0_1_n_n 2048 rfl rfl).symm j) = ix2 r j :=
    funext fun a => Fin.ext (by
      match a with
      | ⟨0, _⟩ => exact valueDot_lhs0 _ _
      | ⟨1, _⟩ => exact (valueDot_lhs1 _ _).trans hj)
  have er : dot_S512x2048_S2048x256_S512x256_1_0_0_1_n_n.rhsIdx (ix2 r d) ((contrEquiv1 dot_S512x2048_S2048x256_S512x256_1_0_0_1_n_n 2048 rfl rfl).symm j) = ix2 j d :=
    funext fun a => Fin.ext (by
      match a with
      | ⟨0, _⟩ => exact (valueDot_rhs0 _ _).trans hj
      | ⟨1, _⟩ => exact valueDot_rhs1 _ _)
  rw [el, er]

/-- The zero splat the products accumulate into is the extended real 0. -/
theorem zeroSplat_apply (s : Shape) (i : s.Idx) : constant (F := Ideal) s .f32 0x00000000#32 i = 0 :=
  Ideal.ofBits_zero_f32

/-! ## The weights: exp of the scaled scores -/

/-- Over a general accumulator of the score product. -/
theorem weightsAcc_apply (qc : FVec Ideal S512x256 .bf16) (kb : FVec Ideal S2048x256 .bf16) (acc : FVec Ideal S512x2048 .f32)
    (r : Fin 512) (j : Fin 2048) :
    exp (mulf (matmul dot_S512x256_S2048x256_S512x2048_1_1_0_0_n_n none qc kb acc) (broadcast S512x2048 (Scalar.ofBits .f32 0x3D800000#32))) (ix2 r j)
      = Ideal.exp ((acc (ix2 r j) + ∑ e : Fin 256, qc (ix2 r e) * kb (ix2 j e)) * Ideal.ofBits .f32 0x3D800000#32) := by
  show Ideal.exp (matmul dot_S512x256_S2048x256_S512x2048_1_1_0_0_n_n none qc kb acc (ix2 r j) * Ideal.ofBits .f32 0x3D800000#32) = _
  rw [scoreDot_apply]

/-- Into the zero splat: the weight matrix of one chunk. -/
theorem weights_apply (qc : FVec Ideal S512x256 .bf16) (kb : FVec Ideal S2048x256 .bf16) (r : Fin 512) (j : Fin 2048) :
    exp (mulf (matmul dot_S512x256_S2048x256_S512x2048_1_1_0_0_n_n none qc kb (constant S512x2048 .f32 0x00000000#32))
        (broadcast S512x2048 (Scalar.ofBits .f32 0x3D800000#32))) (ix2 r j)
      = Ideal.exp ((∑ e : Fin 256, qc (ix2 r e) * kb (ix2 j e)) * Ideal.ofBits .f32 0x3D800000#32) := by
  refine (weightsAcc_apply qc kb _ r j).trans ?_
  rw [zeroSplat_apply, zero_add]

/-! ## The row sum, kept as a column -/

theorem rowSum_apply (p : FVec Ideal S512x2048 .f32) (hred : S512x2048.Reduces [1] S512) (hφ : FKind.Formats .f32)
    (hacc : (0x00000000#32 : BitVec (FTy.bits .f32)) = FKind.add.neutral .f32 hφ) (hc : S512.ShapeCasts S512x1)
    (r : Fin 512) (u : Fin 1) :
    shapeCast S512x1 (multiReduction (F := Ideal) .add [1] S512 p 0x00000000#32 hred hφ hacc) hc (ix2 r u)
      = ∑ j : Fin 2048, p (ix2 r j) := by
  refine (shapeCast_apply _ hc (ix2 r u) (ix1 r) (by
    rw [Shape.rowMajor_val_one, Shape.rowMajor_val_two]
    show r.val = r.val * 1 + u.val
    omega)).trans ?_
  refine (Ideal.multiReduction_add_single p _ hred hφ hacc (ix1 r)).trans ?_
  exact Finset.sum_congr rfl fun j _ => congrArg p (funext fun a => Fin.ext (by
    match a with
    | ⟨0, _⟩ => rfl
    | ⟨1, _⟩ => rfl))

/-! ## The value product of the weights -/

/-- The weights, cast to the narrow format (the identity here), times the values, into the zero splat. -/
theorem weightedValues_apply (p : FVec Ideal S512x2048 .f32) (vb : FVec Ideal S2048x256 .bf16)
    (hb : FTy.bits .bf16 < FTy.bits .f32) (r : Fin 512) (d : Fin 256) :
    matmul dot_S512x2048_S2048x256_S512x256_1_0_0_1_n_n none (truncf .bf16 p hb) vb (constant S512x256 .f32 0x00000000#32) (ix2 r d)
      = ∑ j : Fin 2048, p (ix2 r j) * vb (ix2 j d) := by
  rw [valueDot_apply, zeroSplat_apply, zero_add]
  rfl

/-- The same with the narrow-format weights given. -/
theorem weightedValues'_apply (pb : FVec Ideal S512x2048 .bf16) (vb : FVec Ideal S2048x256 .bf16) (r : Fin 512) (d : Fin 256) :
    matmul dot_S512x2048_S2048x256_S512x256_1_0_0_1_n_n none pb vb (constant S512x256 .f32 0x00000000#32) (ix2 r d)
      = ∑ j : Fin 2048, pb (ix2 r j) * vb (ix2 j d) := by
  rw [valueDot_apply, zeroSplat_apply, zero_add]

/-! ## The four row chunks of the query block -/

theorem slice0_apply (qv : FVec Ideal S2048x256 .bf16) (h : S2048x256.Slices ![0, 0] S512x256) (r : Fin 512) (e : Fin 256) :
    extractStridedSlice S512x256 ![0, 0] qv h (ix2 r e) = qv (ix2 (row 0 r) e) :=
  extractStridedSlice_apply _ qv h _ _ fun a => match a with
    | ⟨0, _⟩ => by show 512 * 0 + r.val = 0 + r.val; omega
    | ⟨1, _⟩ => by show e.val = 0 + e.val; omega
theorem slice1_apply (qv : FVec Ideal S2048x256 .bf16) (h : S2048x256.Slices ![512, 0] S512x256) (r : Fin 512) (e : Fin 256) :
    extractStridedSlice S512x256 ![512, 0] qv h (ix2 r e) = qv (ix2 (row 1 r) e) :=
  extractStridedSlice_apply _ qv h _ _ fun a => match a with
    | ⟨0, _⟩ => by show 512 * 1 + r.val = 512 + r.val; omega
    | ⟨1, _⟩ => by show e.val = 0 + e.val; omega
theorem slice2_apply (qv : FVec Ideal S2048x256 .bf16) (h : S2048x256.Slices ![1024, 0] S512x256) (r : Fin 512) (e : Fin 256) :
    extractStridedSlice S512x256 ![1024, 0] qv h (ix2 r e) = qv (ix2 (row 2 r) e) :=
  extractStridedSlice_apply _ qv h _ _ fun a => match a with
    | ⟨0, _⟩ => by show 512 * 2 + r.val = 1024 + r.val; omega
    | ⟨1, _⟩ => by show e.val = 0 + e.val; omega
theorem slice3_apply (qv : FVec Ideal S2048x256 .bf16) (h : S2048x256.Slices ![1536, 0] S512x256) (r : Fin 512) (e : Fin 256) :
    extractStridedSlice S512x256 ![1536, 0] qv h (ix2 r e) = qv (ix2 (row 3 r) e) :=
  extractStridedSlice_apply _ qv h _ _ fun a => match a with
    | ⟨0, _⟩ => by show 512 * 3 + r.val = 1536 + r.val; omega
    | ⟨1, _⟩ => by show e.val = 0 + e.val; omega

/-! ## A ring slot viewed as a block, a block viewed as a slot, a column broadcast along the rows -/

theorem slot_apply (v : FVec Ideal S1x1x2048x256 .bf16) (h : S1x1x2048x256.ShapeCasts S2048x256) (j : Fin 2048) (e : Fin 256) :
    shapeCast S2048x256 v h (ix2 j e) = v (ix4 0 0 j e) :=
  shapeCast_apply v h _ _ (by
    rw [Shape.rowMajor_val_four, Shape.rowMajor_val_two]
    show ((0 * 1 + 0) * 2048 + j.val) * 256 + e.val = j.val * 256 + e.val
    omega)

theorem unslot_apply (v : FVec Ideal S2048x256 .bf16) (h : S2048x256.ShapeCasts S1x1x2048x256) (a b : Fin 1)
    (j : Fin 2048) (e : Fin 256) :
    shapeCast S1x1x2048x256 v h (ix4 a b j e) = v (ix2 j e) :=
  shapeCast_apply v h _ _ (by
    have ha : a.val = 0 := by omega
    have hb : b.val = 0 := by omega
    rw [Shape.rowMajor_val_four, Shape.rowMajor_val_two]
    show j.val * 256 + e.val = ((a.val * 1 + b.val) * 2048 + j.val) * 256 + e.val
    rw [ha, hb]
    omega)

theorem colBroadcast_apply (l : FVec Ideal S2048x1 .f32) (h : S2048x1.Broadcasts S2048x256) (r : Fin 2048) (d : Fin 256) :
    broadcastTo S2048x256 l h (ix2 r d) = l (ix2 r 0) :=
  broadcastTo_apply l h _ _ fun a => match a with
    | ⟨0, _⟩ => rfl
    | ⟨1, _⟩ => rfl

/-! ## In the specification's words -/

/-- The weight the payload lemmas spell out is the specification's `wgt` at row `512·c + r` of the query block. -/
theorem wgt_eq (q k : Cert.Attn.Blk.Idx → EReal) (c : Fin 4) (r : Fin 512) (j : Fin 2048) :
    Ideal.exp ((∑ e : Fin 256, q (ix2 (row c r) e) * k (ix2 j e)) * Ideal.ofBits .f32 0x3D800000#32) = Cert.Attn.wgt q k (row c r) j := rfl

/-- The same when the key block is read through a ring slot. -/
theorem wgt_slot_eq (q : Cert.Attn.Blk.Idx → EReal) (v : S1x1x2048x256.Idx → EReal) (c : Fin 4) (r : Fin 512) (j : Fin 2048) :
    Ideal.exp ((∑ e : Fin 256, q (ix2 (row c r) e) * v (ix4 0 0 j e)) * Ideal.ofBits .f32 0x3D800000#32)
      = Cert.Attn.wgt q (fun i => v (ix4 0 0 (i 0) (i 1))) (row c r) j := rfl

/-! ## The two updates of one chunk, and the cast to the same shape -/

/-- A cast to the same shape reads the same entry. -/
theorem idCast_apply {s : Shape} {α : Type} (v : s.Idx → α) (h : s.ShapeCasts s) (i : s.Idx) : shapeCast s v h i = v i :=
  congrFun (shapeCast_self v h) i

/-- The denominator's rows after a chunk: the old rows plus the row sums of the weights. -/
theorem denUpdate_apply (p : FVec Ideal S512x2048 .f32) (vOld : FVec Ideal S512x1 .f32) (hred : S512x2048.Reduces [1] S512)
    (hφ : FKind.Formats .f32) (hacc : (0x00000000#32 : BitVec (FTy.bits .f32)) = FKind.add.neutral .f32 hφ)
    (hc : S512.ShapeCasts S512x1) (r : Fin 512) :
    addf vOld (shapeCast S512x1 (multiReduction (F := Ideal) .add [1] S512 p 0x00000000#32 hred hφ hacc) hc) (ix2 r 0)
      = vOld (ix2 r 0) + ∑ j : Fin 2048, p (ix2 r j) :=
  congrArg (vOld (ix2 r 0) + ·) (rowSum_apply p hred hφ hacc hc r 0)

/-- The numerator's rows after a chunk: the old rows plus the weights times the values. -/
theorem numUpdate_apply (p : FVec Ideal S512x2048 .f32) (vb : FVec Ideal S2048x256 .bf16) (vOld : FVec Ideal S512x256 .f32)
    (hb : FTy.bits .bf16 < FTy.bits .f32) (r : Fin 512) (d : Fin 256) :
    addf vOld (matmul dot_S512x2048_S2048x256_S512x256_1_0_0_1_n_n none (truncf .bf16 p hb) vb (constant S512x256 .f32 0x00000000#32)) (ix2 r d)
      = vOld (ix2 r d) + ∑ j : Fin 2048, p (ix2 r j) * vb (ix2 j d) :=
  congrArg (vOld (ix2 r d) + ·) (weightedValues_apply p vb hb r d)

/-- The same with the narrow-format weights given. -/
theorem numUpdate'_apply (pb : FVec Ideal S512x2048 .bf16) (vb : FVec Ideal S2048x256 .bf16) (vOld : FVec Ideal S512x256 .f32)
    (r : Fin 512) (d : Fin 256) :
    addf vOld (matmul dot_S512x2048_S2048x256_S512x256_1_0_0_1_n_n none pb vb (constant S512x256 .f32 0x00000000#32)) (ix2 r d)
      = vOld (ix2 r d) + ∑ j : Fin 2048, pb (ix2 r j) * vb (ix2 j d) :=
  congrArg (vOld (ix2 r d) + ·) (weightedValues'_apply pb vb r d)

/-- info: 'Cert.AttnPay.numUpdate'_apply' depends on axioms: [propext, Classical.choice, Quot.sound] -/
#guard_msgs in
#print axioms numUpdate'_apply

end Cert.AttnPay

end
-- ==== Proof.RingValueIdeal.lean ====
/-
  The kernel's value over the extended reals is the ring-attention specification.

  After a chunk's store, the rows of its rectangle hold the stored value and every other row is unchanged; so one
  visit adds, to every row R of the denominator,  ∑ⱼ wgt(R, j)  over the visited key block, and to every entry
  (R, d) of the numerator  ∑ⱼ wgt(R, j) · v(j, d).  From the zeroed start the eight visits leave the sums of these
  over the eight visited blocks; the visiting order c, c−1, c+1, c−2, c+2, c−3, c+3, c−4 (mod 8) goes through every
  block once, and a finite sum does not depend on its order (no finiteness of the values is needed: only + is
  reordered).  The quotient of the two is the specification's entry.
-/
import proofs.«900462_g7700000000000463_dist_ring_attn_i_s2048_d256_v7x_i8_f32_1_alg».proof.Proof.RingValue
import proofs.«900462_g7700000000000463_dist_ring_attn_i_s2048_d256_v7x_i8_f32_1_alg».proof.Proof.AttnChunk

noncomputable section

namespace Cert.KernelIdeal.AttnKer

open Cert.KernelIdeal Cert.KernelIdeal.Gen Idealize.ShloMosaic Idealize.SL.Sem Idealize.ShloMosaic.ValueIdx Cert.AttnPay

/-! ## The visiting order -/

/-- The block visited at step `n` on device `c`. -/
def visit (c n : Fin 8) : Fin 8 := ⟨(c.val + (![0, 7, 1, 6, 2, 5, 3, 4] : Fin 8 → Nat) n) % 8, Nat.mod_lt _ (by norm_num)⟩

theorem visit_bijective : ∀ c : Fin 8, Function.Bijective (visit c) := by decide

/-! ## Sums built one term at a time -/

/-- The first `n` terms of a sum over eight. -/
def firstSum (f : Fin 8 → EReal) (n : Nat) : EReal := ∑ i : Fin 8, if i.val < n then f i else 0

theorem firstSum_zero (f : Fin 8 → EReal) : firstSum f 0 = 0 :=
  Finset.sum_eq_zero fun i _ => if_neg (Nat.not_lt_zero _)

theorem firstSum_eight (f : Fin 8 → EReal) : firstSum f 8 = ∑ i, f i :=
  Finset.sum_congr rfl fun i _ => if_pos i.isLt

theorem firstSum_succ (f : Fin 8 → EReal) (n : Nat) (h : n < 8) : firstSum f (n + 1) = firstSum f n + f ⟨n, h⟩ := by
  unfold firstSum
  have hpt : ∀ i : Fin 8, (if i.val < n + 1 then f i else 0)
      = (if i.val < n then f i else 0) + (if i = ⟨n, h⟩ then f i else 0) := fun i => by
    by_cases h1 : i.val < n
    · have hne : i ≠ ⟨n, h⟩ := fun e => by rw [e] at h1; exact Nat.lt_irrefl _ h1
      rw [if_pos h1, if_pos (Nat.lt_succ_of_lt h1), if_neg hne, add_zero]
    · by_cases h2 : i.val = n
      · have he : i = ⟨n, h⟩ := Fin.ext h2
        rw [if_neg h1, if_pos (by omega), if_pos he, zero_add]
      · have hne : i ≠ ⟨n, h⟩ := fun e => h2 (by rw [e])
        rw [if_neg h1, if_neg (by omega), if_neg hne, add_zero]
  rw [Finset.sum_congr rfl fun i _ => hpt i, Finset.sum_add_distrib, Finset.sum_ite_eq' Finset.univ ⟨n, h⟩ f,
    if_pos (Finset.mem_univ _)]

/-! ## Format changes and identity casts are the identity -/

theorem pay9_id (q : Cert.Attn.Blk.Idx → EReal) : k0_pay9 (F := Ideal) q = q :=
  funext fun i => idCast_apply q shapeCasts_S2048x256_S2048x256 i
theorem pay3_id (k : Cert.Attn.Blk.Idx → EReal) : k0_pay3 (F := Ideal) k = k :=
  funext fun i => idCast_apply k shapeCasts_S2048x256_S2048x256 i
theorem pay4_id (v : Cert.Attn.Blk.Idx → EReal) : k0_pay4 (F := Ideal) v = v :=
  funext fun i => idCast_apply v shapeCasts_S2048x256_S2048x256 i

/-- The zeroed denominator. -/
theorem pay10_apply (i : S2048x1.Idx) : k0_pay10 (F := Ideal) i = 0 := by
  show shapeCast S2048x1 (broadcast S2048x1 (Scalar.ofBits (F := Ideal) .f32 0x00000000#32)) shapeCasts_S2048x1_S2048x1 i = 0
  exact (idCast_apply _ shapeCasts_S2048x1_S2048x1 i).trans Ideal.ofBits_zero_f32
/-- The zeroed numerator. -/
theorem pay11_apply (i : S2048x256.Idx) : k0_pay11 (F := Ideal) i = 0 := by
  show shapeCast S2048x256 (broadcast S2048x256 (Scalar.ofBits (F := Ideal) .f32 0x00000000#32)) shapeCasts_S2048x256_S2048x256 i = 0
  exact (idCast_apply _ shapeCasts_S2048x256_S2048x256 i).trans Ideal.ofBits_zero_f32

/-- A denominator buffer's contents as a column of extended reals. -/
abbrev asL (f : LBuf Ideal) : S2048x1.Idx → EReal := f
/-- A numerator buffer's contents as a block of extended reals. -/
abbrev asA (f : ABuf Ideal) : S2048x256.Idx → EReal := f

/-! ## A chunk's rectangle, by coordinates -/

theorem rowsL_emb (o : Nat) (inb : ∀ a, (![o, 0] : Fin 2 → Nat) a + S512x1.size a ≤ S2048x1.size a)
    (x : Fin 512) (R : Fin 2048) (hR : R.val = o + x.val) :
    (rowsL o inb).emb (ix2 x (0 : Fin 1)) = ix2 R (0 : Fin 1) :=
  funext fun a => by
    match a with
    | ⟨0, _⟩ => exact Fin.ext (by rw [Rect.emb_apply]; show o + 1 * x.val = R.val; omega)
    | ⟨1, _⟩ => exact Fin.ext (by rw [Rect.emb_apply]; show 0 + 1 * 0 = 0; rfl)

theorem rowsA_emb (o : Nat) (inb : ∀ a, (![o, 0] : Fin 2 → Nat) a + S512x256.size a ≤ S2048x256.size a)
    (x : Fin 512) (d : Fin 256) (R : Fin 2048) (hR : R.val = o + x.val) :
    (rowsA o inb).emb (ix2 x d) = ix2 R d :=
  funext fun a => by
    match a with
    | ⟨0, _⟩ => exact Fin.ext (by rw [Rect.emb_apply]; show o + 1 * x.val = R.val; omega)
    | ⟨1, _⟩ => exact Fin.ext (by rw [Rect.emb_apply]; show 0 + 1 * d.val = d.val; omega)

/-! ## One chunk's store, read back -/

/-- Inside the chunk's rows: the old entry plus the row sum of the weights. -/
theorem stepL_in (o : Nat) (inb : ∀ a, (![o, 0] : Fin 2 → Nat) a + S512x1.size a ≤ S2048x1.size a)
    (p : FVec Ideal S512x2048 .f32) (fl : LBuf Ideal) (x : Fin 512) (R : Fin 2048) (hR : R.val = o + x.val) :
    asL (stepL o inb p fl) (ix2 R (0 : Fin 1)) = asL fl (ix2 R (0 : Fin 1)) + ∑ j : Fin 2048, p (ix2 x j) := by
  unfold stepL
  have hw := View.read_slice_write_emb (v := (Memref.whole cc0_scratch3).view) (Val := Elt Ideal) (rowsL o inb) fl
    (denVal p ((Memref.whole cc0_scratch3).view.readAt (Elt Ideal) (rowsL o inb).toLoadRect fl))
    (M := Finset.univ) (x := ix2 x (0 : Fin 1)) (Finset.mem_univ _)
  rw [rowsL_emb o inb x R hR] at hw
  refine hw.trans ?_
  unfold denVal
  refine (idCast_apply _ shapeCasts_S512x1_S512x1 (ix2 x (0 : Fin 1))).trans ?_
  refine (denUpdate_apply p _ reduces_S512x2048_S512 (.inl rfl) rfl shapeCasts_S512_S512x1 x).trans ?_
  refine congrArg (· + ∑ j : Fin 2048, p (ix2 x j)) ?_
  exact congrArg (asL fl) (rowsL_emb o inb x R hR)

/-- Outside them: unchanged. -/
theorem stepL_out (o : Nat) (inb : ∀ a, (![o, 0] : Fin 2 → Nat) a + S512x1.size a ≤ S2048x1.size a)
    (p : FVec Ideal S512x2048 .f32) (fl : LBuf Ideal) (R : Fin 2048) (h : R.val < o ∨ o + 512 ≤ R.val) :
    asL (stepL o inb p fl) (ix2 R (0 : Fin 1)) = asL fl (ix2 R (0 : Fin 1)) := by
  unfold stepL
  refine View.read_slice_write_of_not_mem (v := (Memref.whole cc0_scratch3).view) (Val := Elt Ideal) (rowsL o inb) fl _
    Finset.univ (y := ix2 R (0 : Fin 1)) ?_
  intro hm
  obtain ⟨x, -, hx⟩ := Finset.mem_map.mp hm
  have h0 : ((rowsL o inb).emb x 0).val = R.val := congrArg (fun i : S2048x1.Idx => (i 0).val) hx
  rw [Rect.emb_apply] at h0
  have hx0 : (x 0).val < 512 := (x 0).isLt
  have h1 : o + 1 * (x 0).val = R.val := h0
  omega

theorem stepA_in (o : Nat) (inb : ∀ a, (![o, 0] : Fin 2 → Nat) a + S512x256.size a ≤ S2048x256.size a)
    (p : FVec Ideal S512x2048 .f32) (vb : FVec Ideal S2048x256 .bf16) (fa : ABuf Ideal) (x : Fin 512) (d : Fin 256)
    (R : Fin 2048) (hR : R.val = o + x.val) :
    asA (stepA o inb p vb fa) (ix2 R d) = asA fa (ix2 R d) + ∑ j : Fin 2048, p (ix2 x j) * vb (ix2 j d) := by
  unfold stepA
  have hw := View.read_slice_write_emb (v := (Memref.whole cc0_scratch2).view) (Val := Elt Ideal) (rowsA o inb) fa
    (numVal p vb ((Memref.whole cc0_scratch2).view.readAt (Elt Ideal) (rowsA o inb).toLoadRect fa))
    (M := Finset.univ) (x := ix2 x d) (Finset.mem_univ _)
  rw [rowsA_emb o inb x d R hR] at hw
  refine hw.trans ?_
  unfold numVal
  refine (idCast_apply _ shapeCasts_S512x256_S512x256 (ix2 x d)).trans ?_
  refine (numUpdate_apply p vb _ bitsLt_bf16_f32 x d).trans ?_
  refine congrArg (· + ∑ j : Fin 2048, p (ix2 x j) * vb (ix2 j d)) ?_
  exact congrArg (asA fa) (rowsA_emb o inb x d R hR)

theorem stepA_out (o : Nat) (inb : ∀ a, (![o, 0] : Fin 2 → Nat) a + S512x256.size a ≤ S2048x256.size a)
    (p : FVec Ideal S512x2048 .f32) (vb : FVec Ideal S2048x256 .bf16) (fa : ABuf Ideal) (R : Fin 2048) (d : Fin 256)
    (h : R.val < o ∨ o + 512 ≤ R.val) :
    asA (stepA o inb p vb fa) (ix2 R d) = asA fa (ix2 R d) := by
  unfold stepA
  refine View.read_slice_write_of_not_mem (v := (Memref.whole cc0_scratch2).view) (Val := Elt Ideal) (rowsA o inb) fa _
    Finset.univ (y := ix2 R d) ?_
  intro hm
  obtain ⟨x, -, hx⟩ := Finset.mem_map.mp hm
  have h0 : ((rowsA o inb).emb x 0).val = R.val := congrArg (fun i : S2048x256.Idx => (i 0).val) hx
  rw [Rect.emb_apply] at h0
  have hx0 : (x 0).val < 512 := (x 0).isLt
  have h1 : o + 1 * (x 0).val = R.val := h0
  omega

/-! ## The weights are the specification's -/

theorem weights_at (qv kb : Cert.Attn.Blk.Idx → EReal) (k : Fin 4) (x : Fin 512) (j : Fin 2048) :
    weights (F := Ideal) qv kb k (ix2 x j) = Cert.Attn.wgt qv kb (row k x) j := by
  match k with
  | 0 => exact (weights_apply _ kb x j).trans (by simp only [slice0_apply]; rfl)
  | 1 => exact (weights_apply _ kb x j).trans (by simp only [slice1_apply]; rfl)
  | 2 => exact (weights_apply _ kb x j).trans (by simp only [slice2_apply]; rfl)
  | 3 => exact (weights_apply _ kb x j).trans (by simp only [slice3_apply]; rfl)

/-- For a row `R` of chunk `k`. -/
theorem weights_row (qv kb : Cert.Attn.Blk.Idx → EReal) (k : Fin 4) (x : Fin 512) (R : Fin 2048)
    (hR : R.val = 512 * k.val + x.val) (j : Fin 2048) :
    weights (F := Ideal) qv kb k (ix2 x j) = Cert.Attn.wgt qv kb R j := by
  rw [weights_at, show row k x = R from Fin.ext hR.symm]

/-! ## One visit -/

/-- After one visit, row `R` of the denominator has gained the visited block's weights of that row. -/
theorem accumulate_den (qv kb vb : Cert.Attn.Blk.Idx → EReal) (st : LBuf Ideal × ABuf Ideal) (R : Fin 2048) :
    asL (accumulate (F := Ideal) qv kb vb st).1 (ix2 R (0 : Fin 1))
      = asL st.1 (ix2 R (0 : Fin 1)) + Cert.Attn.denPart qv kb R := by
  have hR : R.val < 2048 := R.isLt
  show asL (stepL 1536 inb_S2048x1_S512x1_1536_0 (weights qv kb 3)
      (stepL 1024 inb_S2048x1_S512x1_1024_0 (weights qv kb 2)
        (stepL 512 inb_S2048x1_S512x1_512_0 (weights qv kb 1)
          (stepL 0 inb_S2048x1_S512x1_0_0 (weights qv kb 0) st.1)))) (ix2 R (0 : Fin 1))
    = asL st.1 (ix2 R (0 : Fin 1)) + ∑ j : Fin 2048, Cert.Attn.wgt qv kb R j
  rcases (by omega : R.val < 512 ∨ (512 ≤ R.val ∧ R.val < 1024) ∨ (1024 ≤ R.val ∧ R.val < 1536) ∨ 1536 ≤ R.val)
    with h | h | h | h
  · rw [stepL_out 1536 _ _ _ R (Or.inl (by omega)), stepL_out 1024 _ _ _ R (Or.inl (by omega)),
      stepL_out 512 _ _ _ R (Or.inl (by omega)), stepL_in 0 _ _ _ ⟨R.val, h⟩ R (by show R.val = 0 + R.val; omega)]
    exact congrArg (asL st.1 (ix2 R (0 : Fin 1)) + ·) (Finset.sum_congr rfl fun j _ =>
      weights_row qv kb 0 ⟨R.val, h⟩ R (by show R.val = 512 * 0 + R.val; omega) j)
  · rw [stepL_out 1536 _ _ _ R (Or.inl (by omega)), stepL_out 1024 _ _ _ R (Or.inl (by omega)),
      stepL_in 512 _ _ _ ⟨R.val - 512, by omega⟩ R (by show R.val = 512 + (R.val - 512); omega),
      stepL_out 0 _ _ _ R (Or.inr (by omega))]
    exact congrArg (asL st.1 (ix2 R (0 : Fin 1)) + ·) (Finset.sum_congr rfl fun j _ =>
      weights_row qv kb 1 ⟨R.val - 512, by omega⟩ R (by show R.val = 512 * 1 + (R.val - 512); omega) j)
  · rw [stepL_out 1536 _ _ _ R (Or.inl (by omega)),
      stepL_in 1024 _ _ _ ⟨R.val - 1024, by omega⟩ R (by show R.val = 1024 + (R.val - 1024); omega),
      stepL_out 512 _ _ _ R (Or.inr (by omega)), stepL_out 0 _ _ _ R (Or.inr (by omega))]
    exact congrArg (asL st.1 (ix2 R (0 : Fin 1)) + ·) (Finset.sum_congr rfl fun j _ =>
      weights_row qv kb 2 ⟨R.val - 1024, by omega⟩ R (by show R.val = 512 * 2 + (R.val - 1024); omega) j)
  · rw [stepL_in 1536 _ _ _ ⟨R.val - 1536, by omega⟩ R (by show R.val = 1536 + (R.val - 1536); omega),
      stepL_out 1024 _ _ _ R (Or.inr (by omega)), stepL_out 512 _ _ _ R (Or.inr (by omega)),
      stepL_out 0 _ _ _ R (Or.inr (by omega))]
    exact congrArg (asL st.1 (ix2 R (0 : Fin 1)) + ·) (Finset.sum_congr rfl fun j _ =>
      weights_row qv kb 3 ⟨R.val - 1536, by omega⟩ R (by show R.val = 512 * 3 + (R.val - 1536); omega) j)

/-- After one visit, entry `(R, d)` of the numerator has gained the visited block's weighted values. -/
theorem accumulate_num (qv kb vb : Cert.Attn.Blk.Idx → EReal) (st : LBuf Ideal × ABuf Ideal) (R : Fin 2048)
    (d : Fin 256) :
    asA (accumulate (F := Ideal) qv kb vb st).2 (ix2 R d) = asA st.2 (ix2 R d) + Cert.Attn.numPart qv kb vb R d := by
  have hR : R.val < 2048 := R.isLt
  show asA (stepA 1536 inb_S2048x256_S512x256_1536_0 (weights qv kb 3) vb
      (stepA 1024 inb_S2048x256_S512x256_1024_0 (weights qv kb 2) vb
        (stepA 512 inb_S2048x256_S512x256_512_0 (weights qv kb 1) vb
          (stepA 0 inb_S2048x256_S512x256_0_0 (weights qv kb 0) vb st.2)))) (ix2 R d)
    = asA st.2 (ix2 R d) + ∑ j : Fin 2048, Cert.Attn.wgt qv kb R j * vb (ix2 j d)
  rcases (by omega : R.val < 512 ∨ (512 ≤ R.val ∧ R.val < 1024) ∨ (1024 ≤ R.val ∧ R.val < 1536) ∨ 1536 ≤ R.val)
    with h | h | h | h
  · rw [stepA_out 1536 _ _ _ _ R d (Or.inl (by omega)), stepA_out 1024 _ _ _ _ R d (Or.inl (by omega)),
      stepA_out 512 _ _ _ _ R d (Or.inl (by omega)),
      stepA_in 0 _ _ _ _ ⟨R.val, h⟩ d R (by show R.val = 0 + R.val; omega)]
    exact congrArg (asA st.2 (ix2 R d) + ·) (Finset.sum_congr rfl fun j _ => by
      rw [weights_row qv kb 0 ⟨R.val, h⟩ R (by show R.val = 512 * 0 + R.val; omega) j])
  · rw [stepA_out 1536 _ _ _ _ R d (Or.inl (by omega)), stepA_out 1024 _ _ _ _ R d (Or.inl (by omega)),
      stepA_in 512 _ _ _ _ ⟨R.val - 512, by omega⟩ d R (by show R.val = 512 + (R.val - 512); omega),
      stepA_out 0 _ _ _ _ R d (Or.inr (by omega))]
    exact congrArg (asA st.2 (ix2 R d) + ·) (Finset.sum_congr rfl fun j _ => by
      rw [weights_row qv kb 1 ⟨R.val - 512, by omega⟩ R (by show R.val = 512 * 1 + (R.val - 512); omega) j])
  · rw [stepA_out 1536 _ _ _ _ R d (Or.inl (by omega)),
      stepA_in 1024 _ _ _ _ ⟨R.val - 1024, by omega⟩ d R (by show R.val = 1024 + (R.val - 1024); omega),
      stepA_out 512 _ _ _ _ R d (Or.inr (by omega)), stepA_out 0 _ _ _ _ R d (Or.inr (by omega))]
    exact congrArg (asA st.2 (ix2 R d) + ·) (Finset.sum_congr rfl fun j _ => by
      rw [weights_row qv kb 2 ⟨R.val - 1024, by omega⟩ R (by show R.val = 512 * 2 + (R.val - 1024); omega) j])
  · rw [stepA_in 1536 _ _ _ _ ⟨R.val - 1536, by omega⟩ d R (by show R.val = 1536 + (R.val - 1536); omega),
      stepA_out 1024 _ _ _ _ R d (Or.inr (by omega)), stepA_out 512 _ _ _ _ R d (Or.inr (by omega)),
      stepA_out 0 _ _ _ _ R d (Or.inr (by omega))]
    exact congrArg (asA st.2 (ix2 R d) + ·) (Finset.sum_congr rfl fun j _ => by
      rw [weights_row qv kb 3 ⟨R.val - 1536, by omega⟩ R (by show R.val = 512 * 3 + (R.val - 1536); omega) j])

/-! ## The eight visits -/

theorem visited_den (qv : Cert.Attn.Blk.Idx → EReal)
    (kv : Fin 8 → (Cert.Attn.Blk.Idx → EReal) × (Cert.Attn.Blk.Idx → EReal)) (R : Fin 2048) (n : Nat) (hn : n ≤ 8) :
    asL (visited (F := Ideal) qv kv n).1 (ix2 R (0 : Fin 1))
      = firstSum (fun i => Cert.Attn.denPart qv (kv i).1 R) n := by
  induction n with
  | zero =>
    show k0_pay10 (F := Ideal) (ix2 R (0 : Fin 1)) = _
    exact (pay10_apply _).trans (firstSum_zero _).symm
  | succ n ih =>
    have h : n < 8 := by omega
    have hs : visited (F := Ideal) qv kv (n + 1)
        = accumulate (F := Ideal) qv (kv ⟨n, h⟩).1 (kv ⟨n, h⟩).2 (visited (F := Ideal) qv kv n) :=
      visited_succ (F := Ideal) qv kv ⟨n, h⟩
    rw [hs, accumulate_den, ih (by omega), firstSum_succ _ n h]

theorem visited_num (qv : Cert.Attn.Blk.Idx → EReal)
    (kv : Fin 8 → (Cert.Attn.Blk.Idx → EReal) × (Cert.Attn.Blk.Idx → EReal)) (R : Fin 2048) (d : Fin 256) (n : Nat)
    (hn : n ≤ 8) :
    asA (visited (F := Ideal) qv kv n).2 (ix2 R d)
      = firstSum (fun i => Cert.Attn.numPart qv (kv i).1 (kv i).2 R d) n := by
  induction n with
  | zero =>
    show k0_pay11 (F := Ideal) (ix2 R d) = _
    exact (pay11_apply _).trans (firstSum_zero _).symm
  | succ n ih =>
    have h : n < 8 := by omega
    have hs : visited (F := Ideal) qv kv (n + 1)
        = accumulate (F := Ideal) qv (kv ⟨n, h⟩).1 (kv ⟨n, h⟩).2 (visited (F := Ideal) qv kv n) :=
      visited_succ (F := Ideal) qv kv ⟨n, h⟩
    rw [hs, accumulate_num, ih (by omega), firstSum_succ _ n h]

/-! ## The whole reads, and the result -/

theorem readWholeL (f : LBuf Ideal) :
    (Memref.whole cc0_scratch3).view.readAt (Elt Ideal)
      (Rect.unit (s := S2048x1) ![0, 0] S2048x1.size inb_S2048x1_S2048x1_0_0).toLoadRect f = f :=
  Memref.readAt_unit_zero (Elt Ideal) cc0_scratch3
    (funext fun a => by match a with | ⟨0, _⟩ => rfl | ⟨1, _⟩ => rfl) inb_S2048x1_S2048x1_0_0 f

theorem readWholeA (f : ABuf Ideal) :
    (Memref.whole cc0_scratch2).view.readAt (Elt Ideal)
      (Rect.unit (s := S2048x256) ![0, 0] S2048x256.size inb_S2048x256_S2048x256_0_0).toLoadRect f = f :=
  Memref.readAt_unit_zero (Elt Ideal) cc0_scratch2
    (funext fun a => by match a with | ⟨0, _⟩ => rfl | ⟨1, _⟩ => rfl) inb_S2048x256_S2048x256_0_0 f

/-- The kernel's value on device `c`, given the eight key/value blocks in the order it visits them, is the
    specification of the query block against the eight blocks. -/
theorem kerOut_eq (q : Cert.Attn.Blk.Idx → EReal) (ks vs : Fin 8 → Cert.Attn.Blk.Idx → EReal) (c : Fin 8) :
    kerOut (F := Ideal) q (fun n => (k0_pay3 (ks (visit c n)), k0_pay4 (vs (visit c n)))) = Cert.Attn.out q ks vs := by
  funext i
  obtain ⟨R, d, rfl⟩ : ∃ (R : Fin 2048) (d : Fin 256), i = ix2 R d := ⟨i 0, i 1, eq_ix2 i⟩
  unfold kerOut
  rw [readWholeA, readWholeL]
  show Ideal.div (asA (visited (F := Ideal) (k0_pay9 q) _ 8).2 (ix2 R d))
      (broadcastTo S2048x256 (asL (visited (F := Ideal) (k0_pay9 q) _ 8).1) broadcasts_S2048x1_S2048x256 (ix2 R d))
    = Ideal.div (Cert.Attn.num q ks vs R d) (Cert.Attn.den q ks R)
  rw [colBroadcast_apply, visited_den _ _ R 8 le_rfl, visited_num _ _ R d 8 le_rfl, firstSum_eight, firstSum_eight,
    pay9_id]
  simp only [pay3_id, pay4_id]
  exact congrArg₂ Ideal.div
    ((visit_bijective c).sum_comp fun s => Cert.Attn.numPart q (ks s) (vs s) R d)
    ((visit_bijective c).sum_comp fun s => Cert.Attn.denPart q (ks s) R)

end Cert.KernelIdeal.AttnKer

end

/-- info: 'Cert.KernelIdeal.AttnKer.kerOut_eq' depends on axioms: [propext, Classical.choice, Quot.sound] -/
#guard_msgs in #print axioms Cert.KernelIdeal.AttnKer.kerOut_eq
-- ==== Proof.RingOutIdeal.lean ====
/-
  The device's result block is the specification's: the visiting order named through the two rings' upstream
  neighbours (c, one to the left, one to the right, two to the left, …, four to the left) is the order
  c, c−1, c+1, c−2, c+2, c−3, c+3, c−4 modulo eight.
-/
import proofs.«900462_g7700000000000463_dist_ring_attn_i_s2048_d256_v7x_i8_f32_1_alg».proof.Proof.RingState
import proofs.«900462_g7700000000000463_dist_ring_attn_i_s2048_d256_v7x_i8_f32_1_alg».proof.Proof.RingValueIdeal

noncomputable section

namespace Cert.KernelIdeal.AttnKer

open Cert.KernelIdeal Cert.KernelIdeal.Gen Cert.KernelIdeal.RingProof Idealize.ShloMosaic Idealize.ShloMosaic.TcCoe
  Idealize.SL.Sem

/-- The device visited `n`-th by `c` is block `visit c n`. -/
theorem visitD_eq : ∀ (c : Dev nD) (n : Fin 8), visitD c n = visit c n := by decide

/-- Device `c`'s result block, over the extended reals, is the ring-attention specification of its query block
    against the eight devices' key and value blocks. -/
theorem outBlock_eq (m : Mem Ideal) (c : Dev nD) :
    Cert.KernelIdeal.RingProof.outBlock m c
      = Cert.Attn.out (m ((c : Thread nD τ).loc main_arg0))
          (fun s : Fin 8 => m ((Dev.tc (show Dev nD from s) : Thread nD τ).loc main_arg1))
          (fun s : Fin 8 => m ((Dev.tc (show Dev nD from s) : Thread nD τ).loc main_arg2)) := by
  unfold Cert.KernelIdeal.RingProof.outBlock
  have hkv : (fun n : Fin 8 => ((k0_pay3 (m ((visitD c n : Thread nD τ).loc main_arg1)) : FVec Ideal S2048x256 .bf16),
        (k0_pay4 (m ((visitD c n : Thread nD τ).loc main_arg2)) : FVec Ideal S2048x256 .bf16)))
      = fun n : Fin 8 => ((k0_pay3 (m ((Dev.tc (show Dev nD from visit c n) : Thread nD τ).loc main_arg1)) : FVec Ideal S2048x256 .bf16),
        (k0_pay4 (m ((Dev.tc (show Dev nD from visit c n) : Thread nD τ).loc main_arg2)) : FVec Ideal S2048x256 .bf16)) :=
    funext fun n => by rw [visitD_eq c n]
  rw [hkv]
  exact kerOut_eq (m ((c : Thread nD τ).loc main_arg0))
    (fun s : Fin 8 => m ((Dev.tc (show Dev nD from s) : Thread nD τ).loc main_arg1))
    (fun s : Fin 8 => m ((Dev.tc (show Dev nD from s) : Thread nD τ).loc main_arg2)) c

end Cert.KernelIdeal.AttnKer

end

/-- info: 'Cert.KernelIdeal.AttnKer.outBlock_eq' depends on axioms: [propext, Classical.choice, Quot.sound] -/
#guard_msgs in #print axioms Cert.KernelIdeal.AttnKer.outBlock_eq
-- ==== Proof.RingRun.lean ====
/-
  What the kernel's run delivers.  On the eight devices, from any memory with every semaphore at zero: every
  weakly fair interleaving of the devices' bodies terminates without a fault; each device's three argument blocks
  end unchanged; and, read over the extended reals, device `c`'s result block ends as the softmax-weighted mean
  `Cert.Attn.out` of the value rows of ALL eight blocks — the right-going ring brings it the blocks of devices
  c, c−1, c−2, c−3, c−4, the left-going ring those of c+1, c+2, c+3, and sums over blocks do not depend on the
  order in which the blocks arrive.  The word-level kernel's run is the same proof read at the word-level instance.
-/
import proofs.«900462_g7700000000000463_dist_ring_attn_i_s2048_d256_v7x_i8_f32_1_alg».proof.Defs
import proofs.«900462_g7700000000000463_dist_ring_attn_i_s2048_d256_v7x_i8_f32_1_alg».proof.Proof.AttnSpec
import proofs.«900462_g7700000000000463_dist_ring_attn_i_s2048_d256_v7x_i8_f32_1_alg».proof.Proof.Gen.Kernel
import proofs.«900462_g7700000000000463_dist_ring_attn_i_s2048_d256_v7x_i8_f32_1_alg».proof.Proof.Gen.KernelIdeal
import proofs.«900462_g7700000000000463_dist_ring_attn_i_s2048_d256_v7x_i8_f32_1_alg».proof.Proof.RingMain
import proofs.«900462_g7700000000000463_dist_ring_attn_i_s2048_d256_v7x_i8_f32_1_alg».proof.Proof.RingMainK
import proofs.«900462_g7700000000000463_dist_ring_attn_i_s2048_d256_v7x_i8_f32_1_alg».proof.Proof.RingOutIdeal

noncomputable section

namespace Cert.RingRun

open Idealize.ShloMosaic Idealize.SL.Sem

attribute [local instance] Cert.Kernel.Gen.facts Cert.KernelIdeal.Gen.facts

/-- The idealized kernel's run, with its value. -/
theorem run_value (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1)
          = Cert.Attn.out (m ((c.tc : Thread Cert.KernelIdeal.nD Cert.KernelIdeal.τ).loc Cert.KernelIdeal.main_arg0))
              (fun s : Fin 8 => m ((Dev.tc (show Dev Cert.KernelIdeal.nD from s) : Thread Cert.KernelIdeal.nD Cert.KernelIdeal.τ).loc Cert.KernelIdeal.main_arg1))
              (fun s : Fin 8 => m ((Dev.tc (show Dev Cert.KernelIdeal.nD from s) : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run (Cert.KernelIdeal.defs (F := Ideal)) _ _).mono
    (fun r h c => ⟨(h c).1.trans (Cert.KernelIdeal.AttnKer.outBlock_eq m c), (h c).2⟩)
    (Cert.KernelIdeal.RingProof.ring_value (F := Ideal) m g)

/-- The word-level kernel's run: it ends, faults nowhere, and leaves the argument blocks as they were. -/
theorem run_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)) :=
  Cert.Kernel.RingProof.ring_frame (F := Bits) m g

end Cert.RingRun

end
-- ==== Proof.lean ====
/-
  The five conjuncts.  The reference's frame is its generated run with the value dropped; the idealization rewrote
  nothing, so `preserves` is `True`.  The two kernel frames are the kernel's run with the value dropped.  For the
  algebraic conjunct: the reference ends at its composed term of the whole arrays; on finite inputs (each device's
  blocks are finite by the precondition, and every row of a whole array lies in some device's block) block `c` of
  that term is the softmax-weighted mean `Cert.Attn.out` of device `c`'s query block against all eight key and
  value blocks, which is what the kernel's run leaves in device `c`'s result block.
-/
import proofs.«900462_g7700000000000463_dist_ring_attn_i_s2048_d256_v7x_i8_f32_1_alg».proof.Defs
import proofs.«900462_g7700000000000463_dist_ring_attn_i_s2048_d256_v7x_i8_f32_1_alg».proof.Proof.Gen.Kernel
import proofs.«900462_g7700000000000463_dist_ring_attn_i_s2048_d256_v7x_i8_f32_1_alg».proof.Proof.Gen.KernelIdeal
import proofs.«900462_g7700000000000463_dist_ring_attn_i_s2048_d256_v7x_i8_f32_1_alg».proof.Proof.Gen.ReferenceIdeal
import proofs.«900462_g7700000000000463_dist_ring_attn_i_s2048_d256_v7x_i8_f32_1_alg».proof.Proof.Gen.ReferenceIdeal.Run
import proofs.«900462_g7700000000000463_dist_ring_attn_i_s2048_d256_v7x_i8_f32_1_alg».proof.Proof.Gen.ReferenceIdeal.Read
import proofs.«900462_g7700000000000463_dist_ring_attn_i_s2048_d256_v7x_i8_f32_1_alg».proof.Proof.Gen.Pre_finite_inputs_Kernel
import proofs.«900462_g7700000000000463_dist_ring_attn_i_s2048_d256_v7x_i8_f32_1_alg».proof.Proof.Gen.Pre_finite_inputs_ReferenceIdeal
import proofs.«900462_g7700000000000463_dist_ring_attn_i_s2048_d256_v7x_i8_f32_1_alg».proof.Proof.AttnSpec
import proofs.«900462_g7700000000000463_dist_ring_attn_i_s2048_d256_v7x_i8_f32_1_alg».proof.Proof.AttnRef
import proofs.«900462_g7700000000000463_dist_ring_attn_i_s2048_d256_v7x_i8_f32_1_alg».proof.Proof.AttnFinite
import proofs.«900462_g7700000000000463_dist_ring_attn_i_s2048_d256_v7x_i8_f32_1_alg».proof.Proof.RingRun

noncomputable section

namespace Cert.Proof

open Idealize.ShloMosaic Idealize.SL.Sem

attribute [local instance] Cert.Kernel.Gen.facts Cert.KernelIdeal.Gen.facts Cert.ReferenceIdeal.Gen.facts Cert.Pre_finite_inputs_Kernel.Gen.facts Cert.Pre_finite_inputs_ReferenceIdeal.Gen.facts

theorem frame_k : Cert.frame_Kernel := fun m g _ => Cert.RingRun.run_frame m g

theorem frame_ki : Cert.frame_KernelIdeal := fun m g _ =>
  (θ_run (Cert.KernelIdeal.defs (F := Ideal)) _ _).mono (fun _ h c => (h c).2) (Cert.RingRun.run_value m g)

theorem frame_ri : Cert.frame_ReferenceIdeal := fun m g _ =>
  (θ_run (Cert.ReferenceIdeal.defs (F := Ideal)) _ _).mono (fun _ h c => (h c).2) (Cert.ReferenceIdeal.Value.run (F := Ideal) m g)

theorem algebraic : Cert.algebraic_KernelIdeal_ReferenceIdeal := by
  intro m g m' g' hpre hagree
  refine ⟨Cert.AttnRef.refTerm (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run (Cert.KernelIdeal.defs (F := Ideal)) _ _).mono (fun r h c => ⟨(h c).1.trans ?_, (h c).2⟩) (Cert.RingRun.run_value m g)
    have hf := fun s => Cert.AttnRef.finite_of_pre _ _ _ (hpre s)
    have hb := Cert.AttnRef.ref_block _ _ _
      (fun s i => by have := (hf s).1 i; rwa [(hagree s).1] at this)
      (fun s i => by have := (hf s).2.1 i; rwa [(hagree s).2.1] at this)
      (fun s i => by have := (hf s).2.2 i; rwa [(hagree s).2.2] at this) c
    rw [hb, (hagree c).1]
    congr 1 <;> funext s
    · exact (hagree s).2.1
    · exact (hagree s).2.2
  · exact (θ_run (Cert.ReferenceIdeal.defs (F := Ideal)) _ _).mono
      (fun r h => ⟨(h 0).1.trans (Cert.AttnRef.run_eq m' 0), (h 0).2⟩) (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
